-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S100000x9 : Shape := ⟨2, ![100000, 9]⟩
abbrev S119x64 : Shape := ⟨2, ![119, 64]⟩
abbrev S5x64 : Shape := ⟨2, ![5, 64]⟩
abbrev S12x64 : Shape := ⟨2, ![12, 64]⟩
abbrev S10x64 : Shape := ⟨2, ![10, 64]⟩
abbrev S6x64 : Shape := ⟨2, ![6, 64]⟩
abbrev S2x64 : Shape := ⟨2, ![2, 64]⟩
abbrev S_ : Shape := ⟨0, ![]⟩

class Facts : Prop where
  bcast_S_S119x64 : S_.BroadcastsInDim S119x64 (![] : Fin 0 → Fin S119x64.rank)
  reducesTo_S119x64_S_d0_1 : S119x64.ReducesTo [0, 1] S_
  h_S_ : 0 < S_.numel
  bcast_S_S5x64 : S_.BroadcastsInDim S5x64 (![] : Fin 0 → Fin S5x64.rank)
  reducesTo_S5x64_S_d0_1 : S5x64.ReducesTo [0, 1] S_
  bcast_S_S12x64 : S_.BroadcastsInDim S12x64 (![] : Fin 0 → Fin S12x64.rank)
  reducesTo_S12x64_S_d0_1 : S12x64.ReducesTo [0, 1] S_
  bcast_S_S10x64 : S_.BroadcastsInDim S10x64 (![] : Fin 0 → Fin S10x64.rank)
  reducesTo_S10x64_S_d0_1 : S10x64.ReducesTo [0, 1] S_
  bcast_S_S6x64 : S_.BroadcastsInDim S6x64 (![] : Fin 0 → Fin S6x64.rank)
  reducesTo_S6x64_S_d0_1 : S6x64.ReducesTo [0, 1] S_
  bcast_S_S2x64 : S_.BroadcastsInDim S2x64 (![] : Fin 0 → Fin S2x64.rank)
  reducesTo_S2x64_S_d0_1 : S2x64.ReducesTo [0, 1] S_
  bcast_S_S100000x9 : S_.BroadcastsInDim S100000x9 (![] : Fin 0 → Fin S100000x9.rank)
  reducesTo_S100000x9_S_d0_1 : S100000x9.ReducesTo [0, 1] S_

variable [Facts]

def fn_part2 {F : FTy → Type} [FloatOps F] (main_arg0 : IVec S100000x9 32) (main_arg8 : FVec F S2x64 .f32) (main_arg9 : FVec F S2x64 .f32) (main_v33 : IVec S_ 1) : IVec S_ 1 :=
  let main_v34 : FVec F S2x64 .f32 := Host.absf main_arg8
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64 .f32 := Host.absf main_arg9
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_c_16 : IVec S_ 32 := constantI S_ 32 0#32
  let main_v44 : IVec S100000x9 32 := broadcastInDim S100000x9 ![] bcast_S_S100000x9 main_c_16
  let main_v45 : IVec S100000x9 1 := cmpi .sge main_arg0 main_v44
  let main_c_17 : IVec S_ 32 := constantI S_ 32 1#32
  let main_v46 : IVec S100000x9 32 := broadcastInDim S100000x9 ![] bcast_S_S100000x9 main_c_17
  let main_v47 : IVec S100000x9 1 := cmpi .sle main_arg0 main_v46
  let main_v48 : IVec S100000x9 1 := andi main_v45 main_v47
  let main_c_18 : IVec S_ 1 := constantI S_ 1 1#1
  let main_v49 : IVec S_ 1 := (fun x v => Host.reduce IntOp.andi x v reducesTo_S100000x9_S_d0_1 h_S_) main_v48 main_c_18
  let main_v50 : IVec S_ 1 := andi main_v43 main_v49
  main_v50

def fn_part1 {F : FTy → Type} [FloatOps F] (main_arg0 : IVec S100000x9 32) (main_arg5 : FVec F S10x64 .f32) (main_arg6 : FVec F S6x64 .f32) (main_arg7 : FVec F S6x64 .f32) (main_arg8 : FVec F S2x64 .f32) (main_arg9 : FVec F S2x64 .f32) (main_v13 : IVec S_ 1) (main_v16 : IVec S12x64 1) : IVec S_ 1 :=
  let main_c_5 : IVec S_ 1 := constantI S_ 1 1#1
  let main_v17 : IVec S_ 1 := (fun x v => Host.reduce IntOp.andi x v reducesTo_S12x64_S_d0_1 h_S_) main_v16 main_c_5
  let main_v18 : IVec S_ 1 := andi main_v13 main_v17
  let main_v19 : FVec F S10x64 .f32 := Host.absf main_arg5
  let main_cst_6 : FVec F S_ .f32 := constant S_ .f32 0x7F800000#32
  let main_v20 : FVec F S10x64 .f32 := broadcastInDim S10x64 ![] bcast_S_S10x64 main_cst_6
  let main_v21 : IVec S10x64 1 := cmpf .olt main_v19 main_v20
  let main_c_7 : IVec S_ 1 := constantI S_ 1 1#1
  let main_v22 : IVec S_ 1 := (fun x v => Host.reduce IntOp.andi x v reducesTo_S10x64_S_d0_1 h_S_) main_v21 main_c_7
  let main_v23 : IVec S_ 1 := andi main_v18 main_v22
  let main_v24 : FVec F S6x64 .f32 := Host.absf main_arg6
  let main_cst_8 : FVec F S_ .f32 := constant S_ .f32 0x7F800000#32
  let main_v25 : FVec F S6x64 .f32 := broadcastInDim S6x64 ![] bcast_S_S6x64 main_cst_8
  let main_v26 : IVec S6x64 1 := cmpf .olt main_v24 main_v25
  let main_c_9 : IVec S_ 1 := constantI S_ 1 1#1
  let main_v27 : IVec S_ 1 := (fun x v => Host.reduce IntOp.andi x v reducesTo_S6x64_S_d0_1 h_S_) main_v26 main_c_9
  let main_v28 : IVec S_ 1 := andi main_v23 main_v27
  let main_v29 : FVec F S6x64 .f32 := Host.absf main_arg7
  let main_cst_10 : FVec F S_ .f32 := constant S_ .f32 0x7F800000#32
  let main_v30 : FVec F S6x64 .f32 := broadcastInDim S6x64 ![] bcast_S_S6x64 main_cst_10
  let main_v31 : IVec S6x64 1 := cmpf .olt main_v29 main_v30
  let main_c_11 : IVec S_ 1 := constantI S_ 1 1#1
  let main_v32 : IVec S_ 1 := (fun x v => Host.reduce IntOp.andi x v reducesTo_S6x64_S_d0_1 h_S_) main_v31 main_c_11
  let main_v33 : IVec S_ 1 := andi main_v28 main_v32
  fn_part2 (F := F) main_arg0 main_arg8 main_arg9 main_v33

def fn {F : FTy → Type} [FloatOps F] (main_arg0 : IVec S100000x9 32) (main_arg1 : FVec F S119x64 .f32) (main_arg2 : FVec F S5x64 .f32) (main_arg3 : FVec F S12x64 .f32) (main_arg4 : FVec F S12x64 .f32) (main_arg5 : FVec F S10x64 .f32) (main_arg6 : FVec F S6x64 .f32) (main_arg7 : FVec F S6x64 .f32) (main_arg8 : FVec F S2x64 .f32) (main_arg9 : FVec F S2x64 .f32) : IVec S_ 1 :=
  let main_v0 : FVec F S119x64 .f32 := Host.absf main_arg1
  let main_cst : FVec F S_ .f32 := constant S_ .f32 0x7F800000#32
  let main_v1 : FVec F S119x64 .f32 := broadcastInDim S119x64 ![] bcast_S_S119x64 main_cst
  let main_v2 : IVec S119x64 1 := cmpf .olt main_v0 main_v1
  let main_c : IVec S_ 1 := constantI S_ 1 1#1
  let main_v3 : IVec S_ 1 := (fun x v => Host.reduce IntOp.andi x v reducesTo_S119x64_S_d0_1 h_S_) main_v2 main_c
  let main_v4 : FVec F S5x64 .f32 := Host.absf main_arg2
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S12x64 .f32 := Host.absf main_arg3
  let main_cst_2 : FVec F S_ .f32 := constant S_ .f32 0x7F800000#32
  let main_v10 : FVec F S12x64 .f32 := broadcastInDim S12x64 ![] bcast_S_S12x64 main_cst_2
  let main_v11 : IVec S12x64 1 := cmpf .olt main_v9 main_v10
  let main_c_3 : IVec S_ 1 := constantI S_ 1 1#1
  let main_v12 : IVec S_ 1 := (fun x v => Host.reduce IntOp.andi x v reducesTo_S12x64_S_d0_1 h_S_) main_v11 main_c_3
  let main_v13 : IVec S_ 1 := andi main_v8 main_v12
  let main_v14 : FVec F S12x64 .f32 := Host.absf main_arg4
  let main_cst_4 : FVec F S_ .f32 := constant S_ .f32 0x7F800000#32
  let main_v15 : FVec F S12x64 .f32 := broadcastInDim S12x64 ![] bcast_S_S12x64 main_cst_4
  let main_v16 : IVec S12x64 1 := cmpf .olt main_v14 main_v15
  fn_part1 (F := F) main_arg0 main_arg5 main_arg6 main_arg7 main_arg8 main_arg9 main_v13 main_v16
-- ==== Kernel.lean ====
abbrev S100000x9 : Shape := ⟨2, ![100000, 9]⟩
abbrev S119x64 : Shape := ⟨2, ![119, 64]⟩
abbrev S5x64 : Shape := ⟨2, ![5, 64]⟩
abbrev S12x64 : Shape := ⟨2, ![12, 64]⟩
abbrev S10x64 : Shape := ⟨2, ![10, 64]⟩
abbrev S6x64 : Shape := ⟨2, ![6, 64]⟩
abbrev S2x64 : Shape := ⟨2, ![2, 64]⟩
abbrev S18x64 : Shape := ⟨2, ![18, 64]⟩
abbrev S1152 : Shape := ⟨1, ![1152]⟩
abbrev S9 : Shape := ⟨1, ![9]⟩
abbrev S_ : Shape := ⟨0, ![]⟩
abbrev S1x9 : Shape := ⟨2, ![1, 9]⟩
abbrev S100000 : Shape := ⟨1, ![100000]⟩
abbrev S100000x64 : Shape := ⟨2, ![100000, 64]⟩
abbrev S160 : Shape := ⟨1, ![160]⟩
abbrev S32768 : Shape := ⟨1, ![32768]⟩
abbrev S160x64 : Shape := ⟨2, ![160, 64]⟩
abbrev S16 : Shape := ⟨1, ![16]⟩
abbrev S1 : Shape := ⟨1, ![1]⟩
abbrev S1x16 : Shape := ⟨2, ![1, 16]⟩

abbrev nBuf : Table → Nat
  | .hbm => 29
  | .local .scVector .vmem => 6
  | _ => 0

abbrev bufTy : (tb : Table) → Fin (nBuf tb) → BufTy
  | .hbm, ⟨0, _⟩ => ⟨S100000x9, .i32⟩
  | .hbm, ⟨1, _⟩ => ⟨S119x64, .f32⟩
  | .hbm, ⟨2, _⟩ => ⟨S5x64, .f32⟩
  | .hbm, ⟨3, _⟩ => ⟨S12x64, .f32⟩
  | .hbm, ⟨4, _⟩ => ⟨S12x64, .f32⟩
  | .hbm, ⟨5, _⟩ => ⟨S10x64, .f32⟩
  | .hbm, ⟨6, _⟩ => ⟨S6x64, .f32⟩
  | .hbm, ⟨7, _⟩ => ⟨S6x64, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S2x64, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S2x64, .f32⟩
  | .hbm, ⟨16, _⟩ => ⟨S2x64, .f32⟩
  | .hbm, ⟨17, _⟩ => ⟨S18x64, .f32⟩
  | .hbm, ⟨18, _⟩ => ⟨S1152, .f32⟩
  | .hbm, ⟨19, _⟩ => ⟨S9, .i32⟩
  | .hbm, ⟨20, _⟩ => ⟨S_, .i32⟩
  | .hbm, ⟨21, _⟩ => ⟨S9, .i32⟩
  | .hbm, ⟨22, _⟩ => ⟨S9, .i32⟩
  | .hbm, ⟨23, _⟩ => ⟨S1x9, .i32⟩
  | .hbm, ⟨24, _⟩ => ⟨S100000x9, .i32⟩
  | .hbm, ⟨25, _⟩ => ⟨S100000x9, .i32⟩
  | .hbm, ⟨26, _⟩ => ⟨S_, .i32⟩
  | .hbm, ⟨27, _⟩ => ⟨S100000, .i32⟩
  | .hbm, ⟨28, _⟩ => ⟨S100000x64, .f32⟩
  | .local .scVector .vmem, ⟨0, _⟩ => ⟨S160, .i32⟩
  | .local .scVector .vmem, ⟨1, _⟩ => ⟨S160, .i32⟩
  | .local .scVector .vmem, ⟨2, _⟩ => ⟨S1152, .f32⟩
  | .local .scVector .vmem, ⟨3, _⟩ => ⟨S32768, .f32⟩
  | .local .scVector .vmem, ⟨4, _⟩ => ⟨S160x64, .f32⟩
  | .local .scVector .vmem, ⟨5, _⟩ => ⟨S160x64, .f32⟩
  | _, _ => ⟨S100000x9, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_0 : Ref sig .tc := ⟨.hbm, 26, rfl⟩
abbrev main_v15 : Ref sig .tc := ⟨.hbm, 27, rfl⟩
abbrev main_v16 : Ref sig .tc := ⟨.hbm, 28, rfl⟩
abbrev main_v15_scv : Ref sig .scVector := ⟨.hbm, 27, rfl⟩
abbrev main_v8_scv : Ref sig .scVector := ⟨.hbm, 18, rfl⟩
abbrev main_v16_scv : Ref sig .scVector := ⟨.hbm, 28, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_5 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v21 : BitVec 32 := Scalar.addi v1 c0_i32_5
  let c160_i32 : BitVec 32 := 160#32
  let v22 : BitVec 32 := Scalar.muli v21 c160_i32
  ![v22.toNat]
def k0_off2 (c0_i32_18 : BitVec 32) : Fin 1 → Nat :=
  let c0_i32_17 : BitVec 32 := 0#32
  let c64_i32 : BitVec 32 := 64#32
  let v113 : BitVec 32 := Scalar.muli c0_i32_17 c64_i32
  let v114 : BitVec 32 := Scalar.addi v113 c0_i32_18
  let v115 : Index := Scalar.indexCast v114
  ![v115.toNat]
def k0_off3 (c0_i32_21 : BitVec 32) : Fin 1 → Nat :=
  let c1_i32_19 : BitVec 32 := 1#32
  let c0_i32_17 : BitVec 32 := 0#32
  let v118 : BitVec 32 := Scalar.addi c1_i32_19 c0_i32_17
  let c64_i32_20 : BitVec 32 := 64#32
  let v119 : BitVec 32 := Scalar.muli v118 c64_i32_20
  let v120 : BitVec 32 := Scalar.addi v119 c0_i32_21
  let v121 : Index := Scalar.indexCast v120
  ![v121.toNat]
@[reducible] def k0_t1_loop : Scf.Loop 32 :=
  let c0_i32_42 : BitVec 32 := 0#32
  let c2_i32_43 : BitVec 32 := 2#32
  let v165 : BitVec 32 := Scalar.addi c0_i32_42 c2_i32_43
  let c1_i32_44 : BitVec 32 := 1#32
  ⟨c0_i32_42, v165, c1_i32_44⟩
def k0_off4 (k0_t1 : Fin k0_t1_loop.trips) (c0_i32_118 : BitVec 32) : Fin 1 → Nat :=
  let c0_i32_42 : BitVec 32 := 0#32
  let c1_i32_44 : BitVec 32 := 1#32
  let arg15 : BitVec 32 := Scf.iv c0_i32_42 c1_i32_44 k0_t1
  let c64_i32_117 : BitVec 32 := 64#32
  let v276 : BitVec 32 := Scalar.muli arg15 c64_i32_117
  let v277 : BitVec 32 := Scalar.addi v276 c0_i32_118
  let v278 : Index := Scalar.indexCast v277
  ![v278.toNat]
def k0_off5 (k0_t1 : Fin k0_t1_loop.trips) (c0_i32_121 : BitVec 32) : Fin 1 → Nat :=
  let c2_i32_119 : BitVec 32 := 2#32
  let c0_i32_42 : BitVec 32 := 0#32
  let c1_i32_44 : BitVec 32 := 1#32
  let arg15 : BitVec 32 := Scf.iv c0_i32_42 c1_i32_44 k0_t1
  let v281 : BitVec 32 := Scalar.addi c2_i32_119 arg15
  let c64_i32_120 : BitVec 32 := 64#32
  let v282 : BitVec 32 := Scalar.muli v281 c64_i32_120
  let v283 : BitVec 32 := Scalar.addi v282 c0_i32_121
  let v284 : Index := Scalar.indexCast v283
  ![v284.toNat]
@[reducible] def k0_t2_loop : Scf.Loop 32 :=
  let c0_i32_51 : BitVec 32 := 0#32
  let c4_i32 : BitVec 32 := 4#32
  let v179 : BitVec 32 := Scalar.addi c0_i32_51 c4_i32
  let c1_i32_52 : BitVec 32 := 1#32
  ⟨c0_i32_51, v179, c1_i32_52⟩
def k0_off6 (k0_t2 : Fin k0_t2_loop.trips) (c0_i32_118 : BitVec 32) : Fin 1 → Nat :=
  let c0_i32_51 : BitVec 32 := 0#32
  let c1_i32_52 : BitVec 32 := 1#32
  let arg15 : BitVec 32 := Scf.iv c0_i32_51 c1_i32_52 k0_t2
  let c64_i32_117 : BitVec 32 := 64#32
  let v276 : BitVec 32 := Scalar.muli arg15 c64_i32_117
  let v277 : BitVec 32 := Scalar.addi v276 c0_i32_118
  let v278 : Index := Scalar.indexCast v277
  ![v278.toNat]
def k0_off7 (k0_t2 : Fin k0_t2_loop.trips) (c0_i32_121 : BitVec 32) : Fin 1 → Nat :=
  let c4_i32_119 : BitVec 32 := 4#32
  let c0_i32_51 : BitVec 32 := 0#32
  let c1_i32_52 : BitVec 32 := 1#32
  let arg15 : BitVec 32 := Scf.iv c0_i32_51 c1_i32_52 k0_t2
  let v281 : BitVec 32 := Scalar.addi c4_i32_119 arg15
  let c64_i32_120 : BitVec 32 := 64#32
  let v282 : BitVec 32 := Scalar.muli v281 c64_i32_120
  let v283 : BitVec 32 := Scalar.addi v282 c0_i32_121
  let v284 : Index := Scalar.indexCast v283
  ![v284.toNat]
@[reducible] def k0_t3_loop : Scf.Loop 32 :=
  let c0_i32_59 : BitVec 32 := 0#32
  let c8_i32 : BitVec 32 := 8#32
  let v193 : BitVec 32 := Scalar.addi c0_i32_59 c8_i32
  let c1_i32_60 : BitVec 32 := 1#32
  ⟨c0_i32_59, v193, c1_i32_60⟩
def k0_off8 (k0_t3 : Fin k0_t3_loop.trips) (c0_i32_118 : BitVec 32) : Fin 1 → Nat :=
  let c0_i32_59 : BitVec 32 := 0#32
  let c1_i32_60 : BitVec 32 := 1#32
  let arg15 : BitVec 32 := Scf.iv c0_i32_59 c1_i32_60 k0_t3
  let c64_i32_117 : BitVec 32 := 64#32
  let v276 : BitVec 32 := Scalar.muli arg15 c64_i32_117
  let v277 : BitVec 32 := Scalar.addi v276 c0_i32_118
  let v278 : Index := Scalar.indexCast v277
  ![v278.toNat]
def k0_off9 (k0_t3 : Fin k0_t3_loop.trips) (c0_i32_121 : BitVec 32) : Fin 1 → Nat :=
  let c8_i32_119 : BitVec 32 := 8#32
  let c0_i32_59 : BitVec 32 := 0#32
  let c1_i32_60 : BitVec 32 := 1#32
  let arg15 : BitVec 32 := Scf.iv c0_i32_59 c1_i32_60 k0_t3
  let v281 : BitVec 32 := Scalar.addi c8_i32_119 arg15
  let c64_i32_120 : BitVec 32 := 64#32
  let v282 : BitVec 32 := Scalar.muli v281 c64_i32_120
  let v283 : BitVec 32 := Scalar.addi v282 c0_i32_121
  let v284 : Index := Scalar.indexCast v283
  ![v284.toNat]
@[reducible] def k0_t4_loop : Scf.Loop 32 :=
  let c0_i32_67 : BitVec 32 := 0#32
  let c16_i32_68 : BitVec 32 := 16#32
  let v207 : BitVec 32 := Scalar.addi c0_i32_67 c16_i32_68
  let c1_i32_69 : BitVec 32 := 1#32
  ⟨c0_i32_67, v207, c1_i32_69⟩
def k0_off10 (k0_t4 : Fin k0_t4_loop.trips) (c0_i32_118 : BitVec 32) : Fin 1 → Nat :=
  let c0_i32_67 : BitVec 32 := 0#32
  let c1_i32_69 : BitVec 32 := 1#32
  let arg15 : BitVec 32 := Scf.iv c0_i32_67 c1_i32_69 k0_t4
  let c64_i32_117 : BitVec 32 := 64#32
  let v276 : BitVec 32 := Scalar.muli arg15 c64_i32_117
  let v277 : BitVec 32 := Scalar.addi v276 c0_i32_118
  let v278 : Index := Scalar.indexCast v277
  ![v278.toNat]
def k0_off11 (k0_t4 : Fin k0_t4_loop.trips) (c0_i32_121 : BitVec 32) : Fin 1 → Nat :=
  let c16_i32_119 : BitVec 32 := 16#32
  let c0_i32_67 : BitVec 32 := 0#32
  let c1_i32_69 : BitVec 32 := 1#32
  let arg15 : BitVec 32 := Scf.iv c0_i32_67 c1_i32_69 k0_t4
  let v281 : BitVec 32 := Scalar.addi c16_i32_119 arg15
  let c64_i32_120 : BitVec 32 := 64#32
  let v282 : BitVec 32 := Scalar.muli v281 c64_i32_120
  let v283 : BitVec 32 := Scalar.addi v282 c0_i32_121
  let v284 : Index := Scalar.indexCast v283
  ![v284.toNat]
@[reducible] def k0_t5_loop : Scf.Loop 32 :=
  let c0_i32_76 : BitVec 32 := 0#32
  let c32_i32_77 : BitVec 32 := 32#32
  let v221 : BitVec 32 := Scalar.addi c0_i32_76 c32_i32_77
  let c1_i32_78 : BitVec 32 := 1#32
  ⟨c0_i32_76, v221, c1_i32_78⟩
def k0_off12 (k0_t5 : Fin k0_t5_loop.trips) (c0_i32_118 : BitVec 32) : Fin 1 → Nat :=
  let c0_i32_76 : BitVec 32 := 0#32
  let c1_i32_78 : BitVec 32 := 1#32
  let arg15 : BitVec 32 := Scf.iv c0_i32_76 c1_i32_78 k0_t5
  let c64_i32_117 : BitVec 32 := 64#32
  let v276 : BitVec 32 := Scalar.muli arg15 c64_i32_117
  let v277 : BitVec 32 := Scalar.addi v276 c0_i32_118
  let v278 : Index := Scalar.indexCast v277
  ![v278.toNat]
def k0_off13 (k0_t5 : Fin k0_t5_loop.trips) (c0_i32_121 : BitVec 32) : Fin 1 → Nat :=
  let c32_i32_119 : BitVec 32 := 32#32
  let c0_i32_76 : BitVec 32 := 0#32
  let c1_i32_78 : BitVec 32 := 1#32
  let arg15 : BitVec 32 := Scf.iv c0_i32_76 c1_i32_78 k0_t5
  let v281 : BitVec 32 := Scalar.addi c32_i32_119 arg15
  let c64_i32_120 : BitVec 32 := 64#32
  let v282 : BitVec 32 := Scalar.muli v281 c64_i32_120
  let v283 : BitVec 32 := Scalar.addi v282 c0_i32_121
  let v284 : Index := Scalar.indexCast v283
  ![v284.toNat]
@[reducible] def k0_t6_loop : Scf.Loop 32 :=
  let c0_i32_85 : BitVec 32 := 0#32
  let c64_i32_86 : BitVec 32 := 64#32
  let v235 : BitVec 32 := Scalar.addi c0_i32_85 c64_i32_86
  let c1_i32_87 : BitVec 32 := 1#32
  ⟨c0_i32_85, v235, c1_i32_87⟩
def k0_off14 (k0_t6 : Fin k0_t6_loop.trips) (c0_i32_118 : BitVec 32) : Fin 1 → Nat :=
  let c0_i32_85 : BitVec 32 := 0#32
  let c1_i32_87 : BitVec 32 := 1#32
  let arg15 : BitVec 32 := Scf.iv c0_i32_85 c1_i32_87 k0_t6
  let c64_i32_117 : BitVec 32 := 64#32
  let v276 : BitVec 32 := Scalar.muli arg15 c64_i32_117
  let v277 : BitVec 32 := Scalar.addi v276 c0_i32_118
  let v278 : Index := Scalar.indexCast v277
  ![v278.toNat]
def k0_off15 (k0_t6 : Fin k0_t6_loop.trips) (c0_i32_121 : BitVec 32) : Fin 1 → Nat :=
  let c64_i32_119 : BitVec 32 := 64#32
  let c0_i32_85 : BitVec 32 := 0#32
  let c1_i32_87 : BitVec 32 := 1#32
  let arg15 : BitVec 32 := Scf.iv c0_i32_85 c1_i32_87 k0_t6
  let v281 : BitVec 32 := Scalar.addi c64_i32_119 arg15
  let c64_i32_120 : BitVec 32 := 64#32
  let v282 : BitVec 32 := Scalar.muli v281 c64_i32_120
  let v283 : BitVec 32 := Scalar.addi v282 c0_i32_121
  let v284 : Index := Scalar.indexCast v283
  ![v284.toNat]
@[reducible] def k0_t7_loop : Scf.Loop 32 :=
  let c0_i32_94 : BitVec 32 := 0#32
  let c128_i32 : BitVec 32 := 128#32
  let v249 : BitVec 32 := Scalar.addi c0_i32_94 c128_i32
  let c1_i32_95 : BitVec 32 := 1#32
  ⟨c0_i32_94, v249, c1_i32_95⟩
def k0_off16 (k0_t7 : Fin k0_t7_loop.trips) (c0_i32_118 : BitVec 32) : Fin 1 → Nat :=
  let c0_i32_94 : BitVec 32 := 0#32
  let c1_i32_95 : BitVec 32 := 1#32
  let arg15 : BitVec 32 := Scf.iv c0_i32_94 c1_i32_95 k0_t7
  let c64_i32_117 : BitVec 32 := 64#32
  let v276 : BitVec 32 := Scalar.muli arg15 c64_i32_117
  let v277 : BitVec 32 := Scalar.addi v276 c0_i32_118
  let v278 : Index := Scalar.indexCast v277
  ![v278.toNat]
def k0_off17 (k0_t7 : Fin k0_t7_loop.trips) (c0_i32_121 : BitVec 32) : Fin 1 → Nat :=
  let c128_i32_119 : BitVec 32 := 128#32
  let c0_i32_94 : BitVec 32 := 0#32
  let c1_i32_95 : BitVec 32 := 1#32
  let arg15 : BitVec 32 := Scf.iv c0_i32_94 c1_i32_95 k0_t7
  let v281 : BitVec 32 := Scalar.addi c128_i32_119 arg15
  let c64_i32_120 : BitVec 32 := 64#32
  let v282 : BitVec 32 := Scalar.muli v281 c64_i32_120
  let v283 : BitVec 32 := Scalar.addi v282 c0_i32_121
  let v284 : Index := Scalar.indexCast v283
  ![v284.toNat]
@[reducible] def k0_t8_loop : Scf.Loop 32 :=
  let c0_i32_102 : BitVec 32 := 0#32
  let c256_i32 : BitVec 32 := 256#32
  let v263 : BitVec 32 := Scalar.addi c0_i32_102 c256_i32
  let c1_i32_103 : BitVec 32 := 1#32
  ⟨c0_i32_102, v263, c1_i32_103⟩
def k0_off18 (k0_t8 : Fin k0_t8_loop.trips) (c0_i32_118 : BitVec 32) : Fin 1 → Nat :=
  let c0_i32_102 : BitVec 32 := 0#32
  let c1_i32_103 : BitVec 32 := 1#32
  let arg15 : BitVec 32 := Scf.iv c0_i32_102 c1_i32_103 k0_t8
  let c64_i32_117 : BitVec 32 := 64#32
  let v276 : BitVec 32 := Scalar.muli arg15 c64_i32_117
  let v277 : BitVec 32 := Scalar.addi v276 c0_i32_118
  let v278 : Index := Scalar.indexCast v277
  ![v278.toNat]
def k0_off19 (k0_t8 : Fin k0_t8_loop.trips) (c0_i32_121 : BitVec 32) : Fin 1 → Nat :=
  let c256_i32_119 : BitVec 32 := 256#32
  let c0_i32_102 : BitVec 32 := 0#32
  let c1_i32_103 : BitVec 32 := 1#32
  let arg15 : BitVec 32 := Scf.iv c0_i32_102 c1_i32_103 k0_t8
  let v281 : BitVec 32 := Scalar.addi c256_i32_119 arg15
  let c64_i32_120 : BitVec 32 := 64#32
  let v282 : BitVec 32 := Scalar.muli v281 c64_i32_120
  let v283 : BitVec 32 := Scalar.addi v282 c0_i32_121
  let v284 : Index := Scalar.indexCast v283
  ![v284.toNat]
@[reducible] def k0_t9_loop : Scf.Loop 32 :=
  let c0_i32_106 : BitVec 32 := 0#32
  let c10_i32 : BitVec 32 := 10#32
  let v266 : BitVec 32 := Scalar.addi c0_i32_106 c10_i32
  let c1_i32_107 : BitVec 32 := 1#32
  ⟨c0_i32_106, v266, c1_i32_107⟩
def k0_cond1 (i : grid0.Coords) (k0_t9 : Fin k0_t9_loop.trips) : BitVec 1 :=
  let c0_i32_106 : BitVec 32 := 0#32
  let c1_i32_107 : BitVec 32 := 1#32
  let arg15 : BitVec 32 := Scf.iv c0_i32_106 c1_i32_107 k0_t9
  let c2_i32_117 : BitVec 32 := 2#32
  let v276 : BitVec 32 := Scalar.muli arg15 c2_i32_117
  let c0_i32_118 : BitVec 32 := 0#32
  let v277 : BitVec 32 := Scalar.addi v276 c0_i32_118
  let c624_i32 : BitVec 32 := 624#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c624_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v278 : BitVec 1 := Scalar.cmpi .slt v277 v20
  let v279 : BitVec 32 := Scalar.extui v278
  let c0_i32_119 : BitVec 32 := 0#32
  let v280 : BitVec 1 := Scalar.cmpi .ne v279 c0_i32_119
  v280

def k0_off20 (i : grid0.Coords) (k0_t9 : Fin k0_t9_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_106 : BitVec 32 := 0#32
  let c1_i32_107 : BitVec 32 := 1#32
  let arg15 : BitVec 32 := Scf.iv c0_i32_106 c1_i32_107 k0_t9
  let c2_i32_117 : BitVec 32 := 2#32
  let v276 : BitVec 32 := Scalar.muli arg15 c2_i32_117
  let c0_i32_118 : BitVec 32 := 0#32
  let v277 : BitVec 32 := Scalar.addi v276 c0_i32_118
  let c32_i32_124 : BitVec 32 := 32#32
  let v286 : BitVec 32 := Scalar.muli v277 c32_i32_124
  let v287 : BitVec 32 := Scalar.addi v1 v286
  let c160_i32_125 : BitVec 32 := 160#32
  let v288 : BitVec 32 := Scalar.muli v287 c160_i32_125
  ![v288.toNat]
def k0_cond2 (k0_t9 : Fin k0_t9_loop.trips) : BitVec 1 :=
  let c0_i32_106 : BitVec 32 := 0#32
  let c1_i32_107 : BitVec 32 := 1#32
  let arg15 : BitVec 32 := Scf.iv c0_i32_106 c1_i32_107 k0_t9
  let c2_i32_117 : BitVec 32 := 2#32
  let v276 : BitVec 32 := Scalar.muli arg15 c2_i32_117
  let c0_i32_118 : BitVec 32 := 0#32
  let v277 : BitVec 32 := Scalar.addi v276 c0_i32_118
  let c2_i32_126 : BitVec 32 := 2#32
  let v291 : BitVec 1 := Scalar.cmpi .sge v277 c2_i32_126
  let v292 : BitVec 32 := Scalar.extui v291
  let c0_i32_127 : BitVec 32 := 0#32
  let v293 : BitVec 1 := Scalar.cmpi .ne v292 c0_i32_127
  v293

def k0_off21 (i : grid0.Coords) (k0_t9 : Fin k0_t9_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_106 : BitVec 32 := 0#32
  let c1_i32_107 : BitVec 32 := 1#32
  let arg15 : BitVec 32 := Scf.iv c0_i32_106 c1_i32_107 k0_t9
  let c2_i32_117 : BitVec 32 := 2#32
  let v276 : BitVec 32 := Scalar.muli arg15 c2_i32_117
  let c0_i32_118 : BitVec 32 := 0#32
  let v277 : BitVec 32 := Scalar.addi v276 c0_i32_118
  let c2_i32_139 : BitVec 32 := 2#32
  let v305 : BitVec 32 := Scalar.subi v277 c2_i32_139
  let c32_i32_140 : BitVec 32 := 32#32
  let v306 : BitVec 32 := Scalar.muli v305 c32_i32_140
  let v307 : BitVec 32 := Scalar.addi v1 v306
  let c160_i32_141 : BitVec 32 := 160#32
  let v308 : BitVec 32 := Scalar.muli v307 c160_i32_141
  let c0_i32_142 : BitVec 32 := 0#32
  ![v308.toNat, 0]
@[reducible] def k0_t10_loop : Scf.Loop 32 :=
  let c0_i32_129 : BitVec 32 := 0#32
  let c10_i32_130 : BitVec 32 := 10#32
  let v294 : BitVec 32 := Scalar.addi c0_i32_129 c10_i32_130
  let c1_i32_131 : BitVec 32 := 1#32
  ⟨c0_i32_129, v294, c1_i32_131⟩
def k0_off22 (k0_t10 : Fin k0_t10_loop.trips) : Fin 1 → Nat :=
  let c0_i32_129 : BitVec 32 := 0#32
  let c1_i32_131 : BitVec 32 := 1#32
  let arg17 : BitVec 32 := Scf.iv c0_i32_129 c1_i32_131 k0_t10
  let c16_i32_139 : BitVec 32 := 16#32
  let v305 : BitVec 32 := Scalar.muli arg17 c16_i32_139
  let v306 : Index := Scalar.indexCast v305
  ![v306.toNat]
def k0_off23 (v311 : BitVec 32) (c0_i32_141 : BitVec 32) : Fin 1 → Nat :=
  let v312 : BitVec 32 := Scalar.addi v311 c0_i32_141
  let v313 : Index := Scalar.indexCast v312
  ![v313.toNat]

def k0_chk1 (i : grid0.Coords) (k0_t9 : Fin k0_t9_loop.trips) (v311 : BitVec 32) : Prop :=
  (∀ (k0_h1 : k0_cond1 i k0_t9 = 1#1), ∀ (r : Fin 4), ∀ a, (k0_off23 v311 (BitVec.ofNat 32 (16 * r.val))) a + S16.size a ≤ S32768.size a)
instance k0_chk1.dec : ∀ (i : grid0.Coords) (k0_t9 : Fin k0_t9_loop.trips) (v311 : BitVec 32), Decidable (k0_chk1 i k0_t9 v311) := fun i k0_t9 v311 => decidable_of_iff' _ (Iff.of_eq (k0_chk1.eq_1 i k0_t9 v311))
theorem k0_off23_inb : ∀ (i : grid0.Coords) (k0_t9 : Fin k0_t9_loop.trips) (v311 : BitVec 32) (k0_hw1 : k0_chk1 i k0_t9 v311), ∀ (k0_h1 : k0_cond1 i k0_t9 = 1#1), ∀ (r : Fin 4), ∀ a, (k0_off23 v311 (BitVec.ofNat 32 (16 * r.val))) a + S16.size a ≤ S32768.size a := fun i k0_t9 v311 k0_hw1 k0_h1 r => k0_hw1 k0_h1 r

def k0_off24 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_145 : BitVec 32 := 16#32
  let v324 : BitVec 32 := Scalar.muli arg17 c16_i32_145
  let c0_i32_146 : BitVec 32 := 0#32
  let v325 : BitVec 32 := Scalar.addi v324 c0_i32_146
  let v326 : Index := Scalar.indexCast v325
  let c0_147 : Index := 0#32
  ![v326.toNat, 0]
def k0_off25 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_148 : BitVec 32 := 16#32
  let v328 : BitVec 32 := Scalar.muli arg17 c16_i32_148
  let c0_i32_149 : BitVec 32 := 0#32
  let v329 : BitVec 32 := Scalar.addi v328 c0_i32_149
  let v330 : Index := Scalar.indexCast v329
  let c16_150 : Index := 16#32
  ![v330.toNat, 16]
def k0_off26 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_151 : BitVec 32 := 16#32
  let v332 : BitVec 32 := Scalar.muli arg17 c16_i32_151
  let c0_i32_152 : BitVec 32 := 0#32
  let v333 : BitVec 32 := Scalar.addi v332 c0_i32_152
  let v334 : Index := Scalar.indexCast v333
  let c32_153 : Index := 32#32
  ![v334.toNat, 32]
def k0_off27 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_154 : BitVec 32 := 16#32
  let v336 : BitVec 32 := Scalar.muli arg17 c16_i32_154
  let c0_i32_155 : BitVec 32 := 0#32
  let v337 : BitVec 32 := Scalar.addi v336 c0_i32_155
  let v338 : Index := Scalar.indexCast v337
  let c48_156 : Index := 48#32
  ![v338.toNat, 48]
def k0_off28 (v341 : BitVec 32) (c0_i32_157 : BitVec 32) : Fin 1 → Nat :=
  let v342 : BitVec 32 := Scalar.addi v341 c0_i32_157
  let v343 : Index := Scalar.indexCast v342
  ![v343.toNat]

def k0_chk2 (i : grid0.Coords) (k0_t9 : Fin k0_t9_loop.trips) (v341 : BitVec 32) : Prop :=
  (∀ (k0_h1 : k0_cond1 i k0_t9 = 1#1), ∀ (r : Fin 4), ∀ a, (k0_off28 v341 (BitVec.ofNat 32 (16 * r.val))) a + S16.size a ≤ S32768.size a)
instance k0_chk2.dec : ∀ (i : grid0.Coords) (k0_t9 : Fin k0_t9_loop.trips) (v341 : BitVec 32), Decidable (k0_chk2 i k0_t9 v341) := fun i k0_t9 v341 => decidable_of_iff' _ (Iff.of_eq (k0_chk2.eq_1 i k0_t9 v341))
theorem k0_off28_inb : ∀ (i : grid0.Coords) (k0_t9 : Fin k0_t9_loop.trips) (v341 : BitVec 32) (k0_hw2 : k0_chk2 i k0_t9 v341), ∀ (k0_h1 : k0_cond1 i k0_t9 = 1#1), ∀ (r : Fin 4), ∀ a, (k0_off28 v341 (BitVec.ofNat 32 (16 * r.val))) a + S16.size a ≤ S32768.size a := fun i k0_t9 v341 k0_hw2 k0_h1 r => k0_hw2 k0_h1 r

def k0_off29 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_161 : BitVec 32 := 16#32
  let v354 : BitVec 32 := Scalar.muli arg17 c16_i32_161
  let c1_i32_162 : BitVec 32 := 1#32
  let v355 : BitVec 32 := Scalar.addi v354 c1_i32_162
  let v356 : Index := Scalar.indexCast v355
  let c0_163 : Index := 0#32
  ![v356.toNat, 0]
def k0_off30 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_164 : BitVec 32 := 16#32
  let v358 : BitVec 32 := Scalar.muli arg17 c16_i32_164
  let c1_i32_165 : BitVec 32 := 1#32
  let v359 : BitVec 32 := Scalar.addi v358 c1_i32_165
  let v360 : Index := Scalar.indexCast v359
  let c16_166 : Index := 16#32
  ![v360.toNat, 16]
def k0_off31 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_167 : BitVec 32 := 16#32
  let v362 : BitVec 32 := Scalar.muli arg17 c16_i32_167
  let c1_i32_168 : BitVec 32 := 1#32
  let v363 : BitVec 32 := Scalar.addi v362 c1_i32_168
  let v364 : Index := Scalar.indexCast v363
  let c32_169 : Index := 32#32
  ![v364.toNat, 32]
def k0_off32 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_170 : BitVec 32 := 16#32
  let v366 : BitVec 32 := Scalar.muli arg17 c16_i32_170
  let c1_i32_171 : BitVec 32 := 1#32
  let v367 : BitVec 32 := Scalar.addi v366 c1_i32_171
  let v368 : Index := Scalar.indexCast v367
  let c48_172 : Index := 48#32
  ![v368.toNat, 48]
def k0_off33 (v371 : BitVec 32) (c0_i32_173 : BitVec 32) : Fin 1 → Nat :=
  let v372 : BitVec 32 := Scalar.addi v371 c0_i32_173
  let v373 : Index := Scalar.indexCast v372
  ![v373.toNat]

def k0_chk3 (i : grid0.Coords) (k0_t9 : Fin k0_t9_loop.trips) (v371 : BitVec 32) : Prop :=
  (∀ (k0_h1 : k0_cond1 i k0_t9 = 1#1), ∀ (r : Fin 4), ∀ a, (k0_off33 v371 (BitVec.ofNat 32 (16 * r.val))) a + S16.size a ≤ S32768.size a)
instance k0_chk3.dec : ∀ (i : grid0.Coords) (k0_t9 : Fin k0_t9_loop.trips) (v371 : BitVec 32), Decidable (k0_chk3 i k0_t9 v371) := fun i k0_t9 v371 => decidable_of_iff' _ (Iff.of_eq (k0_chk3.eq_1 i k0_t9 v371))
theorem k0_off33_inb : ∀ (i : grid0.Coords) (k0_t9 : Fin k0_t9_loop.trips) (v371 : BitVec 32) (k0_hw3 : k0_chk3 i k0_t9 v371), ∀ (k0_h1 : k0_cond1 i k0_t9 = 1#1), ∀ (r : Fin 4), ∀ a, (k0_off33 v371 (BitVec.ofNat 32 (16 * r.val))) a + S16.size a ≤ S32768.size a := fun i k0_t9 v371 k0_hw3 k0_h1 r => k0_hw3 k0_h1 r

def k0_off34 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_177 : BitVec 32 := 16#32
  let v384 : BitVec 32 := Scalar.muli arg17 c16_i32_177
  let c2_i32_178 : BitVec 32 := 2#32
  let v385 : BitVec 32 := Scalar.addi v384 c2_i32_178
  let v386 : Index := Scalar.indexCast v385
  let c0_179 : Index := 0#32
  ![v386.toNat, 0]
def k0_off35 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_180 : BitVec 32 := 16#32
  let v388 : BitVec 32 := Scalar.muli arg17 c16_i32_180
  let c2_i32_181 : BitVec 32 := 2#32
  let v389 : BitVec 32 := Scalar.addi v388 c2_i32_181
  let v390 : Index := Scalar.indexCast v389
  let c16_182 : Index := 16#32
  ![v390.toNat, 16]
def k0_off36 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_183 : BitVec 32 := 16#32
  let v392 : BitVec 32 := Scalar.muli arg17 c16_i32_183
  let c2_i32_184 : BitVec 32 := 2#32
  let v393 : BitVec 32 := Scalar.addi v392 c2_i32_184
  let v394 : Index := Scalar.indexCast v393
  let c32_185 : Index := 32#32
  ![v394.toNat, 32]
def k0_off37 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_186 : BitVec 32 := 16#32
  let v396 : BitVec 32 := Scalar.muli arg17 c16_i32_186
  let c2_i32_187 : BitVec 32 := 2#32
  let v397 : BitVec 32 := Scalar.addi v396 c2_i32_187
  let v398 : Index := Scalar.indexCast v397
  let c48_188 : Index := 48#32
  ![v398.toNat, 48]
def k0_off38 (v401 : BitVec 32) (c0_i32_189 : BitVec 32) : Fin 1 → Nat :=
  let v402 : BitVec 32 := Scalar.addi v401 c0_i32_189
  let v403 : Index := Scalar.indexCast v402
  ![v403.toNat]

def k0_chk4 (i : grid0.Coords) (k0_t9 : Fin k0_t9_loop.trips) (v401 : BitVec 32) : Prop :=
  (∀ (k0_h1 : k0_cond1 i k0_t9 = 1#1), ∀ (r : Fin 4), ∀ a, (k0_off38 v401 (BitVec.ofNat 32 (16 * r.val))) a + S16.size a ≤ S32768.size a)
instance k0_chk4.dec : ∀ (i : grid0.Coords) (k0_t9 : Fin k0_t9_loop.trips) (v401 : BitVec 32), Decidable (k0_chk4 i k0_t9 v401) := fun i k0_t9 v401 => decidable_of_iff' _ (Iff.of_eq (k0_chk4.eq_1 i k0_t9 v401))
theorem k0_off38_inb : ∀ (i : grid0.Coords) (k0_t9 : Fin k0_t9_loop.trips) (v401 : BitVec 32) (k0_hw4 : k0_chk4 i k0_t9 v401), ∀ (k0_h1 : k0_cond1 i k0_t9 = 1#1), ∀ (r : Fin 4), ∀ a, (k0_off38 v401 (BitVec.ofNat 32 (16 * r.val))) a + S16.size a ≤ S32768.size a := fun i k0_t9 v401 k0_hw4 k0_h1 r => k0_hw4 k0_h1 r

def k0_off39 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_193 : BitVec 32 := 16#32
  let v414 : BitVec 32 := Scalar.muli arg17 c16_i32_193
  let c3_i32 : BitVec 32 := 3#32
  let v415 : BitVec 32 := Scalar.addi v414 c3_i32
  let v416 : Index := Scalar.indexCast v415
  let c0_194 : Index := 0#32
  ![v416.toNat, 0]
def k0_off40 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_195 : BitVec 32 := 16#32
  let v418 : BitVec 32 := Scalar.muli arg17 c16_i32_195
  let c3_i32_196 : BitVec 32 := 3#32
  let v419 : BitVec 32 := Scalar.addi v418 c3_i32_196
  let v420 : Index := Scalar.indexCast v419
  let c16_197 : Index := 16#32
  ![v420.toNat, 16]
def k0_off41 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_198 : BitVec 32 := 16#32
  let v422 : BitVec 32 := Scalar.muli arg17 c16_i32_198
  let c3_i32_199 : BitVec 32 := 3#32
  let v423 : BitVec 32 := Scalar.addi v422 c3_i32_199
  let v424 : Index := Scalar.indexCast v423
  let c32_200 : Index := 32#32
  ![v424.toNat, 32]
def k0_off42 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_201 : BitVec 32 := 16#32
  let v426 : BitVec 32 := Scalar.muli arg17 c16_i32_201
  let c3_i32_202 : BitVec 32 := 3#32
  let v427 : BitVec 32 := Scalar.addi v426 c3_i32_202
  let v428 : Index := Scalar.indexCast v427
  let c48_203 : Index := 48#32
  ![v428.toNat, 48]
def k0_off43 (v431 : BitVec 32) (c0_i32_204 : BitVec 32) : Fin 1 → Nat :=
  let v432 : BitVec 32 := Scalar.addi v431 c0_i32_204
  let v433 : Index := Scalar.indexCast v432
  ![v433.toNat]

def k0_chk5 (i : grid0.Coords) (k0_t9 : Fin k0_t9_loop.trips) (v431 : BitVec 32) : Prop :=
  (∀ (k0_h1 : k0_cond1 i k0_t9 = 1#1), ∀ (r : Fin 4), ∀ a, (k0_off43 v431 (BitVec.ofNat 32 (16 * r.val))) a + S16.size a ≤ S32768.size a)
instance k0_chk5.dec : ∀ (i : grid0.Coords) (k0_t9 : Fin k0_t9_loop.trips) (v431 : BitVec 32), Decidable (k0_chk5 i k0_t9 v431) := fun i k0_t9 v431 => decidable_of_iff' _ (Iff.of_eq (k0_chk5.eq_1 i k0_t9 v431))
theorem k0_off43_inb : ∀ (i : grid0.Coords) (k0_t9 : Fin k0_t9_loop.trips) (v431 : BitVec 32) (k0_hw5 : k0_chk5 i k0_t9 v431), ∀ (k0_h1 : k0_cond1 i k0_t9 = 1#1), ∀ (r : Fin 4), ∀ a, (k0_off43 v431 (BitVec.ofNat 32 (16 * r.val))) a + S16.size a ≤ S32768.size a := fun i k0_t9 v431 k0_hw5 k0_h1 r => k0_hw5 k0_h1 r

def k0_off44 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_208 : BitVec 32 := 16#32
  let v444 : BitVec 32 := Scalar.muli arg17 c16_i32_208
  let c4_i32_209 : BitVec 32 := 4#32
  let v445 : BitVec 32 := Scalar.addi v444 c4_i32_209
  let v446 : Index := Scalar.indexCast v445
  let c0_210 : Index := 0#32
  ![v446.toNat, 0]
def k0_off45 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_211 : BitVec 32 := 16#32
  let v448 : BitVec 32 := Scalar.muli arg17 c16_i32_211
  let c4_i32_212 : BitVec 32 := 4#32
  let v449 : BitVec 32 := Scalar.addi v448 c4_i32_212
  let v450 : Index := Scalar.indexCast v449
  let c16_213 : Index := 16#32
  ![v450.toNat, 16]
def k0_off46 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_214 : BitVec 32 := 16#32
  let v452 : BitVec 32 := Scalar.muli arg17 c16_i32_214
  let c4_i32_215 : BitVec 32 := 4#32
  let v453 : BitVec 32 := Scalar.addi v452 c4_i32_215
  let v454 : Index := Scalar.indexCast v453
  let c32_216 : Index := 32#32
  ![v454.toNat, 32]
def k0_off47 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_217 : BitVec 32 := 16#32
  let v456 : BitVec 32 := Scalar.muli arg17 c16_i32_217
  let c4_i32_218 : BitVec 32 := 4#32
  let v457 : BitVec 32 := Scalar.addi v456 c4_i32_218
  let v458 : Index := Scalar.indexCast v457
  let c48_219 : Index := 48#32
  ![v458.toNat, 48]
def k0_off48 (v461 : BitVec 32) (c0_i32_220 : BitVec 32) : Fin 1 → Nat :=
  let v462 : BitVec 32 := Scalar.addi v461 c0_i32_220
  let v463 : Index := Scalar.indexCast v462
  ![v463.toNat]

def k0_chk6 (i : grid0.Coords) (k0_t9 : Fin k0_t9_loop.trips) (v461 : BitVec 32) : Prop :=
  (∀ (k0_h1 : k0_cond1 i k0_t9 = 1#1), ∀ (r : Fin 4), ∀ a, (k0_off48 v461 (BitVec.ofNat 32 (16 * r.val))) a + S16.size a ≤ S32768.size a)
instance k0_chk6.dec : ∀ (i : grid0.Coords) (k0_t9 : Fin k0_t9_loop.trips) (v461 : BitVec 32), Decidable (k0_chk6 i k0_t9 v461) := fun i k0_t9 v461 => decidable_of_iff' _ (Iff.of_eq (k0_chk6.eq_1 i k0_t9 v461))
theorem k0_off48_inb : ∀ (i : grid0.Coords) (k0_t9 : Fin k0_t9_loop.trips) (v461 : BitVec 32) (k0_hw6 : k0_chk6 i k0_t9 v461), ∀ (k0_h1 : k0_cond1 i k0_t9 = 1#1), ∀ (r : Fin 4), ∀ a, (k0_off48 v461 (BitVec.ofNat 32 (16 * r.val))) a + S16.size a ≤ S32768.size a := fun i k0_t9 v461 k0_hw6 k0_h1 r => k0_hw6 k0_h1 r

def k0_off49 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_224 : BitVec 32 := 16#32
  let v474 : BitVec 32 := Scalar.muli arg17 c16_i32_224
  let c5_i32 : BitVec 32 := 5#32
  let v475 : BitVec 32 := Scalar.addi v474 c5_i32
  let v476 : Index := Scalar.indexCast v475
  let c0_225 : Index := 0#32
  ![v476.toNat, 0]
def k0_off50 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_226 : BitVec 32 := 16#32
  let v478 : BitVec 32 := Scalar.muli arg17 c16_i32_226
  let c5_i32_227 : BitVec 32 := 5#32
  let v479 : BitVec 32 := Scalar.addi v478 c5_i32_227
  let v480 : Index := Scalar.indexCast v479
  let c16_228 : Index := 16#32
  ![v480.toNat, 16]
def k0_off51 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_229 : BitVec 32 := 16#32
  let v482 : BitVec 32 := Scalar.muli arg17 c16_i32_229
  let c5_i32_230 : BitVec 32 := 5#32
  let v483 : BitVec 32 := Scalar.addi v482 c5_i32_230
  let v484 : Index := Scalar.indexCast v483
  let c32_231 : Index := 32#32
  ![v484.toNat, 32]
def k0_off52 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_232 : BitVec 32 := 16#32
  let v486 : BitVec 32 := Scalar.muli arg17 c16_i32_232
  let c5_i32_233 : BitVec 32 := 5#32
  let v487 : BitVec 32 := Scalar.addi v486 c5_i32_233
  let v488 : Index := Scalar.indexCast v487
  let c48_234 : Index := 48#32
  ![v488.toNat, 48]
def k0_off53 (v491 : BitVec 32) (c0_i32_235 : BitVec 32) : Fin 1 → Nat :=
  let v492 : BitVec 32 := Scalar.addi v491 c0_i32_235
  let v493 : Index := Scalar.indexCast v492
  ![v493.toNat]

def k0_chk7 (i : grid0.Coords) (k0_t9 : Fin k0_t9_loop.trips) (v491 : BitVec 32) : Prop :=
  (∀ (k0_h1 : k0_cond1 i k0_t9 = 1#1), ∀ (r : Fin 4), ∀ a, (k0_off53 v491 (BitVec.ofNat 32 (16 * r.val))) a + S16.size a ≤ S32768.size a)
instance k0_chk7.dec : ∀ (i : grid0.Coords) (k0_t9 : Fin k0_t9_loop.trips) (v491 : BitVec 32), Decidable (k0_chk7 i k0_t9 v491) := fun i k0_t9 v491 => decidable_of_iff' _ (Iff.of_eq (k0_chk7.eq_1 i k0_t9 v491))
theorem k0_off53_inb : ∀ (i : grid0.Coords) (k0_t9 : Fin k0_t9_loop.trips) (v491 : BitVec 32) (k0_hw7 : k0_chk7 i k0_t9 v491), ∀ (k0_h1 : k0_cond1 i k0_t9 = 1#1), ∀ (r : Fin 4), ∀ a, (k0_off53 v491 (BitVec.ofNat 32 (16 * r.val))) a + S16.size a ≤ S32768.size a := fun i k0_t9 v491 k0_hw7 k0_h1 r => k0_hw7 k0_h1 r

def k0_off54 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_239 : BitVec 32 := 16#32
  let v504 : BitVec 32 := Scalar.muli arg17 c16_i32_239
  let c6_i32 : BitVec 32 := 6#32
  let v505 : BitVec 32 := Scalar.addi v504 c6_i32
  let v506 : Index := Scalar.indexCast v505
  let c0_240 : Index := 0#32
  ![v506.toNat, 0]
def k0_off55 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_241 : BitVec 32 := 16#32
  let v508 : BitVec 32 := Scalar.muli arg17 c16_i32_241
  let c6_i32_242 : BitVec 32 := 6#32
  let v509 : BitVec 32 := Scalar.addi v508 c6_i32_242
  let v510 : Index := Scalar.indexCast v509
  let c16_243 : Index := 16#32
  ![v510.toNat, 16]
def k0_off56 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_244 : BitVec 32 := 16#32
  let v512 : BitVec 32 := Scalar.muli arg17 c16_i32_244
  let c6_i32_245 : BitVec 32 := 6#32
  let v513 : BitVec 32 := Scalar.addi v512 c6_i32_245
  let v514 : Index := Scalar.indexCast v513
  let c32_246 : Index := 32#32
  ![v514.toNat, 32]
def k0_off57 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_247 : BitVec 32 := 16#32
  let v516 : BitVec 32 := Scalar.muli arg17 c16_i32_247
  let c6_i32_248 : BitVec 32 := 6#32
  let v517 : BitVec 32 := Scalar.addi v516 c6_i32_248
  let v518 : Index := Scalar.indexCast v517
  let c48_249 : Index := 48#32
  ![v518.toNat, 48]
def k0_off58 (v521 : BitVec 32) (c0_i32_250 : BitVec 32) : Fin 1 → Nat :=
  let v522 : BitVec 32 := Scalar.addi v521 c0_i32_250
  let v523 : Index := Scalar.indexCast v522
  ![v523.toNat]

def k0_chk8 (i : grid0.Coords) (k0_t9 : Fin k0_t9_loop.trips) (v521 : BitVec 32) : Prop :=
  (∀ (k0_h1 : k0_cond1 i k0_t9 = 1#1), ∀ (r : Fin 4), ∀ a, (k0_off58 v521 (BitVec.ofNat 32 (16 * r.val))) a + S16.size a ≤ S32768.size a)
instance k0_chk8.dec : ∀ (i : grid0.Coords) (k0_t9 : Fin k0_t9_loop.trips) (v521 : BitVec 32), Decidable (k0_chk8 i k0_t9 v521) := fun i k0_t9 v521 => decidable_of_iff' _ (Iff.of_eq (k0_chk8.eq_1 i k0_t9 v521))
theorem k0_off58_inb : ∀ (i : grid0.Coords) (k0_t9 : Fin k0_t9_loop.trips) (v521 : BitVec 32) (k0_hw8 : k0_chk8 i k0_t9 v521), ∀ (k0_h1 : k0_cond1 i k0_t9 = 1#1), ∀ (r : Fin 4), ∀ a, (k0_off58 v521 (BitVec.ofNat 32 (16 * r.val))) a + S16.size a ≤ S32768.size a := fun i k0_t9 v521 k0_hw8 k0_h1 r => k0_hw8 k0_h1 r

def k0_off59 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_254 : BitVec 32 := 16#32
  let v534 : BitVec 32 := Scalar.muli arg17 c16_i32_254
  let c7_i32 : BitVec 32 := 7#32
  let v535 : BitVec 32 := Scalar.addi v534 c7_i32
  let v536 : Index := Scalar.indexCast v535
  let c0_255 : Index := 0#32
  ![v536.toNat, 0]
def k0_off60 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_256 : BitVec 32 := 16#32
  let v538 : BitVec 32 := Scalar.muli arg17 c16_i32_256
  let c7_i32_257 : BitVec 32 := 7#32
  let v539 : BitVec 32 := Scalar.addi v538 c7_i32_257
  let v540 : Index := Scalar.indexCast v539
  let c16_258 : Index := 16#32
  ![v540.toNat, 16]
def k0_off61 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_259 : BitVec 32 := 16#32
  let v542 : BitVec 32 := Scalar.muli arg17 c16_i32_259
  let c7_i32_260 : BitVec 32 := 7#32
  let v543 : BitVec 32 := Scalar.addi v542 c7_i32_260
  let v544 : Index := Scalar.indexCast v543
  let c32_261 : Index := 32#32
  ![v544.toNat, 32]
def k0_off62 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_262 : BitVec 32 := 16#32
  let v546 : BitVec 32 := Scalar.muli arg17 c16_i32_262
  let c7_i32_263 : BitVec 32 := 7#32
  let v547 : BitVec 32 := Scalar.addi v546 c7_i32_263
  let v548 : Index := Scalar.indexCast v547
  let c48_264 : Index := 48#32
  ![v548.toNat, 48]
def k0_off63 (v551 : BitVec 32) (c0_i32_265 : BitVec 32) : Fin 1 → Nat :=
  let v552 : BitVec 32 := Scalar.addi v551 c0_i32_265
  let v553 : Index := Scalar.indexCast v552
  ![v553.toNat]

def k0_chk9 (i : grid0.Coords) (k0_t9 : Fin k0_t9_loop.trips) (v551 : BitVec 32) : Prop :=
  (∀ (k0_h1 : k0_cond1 i k0_t9 = 1#1), ∀ (r : Fin 4), ∀ a, (k0_off63 v551 (BitVec.ofNat 32 (16 * r.val))) a + S16.size a ≤ S32768.size a)
instance k0_chk9.dec : ∀ (i : grid0.Coords) (k0_t9 : Fin k0_t9_loop.trips) (v551 : BitVec 32), Decidable (k0_chk9 i k0_t9 v551) := fun i k0_t9 v551 => decidable_of_iff' _ (Iff.of_eq (k0_chk9.eq_1 i k0_t9 v551))
theorem k0_off63_inb : ∀ (i : grid0.Coords) (k0_t9 : Fin k0_t9_loop.trips) (v551 : BitVec 32) (k0_hw9 : k0_chk9 i k0_t9 v551), ∀ (k0_h1 : k0_cond1 i k0_t9 = 1#1), ∀ (r : Fin 4), ∀ a, (k0_off63 v551 (BitVec.ofNat 32 (16 * r.val))) a + S16.size a ≤ S32768.size a := fun i k0_t9 v551 k0_hw9 k0_h1 r => k0_hw9 k0_h1 r

def k0_off64 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_269 : BitVec 32 := 16#32
  let v564 : BitVec 32 := Scalar.muli arg17 c16_i32_269
  let c8_i32_270 : BitVec 32 := 8#32
  let v565 : BitVec 32 := Scalar.addi v564 c8_i32_270
  let v566 : Index := Scalar.indexCast v565
  let c0_271 : Index := 0#32
  ![v566.toNat, 0]
def k0_off65 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_272 : BitVec 32 := 16#32
  let v568 : BitVec 32 := Scalar.muli arg17 c16_i32_272
  let c8_i32_273 : BitVec 32 := 8#32
  let v569 : BitVec 32 := Scalar.addi v568 c8_i32_273
  let v570 : Index := Scalar.indexCast v569
  let c16_274 : Index := 16#32
  ![v570.toNat, 16]
def k0_off66 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_275 : BitVec 32 := 16#32
  let v572 : BitVec 32 := Scalar.muli arg17 c16_i32_275
  let c8_i32_276 : BitVec 32 := 8#32
  let v573 : BitVec 32 := Scalar.addi v572 c8_i32_276
  let v574 : Index := Scalar.indexCast v573
  let c32_277 : Index := 32#32
  ![v574.toNat, 32]
def k0_off67 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_278 : BitVec 32 := 16#32
  let v576 : BitVec 32 := Scalar.muli arg17 c16_i32_278
  let c8_i32_279 : BitVec 32 := 8#32
  let v577 : BitVec 32 := Scalar.addi v576 c8_i32_279
  let v578 : Index := Scalar.indexCast v577
  let c48_280 : Index := 48#32
  ![v578.toNat, 48]
def k0_off68 (v581 : BitVec 32) (c0_i32_281 : BitVec 32) : Fin 1 → Nat :=
  let v582 : BitVec 32 := Scalar.addi v581 c0_i32_281
  let v583 : Index := Scalar.indexCast v582
  ![v583.toNat]

def k0_chk10 (i : grid0.Coords) (k0_t9 : Fin k0_t9_loop.trips) (v581 : BitVec 32) : Prop :=
  (∀ (k0_h1 : k0_cond1 i k0_t9 = 1#1), ∀ (r : Fin 4), ∀ a, (k0_off68 v581 (BitVec.ofNat 32 (16 * r.val))) a + S16.size a ≤ S32768.size a)
instance k0_chk10.dec : ∀ (i : grid0.Coords) (k0_t9 : Fin k0_t9_loop.trips) (v581 : BitVec 32), Decidable (k0_chk10 i k0_t9 v581) := fun i k0_t9 v581 => decidable_of_iff' _ (Iff.of_eq (k0_chk10.eq_1 i k0_t9 v581))
theorem k0_off68_inb : ∀ (i : grid0.Coords) (k0_t9 : Fin k0_t9_loop.trips) (v581 : BitVec 32) (k0_hw10 : k0_chk10 i k0_t9 v581), ∀ (k0_h1 : k0_cond1 i k0_t9 = 1#1), ∀ (r : Fin 4), ∀ a, (k0_off68 v581 (BitVec.ofNat 32 (16 * r.val))) a + S16.size a ≤ S32768.size a := fun i k0_t9 v581 k0_hw10 k0_h1 r => k0_hw10 k0_h1 r

def k0_off69 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_285 : BitVec 32 := 16#32
  let v594 : BitVec 32 := Scalar.muli arg17 c16_i32_285
  let c9_i32 : BitVec 32 := 9#32
  let v595 : BitVec 32 := Scalar.addi v594 c9_i32
  let v596 : Index := Scalar.indexCast v595
  let c0_286 : Index := 0#32
  ![v596.toNat, 0]
def k0_off70 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_287 : BitVec 32 := 16#32
  let v598 : BitVec 32 := Scalar.muli arg17 c16_i32_287
  let c9_i32_288 : BitVec 32 := 9#32
  let v599 : BitVec 32 := Scalar.addi v598 c9_i32_288
  let v600 : Index := Scalar.indexCast v599
  let c16_289 : Index := 16#32
  ![v600.toNat, 16]
def k0_off71 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_290 : BitVec 32 := 16#32
  let v602 : BitVec 32 := Scalar.muli arg17 c16_i32_290
  let c9_i32_291 : BitVec 32 := 9#32
  let v603 : BitVec 32 := Scalar.addi v602 c9_i32_291
  let v604 : Index := Scalar.indexCast v603
  let c32_292 : Index := 32#32
  ![v604.toNat, 32]
def k0_off72 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_293 : BitVec 32 := 16#32
  let v606 : BitVec 32 := Scalar.muli arg17 c16_i32_293
  let c9_i32_294 : BitVec 32 := 9#32
  let v607 : BitVec 32 := Scalar.addi v606 c9_i32_294
  let v608 : Index := Scalar.indexCast v607
  let c48_295 : Index := 48#32
  ![v608.toNat, 48]
def k0_off73 (v611 : BitVec 32) (c0_i32_296 : BitVec 32) : Fin 1 → Nat :=
  let v612 : BitVec 32 := Scalar.addi v611 c0_i32_296
  let v613 : Index := Scalar.indexCast v612
  ![v613.toNat]

def k0_chk11 (i : grid0.Coords) (k0_t9 : Fin k0_t9_loop.trips) (v611 : BitVec 32) : Prop :=
  (∀ (k0_h1 : k0_cond1 i k0_t9 = 1#1), ∀ (r : Fin 4), ∀ a, (k0_off73 v611 (BitVec.ofNat 32 (16 * r.val))) a + S16.size a ≤ S32768.size a)
instance k0_chk11.dec : ∀ (i : grid0.Coords) (k0_t9 : Fin k0_t9_loop.trips) (v611 : BitVec 32), Decidable (k0_chk11 i k0_t9 v611) := fun i k0_t9 v611 => decidable_of_iff' _ (Iff.of_eq (k0_chk11.eq_1 i k0_t9 v611))
theorem k0_off73_inb : ∀ (i : grid0.Coords) (k0_t9 : Fin k0_t9_loop.trips) (v611 : BitVec 32) (k0_hw11 : k0_chk11 i k0_t9 v611), ∀ (k0_h1 : k0_cond1 i k0_t9 = 1#1), ∀ (r : Fin 4), ∀ a, (k0_off73 v611 (BitVec.ofNat 32 (16 * r.val))) a + S16.size a ≤ S32768.size a := fun i k0_t9 v611 k0_hw11 k0_h1 r => k0_hw11 k0_h1 r

def k0_off74 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_300 : BitVec 32 := 16#32
  let v624 : BitVec 32 := Scalar.muli arg17 c16_i32_300
  let c10_i32_301 : BitVec 32 := 10#32
  let v625 : BitVec 32 := Scalar.addi v624 c10_i32_301
  let v626 : Index := Scalar.indexCast v625
  let c0_302 : Index := 0#32
  ![v626.toNat, 0]
def k0_off75 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_303 : BitVec 32 := 16#32
  let v628 : BitVec 32 := Scalar.muli arg17 c16_i32_303
  let c10_i32_304 : BitVec 32 := 10#32
  let v629 : BitVec 32 := Scalar.addi v628 c10_i32_304
  let v630 : Index := Scalar.indexCast v629
  let c16_305 : Index := 16#32
  ![v630.toNat, 16]
def k0_off76 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_306 : BitVec 32 := 16#32
  let v632 : BitVec 32 := Scalar.muli arg17 c16_i32_306
  let c10_i32_307 : BitVec 32 := 10#32
  let v633 : BitVec 32 := Scalar.addi v632 c10_i32_307
  let v634 : Index := Scalar.indexCast v633
  let c32_308 : Index := 32#32
  ![v634.toNat, 32]
def k0_off77 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_309 : BitVec 32 := 16#32
  let v636 : BitVec 32 := Scalar.muli arg17 c16_i32_309
  let c10_i32_310 : BitVec 32 := 10#32
  let v637 : BitVec 32 := Scalar.addi v636 c10_i32_310
  let v638 : Index := Scalar.indexCast v637
  let c48_311 : Index := 48#32
  ![v638.toNat, 48]
def k0_off78 (v641 : BitVec 32) (c0_i32_312 : BitVec 32) : Fin 1 → Nat :=
  let v642 : BitVec 32 := Scalar.addi v641 c0_i32_312
  let v643 : Index := Scalar.indexCast v642
  ![v643.toNat]

def k0_chk12 (i : grid0.Coords) (k0_t9 : Fin k0_t9_loop.trips) (v641 : BitVec 32) : Prop :=
  (∀ (k0_h1 : k0_cond1 i k0_t9 = 1#1), ∀ (r : Fin 4), ∀ a, (k0_off78 v641 (BitVec.ofNat 32 (16 * r.val))) a + S16.size a ≤ S32768.size a)
instance k0_chk12.dec : ∀ (i : grid0.Coords) (k0_t9 : Fin k0_t9_loop.trips) (v641 : BitVec 32), Decidable (k0_chk12 i k0_t9 v641) := fun i k0_t9 v641 => decidable_of_iff' _ (Iff.of_eq (k0_chk12.eq_1 i k0_t9 v641))
theorem k0_off78_inb : ∀ (i : grid0.Coords) (k0_t9 : Fin k0_t9_loop.trips) (v641 : BitVec 32) (k0_hw12 : k0_chk12 i k0_t9 v641), ∀ (k0_h1 : k0_cond1 i k0_t9 = 1#1), ∀ (r : Fin 4), ∀ a, (k0_off78 v641 (BitVec.ofNat 32 (16 * r.val))) a + S16.size a ≤ S32768.size a := fun i k0_t9 v641 k0_hw12 k0_h1 r => k0_hw12 k0_h1 r

def k0_off79 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_316 : BitVec 32 := 16#32
  let v654 : BitVec 32 := Scalar.muli arg17 c16_i32_316
  let c11_i32 : BitVec 32 := 11#32
  let v655 : BitVec 32 := Scalar.addi v654 c11_i32
  let v656 : Index := Scalar.indexCast v655
  let c0_317 : Index := 0#32
  ![v656.toNat, 0]
def k0_off80 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_318 : BitVec 32 := 16#32
  let v658 : BitVec 32 := Scalar.muli arg17 c16_i32_318
  let c11_i32_319 : BitVec 32 := 11#32
  let v659 : BitVec 32 := Scalar.addi v658 c11_i32_319
  let v660 : Index := Scalar.indexCast v659
  let c16_320 : Index := 16#32
  ![v660.toNat, 16]
def k0_off81 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_321 : BitVec 32 := 16#32
  let v662 : BitVec 32 := Scalar.muli arg17 c16_i32_321
  let c11_i32_322 : BitVec 32 := 11#32
  let v663 : BitVec 32 := Scalar.addi v662 c11_i32_322
  let v664 : Index := Scalar.indexCast v663
  let c32_323 : Index := 32#32
  ![v664.toNat, 32]
def k0_off82 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_324 : BitVec 32 := 16#32
  let v666 : BitVec 32 := Scalar.muli arg17 c16_i32_324
  let c11_i32_325 : BitVec 32 := 11#32
  let v667 : BitVec 32 := Scalar.addi v666 c11_i32_325
  let v668 : Index := Scalar.indexCast v667
  let c48_326 : Index := 48#32
  ![v668.toNat, 48]
def k0_off83 (v671 : BitVec 32) (c0_i32_327 : BitVec 32) : Fin 1 → Nat :=
  let v672 : BitVec 32 := Scalar.addi v671 c0_i32_327
  let v673 : Index := Scalar.indexCast v672
  ![v673.toNat]

def k0_chk13 (i : grid0.Coords) (k0_t9 : Fin k0_t9_loop.trips) (v671 : BitVec 32) : Prop :=
  (∀ (k0_h1 : k0_cond1 i k0_t9 = 1#1), ∀ (r : Fin 4), ∀ a, (k0_off83 v671 (BitVec.ofNat 32 (16 * r.val))) a + S16.size a ≤ S32768.size a)
instance k0_chk13.dec : ∀ (i : grid0.Coords) (k0_t9 : Fin k0_t9_loop.trips) (v671 : BitVec 32), Decidable (k0_chk13 i k0_t9 v671) := fun i k0_t9 v671 => decidable_of_iff' _ (Iff.of_eq (k0_chk13.eq_1 i k0_t9 v671))
theorem k0_off83_inb : ∀ (i : grid0.Coords) (k0_t9 : Fin k0_t9_loop.trips) (v671 : BitVec 32) (k0_hw13 : k0_chk13 i k0_t9 v671), ∀ (k0_h1 : k0_cond1 i k0_t9 = 1#1), ∀ (r : Fin 4), ∀ a, (k0_off83 v671 (BitVec.ofNat 32 (16 * r.val))) a + S16.size a ≤ S32768.size a := fun i k0_t9 v671 k0_hw13 k0_h1 r => k0_hw13 k0_h1 r

def k0_off84 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_331 : BitVec 32 := 16#32
  let v684 : BitVec 32 := Scalar.muli arg17 c16_i32_331
  let c12_i32 : BitVec 32 := 12#32
  let v685 : BitVec 32 := Scalar.addi v684 c12_i32
  let v686 : Index := Scalar.indexCast v685
  let c0_332 : Index := 0#32
  ![v686.toNat, 0]
def k0_off85 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_333 : BitVec 32 := 16#32
  let v688 : BitVec 32 := Scalar.muli arg17 c16_i32_333
  let c12_i32_334 : BitVec 32 := 12#32
  let v689 : BitVec 32 := Scalar.addi v688 c12_i32_334
  let v690 : Index := Scalar.indexCast v689
  let c16_335 : Index := 16#32
  ![v690.toNat, 16]
def k0_off86 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_336 : BitVec 32 := 16#32
  let v692 : BitVec 32 := Scalar.muli arg17 c16_i32_336
  let c12_i32_337 : BitVec 32 := 12#32
  let v693 : BitVec 32 := Scalar.addi v692 c12_i32_337
  let v694 : Index := Scalar.indexCast v693
  let c32_338 : Index := 32#32
  ![v694.toNat, 32]
def k0_off87 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_339 : BitVec 32 := 16#32
  let v696 : BitVec 32 := Scalar.muli arg17 c16_i32_339
  let c12_i32_340 : BitVec 32 := 12#32
  let v697 : BitVec 32 := Scalar.addi v696 c12_i32_340
  let v698 : Index := Scalar.indexCast v697
  let c48_341 : Index := 48#32
  ![v698.toNat, 48]
def k0_off88 (v701 : BitVec 32) (c0_i32_342 : BitVec 32) : Fin 1 → Nat :=
  let v702 : BitVec 32 := Scalar.addi v701 c0_i32_342
  let v703 : Index := Scalar.indexCast v702
  ![v703.toNat]

def k0_chk14 (i : grid0.Coords) (k0_t9 : Fin k0_t9_loop.trips) (v701 : BitVec 32) : Prop :=
  (∀ (k0_h1 : k0_cond1 i k0_t9 = 1#1), ∀ (r : Fin 4), ∀ a, (k0_off88 v701 (BitVec.ofNat 32 (16 * r.val))) a + S16.size a ≤ S32768.size a)
instance k0_chk14.dec : ∀ (i : grid0.Coords) (k0_t9 : Fin k0_t9_loop.trips) (v701 : BitVec 32), Decidable (k0_chk14 i k0_t9 v701) := fun i k0_t9 v701 => decidable_of_iff' _ (Iff.of_eq (k0_chk14.eq_1 i k0_t9 v701))
theorem k0_off88_inb : ∀ (i : grid0.Coords) (k0_t9 : Fin k0_t9_loop.trips) (v701 : BitVec 32) (k0_hw14 : k0_chk14 i k0_t9 v701), ∀ (k0_h1 : k0_cond1 i k0_t9 = 1#1), ∀ (r : Fin 4), ∀ a, (k0_off88 v701 (BitVec.ofNat 32 (16 * r.val))) a + S16.size a ≤ S32768.size a := fun i k0_t9 v701 k0_hw14 k0_h1 r => k0_hw14 k0_h1 r

def k0_off89 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_346 : BitVec 32 := 16#32
  let v714 : BitVec 32 := Scalar.muli arg17 c16_i32_346
  let c13_i32 : BitVec 32 := 13#32
  let v715 : BitVec 32 := Scalar.addi v714 c13_i32
  let v716 : Index := Scalar.indexCast v715
  let c0_347 : Index := 0#32
  ![v716.toNat, 0]
def k0_off90 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_348 : BitVec 32 := 16#32
  let v718 : BitVec 32 := Scalar.muli arg17 c16_i32_348
  let c13_i32_349 : BitVec 32 := 13#32
  let v719 : BitVec 32 := Scalar.addi v718 c13_i32_349
  let v720 : Index := Scalar.indexCast v719
  let c16_350 : Index := 16#32
  ![v720.toNat, 16]
def k0_off91 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_351 : BitVec 32 := 16#32
  let v722 : BitVec 32 := Scalar.muli arg17 c16_i32_351
  let c13_i32_352 : BitVec 32 := 13#32
  let v723 : BitVec 32 := Scalar.addi v722 c13_i32_352
  let v724 : Index := Scalar.indexCast v723
  let c32_353 : Index := 32#32
  ![v724.toNat, 32]
def k0_off92 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_354 : BitVec 32 := 16#32
  let v726 : BitVec 32 := Scalar.muli arg17 c16_i32_354
  let c13_i32_355 : BitVec 32 := 13#32
  let v727 : BitVec 32 := Scalar.addi v726 c13_i32_355
  let v728 : Index := Scalar.indexCast v727
  let c48_356 : Index := 48#32
  ![v728.toNat, 48]
def k0_off93 (v731 : BitVec 32) (c0_i32_357 : BitVec 32) : Fin 1 → Nat :=
  let v732 : BitVec 32 := Scalar.addi v731 c0_i32_357
  let v733 : Index := Scalar.indexCast v732
  ![v733.toNat]

def k0_chk15 (i : grid0.Coords) (k0_t9 : Fin k0_t9_loop.trips) (v731 : BitVec 32) : Prop :=
  (∀ (k0_h1 : k0_cond1 i k0_t9 = 1#1), ∀ (r : Fin 4), ∀ a, (k0_off93 v731 (BitVec.ofNat 32 (16 * r.val))) a + S16.size a ≤ S32768.size a)
instance k0_chk15.dec : ∀ (i : grid0.Coords) (k0_t9 : Fin k0_t9_loop.trips) (v731 : BitVec 32), Decidable (k0_chk15 i k0_t9 v731) := fun i k0_t9 v731 => decidable_of_iff' _ (Iff.of_eq (k0_chk15.eq_1 i k0_t9 v731))
theorem k0_off93_inb : ∀ (i : grid0.Coords) (k0_t9 : Fin k0_t9_loop.trips) (v731 : BitVec 32) (k0_hw15 : k0_chk15 i k0_t9 v731), ∀ (k0_h1 : k0_cond1 i k0_t9 = 1#1), ∀ (r : Fin 4), ∀ a, (k0_off93 v731 (BitVec.ofNat 32 (16 * r.val))) a + S16.size a ≤ S32768.size a := fun i k0_t9 v731 k0_hw15 k0_h1 r => k0_hw15 k0_h1 r

def k0_off94 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_361 : BitVec 32 := 16#32
  let v744 : BitVec 32 := Scalar.muli arg17 c16_i32_361
  let c14_i32 : BitVec 32 := 14#32
  let v745 : BitVec 32 := Scalar.addi v744 c14_i32
  let v746 : Index := Scalar.indexCast v745
  let c0_362 : Index := 0#32
  ![v746.toNat, 0]
def k0_off95 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_363 : BitVec 32 := 16#32
  let v748 : BitVec 32 := Scalar.muli arg17 c16_i32_363
  let c14_i32_364 : BitVec 32 := 14#32
  let v749 : BitVec 32 := Scalar.addi v748 c14_i32_364
  let v750 : Index := Scalar.indexCast v749
  let c16_365 : Index := 16#32
  ![v750.toNat, 16]
def k0_off96 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_366 : BitVec 32 := 16#32
  let v752 : BitVec 32 := Scalar.muli arg17 c16_i32_366
  let c14_i32_367 : BitVec 32 := 14#32
  let v753 : BitVec 32 := Scalar.addi v752 c14_i32_367
  let v754 : Index := Scalar.indexCast v753
  let c32_368 : Index := 32#32
  ![v754.toNat, 32]
def k0_off97 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_369 : BitVec 32 := 16#32
  let v756 : BitVec 32 := Scalar.muli arg17 c16_i32_369
  let c14_i32_370 : BitVec 32 := 14#32
  let v757 : BitVec 32 := Scalar.addi v756 c14_i32_370
  let v758 : Index := Scalar.indexCast v757
  let c48_371 : Index := 48#32
  ![v758.toNat, 48]
def k0_off98 (v761 : BitVec 32) (c0_i32_372 : BitVec 32) : Fin 1 → Nat :=
  let v762 : BitVec 32 := Scalar.addi v761 c0_i32_372
  let v763 : Index := Scalar.indexCast v762
  ![v763.toNat]

def k0_chk16 (i : grid0.Coords) (k0_t9 : Fin k0_t9_loop.trips) (v761 : BitVec 32) : Prop :=
  (∀ (k0_h1 : k0_cond1 i k0_t9 = 1#1), ∀ (r : Fin 4), ∀ a, (k0_off98 v761 (BitVec.ofNat 32 (16 * r.val))) a + S16.size a ≤ S32768.size a)
instance k0_chk16.dec : ∀ (i : grid0.Coords) (k0_t9 : Fin k0_t9_loop.trips) (v761 : BitVec 32), Decidable (k0_chk16 i k0_t9 v761) := fun i k0_t9 v761 => decidable_of_iff' _ (Iff.of_eq (k0_chk16.eq_1 i k0_t9 v761))
theorem k0_off98_inb : ∀ (i : grid0.Coords) (k0_t9 : Fin k0_t9_loop.trips) (v761 : BitVec 32) (k0_hw16 : k0_chk16 i k0_t9 v761), ∀ (k0_h1 : k0_cond1 i k0_t9 = 1#1), ∀ (r : Fin 4), ∀ a, (k0_off98 v761 (BitVec.ofNat 32 (16 * r.val))) a + S16.size a ≤ S32768.size a := fun i k0_t9 v761 k0_hw16 k0_h1 r => k0_hw16 k0_h1 r

def k0_off99 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_376 : BitVec 32 := 16#32
  let v774 : BitVec 32 := Scalar.muli arg17 c16_i32_376
  let c15_i32 : BitVec 32 := 15#32
  let v775 : BitVec 32 := Scalar.addi v774 c15_i32
  let v776 : Index := Scalar.indexCast v775
  let c0_377 : Index := 0#32
  ![v776.toNat, 0]
def k0_off100 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_378 : BitVec 32 := 16#32
  let v778 : BitVec 32 := Scalar.muli arg17 c16_i32_378
  let c15_i32_379 : BitVec 32 := 15#32
  let v779 : BitVec 32 := Scalar.addi v778 c15_i32_379
  let v780 : Index := Scalar.indexCast v779
  let c16_380 : Index := 16#32
  ![v780.toNat, 16]
def k0_off101 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_381 : BitVec 32 := 16#32
  let v782 : BitVec 32 := Scalar.muli arg17 c16_i32_381
  let c15_i32_382 : BitVec 32 := 15#32
  let v783 : BitVec 32 := Scalar.addi v782 c15_i32_382
  let v784 : Index := Scalar.indexCast v783
  let c32_383 : Index := 32#32
  ![v784.toNat, 32]
def k0_off102 (k0_t10 : Fin k0_t10_loop.trips) : Fin 2 → Nat :=
  let c0_i32_129 : BitVec 32 := 0#32
  let c1_i32_131 : BitVec 32 := 1#32
  let arg17 : BitVec 32 := Scf.iv c0_i32_129 c1_i32_131 k0_t10
  let c16_i32_384 : BitVec 32 := 16#32
  let v786 : BitVec 32 := Scalar.muli arg17 c16_i32_384
  let c15_i32_385 : BitVec 32 := 15#32
  let v787 : BitVec 32 := Scalar.addi v786 c15_i32_385
  let v788 : Index := Scalar.indexCast v787
  let c48_386 : Index := 48#32
  ![v788.toNat, 48]
def k0_off103 (i : grid0.Coords) (k0_t9 : Fin k0_t9_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_106 : BitVec 32 := 0#32
  let c1_i32_107 : BitVec 32 := 1#32
  let arg15 : BitVec 32 := Scf.iv c0_i32_106 c1_i32_107 k0_t9
  let c2_i32_117 : BitVec 32 := 2#32
  let v276 : BitVec 32 := Scalar.muli arg15 c2_i32_117
  let c0_i32_118 : BitVec 32 := 0#32
  let v277 : BitVec 32 := Scalar.addi v276 c0_i32_118
  let c32_i32_133 : BitVec 32 := 32#32
  let v296 : BitVec 32 := Scalar.muli v277 c32_i32_133
  let v297 : BitVec 32 := Scalar.addi v1 v296
  let c160_i32_134 : BitVec 32 := 160#32
  let v298 : BitVec 32 := Scalar.muli v297 c160_i32_134
  let c0_i32_135 : BitVec 32 := 0#32
  ![v298.toNat, 0]
def k0_cond3 (i : grid0.Coords) (k0_t9 : Fin k0_t9_loop.trips) : BitVec 1 :=
  let c0_i32_106 : BitVec 32 := 0#32
  let c1_i32_107 : BitVec 32 := 1#32
  let arg15 : BitVec 32 := Scf.iv c0_i32_106 c1_i32_107 k0_t9
  let c2_i32_117 : BitVec 32 := 2#32
  let v276 : BitVec 32 := Scalar.muli arg15 c2_i32_117
  let c0_i32_118 : BitVec 32 := 0#32
  let v277 : BitVec 32 := Scalar.addi v276 c0_i32_118
  let c2_i32_137 : BitVec 32 := 2#32
  let v301 : BitVec 32 := Scalar.addi v277 c2_i32_137
  let c624_i32 : BitVec 32 := 624#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c624_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v302 : BitVec 1 := Scalar.cmpi .slt v301 v20
  let v303 : BitVec 32 := Scalar.extui v302
  let c0_i32_138 : BitVec 32 := 0#32
  let v304 : BitVec 1 := Scalar.cmpi .ne v303 c0_i32_138
  v304

def k0_off104 (i : grid0.Coords) (k0_t9 : Fin k0_t9_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_106 : BitVec 32 := 0#32
  let c1_i32_107 : BitVec 32 := 1#32
  let arg15 : BitVec 32 := Scf.iv c0_i32_106 c1_i32_107 k0_t9
  let c2_i32_117 : BitVec 32 := 2#32
  let v276 : BitVec 32 := Scalar.muli arg15 c2_i32_117
  let c0_i32_118 : BitVec 32 := 0#32
  let v277 : BitVec 32 := Scalar.addi v276 c0_i32_118
  let c2_i32_139 : BitVec 32 := 2#32
  let v305 : BitVec 32 := Scalar.addi v277 c2_i32_139
  let c32_i32_140 : BitVec 32 := 32#32
  let v306 : BitVec 32 := Scalar.muli v305 c32_i32_140
  let v307 : BitVec 32 := Scalar.addi v1 v306
  let c160_i32_141 : BitVec 32 := 160#32
  let v308 : BitVec 32 := Scalar.muli v307 c160_i32_141
  ![v308.toNat]
def k0_cond4 (i : grid0.Coords) (k0_t9 : Fin k0_t9_loop.trips) : BitVec 1 :=
  let c0_i32_106 : BitVec 32 := 0#32
  let c1_i32_107 : BitVec 32 := 1#32
  let arg15 : BitVec 32 := Scf.iv c0_i32_106 c1_i32_107 k0_t9
  let c2_i32_120 : BitVec 32 := 2#32
  let v281 : BitVec 32 := Scalar.muli arg15 c2_i32_120
  let c1_i32_121 : BitVec 32 := 1#32
  let v282 : BitVec 32 := Scalar.addi v281 c1_i32_121
  let c624_i32 : BitVec 32 := 624#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c624_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v283 : BitVec 1 := Scalar.cmpi .slt v282 v20
  let v284 : BitVec 32 := Scalar.extui v283
  let c0_i32_122 : BitVec 32 := 0#32
  let v285 : BitVec 1 := Scalar.cmpi .ne v284 c0_i32_122
  v285

def k0_off105 (i : grid0.Coords) (k0_t9 : Fin k0_t9_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_106 : BitVec 32 := 0#32
  let c1_i32_107 : BitVec 32 := 1#32
  let arg15 : BitVec 32 := Scf.iv c0_i32_106 c1_i32_107 k0_t9
  let c2_i32_120 : BitVec 32 := 2#32
  let v281 : BitVec 32 := Scalar.muli arg15 c2_i32_120
  let c1_i32_121 : BitVec 32 := 1#32
  let v282 : BitVec 32 := Scalar.addi v281 c1_i32_121
  let c32_i32_124 : BitVec 32 := 32#32
  let v286 : BitVec 32 := Scalar.muli v282 c32_i32_124
  let v287 : BitVec 32 := Scalar.addi v1 v286
  let c160_i32_125 : BitVec 32 := 160#32
  let v288 : BitVec 32 := Scalar.muli v287 c160_i32_125
  ![v288.toNat]
def k0_cond5 (k0_t9 : Fin k0_t9_loop.trips) : BitVec 1 :=
  let c0_i32_106 : BitVec 32 := 0#32
  let c1_i32_107 : BitVec 32 := 1#32
  let arg15 : BitVec 32 := Scf.iv c0_i32_106 c1_i32_107 k0_t9
  let c2_i32_120 : BitVec 32 := 2#32
  let v281 : BitVec 32 := Scalar.muli arg15 c2_i32_120
  let c1_i32_121 : BitVec 32 := 1#32
  let v282 : BitVec 32 := Scalar.addi v281 c1_i32_121
  let c2_i32_126 : BitVec 32 := 2#32
  let v291 : BitVec 1 := Scalar.cmpi .sge v282 c2_i32_126
  let v292 : BitVec 32 := Scalar.extui v291
  let c0_i32_127 : BitVec 32 := 0#32
  let v293 : BitVec 1 := Scalar.cmpi .ne v292 c0_i32_127
  v293

def k0_off106 (i : grid0.Coords) (k0_t9 : Fin k0_t9_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_106 : BitVec 32 := 0#32
  let c1_i32_107 : BitVec 32 := 1#32
  let arg15 : BitVec 32 := Scf.iv c0_i32_106 c1_i32_107 k0_t9
  let c2_i32_120 : BitVec 32 := 2#32
  let v281 : BitVec 32 := Scalar.muli arg15 c2_i32_120
  let c1_i32_121 : BitVec 32 := 1#32
  let v282 : BitVec 32 := Scalar.addi v281 c1_i32_121
  let c2_i32_139 : BitVec 32 := 2#32
  let v305 : BitVec 32 := Scalar.subi v282 c2_i32_139
  let c32_i32_140 : BitVec 32 := 32#32
  let v306 : BitVec 32 := Scalar.muli v305 c32_i32_140
  let v307 : BitVec 32 := Scalar.addi v1 v306
  let c160_i32_141 : BitVec 32 := 160#32
  let v308 : BitVec 32 := Scalar.muli v307 c160_i32_141
  let c0_i32_142 : BitVec 32 := 0#32
  ![v308.toNat, 0]
@[reducible] def k0_t11_loop : Scf.Loop 32 :=
  let c0_i32_129 : BitVec 32 := 0#32
  let c10_i32_130 : BitVec 32 := 10#32
  let v294 : BitVec 32 := Scalar.addi c0_i32_129 c10_i32_130
  let c1_i32_131 : BitVec 32 := 1#32
  ⟨c0_i32_129, v294, c1_i32_131⟩
def k0_off107 (k0_t11 : Fin k0_t11_loop.trips) : Fin 1 → Nat :=
  let c0_i32_129 : BitVec 32 := 0#32
  let c1_i32_131 : BitVec 32 := 1#32
  let arg17 : BitVec 32 := Scf.iv c0_i32_129 c1_i32_131 k0_t11
  let c16_i32_139 : BitVec 32 := 16#32
  let v305 : BitVec 32 := Scalar.muli arg17 c16_i32_139
  let v306 : Index := Scalar.indexCast v305
  ![v306.toNat]
def k0_off108 (v311 : BitVec 32) (c0_i32_141 : BitVec 32) : Fin 1 → Nat :=
  let v312 : BitVec 32 := Scalar.addi v311 c0_i32_141
  let v313 : Index := Scalar.indexCast v312
  ![v313.toNat]

def k0_chk17 (i : grid0.Coords) (k0_t9 : Fin k0_t9_loop.trips) (v311 : BitVec 32) : Prop :=
  (∀ (k0_h4 : k0_cond4 i k0_t9 = 1#1), ∀ (r : Fin 4), ∀ a, (k0_off108 v311 (BitVec.ofNat 32 (16 * r.val))) a + S16.size a ≤ S32768.size a)
instance k0_chk17.dec : ∀ (i : grid0.Coords) (k0_t9 : Fin k0_t9_loop.trips) (v311 : BitVec 32), Decidable (k0_chk17 i k0_t9 v311) := fun i k0_t9 v311 => decidable_of_iff' _ (Iff.of_eq (k0_chk17.eq_1 i k0_t9 v311))
theorem k0_off108_inb : ∀ (i : grid0.Coords) (k0_t9 : Fin k0_t9_loop.trips) (v311 : BitVec 32) (k0_hw17 : k0_chk17 i k0_t9 v311), ∀ (k0_h4 : k0_cond4 i k0_t9 = 1#1), ∀ (r : Fin 4), ∀ a, (k0_off108 v311 (BitVec.ofNat 32 (16 * r.val))) a + S16.size a ≤ S32768.size a := fun i k0_t9 v311 k0_hw17 k0_h4 r => k0_hw17 k0_h4 r

def k0_off109 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_145 : BitVec 32 := 16#32
  let v324 : BitVec 32 := Scalar.muli arg17 c16_i32_145
  let c0_i32_146 : BitVec 32 := 0#32
  let v325 : BitVec 32 := Scalar.addi v324 c0_i32_146
  let v326 : Index := Scalar.indexCast v325
  let c0_147 : Index := 0#32
  ![v326.toNat, 0]
def k0_off110 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_148 : BitVec 32 := 16#32
  let v328 : BitVec 32 := Scalar.muli arg17 c16_i32_148
  let c0_i32_149 : BitVec 32 := 0#32
  let v329 : BitVec 32 := Scalar.addi v328 c0_i32_149
  let v330 : Index := Scalar.indexCast v329
  let c16_150 : Index := 16#32
  ![v330.toNat, 16]
def k0_off111 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_151 : BitVec 32 := 16#32
  let v332 : BitVec 32 := Scalar.muli arg17 c16_i32_151
  let c0_i32_152 : BitVec 32 := 0#32
  let v333 : BitVec 32 := Scalar.addi v332 c0_i32_152
  let v334 : Index := Scalar.indexCast v333
  let c32_153 : Index := 32#32
  ![v334.toNat, 32]
def k0_off112 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_154 : BitVec 32 := 16#32
  let v336 : BitVec 32 := Scalar.muli arg17 c16_i32_154
  let c0_i32_155 : BitVec 32 := 0#32
  let v337 : BitVec 32 := Scalar.addi v336 c0_i32_155
  let v338 : Index := Scalar.indexCast v337
  let c48_156 : Index := 48#32
  ![v338.toNat, 48]
def k0_off113 (v341 : BitVec 32) (c0_i32_157 : BitVec 32) : Fin 1 → Nat :=
  let v342 : BitVec 32 := Scalar.addi v341 c0_i32_157
  let v343 : Index := Scalar.indexCast v342
  ![v343.toNat]

def k0_chk18 (i : grid0.Coords) (k0_t9 : Fin k0_t9_loop.trips) (v341 : BitVec 32) : Prop :=
  (∀ (k0_h4 : k0_cond4 i k0_t9 = 1#1), ∀ (r : Fin 4), ∀ a, (k0_off113 v341 (BitVec.ofNat 32 (16 * r.val))) a + S16.size a ≤ S32768.size a)
instance k0_chk18.dec : ∀ (i : grid0.Coords) (k0_t9 : Fin k0_t9_loop.trips) (v341 : BitVec 32), Decidable (k0_chk18 i k0_t9 v341) := fun i k0_t9 v341 => decidable_of_iff' _ (Iff.of_eq (k0_chk18.eq_1 i k0_t9 v341))
theorem k0_off113_inb : ∀ (i : grid0.Coords) (k0_t9 : Fin k0_t9_loop.trips) (v341 : BitVec 32) (k0_hw18 : k0_chk18 i k0_t9 v341), ∀ (k0_h4 : k0_cond4 i k0_t9 = 1#1), ∀ (r : Fin 4), ∀ a, (k0_off113 v341 (BitVec.ofNat 32 (16 * r.val))) a + S16.size a ≤ S32768.size a := fun i k0_t9 v341 k0_hw18 k0_h4 r => k0_hw18 k0_h4 r

def k0_off114 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_161 : BitVec 32 := 16#32
  let v354 : BitVec 32 := Scalar.muli arg17 c16_i32_161
  let c1_i32_162 : BitVec 32 := 1#32
  let v355 : BitVec 32 := Scalar.addi v354 c1_i32_162
  let v356 : Index := Scalar.indexCast v355
  let c0_163 : Index := 0#32
  ![v356.toNat, 0]
def k0_off115 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_164 : BitVec 32 := 16#32
  let v358 : BitVec 32 := Scalar.muli arg17 c16_i32_164
  let c1_i32_165 : BitVec 32 := 1#32
  let v359 : BitVec 32 := Scalar.addi v358 c1_i32_165
  let v360 : Index := Scalar.indexCast v359
  let c16_166 : Index := 16#32
  ![v360.toNat, 16]
def k0_off116 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_167 : BitVec 32 := 16#32
  let v362 : BitVec 32 := Scalar.muli arg17 c16_i32_167
  let c1_i32_168 : BitVec 32 := 1#32
  let v363 : BitVec 32 := Scalar.addi v362 c1_i32_168
  let v364 : Index := Scalar.indexCast v363
  let c32_169 : Index := 32#32
  ![v364.toNat, 32]
def k0_off117 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_170 : BitVec 32 := 16#32
  let v366 : BitVec 32 := Scalar.muli arg17 c16_i32_170
  let c1_i32_171 : BitVec 32 := 1#32
  let v367 : BitVec 32 := Scalar.addi v366 c1_i32_171
  let v368 : Index := Scalar.indexCast v367
  let c48_172 : Index := 48#32
  ![v368.toNat, 48]
def k0_off118 (v371 : BitVec 32) (c0_i32_173 : BitVec 32) : Fin 1 → Nat :=
  let v372 : BitVec 32 := Scalar.addi v371 c0_i32_173
  let v373 : Index := Scalar.indexCast v372
  ![v373.toNat]

def k0_chk19 (i : grid0.Coords) (k0_t9 : Fin k0_t9_loop.trips) (v371 : BitVec 32) : Prop :=
  (∀ (k0_h4 : k0_cond4 i k0_t9 = 1#1), ∀ (r : Fin 4), ∀ a, (k0_off118 v371 (BitVec.ofNat 32 (16 * r.val))) a + S16.size a ≤ S32768.size a)
instance k0_chk19.dec : ∀ (i : grid0.Coords) (k0_t9 : Fin k0_t9_loop.trips) (v371 : BitVec 32), Decidable (k0_chk19 i k0_t9 v371) := fun i k0_t9 v371 => decidable_of_iff' _ (Iff.of_eq (k0_chk19.eq_1 i k0_t9 v371))
theorem k0_off118_inb : ∀ (i : grid0.Coords) (k0_t9 : Fin k0_t9_loop.trips) (v371 : BitVec 32) (k0_hw19 : k0_chk19 i k0_t9 v371), ∀ (k0_h4 : k0_cond4 i k0_t9 = 1#1), ∀ (r : Fin 4), ∀ a, (k0_off118 v371 (BitVec.ofNat 32 (16 * r.val))) a + S16.size a ≤ S32768.size a := fun i k0_t9 v371 k0_hw19 k0_h4 r => k0_hw19 k0_h4 r

def k0_off119 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_177 : BitVec 32 := 16#32
  let v384 : BitVec 32 := Scalar.muli arg17 c16_i32_177
  let c2_i32_178 : BitVec 32 := 2#32
  let v385 : BitVec 32 := Scalar.addi v384 c2_i32_178
  let v386 : Index := Scalar.indexCast v385
  let c0_179 : Index := 0#32
  ![v386.toNat, 0]
def k0_off120 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_180 : BitVec 32 := 16#32
  let v388 : BitVec 32 := Scalar.muli arg17 c16_i32_180
  let c2_i32_181 : BitVec 32 := 2#32
  let v389 : BitVec 32 := Scalar.addi v388 c2_i32_181
  let v390 : Index := Scalar.indexCast v389
  let c16_182 : Index := 16#32
  ![v390.toNat, 16]
def k0_off121 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_183 : BitVec 32 := 16#32
  let v392 : BitVec 32 := Scalar.muli arg17 c16_i32_183
  let c2_i32_184 : BitVec 32 := 2#32
  let v393 : BitVec 32 := Scalar.addi v392 c2_i32_184
  let v394 : Index := Scalar.indexCast v393
  let c32_185 : Index := 32#32
  ![v394.toNat, 32]
def k0_off122 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_186 : BitVec 32 := 16#32
  let v396 : BitVec 32 := Scalar.muli arg17 c16_i32_186
  let c2_i32_187 : BitVec 32 := 2#32
  let v397 : BitVec 32 := Scalar.addi v396 c2_i32_187
  let v398 : Index := Scalar.indexCast v397
  let c48_188 : Index := 48#32
  ![v398.toNat, 48]
def k0_off123 (v401 : BitVec 32) (c0_i32_189 : BitVec 32) : Fin 1 → Nat :=
  let v402 : BitVec 32 := Scalar.addi v401 c0_i32_189
  let v403 : Index := Scalar.indexCast v402
  ![v403.toNat]

def k0_chk20 (i : grid0.Coords) (k0_t9 : Fin k0_t9_loop.trips) (v401 : BitVec 32) : Prop :=
  (∀ (k0_h4 : k0_cond4 i k0_t9 = 1#1), ∀ (r : Fin 4), ∀ a, (k0_off123 v401 (BitVec.ofNat 32 (16 * r.val))) a + S16.size a ≤ S32768.size a)
instance k0_chk20.dec : ∀ (i : grid0.Coords) (k0_t9 : Fin k0_t9_loop.trips) (v401 : BitVec 32), Decidable (k0_chk20 i k0_t9 v401) := fun i k0_t9 v401 => decidable_of_iff' _ (Iff.of_eq (k0_chk20.eq_1 i k0_t9 v401))
theorem k0_off123_inb : ∀ (i : grid0.Coords) (k0_t9 : Fin k0_t9_loop.trips) (v401 : BitVec 32) (k0_hw20 : k0_chk20 i k0_t9 v401), ∀ (k0_h4 : k0_cond4 i k0_t9 = 1#1), ∀ (r : Fin 4), ∀ a, (k0_off123 v401 (BitVec.ofNat 32 (16 * r.val))) a + S16.size a ≤ S32768.size a := fun i k0_t9 v401 k0_hw20 k0_h4 r => k0_hw20 k0_h4 r

def k0_off124 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_193 : BitVec 32 := 16#32
  let v414 : BitVec 32 := Scalar.muli arg17 c16_i32_193
  let c3_i32 : BitVec 32 := 3#32
  let v415 : BitVec 32 := Scalar.addi v414 c3_i32
  let v416 : Index := Scalar.indexCast v415
  let c0_194 : Index := 0#32
  ![v416.toNat, 0]
def k0_off125 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_195 : BitVec 32 := 16#32
  let v418 : BitVec 32 := Scalar.muli arg17 c16_i32_195
  let c3_i32_196 : BitVec 32 := 3#32
  let v419 : BitVec 32 := Scalar.addi v418 c3_i32_196
  let v420 : Index := Scalar.indexCast v419
  let c16_197 : Index := 16#32
  ![v420.toNat, 16]
def k0_off126 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_198 : BitVec 32 := 16#32
  let v422 : BitVec 32 := Scalar.muli arg17 c16_i32_198
  let c3_i32_199 : BitVec 32 := 3#32
  let v423 : BitVec 32 := Scalar.addi v422 c3_i32_199
  let v424 : Index := Scalar.indexCast v423
  let c32_200 : Index := 32#32
  ![v424.toNat, 32]
def k0_off127 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_201 : BitVec 32 := 16#32
  let v426 : BitVec 32 := Scalar.muli arg17 c16_i32_201
  let c3_i32_202 : BitVec 32 := 3#32
  let v427 : BitVec 32 := Scalar.addi v426 c3_i32_202
  let v428 : Index := Scalar.indexCast v427
  let c48_203 : Index := 48#32
  ![v428.toNat, 48]
def k0_off128 (v431 : BitVec 32) (c0_i32_204 : BitVec 32) : Fin 1 → Nat :=
  let v432 : BitVec 32 := Scalar.addi v431 c0_i32_204
  let v433 : Index := Scalar.indexCast v432
  ![v433.toNat]

def k0_chk21 (i : grid0.Coords) (k0_t9 : Fin k0_t9_loop.trips) (v431 : BitVec 32) : Prop :=
  (∀ (k0_h4 : k0_cond4 i k0_t9 = 1#1), ∀ (r : Fin 4), ∀ a, (k0_off128 v431 (BitVec.ofNat 32 (16 * r.val))) a + S16.size a ≤ S32768.size a)
instance k0_chk21.dec : ∀ (i : grid0.Coords) (k0_t9 : Fin k0_t9_loop.trips) (v431 : BitVec 32), Decidable (k0_chk21 i k0_t9 v431) := fun i k0_t9 v431 => decidable_of_iff' _ (Iff.of_eq (k0_chk21.eq_1 i k0_t9 v431))
theorem k0_off128_inb : ∀ (i : grid0.Coords) (k0_t9 : Fin k0_t9_loop.trips) (v431 : BitVec 32) (k0_hw21 : k0_chk21 i k0_t9 v431), ∀ (k0_h4 : k0_cond4 i k0_t9 = 1#1), ∀ (r : Fin 4), ∀ a, (k0_off128 v431 (BitVec.ofNat 32 (16 * r.val))) a + S16.size a ≤ S32768.size a := fun i k0_t9 v431 k0_hw21 k0_h4 r => k0_hw21 k0_h4 r

def k0_off129 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_208 : BitVec 32 := 16#32
  let v444 : BitVec 32 := Scalar.muli arg17 c16_i32_208
  let c4_i32_209 : BitVec 32 := 4#32
  let v445 : BitVec 32 := Scalar.addi v444 c4_i32_209
  let v446 : Index := Scalar.indexCast v445
  let c0_210 : Index := 0#32
  ![v446.toNat, 0]
def k0_off130 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_211 : BitVec 32 := 16#32
  let v448 : BitVec 32 := Scalar.muli arg17 c16_i32_211
  let c4_i32_212 : BitVec 32 := 4#32
  let v449 : BitVec 32 := Scalar.addi v448 c4_i32_212
  let v450 : Index := Scalar.indexCast v449
  let c16_213 : Index := 16#32
  ![v450.toNat, 16]
def k0_off131 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_214 : BitVec 32 := 16#32
  let v452 : BitVec 32 := Scalar.muli arg17 c16_i32_214
  let c4_i32_215 : BitVec 32 := 4#32
  let v453 : BitVec 32 := Scalar.addi v452 c4_i32_215
  let v454 : Index := Scalar.indexCast v453
  let c32_216 : Index := 32#32
  ![v454.toNat, 32]
def k0_off132 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_217 : BitVec 32 := 16#32
  let v456 : BitVec 32 := Scalar.muli arg17 c16_i32_217
  let c4_i32_218 : BitVec 32 := 4#32
  let v457 : BitVec 32 := Scalar.addi v456 c4_i32_218
  let v458 : Index := Scalar.indexCast v457
  let c48_219 : Index := 48#32
  ![v458.toNat, 48]
def k0_off133 (v461 : BitVec 32) (c0_i32_220 : BitVec 32) : Fin 1 → Nat :=
  let v462 : BitVec 32 := Scalar.addi v461 c0_i32_220
  let v463 : Index := Scalar.indexCast v462
  ![v463.toNat]

def k0_chk22 (i : grid0.Coords) (k0_t9 : Fin k0_t9_loop.trips) (v461 : BitVec 32) : Prop :=
  (∀ (k0_h4 : k0_cond4 i k0_t9 = 1#1), ∀ (r : Fin 4), ∀ a, (k0_off133 v461 (BitVec.ofNat 32 (16 * r.val))) a + S16.size a ≤ S32768.size a)
instance k0_chk22.dec : ∀ (i : grid0.Coords) (k0_t9 : Fin k0_t9_loop.trips) (v461 : BitVec 32), Decidable (k0_chk22 i k0_t9 v461) := fun i k0_t9 v461 => decidable_of_iff' _ (Iff.of_eq (k0_chk22.eq_1 i k0_t9 v461))
theorem k0_off133_inb : ∀ (i : grid0.Coords) (k0_t9 : Fin k0_t9_loop.trips) (v461 : BitVec 32) (k0_hw22 : k0_chk22 i k0_t9 v461), ∀ (k0_h4 : k0_cond4 i k0_t9 = 1#1), ∀ (r : Fin 4), ∀ a, (k0_off133 v461 (BitVec.ofNat 32 (16 * r.val))) a + S16.size a ≤ S32768.size a := fun i k0_t9 v461 k0_hw22 k0_h4 r => k0_hw22 k0_h4 r

def k0_off134 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_224 : BitVec 32 := 16#32
  let v474 : BitVec 32 := Scalar.muli arg17 c16_i32_224
  let c5_i32 : BitVec 32 := 5#32
  let v475 : BitVec 32 := Scalar.addi v474 c5_i32
  let v476 : Index := Scalar.indexCast v475
  let c0_225 : Index := 0#32
  ![v476.toNat, 0]
def k0_off135 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_226 : BitVec 32 := 16#32
  let v478 : BitVec 32 := Scalar.muli arg17 c16_i32_226
  let c5_i32_227 : BitVec 32 := 5#32
  let v479 : BitVec 32 := Scalar.addi v478 c5_i32_227
  let v480 : Index := Scalar.indexCast v479
  let c16_228 : Index := 16#32
  ![v480.toNat, 16]
def k0_off136 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_229 : BitVec 32 := 16#32
  let v482 : BitVec 32 := Scalar.muli arg17 c16_i32_229
  let c5_i32_230 : BitVec 32 := 5#32
  let v483 : BitVec 32 := Scalar.addi v482 c5_i32_230
  let v484 : Index := Scalar.indexCast v483
  let c32_231 : Index := 32#32
  ![v484.toNat, 32]
def k0_off137 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_232 : BitVec 32 := 16#32
  let v486 : BitVec 32 := Scalar.muli arg17 c16_i32_232
  let c5_i32_233 : BitVec 32 := 5#32
  let v487 : BitVec 32 := Scalar.addi v486 c5_i32_233
  let v488 : Index := Scalar.indexCast v487
  let c48_234 : Index := 48#32
  ![v488.toNat, 48]
def k0_off138 (v491 : BitVec 32) (c0_i32_235 : BitVec 32) : Fin 1 → Nat :=
  let v492 : BitVec 32 := Scalar.addi v491 c0_i32_235
  let v493 : Index := Scalar.indexCast v492
  ![v493.toNat]

def k0_chk23 (i : grid0.Coords) (k0_t9 : Fin k0_t9_loop.trips) (v491 : BitVec 32) : Prop :=
  (∀ (k0_h4 : k0_cond4 i k0_t9 = 1#1), ∀ (r : Fin 4), ∀ a, (k0_off138 v491 (BitVec.ofNat 32 (16 * r.val))) a + S16.size a ≤ S32768.size a)
instance k0_chk23.dec : ∀ (i : grid0.Coords) (k0_t9 : Fin k0_t9_loop.trips) (v491 : BitVec 32), Decidable (k0_chk23 i k0_t9 v491) := fun i k0_t9 v491 => decidable_of_iff' _ (Iff.of_eq (k0_chk23.eq_1 i k0_t9 v491))
theorem k0_off138_inb : ∀ (i : grid0.Coords) (k0_t9 : Fin k0_t9_loop.trips) (v491 : BitVec 32) (k0_hw23 : k0_chk23 i k0_t9 v491), ∀ (k0_h4 : k0_cond4 i k0_t9 = 1#1), ∀ (r : Fin 4), ∀ a, (k0_off138 v491 (BitVec.ofNat 32 (16 * r.val))) a + S16.size a ≤ S32768.size a := fun i k0_t9 v491 k0_hw23 k0_h4 r => k0_hw23 k0_h4 r

def k0_off139 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_239 : BitVec 32 := 16#32
  let v504 : BitVec 32 := Scalar.muli arg17 c16_i32_239
  let c6_i32 : BitVec 32 := 6#32
  let v505 : BitVec 32 := Scalar.addi v504 c6_i32
  let v506 : Index := Scalar.indexCast v505
  let c0_240 : Index := 0#32
  ![v506.toNat, 0]
def k0_off140 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_241 : BitVec 32 := 16#32
  let v508 : BitVec 32 := Scalar.muli arg17 c16_i32_241
  let c6_i32_242 : BitVec 32 := 6#32
  let v509 : BitVec 32 := Scalar.addi v508 c6_i32_242
  let v510 : Index := Scalar.indexCast v509
  let c16_243 : Index := 16#32
  ![v510.toNat, 16]
def k0_off141 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_244 : BitVec 32 := 16#32
  let v512 : BitVec 32 := Scalar.muli arg17 c16_i32_244
  let c6_i32_245 : BitVec 32 := 6#32
  let v513 : BitVec 32 := Scalar.addi v512 c6_i32_245
  let v514 : Index := Scalar.indexCast v513
  let c32_246 : Index := 32#32
  ![v514.toNat, 32]
def k0_off142 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_247 : BitVec 32 := 16#32
  let v516 : BitVec 32 := Scalar.muli arg17 c16_i32_247
  let c6_i32_248 : BitVec 32 := 6#32
  let v517 : BitVec 32 := Scalar.addi v516 c6_i32_248
  let v518 : Index := Scalar.indexCast v517
  let c48_249 : Index := 48#32
  ![v518.toNat, 48]
def k0_off143 (v521 : BitVec 32) (c0_i32_250 : BitVec 32) : Fin 1 → Nat :=
  let v522 : BitVec 32 := Scalar.addi v521 c0_i32_250
  let v523 : Index := Scalar.indexCast v522
  ![v523.toNat]

def k0_chk24 (i : grid0.Coords) (k0_t9 : Fin k0_t9_loop.trips) (v521 : BitVec 32) : Prop :=
  (∀ (k0_h4 : k0_cond4 i k0_t9 = 1#1), ∀ (r : Fin 4), ∀ a, (k0_off143 v521 (BitVec.ofNat 32 (16 * r.val))) a + S16.size a ≤ S32768.size a)
instance k0_chk24.dec : ∀ (i : grid0.Coords) (k0_t9 : Fin k0_t9_loop.trips) (v521 : BitVec 32), Decidable (k0_chk24 i k0_t9 v521) := fun i k0_t9 v521 => decidable_of_iff' _ (Iff.of_eq (k0_chk24.eq_1 i k0_t9 v521))
theorem k0_off143_inb : ∀ (i : grid0.Coords) (k0_t9 : Fin k0_t9_loop.trips) (v521 : BitVec 32) (k0_hw24 : k0_chk24 i k0_t9 v521), ∀ (k0_h4 : k0_cond4 i k0_t9 = 1#1), ∀ (r : Fin 4), ∀ a, (k0_off143 v521 (BitVec.ofNat 32 (16 * r.val))) a + S16.size a ≤ S32768.size a := fun i k0_t9 v521 k0_hw24 k0_h4 r => k0_hw24 k0_h4 r

def k0_off144 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_254 : BitVec 32 := 16#32
  let v534 : BitVec 32 := Scalar.muli arg17 c16_i32_254
  let c7_i32 : BitVec 32 := 7#32
  let v535 : BitVec 32 := Scalar.addi v534 c7_i32
  let v536 : Index := Scalar.indexCast v535
  let c0_255 : Index := 0#32
  ![v536.toNat, 0]
def k0_off145 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_256 : BitVec 32 := 16#32
  let v538 : BitVec 32 := Scalar.muli arg17 c16_i32_256
  let c7_i32_257 : BitVec 32 := 7#32
  let v539 : BitVec 32 := Scalar.addi v538 c7_i32_257
  let v540 : Index := Scalar.indexCast v539
  let c16_258 : Index := 16#32
  ![v540.toNat, 16]
def k0_off146 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_259 : BitVec 32 := 16#32
  let v542 : BitVec 32 := Scalar.muli arg17 c16_i32_259
  let c7_i32_260 : BitVec 32 := 7#32
  let v543 : BitVec 32 := Scalar.addi v542 c7_i32_260
  let v544 : Index := Scalar.indexCast v543
  let c32_261 : Index := 32#32
  ![v544.toNat, 32]
def k0_off147 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_262 : BitVec 32 := 16#32
  let v546 : BitVec 32 := Scalar.muli arg17 c16_i32_262
  let c7_i32_263 : BitVec 32 := 7#32
  let v547 : BitVec 32 := Scalar.addi v546 c7_i32_263
  let v548 : Index := Scalar.indexCast v547
  let c48_264 : Index := 48#32
  ![v548.toNat, 48]
def k0_off148 (v551 : BitVec 32) (c0_i32_265 : BitVec 32) : Fin 1 → Nat :=
  let v552 : BitVec 32 := Scalar.addi v551 c0_i32_265
  let v553 : Index := Scalar.indexCast v552
  ![v553.toNat]

def k0_chk25 (i : grid0.Coords) (k0_t9 : Fin k0_t9_loop.trips) (v551 : BitVec 32) : Prop :=
  (∀ (k0_h4 : k0_cond4 i k0_t9 = 1#1), ∀ (r : Fin 4), ∀ a, (k0_off148 v551 (BitVec.ofNat 32 (16 * r.val))) a + S16.size a ≤ S32768.size a)
instance k0_chk25.dec : ∀ (i : grid0.Coords) (k0_t9 : Fin k0_t9_loop.trips) (v551 : BitVec 32), Decidable (k0_chk25 i k0_t9 v551) := fun i k0_t9 v551 => decidable_of_iff' _ (Iff.of_eq (k0_chk25.eq_1 i k0_t9 v551))
theorem k0_off148_inb : ∀ (i : grid0.Coords) (k0_t9 : Fin k0_t9_loop.trips) (v551 : BitVec 32) (k0_hw25 : k0_chk25 i k0_t9 v551), ∀ (k0_h4 : k0_cond4 i k0_t9 = 1#1), ∀ (r : Fin 4), ∀ a, (k0_off148 v551 (BitVec.ofNat 32 (16 * r.val))) a + S16.size a ≤ S32768.size a := fun i k0_t9 v551 k0_hw25 k0_h4 r => k0_hw25 k0_h4 r

def k0_off149 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_269 : BitVec 32 := 16#32
  let v564 : BitVec 32 := Scalar.muli arg17 c16_i32_269
  let c8_i32_270 : BitVec 32 := 8#32
  let v565 : BitVec 32 := Scalar.addi v564 c8_i32_270
  let v566 : Index := Scalar.indexCast v565
  let c0_271 : Index := 0#32
  ![v566.toNat, 0]
def k0_off150 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_272 : BitVec 32 := 16#32
  let v568 : BitVec 32 := Scalar.muli arg17 c16_i32_272
  let c8_i32_273 : BitVec 32 := 8#32
  let v569 : BitVec 32 := Scalar.addi v568 c8_i32_273
  let v570 : Index := Scalar.indexCast v569
  let c16_274 : Index := 16#32
  ![v570.toNat, 16]
def k0_off151 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_275 : BitVec 32 := 16#32
  let v572 : BitVec 32 := Scalar.muli arg17 c16_i32_275
  let c8_i32_276 : BitVec 32 := 8#32
  let v573 : BitVec 32 := Scalar.addi v572 c8_i32_276
  let v574 : Index := Scalar.indexCast v573
  let c32_277 : Index := 32#32
  ![v574.toNat, 32]
def k0_off152 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_278 : BitVec 32 := 16#32
  let v576 : BitVec 32 := Scalar.muli arg17 c16_i32_278
  let c8_i32_279 : BitVec 32 := 8#32
  let v577 : BitVec 32 := Scalar.addi v576 c8_i32_279
  let v578 : Index := Scalar.indexCast v577
  let c48_280 : Index := 48#32
  ![v578.toNat, 48]
def k0_off153 (v581 : BitVec 32) (c0_i32_281 : BitVec 32) : Fin 1 → Nat :=
  let v582 : BitVec 32 := Scalar.addi v581 c0_i32_281
  let v583 : Index := Scalar.indexCast v582
  ![v583.toNat]

def k0_chk26 (i : grid0.Coords) (k0_t9 : Fin k0_t9_loop.trips) (v581 : BitVec 32) : Prop :=
  (∀ (k0_h4 : k0_cond4 i k0_t9 = 1#1), ∀ (r : Fin 4), ∀ a, (k0_off153 v581 (BitVec.ofNat 32 (16 * r.val))) a + S16.size a ≤ S32768.size a)
instance k0_chk26.dec : ∀ (i : grid0.Coords) (k0_t9 : Fin k0_t9_loop.trips) (v581 : BitVec 32), Decidable (k0_chk26 i k0_t9 v581) := fun i k0_t9 v581 => decidable_of_iff' _ (Iff.of_eq (k0_chk26.eq_1 i k0_t9 v581))
theorem k0_off153_inb : ∀ (i : grid0.Coords) (k0_t9 : Fin k0_t9_loop.trips) (v581 : BitVec 32) (k0_hw26 : k0_chk26 i k0_t9 v581), ∀ (k0_h4 : k0_cond4 i k0_t9 = 1#1), ∀ (r : Fin 4), ∀ a, (k0_off153 v581 (BitVec.ofNat 32 (16 * r.val))) a + S16.size a ≤ S32768.size a := fun i k0_t9 v581 k0_hw26 k0_h4 r => k0_hw26 k0_h4 r

def k0_off154 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_285 : BitVec 32 := 16#32
  let v594 : BitVec 32 := Scalar.muli arg17 c16_i32_285
  let c9_i32 : BitVec 32 := 9#32
  let v595 : BitVec 32 := Scalar.addi v594 c9_i32
  let v596 : Index := Scalar.indexCast v595
  let c0_286 : Index := 0#32
  ![v596.toNat, 0]
def k0_off155 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_287 : BitVec 32 := 16#32
  let v598 : BitVec 32 := Scalar.muli arg17 c16_i32_287
  let c9_i32_288 : BitVec 32 := 9#32
  let v599 : BitVec 32 := Scalar.addi v598 c9_i32_288
  let v600 : Index := Scalar.indexCast v599
  let c16_289 : Index := 16#32
  ![v600.toNat, 16]
def k0_off156 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_290 : BitVec 32 := 16#32
  let v602 : BitVec 32 := Scalar.muli arg17 c16_i32_290
  let c9_i32_291 : BitVec 32 := 9#32
  let v603 : BitVec 32 := Scalar.addi v602 c9_i32_291
  let v604 : Index := Scalar.indexCast v603
  let c32_292 : Index := 32#32
  ![v604.toNat, 32]
def k0_off157 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_293 : BitVec 32 := 16#32
  let v606 : BitVec 32 := Scalar.muli arg17 c16_i32_293
  let c9_i32_294 : BitVec 32 := 9#32
  let v607 : BitVec 32 := Scalar.addi v606 c9_i32_294
  let v608 : Index := Scalar.indexCast v607
  let c48_295 : Index := 48#32
  ![v608.toNat, 48]
def k0_off158 (v611 : BitVec 32) (c0_i32_296 : BitVec 32) : Fin 1 → Nat :=
  let v612 : BitVec 32 := Scalar.addi v611 c0_i32_296
  let v613 : Index := Scalar.indexCast v612
  ![v613.toNat]

def k0_chk27 (i : grid0.Coords) (k0_t9 : Fin k0_t9_loop.trips) (v611 : BitVec 32) : Prop :=
  (∀ (k0_h4 : k0_cond4 i k0_t9 = 1#1), ∀ (r : Fin 4), ∀ a, (k0_off158 v611 (BitVec.ofNat 32 (16 * r.val))) a + S16.size a ≤ S32768.size a)
instance k0_chk27.dec : ∀ (i : grid0.Coords) (k0_t9 : Fin k0_t9_loop.trips) (v611 : BitVec 32), Decidable (k0_chk27 i k0_t9 v611) := fun i k0_t9 v611 => decidable_of_iff' _ (Iff.of_eq (k0_chk27.eq_1 i k0_t9 v611))
theorem k0_off158_inb : ∀ (i : grid0.Coords) (k0_t9 : Fin k0_t9_loop.trips) (v611 : BitVec 32) (k0_hw27 : k0_chk27 i k0_t9 v611), ∀ (k0_h4 : k0_cond4 i k0_t9 = 1#1), ∀ (r : Fin 4), ∀ a, (k0_off158 v611 (BitVec.ofNat 32 (16 * r.val))) a + S16.size a ≤ S32768.size a := fun i k0_t9 v611 k0_hw27 k0_h4 r => k0_hw27 k0_h4 r

def k0_off159 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_300 : BitVec 32 := 16#32
  let v624 : BitVec 32 := Scalar.muli arg17 c16_i32_300
  let c10_i32_301 : BitVec 32 := 10#32
  let v625 : BitVec 32 := Scalar.addi v624 c10_i32_301
  let v626 : Index := Scalar.indexCast v625
  let c0_302 : Index := 0#32
  ![v626.toNat, 0]
def k0_off160 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_303 : BitVec 32 := 16#32
  let v628 : BitVec 32 := Scalar.muli arg17 c16_i32_303
  let c10_i32_304 : BitVec 32 := 10#32
  let v629 : BitVec 32 := Scalar.addi v628 c10_i32_304
  let v630 : Index := Scalar.indexCast v629
  let c16_305 : Index := 16#32
  ![v630.toNat, 16]
def k0_off161 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_306 : BitVec 32 := 16#32
  let v632 : BitVec 32 := Scalar.muli arg17 c16_i32_306
  let c10_i32_307 : BitVec 32 := 10#32
  let v633 : BitVec 32 := Scalar.addi v632 c10_i32_307
  let v634 : Index := Scalar.indexCast v633
  let c32_308 : Index := 32#32
  ![v634.toNat, 32]
def k0_off162 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_309 : BitVec 32 := 16#32
  let v636 : BitVec 32 := Scalar.muli arg17 c16_i32_309
  let c10_i32_310 : BitVec 32 := 10#32
  let v637 : BitVec 32 := Scalar.addi v636 c10_i32_310
  let v638 : Index := Scalar.indexCast v637
  let c48_311 : Index := 48#32
  ![v638.toNat, 48]
def k0_off163 (v641 : BitVec 32) (c0_i32_312 : BitVec 32) : Fin 1 → Nat :=
  let v642 : BitVec 32 := Scalar.addi v641 c0_i32_312
  let v643 : Index := Scalar.indexCast v642
  ![v643.toNat]

def k0_chk28 (i : grid0.Coords) (k0_t9 : Fin k0_t9_loop.trips) (v641 : BitVec 32) : Prop :=
  (∀ (k0_h4 : k0_cond4 i k0_t9 = 1#1), ∀ (r : Fin 4), ∀ a, (k0_off163 v641 (BitVec.ofNat 32 (16 * r.val))) a + S16.size a ≤ S32768.size a)
instance k0_chk28.dec : ∀ (i : grid0.Coords) (k0_t9 : Fin k0_t9_loop.trips) (v641 : BitVec 32), Decidable (k0_chk28 i k0_t9 v641) := fun i k0_t9 v641 => decidable_of_iff' _ (Iff.of_eq (k0_chk28.eq_1 i k0_t9 v641))
theorem k0_off163_inb : ∀ (i : grid0.Coords) (k0_t9 : Fin k0_t9_loop.trips) (v641 : BitVec 32) (k0_hw28 : k0_chk28 i k0_t9 v641), ∀ (k0_h4 : k0_cond4 i k0_t9 = 1#1), ∀ (r : Fin 4), ∀ a, (k0_off163 v641 (BitVec.ofNat 32 (16 * r.val))) a + S16.size a ≤ S32768.size a := fun i k0_t9 v641 k0_hw28 k0_h4 r => k0_hw28 k0_h4 r

def k0_off164 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_316 : BitVec 32 := 16#32
  let v654 : BitVec 32 := Scalar.muli arg17 c16_i32_316
  let c11_i32 : BitVec 32 := 11#32
  let v655 : BitVec 32 := Scalar.addi v654 c11_i32
  let v656 : Index := Scalar.indexCast v655
  let c0_317 : Index := 0#32
  ![v656.toNat, 0]
def k0_off165 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_318 : BitVec 32 := 16#32
  let v658 : BitVec 32 := Scalar.muli arg17 c16_i32_318
  let c11_i32_319 : BitVec 32 := 11#32
  let v659 : BitVec 32 := Scalar.addi v658 c11_i32_319
  let v660 : Index := Scalar.indexCast v659
  let c16_320 : Index := 16#32
  ![v660.toNat, 16]
def k0_off166 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_321 : BitVec 32 := 16#32
  let v662 : BitVec 32 := Scalar.muli arg17 c16_i32_321
  let c11_i32_322 : BitVec 32 := 11#32
  let v663 : BitVec 32 := Scalar.addi v662 c11_i32_322
  let v664 : Index := Scalar.indexCast v663
  let c32_323 : Index := 32#32
  ![v664.toNat, 32]
def k0_off167 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_324 : BitVec 32 := 16#32
  let v666 : BitVec 32 := Scalar.muli arg17 c16_i32_324
  let c11_i32_325 : BitVec 32 := 11#32
  let v667 : BitVec 32 := Scalar.addi v666 c11_i32_325
  let v668 : Index := Scalar.indexCast v667
  let c48_326 : Index := 48#32
  ![v668.toNat, 48]
def k0_off168 (v671 : BitVec 32) (c0_i32_327 : BitVec 32) : Fin 1 → Nat :=
  let v672 : BitVec 32 := Scalar.addi v671 c0_i32_327
  let v673 : Index := Scalar.indexCast v672
  ![v673.toNat]

def k0_chk29 (i : grid0.Coords) (k0_t9 : Fin k0_t9_loop.trips) (v671 : BitVec 32) : Prop :=
  (∀ (k0_h4 : k0_cond4 i k0_t9 = 1#1), ∀ (r : Fin 4), ∀ a, (k0_off168 v671 (BitVec.ofNat 32 (16 * r.val))) a + S16.size a ≤ S32768.size a)
instance k0_chk29.dec : ∀ (i : grid0.Coords) (k0_t9 : Fin k0_t9_loop.trips) (v671 : BitVec 32), Decidable (k0_chk29 i k0_t9 v671) := fun i k0_t9 v671 => decidable_of_iff' _ (Iff.of_eq (k0_chk29.eq_1 i k0_t9 v671))
theorem k0_off168_inb : ∀ (i : grid0.Coords) (k0_t9 : Fin k0_t9_loop.trips) (v671 : BitVec 32) (k0_hw29 : k0_chk29 i k0_t9 v671), ∀ (k0_h4 : k0_cond4 i k0_t9 = 1#1), ∀ (r : Fin 4), ∀ a, (k0_off168 v671 (BitVec.ofNat 32 (16 * r.val))) a + S16.size a ≤ S32768.size a := fun i k0_t9 v671 k0_hw29 k0_h4 r => k0_hw29 k0_h4 r

def k0_off169 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_331 : BitVec 32 := 16#32
  let v684 : BitVec 32 := Scalar.muli arg17 c16_i32_331
  let c12_i32 : BitVec 32 := 12#32
  let v685 : BitVec 32 := Scalar.addi v684 c12_i32
  let v686 : Index := Scalar.indexCast v685
  let c0_332 : Index := 0#32
  ![v686.toNat, 0]
def k0_off170 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_333 : BitVec 32 := 16#32
  let v688 : BitVec 32 := Scalar.muli arg17 c16_i32_333
  let c12_i32_334 : BitVec 32 := 12#32
  let v689 : BitVec 32 := Scalar.addi v688 c12_i32_334
  let v690 : Index := Scalar.indexCast v689
  let c16_335 : Index := 16#32
  ![v690.toNat, 16]
def k0_off171 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_336 : BitVec 32 := 16#32
  let v692 : BitVec 32 := Scalar.muli arg17 c16_i32_336
  let c12_i32_337 : BitVec 32 := 12#32
  let v693 : BitVec 32 := Scalar.addi v692 c12_i32_337
  let v694 : Index := Scalar.indexCast v693
  let c32_338 : Index := 32#32
  ![v694.toNat, 32]
def k0_off172 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_339 : BitVec 32 := 16#32
  let v696 : BitVec 32 := Scalar.muli arg17 c16_i32_339
  let c12_i32_340 : BitVec 32 := 12#32
  let v697 : BitVec 32 := Scalar.addi v696 c12_i32_340
  let v698 : Index := Scalar.indexCast v697
  let c48_341 : Index := 48#32
  ![v698.toNat, 48]
def k0_off173 (v701 : BitVec 32) (c0_i32_342 : BitVec 32) : Fin 1 → Nat :=
  let v702 : BitVec 32 := Scalar.addi v701 c0_i32_342
  let v703 : Index := Scalar.indexCast v702
  ![v703.toNat]

def k0_chk30 (i : grid0.Coords) (k0_t9 : Fin k0_t9_loop.trips) (v701 : BitVec 32) : Prop :=
  (∀ (k0_h4 : k0_cond4 i k0_t9 = 1#1), ∀ (r : Fin 4), ∀ a, (k0_off173 v701 (BitVec.ofNat 32 (16 * r.val))) a + S16.size a ≤ S32768.size a)
instance k0_chk30.dec : ∀ (i : grid0.Coords) (k0_t9 : Fin k0_t9_loop.trips) (v701 : BitVec 32), Decidable (k0_chk30 i k0_t9 v701) := fun i k0_t9 v701 => decidable_of_iff' _ (Iff.of_eq (k0_chk30.eq_1 i k0_t9 v701))
theorem k0_off173_inb : ∀ (i : grid0.Coords) (k0_t9 : Fin k0_t9_loop.trips) (v701 : BitVec 32) (k0_hw30 : k0_chk30 i k0_t9 v701), ∀ (k0_h4 : k0_cond4 i k0_t9 = 1#1), ∀ (r : Fin 4), ∀ a, (k0_off173 v701 (BitVec.ofNat 32 (16 * r.val))) a + S16.size a ≤ S32768.size a := fun i k0_t9 v701 k0_hw30 k0_h4 r => k0_hw30 k0_h4 r

def k0_off174 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_346 : BitVec 32 := 16#32
  let v714 : BitVec 32 := Scalar.muli arg17 c16_i32_346
  let c13_i32 : BitVec 32 := 13#32
  let v715 : BitVec 32 := Scalar.addi v714 c13_i32
  let v716 : Index := Scalar.indexCast v715
  let c0_347 : Index := 0#32
  ![v716.toNat, 0]
def k0_off175 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_348 : BitVec 32 := 16#32
  let v718 : BitVec 32 := Scalar.muli arg17 c16_i32_348
  let c13_i32_349 : BitVec 32 := 13#32
  let v719 : BitVec 32 := Scalar.addi v718 c13_i32_349
  let v720 : Index := Scalar.indexCast v719
  let c16_350 : Index := 16#32
  ![v720.toNat, 16]
def k0_off176 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_351 : BitVec 32 := 16#32
  let v722 : BitVec 32 := Scalar.muli arg17 c16_i32_351
  let c13_i32_352 : BitVec 32 := 13#32
  let v723 : BitVec 32 := Scalar.addi v722 c13_i32_352
  let v724 : Index := Scalar.indexCast v723
  let c32_353 : Index := 32#32
  ![v724.toNat, 32]
def k0_off177 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_354 : BitVec 32 := 16#32
  let v726 : BitVec 32 := Scalar.muli arg17 c16_i32_354
  let c13_i32_355 : BitVec 32 := 13#32
  let v727 : BitVec 32 := Scalar.addi v726 c13_i32_355
  let v728 : Index := Scalar.indexCast v727
  let c48_356 : Index := 48#32
  ![v728.toNat, 48]
def k0_off178 (v731 : BitVec 32) (c0_i32_357 : BitVec 32) : Fin 1 → Nat :=
  let v732 : BitVec 32 := Scalar.addi v731 c0_i32_357
  let v733 : Index := Scalar.indexCast v732
  ![v733.toNat]

def k0_chk31 (i : grid0.Coords) (k0_t9 : Fin k0_t9_loop.trips) (v731 : BitVec 32) : Prop :=
  (∀ (k0_h4 : k0_cond4 i k0_t9 = 1#1), ∀ (r : Fin 4), ∀ a, (k0_off178 v731 (BitVec.ofNat 32 (16 * r.val))) a + S16.size a ≤ S32768.size a)
instance k0_chk31.dec : ∀ (i : grid0.Coords) (k0_t9 : Fin k0_t9_loop.trips) (v731 : BitVec 32), Decidable (k0_chk31 i k0_t9 v731) := fun i k0_t9 v731 => decidable_of_iff' _ (Iff.of_eq (k0_chk31.eq_1 i k0_t9 v731))
theorem k0_off178_inb : ∀ (i : grid0.Coords) (k0_t9 : Fin k0_t9_loop.trips) (v731 : BitVec 32) (k0_hw31 : k0_chk31 i k0_t9 v731), ∀ (k0_h4 : k0_cond4 i k0_t9 = 1#1), ∀ (r : Fin 4), ∀ a, (k0_off178 v731 (BitVec.ofNat 32 (16 * r.val))) a + S16.size a ≤ S32768.size a := fun i k0_t9 v731 k0_hw31 k0_h4 r => k0_hw31 k0_h4 r

def k0_off179 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_361 : BitVec 32 := 16#32
  let v744 : BitVec 32 := Scalar.muli arg17 c16_i32_361
  let c14_i32 : BitVec 32 := 14#32
  let v745 : BitVec 32 := Scalar.addi v744 c14_i32
  let v746 : Index := Scalar.indexCast v745
  let c0_362 : Index := 0#32
  ![v746.toNat, 0]
def k0_off180 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_363 : BitVec 32 := 16#32
  let v748 : BitVec 32 := Scalar.muli arg17 c16_i32_363
  let c14_i32_364 : BitVec 32 := 14#32
  let v749 : BitVec 32 := Scalar.addi v748 c14_i32_364
  let v750 : Index := Scalar.indexCast v749
  let c16_365 : Index := 16#32
  ![v750.toNat, 16]
def k0_off181 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_366 : BitVec 32 := 16#32
  let v752 : BitVec 32 := Scalar.muli arg17 c16_i32_366
  let c14_i32_367 : BitVec 32 := 14#32
  let v753 : BitVec 32 := Scalar.addi v752 c14_i32_367
  let v754 : Index := Scalar.indexCast v753
  let c32_368 : Index := 32#32
  ![v754.toNat, 32]
def k0_off182 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_369 : BitVec 32 := 16#32
  let v756 : BitVec 32 := Scalar.muli arg17 c16_i32_369
  let c14_i32_370 : BitVec 32 := 14#32
  let v757 : BitVec 32 := Scalar.addi v756 c14_i32_370
  let v758 : Index := Scalar.indexCast v757
  let c48_371 : Index := 48#32
  ![v758.toNat, 48]
def k0_off183 (v761 : BitVec 32) (c0_i32_372 : BitVec 32) : Fin 1 → Nat :=
  let v762 : BitVec 32 := Scalar.addi v761 c0_i32_372
  let v763 : Index := Scalar.indexCast v762
  ![v763.toNat]

def k0_chk32 (i : grid0.Coords) (k0_t9 : Fin k0_t9_loop.trips) (v761 : BitVec 32) : Prop :=
  (∀ (k0_h4 : k0_cond4 i k0_t9 = 1#1), ∀ (r : Fin 4), ∀ a, (k0_off183 v761 (BitVec.ofNat 32 (16 * r.val))) a + S16.size a ≤ S32768.size a)
instance k0_chk32.dec : ∀ (i : grid0.Coords) (k0_t9 : Fin k0_t9_loop.trips) (v761 : BitVec 32), Decidable (k0_chk32 i k0_t9 v761) := fun i k0_t9 v761 => decidable_of_iff' _ (Iff.of_eq (k0_chk32.eq_1 i k0_t9 v761))
theorem k0_off183_inb : ∀ (i : grid0.Coords) (k0_t9 : Fin k0_t9_loop.trips) (v761 : BitVec 32) (k0_hw32 : k0_chk32 i k0_t9 v761), ∀ (k0_h4 : k0_cond4 i k0_t9 = 1#1), ∀ (r : Fin 4), ∀ a, (k0_off183 v761 (BitVec.ofNat 32 (16 * r.val))) a + S16.size a ≤ S32768.size a := fun i k0_t9 v761 k0_hw32 k0_h4 r => k0_hw32 k0_h4 r

def k0_off184 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_376 : BitVec 32 := 16#32
  let v774 : BitVec 32 := Scalar.muli arg17 c16_i32_376
  let c15_i32 : BitVec 32 := 15#32
  let v775 : BitVec 32 := Scalar.addi v774 c15_i32
  let v776 : Index := Scalar.indexCast v775
  let c0_377 : Index := 0#32
  ![v776.toNat, 0]
def k0_off185 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_378 : BitVec 32 := 16#32
  let v778 : BitVec 32 := Scalar.muli arg17 c16_i32_378
  let c15_i32_379 : BitVec 32 := 15#32
  let v779 : BitVec 32 := Scalar.addi v778 c15_i32_379
  let v780 : Index := Scalar.indexCast v779
  let c16_380 : Index := 16#32
  ![v780.toNat, 16]
def k0_off186 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_381 : BitVec 32 := 16#32
  let v782 : BitVec 32 := Scalar.muli arg17 c16_i32_381
  let c15_i32_382 : BitVec 32 := 15#32
  let v783 : BitVec 32 := Scalar.addi v782 c15_i32_382
  let v784 : Index := Scalar.indexCast v783
  let c32_383 : Index := 32#32
  ![v784.toNat, 32]
def k0_off187 (k0_t11 : Fin k0_t11_loop.trips) : Fin 2 → Nat :=
  let c0_i32_129 : BitVec 32 := 0#32
  let c1_i32_131 : BitVec 32 := 1#32
  let arg17 : BitVec 32 := Scf.iv c0_i32_129 c1_i32_131 k0_t11
  let c16_i32_384 : BitVec 32 := 16#32
  let v786 : BitVec 32 := Scalar.muli arg17 c16_i32_384
  let c15_i32_385 : BitVec 32 := 15#32
  let v787 : BitVec 32 := Scalar.addi v786 c15_i32_385
  let v788 : Index := Scalar.indexCast v787
  let c48_386 : Index := 48#32
  ![v788.toNat, 48]
def k0_off188 (i : grid0.Coords) (k0_t9 : Fin k0_t9_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_106 : BitVec 32 := 0#32
  let c1_i32_107 : BitVec 32 := 1#32
  let arg15 : BitVec 32 := Scf.iv c0_i32_106 c1_i32_107 k0_t9
  let c2_i32_120 : BitVec 32 := 2#32
  let v281 : BitVec 32 := Scalar.muli arg15 c2_i32_120
  let c1_i32_121 : BitVec 32 := 1#32
  let v282 : BitVec 32 := Scalar.addi v281 c1_i32_121
  let c32_i32_133 : BitVec 32 := 32#32
  let v296 : BitVec 32 := Scalar.muli v282 c32_i32_133
  let v297 : BitVec 32 := Scalar.addi v1 v296
  let c160_i32_134 : BitVec 32 := 160#32
  let v298 : BitVec 32 := Scalar.muli v297 c160_i32_134
  let c0_i32_135 : BitVec 32 := 0#32
  ![v298.toNat, 0]
def k0_cond6 (i : grid0.Coords) (k0_t9 : Fin k0_t9_loop.trips) : BitVec 1 :=
  let c0_i32_106 : BitVec 32 := 0#32
  let c1_i32_107 : BitVec 32 := 1#32
  let arg15 : BitVec 32 := Scf.iv c0_i32_106 c1_i32_107 k0_t9
  let c2_i32_120 : BitVec 32 := 2#32
  let v281 : BitVec 32 := Scalar.muli arg15 c2_i32_120
  let c1_i32_121 : BitVec 32 := 1#32
  let v282 : BitVec 32 := Scalar.addi v281 c1_i32_121
  let c2_i32_137 : BitVec 32 := 2#32
  let v301 : BitVec 32 := Scalar.addi v282 c2_i32_137
  let c624_i32 : BitVec 32 := 624#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c624_i32 v1
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c32_i32 : BitVec 32 := 32#32
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let v3 : BitVec 32 := Scalar.divsi v2 c32_i32
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.addi v19 c1_i32_4
  let v302 : BitVec 1 := Scalar.cmpi .slt v301 v20
  let v303 : BitVec 32 := Scalar.extui v302
  let c0_i32_138 : BitVec 32 := 0#32
  let v304 : BitVec 1 := Scalar.cmpi .ne v303 c0_i32_138
  v304

def k0_off189 (i : grid0.Coords) (k0_t9 : Fin k0_t9_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_106 : BitVec 32 := 0#32
  let c1_i32_107 : BitVec 32 := 1#32
  let arg15 : BitVec 32 := Scf.iv c0_i32_106 c1_i32_107 k0_t9
  let c2_i32_120 : BitVec 32 := 2#32
  let v281 : BitVec 32 := Scalar.muli arg15 c2_i32_120
  let c1_i32_121 : BitVec 32 := 1#32
  let v282 : BitVec 32 := Scalar.addi v281 c1_i32_121
  let c2_i32_139 : BitVec 32 := 2#32
  let v305 : BitVec 32 := Scalar.addi v282 c2_i32_139
  let c32_i32_140 : BitVec 32 := 32#32
  let v306 : BitVec 32 := Scalar.muli v305 c32_i32_140
  let v307 : BitVec 32 := Scalar.addi v1 v306
  let c160_i32_141 : BitVec 32 := 160#32
  let v308 : BitVec 32 := Scalar.muli v307 c160_i32_141
  ![v308.toNat]
def k0_off190 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_109 : BitVec 32 := 0#32
  let v268 : BitVec 32 := Scalar.addi v1 c0_i32_109
  let c160_i32_110 : BitVec 32 := 160#32
  let v269 : BitVec 32 := Scalar.muli v268 c160_i32_110
  let c0_i32_111 : BitVec 32 := 0#32
  ![v269.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S119x64_S2x64_0_0 : S119x64.Slices ![0, 0] S2x64
  slices_S5x64_S2x64_0_0 : S5x64.Slices ![0, 0] S2x64
  slices_S12x64_S2x64_0_0 : S12x64.Slices ![0, 0] S2x64
  slices_S10x64_S2x64_0_0 : S10x64.Slices ![0, 0] S2x64
  slices_S6x64_S2x64_0_0 : S6x64.Slices ![0, 0] S2x64
  concatenates_S2x64_S2x64_S2x64_S2x64_S2x64_S2x64_S2x64_S2x64_S2x64_S18x64_d0 : Shape.Concatenates [S2x64, S2x64, S2x64, S2x64, S2x64, S2x64, S2x64, S2x64, S2x64] S18x64 0
  shapeCasts_S18x64_S1152 : S18x64.ShapeCasts S1152
  bcast_S_S9 : S_.BroadcastsInDim S9 (![] : Fin 0 → Fin S9.rank)
  bcast_S9_S1x9_1 : S9.BroadcastsInDim S1x9 (![1] : Fin 1 → Fin S1x9.rank)
  bcast_S1x9_S100000x9_0_1 : S1x9.BroadcastsInDim S100000x9 (![0, 1] : Fin 2 → Fin S100000x9.rank)
  reducesTo_S100000x9_S100000_d1 : S100000x9.ReducesTo [1] S100000
  h_S_ : 0 < S_.numel
  inb_S1152_S16_0 : ∀ a, (![0] : Fin 1 → Nat) a + S16.size a ≤ S1152.size a
  h_S16 : 0 < S16.numel
  inb_S1152_S16_128 : ∀ a, (![128] : Fin 1 → Nat) a + S16.size a ≤ S1152.size a
  inb_S1152_S16_256 : ∀ a, (![256] : Fin 1 → Nat) a + S16.size a ≤ S1152.size a
  inb_S1152_S16_384 : ∀ a, (![384] : Fin 1 → Nat) a + S16.size a ≤ S1152.size a
  inb_S1152_S16_512 : ∀ a, (![512] : Fin 1 → Nat) a + S16.size a ≤ S1152.size a
  inb_S1152_S16_640 : ∀ a, (![640] : Fin 1 → Nat) a + S16.size a ≤ S1152.size a
  inb_S1152_S16_768 : ∀ a, (![768] : Fin 1 → Nat) a + S16.size a ≤ S1152.size a
  inb_S1152_S16_896 : ∀ a, (![896] : Fin 1 → Nat) a + S16.size a ≤ S1152.size a
  inb_S1152_S16_1024 : ∀ a, (![1024] : Fin 1 → Nat) a + S16.size a ≤ S1152.size a
  inb_S32768_S16_0 : ∀ a, (![0] : Fin 1 → Nat) a + S16.size a ≤ S32768.size a
  inb_S1152_S16_16 : ∀ a, (![16] : Fin 1 → Nat) a + S16.size a ≤ S1152.size a
  inb_S1152_S16_144 : ∀ a, (![144] : Fin 1 → Nat) a + S16.size a ≤ S1152.size a
  inb_S1152_S16_272 : ∀ a, (![272] : Fin 1 → Nat) a + S16.size a ≤ S1152.size a
  inb_S1152_S16_400 : ∀ a, (![400] : Fin 1 → Nat) a + S16.size a ≤ S1152.size a
  inb_S1152_S16_528 : ∀ a, (![528] : Fin 1 → Nat) a + S16.size a ≤ S1152.size a
  inb_S1152_S16_656 : ∀ a, (![656] : Fin 1 → Nat) a + S16.size a ≤ S1152.size a
  inb_S1152_S16_784 : ∀ a, (![784] : Fin 1 → Nat) a + S16.size a ≤ S1152.size a
  inb_S1152_S16_912 : ∀ a, (![912] : Fin 1 → Nat) a + S16.size a ≤ S1152.size a
  inb_S1152_S16_1040 : ∀ a, (![1040] : Fin 1 → Nat) a + S16.size a ≤ S1152.size a
  inb_S32768_S16_16 : ∀ a, (![16] : Fin 1 → Nat) a + S16.size a ≤ S32768.size a
  inb_S1152_S16_32 : ∀ a, (![32] : Fin 1 → Nat) a + S16.size a ≤ S1152.size a
  inb_S1152_S16_160 : ∀ a, (![160] : Fin 1 → Nat) a + S16.size a ≤ S1152.size a
  inb_S1152_S16_288 : ∀ a, (![288] : Fin 1 → Nat) a + S16.size a ≤ S1152.size a
  inb_S1152_S16_416 : ∀ a, (![416] : Fin 1 → Nat) a + S16.size a ≤ S1152.size a
  inb_S1152_S16_544 : ∀ a, (![544] : Fin 1 → Nat) a + S16.size a ≤ S1152.size a
  inb_S1152_S16_672 : ∀ a, (![672] : Fin 1 → Nat) a + S16.size a ≤ S1152.size a
  inb_S1152_S16_800 : ∀ a, (![800] : Fin 1 → Nat) a + S16.size a ≤ S1152.size a
  inb_S1152_S16_928 : ∀ a, (![928] : Fin 1 → Nat) a + S16.size a ≤ S1152.size a
  inb_S1152_S16_1056 : ∀ a, (![1056] : Fin 1 → Nat) a + S16.size a ≤ S1152.size a
  inb_S32768_S16_32 : ∀ a, (![32] : Fin 1 → Nat) a + S16.size a ≤ S32768.size a
  inb_S1152_S16_48 : ∀ a, (![48] : Fin 1 → Nat) a + S16.size a ≤ S1152.size a
  inb_S1152_S16_176 : ∀ a, (![176] : Fin 1 → Nat) a + S16.size a ≤ S1152.size a
  inb_S1152_S16_304 : ∀ a, (![304] : Fin 1 → Nat) a + S16.size a ≤ S1152.size a
  inb_S1152_S16_432 : ∀ a, (![432] : Fin 1 → Nat) a + S16.size a ≤ S1152.size a
  inb_S1152_S16_560 : ∀ a, (![560] : Fin 1 → Nat) a + S16.size a ≤ S1152.size a
  inb_S1152_S16_688 : ∀ a, (![688] : Fin 1 → Nat) a + S16.size a ≤ S1152.size a
  inb_S1152_S16_816 : ∀ a, (![816] : Fin 1 → Nat) a + S16.size a ≤ S1152.size a
  inb_S1152_S16_944 : ∀ a, (![944] : Fin 1 → Nat) a + S16.size a ≤ S1152.size a
  inb_S1152_S16_1072 : ∀ a, (![1072] : Fin 1 → Nat) a + S16.size a ≤ S1152.size a
  inb_S32768_S16_48 : ∀ a, (![48] : Fin 1 → Nat) a + S16.size a ≤ S32768.size a
  inb_S1152_S16_64 : ∀ a, (![64] : Fin 1 → Nat) a + S16.size a ≤ S1152.size a
  inb_S1152_S16_80 : ∀ a, (![80] : Fin 1 → Nat) a + S16.size a ≤ S1152.size a
  inb_S1152_S16_96 : ∀ a, (![96] : Fin 1 → Nat) a + S16.size a ≤ S1152.size a
  inb_S1152_S16_112 : ∀ a, (![112] : Fin 1 → Nat) a + S16.size a ≤ S1152.size a
  inb_S1152_S16_192 : ∀ a, (![192] : Fin 1 → Nat) a + S16.size a ≤ S1152.size a
  inb_S1152_S16_208 : ∀ a, (![208] : Fin 1 → Nat) a + S16.size a ≤ S1152.size a
  inb_S1152_S16_224 : ∀ a, (![224] : Fin 1 → Nat) a + S16.size a ≤ S1152.size a
  inb_S1152_S16_240 : ∀ a, (![240] : Fin 1 → Nat) a + S16.size a ≤ S1152.size a
  inb_S1152_S16_320 : ∀ a, (![320] : Fin 1 → Nat) a + S16.size a ≤ S1152.size a
  inb_S1152_S16_336 : ∀ a, (![336] : Fin 1 → Nat) a + S16.size a ≤ S1152.size a
  inb_S1152_S16_352 : ∀ a, (![352] : Fin 1 → Nat) a + S16.size a ≤ S1152.size a
  inb_S1152_S16_368 : ∀ a, (![368] : Fin 1 → Nat) a + S16.size a ≤ S1152.size a
  inb_S1152_S16_448 : ∀ a, (![448] : Fin 1 → Nat) a + S16.size a ≤ S1152.size a
  inb_S1152_S16_464 : ∀ a, (![464] : Fin 1 → Nat) a + S16.size a ≤ S1152.size a
  inb_S1152_S16_480 : ∀ a, (![480] : Fin 1 → Nat) a + S16.size a ≤ S1152.size a
  inb_S1152_S16_496 : ∀ a, (![496] : Fin 1 → Nat) a + S16.size a ≤ S1152.size a
  inb_S1152_S16_576 : ∀ a, (![576] : Fin 1 → Nat) a + S16.size a ≤ S1152.size a
  inb_S1152_S16_592 : ∀ a, (![592] : Fin 1 → Nat) a + S16.size a ≤ S1152.size a
  inb_S1152_S16_608 : ∀ a, (![608] : Fin 1 → Nat) a + S16.size a ≤ S1152.size a
  inb_S1152_S16_624 : ∀ a, (![624] : Fin 1 → Nat) a + S16.size a ≤ S1152.size a
  inb_S1152_S16_704 : ∀ a, (![704] : Fin 1 → Nat) a + S16.size a ≤ S1152.size a
  inb_S1152_S16_720 : ∀ a, (![720] : Fin 1 → Nat) a + S16.size a ≤ S1152.size a
  inb_S1152_S16_736 : ∀ a, (![736] : Fin 1 → Nat) a + S16.size a ≤ S1152.size a
  inb_S1152_S16_752 : ∀ a, (![752] : Fin 1 → Nat) a + S16.size a ≤ S1152.size a
  inb_S1152_S16_832 : ∀ a, (![832] : Fin 1 → Nat) a + S16.size a ≤ S1152.size a
  inb_S1152_S16_848 : ∀ a, (![848] : Fin 1 → Nat) a + S16.size a ≤ S1152.size a
  inb_S1152_S16_864 : ∀ a, (![864] : Fin 1 → Nat) a + S16.size a ≤ S1152.size a
  inb_S1152_S16_880 : ∀ a, (![880] : Fin 1 → Nat) a + S16.size a ≤ S1152.size a
  inb_S1152_S16_960 : ∀ a, (![960] : Fin 1 → Nat) a + S16.size a ≤ S1152.size a
  inb_S1152_S16_976 : ∀ a, (![976] : Fin 1 → Nat) a + S16.size a ≤ S1152.size a
  inb_S1152_S16_992 : ∀ a, (![992] : Fin 1 → Nat) a + S16.size a ≤ S1152.size a
  inb_S1152_S16_1008 : ∀ a, (![1008] : Fin 1 → Nat) a + S16.size a ≤ S1152.size a
  inb_S1152_S16_1088 : ∀ a, (![1088] : Fin 1 → Nat) a + S16.size a ≤ S1152.size a
  inb_S1152_S16_1104 : ∀ a, (![1104] : Fin 1 → Nat) a + S16.size a ≤ S1152.size a
  inb_S1152_S16_1120 : ∀ a, (![1120] : Fin 1 → Nat) a + S16.size a ≤ S1152.size a
  inb_S1152_S16_1136 : ∀ a, (![1136] : Fin 1 → Nat) a + S16.size a ≤ S1152.size a
  iota_S16_d0_w32_scVector : S16.Iotas .scVector 32 [0]
  slices_S16_o0_S1 : S16.Slices ![0] S1
  inpos_S1_p0 : ∀ a, (![0] : Fin 1 → Nat) a < S1.size a
  h_S1x16 : 0 < S1x16.numel
  shapeCasts_S1x16_S16 : S1x16.ShapeCasts S16
  shapeCasts_S16_S1x16 : S16.ShapeCasts S1x16
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  hcc0_scratch6 : 0 + S_.numel ≤ 5
  hcc0_scratch7 : 1 + S_.numel ≤ 5
  hcc0_scratch8 : 2 + S_.numel ≤ 5
  hcc0_scratch9 : 3 + S_.numel ≤ 5
  hcc0_scoped0 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (32 * r.val))) a + S160.size a ≤ S100000.size a
  k0_off2_inb : ∀ (r : Fin 4), ∀ a, (k0_off2 (BitVec.ofNat 32 (16 * r.val))) a + S16.size a ≤ S32768.size a
  k0_off3_inb : ∀ (r : Fin 4), ∀ a, (k0_off3 (BitVec.ofNat 32 (16 * r.val))) a + S16.size a ≤ S32768.size a
  k0_t1_ok : k0_t1_loop.OK
  k0_off4_inb : ∀ k0_t1 : Fin k0_t1_loop.trips, ∀ (r : Fin 4), ∀ a, (k0_off4 k0_t1 (BitVec.ofNat 32 (16 * r.val))) a + S16.size a ≤ S32768.size a
  k0_off5_inb : ∀ k0_t1 : Fin k0_t1_loop.trips, ∀ (r : Fin 4), ∀ a, (k0_off5 k0_t1 (BitVec.ofNat 32 (16 * r.val))) a + S16.size a ≤ S32768.size a
  k0_t2_ok : k0_t2_loop.OK
  k0_off6_inb : ∀ k0_t2 : Fin k0_t2_loop.trips, ∀ (r : Fin 4), ∀ a, (k0_off6 k0_t2 (BitVec.ofNat 32 (16 * r.val))) a + S16.size a ≤ S32768.size a
  k0_off7_inb : ∀ k0_t2 : Fin k0_t2_loop.trips, ∀ (r : Fin 4), ∀ a, (k0_off7 k0_t2 (BitVec.ofNat 32 (16 * r.val))) a + S16.size a ≤ S32768.size a
  k0_t3_ok : k0_t3_loop.OK
  k0_off8_inb : ∀ k0_t3 : Fin k0_t3_loop.trips, ∀ (r : Fin 4), ∀ a, (k0_off8 k0_t3 (BitVec.ofNat 32 (16 * r.val))) a + S16.size a ≤ S32768.size a
  k0_off9_inb : ∀ k0_t3 : Fin k0_t3_loop.trips, ∀ (r : Fin 4), ∀ a, (k0_off9 k0_t3 (BitVec.ofNat 32 (16 * r.val))) a + S16.size a ≤ S32768.size a
  k0_t4_ok : k0_t4_loop.OK
  k0_off10_inb : ∀ k0_t4 : Fin k0_t4_loop.trips, ∀ (r : Fin 4), ∀ a, (k0_off10 k0_t4 (BitVec.ofNat 32 (16 * r.val))) a + S16.size a ≤ S32768.size a
  k0_off11_inb : ∀ k0_t4 : Fin k0_t4_loop.trips, ∀ (r : Fin 4), ∀ a, (k0_off11 k0_t4 (BitVec.ofNat 32 (16 * r.val))) a + S16.size a ≤ S32768.size a
  k0_t5_ok : k0_t5_loop.OK
  k0_off12_inb : ∀ k0_t5 : Fin k0_t5_loop.trips, ∀ (r : Fin 4), ∀ a, (k0_off12 k0_t5 (BitVec.ofNat 32 (16 * r.val))) a + S16.size a ≤ S32768.size a
  k0_off13_inb : ∀ k0_t5 : Fin k0_t5_loop.trips, ∀ (r : Fin 4), ∀ a, (k0_off13 k0_t5 (BitVec.ofNat 32 (16 * r.val))) a + S16.size a ≤ S32768.size a
  k0_t6_ok : k0_t6_loop.OK
  k0_off14_inb : ∀ k0_t6 : Fin k0_t6_loop.trips, ∀ (r : Fin 4), ∀ a, (k0_off14 k0_t6 (BitVec.ofNat 32 (16 * r.val))) a + S16.size a ≤ S32768.size a
  k0_off15_inb : ∀ k0_t6 : Fin k0_t6_loop.trips, ∀ (r : Fin 4), ∀ a, (k0_off15 k0_t6 (BitVec.ofNat 32 (16 * r.val))) a + S16.size a ≤ S32768.size a
  k0_t7_ok : k0_t7_loop.OK
  k0_off16_inb : ∀ k0_t7 : Fin k0_t7_loop.trips, ∀ (r : Fin 4), ∀ a, (k0_off16 k0_t7 (BitVec.ofNat 32 (16 * r.val))) a + S16.size a ≤ S32768.size a
  k0_off17_inb : ∀ k0_t7 : Fin k0_t7_loop.trips, ∀ (r : Fin 4), ∀ a, (k0_off17 k0_t7 (BitVec.ofNat 32 (16 * r.val))) a + S16.size a ≤ S32768.size a
  k0_t8_ok : k0_t8_loop.OK
  k0_off18_inb : ∀ k0_t8 : Fin k0_t8_loop.trips, ∀ (r : Fin 4), ∀ a, (k0_off18 k0_t8 (BitVec.ofNat 32 (16 * r.val))) a + S16.size a ≤ S32768.size a
  k0_off19_inb : ∀ k0_t8 : Fin k0_t8_loop.trips, ∀ (r : Fin 4), ∀ a, (k0_off19 k0_t8 (BitVec.ofNat 32 (16 * r.val))) a + S16.size a ≤ S32768.size a
  k0_t9_ok : k0_t9_loop.OK
  k0_off20_inb : ∀ (i : grid0.Coords) (k0_t9 : Fin k0_t9_loop.trips), ∀ (k0_h1 : k0_cond1 i k0_t9 = 1#1), ∀ a, (k0_off20 i k0_t9) a + S160.size a ≤ S100000.size a
  k0_off21_inb : ∀ (i : grid0.Coords) (k0_t9 : Fin k0_t9_loop.trips), ∀ (k0_h1 : k0_cond1 i k0_t9 = 1#1), ∀ (k0_h2 : k0_cond2 k0_t9 = 1#1), ∀ a, (k0_off21 i k0_t9) a + S160x64.size a ≤ S100000x64.size a
  k0_t10_ok : ∀ (i : grid0.Coords) (k0_t9 : Fin k0_t9_loop.trips), ∀ (k0_h1 : k0_cond1 i k0_t9 = 1#1), k0_t10_loop.OK
  k0_off22_inb : ∀ (i : grid0.Coords) (k0_t9 : Fin k0_t9_loop.trips) (k0_t10 : Fin k0_t10_loop.trips), ∀ (k0_h1 : k0_cond1 i k0_t9 = 1#1), ∀ a, (k0_off22 k0_t10) a + S16.size a ≤ S160.size a
  k0_off24_inb : ∀ (i : grid0.Coords) (k0_t9 : Fin k0_t9_loop.trips) (k0_t10 : Fin k0_t10_loop.trips), ∀ (k0_h1 : k0_cond1 i k0_t9 = 1#1), ∀ a, (k0_off24 k0_t10) a + S1x16.size a ≤ S160x64.size a
  k0_off25_inb : ∀ (i : grid0.Coords) (k0_t9 : Fin k0_t9_loop.trips) (k0_t10 : Fin k0_t10_loop.trips), ∀ (k0_h1 : k0_cond1 i k0_t9 = 1#1), ∀ a, (k0_off25 k0_t10) a + S1x16.size a ≤ S160x64.size a
  k0_off26_inb : ∀ (i : grid0.Coords) (k0_t9 : Fin k0_t9_loop.trips) (k0_t10 : Fin k0_t10_loop.trips), ∀ (k0_h1 : k0_cond1 i k0_t9 = 1#1), ∀ a, (k0_off26 k0_t10) a + S1x16.size a ≤ S160x64.size a
  k0_off27_inb : ∀ (i : grid0.Coords) (k0_t9 : Fin k0_t9_loop.trips) (k0_t10 : Fin k0_t10_loop.trips), ∀ (k0_h1 : k0_cond1 i k0_t9 = 1#1), ∀ a, (k0_off27 k0_t10) a + S1x16.size a ≤ S160x64.size a
  k0_off29_inb : ∀ (i : grid0.Coords) (k0_t9 : Fin k0_t9_loop.trips) (k0_t10 : Fin k0_t10_loop.trips), ∀ (k0_h1 : k0_cond1 i k0_t9 = 1#1), ∀ a, (k0_off29 k0_t10) a + S1x16.size a ≤ S160x64.size a
  k0_off30_inb : ∀ (i : grid0.Coords) (k0_t9 : Fin k0_t9_loop.trips) (k0_t10 : Fin k0_t10_loop.trips), ∀ (k0_h1 : k0_cond1 i k0_t9 = 1#1), ∀ a, (k0_off30 k0_t10) a + S1x16.size a ≤ S160x64.size a
  k0_off31_inb : ∀ (i : grid0.Coords) (k0_t9 : Fin k0_t9_loop.trips) (k0_t10 : Fin k0_t10_loop.trips), ∀ (k0_h1 : k0_cond1 i k0_t9 = 1#1), ∀ a, (k0_off31 k0_t10) a + S1x16.size a ≤ S160x64.size a
  k0_off32_inb : ∀ (i : grid0.Coords) (k0_t9 : Fin k0_t9_loop.trips) (k0_t10 : Fin k0_t10_loop.trips), ∀ (k0_h1 : k0_cond1 i k0_t9 = 1#1), ∀ a, (k0_off32 k0_t10) a + S1x16.size a ≤ S160x64.size a
  k0_off34_inb : ∀ (i : grid0.Coords) (k0_t9 : Fin k0_t9_loop.trips) (k0_t10 : Fin k0_t10_loop.trips), ∀ (k0_h1 : k0_cond1 i k0_t9 = 1#1), ∀ a, (k0_off34 k0_t10) a + S1x16.size a ≤ S160x64.size a
  k0_off35_inb : ∀ (i : grid0.Coords) (k0_t9 : Fin k0_t9_loop.trips) (k0_t10 : Fin k0_t10_loop.trips), ∀ (k0_h1 : k0_cond1 i k0_t9 = 1#1), ∀ a, (k0_off35 k0_t10) a + S1x16.size a ≤ S160x64.size a
  k0_off36_inb : ∀ (i : grid0.Coords) (k0_t9 : Fin k0_t9_loop.trips) (k0_t10 : Fin k0_t10_loop.trips), ∀ (k0_h1 : k0_cond1 i k0_t9 = 1#1), ∀ a, (k0_off36 k0_t10) a + S1x16.size a ≤ S160x64.size a
  k0_off37_inb : ∀ (i : grid0.Coords) (k0_t9 : Fin k0_t9_loop.trips) (k0_t10 : Fin k0_t10_loop.trips), ∀ (k0_h1 : k0_cond1 i k0_t9 = 1#1), ∀ a, (k0_off37 k0_t10) a + S1x16.size a ≤ S160x64.size a
  k0_off39_inb : ∀ (i : grid0.Coords) (k0_t9 : Fin k0_t9_loop.trips) (k0_t10 : Fin k0_t10_loop.trips), ∀ (k0_h1 : k0_cond1 i k0_t9 = 1#1), ∀ a, (k0_off39 k0_t10) a + S1x16.size a ≤ S160x64.size a
  k0_off40_inb : ∀ (i : grid0.Coords) (k0_t9 : Fin k0_t9_loop.trips) (k0_t10 : Fin k0_t10_loop.trips), ∀ (k0_h1 : k0_cond1 i k0_t9 = 1#1), ∀ a, (k0_off40 k0_t10) a + S1x16.size a ≤ S160x64.size a
  k0_off41_inb : ∀ (i : grid0.Coords) (k0_t9 : Fin k0_t9_loop.trips) (k0_t10 : Fin k0_t10_loop.trips), ∀ (k0_h1 : k0_cond1 i k0_t9 = 1#1), ∀ a, (k0_off41 k0_t10) a + S1x16.size a ≤ S160x64.size a
  k0_off42_inb : ∀ (i : grid0.Coords) (k0_t9 : Fin k0_t9_loop.trips) (k0_t10 : Fin k0_t10_loop.trips), ∀ (k0_h1 : k0_cond1 i k0_t9 = 1#1), ∀ a, (k0_off42 k0_t10) a + S1x16.size a ≤ S160x64.size a
  k0_off44_inb : ∀ (i : grid0.Coords) (k0_t9 : Fin k0_t9_loop.trips) (k0_t10 : Fin k0_t10_loop.trips), ∀ (k0_h1 : k0_cond1 i k0_t9 = 1#1), ∀ a, (k0_off44 k0_t10) a + S1x16.size a ≤ S160x64.size a
  k0_off45_inb : ∀ (i : grid0.Coords) (k0_t9 : Fin k0_t9_loop.trips) (k0_t10 : Fin k0_t10_loop.trips), ∀ (k0_h1 : k0_cond1 i k0_t9 = 1#1), ∀ a, (k0_off45 k0_t10) a + S1x16.size a ≤ S160x64.size a
  k0_off46_inb : ∀ (i : grid0.Coords) (k0_t9 : Fin k0_t9_loop.trips) (k0_t10 : Fin k0_t10_loop.trips), ∀ (k0_h1 : k0_cond1 i k0_t9 = 1#1), ∀ a, (k0_off46 k0_t10) a + S1x16.size a ≤ S160x64.size a
  k0_off47_inb : ∀ (i : grid0.Coords) (k0_t9 : Fin k0_t9_loop.trips) (k0_t10 : Fin k0_t10_loop.trips), ∀ (k0_h1 : k0_cond1 i k0_t9 = 1#1), ∀ a, (k0_off47 k0_t10) a + S1x16.size a ≤ S160x64.size a
  k0_off49_inb : ∀ (i : grid0.Coords) (k0_t9 : Fin k0_t9_loop.trips) (k0_t10 : Fin k0_t10_loop.trips), ∀ (k0_h1 : k0_cond1 i k0_t9 = 1#1), ∀ a, (k0_off49 k0_t10) a + S1x16.size a ≤ S160x64.size a
  k0_off50_inb : ∀ (i : grid0.Coords) (k0_t9 : Fin k0_t9_loop.trips) (k0_t10 : Fin k0_t10_loop.trips), ∀ (k0_h1 : k0_cond1 i k0_t9 = 1#1), ∀ a, (k0_off50 k0_t10) a + S1x16.size a ≤ S160x64.size a
  k0_off51_inb : ∀ (i : grid0.Coords) (k0_t9 : Fin k0_t9_loop.trips) (k0_t10 : Fin k0_t10_loop.trips), ∀ (k0_h1 : k0_cond1 i k0_t9 = 1#1), ∀ a, (k0_off51 k0_t10) a + S1x16.size a ≤ S160x64.size a
  k0_off52_inb : ∀ (i : grid0.Coords) (k0_t9 : Fin k0_t9_loop.trips) (k0_t10 : Fin k0_t10_loop.trips), ∀ (k0_h1 : k0_cond1 i k0_t9 = 1#1), ∀ a, (k0_off52 k0_t10) a + S1x16.size a ≤ S160x64.size a
  k0_off54_inb : ∀ (i : grid0.Coords) (k0_t9 : Fin k0_t9_loop.trips) (k0_t10 : Fin k0_t10_loop.trips), ∀ (k0_h1 : k0_cond1 i k0_t9 = 1#1), ∀ a, (k0_off54 k0_t10) a + S1x16.size a ≤ S160x64.size a
  k0_off55_inb : ∀ (i : grid0.Coords) (k0_t9 : Fin k0_t9_loop.trips) (k0_t10 : Fin k0_t10_loop.trips), ∀ (k0_h1 : k0_cond1 i k0_t9 = 1#1), ∀ a, (k0_off55 k0_t10) a + S1x16.size a ≤ S160x64.size a
  k0_off56_inb : ∀ (i : grid0.Coords) (k0_t9 : Fin k0_t9_loop.trips) (k0_t10 : Fin k0_t10_loop.trips), ∀ (k0_h1 : k0_cond1 i k0_t9 = 1#1), ∀ a, (k0_off56 k0_t10) a + S1x16.size a ≤ S160x64.size a
  k0_off57_inb : ∀ (i : grid0.Coords) (k0_t9 : Fin k0_t9_loop.trips) (k0_t10 : Fin k0_t10_loop.trips), ∀ (k0_h1 : k0_cond1 i k0_t9 = 1#1), ∀ a, (k0_off57 k0_t10) a + S1x16.size a ≤ S160x64.size a
  k0_off59_inb : ∀ (i : grid0.Coords) (k0_t9 : Fin k0_t9_loop.trips) (k0_t10 : Fin k0_t10_loop.trips), ∀ (k0_h1 : k0_cond1 i k0_t9 = 1#1), ∀ a, (k0_off59 k0_t10) a + S1x16.size a ≤ S160x64.size a
  k0_off60_inb : ∀ (i : grid0.Coords) (k0_t9 : Fin k0_t9_loop.trips) (k0_t10 : Fin k0_t10_loop.trips), ∀ (k0_h1 : k0_cond1 i k0_t9 = 1#1), ∀ a, (k0_off60 k0_t10) a + S1x16.size a ≤ S160x64.size a
  k0_off61_inb : ∀ (i : grid0.Coords) (k0_t9 : Fin k0_t9_loop.trips) (k0_t10 : Fin k0_t10_loop.trips), ∀ (k0_h1 : k0_cond1 i k0_t9 = 1#1), ∀ a, (k0_off61 k0_t10) a + S1x16.size a ≤ S160x64.size a
  k0_off62_inb : ∀ (i : grid0.Coords) (k0_t9 : Fin k0_t9_loop.trips) (k0_t10 : Fin k0_t10_loop.trips), ∀ (k0_h1 : k0_cond1 i k0_t9 = 1#1), ∀ a, (k0_off62 k0_t10) a + S1x16.size a ≤ S160x64.size a
  k0_off64_inb : ∀ (i : grid0.Coords) (k0_t9 : Fin k0_t9_loop.trips) (k0_t10 : Fin k0_t10_loop.trips), ∀ (k0_h1 : k0_cond1 i k0_t9 = 1#1), ∀ a, (k0_off64 k0_t10) a + S1x16.size a ≤ S160x64.size a
  k0_off65_inb : ∀ (i : grid0.Coords) (k0_t9 : Fin k0_t9_loop.trips) (k0_t10 : Fin k0_t10_loop.trips), ∀ (k0_h1 : k0_cond1 i k0_t9 = 1#1), ∀ a, (k0_off65 k0_t10) a + S1x16.size a ≤ S160x64.size a
  k0_off66_inb : ∀ (i : grid0.Coords) (k0_t9 : Fin k0_t9_loop.trips) (k0_t10 : Fin k0_t10_loop.trips), ∀ (k0_h1 : k0_cond1 i k0_t9 = 1#1), ∀ a, (k0_off66 k0_t10) a + S1x16.size a ≤ S160x64.size a
  k0_off67_inb : ∀ (i : grid0.Coords) (k0_t9 : Fin k0_t9_loop.trips) (k0_t10 : Fin k0_t10_loop.trips), ∀ (k0_h1 : k0_cond1 i k0_t9 = 1#1), ∀ a, (k0_off67 k0_t10) a + S1x16.size a ≤ S160x64.size a
  k0_off69_inb : ∀ (i : grid0.Coords) (k0_t9 : Fin k0_t9_loop.trips) (k0_t10 : Fin k0_t10_loop.trips), ∀ (k0_h1 : k0_cond1 i k0_t9 = 1#1), ∀ a, (k0_off69 k0_t10) a + S1x16.size a ≤ S160x64.size a
  k0_off70_inb : ∀ (i : grid0.Coords) (k0_t9 : Fin k0_t9_loop.trips) (k0_t10 : Fin k0_t10_loop.trips), ∀ (k0_h1 : k0_cond1 i k0_t9 = 1#1), ∀ a, (k0_off70 k0_t10) a + S1x16.size a ≤ S160x64.size a
  k0_off71_inb : ∀ (i : grid0.Coords) (k0_t9 : Fin k0_t9_loop.trips) (k0_t10 : Fin k0_t10_loop.trips), ∀ (k0_h1 : k0_cond1 i k0_t9 = 1#1), ∀ a, (k0_off71 k0_t10) a + S1x16.size a ≤ S160x64.size a
  k0_off72_inb : ∀ (i : grid0.Coords) (k0_t9 : Fin k0_t9_loop.trips) (k0_t10 : Fin k0_t10_loop.trips), ∀ (k0_h1 : k0_cond1 i k0_t9 = 1#1), ∀ a, (k0_off72 k0_t10) a + S1x16.size a ≤ S160x64.size a
  k0_off74_inb : ∀ (i : grid0.Coords) (k0_t9 : Fin k0_t9_loop.trips) (k0_t10 : Fin k0_t10_loop.trips), ∀ (k0_h1 : k0_cond1 i k0_t9 = 1#1), ∀ a, (k0_off74 k0_t10) a + S1x16.size a ≤ S160x64.size a
  k0_off75_inb : ∀ (i : grid0.Coords) (k0_t9 : Fin k0_t9_loop.trips) (k0_t10 : Fin k0_t10_loop.trips), ∀ (k0_h1 : k0_cond1 i k0_t9 = 1#1), ∀ a, (k0_off75 k0_t10) a + S1x16.size a ≤ S160x64.size a
  k0_off76_inb : ∀ (i : grid0.Coords) (k0_t9 : Fin k0_t9_loop.trips) (k0_t10 : Fin k0_t10_loop.trips), ∀ (k0_h1 : k0_cond1 i k0_t9 = 1#1), ∀ a, (k0_off76 k0_t10) a + S1x16.size a ≤ S160x64.size a
  k0_off77_inb : ∀ (i : grid0.Coords) (k0_t9 : Fin k0_t9_loop.trips) (k0_t10 : Fin k0_t10_loop.trips), ∀ (k0_h1 : k0_cond1 i k0_t9 = 1#1), ∀ a, (k0_off77 k0_t10) a + S1x16.size a ≤ S160x64.size a
  k0_off79_inb : ∀ (i : grid0.Coords) (k0_t9 : Fin k0_t9_loop.trips) (k0_t10 : Fin k0_t10_loop.trips), ∀ (k0_h1 : k0_cond1 i k0_t9 = 1#1), ∀ a, (k0_off79 k0_t10) a + S1x16.size a ≤ S160x64.size a
  k0_off80_inb : ∀ (i : grid0.Coords) (k0_t9 : Fin k0_t9_loop.trips) (k0_t10 : Fin k0_t10_loop.trips), ∀ (k0_h1 : k0_cond1 i k0_t9 = 1#1), ∀ a, (k0_off80 k0_t10) a + S1x16.size a ≤ S160x64.size a
  k0_off81_inb : ∀ (i : grid0.Coords) (k0_t9 : Fin k0_t9_loop.trips) (k0_t10 : Fin k0_t10_loop.trips), ∀ (k0_h1 : k0_cond1 i k0_t9 = 1#1), ∀ a, (k0_off81 k0_t10) a + S1x16.size a ≤ S160x64.size a
  k0_off82_inb : ∀ (i : grid0.Coords) (k0_t9 : Fin k0_t9_loop.trips) (k0_t10 : Fin k0_t10_loop.trips), ∀ (k0_h1 : k0_cond1 i k0_t9 = 1#1), ∀ a, (k0_off82 k0_t10) a + S1x16.size a ≤ S160x64.size a
  k0_off84_inb : ∀ (i : grid0.Coords) (k0_t9 : Fin k0_t9_loop.trips) (k0_t10 : Fin k0_t10_loop.trips), ∀ (k0_h1 : k0_cond1 i k0_t9 = 1#1), ∀ a, (k0_off84 k0_t10) a + S1x16.size a ≤ S160x64.size a
  k0_off85_inb : ∀ (i : grid0.Coords) (k0_t9 : Fin k0_t9_loop.trips) (k0_t10 : Fin k0_t10_loop.trips), ∀ (k0_h1 : k0_cond1 i k0_t9 = 1#1), ∀ a, (k0_off85 k0_t10) a + S1x16.size a ≤ S160x64.size a
  k0_off86_inb : ∀ (i : grid0.Coords) (k0_t9 : Fin k0_t9_loop.trips) (k0_t10 : Fin k0_t10_loop.trips), ∀ (k0_h1 : k0_cond1 i k0_t9 = 1#1), ∀ a, (k0_off86 k0_t10) a + S1x16.size a ≤ S160x64.size a
  k0_off87_inb : ∀ (i : grid0.Coords) (k0_t9 : Fin k0_t9_loop.trips) (k0_t10 : Fin k0_t10_loop.trips), ∀ (k0_h1 : k0_cond1 i k0_t9 = 1#1), ∀ a, (k0_off87 k0_t10) a + S1x16.size a ≤ S160x64.size a
  k0_off89_inb : ∀ (i : grid0.Coords) (k0_t9 : Fin k0_t9_loop.trips) (k0_t10 : Fin k0_t10_loop.trips), ∀ (k0_h1 : k0_cond1 i k0_t9 = 1#1), ∀ a, (k0_off89 k0_t10) a + S1x16.size a ≤ S160x64.size a
  k0_off90_inb : ∀ (i : grid0.Coords) (k0_t9 : Fin k0_t9_loop.trips) (k0_t10 : Fin k0_t10_loop.trips), ∀ (k0_h1 : k0_cond1 i k0_t9 = 1#1), ∀ a, (k0_off90 k0_t10) a + S1x16.size a ≤ S160x64.size a
  k0_off91_inb : ∀ (i : grid0.Coords) (k0_t9 : Fin k0_t9_loop.trips) (k0_t10 : Fin k0_t10_loop.trips), ∀ (k0_h1 : k0_cond1 i k0_t9 = 1#1), ∀ a, (k0_off91 k0_t10) a + S1x16.size a ≤ S160x64.size a
  k0_off92_inb : ∀ (i : grid0.Coords) (k0_t9 : Fin k0_t9_loop.trips) (k0_t10 : Fin k0_t10_loop.trips), ∀ (k0_h1 : k0_cond1 i k0_t9 = 1#1), ∀ a, (k0_off92 k0_t10) a + S1x16.size a ≤ S160x64.size a
  k0_off94_inb : ∀ (i : grid0.Coords) (k0_t9 : Fin k0_t9_loop.trips) (k0_t10 : Fin k0_t10_loop.trips), ∀ (k0_h1 : k0_cond1 i k0_t9 = 1#1), ∀ a, (k0_off94 k0_t10) a + S1x16.size a ≤ S160x64.size a
  k0_off95_inb : ∀ (i : grid0.Coords) (k0_t9 : Fin k0_t9_loop.trips) (k0_t10 : Fin k0_t10_loop.trips), ∀ (k0_h1 : k0_cond1 i k0_t9 = 1#1), ∀ a, (k0_off95 k0_t10) a + S1x16.size a ≤ S160x64.size a
  k0_off96_inb : ∀ (i : grid0.Coords) (k0_t9 : Fin k0_t9_loop.trips) (k0_t10 : Fin k0_t10_loop.trips), ∀ (k0_h1 : k0_cond1 i k0_t9 = 1#1), ∀ a, (k0_off96 k0_t10) a + S1x16.size a ≤ S160x64.size a
  k0_off97_inb : ∀ (i : grid0.Coords) (k0_t9 : Fin k0_t9_loop.trips) (k0_t10 : Fin k0_t10_loop.trips), ∀ (k0_h1 : k0_cond1 i k0_t9 = 1#1), ∀ a, (k0_off97 k0_t10) a + S1x16.size a ≤ S160x64.size a
  k0_off99_inb : ∀ (i : grid0.Coords) (k0_t9 : Fin k0_t9_loop.trips) (k0_t10 : Fin k0_t10_loop.trips), ∀ (k0_h1 : k0_cond1 i k0_t9 = 1#1), ∀ a, (k0_off99 k0_t10) a + S1x16.size a ≤ S160x64.size a
  k0_off100_inb : ∀ (i : grid0.Coords) (k0_t9 : Fin k0_t9_loop.trips) (k0_t10 : Fin k0_t10_loop.trips), ∀ (k0_h1 : k0_cond1 i k0_t9 = 1#1), ∀ a, (k0_off100 k0_t10) a + S1x16.size a ≤ S160x64.size a
  k0_off101_inb : ∀ (i : grid0.Coords) (k0_t9 : Fin k0_t9_loop.trips) (k0_t10 : Fin k0_t10_loop.trips), ∀ (k0_h1 : k0_cond1 i k0_t9 = 1#1), ∀ a, (k0_off101 k0_t10) a + S1x16.size a ≤ S160x64.size a
  k0_off102_inb : ∀ (i : grid0.Coords) (k0_t9 : Fin k0_t9_loop.trips) (k0_t10 : Fin k0_t10_loop.trips), ∀ (k0_h1 : k0_cond1 i k0_t9 = 1#1), ∀ a, (k0_off102 k0_t10) a + S1x16.size a ≤ S160x64.size a
  k0_off103_inb : ∀ (i : grid0.Coords) (k0_t9 : Fin k0_t9_loop.trips), ∀ (k0_h1 : k0_cond1 i k0_t9 = 1#1), ∀ a, (k0_off103 i k0_t9) a + S160x64.size a ≤ S100000x64.size a
  k0_off104_inb : ∀ (i : grid0.Coords) (k0_t9 : Fin k0_t9_loop.trips), ∀ (k0_h1 : k0_cond1 i k0_t9 = 1#1), ∀ (k0_h3 : k0_cond3 i k0_t9 = 1#1), ∀ a, (k0_off104 i k0_t9) a + S160.size a ≤ S100000.size a
  k0_off105_inb : ∀ (i : grid0.Coords) (k0_t9 : Fin k0_t9_loop.trips), ∀ (k0_h4 : k0_cond4 i k0_t9 = 1#1), ∀ a, (k0_off105 i k0_t9) a + S160.size a ≤ S100000.size a
  k0_off106_inb : ∀ (i : grid0.Coords) (k0_t9 : Fin k0_t9_loop.trips), ∀ (k0_h4 : k0_cond4 i k0_t9 = 1#1), ∀ (k0_h5 : k0_cond5 k0_t9 = 1#1), ∀ a, (k0_off106 i k0_t9) a + S160x64.size a ≤ S100000x64.size a
  k0_t11_ok : ∀ (i : grid0.Coords) (k0_t9 : Fin k0_t9_loop.trips), ∀ (k0_h4 : k0_cond4 i k0_t9 = 1#1), k0_t11_loop.OK
  k0_off107_inb : ∀ (i : grid0.Coords) (k0_t9 : Fin k0_t9_loop.trips) (k0_t11 : Fin k0_t11_loop.trips), ∀ (k0_h4 : k0_cond4 i k0_t9 = 1#1), ∀ a, (k0_off107 k0_t11) a + S16.size a ≤ S160.size a
  k0_off109_inb : ∀ (i : grid0.Coords) (k0_t9 : Fin k0_t9_loop.trips) (k0_t11 : Fin k0_t11_loop.trips), ∀ (k0_h4 : k0_cond4 i k0_t9 = 1#1), ∀ a, (k0_off109 k0_t11) a + S1x16.size a ≤ S160x64.size a
  k0_off110_inb : ∀ (i : grid0.Coords) (k0_t9 : Fin k0_t9_loop.trips) (k0_t11 : Fin k0_t11_loop.trips), ∀ (k0_h4 : k0_cond4 i k0_t9 = 1#1), ∀ a, (k0_off110 k0_t11) a + S1x16.size a ≤ S160x64.size a
  k0_off111_inb : ∀ (i : grid0.Coords) (k0_t9 : Fin k0_t9_loop.trips) (k0_t11 : Fin k0_t11_loop.trips), ∀ (k0_h4 : k0_cond4 i k0_t9 = 1#1), ∀ a, (k0_off111 k0_t11) a + S1x16.size a ≤ S160x64.size a
  k0_off112_inb : ∀ (i : grid0.Coords) (k0_t9 : Fin k0_t9_loop.trips) (k0_t11 : Fin k0_t11_loop.trips), ∀ (k0_h4 : k0_cond4 i k0_t9 = 1#1), ∀ a, (k0_off112 k0_t11) a + S1x16.size a ≤ S160x64.size a
  k0_off114_inb : ∀ (i : grid0.Coords) (k0_t9 : Fin k0_t9_loop.trips) (k0_t11 : Fin k0_t11_loop.trips), ∀ (k0_h4 : k0_cond4 i k0_t9 = 1#1), ∀ a, (k0_off114 k0_t11) a + S1x16.size a ≤ S160x64.size a
  k0_off115_inb : ∀ (i : grid0.Coords) (k0_t9 : Fin k0_t9_loop.trips) (k0_t11 : Fin k0_t11_loop.trips), ∀ (k0_h4 : k0_cond4 i k0_t9 = 1#1), ∀ a, (k0_off115 k0_t11) a + S1x16.size a ≤ S160x64.size a
  k0_off116_inb : ∀ (i : grid0.Coords) (k0_t9 : Fin k0_t9_loop.trips) (k0_t11 : Fin k0_t11_loop.trips), ∀ (k0_h4 : k0_cond4 i k0_t9 = 1#1), ∀ a, (k0_off116 k0_t11) a + S1x16.size a ≤ S160x64.size a
  k0_off117_inb : ∀ (i : grid0.Coords) (k0_t9 : Fin k0_t9_loop.trips) (k0_t11 : Fin k0_t11_loop.trips), ∀ (k0_h4 : k0_cond4 i k0_t9 = 1#1), ∀ a, (k0_off117 k0_t11) a + S1x16.size a ≤ S160x64.size a
  k0_off119_inb : ∀ (i : grid0.Coords) (k0_t9 : Fin k0_t9_loop.trips) (k0_t11 : Fin k0_t11_loop.trips), ∀ (k0_h4 : k0_cond4 i k0_t9 = 1#1), ∀ a, (k0_off119 k0_t11) a + S1x16.size a ≤ S160x64.size a
  k0_off120_inb : ∀ (i : grid0.Coords) (k0_t9 : Fin k0_t9_loop.trips) (k0_t11 : Fin k0_t11_loop.trips), ∀ (k0_h4 : k0_cond4 i k0_t9 = 1#1), ∀ a, (k0_off120 k0_t11) a + S1x16.size a ≤ S160x64.size a
  k0_off121_inb : ∀ (i : grid0.Coords) (k0_t9 : Fin k0_t9_loop.trips) (k0_t11 : Fin k0_t11_loop.trips), ∀ (k0_h4 : k0_cond4 i k0_t9 = 1#1), ∀ a, (k0_off121 k0_t11) a + S1x16.size a ≤ S160x64.size a
  k0_off122_inb : ∀ (i : grid0.Coords) (k0_t9 : Fin k0_t9_loop.trips) (k0_t11 : Fin k0_t11_loop.trips), ∀ (k0_h4 : k0_cond4 i k0_t9 = 1#1), ∀ a, (k0_off122 k0_t11) a + S1x16.size a ≤ S160x64.size a
  k0_off124_inb : ∀ (i : grid0.Coords) (k0_t9 : Fin k0_t9_loop.trips) (k0_t11 : Fin k0_t11_loop.trips), ∀ (k0_h4 : k0_cond4 i k0_t9 = 1#1), ∀ a, (k0_off124 k0_t11) a + S1x16.size a ≤ S160x64.size a
  k0_off125_inb : ∀ (i : grid0.Coords) (k0_t9 : Fin k0_t9_loop.trips) (k0_t11 : Fin k0_t11_loop.trips), ∀ (k0_h4 : k0_cond4 i k0_t9 = 1#1), ∀ a, (k0_off125 k0_t11) a + S1x16.size a ≤ S160x64.size a
  k0_off126_inb : ∀ (i : grid0.Coords) (k0_t9 : Fin k0_t9_loop.trips) (k0_t11 : Fin k0_t11_loop.trips), ∀ (k0_h4 : k0_cond4 i k0_t9 = 1#1), ∀ a, (k0_off126 k0_t11) a + S1x16.size a ≤ S160x64.size a
  k0_off127_inb : ∀ (i : grid0.Coords) (k0_t9 : Fin k0_t9_loop.trips) (k0_t11 : Fin k0_t11_loop.trips), ∀ (k0_h4 : k0_cond4 i k0_t9 = 1#1), ∀ a, (k0_off127 k0_t11) a + S1x16.size a ≤ S160x64.size a
  k0_off129_inb : ∀ (i : grid0.Coords) (k0_t9 : Fin k0_t9_loop.trips) (k0_t11 : Fin k0_t11_loop.trips), ∀ (k0_h4 : k0_cond4 i k0_t9 = 1#1), ∀ a, (k0_off129 k0_t11) a + S1x16.size a ≤ S160x64.size a
  k0_off130_inb : ∀ (i : grid0.Coords) (k0_t9 : Fin k0_t9_loop.trips) (k0_t11 : Fin k0_t11_loop.trips), ∀ (k0_h4 : k0_cond4 i k0_t9 = 1#1), ∀ a, (k0_off130 k0_t11) a + S1x16.size a ≤ S160x64.size a
  k0_off131_inb : ∀ (i : grid0.Coords) (k0_t9 : Fin k0_t9_loop.trips) (k0_t11 : Fin k0_t11_loop.trips), ∀ (k0_h4 : k0_cond4 i k0_t9 = 1#1), ∀ a, (k0_off131 k0_t11) a + S1x16.size a ≤ S160x64.size a
  k0_off132_inb : ∀ (i : grid0.Coords) (k0_t9 : Fin k0_t9_loop.trips) (k0_t11 : Fin k0_t11_loop.trips), ∀ (k0_h4 : k0_cond4 i k0_t9 = 1#1), ∀ a, (k0_off132 k0_t11) a + S1x16.size a ≤ S160x64.size a
  k0_off134_inb : ∀ (i : grid0.Coords) (k0_t9 : Fin k0_t9_loop.trips) (k0_t11 : Fin k0_t11_loop.trips), ∀ (k0_h4 : k0_cond4 i k0_t9 = 1#1), ∀ a, (k0_off134 k0_t11) a + S1x16.size a ≤ S160x64.size a
  k0_off135_inb : ∀ (i : grid0.Coords) (k0_t9 : Fin k0_t9_loop.trips) (k0_t11 : Fin k0_t11_loop.trips), ∀ (k0_h4 : k0_cond4 i k0_t9 = 1#1), ∀ a, (k0_off135 k0_t11) a + S1x16.size a ≤ S160x64.size a
  k0_off136_inb : ∀ (i : grid0.Coords) (k0_t9 : Fin k0_t9_loop.trips) (k0_t11 : Fin k0_t11_loop.trips), ∀ (k0_h4 : k0_cond4 i k0_t9 = 1#1), ∀ a, (k0_off136 k0_t11) a + S1x16.size a ≤ S160x64.size a
  k0_off137_inb : ∀ (i : grid0.Coords) (k0_t9 : Fin k0_t9_loop.trips) (k0_t11 : Fin k0_t11_loop.trips), ∀ (k0_h4 : k0_cond4 i k0_t9 = 1#1), ∀ a, (k0_off137 k0_t11) a + S1x16.size a ≤ S160x64.size a
  k0_off139_inb : ∀ (i : grid0.Coords) (k0_t9 : Fin k0_t9_loop.trips) (k0_t11 : Fin k0_t11_loop.trips), ∀ (k0_h4 : k0_cond4 i k0_t9 = 1#1), ∀ a, (k0_off139 k0_t11) a + S1x16.size a ≤ S160x64.size a
  k0_off140_inb : ∀ (i : grid0.Coords) (k0_t9 : Fin k0_t9_loop.trips) (k0_t11 : Fin k0_t11_loop.trips), ∀ (k0_h4 : k0_cond4 i k0_t9 = 1#1), ∀ a, (k0_off140 k0_t11) a + S1x16.size a ≤ S160x64.size a
  k0_off141_inb : ∀ (i : grid0.Coords) (k0_t9 : Fin k0_t9_loop.trips) (k0_t11 : Fin k0_t11_loop.trips), ∀ (k0_h4 : k0_cond4 i k0_t9 = 1#1), ∀ a, (k0_off141 k0_t11) a + S1x16.size a ≤ S160x64.size a
  k0_off142_inb : ∀ (i : grid0.Coords) (k0_t9 : Fin k0_t9_loop.trips) (k0_t11 : Fin k0_t11_loop.trips), ∀ (k0_h4 : k0_cond4 i k0_t9 = 1#1), ∀ a, (k0_off142 k0_t11) a + S1x16.size a ≤ S160x64.size a
  k0_off144_inb : ∀ (i : grid0.Coords) (k0_t9 : Fin k0_t9_loop.trips) (k0_t11 : Fin k0_t11_loop.trips), ∀ (k0_h4 : k0_cond4 i k0_t9 = 1#1), ∀ a, (k0_off144 k0_t11) a + S1x16.size a ≤ S160x64.size a
  k0_off145_inb : ∀ (i : grid0.Coords) (k0_t9 : Fin k0_t9_loop.trips) (k0_t11 : Fin k0_t11_loop.trips), ∀ (k0_h4 : k0_cond4 i k0_t9 = 1#1), ∀ a, (k0_off145 k0_t11) a + S1x16.size a ≤ S160x64.size a
  k0_off146_inb : ∀ (i : grid0.Coords) (k0_t9 : Fin k0_t9_loop.trips) (k0_t11 : Fin k0_t11_loop.trips), ∀ (k0_h4 : k0_cond4 i k0_t9 = 1#1), ∀ a, (k0_off146 k0_t11) a + S1x16.size a ≤ S160x64.size a
  k0_off147_inb : ∀ (i : grid0.Coords) (k0_t9 : Fin k0_t9_loop.trips) (k0_t11 : Fin k0_t11_loop.trips), ∀ (k0_h4 : k0_cond4 i k0_t9 = 1#1), ∀ a, (k0_off147 k0_t11) a + S1x16.size a ≤ S160x64.size a
  k0_off149_inb : ∀ (i : grid0.Coords) (k0_t9 : Fin k0_t9_loop.trips) (k0_t11 : Fin k0_t11_loop.trips), ∀ (k0_h4 : k0_cond4 i k0_t9 = 1#1), ∀ a, (k0_off149 k0_t11) a + S1x16.size a ≤ S160x64.size a
  k0_off150_inb : ∀ (i : grid0.Coords) (k0_t9 : Fin k0_t9_loop.trips) (k0_t11 : Fin k0_t11_loop.trips), ∀ (k0_h4 : k0_cond4 i k0_t9 = 1#1), ∀ a, (k0_off150 k0_t11) a + S1x16.size a ≤ S160x64.size a
  k0_off151_inb : ∀ (i : grid0.Coords) (k0_t9 : Fin k0_t9_loop.trips) (k0_t11 : Fin k0_t11_loop.trips), ∀ (k0_h4 : k0_cond4 i k0_t9 = 1#1), ∀ a, (k0_off151 k0_t11) a + S1x16.size a ≤ S160x64.size a
  k0_off152_inb : ∀ (i : grid0.Coords) (k0_t9 : Fin k0_t9_loop.trips) (k0_t11 : Fin k0_t11_loop.trips), ∀ (k0_h4 : k0_cond4 i k0_t9 = 1#1), ∀ a, (k0_off152 k0_t11) a + S1x16.size a ≤ S160x64.size a
  k0_off154_inb : ∀ (i : grid0.Coords) (k0_t9 : Fin k0_t9_loop.trips) (k0_t11 : Fin k0_t11_loop.trips), ∀ (k0_h4 : k0_cond4 i k0_t9 = 1#1), ∀ a, (k0_off154 k0_t11) a + S1x16.size a ≤ S160x64.size a
  k0_off155_inb : ∀ (i : grid0.Coords) (k0_t9 : Fin k0_t9_loop.trips) (k0_t11 : Fin k0_t11_loop.trips), ∀ (k0_h4 : k0_cond4 i k0_t9 = 1#1), ∀ a, (k0_off155 k0_t11) a + S1x16.size a ≤ S160x64.size a
  k0_off156_inb : ∀ (i : grid0.Coords) (k0_t9 : Fin k0_t9_loop.trips) (k0_t11 : Fin k0_t11_loop.trips), ∀ (k0_h4 : k0_cond4 i k0_t9 = 1#1), ∀ a, (k0_off156 k0_t11) a + S1x16.size a ≤ S160x64.size a
  k0_off157_inb : ∀ (i : grid0.Coords) (k0_t9 : Fin k0_t9_loop.trips) (k0_t11 : Fin k0_t11_loop.trips), ∀ (k0_h4 : k0_cond4 i k0_t9 = 1#1), ∀ a, (k0_off157 k0_t11) a + S1x16.size a ≤ S160x64.size a
  k0_off159_inb : ∀ (i : grid0.Coords) (k0_t9 : Fin k0_t9_loop.trips) (k0_t11 : Fin k0_t11_loop.trips), ∀ (k0_h4 : k0_cond4 i k0_t9 = 1#1), ∀ a, (k0_off159 k0_t11) a + S1x16.size a ≤ S160x64.size a
  k0_off160_inb : ∀ (i : grid0.Coords) (k0_t9 : Fin k0_t9_loop.trips) (k0_t11 : Fin k0_t11_loop.trips), ∀ (k0_h4 : k0_cond4 i k0_t9 = 1#1), ∀ a, (k0_off160 k0_t11) a + S1x16.size a ≤ S160x64.size a
  k0_off161_inb : ∀ (i : grid0.Coords) (k0_t9 : Fin k0_t9_loop.trips) (k0_t11 : Fin k0_t11_loop.trips), ∀ (k0_h4 : k0_cond4 i k0_t9 = 1#1), ∀ a, (k0_off161 k0_t11) a + S1x16.size a ≤ S160x64.size a
  k0_off162_inb : ∀ (i : grid0.Coords) (k0_t9 : Fin k0_t9_loop.trips) (k0_t11 : Fin k0_t11_loop.trips), ∀ (k0_h4 : k0_cond4 i k0_t9 = 1#1), ∀ a, (k0_off162 k0_t11) a + S1x16.size a ≤ S160x64.size a
  k0_off164_inb : ∀ (i : grid0.Coords) (k0_t9 : Fin k0_t9_loop.trips) (k0_t11 : Fin k0_t11_loop.trips), ∀ (k0_h4 : k0_cond4 i k0_t9 = 1#1), ∀ a, (k0_off164 k0_t11) a + S1x16.size a ≤ S160x64.size a
  k0_off165_inb : ∀ (i : grid0.Coords) (k0_t9 : Fin k0_t9_loop.trips) (k0_t11 : Fin k0_t11_loop.trips), ∀ (k0_h4 : k0_cond4 i k0_t9 = 1#1), ∀ a, (k0_off165 k0_t11) a + S1x16.size a ≤ S160x64.size a
  k0_off166_inb : ∀ (i : grid0.Coords) (k0_t9 : Fin k0_t9_loop.trips) (k0_t11 : Fin k0_t11_loop.trips), ∀ (k0_h4 : k0_cond4 i k0_t9 = 1#1), ∀ a, (k0_off166 k0_t11) a + S1x16.size a ≤ S160x64.size a
  k0_off167_inb : ∀ (i : grid0.Coords) (k0_t9 : Fin k0_t9_loop.trips) (k0_t11 : Fin k0_t11_loop.trips), ∀ (k0_h4 : k0_cond4 i k0_t9 = 1#1), ∀ a, (k0_off167 k0_t11) a + S1x16.size a ≤ S160x64.size a
  k0_off169_inb : ∀ (i : grid0.Coords) (k0_t9 : Fin k0_t9_loop.trips) (k0_t11 : Fin k0_t11_loop.trips), ∀ (k0_h4 : k0_cond4 i k0_t9 = 1#1), ∀ a, (k0_off169 k0_t11) a + S1x16.size a ≤ S160x64.size a
  k0_off170_inb : ∀ (i : grid0.Coords) (k0_t9 : Fin k0_t9_loop.trips) (k0_t11 : Fin k0_t11_loop.trips), ∀ (k0_h4 : k0_cond4 i k0_t9 = 1#1), ∀ a, (k0_off170 k0_t11) a + S1x16.size a ≤ S160x64.size a
  k0_off171_inb : ∀ (i : grid0.Coords) (k0_t9 : Fin k0_t9_loop.trips) (k0_t11 : Fin k0_t11_loop.trips), ∀ (k0_h4 : k0_cond4 i k0_t9 = 1#1), ∀ a, (k0_off171 k0_t11) a + S1x16.size a ≤ S160x64.size a
  k0_off172_inb : ∀ (i : grid0.Coords) (k0_t9 : Fin k0_t9_loop.trips) (k0_t11 : Fin k0_t11_loop.trips), ∀ (k0_h4 : k0_cond4 i k0_t9 = 1#1), ∀ a, (k0_off172 k0_t11) a + S1x16.size a ≤ S160x64.size a
  k0_off174_inb : ∀ (i : grid0.Coords) (k0_t9 : Fin k0_t9_loop.trips) (k0_t11 : Fin k0_t11_loop.trips), ∀ (k0_h4 : k0_cond4 i k0_t9 = 1#1), ∀ a, (k0_off174 k0_t11) a + S1x16.size a ≤ S160x64.size a
  k0_off175_inb : ∀ (i : grid0.Coords) (k0_t9 : Fin k0_t9_loop.trips) (k0_t11 : Fin k0_t11_loop.trips), ∀ (k0_h4 : k0_cond4 i k0_t9 = 1#1), ∀ a, (k0_off175 k0_t11) a + S1x16.size a ≤ S160x64.size a
  k0_off176_inb : ∀ (i : grid0.Coords) (k0_t9 : Fin k0_t9_loop.trips) (k0_t11 : Fin k0_t11_loop.trips), ∀ (k0_h4 : k0_cond4 i k0_t9 = 1#1), ∀ a, (k0_off176 k0_t11) a + S1x16.size a ≤ S160x64.size a
  k0_off177_inb : ∀ (i : grid0.Coords) (k0_t9 : Fin k0_t9_loop.trips) (k0_t11 : Fin k0_t11_loop.trips), ∀ (k0_h4 : k0_cond4 i k0_t9 = 1#1), ∀ a, (k0_off177 k0_t11) a + S1x16.size a ≤ S160x64.size a
  k0_off179_inb : ∀ (i : grid0.Coords) (k0_t9 : Fin k0_t9_loop.trips) (k0_t11 : Fin k0_t11_loop.trips), ∀ (k0_h4 : k0_cond4 i k0_t9 = 1#1), ∀ a, (k0_off179 k0_t11) a + S1x16.size a ≤ S160x64.size a
  k0_off180_inb : ∀ (i : grid0.Coords) (k0_t9 : Fin k0_t9_loop.trips) (k0_t11 : Fin k0_t11_loop.trips), ∀ (k0_h4 : k0_cond4 i k0_t9 = 1#1), ∀ a, (k0_off180 k0_t11) a + S1x16.size a ≤ S160x64.size a
  k0_off181_inb : ∀ (i : grid0.Coords) (k0_t9 : Fin k0_t9_loop.trips) (k0_t11 : Fin k0_t11_loop.trips), ∀ (k0_h4 : k0_cond4 i k0_t9 = 1#1), ∀ a, (k0_off181 k0_t11) a + S1x16.size a ≤ S160x64.size a
  k0_off182_inb : ∀ (i : grid0.Coords) (k0_t9 : Fin k0_t9_loop.trips) (k0_t11 : Fin k0_t11_loop.trips), ∀ (k0_h4 : k0_cond4 i k0_t9 = 1#1), ∀ a, (k0_off182 k0_t11) a + S1x16.size a ≤ S160x64.size a
  k0_off184_inb : ∀ (i : grid0.Coords) (k0_t9 : Fin k0_t9_loop.trips) (k0_t11 : Fin k0_t11_loop.trips), ∀ (k0_h4 : k0_cond4 i k0_t9 = 1#1), ∀ a, (k0_off184 k0_t11) a + S1x16.size a ≤ S160x64.size a
  k0_off185_inb : ∀ (i : grid0.Coords) (k0_t9 : Fin k0_t9_loop.trips) (k0_t11 : Fin k0_t11_loop.trips), ∀ (k0_h4 : k0_cond4 i k0_t9 = 1#1), ∀ a, (k0_off185 k0_t11) a + S1x16.size a ≤ S160x64.size a
  k0_off186_inb : ∀ (i : grid0.Coords) (k0_t9 : Fin k0_t9_loop.trips) (k0_t11 : Fin k0_t11_loop.trips), ∀ (k0_h4 : k0_cond4 i k0_t9 = 1#1), ∀ a, (k0_off186 k0_t11) a + S1x16.size a ≤ S160x64.size a
  k0_off187_inb : ∀ (i : grid0.Coords) (k0_t9 : Fin k0_t9_loop.trips) (k0_t11 : Fin k0_t11_loop.trips), ∀ (k0_h4 : k0_cond4 i k0_t9 = 1#1), ∀ a, (k0_off187 k0_t11) a + S1x16.size a ≤ S160x64.size a
  k0_off188_inb : ∀ (i : grid0.Coords) (k0_t9 : Fin k0_t9_loop.trips), ∀ (k0_h4 : k0_cond4 i k0_t9 = 1#1), ∀ a, (k0_off188 i k0_t9) a + S160x64.size a ≤ S100000x64.size a
  k0_off189_inb : ∀ (i : grid0.Coords) (k0_t9 : Fin k0_t9_loop.trips), ∀ (k0_h4 : k0_cond4 i k0_t9 = 1#1), ∀ (k0_h6 : k0_cond6 i k0_t9 = 1#1), ∀ a, (k0_off189 i k0_t9) a + S160.size a ≤ S100000.size a
  k0_off190_inb : ∀ i : grid0.Coords, ∀ a, (k0_off190 i) a + S160x64.size a ≤ S100000x64.size a

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scoped0 : DmaSems sig S_ := SemArray.consecutive 4 S_ hcc0_scoped0

class Facts : Prop extends Facts₀ where

variable [Facts]
-- ==== ReferenceIdeal.lean ====
abbrev S100000x9 : Shape := ⟨2, ![100000, 9]⟩
abbrev S119x64 : Shape := ⟨2, ![119, 64]⟩
abbrev S5x64 : Shape := ⟨2, ![5, 64]⟩
abbrev S12x64 : Shape := ⟨2, ![12, 64]⟩
abbrev S10x64 : Shape := ⟨2, ![10, 64]⟩
abbrev S6x64 : Shape := ⟨2, ![6, 64]⟩
abbrev S2x64 : Shape := ⟨2, ![2, 64]⟩
abbrev S_ : Shape := ⟨0, ![]⟩
abbrev S100000x64 : Shape := ⟨2, ![100000, 64]⟩
abbrev S100000x1 : Shape := ⟨2, ![100000, 1]⟩
abbrev S100000 : Shape := ⟨1, ![100000]⟩
abbrev S1 : Shape := ⟨1, ![1]⟩
abbrev S1x1 : Shape := ⟨2, ![1, 1]⟩

abbrev nBuf : Space → Nat
  | .hbm => 246
  | .vmem => 0
  | .smem => 0
  | _ => 0

abbrev hbmTy0_0 (i : Nat) : BufTy := match i % 128 with
  | 0 => ⟨S100000x9, .i32⟩
  | 1 => ⟨S119x64, .f32⟩
  | 2 => ⟨S5x64, .f32⟩
  | 3 => ⟨S12x64, .f32⟩
  | 4 => ⟨S12x64, .f32⟩
  | 5 => ⟨S10x64, .f32⟩
  | 6 => ⟨S6x64, .f32⟩
  | 7 => ⟨S6x64, .f32⟩
  | 8 => ⟨S2x64, .f32⟩
  | 9 => ⟨S2x64, .f32⟩
  | 10 => ⟨S_, .f32⟩
  | 11 => ⟨S100000x64, .f32⟩
  | 12 => ⟨S100000x1, .i32⟩
  | 13 => ⟨S100000, .i32⟩
  | 14 => ⟨S_, .i32⟩
  | 15 => ⟨S100000, .i32⟩
  | 16 => ⟨S100000, .i1⟩
  | 17 => ⟨S_, .i32⟩
  | 18 => ⟨S100000, .i32⟩
  | 19 => ⟨S100000, .i32⟩
  | 20 => ⟨S100000, .i32⟩
  | 21 => ⟨S100000x1, .i32⟩
  | 22 => ⟨S1, .i32⟩
  | 23 => ⟨S_, .i32⟩
  | 24 => ⟨S100000x1, .i32⟩
  | 25 => ⟨S100000x1, .i1⟩
  | 26 => ⟨S1x1, .i32⟩
  | 27 => ⟨S100000x1, .i32⟩
  | 28 => ⟨S100000x1, .i1⟩
  | 29 => ⟨S100000x1, .i1⟩
  | 30 => ⟨S_, .i1⟩
  | 31 => ⟨S100000, .i1⟩
  | 32 => ⟨S100000x64, .f32⟩
  | 33 => ⟨S100000x64, .i1⟩
  | 34 => ⟨S_, .f32⟩
  | 35 => ⟨S100000x64, .f32⟩
  | 36 => ⟨S100000x64, .f32⟩
  | 37 => ⟨S100000x64, .f32⟩
  | 38 => ⟨S100000x1, .i32⟩
  | 39 => ⟨S100000, .i32⟩
  | 40 => ⟨S_, .i32⟩
  | 41 => ⟨S100000, .i32⟩
  | 42 => ⟨S100000, .i1⟩
  | 43 => ⟨S_, .i32⟩
  | 44 => ⟨S100000, .i32⟩
  | 45 => ⟨S100000, .i32⟩
  | 46 => ⟨S100000, .i32⟩
  | 47 => ⟨S100000x1, .i32⟩
  | 48 => ⟨S1, .i32⟩
  | 49 => ⟨S_, .i32⟩
  | 50 => ⟨S100000x1, .i32⟩
  | 51 => ⟨S100000x1, .i1⟩
  | 52 => ⟨S1x1, .i32⟩
  | 53 => ⟨S100000x1, .i32⟩
  | 54 => ⟨S100000x1, .i1⟩
  | 55 => ⟨S100000x1, .i1⟩
  | 56 => ⟨S_, .i1⟩
  | 57 => ⟨S100000, .i1⟩
  | 58 => ⟨S100000x64, .f32⟩
  | 59 => ⟨S100000x64, .i1⟩
  | 60 => ⟨S_, .f32⟩
  | 61 => ⟨S100000x64, .f32⟩
  | 62 => ⟨S100000x64, .f32⟩
  | 63 => ⟨S100000x64, .f32⟩
  | 64 => ⟨S100000x1, .i32⟩
  | 65 => ⟨S100000, .i32⟩
  | 66 => ⟨S_, .i32⟩
  | 67 => ⟨S100000, .i32⟩
  | 68 => ⟨S100000, .i1⟩
  | 69 => ⟨S_, .i32⟩
  | 70 => ⟨S100000, .i32⟩
  | 71 => ⟨S100000, .i32⟩
  | 72 => ⟨S100000, .i32⟩
  | 73 => ⟨S100000x1, .i32⟩
  | 74 => ⟨S1, .i32⟩
  | 75 => ⟨S_, .i32⟩
  | 76 => ⟨S100000x1, .i32⟩
  | 77 => ⟨S100000x1, .i1⟩
  | 78 => ⟨S1x1, .i32⟩
  | 79 => ⟨S100000x1, .i32⟩
  | 80 => ⟨S100000x1, .i1⟩
  | 81 => ⟨S100000x1, .i1⟩
  | 82 => ⟨S_, .i1⟩
  | 83 => ⟨S100000, .i1⟩
  | 84 => ⟨S100000x64, .f32⟩
  | 85 => ⟨S100000x64, .i1⟩
  | 86 => ⟨S_, .f32⟩
  | 87 => ⟨S100000x64, .f32⟩
  | 88 => ⟨S100000x64, .f32⟩
  | 89 => ⟨S100000x64, .f32⟩
  | 90 => ⟨S100000x1, .i32⟩
  | 91 => ⟨S100000, .i32⟩
  | 92 => ⟨S_, .i32⟩
  | 93 => ⟨S100000, .i32⟩
  | 94 => ⟨S100000, .i1⟩
  | 95 => ⟨S_, .i32⟩
  | 96 => ⟨S100000, .i32⟩
  | 97 => ⟨S100000, .i32⟩
  | 98 => ⟨S100000, .i32⟩
  | 99 => ⟨S100000x1, .i32⟩
  | 100 => ⟨S1, .i32⟩
  | 101 => ⟨S_, .i32⟩
  | 102 => ⟨S100000x1, .i32⟩
  | 103 => ⟨S100000x1, .i1⟩
  | 104 => ⟨S1x1, .i32⟩
  | 105 => ⟨S100000x1, .i32⟩
  | 106 => ⟨S100000x1, .i1⟩
  | 107 => ⟨S100000x1, .i1⟩
  | 108 => ⟨S_, .i1⟩
  | 109 => ⟨S100000, .i1⟩
  | 110 => ⟨S100000x64, .f32⟩
  | 111 => ⟨S100000x64, .i1⟩
  | 112 => ⟨S_, .f32⟩
  | 113 => ⟨S100000x64, .f32⟩
  | 114 => ⟨S100000x64, .f32⟩
  | 115 => ⟨S100000x64, .f32⟩
  | 116 => ⟨S100000x1, .i32⟩
  | 117 => ⟨S100000, .i32⟩
  | 118 => ⟨S_, .i32⟩
  | 119 => ⟨S100000, .i32⟩
  | 120 => ⟨S100000, .i1⟩
  | 121 => ⟨S_, .i32⟩
  | 122 => ⟨S100000, .i32⟩
  | 123 => ⟨S100000, .i32⟩
  | 124 => ⟨S100000, .i32⟩
  | 125 => ⟨S100000x1, .i32⟩
  | 126 => ⟨S1, .i32⟩
  | 127 => ⟨S_, .i32⟩
  | _ => ⟨S100000x9, .i32⟩

abbrev hbmTy0_1 (i : Nat) : BufTy := match i % 128 with
  | 0 => ⟨S100000x1, .i32⟩
  | 1 => ⟨S100000x1, .i1⟩
  | 2 => ⟨S1x1, .i32⟩
  | 3 => ⟨S100000x1, .i32⟩
  | 4 => ⟨S100000x1, .i1⟩
  | 5 => ⟨S100000x1, .i1⟩
  | 6 => ⟨S_, .i1⟩
  | 7 => ⟨S100000, .i1⟩
  | 8 => ⟨S100000x64, .f32⟩
  | 9 => ⟨S100000x64, .i1⟩
  | 10 => ⟨S_, .f32⟩
  | 11 => ⟨S100000x64, .f32⟩
  | 12 => ⟨S100000x64, .f32⟩
  | 13 => ⟨S100000x64, .f32⟩
  | 14 => ⟨S100000x1, .i32⟩
  | 15 => ⟨S100000, .i32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S1, .i32⟩
  | 25 => ⟨S_, .i32⟩
  | 26 => ⟨S100000x1, .i32⟩
  | 27 => ⟨S100000x1, .i1⟩
  | 28 => ⟨S1x1, .i32⟩
  | 29 => ⟨S100000x1, .i32⟩
  | 30 => ⟨S100000x1, .i1⟩
  | 31 => ⟨S100000x1, .i1⟩
  | 32 => ⟨S_, .i1⟩
  | 33 => ⟨S100000, .i1⟩
  | 34 => ⟨S100000x64, .f32⟩
  | 35 => ⟨S100000x64, .i1⟩
  | 36 => ⟨S_, .f32⟩
  | 37 => ⟨S100000x64, .f32⟩
  | 38 => ⟨S100000x64, .f32⟩
  | 39 => ⟨S100000x64, .f32⟩
  | 40 => ⟨S100000x1, .i32⟩
  | 41 => ⟨S100000, .i32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S1, .i32⟩
  | 51 => ⟨S_, .i32⟩
  | 52 => ⟨S100000x1, .i32⟩
  | 53 => ⟨S100000x1, .i1⟩
  | 54 => ⟨S1x1, .i32⟩
  | 55 => ⟨S100000x1, .i32⟩
  | 56 => ⟨S100000x1, .i1⟩
  | 57 => ⟨S100000x1, .i1⟩
  | 58 => ⟨S_, .i1⟩
  | 59 => ⟨S100000, .i1⟩
  | 60 => ⟨S100000x64, .f32⟩
  | 61 => ⟨S100000x64, .i1⟩
  | 62 => ⟨S_, .f32⟩
  | 63 => ⟨S100000x64, .f32⟩
  | 64 => ⟨S100000x64, .f32⟩
  | 65 => ⟨S100000x64, .f32⟩
  | 66 => ⟨S100000x1, .i32⟩
  | 67 => ⟨S100000, .i32⟩
  | 68 => ⟨S_, .i32⟩
  | 69 => ⟨S100000, .i32⟩
  | 70 => ⟨S100000, .i1⟩
  | 71 => ⟨S_, .i32⟩
  | 72 => ⟨S100000, .i32⟩
  | 73 => ⟨S100000, .i32⟩
  | 74 => ⟨S100000, .i32⟩
  | 75 => ⟨S100000x1, .i32⟩
  | 76 => ⟨S1, .i32⟩
  | 77 => ⟨S_, .i32⟩
  | 78 => ⟨S100000x1, .i32⟩
  | 79 => ⟨S100000x1, .i1⟩
  | 80 => ⟨S1x1, .i32⟩
  | 81 => ⟨S100000x1, .i32⟩
  | 82 => ⟨S100000x1, .i1⟩
  | 83 => ⟨S100000x1, .i1⟩
  | 84 => ⟨S_, .i1⟩
  | 85 => ⟨S100000, .i1⟩
  | 86 => ⟨S100000x64, .f32⟩
  | 87 => ⟨S100000x64, .i1⟩
  | 88 => ⟨S_, .f32⟩
  | 89 => ⟨S100000x64, .f32⟩
  | 90 => ⟨S100000x64, .f32⟩
  | 91 => ⟨S100000x64, .f32⟩
  | 92 => ⟨S100000x1, .i32⟩
  | 93 => ⟨S100000, .i32⟩
  | 94 => ⟨S_, .i32⟩
  | 95 => ⟨S100000, .i32⟩
  | 96 => ⟨S100000, .i1⟩
  | 97 => ⟨S_, .i32⟩
  | 98 => ⟨S100000, .i32⟩
  | 99 => ⟨S100000, .i32⟩
  | 100 => ⟨S100000, .i32⟩
  | 101 => ⟨S100000x1, .i32⟩
  | 102 => ⟨S1, .i32⟩
  | 103 => ⟨S_, .i32⟩
  | 104 => ⟨S100000x1, .i32⟩
  | 105 => ⟨S100000x1, .i1⟩
  | 106 => ⟨S1x1, .i32⟩
  | 107 => ⟨S100000x1, .i32⟩
  | 108 => ⟨S100000x1, .i1⟩
  | 109 => ⟨S100000x1, .i1⟩
  | 110 => ⟨S_, .i1⟩
  | 111 => ⟨S100000, .i1⟩
  | 112 => ⟨S100000x64, .f32⟩
  | 113 => ⟨S100000x64, .i1⟩
  | 114 => ⟨S_, .f32⟩
  | 115 => ⟨S100000x64, .f32⟩
  | 116 => ⟨S100000x64, .f32⟩
  | 117 => ⟨S100000x64, .f32⟩
  | _ => ⟨S100000x9, .i32⟩

abbrev hbmTy (i : Nat) : BufTy := match i / 128 with
  | 0 => hbmTy0_0 i
  | 1 => hbmTy0_1 i
  | _ => ⟨S100000x9, .i32⟩

abbrev bufTy : (tb : Table) → Fin (tcTables nBuf tb) → BufTy
  | .hbm, ⟨i, _⟩ => hbmTy i
  | _, _ => ⟨S100000x9, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_v14 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev main_v18 : Ref sig .tc := ⟨.hbm, 117, rfl⟩
abbrev main_call4_c : Ref sig .tc := ⟨.hbm, 118, rfl⟩
abbrev main_call4_v0 : Ref sig .tc := ⟨.hbm, 119, rfl⟩
abbrev main_call4_v1 : Ref sig .tc := ⟨.hbm, 120, rfl⟩
abbrev main_call4_c_0 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_v5 : Ref sig .tc := ⟨.hbm, 125, rfl⟩
abbrev main_call4_c_1 : Ref sig .tc := ⟨.hbm, 126, rfl⟩
abbrev main_call4_c_2 : Ref sig .tc := ⟨.hbm, 127, rfl⟩
abbrev main_call4_v6 : Ref sig .tc := ⟨.hbm, 128, rfl⟩
abbrev main_call4_v7 : Ref sig .tc := ⟨.hbm, 129, rfl⟩
abbrev main_call4_v8 : Ref sig .tc := ⟨.hbm, 130, rfl⟩
abbrev main_call4_v9 : Ref sig .tc := ⟨.hbm, 131, rfl⟩
abbrev main_call4_v10 : Ref sig .tc := ⟨.hbm, 132, rfl⟩
abbrev main_call4_v11 : Ref sig .tc := ⟨.hbm, 133, rfl⟩
abbrev main_call4_c_3 : Ref sig .tc := ⟨.hbm, 134, rfl⟩
abbrev main_call4_v12 : Ref sig .tc := ⟨.hbm, 135, rfl⟩
abbrev main_call4_v13 : Ref sig .tc := ⟨.hbm, 136, rfl⟩
abbrev main_call4_v14 : Ref sig .tc := ⟨.hbm, 137, rfl⟩
abbrev main_call4_cst : Ref sig .tc := ⟨.hbm, 138, rfl⟩
abbrev main_call4_v15 : Ref sig .tc := ⟨.hbm, 139, rfl⟩
abbrev main_v19 : Ref sig .tc := ⟨.hbm, 140, rfl⟩
abbrev main_v20 : Ref sig .tc := ⟨.hbm, 141, rfl⟩
abbrev main_v21 : Ref sig .tc := ⟨.hbm, 142, rfl⟩
abbrev main_v22 : Ref sig .tc := ⟨.hbm, 143, rfl⟩
abbrev main_call5_c : Ref sig .tc := ⟨.hbm, 144, rfl⟩
abbrev main_call5_v0 : Ref sig .tc := ⟨.hbm, 145, rfl⟩
abbrev main_call5_v1 : Ref sig .tc := ⟨.hbm, 146, rfl⟩
abbrev main_call5_c_0 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_call5_v5 : Ref sig .tc := ⟨.hbm, 151, rfl⟩
abbrev main_call5_c_1 : Ref sig .tc := ⟨.hbm, 152, rfl⟩
abbrev main_call5_c_2 : Ref sig .tc := ⟨.hbm, 153, rfl⟩
abbrev main_call5_v6 : Ref sig .tc := ⟨.hbm, 154, rfl⟩
abbrev main_call5_v7 : Ref sig .tc := ⟨.hbm, 155, rfl⟩
abbrev main_call5_v8 : Ref sig .tc := ⟨.hbm, 156, rfl⟩
abbrev main_call5_v9 : Ref sig .tc := ⟨.hbm, 157, rfl⟩
abbrev main_call5_v10 : Ref sig .tc := ⟨.hbm, 158, rfl⟩
abbrev main_call5_v11 : Ref sig .tc := ⟨.hbm, 159, rfl⟩
abbrev main_call5_c_3 : Ref sig .tc := ⟨.hbm, 160, rfl⟩
abbrev main_call5_v12 : Ref sig .tc := ⟨.hbm, 161, rfl⟩
abbrev main_call5_v13 : Ref sig .tc := ⟨.hbm, 162, rfl⟩
abbrev main_call5_v14 : Ref sig .tc := ⟨.hbm, 163, rfl⟩
abbrev main_call5_cst : Ref sig .tc := ⟨.hbm, 164, rfl⟩
abbrev main_call5_v15 : Ref sig .tc := ⟨.hbm, 165, rfl⟩
abbrev main_v23 : Ref sig .tc := ⟨.hbm, 166, rfl⟩
abbrev main_v24 : Ref sig .tc := ⟨.hbm, 167, rfl⟩
abbrev main_v25 : Ref sig .tc := ⟨.hbm, 168, rfl⟩
abbrev main_v26 : Ref sig .tc := ⟨.hbm, 169, rfl⟩
abbrev main_call6_c : Ref sig .tc := ⟨.hbm, 170, rfl⟩
abbrev main_call6_v0 : Ref sig .tc := ⟨.hbm, 171, rfl⟩
abbrev main_call6_v1 : Ref sig .tc := ⟨.hbm, 172, rfl⟩
abbrev main_call6_c_0 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_call6_v5 : Ref sig .tc := ⟨.hbm, 177, rfl⟩
abbrev main_call6_c_1 : Ref sig .tc := ⟨.hbm, 178, rfl⟩
abbrev main_call6_c_2 : Ref sig .tc := ⟨.hbm, 179, rfl⟩
abbrev main_call6_v6 : Ref sig .tc := ⟨.hbm, 180, rfl⟩
abbrev main_call6_v7 : Ref sig .tc := ⟨.hbm, 181, rfl⟩
abbrev main_call6_v8 : Ref sig .tc := ⟨.hbm, 182, rfl⟩
abbrev main_call6_v9 : Ref sig .tc := ⟨.hbm, 183, rfl⟩
abbrev main_call6_v10 : Ref sig .tc := ⟨.hbm, 184, rfl⟩
abbrev main_call6_v11 : Ref sig .tc := ⟨.hbm, 185, rfl⟩
abbrev main_call6_c_3 : Ref sig .tc := ⟨.hbm, 186, rfl⟩
abbrev main_call6_v12 : Ref sig .tc := ⟨.hbm, 187, rfl⟩
abbrev main_call6_v13 : Ref sig .tc := ⟨.hbm, 188, rfl⟩
abbrev main_call6_v14 : Ref sig .tc := ⟨.hbm, 189, rfl⟩
abbrev main_call6_cst : Ref sig .tc := ⟨.hbm, 190, rfl⟩
abbrev main_call6_v15 : Ref sig .tc := ⟨.hbm, 191, rfl⟩
abbrev main_v27 : Ref sig .tc := ⟨.hbm, 192, rfl⟩
abbrev main_v28 : Ref sig .tc := ⟨.hbm, 193, rfl⟩
abbrev main_v29 : Ref sig .tc := ⟨.hbm, 194, rfl⟩
abbrev main_v30 : Ref sig .tc := ⟨.hbm, 195, rfl⟩
abbrev main_call7_c : Ref sig .tc := ⟨.hbm, 196, rfl⟩
abbrev main_call7_v0 : Ref sig .tc := ⟨.hbm, 197, rfl⟩
abbrev main_call7_v1 : Ref sig .tc := ⟨.hbm, 198, rfl⟩
abbrev main_call7_c_0 : Ref sig .tc := ⟨.hbm, 199, rfl⟩
abbrev main_call7_v2 : Ref sig .tc := ⟨.hbm, 200, rfl⟩
abbrev main_call7_v3 : Ref sig .tc := ⟨.hbm, 201, rfl⟩
abbrev main_call7_v4 : Ref sig .tc := ⟨.hbm, 202, rfl⟩
abbrev main_call7_v5 : Ref sig .tc := ⟨.hbm, 203, rfl⟩
abbrev main_call7_c_1 : Ref sig .tc := ⟨.hbm, 204, rfl⟩
abbrev main_call7_c_2 : Ref sig .tc := ⟨.hbm, 205, rfl⟩
abbrev main_call7_v6 : Ref sig .tc := ⟨.hbm, 206, rfl⟩
abbrev main_call7_v7 : Ref sig .tc := ⟨.hbm, 207, rfl⟩
abbrev main_call7_v8 : Ref sig .tc := ⟨.hbm, 208, rfl⟩
abbrev main_call7_v9 : Ref sig .tc := ⟨.hbm, 209, rfl⟩
abbrev main_call7_v10 : Ref sig .tc := ⟨.hbm, 210, rfl⟩
abbrev main_call7_v11 : Ref sig .tc := ⟨.hbm, 211, rfl⟩
abbrev main_call7_c_3 : Ref sig .tc := ⟨.hbm, 212, rfl⟩
abbrev main_call7_v12 : Ref sig .tc := ⟨.hbm, 213, rfl⟩
abbrev main_call7_v13 : Ref sig .tc := ⟨.hbm, 214, rfl⟩
abbrev main_call7_v14 : Ref sig .tc := ⟨.hbm, 215, rfl⟩
abbrev main_call7_cst : Ref sig .tc := ⟨.hbm, 216, rfl⟩
abbrev main_call7_v15 : Ref sig .tc := ⟨.hbm, 217, rfl⟩
abbrev main_v31 : Ref sig .tc := ⟨.hbm, 218, rfl⟩
abbrev main_v32 : Ref sig .tc := ⟨.hbm, 219, rfl⟩
abbrev main_v33 : Ref sig .tc := ⟨.hbm, 220, rfl⟩
abbrev main_v34 : Ref sig .tc := ⟨.hbm, 221, rfl⟩
abbrev main_call8_c : Ref sig .tc := ⟨.hbm, 222, rfl⟩
abbrev main_call8_v0 : Ref sig .tc := ⟨.hbm, 223, rfl⟩
abbrev main_call8_v1 : Ref sig .tc := ⟨.hbm, 224, rfl⟩
abbrev main_call8_c_0 : Ref sig .tc := ⟨.hbm, 225, rfl⟩
abbrev main_call8_v2 : Ref sig .tc := ⟨.hbm, 226, rfl⟩
abbrev main_call8_v3 : Ref sig .tc := ⟨.hbm, 227, rfl⟩
abbrev main_call8_v4 : Ref sig .tc := ⟨.hbm, 228, rfl⟩
abbrev main_call8_v5 : Ref sig .tc := ⟨.hbm, 229, rfl⟩
abbrev main_call8_c_1 : Ref sig .tc := ⟨.hbm, 230, rfl⟩
abbrev main_call8_c_2 : Ref sig .tc := ⟨.hbm, 231, rfl⟩
abbrev main_call8_v6 : Ref sig .tc := ⟨.hbm, 232, rfl⟩
abbrev main_call8_v7 : Ref sig .tc := ⟨.hbm, 233, rfl⟩
abbrev main_call8_v8 : Ref sig .tc := ⟨.hbm, 234, rfl⟩
abbrev main_call8_v9 : Ref sig .tc := ⟨.hbm, 235, rfl⟩
abbrev main_call8_v10 : Ref sig .tc := ⟨.hbm, 236, rfl⟩
abbrev main_call8_v11 : Ref sig .tc := ⟨.hbm, 237, rfl⟩
abbrev main_call8_c_3 : Ref sig .tc := ⟨.hbm, 238, rfl⟩
abbrev main_call8_v12 : Ref sig .tc := ⟨.hbm, 239, rfl⟩
abbrev main_call8_v13 : Ref sig .tc := ⟨.hbm, 240, rfl⟩
abbrev main_call8_v14 : Ref sig .tc := ⟨.hbm, 241, rfl⟩
abbrev main_call8_cst : Ref sig .tc := ⟨.hbm, 242, rfl⟩
abbrev main_call8_v15 : Ref sig .tc := ⟨.hbm, 243, rfl⟩
abbrev main_v35 : Ref sig .tc := ⟨.hbm, 244, rfl⟩
abbrev main_v36 : Ref sig .tc := ⟨.hbm, 245, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  slices_S100000x9_S100000x1_0_0 : S100000x9.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x64_0 : S100000.BroadcastsInDim S100000x64 (![0] : Fin 1 → Fin S100000x64.rank)
  slices_S100000x9_S100000x1_0_1 : S100000x9.Slices ![0, 1] S100000x1
  slices_S100000x9_S100000x1_0_2 : S100000x9.Slices ![0, 2] S100000x1
  slices_S100000x9_S100000x1_0_3 : S100000x9.Slices ![0, 3] S100000x1
  slices_S100000x9_S100000x1_0_4 : S100000x9.Slices ![0, 4] S100000x1
  slices_S100000x9_S100000x1_0_5 : S100000x9.Slices ![0, 5] S100000x1
  slices_S100000x9_S100000x1_0_6 : S100000x9.Slices ![0, 6] S100000x1
  slices_S100000x9_S100000x1_0_7 : S100000x9.Slices ![0, 7] S100000x1
  slices_S100000x9_S100000x1_0_8 : S100000x9.Slices ![0, 8] S100000x1
  gather_S119x64_S100000x1_S100000x64_1_0_n_n_0_1_164_wf : GatherDims.WF S119x64 S100000x1 S100000x64 [1] [0] [] [0] [] 1 ![1, 64]
  gather_S5x64_S100000x1_S100000x64_1_0_n_n_0_1_164_wf : GatherDims.WF S5x64 S100000x1 S100000x64 [1] [0] [] [0] [] 1 ![1, 64]
  gather_S12x64_S100000x1_S100000x64_1_0_n_n_0_1_164_wf : GatherDims.WF S12x64 S100000x1 S100000x64 [1] [0] [] [0] [] 1 ![1, 64]
  gather_S10x64_S100000x1_S100000x64_1_0_n_n_0_1_164_wf : GatherDims.WF S10x64 S100000x1 S100000x64 [1] [0] [] [0] [] 1 ![1, 64]
  gather_S6x64_S100000x1_S100000x64_1_0_n_n_0_1_164_wf : GatherDims.WF S6x64 S100000x1 S100000x64 [1] [0] [] [0] [] 1 ![1, 64]
  gather_S2x64_S100000x1_S100000x64_1_0_n_n_0_1_164_wf : GatherDims.WF S2x64 S100000x1 S100000x64 [1] [0] [] [0] [] 1 ![1, 64]

variable [Facts₀]

def gather_S119x64_S100000x1_S100000x64_1_0_n_n_0_1_164 : GatherDims S119x64 S100000x1 S100000x64 where
  offsetDims := [1]
  collapsedSliceDims := [0]
  operandBatchingDims := []
  startIndicesBatchingDims := []
  startIndexMap := [0]
  indexVectorDim := 1
  sliceSizes := ![1, 64]
  wf := gather_S119x64_S100000x1_S100000x64_1_0_n_n_0_1_164_wf
def gather_S5x64_S100000x1_S100000x64_1_0_n_n_0_1_164 : GatherDims S5x64 S100000x1 S100000x64 where
  offsetDims := [1]
  collapsedSliceDims := [0]
  operandBatchingDims := []
  startIndicesBatchingDims := []
  startIndexMap := [0]
  indexVectorDim := 1
  sliceSizes := ![1, 64]
  wf := gather_S5x64_S100000x1_S100000x64_1_0_n_n_0_1_164_wf
def gather_S12x64_S100000x1_S100000x64_1_0_n_n_0_1_164 : GatherDims S12x64 S100000x1 S100000x64 where
  offsetDims := [1]
  collapsedSliceDims := [0]
  operandBatchingDims := []
  startIndicesBatchingDims := []
  startIndexMap := [0]
  indexVectorDim := 1
  sliceSizes := ![1, 64]
  wf := gather_S12x64_S100000x1_S100000x64_1_0_n_n_0_1_164_wf
def gather_S10x64_S100000x1_S100000x64_1_0_n_n_0_1_164 : GatherDims S10x64 S100000x1 S100000x64 where
  offsetDims := [1]
  collapsedSliceDims := [0]
  operandBatchingDims := []
  startIndicesBatchingDims := []
  startIndexMap := [0]
  indexVectorDim := 1
  sliceSizes := ![1, 64]
  wf := gather_S10x64_S100000x1_S100000x64_1_0_n_n_0_1_164_wf
def gather_S6x64_S100000x1_S100000x64_1_0_n_n_0_1_164 : GatherDims S6x64 S100000x1 S100000x64 where
  offsetDims := [1]
  collapsedSliceDims := [0]
  operandBatchingDims := []
  startIndicesBatchingDims := []
  startIndexMap := [0]
  indexVectorDim := 1
  sliceSizes := ![1, 64]
  wf := gather_S6x64_S100000x1_S100000x64_1_0_n_n_0_1_164_wf
def gather_S2x64_S100000x1_S100000x64_1_0_n_n_0_1_164 : GatherDims S2x64 S100000x1 S100000x64 where
  offsetDims := [1]
  collapsedSliceDims := [0]
  operandBatchingDims := []
  startIndicesBatchingDims := []
  startIndexMap := [0]
  indexVectorDim := 1
  sliceSizes := ![1, 64]
  wf := gather_S2x64_S100000x1_S100000x64_1_0_n_n_0_1_164_wf

class Facts : Prop extends Facts₀ where

variable [Facts]
-- ==== Proof.Spec.lean ====
/-
  The mathematics both programs compute, stated once, over literal shapes.

  The input `x : i32[100000, 9]` holds one binary feature per column; the nine tables `W_i : f32[rows_i, 64]`
  are read at rows 0 and 1 only.  The reference adds, feature by feature, the row `x[n, i]` of table `i`
  (`refSum`).  The kernel packs the nine bits of a node into one word `p = Σ_i x[n, i] · 2^i`, lays rows 0 and 1 of
  every table side by side in one flat table `w` of 9 · 2 · 64 entries (`w[i·128 + r·64 + e] = W_i[r, e]`), builds
  the 512-row table `lutRow w p` — the sum of the nine rows 0, plus, for every set bit `i` of `p`, the
  difference `W_i[1] − W_i[0]` — and answers row `p` of it (`kerOut`).
-/
import Idealize.ShloMosaic.PureOps
import Idealize.ShloMosaic.PureOps.Ideal
import Idealize.ShloMosaic.Lib.ValueIdx

noncomputable section

namespace Cert.Spec

open Idealize.ShloMosaic Idealize.ShloMosaic.ValueIdx

abbrev SX : Shape := ⟨2, ![100000, 9]⟩
abbrev SW : Shape := ⟨1, ![1152]⟩
abbrev SP : Shape := ⟨1, ![100000]⟩
abbrev SO : Shape := ⟨2, ![100000, 64]⟩

section Generic

variable {F : FTy → Type} [FloatOps F]

/-- Entry `k` of the flat table (entry 0 past its end, which no use reaches). -/
def wAt (w : SW.Idx → F .f32) (k : Nat) : F .f32 :=
  if h : k < 1152 then w (ix1 ⟨k, h⟩) else w (ix1 ⟨0, by decide⟩)

/-- The sum of the nine rows 0, in the order the kernel adds them: table 0 first. -/
def base (w : SW.Idx → F .f32) (e : Nat) : F .f32 :=
  FloatOps.addf (FloatOps.addf (FloatOps.addf (FloatOps.addf (FloatOps.addf (FloatOps.addf (FloatOps.addf (FloatOps.addf
    (wAt w e) (wAt w (128 + e))) (wAt w (256 + e))) (wAt w (384 + e))) (wAt w (512 + e))) (wAt w (640 + e)))
    (wAt w (768 + e))) (wAt w (896 + e))) (wAt w (1024 + e))

/-- Row 1 minus row 0 of table `i`. -/
def dlt (w : SW.Idx → F .f32) (i e : Nat) : F .f32 :=
  FloatOps.subf (wAt w (i * 128 + 64 + e)) (wAt w (i * 128 + e))

/-- One feature's step: add its difference when its bit of `p` is set. -/
def stp (w : SW.Idx → F .f32) (p e i : Nat) (acc : F .f32) : F .f32 :=
  if p.testBit i then FloatOps.addf acc (dlt w i e) else acc

/-- Row `p` of the kernel's table at lane `e`: the base, then the set bits' differences, bit 0 first. -/
def lutRow (w : SW.Idx → F .f32) (p e : Nat) : F .f32 :=
  stp w p e 8 (stp w p e 7 (stp w p e 6 (stp w p e 5 (stp w p e 4 (stp w p e 3 (stp w p e 2 (stp w p e 1
    (stp w p e 0 (base w e)))))))))

/-- What the kernel leaves in its result: row `xp[n]` of its table. -/
def kerOut (w : SW.Idx → F .f32) (xp : SP.Idx → BitVec 32) : SO.Idx → F .f32 :=
  fun j => lutRow w (xp (ix1 (j 0))).toNat (j 1).val

end Generic

/-- Row `b` (0 or 1; anything but the word 1 reads row 0) of a table, at lane `e`. -/
def pick {r : Nat} (W : (⟨2, ![r + 2, 64]⟩ : Shape).Idx → EReal) (b : BitVec 32) (e : Fin 64) : EReal :=
  if b = 1#32 then W (ix2 ⟨1, by omega⟩ e) else W (ix2 ⟨0, by omega⟩ e)

/-- The reference's result on binary features: the nine picked rows added to zero, table 0 first. -/
def refSum (x : SX.Idx → BitVec 32)
    (W0 : (⟨2, ![119, 64]⟩ : Shape).Idx → EReal) (W1 : (⟨2, ![5, 64]⟩ : Shape).Idx → EReal)
    (W2 : (⟨2, ![12, 64]⟩ : Shape).Idx → EReal) (W3 : (⟨2, ![12, 64]⟩ : Shape).Idx → EReal)
    (W4 : (⟨2, ![10, 64]⟩ : Shape).Idx → EReal) (W5 : (⟨2, ![6, 64]⟩ : Shape).Idx → EReal)
    (W6 : (⟨2, ![6, 64]⟩ : Shape).Idx → EReal) (W7 : (⟨2, ![2, 64]⟩ : Shape).Idx → EReal)
    (W8 : (⟨2, ![2, 64]⟩ : Shape).Idx → EReal) : SO.Idx → EReal :=
  fun j => (((((((((0 : EReal)
    + pick (r := 117) W0 (x (ix2 (j 0) 0)) (j 1)) + pick (r := 3) W1 (x (ix2 (j 0) 1)) (j 1))
    + pick (r := 10) W2 (x (ix2 (j 0) 2)) (j 1)) + pick (r := 10) W3 (x (ix2 (j 0) 3)) (j 1))
    + pick (r := 8) W4 (x (ix2 (j 0) 4)) (j 1)) + pick (r := 4) W5 (x (ix2 (j 0) 5)) (j 1))
    + pick (r := 4) W6 (x (ix2 (j 0) 6)) (j 1)) + pick (r := 0) W7 (x (ix2 (j 0) 7)) (j 1))
    + pick (r := 0) W8 (x (ix2 (j 0) 8)) (j 1)

end Cert.Spec

end
-- ==== Proof.Algebra.lean ====
/-
  The algebra of the 512-row table.

  Row `2 ^ i + g` (with `g < 2 ^ i`) of the table is row `g` plus feature `i`'s difference: the bits of
  `2 ^ i + g` below `i` are those of `g`, bit `i` is set, and no higher bit is set in either number.
-/
import proofs.«207339_g86234353369688_cont_sun_m_1071_33_alg».proof.Proof.Spec
import Idealize.ShloMosaic.PureOps.Ideal.Laws
import Mathlib

noncomputable section

namespace Cert.Algebra

open Idealize.ShloMosaic Idealize.ShloMosaic.ValueIdx Cert.Spec

section Generic

variable {F : FTy → Type} [FloatOps F]

/-- The bits of `2 ^ i + g` for `g < 2 ^ i`: those of `g` below `i`, a one at `i`, zeros above. -/
theorem testBit_pow_add (i g j : Nat) (hg : g < 2 ^ i) :
    (2 ^ i + g).testBit j = if j < i then g.testBit j else decide (j = i) := by
  by_cases h1 : j < i
  · simp only [h1, if_true]
    exact Nat.testBit_two_pow_add_gt h1 g
  · simp only [h1, if_false]
    by_cases h2 : j = i
    · subst h2
      rw [Nat.testBit_two_pow_add_eq, Nat.testBit_lt_two_pow hg]
      simp
    · have h3 : i < j := by omega
      have : 2 ^ i + g < 2 ^ j := by
        have : 2 ^ (i + 1) ≤ 2 ^ j := Nat.pow_le_pow_right (by norm_num) h3
        rw [pow_succ] at this
        omega
      rw [Nat.testBit_lt_two_pow this]
      simp [h2]

/-- A number below `2 ^ i` has no bit at or above `i`. -/
theorem testBit_of_lt (i g j : Nat) (hg : g < 2 ^ i) (hj : i ≤ j) : g.testBit j = false := by
  apply Nat.testBit_lt_two_pow
  exact lt_of_lt_of_le hg (Nat.pow_le_pow_right (by norm_num) hj)

theorem lutRow_zero (w : SW.Idx → F .f32) (e : Nat) : lutRow w 0 e = base w e := by
  simp [lutRow, stp]

theorem lutRow_succ_pow (w : SW.Idx → F .f32) (i g e : Nat) (hi : i < 9) (hg : g < 2 ^ i) :
    lutRow w (2 ^ i + g) e = FloatOps.addf (lutRow w g e) (dlt w i e) := by
  have H := fun j => testBit_pow_add i g j hg
  have G := fun j => testBit_of_lt i g j hg
  unfold lutRow stp
  simp only [H]
  interval_cases i
  all_goals simp [G]

/-! The nine instances, numerals spelt out. -/

theorem lutRow_add_1 (w : SW.Idx → F .f32) (g e : Nat) (hg : g < 1) :
    lutRow w (1 + g) e = FloatOps.addf (lutRow w g e) (dlt w 0 e) :=
  lutRow_succ_pow w 0 g e (by norm_num) (show g < 2 ^ 0 from hg)

theorem lutRow_add_2 (w : SW.Idx → F .f32) (g e : Nat) (hg : g < 2) :
    lutRow w (2 + g) e = FloatOps.addf (lutRow w g e) (dlt w 1 e) :=
  lutRow_succ_pow w 1 g e (by norm_num) (show g < 2 ^ 1 from hg)

theorem lutRow_add_4 (w : SW.Idx → F .f32) (g e : Nat) (hg : g < 4) :
    lutRow w (4 + g) e = FloatOps.addf (lutRow w g e) (dlt w 2 e) :=
  lutRow_succ_pow w 2 g e (by norm_num) (show g < 2 ^ 2 from hg)

theorem lutRow_add_8 (w : SW.Idx → F .f32) (g e : Nat) (hg : g < 8) :
    lutRow w (8 + g) e = FloatOps.addf (lutRow w g e) (dlt w 3 e) :=
  lutRow_succ_pow w 3 g e (by norm_num) (show g < 2 ^ 3 from hg)

theorem lutRow_add_16 (w : SW.Idx → F .f32) (g e : Nat) (hg : g < 16) :
    lutRow w (16 + g) e = FloatOps.addf (lutRow w g e) (dlt w 4 e) :=
  lutRow_succ_pow w 4 g e (by norm_num) (show g < 2 ^ 4 from hg)

theorem lutRow_add_32 (w : SW.Idx → F .f32) (g e : Nat) (hg : g < 32) :
    lutRow w (32 + g) e = FloatOps.addf (lutRow w g e) (dlt w 5 e) :=
  lutRow_succ_pow w 5 g e (by norm_num) (show g < 2 ^ 5 from hg)

theorem lutRow_add_64 (w : SW.Idx → F .f32) (g e : Nat) (hg : g < 64) :
    lutRow w (64 + g) e = FloatOps.addf (lutRow w g e) (dlt w 6 e) :=
  lutRow_succ_pow w 6 g e (by norm_num) (show g < 2 ^ 6 from hg)

theorem lutRow_add_128 (w : SW.Idx → F .f32) (g e : Nat) (hg : g < 128) :
    lutRow w (128 + g) e = FloatOps.addf (lutRow w g e) (dlt w 7 e) :=
  lutRow_succ_pow w 7 g e (by norm_num) (show g < 2 ^ 7 from hg)

theorem lutRow_add_256 (w : SW.Idx → F .f32) (g e : Nat) (hg : g < 256) :
    lutRow w (256 + g) e = FloatOps.addf (lutRow w g e) (dlt w 8 e) :=
  lutRow_succ_pow w 8 g e (by norm_num) (show g < 2 ^ 8 from hg)

end Generic

end Cert.Algebra

end
-- ==== Proof.AlgebraIdeal.lean ====
/-
  The table at the extended reals.

  With every entry of the flat table a real number, the float operations are the real ones, so row `p` of the
  table — the nine rows 0 added up, then `W_i[1] − W_i[0]` for every set bit `i` of `p` — is the sum over the
  nine features of the row the bit selects.  When the bits of the packed word are the nine binary features and the
  flat table holds rows 0 and 1 of the nine tables side by side, that sum is the reference's.
-/
import proofs.«207339_g86234353369688_cont_sun_m_1071_33_alg».proof.Proof.Algebra

noncomputable section

namespace Cert.Algebra

open Idealize.ShloMosaic Idealize.ShloMosaic.ValueIdx Cert.Spec

/-- Feature `i`'s selected entry: row 1 of table `i` when bit `i` of `p` is set, else row 0. -/
def sel (w : SW.Idx → EReal) (p e i : Nat) : EReal :=
  if p.testBit i then wAt (F := Ideal) w (i * 128 + 64 + e) else wAt (F := Ideal) w (i * 128 + e)

/-- A choice between two real numbers, read in the extended reals. -/
theorem coe_ite (c : Prop) [Decidable c] (x y : ℝ) :
    (if c then ((x : ℝ) : EReal) else ((y : ℝ) : EReal)) = (((if c then x else y : ℝ)) : EReal) := by
  split_ifs <;> rfl

/-- One feature's step on real numbers: adding `b - a` or nothing is removing `a` and adding the chosen one. -/
theorem step_real (c : Prop) [Decidable c] (acc a b : ℝ) :
    (if c then acc + (b - a) else acc) = (acc - a) + (if c then b else a) := by
  split_ifs <;> ring

/-- Every entry of a finite flat table, read through `wAt`, is a real number. -/
theorem wAt_fin (w : SW.Idx → EReal) (hfin : ∀ k, ∃ r : ℝ, w k = (r : EReal)) (k : Nat) :
    ∃ r : ℝ, wAt (F := Ideal) w k = (r : EReal) := by
  unfold wAt
  split_ifs
  · exact hfin _
  · exact hfin _

/-- With finite entries, row `p` of the table is the sum of the nine selected entries, table 0 first. -/
theorem lutRow_eq_sel (w : SW.Idx → EReal) (p e : Nat) (he : e < 64)
    (hfin : ∀ k, ∃ r : ℝ, w k = (r : EReal)) :
    lutRow (F := Ideal) w p e
      = (((((((((0 : EReal) + sel w p e 0) + sel w p e 1) + sel w p e 2) + sel w p e 3) + sel w p e 4)
          + sel w p e 5) + sel w p e 6) + sel w p e 7) + sel w p e 8 := by
  choose f hf using wAt_fin w hfin
  unfold lutRow stp base dlt sel
  simp only [Ideal.addf_def, Ideal.subf_def, hf, Nat.zero_mul, Nat.zero_add, Nat.one_mul, Nat.reduceMul,
    Nat.reduceAdd, zero_add]
  simp only [← EReal.coe_sub, ← EReal.coe_add, coe_ite]
  rw [EReal.coe_eq_coe_iff]
  simp only [step_real]
  ring

/-- With the flat table holding rows 0 and 1 of the nine tables side by side, finite entries, and the packed word's
bits being the nine binary features, the kernel's result is the reference's sum. -/
theorem kerOut_eq_refSum (x : SX.Idx → BitVec 32)
    (W0 : (⟨2, ![119, 64]⟩ : Shape).Idx → EReal)
    (W1 : (⟨2, ![5, 64]⟩ : Shape).Idx → EReal)
    (W2 : (⟨2, ![12, 64]⟩ : Shape).Idx → EReal)
    (W3 : (⟨2, ![12, 64]⟩ : Shape).Idx → EReal)
    (W4 : (⟨2, ![10, 64]⟩ : Shape).Idx → EReal)
    (W5 : (⟨2, ![6, 64]⟩ : Shape).Idx → EReal)
    (W6 : (⟨2, ![6, 64]⟩ : Shape).Idx → EReal)
    (W7 : (⟨2, ![2, 64]⟩ : Shape).Idx → EReal)
    (W8 : (⟨2, ![2, 64]⟩ : Shape).Idx → EReal)
    (w : SW.Idx → EReal) (xp : SP.Idx → BitVec 32)
    (hw0 : ∀ (r : Fin 2) (e : Fin 64),
      wAt (F := Ideal) w (0 * 128 + r.val * 64 + e.val) = W0 (ix2 ⟨r.val, by omega⟩ e))
    (hw1 : ∀ (r : Fin 2) (e : Fin 64),
      wAt (F := Ideal) w (1 * 128 + r.val * 64 + e.val) = W1 (ix2 ⟨r.val, by omega⟩ e))
    (hw2 : ∀ (r : Fin 2) (e : Fin 64),
      wAt (F := Ideal) w (2 * 128 + r.val * 64 + e.val) = W2 (ix2 ⟨r.val, by omega⟩ e))
    (hw3 : ∀ (r : Fin 2) (e : Fin 64),
      wAt (F := Ideal) w (3 * 128 + r.val * 64 + e.val) = W3 (ix2 ⟨r.val, by omega⟩ e))
    (hw4 : ∀ (r : Fin 2) (e : Fin 64),
      wAt (F := Ideal) w (4 * 128 + r.val * 64 + e.val) = W4 (ix2 ⟨r.val, by omega⟩ e))
    (hw5 : ∀ (r : Fin 2) (e : Fin 64),
      wAt (F := Ideal) w (5 * 128 + r.val * 64 + e.val) = W5 (ix2 ⟨r.val, by omega⟩ e))
    (hw6 : ∀ (r : Fin 2) (e : Fin 64),
      wAt (F := Ideal) w (6 * 128 + r.val * 64 + e.val) = W6 (ix2 ⟨r.val, by omega⟩ e))
    (hw7 : ∀ (r : Fin 2) (e : Fin 64),
      wAt (F := Ideal) w (7 * 128 + r.val * 64 + e.val) = W7 (ix2 ⟨r.val, by omega⟩ e))
    (hw8 : ∀ (r : Fin 2) (e : Fin 64),
      wAt (F := Ideal) w (8 * 128 + r.val * 64 + e.val) = W8 (ix2 ⟨r.val, by omega⟩ e))
    (hbit : ∀ (n : Fin 100000) (i : Fin 9),
      (xp (ix1 n)).toNat.testBit i.val = decide (x (ix2 n i) = 1#32))
    (hfin : ∀ k, ∃ r : ℝ, w k = (r : EReal)) :
    kerOut (F := Ideal) w xp = refSum x W0 W1 W2 W3 W4 W5 W6 W7 W8 := by
  funext j
  unfold kerOut
  rw [lutRow_eq_sel w _ _ (j 1).isLt hfin]
  unfold refSum
  have h0 : sel w (xp (ix1 (j 0))).toNat (j 1).val 0 = pick (r := 117) W0 (x (ix2 (j 0) 0)) (j 1) := by
    have hb : (xp (ix1 (j 0))).toNat.testBit 0 = decide (x (ix2 (j 0) 0) = 1#32) := hbit (j 0) 0
    unfold sel pick
    rw [hb]
    by_cases hx : x (ix2 (j 0) 0) = 1#32
    · simp only [hx, decide_true, if_true]
      exact hw0 1 (j 1)
    · simp only [hx, decide_false, Bool.false_eq_true, if_false]
      exact hw0 0 (j 1)
  have h1 : sel w (xp (ix1 (j 0))).toNat (j 1).val 1 = pick (r := 3) W1 (x (ix2 (j 0) 1)) (j 1) := by
    have hb : (xp (ix1 (j 0))).toNat.testBit 1 = decide (x (ix2 (j 0) 1) = 1#32) := hbit (j 0) 1
    unfold sel pick
    rw [hb]
    by_cases hx : x (ix2 (j 0) 1) = 1#32
    · simp only [hx, decide_true, if_true]
      exact hw1 1 (j 1)
    · simp only [hx, decide_false, Bool.false_eq_true, if_false]
      exact hw1 0 (j 1)
  have h2 : sel w (xp (ix1 (j 0))).toNat (j 1).val 2 = pick (r := 10) W2 (x (ix2 (j 0) 2)) (j 1) := by
    have hb : (xp (ix1 (j 0))).toNat.testBit 2 = decide (x (ix2 (j 0) 2) = 1#32) := hbit (j 0) 2
    unfold sel pick
    rw [hb]
    by_cases hx : x (ix2 (j 0) 2) = 1#32
    · simp only [hx, decide_true, if_true]
      exact hw2 1 (j 1)
    · simp only [hx, decide_false, Bool.false_eq_true, if_false]
      exact hw2 0 (j 1)
  have h3 : sel w (xp (ix1 (j 0))).toNat (j 1).val 3 = pick (r := 10) W3 (x (ix2 (j 0) 3)) (j 1) := by
    have hb : (xp (ix1 (j 0))).toNat.testBit 3 = decide (x (ix2 (j 0) 3) = 1#32) := hbit (j 0) 3
    unfold sel pick
    rw [hb]
    by_cases hx : x (ix2 (j 0) 3) = 1#32
    · simp only [hx, decide_true, if_true]
      exact hw3 1 (j 1)
    · simp only [hx, decide_false, Bool.false_eq_true, if_false]
      exact hw3 0 (j 1)
  have h4 : sel w (xp (ix1 (j 0))).toNat (j 1).val 4 = pick (r := 8) W4 (x (ix2 (j 0) 4)) (j 1) := by
    have hb : (xp (ix1 (j 0))).toNat.testBit 4 = decide (x (ix2 (j 0) 4) = 1#32) := hbit (j 0) 4
    unfold sel pick
    rw [hb]
    by_cases hx : x (ix2 (j 0) 4) = 1#32
    · simp only [hx, decide_true, if_true]
      exact hw4 1 (j 1)
    · simp only [hx, decide_false, Bool.false_eq_true, if_false]
      exact hw4 0 (j 1)
  have h5 : sel w (xp (ix1 (j 0))).toNat (j 1).val 5 = pick (r := 4) W5 (x (ix2 (j 0) 5)) (j 1) := by
    have hb : (xp (ix1 (j 0))).toNat.testBit 5 = decide (x (ix2 (j 0) 5) = 1#32) := hbit (j 0) 5
    unfold sel pick
    rw [hb]
    by_cases hx : x (ix2 (j 0) 5) = 1#32
    · simp only [hx, decide_true, if_true]
      exact hw5 1 (j 1)
    · simp only [hx, decide_false, Bool.false_eq_true, if_false]
      exact hw5 0 (j 1)
  have h6 : sel w (xp (ix1 (j 0))).toNat (j 1).val 6 = pick (r := 4) W6 (x (ix2 (j 0) 6)) (j 1) := by
    have hb : (xp (ix1 (j 0))).toNat.testBit 6 = decide (x (ix2 (j 0) 6) = 1#32) := hbit (j 0) 6
    unfold sel pick
    rw [hb]
    by_cases hx : x (ix2 (j 0) 6) = 1#32
    · simp only [hx, decide_true, if_true]
      exact hw6 1 (j 1)
    · simp only [hx, decide_false, Bool.false_eq_true, if_false]
      exact hw6 0 (j 1)
  have h7 : sel w (xp (ix1 (j 0))).toNat (j 1).val 7 = pick (r := 0) W7 (x (ix2 (j 0) 7)) (j 1) := by
    have hb : (xp (ix1 (j 0))).toNat.testBit 7 = decide (x (ix2 (j 0) 7) = 1#32) := hbit (j 0) 7
    unfold sel pick
    rw [hb]
    by_cases hx : x (ix2 (j 0) 7) = 1#32
    · simp only [hx, decide_true, if_true]
      exact hw7 1 (j 1)
    · simp only [hx, decide_false, Bool.false_eq_true, if_false]
      exact hw7 0 (j 1)
  have h8 : sel w (xp (ix1 (j 0))).toNat (j 1).val 8 = pick (r := 0) W8 (x (ix2 (j 0) 8)) (j 1) := by
    have hb : (xp (ix1 (j 0))).toNat.testBit 8 = decide (x (ix2 (j 0) 8) = 1#32) := hbit (j 0) 8
    unfold sel pick
    rw [hb]
    by_cases hx : x (ix2 (j 0) 8) = 1#32
    · simp only [hx, decide_true, if_true]
      exact hw8 1 (j 1)
    · simp only [hx, decide_false, Bool.false_eq_true, if_false]
      exact hw8 0 (j 1)
  rw [h0, h1, h2, h3, h4, h5, h6, h7, h8]

end Cert.Algebra

end
-- ==== Proof.HostK.lean ====
/-
  The host side of the kernel program: its eighteen array operations as a list, what they leave in the
  flat table and in the packed word, and that they write none of the arguments.
-/
import proofs.«207339_g86234353369688_cont_sun_m_1071_33_alg».proof.KernelIdeal
import proofs.«207339_g86234353369688_cont_sun_m_1071_33_alg».proof.Proof.Spec
import Idealize.ShloMosaic.Lib.StableHlo.Run
import Idealize.ShloMosaic.Lib.ValueIdx

set_option synthInstance.maxSize 4096

noncomputable section

namespace Cert.KernelIdeal.HostK

open Idealize.ShloMosaic Idealize.SL.Sem Idealize.ShloMosaic.ValueIdx
open Cert.KernelIdeal Cert.KernelIdeal.Facts₀ Cert.KernelIdeal.Facts

variable {F : FTy → Type} [FloatOps F] [Cert.KernelIdeal.Facts]

/-- The eighteen array operations of the program, in order. -/
abbrev hostOps : List (HloOp Cert.KernelIdeal.τ Cert.KernelIdeal.sig (Elt F)) :=
  [(StableHlo.unary main_arg1 main_v0 ((extractStridedSlice S2x64 ![0, 0] · slices_S119x64_S2x64_0_0) : (⟨S119x64, .f32⟩ : BufTy).Contents (Elt F) → (⟨S2x64, .f32⟩ : BufTy).Contents (Elt F))),
   (StableHlo.unary main_arg2 main_v1 ((extractStridedSlice S2x64 ![0, 0] · slices_S5x64_S2x64_0_0) : (⟨S5x64, .f32⟩ : BufTy).Contents (Elt F) → (⟨S2x64, .f32⟩ : BufTy).Contents (Elt F))),
   (StableHlo.unary main_arg3 main_v2 ((extractStridedSlice S2x64 ![0, 0] · slices_S12x64_S2x64_0_0) : (⟨S12x64, .f32⟩ : BufTy).Contents (Elt F) → (⟨S2x64, .f32⟩ : BufTy).Contents (Elt F))),
   (StableHlo.unary main_arg4 main_v3 ((extractStridedSlice S2x64 ![0, 0] · slices_S12x64_S2x64_0_0) : (⟨S12x64, .f32⟩ : BufTy).Contents (Elt F) → (⟨S2x64, .f32⟩ : BufTy).Contents (Elt F))),
   (StableHlo.unary main_arg5 main_v4 ((extractStridedSlice S2x64 ![0, 0] · slices_S10x64_S2x64_0_0) : (⟨S10x64, .f32⟩ : BufTy).Contents (Elt F) → (⟨S2x64, .f32⟩ : BufTy).Contents (Elt F))),
   (StableHlo.unary main_arg6 main_v5 ((extractStridedSlice S2x64 ![0, 0] · slices_S6x64_S2x64_0_0) : (⟨S6x64, .f32⟩ : BufTy).Contents (Elt F) → (⟨S2x64, .f32⟩ : BufTy).Contents (Elt F))),
   (StableHlo.unary main_arg7 main_v6 ((extractStridedSlice S2x64 ![0, 0] · slices_S6x64_S2x64_0_0) : (⟨S6x64, .f32⟩ : BufTy).Contents (Elt F) → (⟨S2x64, .f32⟩ : BufTy).Contents (Elt F))),
   (StableHlo.nary ![main_v0, main_v1, main_v2, main_v3, main_v4, main_v5, main_v6, main_arg8, main_arg9] main_v7 (fun u => concatenate S18x64 0 [⟨S2x64, u 0⟩, ⟨S2x64, u 1⟩, ⟨S2x64, u 2⟩, ⟨S2x64, u 3⟩, ⟨S2x64, u 4⟩, ⟨S2x64, u 5⟩, ⟨S2x64, u 6⟩, ⟨S2x64, u 7⟩, ⟨S2x64, u 8⟩] concatenates_S2x64_S2x64_S2x64_S2x64_S2x64_S2x64_S2x64_S2x64_S2x64_S18x64_d0)),
   (StableHlo.reshape main_v7 main_v8 rfl shapeCasts_S18x64_S1152),
   (StableHlo.nullary main_v9 (iotaInDim S9 32 0)),
   (StableHlo.nullary main_c (constantI S_ 32 1#32)),
   (StableHlo.unary main_c main_v10 (broadcastInDim S9 ![] bcast_S_S9 : (⟨S_, .i32⟩ : BufTy).Contents (Elt F) → (⟨S9, .i32⟩ : BufTy).Contents (Elt F))),
   (StableHlo.binary main_v10 main_v9 main_v11 (Host.shli : (⟨S9, .i32⟩ : BufTy).Contents (Elt F) → (⟨S9, .i32⟩ : BufTy).Contents (Elt F) → (⟨S9, .i32⟩ : BufTy).Contents (Elt F))),
   (StableHlo.unary main_v11 main_v12 (broadcastInDim S1x9 ![1] bcast_S9_S1x9_1 : (⟨S9, .i32⟩ : BufTy).Contents (Elt F) → (⟨S1x9, .i32⟩ : BufTy).Contents (Elt F))),
   (StableHlo.unary main_v12 main_v13 (broadcastInDim S100000x9 ![0, 1] bcast_S1x9_S100000x9_0_1 : (⟨S1x9, .i32⟩ : BufTy).Contents (Elt F) → (⟨S100000x9, .i32⟩ : BufTy).Contents (Elt F))),
   (StableHlo.binary main_arg0 main_v13 main_v14 (muli : (⟨S100000x9, .i32⟩ : BufTy).Contents (Elt F) → (⟨S100000x9, .i32⟩ : BufTy).Contents (Elt F) → (⟨S100000x9, .i32⟩ : BufTy).Contents (Elt F))),
   (StableHlo.nullary main_c_0 (constantI S_ 32 0#32)),
   (StableHlo.binary main_v14 main_c_0 main_v15 ((fun x v => Host.reduce IntOp.addi x v reducesTo_S100000x9_S100000_d1 h_S_) : (⟨S100000x9, .i32⟩ : BufTy).Contents (Elt F) → (⟨S_, .i32⟩ : BufTy).Contents (Elt F) → (⟨S100000, .i32⟩ : BufTy).Contents (Elt F)))]

/-- The program is its array operations, then the one call, then the return. -/
theorem main_eq (d : Dev Cert.KernelIdeal.nD) :
    Cert.KernelIdeal.main (F := F) d
      = (StableHlo.seq (hostOps (F := F)) >>= fun _ => (Cert.KernelIdeal.sc (F := F)).run d 0 >>= fun _ => pure ⟨⟩) := rfl

/-! ## What the operations leave -/

/-- The flat table: rows 0 and 1 of every table, table after table, read row by row. -/
def wsmOf (W0 : S119x64.Idx → F .f32) (W1 : S5x64.Idx → F .f32) (W2 : S12x64.Idx → F .f32) (W3 : S12x64.Idx → F .f32)
    (W4 : S10x64.Idx → F .f32) (W5 : S6x64.Idx → F .f32) (W6 : S6x64.Idx → F .f32) (W7 : S2x64.Idx → F .f32)
    (W8 : S2x64.Idx → F .f32) : Cert.Spec.SW.Idx → F .f32 :=
  shapeCast S1152
    (concatenate S18x64 0
      [⟨S2x64, extractStridedSlice S2x64 ![0, 0] W0 slices_S119x64_S2x64_0_0⟩,
       ⟨S2x64, extractStridedSlice S2x64 ![0, 0] W1 slices_S5x64_S2x64_0_0⟩,
       ⟨S2x64, extractStridedSlice S2x64 ![0, 0] W2 slices_S12x64_S2x64_0_0⟩,
       ⟨S2x64, extractStridedSlice S2x64 ![0, 0] W3 slices_S12x64_S2x64_0_0⟩,
       ⟨S2x64, extractStridedSlice S2x64 ![0, 0] W4 slices_S10x64_S2x64_0_0⟩,
       ⟨S2x64, extractStridedSlice S2x64 ![0, 0] W5 slices_S6x64_S2x64_0_0⟩,
       ⟨S2x64, extractStridedSlice S2x64 ![0, 0] W6 slices_S6x64_S2x64_0_0⟩,
       ⟨S2x64, W7⟩, ⟨S2x64, W8⟩]
      concatenates_S2x64_S2x64_S2x64_S2x64_S2x64_S2x64_S2x64_S2x64_S2x64_S18x64_d0)
    shapeCasts_S18x64_S1152

/-- The weights `1 <<< i` of the nine features, one row for every node. -/
def pow2 : IVec S100000x9 32 :=
  broadcastInDim S100000x9 ![0, 1] bcast_S1x9_S100000x9_0_1
    (broadcastInDim S1x9 ![1] bcast_S9_S1x9_1
      (Host.shli (broadcastInDim S9 ![] bcast_S_S9 (constantI S_ 32 1#32)) (iotaInDim S9 32 0)))

/-- The packed word of every node: the sum over the features of `x[n, i] * (1 <<< i)`. -/
def xpOf (x : Cert.Spec.SX.Idx → BitVec 32) : Cert.Spec.SP.Idx → BitVec 32 :=
  Host.reduce IntOp.addi (muli x pow2) (constantI S_ 32 0#32) reducesTo_S100000x9_S100000_d1 h_S_

theorem after_v8 (V : Valuation Cert.KernelIdeal.τ Cert.KernelIdeal.sig (Elt F)) :
    StableHlo.after (hostOps (F := F)) V (Proc.devRef .tc main_v8)
      = wsmOf (V (Proc.devRef .tc main_arg1)) (V (Proc.devRef .tc main_arg2)) (V (Proc.devRef .tc main_arg3))
          (V (Proc.devRef .tc main_arg4)) (V (Proc.devRef .tc main_arg5)) (V (Proc.devRef .tc main_arg6))
          (V (Proc.devRef .tc main_arg7)) (V (Proc.devRef .tc main_arg8)) (V (Proc.devRef .tc main_arg9)) := by
  after_results
  rfl

theorem after_v15 (V : Valuation Cert.KernelIdeal.τ Cert.KernelIdeal.sig (Elt F)) :
    StableHlo.after (hostOps (F := F)) V (Proc.devRef .tc main_v15) = xpOf (V (Proc.devRef .tc main_arg0)) := by
  after_results
  rfl

/-! The operations write none of the arguments. -/

theorem after_arg0 (V : Valuation Cert.KernelIdeal.τ Cert.KernelIdeal.sig (Elt F)) :
    StableHlo.after (hostOps (F := F)) V (Proc.devRef .tc main_arg0) = V (Proc.devRef .tc main_arg0) := by
  after_results

theorem after_arg1 (V : Valuation Cert.KernelIdeal.τ Cert.KernelIdeal.sig (Elt F)) :
    StableHlo.after (hostOps (F := F)) V (Proc.devRef .tc main_arg1) = V (Proc.devRef .tc main_arg1) := by
  after_results

theorem after_arg2 (V : Valuation Cert.KernelIdeal.τ Cert.KernelIdeal.sig (Elt F)) :
    StableHlo.after (hostOps (F := F)) V (Proc.devRef .tc main_arg2) = V (Proc.devRef .tc main_arg2) := by
  after_results

theorem after_arg3 (V : Valuation Cert.KernelIdeal.τ Cert.KernelIdeal.sig (Elt F)) :
    StableHlo.after (hostOps (F := F)) V (Proc.devRef .tc main_arg3) = V (Proc.devRef .tc main_arg3) := by
  after_results

theorem after_arg4 (V : Valuation Cert.KernelIdeal.τ Cert.KernelIdeal.sig (Elt F)) :
    StableHlo.after (hostOps (F := F)) V (Proc.devRef .tc main_arg4) = V (Proc.devRef .tc main_arg4) := by
  after_results

theorem after_arg5 (V : Valuation Cert.KernelIdeal.τ Cert.KernelIdeal.sig (Elt F)) :
    StableHlo.after (hostOps (F := F)) V (Proc.devRef .tc main_arg5) = V (Proc.devRef .tc main_arg5) := by
  after_results

theorem after_arg6 (V : Valuation Cert.KernelIdeal.τ Cert.KernelIdeal.sig (Elt F)) :
    StableHlo.after (hostOps (F := F)) V (Proc.devRef .tc main_arg6) = V (Proc.devRef .tc main_arg6) := by
  after_results

theorem after_arg7 (V : Valuation Cert.KernelIdeal.τ Cert.KernelIdeal.sig (Elt F)) :
    StableHlo.after (hostOps (F := F)) V (Proc.devRef .tc main_arg7) = V (Proc.devRef .tc main_arg7) := by
  after_results

theorem after_arg8 (V : Valuation Cert.KernelIdeal.τ Cert.KernelIdeal.sig (Elt F)) :
    StableHlo.after (hostOps (F := F)) V (Proc.devRef .tc main_arg8) = V (Proc.devRef .tc main_arg8) := by
  after_results

theorem after_arg9 (V : Valuation Cert.KernelIdeal.τ Cert.KernelIdeal.sig (Elt F)) :
    StableHlo.after (hostOps (F := F)) V (Proc.devRef .tc main_arg9) = V (Proc.devRef .tc main_arg9) := by
  after_results

end Cert.KernelIdeal.HostK

end
-- ==== Proof.HostKVal.lean ====
/-
  The host side read at an index: the packed word's bits, the flat table's entries, and what the
  precondition says of the arguments.
-/
import proofs.«207339_g86234353369688_cont_sun_m_1071_33_alg».proof.Proof.HostK
import proofs.«207339_g86234353369688_cont_sun_m_1071_33_alg».proof.Pre_input_domain
import Idealize.ShloMosaic.Lib.Pipeline.Value
import Idealize.ShloMosaic.Lib.ReduceAll
import Idealize.ShloMosaic.Lib.Affine

set_option synthInstance.maxSize 4096

noncomputable section

namespace Cert.KernelIdeal.HostK

open Idealize.ShloMosaic Idealize.SL.Sem Idealize.ShloMosaic.ValueIdx
open Cert.KernelIdeal Cert.KernelIdeal.Facts₀ Cert.KernelIdeal.Facts

variable {F : FTy → Type} [FloatOps F] [Cert.KernelIdeal.Facts]

/-! ## The packed word -/

theorem reduces_x : S100000x9.Reduces [1] S100000 := by decide

/-- Inserting feature `i` into node `n`'s index is the index `(n, i)`. -/
theorem lift_eq (n : Fin 100000) (i : Fin 9) : reduces_x.lift (ix1 n) i = ix2 n i := by
  funext c
  match c with
  | ⟨0, _⟩ => exact Fin.ext rfl
  | ⟨1, _⟩ => exact Fin.ext rfl

/-- The weight of feature `i` is `2 ^ i`, for every node. -/
theorem pow2_apply (n : Fin 100000) (i : Fin 9) : pow2 (ix2 n i) = BitVec.ofNat 32 (2 ^ i.val) := by
  fin_cases i <;> rfl

/-- A fold over the nine features, written out. -/
theorem fold9 (g : Fin 9 → BitVec 32) :
    (Finset.univ : Finset (Fin 9)).fold IntOp.addi 0#32 g
      = g 0 + (g 1 + (g 2 + (g 3 + (g 4 + (g 5 + (g 6 + (g 7 + (g 8 + 0#32)))))))) := by
  rfl

/-- The packed word of node `n`: the sum of its nine features, feature `i` weighted `2 ^ i`. -/
theorem xpOf_apply (x : Cert.Spec.SX.Idx → BitVec 32) (n : Fin 100000) :
    xpOf x (ix1 n) = (Finset.univ : Finset (Fin 9)).fold IntOp.addi 0#32
        (fun i => x (ix2 n i) * BitVec.ofNat 32 (2 ^ i.val)) := by
  have e : ((muli x pow2) ∘ reduces_x.lift (ix1 n)) = fun i : Fin 9 => x (ix2 n i) * BitVec.ofNat 32 (2 ^ i.val) := by
    refine funext fun (i : Fin 9) => ?_
    show IntOp.muli (x (reduces_x.lift (ix1 n) i)) (pow2 (reduces_x.lift (ix1 n) i)) = _
    rw [lift_eq, pow2_apply]
    rfl
  unfold xpOf
  rw [Host.reduce_eq_fold_single IntOp.addi _ _ _ reduces_x _ _]
  exact congrArg (fun g => Finset.fold IntOp.addi 0#32 g (Finset.univ : Finset (Fin 9))) e

/-- Nine words, each 0 or 1, packed with weights `2 ^ i`: no carry. -/
theorem pack9_toNat (a0 a1 a2 a3 a4 a5 a6 a7 a8 : BitVec 32)
    (h0 : a0.toNat ≤ 1) (h1 : a1.toNat ≤ 1) (h2 : a2.toNat ≤ 1) (h3 : a3.toNat ≤ 1) (h4 : a4.toNat ≤ 1)
    (h5 : a5.toNat ≤ 1) (h6 : a6.toNat ≤ 1) (h7 : a7.toNat ≤ 1) (h8 : a8.toNat ≤ 1) :
    (a0 * 1#32 + (a1 * 2#32 + (a2 * 4#32 + (a3 * 8#32 + (a4 * 16#32 + (a5 * 32#32 + (a6 * 64#32 + (a7 * 128#32
      + (a8 * 256#32 + 0#32))))))))).toNat
      = a0.toNat + 2 * a1.toNat + 4 * a2.toNat + 8 * a3.toNat + 16 * a4.toNat + 32 * a5.toNat
        + 64 * a6.toNat + 128 * a7.toNat + 256 * a8.toNat := by
  simp only [BitVec.toNat_add, BitVec.toNat_mul, BitVec.toNat_ofNat, Nat.reducePow, Nat.reduceMod]
  omega

/-- The binary digits of a number written with nine digits 0 or 1. -/
theorem digits9 (b0 b1 b2 b3 b4 b5 b6 b7 b8 : Nat)
    (h0 : b0 ≤ 1) (h1 : b1 ≤ 1) (h2 : b2 ≤ 1) (h3 : b3 ≤ 1) (h4 : b4 ≤ 1)
    (h5 : b5 ≤ 1) (h6 : b6 ≤ 1) (h7 : b7 ≤ 1) (h8 : b8 ≤ 1) (P : Nat)
    (hP : P = b0 + 2 * b1 + 4 * b2 + 8 * b3 + 16 * b4 + 32 * b5 + 64 * b6 + 128 * b7 + 256 * b8) :
    P < 512 ∧ (P / 1 % 2 = 1 ↔ b0 = 1) ∧ (P / 2 % 2 = 1 ↔ b1 = 1) ∧ (P / 4 % 2 = 1 ↔ b2 = 1)
      ∧ (P / 8 % 2 = 1 ↔ b3 = 1) ∧ (P / 16 % 2 = 1 ↔ b4 = 1) ∧ (P / 32 % 2 = 1 ↔ b5 = 1)
      ∧ (P / 64 % 2 = 1 ↔ b6 = 1) ∧ (P / 128 % 2 = 1 ↔ b7 = 1) ∧ (P / 256 % 2 = 1 ↔ b8 = 1) := by
  subst hP
  refine ⟨by omega, by omega, by omega, by omega, by omega, by omega, by omega, by omega, by omega, by omega⟩

/-- The fold over the nine features of words 0 or 1 weighted `2 ^ i` is below 512 and its bit `i` is set
    exactly when word `i` is 1. -/
theorem bits9 (w : Fin 9 → BitVec 32) (hw : ∀ i, w i = 0#32 ∨ w i = 1#32) :
    ((Finset.univ : Finset (Fin 9)).fold IntOp.addi 0#32 (fun i => w i * BitVec.ofNat 32 (2 ^ i.val))).toNat < 512
    ∧ ∀ i : Fin 9, ((Finset.univ : Finset (Fin 9)).fold IntOp.addi 0#32
        (fun i => w i * BitVec.ofNat 32 (2 ^ i.val))).toNat.testBit i.val = decide (w i = 1#32) := by
  have ht : ∀ i, (w i).toNat ≤ 1 := fun i => by
    rcases hw i with h | h <;> rw [h] <;> simp
  have hd : ∀ i, (w i = 1#32) ↔ (w i).toNat = 1 := fun i => by
    rw [← BitVec.toNat_inj]; rfl
  have hs := pack9_toNat (w 0) (w 1) (w 2) (w 3) (w 4) (w 5) (w 6) (w 7) (w 8)
    (ht 0) (ht 1) (ht 2) (ht 3) (ht 4) (ht 5) (ht 6) (ht 7) (ht 8)
  have hf : (Finset.univ : Finset (Fin 9)).fold IntOp.addi 0#32 (fun i => w i * BitVec.ofNat 32 (2 ^ i.val))
      = w 0 * 1#32 + (w 1 * 2#32 + (w 2 * 4#32 + (w 3 * 8#32 + (w 4 * 16#32 + (w 5 * 32#32 + (w 6 * 64#32 + (w 7 * 128#32
      + (w 8 * 256#32 + 0#32)))))))) := fold9 _
  rw [hf]
  obtain ⟨d, d0, d1, d2, d3, d4, d5, d6, d7, d8⟩ := digits9 _ _ _ _ _ _ _ _ _
    (ht 0) (ht 1) (ht 2) (ht 3) (ht 4) (ht 5) (ht 6) (ht 7) (ht 8) _ hs
  refine ⟨d, fun i => ?_⟩
  rw [Nat.testBit_eq_decide_div_mod_eq, decide_eq_decide, hd i]
  match i with
  | ⟨0, _⟩ => exact d0
  | ⟨1, _⟩ => exact d1
  | ⟨2, _⟩ => exact d2
  | ⟨3, _⟩ => exact d3
  | ⟨4, _⟩ => exact d4
  | ⟨5, _⟩ => exact d5
  | ⟨6, _⟩ => exact d6
  | ⟨7, _⟩ => exact d7
  | ⟨8, _⟩ => exact d8

theorem xpOf_bits (x : Cert.Spec.SX.Idx → BitVec 32)
    (hx : ∀ (n : Fin 100000) (i : Fin 9), x (ix2 n i) = 0#32 ∨ x (ix2 n i) = 1#32) (n : Fin 100000) :
    (xpOf x (ix1 n)).toNat < 512
    ∧ ∀ i : Fin 9, (xpOf x (ix1 n)).toNat.testBit i.val = decide (x (ix2 n i) = 1#32) := by
  rw [xpOf_apply]
  exact bits9 (fun i => x (ix2 n i)) (fun i => hx n i)

/-! ## The precondition -/

section Pre

variable [Cert.Pre_input_domain.Facts]

instance : Subsingleton S_.Idx := ⟨fun a b => funext fun d => d.elim0⟩

/-- A word that is at least 0 and at most 1 as a signed number is the word 0 or the word 1. -/
theorem word_zero_or_one (b : BitVec 32) (h0 : (0#32).toInt ≤ b.toInt) (h1 : b.toInt ≤ (1#32).toInt) :
    b = 0#32 ∨ b = 1#32 := by
  have e0 : (0#32).toInt = 0 := by decide
  have e1 : (1#32).toInt = 1 := by decide
  rw [e0] at h0; rw [e1] at h1
  rcases (by omega : b.toInt = 0 ∨ b.toInt = 1) with h | h
  · exact Or.inl (BitVec.eq_of_toInt_eq (h.trans e0.symm))
  · exact Or.inr (BitVec.eq_of_toInt_eq (h.trans e1.symm))

/-- The precondition, conjunct by conjunct: every table entry's absolute value is below `+∞`, and every
    feature is the word 0 or the word 1. -/
theorem pre_split (x : IVec S100000x9 32) (W0 : FVec F S119x64 .f32) (W1 : FVec F S5x64 .f32) (W2 : FVec F S12x64 .f32)
    (W3 : FVec F S12x64 .f32) (W4 : FVec F S10x64 .f32) (W5 : FVec F S6x64 .f32) (W6 : FVec F S6x64 .f32)
    (W7 : FVec F S2x64 .f32) (W8 : FVec F S2x64 .f32)
    (h : Cert.Pre_input_domain.fn (F := F) x W0 W1 W2 W3 W4 W5 W6 W7 W8 = fun _ => 1#1) :
    (∀ j, FloatOps.cmpf .olt (FloatOps.hostAbsf (W0 j)) (FloatOps.ofBits (F := F) .f32 0x7F800000#32) = 1#1)
    ∧ (∀ j, FloatOps.cmpf .olt (FloatOps.hostAbsf (W1 j)) (FloatOps.ofBits (F := F) .f32 0x7F800000#32) = 1#1)
    ∧ (∀ j, FloatOps.cmpf .olt (FloatOps.hostAbsf (W2 j)) (FloatOps.ofBits (F := F) .f32 0x7F800000#32) = 1#1)
    ∧ (∀ j, FloatOps.cmpf .olt (FloatOps.hostAbsf (W3 j)) (FloatOps.ofBits (F := F) .f32 0x7F800000#32) = 1#1)
    ∧ (∀ j, FloatOps.cmpf .olt (FloatOps.hostAbsf (W4 j)) (FloatOps.ofBits (F := F) .f32 0x7F800000#32) = 1#1)
    ∧ (∀ j, FloatOps.cmpf .olt (FloatOps.hostAbsf (W5 j)) (FloatOps.ofBits (F := F) .f32 0x7F800000#32) = 1#1)
    ∧ (∀ j, FloatOps.cmpf .olt (FloatOps.hostAbsf (W6 j)) (FloatOps.ofBits (F := F) .f32 0x7F800000#32) = 1#1)
    ∧ (∀ j, FloatOps.cmpf .olt (FloatOps.hostAbsf (W7 j)) (FloatOps.ofBits (F := F) .f32 0x7F800000#32) = 1#1)
    ∧ (∀ j, FloatOps.cmpf .olt (FloatOps.hostAbsf (W8 j)) (FloatOps.ofBits (F := F) .f32 0x7F800000#32) = 1#1)
    ∧ (∀ (n : Fin 100000) (i : Fin 9), x (ix2 n i) = 0#32 ∨ x (ix2 n i) = 1#32) := by
  have h0 := congrFun h ix0
  dsimp only [Cert.Pre_input_domain.fn, Cert.Pre_input_domain.fn_part1, Cert.Pre_input_domain.fn_part2] at h0
  obtain ⟨h1, hx⟩ := IntOp.andi_eq_one.1 h0
  obtain ⟨h2, hw8⟩ := IntOp.andi_eq_one.1 h1
  obtain ⟨h3, hw7⟩ := IntOp.andi_eq_one.1 h2
  obtain ⟨h4, hw6⟩ := IntOp.andi_eq_one.1 h3
  obtain ⟨h5, hw5⟩ := IntOp.andi_eq_one.1 h4
  obtain ⟨h6, hw4⟩ := IntOp.andi_eq_one.1 h5
  obtain ⟨h7, hw3⟩ := IntOp.andi_eq_one.1 h6
  obtain ⟨h8, hw2⟩ := IntOp.andi_eq_one.1 h7
  obtain ⟨hw0, hw1⟩ := IntOp.andi_eq_one.1 h8
  refine ⟨fun j => Host.reduce_andi_all _ _ _ _ ix0 hw0 j, fun j => Host.reduce_andi_all _ _ _ _ ix0 hw1 j,
    fun j => Host.reduce_andi_all _ _ _ _ ix0 hw2 j, fun j => Host.reduce_andi_all _ _ _ _ ix0 hw3 j,
    fun j => Host.reduce_andi_all _ _ _ _ ix0 hw4 j, fun j => Host.reduce_andi_all _ _ _ _ ix0 hw5 j,
    fun j => Host.reduce_andi_all _ _ _ _ ix0 hw6 j, fun j => Host.reduce_andi_all _ _ _ _ ix0 hw7 j,
    fun j => Host.reduce_andi_all _ _ _ _ ix0 hw8 j, fun n i => ?_⟩
  have hb := Host.reduce_andi_all _ _ _ _ ix0 hx (ix2 n i)
  obtain ⟨hge, hle⟩ := IntOp.andi_eq_one.1 hb
  exact word_zero_or_one _ (IntOp.cmpi_sge.1 hge) (IntOp.cmpi_sle.1 hle)

/-- Under the precondition every feature is the word 0 or the word 1. -/
theorem pre_bits (x : IVec S100000x9 32) (W0 : FVec F S119x64 .f32) (W1 : FVec F S5x64 .f32) (W2 : FVec F S12x64 .f32)
    (W3 : FVec F S12x64 .f32) (W4 : FVec F S10x64 .f32) (W5 : FVec F S6x64 .f32) (W6 : FVec F S6x64 .f32)
    (W7 : FVec F S2x64 .f32) (W8 : FVec F S2x64 .f32)
    (h : Cert.Pre_input_domain.fn (F := F) x W0 W1 W2 W3 W4 W5 W6 W7 W8 = fun _ => 1#1) :
    ∀ (n : Fin 100000) (i : Fin 9), x (ix2 n i) = 0#32 ∨ x (ix2 n i) = 1#32 :=
  (pre_split x W0 W1 W2 W3 W4 W5 W6 W7 W8 h).2.2.2.2.2.2.2.2.2

end Pre

/-! ## The flat table read at an entry

Entry `i * 128 + r * 64 + e` of the flat table is row `r` (0 or 1), lane `e`, of table `i`: the reshape reads the
row-major `[18, 64]` concatenation at row `2 i + r`, which is row `r` of piece `i`. -/

theorem wsmOf_apply0 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (0 * 128 + r.val * 64 + e.val)
      = W0 (ix2 ⟨r.val, by omega⟩ e) := by
  have hr := r.isLt
  have he := e.isLt
  have hk : 0 * 128 + r.val * 64 + e.val < 1152 := by omega
  unfold Cert.Spec.wAt
  rw [dif_pos hk]
  unfold wsmOf
  refine Eq.trans (shapeCast_apply _ _ (ix1 ⟨0 * 128 + r.val * 64 + e.val, hk⟩)
    (ix2 (⟨0 + r.val, by omega⟩ : Fin 18) e) ?_) ?_
  · rw [Shape.rowMajor_val_two, Shape.rowMajor_val_one]
    show (0 + r.val) * 64 + e.val = 0 * 128 + r.val * 64 + e.val
    omega
  refine Eq.trans (concatenate_apply_piece (t := S18x64) (0 : Fin 2) _ _ _ 0 ?_ S2x64 (extractStridedSlice S2x64 ![0, 0] W0 slices_S119x64_S2x64_0_0) ?_ ?_ 0 ?_
    (ix2 r e) ?_ ?_) ?_
  · exact (by decide : 0 < 9)
  · rfl
  · rfl
  · rfl
  · intro b hb
    match b with
    | ⟨0, _⟩ => exact absurd rfl hb
    | ⟨1, _⟩ => rfl
  · rfl
  exact extractStridedSlice_apply _ _ _ (ix2 r e) (ix2 ⟨r.val, by omega⟩ e) (fun a => by
    match a with
    | ⟨0, _⟩ => show r.val = 0 + r.val; omega
    | ⟨1, _⟩ => show e.val = 0 + e.val; omega)

theorem wsmOf_apply1 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (1 * 128 + r.val * 64 + e.val)
      = W1 (ix2 ⟨r.val, by omega⟩ e) := by
  have hr := r.isLt
  have he := e.isLt
  have hk : 1 * 128 + r.val * 64 + e.val < 1152 := by omega
  unfold Cert.Spec.wAt
  rw [dif_pos hk]
  unfold wsmOf
  refine Eq.trans (shapeCast_apply _ _ (ix1 ⟨1 * 128 + r.val * 64 + e.val, hk⟩)
    (ix2 (⟨2 + r.val, by omega⟩ : Fin 18) e) ?_) ?_
  · rw [Shape.rowMajor_val_two, Shape.rowMajor_val_one]
    show (2 + r.val) * 64 + e.val = 1 * 128 + r.val * 64 + e.val
    omega
  refine Eq.trans (concatenate_apply_piece (t := S18x64) (0 : Fin 2) _ _ _ 1 ?_ S2x64 (extractStridedSlice S2x64 ![0, 0] W1 slices_S5x64_S2x64_0_0) ?_ ?_ 2 ?_
    (ix2 r e) ?_ ?_) ?_
  · exact (by decide : 1 < 9)
  · rfl
  · rfl
  · rfl
  · intro b hb
    match b with
    | ⟨0, _⟩ => exact absurd rfl hb
    | ⟨1, _⟩ => rfl
  · rfl
  exact extractStridedSlice_apply _ _ _ (ix2 r e) (ix2 ⟨r.val, by omega⟩ e) (fun a => by
    match a with
    | ⟨0, _⟩ => show r.val = 0 + r.val; omega
    | ⟨1, _⟩ => show e.val = 0 + e.val; omega)

theorem wsmOf_apply2 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (2 * 128 + r.val * 64 + e.val)
      = W2 (ix2 ⟨r.val, by omega⟩ e) := by
  have hr := r.isLt
  have he := e.isLt
  have hk : 2 * 128 + r.val * 64 + e.val < 1152 := by omega
  unfold Cert.Spec.wAt
  rw [dif_pos hk]
  unfold wsmOf
  refine Eq.trans (shapeCast_apply _ _ (ix1 ⟨2 * 128 + r.val * 64 + e.val, hk⟩)
    (ix2 (⟨4 + r.val, by omega⟩ : Fin 18) e) ?_) ?_
  · rw [Shape.rowMajor_val_two, Shape.rowMajor_val_one]
    show (4 + r.val) * 64 + e.val = 2 * 128 + r.val * 64 + e.val
    omega
  refine Eq.trans (concatenate_apply_piece (t := S18x64) (0 : Fin 2) _ _ _ 2 ?_ S2x64 (extractStridedSlice S2x64 ![0, 0] W2 slices_S12x64_S2x64_0_0) ?_ ?_ 4 ?_
    (ix2 r e) ?_ ?_) ?_
  · exact (by decide : 2 < 9)
  · rfl
  · rfl
  · rfl
  · intro b hb
    match b with
    | ⟨0, _⟩ => exact absurd rfl hb
    | ⟨1, _⟩ => rfl
  · rfl
  exact extractStridedSlice_apply _ _ _ (ix2 r e) (ix2 ⟨r.val, by omega⟩ e) (fun a => by
    match a with
    | ⟨0, _⟩ => show r.val = 0 + r.val; omega
    | ⟨1, _⟩ => show e.val = 0 + e.val; omega)

theorem wsmOf_apply3 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (3 * 128 + r.val * 64 + e.val)
      = W3 (ix2 ⟨r.val, by omega⟩ e) := by
  have hr := r.isLt
  have he := e.isLt
  have hk : 3 * 128 + r.val * 64 + e.val < 1152 := by omega
  unfold Cert.Spec.wAt
  rw [dif_pos hk]
  unfold wsmOf
  refine Eq.trans (shapeCast_apply _ _ (ix1 ⟨3 * 128 + r.val * 64 + e.val, hk⟩)
    (ix2 (⟨6 + r.val, by omega⟩ : Fin 18) e) ?_) ?_
  · rw [Shape.rowMajor_val_two, Shape.rowMajor_val_one]
    show (6 + r.val) * 64 + e.val = 3 * 128 + r.val * 64 + e.val
    omega
  refine Eq.trans (concatenate_apply_piece (t := S18x64) (0 : Fin 2) _ _ _ 3 ?_ S2x64 (extractStridedSlice S2x64 ![0, 0] W3 slices_S12x64_S2x64_0_0) ?_ ?_ 6 ?_
    (ix2 r e) ?_ ?_) ?_
  · exact (by decide : 3 < 9)
  · rfl
  · rfl
  · rfl
  · intro b hb
    match b with
    | ⟨0, _⟩ => exact absurd rfl hb
    | ⟨1, _⟩ => rfl
  · rfl
  exact extractStridedSlice_apply _ _ _ (ix2 r e) (ix2 ⟨r.val, by omega⟩ e) (fun a => by
    match a with
    | ⟨0, _⟩ => show r.val = 0 + r.val; omega
    | ⟨1, _⟩ => show e.val = 0 + e.val; omega)

theorem wsmOf_apply4 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (4 * 128 + r.val * 64 + e.val)
      = W4 (ix2 ⟨r.val, by omega⟩ e) := by
  have hr := r.isLt
  have he := e.isLt
  have hk : 4 * 128 + r.val * 64 + e.val < 1152 := by omega
  unfold Cert.Spec.wAt
  rw [dif_pos hk]
  unfold wsmOf
  refine Eq.trans (shapeCast_apply _ _ (ix1 ⟨4 * 128 + r.val * 64 + e.val, hk⟩)
    (ix2 (⟨8 + r.val, by omega⟩ : Fin 18) e) ?_) ?_
  · rw [Shape.rowMajor_val_two, Shape.rowMajor_val_one]
    show (8 + r.val) * 64 + e.val = 4 * 128 + r.val * 64 + e.val
    omega
  refine Eq.trans (concatenate_apply_piece (t := S18x64) (0 : Fin 2) _ _ _ 4 ?_ S2x64 (extractStridedSlice S2x64 ![0, 0] W4 slices_S10x64_S2x64_0_0) ?_ ?_ 8 ?_
    (ix2 r e) ?_ ?_) ?_
  · exact (by decide : 4 < 9)
  · rfl
  · rfl
  · rfl
  · intro b hb
    match b with
    | ⟨0, _⟩ => exact absurd rfl hb
    | ⟨1, _⟩ => rfl
  · rfl
  exact extractStridedSlice_apply _ _ _ (ix2 r e) (ix2 ⟨r.val, by omega⟩ e) (fun a => by
    match a with
    | ⟨0, _⟩ => show r.val = 0 + r.val; omega
    | ⟨1, _⟩ => show e.val = 0 + e.val; omega)

theorem wsmOf_apply5 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (5 * 128 + r.val * 64 + e.val)
      = W5 (ix2 ⟨r.val, by omega⟩ e) := by
  have hr := r.isLt
  have he := e.isLt
  have hk : 5 * 128 + r.val * 64 + e.val < 1152 := by omega
  unfold Cert.Spec.wAt
  rw [dif_pos hk]
  unfold wsmOf
  refine Eq.trans (shapeCast_apply _ _ (ix1 ⟨5 * 128 + r.val * 64 + e.val, hk⟩)
    (ix2 (⟨10 + r.val, by omega⟩ : Fin 18) e) ?_) ?_
  · rw [Shape.rowMajor_val_two, Shape.rowMajor_val_one]
    show (10 + r.val) * 64 + e.val = 5 * 128 + r.val * 64 + e.val
    omega
  refine Eq.trans (concatenate_apply_piece (t := S18x64) (0 : Fin 2) _ _ _ 5 ?_ S2x64 (extractStridedSlice S2x64 ![0, 0] W5 slices_S6x64_S2x64_0_0) ?_ ?_ 10 ?_
    (ix2 r e) ?_ ?_) ?_
  · exact (by decide : 5 < 9)
  · rfl
  · rfl
  · rfl
  · intro b hb
    match b with
    | ⟨0, _⟩ => exact absurd rfl hb
    | ⟨1, _⟩ => rfl
  · rfl
  exact extractStridedSlice_apply _ _ _ (ix2 r e) (ix2 ⟨r.val, by omega⟩ e) (fun a => by
    match a with
    | ⟨0, _⟩ => show r.val = 0 + r.val; omega
    | ⟨1, _⟩ => show e.val = 0 + e.val; omega)

theorem wsmOf_apply6 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (6 * 128 + r.val * 64 + e.val)
      = W6 (ix2 ⟨r.val, by omega⟩ e) := by
  have hr := r.isLt
  have he := e.isLt
  have hk : 6 * 128 + r.val * 64 + e.val < 1152 := by omega
  unfold Cert.Spec.wAt
  rw [dif_pos hk]
  unfold wsmOf
  refine Eq.trans (shapeCast_apply _ _ (ix1 ⟨6 * 128 + r.val * 64 + e.val, hk⟩)
    (ix2 (⟨12 + r.val, by omega⟩ : Fin 18) e) ?_) ?_
  · rw [Shape.rowMajor_val_two, Shape.rowMajor_val_one]
    show (12 + r.val) * 64 + e.val = 6 * 128 + r.val * 64 + e.val
    omega
  refine Eq.trans (concatenate_apply_piece (t := S18x64) (0 : Fin 2) _ _ _ 6 ?_ S2x64 (extractStridedSlice S2x64 ![0, 0] W6 slices_S6x64_S2x64_0_0) ?_ ?_ 12 ?_
    (ix2 r e) ?_ ?_) ?_
  · exact (by decide : 6 < 9)
  · rfl
  · rfl
  · rfl
  · intro b hb
    match b with
    | ⟨0, _⟩ => exact absurd rfl hb
    | ⟨1, _⟩ => rfl
  · rfl
  exact extractStridedSlice_apply _ _ _ (ix2 r e) (ix2 ⟨r.val, by omega⟩ e) (fun a => by
    match a with
    | ⟨0, _⟩ => show r.val = 0 + r.val; omega
    | ⟨1, _⟩ => show e.val = 0 + e.val; omega)

theorem wsmOf_apply7 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (7 * 128 + r.val * 64 + e.val)
      = W7 (ix2 ⟨r.val, by omega⟩ e) := by
  have hr := r.isLt
  have he := e.isLt
  have hk : 7 * 128 + r.val * 64 + e.val < 1152 := by omega
  unfold Cert.Spec.wAt
  rw [dif_pos hk]
  unfold wsmOf
  refine Eq.trans (shapeCast_apply _ _ (ix1 ⟨7 * 128 + r.val * 64 + e.val, hk⟩)
    (ix2 (⟨14 + r.val, by omega⟩ : Fin 18) e) ?_) ?_
  · rw [Shape.rowMajor_val_two, Shape.rowMajor_val_one]
    show (14 + r.val) * 64 + e.val = 7 * 128 + r.val * 64 + e.val
    omega
  refine Eq.trans (concatenate_apply_piece (t := S18x64) (0 : Fin 2) _ _ _ 7 ?_ S2x64 W7 ?_ ?_ 14 ?_
    (ix2 r e) ?_ ?_) ?_
  · exact (by decide : 7 < 9)
  · rfl
  · rfl
  · rfl
  · intro b hb
    match b with
    | ⟨0, _⟩ => exact absurd rfl hb
    | ⟨1, _⟩ => rfl
  · rfl
  rfl

theorem wsmOf_apply8 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (8 * 128 + r.val * 64 + e.val)
      = W8 (ix2 ⟨r.val, by omega⟩ e) := by
  have hr := r.isLt
  have he := e.isLt
  have hk : 8 * 128 + r.val * 64 + e.val < 1152 := by omega
  unfold Cert.Spec.wAt
  rw [dif_pos hk]
  unfold wsmOf
  refine Eq.trans (shapeCast_apply _ _ (ix1 ⟨8 * 128 + r.val * 64 + e.val, hk⟩)
    (ix2 (⟨16 + r.val, by omega⟩ : Fin 18) e) ?_) ?_
  · rw [Shape.rowMajor_val_two, Shape.rowMajor_val_one]
    show (16 + r.val) * 64 + e.val = 8 * 128 + r.val * 64 + e.val
    omega
  refine Eq.trans (concatenate_apply_piece (t := S18x64) (0 : Fin 2) _ _ _ 8 ?_ S2x64 W8 ?_ ?_ 16 ?_
    (ix2 r e) ?_ ?_) ?_
  · exact (by decide : 8 < 9)
  · rfl
  · rfl
  · rfl
  · intro b hb
    match b with
    | ⟨0, _⟩ => exact absurd rfl hb
    | ⟨1, _⟩ => rfl
  · rfl
  rfl

/-- Every entry of the flat table is an entry of one of the nine tables. -/
theorem wsmOf_mem (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (k : Cert.Spec.SW.Idx) :
    (∃ j, wsmOf W0 W1 W2 W3 W4 W5 W6 W7 W8 k = W0 j) ∨ (∃ j, wsmOf W0 W1 W2 W3 W4 W5 W6 W7 W8 k = W1 j)
    ∨ (∃ j, wsmOf W0 W1 W2 W3 W4 W5 W6 W7 W8 k = W2 j) ∨ (∃ j, wsmOf W0 W1 W2 W3 W4 W5 W6 W7 W8 k = W3 j)
    ∨ (∃ j, wsmOf W0 W1 W2 W3 W4 W5 W6 W7 W8 k = W4 j) ∨ (∃ j, wsmOf W0 W1 W2 W3 W4 W5 W6 W7 W8 k = W5 j)
    ∨ (∃ j, wsmOf W0 W1 W2 W3 W4 W5 W6 W7 W8 k = W6 j) ∨ (∃ j, wsmOf W0 W1 W2 W3 W4 W5 W6 W7 W8 k = W7 j)
    ∨ (∃ j, wsmOf W0 W1 W2 W3 W4 W5 W6 W7 W8 k = W8 j) := by
  have hk : (k 0).val < 1152 := (k 0).isLt
  have e : wsmOf W0 W1 W2 W3 W4 W5 W6 W7 W8 k
      = Cert.Spec.wAt (wsmOf W0 W1 W2 W3 W4 W5 W6 W7 W8) (k 0).val := by
    unfold Cert.Spec.wAt
    rw [dif_pos hk]
    exact congrArg _ (eq_ix1 k)
  rw [e]
  obtain ⟨i, r, c, hi, hm⟩ : ∃ (i : Nat) (r : Fin 2) (c : Fin 64), i < 9 ∧ (k 0).val = i * 128 + r.val * 64 + c.val :=
    ⟨(k 0).val / 128, ⟨(k 0).val % 128 / 64, by omega⟩, ⟨(k 0).val % 64, by omega⟩, by omega, by
      show (k 0).val = (k 0).val / 128 * 128 + (k 0).val % 128 / 64 * 64 + (k 0).val % 64
      omega⟩
  rw [hm]
  interval_cases i
  · exact Or.inl ⟨_, wsmOf_apply0 W0 W1 W2 W3 W4 W5 W6 W7 W8 r c⟩
  · exact Or.inr (Or.inl ⟨_, wsmOf_apply1 W0 W1 W2 W3 W4 W5 W6 W7 W8 r c⟩)
  · exact Or.inr (Or.inr (Or.inl ⟨_, wsmOf_apply2 W0 W1 W2 W3 W4 W5 W6 W7 W8 r c⟩))
  · exact Or.inr (Or.inr (Or.inr (Or.inl ⟨_, wsmOf_apply3 W0 W1 W2 W3 W4 W5 W6 W7 W8 r c⟩)))
  · exact Or.inr (Or.inr (Or.inr (Or.inr (Or.inl ⟨_, wsmOf_apply4 W0 W1 W2 W3 W4 W5 W6 W7 W8 r c⟩))))
  · exact Or.inr (Or.inr (Or.inr (Or.inr (Or.inr (Or.inl ⟨_, wsmOf_apply5 W0 W1 W2 W3 W4 W5 W6 W7 W8 r c⟩)))))
  · exact Or.inr (Or.inr (Or.inr (Or.inr (Or.inr (Or.inr (Or.inl ⟨_, wsmOf_apply6 W0 W1 W2 W3 W4 W5 W6 W7 W8 r c⟩))))))
  · exact Or.inr (Or.inr (Or.inr (Or.inr (Or.inr (Or.inr (Or.inr (Or.inl ⟨_, wsmOf_apply7 W0 W1 W2 W3 W4 W5 W6 W7 W8 r c⟩)))))))
  · exact Or.inr (Or.inr (Or.inr (Or.inr (Or.inr (Or.inr (Or.inr (Or.inr ⟨_, wsmOf_apply8 W0 W1 W2 W3 W4 W5 W6 W7 W8 r c⟩)))))))

end Cert.KernelIdeal.HostK

end
-- ==== Proof.HostKB.lean ====
/-
  The host side of the kernel program: its eighteen array operations as a list, what they leave in the
  flat table and in the packed word, and that they write none of the arguments.
-/
import proofs.«207339_g86234353369688_cont_sun_m_1071_33_alg».proof.Kernel
import proofs.«207339_g86234353369688_cont_sun_m_1071_33_alg».proof.Proof.Spec
import Idealize.ShloMosaic.Lib.StableHlo.Run
import Idealize.ShloMosaic.Lib.ValueIdx

set_option synthInstance.maxSize 4096

noncomputable section

namespace Cert.Kernel.HostK

open Idealize.ShloMosaic Idealize.SL.Sem Idealize.ShloMosaic.ValueIdx
open Cert.Kernel Cert.Kernel.Facts₀ Cert.Kernel.Facts

variable {F : FTy → Type} [FloatOps F] [Cert.Kernel.Facts]

/-- The eighteen array operations of the program, in order. -/
abbrev hostOps : List (HloOp Cert.Kernel.τ Cert.Kernel.sig (Elt F)) :=
  [(StableHlo.unary main_arg1 main_v0 ((extractStridedSlice S2x64 ![0, 0] · slices_S119x64_S2x64_0_0) : (⟨S119x64, .f32⟩ : BufTy).Contents (Elt F) → (⟨S2x64, .f32⟩ : BufTy).Contents (Elt F))),
   (StableHlo.unary main_arg2 main_v1 ((extractStridedSlice S2x64 ![0, 0] · slices_S5x64_S2x64_0_0) : (⟨S5x64, .f32⟩ : BufTy).Contents (Elt F) → (⟨S2x64, .f32⟩ : BufTy).Contents (Elt F))),
   (StableHlo.unary main_arg3 main_v2 ((extractStridedSlice S2x64 ![0, 0] · slices_S12x64_S2x64_0_0) : (⟨S12x64, .f32⟩ : BufTy).Contents (Elt F) → (⟨S2x64, .f32⟩ : BufTy).Contents (Elt F))),
   (StableHlo.unary main_arg4 main_v3 ((extractStridedSlice S2x64 ![0, 0] · slices_S12x64_S2x64_0_0) : (⟨S12x64, .f32⟩ : BufTy).Contents (Elt F) → (⟨S2x64, .f32⟩ : BufTy).Contents (Elt F))),
   (StableHlo.unary main_arg5 main_v4 ((extractStridedSlice S2x64 ![0, 0] · slices_S10x64_S2x64_0_0) : (⟨S10x64, .f32⟩ : BufTy).Contents (Elt F) → (⟨S2x64, .f32⟩ : BufTy).Contents (Elt F))),
   (StableHlo.unary main_arg6 main_v5 ((extractStridedSlice S2x64 ![0, 0] · slices_S6x64_S2x64_0_0) : (⟨S6x64, .f32⟩ : BufTy).Contents (Elt F) → (⟨S2x64, .f32⟩ : BufTy).Contents (Elt F))),
   (StableHlo.unary main_arg7 main_v6 ((extractStridedSlice S2x64 ![0, 0] · slices_S6x64_S2x64_0_0) : (⟨S6x64, .f32⟩ : BufTy).Contents (Elt F) → (⟨S2x64, .f32⟩ : BufTy).Contents (Elt F))),
   (StableHlo.nary ![main_v0, main_v1, main_v2, main_v3, main_v4, main_v5, main_v6, main_arg8, main_arg9] main_v7 (fun u => concatenate S18x64 0 [⟨S2x64, u 0⟩, ⟨S2x64, u 1⟩, ⟨S2x64, u 2⟩, ⟨S2x64, u 3⟩, ⟨S2x64, u 4⟩, ⟨S2x64, u 5⟩, ⟨S2x64, u 6⟩, ⟨S2x64, u 7⟩, ⟨S2x64, u 8⟩] concatenates_S2x64_S2x64_S2x64_S2x64_S2x64_S2x64_S2x64_S2x64_S2x64_S18x64_d0)),
   (StableHlo.reshape main_v7 main_v8 rfl shapeCasts_S18x64_S1152),
   (StableHlo.nullary main_v9 (iotaInDim S9 32 0)),
   (StableHlo.nullary main_c (constantI S_ 32 1#32)),
   (StableHlo.unary main_c main_v10 (broadcastInDim S9 ![] bcast_S_S9 : (⟨S_, .i32⟩ : BufTy).Contents (Elt F) → (⟨S9, .i32⟩ : BufTy).Contents (Elt F))),
   (StableHlo.binary main_v10 main_v9 main_v11 (Host.shli : (⟨S9, .i32⟩ : BufTy).Contents (Elt F) → (⟨S9, .i32⟩ : BufTy).Contents (Elt F) → (⟨S9, .i32⟩ : BufTy).Contents (Elt F))),
   (StableHlo.unary main_v11 main_v12 (broadcastInDim S1x9 ![1] bcast_S9_S1x9_1 : (⟨S9, .i32⟩ : BufTy).Contents (Elt F) → (⟨S1x9, .i32⟩ : BufTy).Contents (Elt F))),
   (StableHlo.unary main_v12 main_v13 (broadcastInDim S100000x9 ![0, 1] bcast_S1x9_S100000x9_0_1 : (⟨S1x9, .i32⟩ : BufTy).Contents (Elt F) → (⟨S100000x9, .i32⟩ : BufTy).Contents (Elt F))),
   (StableHlo.binary main_arg0 main_v13 main_v14 (muli : (⟨S100000x9, .i32⟩ : BufTy).Contents (Elt F) → (⟨S100000x9, .i32⟩ : BufTy).Contents (Elt F) → (⟨S100000x9, .i32⟩ : BufTy).Contents (Elt F))),
   (StableHlo.nullary main_c_0 (constantI S_ 32 0#32)),
   (StableHlo.binary main_v14 main_c_0 main_v15 ((fun x v => Host.reduce IntOp.addi x v reducesTo_S100000x9_S100000_d1 h_S_) : (⟨S100000x9, .i32⟩ : BufTy).Contents (Elt F) → (⟨S_, .i32⟩ : BufTy).Contents (Elt F) → (⟨S100000, .i32⟩ : BufTy).Contents (Elt F)))]

/-- The program is its array operations, then the one call, then the return. -/
theorem main_eq (d : Dev Cert.Kernel.nD) :
    Cert.Kernel.main (F := F) d
      = (StableHlo.seq (hostOps (F := F)) >>= fun _ => (Cert.Kernel.sc (F := F)).run d 0 >>= fun _ => pure ⟨⟩) := rfl

/-! ## What the operations leave -/

/-- The flat table: rows 0 and 1 of every table, table after table, read row by row. -/
def wsmOf (W0 : S119x64.Idx → F .f32) (W1 : S5x64.Idx → F .f32) (W2 : S12x64.Idx → F .f32) (W3 : S12x64.Idx → F .f32)
    (W4 : S10x64.Idx → F .f32) (W5 : S6x64.Idx → F .f32) (W6 : S6x64.Idx → F .f32) (W7 : S2x64.Idx → F .f32)
    (W8 : S2x64.Idx → F .f32) : Cert.Spec.SW.Idx → F .f32 :=
  shapeCast S1152
    (concatenate S18x64 0
      [⟨S2x64, extractStridedSlice S2x64 ![0, 0] W0 slices_S119x64_S2x64_0_0⟩,
       ⟨S2x64, extractStridedSlice S2x64 ![0, 0] W1 slices_S5x64_S2x64_0_0⟩,
       ⟨S2x64, extractStridedSlice S2x64 ![0, 0] W2 slices_S12x64_S2x64_0_0⟩,
       ⟨S2x64, extractStridedSlice S2x64 ![0, 0] W3 slices_S12x64_S2x64_0_0⟩,
       ⟨S2x64, extractStridedSlice S2x64 ![0, 0] W4 slices_S10x64_S2x64_0_0⟩,
       ⟨S2x64, extractStridedSlice S2x64 ![0, 0] W5 slices_S6x64_S2x64_0_0⟩,
       ⟨S2x64, extractStridedSlice S2x64 ![0, 0] W6 slices_S6x64_S2x64_0_0⟩,
       ⟨S2x64, W7⟩, ⟨S2x64, W8⟩]
      concatenates_S2x64_S2x64_S2x64_S2x64_S2x64_S2x64_S2x64_S2x64_S2x64_S18x64_d0)
    shapeCasts_S18x64_S1152

/-- The weights `1 <<< i` of the nine features, one row for every node. -/
def pow2 : IVec S100000x9 32 :=
  broadcastInDim S100000x9 ![0, 1] bcast_S1x9_S100000x9_0_1
    (broadcastInDim S1x9 ![1] bcast_S9_S1x9_1
      (Host.shli (broadcastInDim S9 ![] bcast_S_S9 (constantI S_ 32 1#32)) (iotaInDim S9 32 0)))

/-- The packed word of every node: the sum over the features of `x[n, i] * (1 <<< i)`. -/
def xpOf (x : Cert.Spec.SX.Idx → BitVec 32) : Cert.Spec.SP.Idx → BitVec 32 :=
  Host.reduce IntOp.addi (muli x pow2) (constantI S_ 32 0#32) reducesTo_S100000x9_S100000_d1 h_S_

theorem after_v8 (V : Valuation Cert.Kernel.τ Cert.Kernel.sig (Elt F)) :
    StableHlo.after (hostOps (F := F)) V (Proc.devRef .tc main_v8)
      = wsmOf (V (Proc.devRef .tc main_arg1)) (V (Proc.devRef .tc main_arg2)) (V (Proc.devRef .tc main_arg3))
          (V (Proc.devRef .tc main_arg4)) (V (Proc.devRef .tc main_arg5)) (V (Proc.devRef .tc main_arg6))
          (V (Proc.devRef .tc main_arg7)) (V (Proc.devRef .tc main_arg8)) (V (Proc.devRef .tc main_arg9)) := by
  after_results
  rfl

theorem after_v15 (V : Valuation Cert.Kernel.τ Cert.Kernel.sig (Elt F)) :
    StableHlo.after (hostOps (F := F)) V (Proc.devRef .tc main_v15) = xpOf (V (Proc.devRef .tc main_arg0)) := by
  after_results
  rfl

/-! The operations write none of the arguments. -/

theorem after_arg0 (V : Valuation Cert.Kernel.τ Cert.Kernel.sig (Elt F)) :
    StableHlo.after (hostOps (F := F)) V (Proc.devRef .tc main_arg0) = V (Proc.devRef .tc main_arg0) := by
  after_results

theorem after_arg1 (V : Valuation Cert.Kernel.τ Cert.Kernel.sig (Elt F)) :
    StableHlo.after (hostOps (F := F)) V (Proc.devRef .tc main_arg1) = V (Proc.devRef .tc main_arg1) := by
  after_results

theorem after_arg2 (V : Valuation Cert.Kernel.τ Cert.Kernel.sig (Elt F)) :
    StableHlo.after (hostOps (F := F)) V (Proc.devRef .tc main_arg2) = V (Proc.devRef .tc main_arg2) := by
  after_results

theorem after_arg3 (V : Valuation Cert.Kernel.τ Cert.Kernel.sig (Elt F)) :
    StableHlo.after (hostOps (F := F)) V (Proc.devRef .tc main_arg3) = V (Proc.devRef .tc main_arg3) := by
  after_results

theorem after_arg4 (V : Valuation Cert.Kernel.τ Cert.Kernel.sig (Elt F)) :
    StableHlo.after (hostOps (F := F)) V (Proc.devRef .tc main_arg4) = V (Proc.devRef .tc main_arg4) := by
  after_results

theorem after_arg5 (V : Valuation Cert.Kernel.τ Cert.Kernel.sig (Elt F)) :
    StableHlo.after (hostOps (F := F)) V (Proc.devRef .tc main_arg5) = V (Proc.devRef .tc main_arg5) := by
  after_results

theorem after_arg6 (V : Valuation Cert.Kernel.τ Cert.Kernel.sig (Elt F)) :
    StableHlo.after (hostOps (F := F)) V (Proc.devRef .tc main_arg6) = V (Proc.devRef .tc main_arg6) := by
  after_results

theorem after_arg7 (V : Valuation Cert.Kernel.τ Cert.Kernel.sig (Elt F)) :
    StableHlo.after (hostOps (F := F)) V (Proc.devRef .tc main_arg7) = V (Proc.devRef .tc main_arg7) := by
  after_results

theorem after_arg8 (V : Valuation Cert.Kernel.τ Cert.Kernel.sig (Elt F)) :
    StableHlo.after (hostOps (F := F)) V (Proc.devRef .tc main_arg8) = V (Proc.devRef .tc main_arg8) := by
  after_results

theorem after_arg9 (V : Valuation Cert.Kernel.τ Cert.Kernel.sig (Elt F)) :
    StableHlo.after (hostOps (F := F)) V (Proc.devRef .tc main_arg9) = V (Proc.devRef .tc main_arg9) := by
  after_results

end Cert.Kernel.HostK

end
-- ==== Proof.HostKValB.lean ====
/-
  The host side read at an index: the packed word's bits, the flat table's entries, and what the
  precondition says of the arguments.
-/
import proofs.«207339_g86234353369688_cont_sun_m_1071_33_alg».proof.Proof.HostKB
import proofs.«207339_g86234353369688_cont_sun_m_1071_33_alg».proof.Pre_input_domain
import Idealize.ShloMosaic.Lib.Pipeline.Value
import Idealize.ShloMosaic.Lib.ReduceAll
import Idealize.ShloMosaic.Lib.Affine

set_option synthInstance.maxSize 4096

noncomputable section

namespace Cert.Kernel.HostK

open Idealize.ShloMosaic Idealize.SL.Sem Idealize.ShloMosaic.ValueIdx
open Cert.Kernel Cert.Kernel.Facts₀ Cert.Kernel.Facts

variable {F : FTy → Type} [FloatOps F] [Cert.Kernel.Facts]

/-! ## The packed word -/

theorem reduces_x : S100000x9.Reduces [1] S100000 := by decide

/-- Inserting feature `i` into node `n`'s index is the index `(n, i)`. -/
theorem lift_eq (n : Fin 100000) (i : Fin 9) : reduces_x.lift (ix1 n) i = ix2 n i := by
  funext c
  match c with
  | ⟨0, _⟩ => exact Fin.ext rfl
  | ⟨1, _⟩ => exact Fin.ext rfl

/-- The weight of feature `i` is `2 ^ i`, for every node. -/
theorem pow2_apply (n : Fin 100000) (i : Fin 9) : pow2 (ix2 n i) = BitVec.ofNat 32 (2 ^ i.val) := by
  fin_cases i <;> rfl

/-- A fold over the nine features, written out. -/
theorem fold9 (g : Fin 9 → BitVec 32) :
    (Finset.univ : Finset (Fin 9)).fold IntOp.addi 0#32 g
      = g 0 + (g 1 + (g 2 + (g 3 + (g 4 + (g 5 + (g 6 + (g 7 + (g 8 + 0#32)))))))) := by
  rfl

/-- The packed word of node `n`: the sum of its nine features, feature `i` weighted `2 ^ i`. -/
theorem xpOf_apply (x : Cert.Spec.SX.Idx → BitVec 32) (n : Fin 100000) :
    xpOf x (ix1 n) = (Finset.univ : Finset (Fin 9)).fold IntOp.addi 0#32
        (fun i => x (ix2 n i) * BitVec.ofNat 32 (2 ^ i.val)) := by
  have e : ((muli x pow2) ∘ reduces_x.lift (ix1 n)) = fun i : Fin 9 => x (ix2 n i) * BitVec.ofNat 32 (2 ^ i.val) := by
    refine funext fun (i : Fin 9) => ?_
    show IntOp.muli (x (reduces_x.lift (ix1 n) i)) (pow2 (reduces_x.lift (ix1 n) i)) = _
    rw [lift_eq, pow2_apply]
    rfl
  unfold xpOf
  rw [Host.reduce_eq_fold_single IntOp.addi _ _ _ reduces_x _ _]
  exact congrArg (fun g => Finset.fold IntOp.addi 0#32 g (Finset.univ : Finset (Fin 9))) e

/-- Nine words, each 0 or 1, packed with weights `2 ^ i`: no carry. -/
theorem pack9_toNat (a0 a1 a2 a3 a4 a5 a6 a7 a8 : BitVec 32)
    (h0 : a0.toNat ≤ 1) (h1 : a1.toNat ≤ 1) (h2 : a2.toNat ≤ 1) (h3 : a3.toNat ≤ 1) (h4 : a4.toNat ≤ 1)
    (h5 : a5.toNat ≤ 1) (h6 : a6.toNat ≤ 1) (h7 : a7.toNat ≤ 1) (h8 : a8.toNat ≤ 1) :
    (a0 * 1#32 + (a1 * 2#32 + (a2 * 4#32 + (a3 * 8#32 + (a4 * 16#32 + (a5 * 32#32 + (a6 * 64#32 + (a7 * 128#32
      + (a8 * 256#32 + 0#32))))))))).toNat
      = a0.toNat + 2 * a1.toNat + 4 * a2.toNat + 8 * a3.toNat + 16 * a4.toNat + 32 * a5.toNat
        + 64 * a6.toNat + 128 * a7.toNat + 256 * a8.toNat := by
  simp only [BitVec.toNat_add, BitVec.toNat_mul, BitVec.toNat_ofNat, Nat.reducePow, Nat.reduceMod]
  omega

/-- The binary digits of a number written with nine digits 0 or 1. -/
theorem digits9 (b0 b1 b2 b3 b4 b5 b6 b7 b8 : Nat)
    (h0 : b0 ≤ 1) (h1 : b1 ≤ 1) (h2 : b2 ≤ 1) (h3 : b3 ≤ 1) (h4 : b4 ≤ 1)
    (h5 : b5 ≤ 1) (h6 : b6 ≤ 1) (h7 : b7 ≤ 1) (h8 : b8 ≤ 1) (P : Nat)
    (hP : P = b0 + 2 * b1 + 4 * b2 + 8 * b3 + 16 * b4 + 32 * b5 + 64 * b6 + 128 * b7 + 256 * b8) :
    P < 512 ∧ (P / 1 % 2 = 1 ↔ b0 = 1) ∧ (P / 2 % 2 = 1 ↔ b1 = 1) ∧ (P / 4 % 2 = 1 ↔ b2 = 1)
      ∧ (P / 8 % 2 = 1 ↔ b3 = 1) ∧ (P / 16 % 2 = 1 ↔ b4 = 1) ∧ (P / 32 % 2 = 1 ↔ b5 = 1)
      ∧ (P / 64 % 2 = 1 ↔ b6 = 1) ∧ (P / 128 % 2 = 1 ↔ b7 = 1) ∧ (P / 256 % 2 = 1 ↔ b8 = 1) := by
  subst hP
  refine ⟨by omega, by omega, by omega, by omega, by omega, by omega, by omega, by omega, by omega, by omega⟩

/-- The fold over the nine features of words 0 or 1 weighted `2 ^ i` is below 512 and its bit `i` is set
    exactly when word `i` is 1. -/
theorem bits9 (w : Fin 9 → BitVec 32) (hw : ∀ i, w i = 0#32 ∨ w i = 1#32) :
    ((Finset.univ : Finset (Fin 9)).fold IntOp.addi 0#32 (fun i => w i * BitVec.ofNat 32 (2 ^ i.val))).toNat < 512
    ∧ ∀ i : Fin 9, ((Finset.univ : Finset (Fin 9)).fold IntOp.addi 0#32
        (fun i => w i * BitVec.ofNat 32 (2 ^ i.val))).toNat.testBit i.val = decide (w i = 1#32) := by
  have ht : ∀ i, (w i).toNat ≤ 1 := fun i => by
    rcases hw i with h | h <;> rw [h] <;> simp
  have hd : ∀ i, (w i = 1#32) ↔ (w i).toNat = 1 := fun i => by
    rw [← BitVec.toNat_inj]; rfl
  have hs := pack9_toNat (w 0) (w 1) (w 2) (w 3) (w 4) (w 5) (w 6) (w 7) (w 8)
    (ht 0) (ht 1) (ht 2) (ht 3) (ht 4) (ht 5) (ht 6) (ht 7) (ht 8)
  have hf : (Finset.univ : Finset (Fin 9)).fold IntOp.addi 0#32 (fun i => w i * BitVec.ofNat 32 (2 ^ i.val))
      = w 0 * 1#32 + (w 1 * 2#32 + (w 2 * 4#32 + (w 3 * 8#32 + (w 4 * 16#32 + (w 5 * 32#32 + (w 6 * 64#32 + (w 7 * 128#32
      + (w 8 * 256#32 + 0#32)))))))) := fold9 _
  rw [hf]
  obtain ⟨d, d0, d1, d2, d3, d4, d5, d6, d7, d8⟩ := digits9 _ _ _ _ _ _ _ _ _
    (ht 0) (ht 1) (ht 2) (ht 3) (ht 4) (ht 5) (ht 6) (ht 7) (ht 8) _ hs
  refine ⟨d, fun i => ?_⟩
  rw [Nat.testBit_eq_decide_div_mod_eq, decide_eq_decide, hd i]
  match i with
  | ⟨0, _⟩ => exact d0
  | ⟨1, _⟩ => exact d1
  | ⟨2, _⟩ => exact d2
  | ⟨3, _⟩ => exact d3
  | ⟨4, _⟩ => exact d4
  | ⟨5, _⟩ => exact d5
  | ⟨6, _⟩ => exact d6
  | ⟨7, _⟩ => exact d7
  | ⟨8, _⟩ => exact d8

theorem xpOf_bits (x : Cert.Spec.SX.Idx → BitVec 32)
    (hx : ∀ (n : Fin 100000) (i : Fin 9), x (ix2 n i) = 0#32 ∨ x (ix2 n i) = 1#32) (n : Fin 100000) :
    (xpOf x (ix1 n)).toNat < 512
    ∧ ∀ i : Fin 9, (xpOf x (ix1 n)).toNat.testBit i.val = decide (x (ix2 n i) = 1#32) := by
  rw [xpOf_apply]
  exact bits9 (fun i => x (ix2 n i)) (fun i => hx n i)

/-! ## The precondition -/

section Pre

variable [Cert.Pre_input_domain.Facts]

instance : Subsingleton S_.Idx := ⟨fun a b => funext fun d => d.elim0⟩

/-- A word that is at least 0 and at most 1 as a signed number is the word 0 or the word 1. -/
theorem word_zero_or_one (b : BitVec 32) (h0 : (0#32).toInt ≤ b.toInt) (h1 : b.toInt ≤ (1#32).toInt) :
    b = 0#32 ∨ b = 1#32 := by
  have e0 : (0#32).toInt = 0 := by decide
  have e1 : (1#32).toInt = 1 := by decide
  rw [e0] at h0; rw [e1] at h1
  rcases (by omega : b.toInt = 0 ∨ b.toInt = 1) with h | h
  · exact Or.inl (BitVec.eq_of_toInt_eq (h.trans e0.symm))
  · exact Or.inr (BitVec.eq_of_toInt_eq (h.trans e1.symm))

/-- The precondition, conjunct by conjunct: every table entry's absolute value is below `+∞`, and every
    feature is the word 0 or the word 1. -/
theorem pre_split (x : IVec S100000x9 32) (W0 : FVec F S119x64 .f32) (W1 : FVec F S5x64 .f32) (W2 : FVec F S12x64 .f32)
    (W3 : FVec F S12x64 .f32) (W4 : FVec F S10x64 .f32) (W5 : FVec F S6x64 .f32) (W6 : FVec F S6x64 .f32)
    (W7 : FVec F S2x64 .f32) (W8 : FVec F S2x64 .f32)
    (h : Cert.Pre_input_domain.fn (F := F) x W0 W1 W2 W3 W4 W5 W6 W7 W8 = fun _ => 1#1) :
    (∀ j, FloatOps.cmpf .olt (FloatOps.hostAbsf (W0 j)) (FloatOps.ofBits (F := F) .f32 0x7F800000#32) = 1#1)
    ∧ (∀ j, FloatOps.cmpf .olt (FloatOps.hostAbsf (W1 j)) (FloatOps.ofBits (F := F) .f32 0x7F800000#32) = 1#1)
    ∧ (∀ j, FloatOps.cmpf .olt (FloatOps.hostAbsf (W2 j)) (FloatOps.ofBits (F := F) .f32 0x7F800000#32) = 1#1)
    ∧ (∀ j, FloatOps.cmpf .olt (FloatOps.hostAbsf (W3 j)) (FloatOps.ofBits (F := F) .f32 0x7F800000#32) = 1#1)
    ∧ (∀ j, FloatOps.cmpf .olt (FloatOps.hostAbsf (W4 j)) (FloatOps.ofBits (F := F) .f32 0x7F800000#32) = 1#1)
    ∧ (∀ j, FloatOps.cmpf .olt (FloatOps.hostAbsf (W5 j)) (FloatOps.ofBits (F := F) .f32 0x7F800000#32) = 1#1)
    ∧ (∀ j, FloatOps.cmpf .olt (FloatOps.hostAbsf (W6 j)) (FloatOps.ofBits (F := F) .f32 0x7F800000#32) = 1#1)
    ∧ (∀ j, FloatOps.cmpf .olt (FloatOps.hostAbsf (W7 j)) (FloatOps.ofBits (F := F) .f32 0x7F800000#32) = 1#1)
    ∧ (∀ j, FloatOps.cmpf .olt (FloatOps.hostAbsf (W8 j)) (FloatOps.ofBits (F := F) .f32 0x7F800000#32) = 1#1)
    ∧ (∀ (n : Fin 100000) (i : Fin 9), x (ix2 n i) = 0#32 ∨ x (ix2 n i) = 1#32) := by
  have h0 := congrFun h ix0
  dsimp only [Cert.Pre_input_domain.fn, Cert.Pre_input_domain.fn_part1, Cert.Pre_input_domain.fn_part2] at h0
  obtain ⟨h1, hx⟩ := IntOp.andi_eq_one.1 h0
  obtain ⟨h2, hw8⟩ := IntOp.andi_eq_one.1 h1
  obtain ⟨h3, hw7⟩ := IntOp.andi_eq_one.1 h2
  obtain ⟨h4, hw6⟩ := IntOp.andi_eq_one.1 h3
  obtain ⟨h5, hw5⟩ := IntOp.andi_eq_one.1 h4
  obtain ⟨h6, hw4⟩ := IntOp.andi_eq_one.1 h5
  obtain ⟨h7, hw3⟩ := IntOp.andi_eq_one.1 h6
  obtain ⟨h8, hw2⟩ := IntOp.andi_eq_one.1 h7
  obtain ⟨hw0, hw1⟩ := IntOp.andi_eq_one.1 h8
  refine ⟨fun j => Host.reduce_andi_all _ _ _ _ ix0 hw0 j, fun j => Host.reduce_andi_all _ _ _ _ ix0 hw1 j,
    fun j => Host.reduce_andi_all _ _ _ _ ix0 hw2 j, fun j => Host.reduce_andi_all _ _ _ _ ix0 hw3 j,
    fun j => Host.reduce_andi_all _ _ _ _ ix0 hw4 j, fun j => Host.reduce_andi_all _ _ _ _ ix0 hw5 j,
    fun j => Host.reduce_andi_all _ _ _ _ ix0 hw6 j, fun j => Host.reduce_andi_all _ _ _ _ ix0 hw7 j,
    fun j => Host.reduce_andi_all _ _ _ _ ix0 hw8 j, fun n i => ?_⟩
  have hb := Host.reduce_andi_all _ _ _ _ ix0 hx (ix2 n i)
  obtain ⟨hge, hle⟩ := IntOp.andi_eq_one.1 hb
  exact word_zero_or_one _ (IntOp.cmpi_sge.1 hge) (IntOp.cmpi_sle.1 hle)

/-- Under the precondition every feature is the word 0 or the word 1. -/
theorem pre_bits (x : IVec S100000x9 32) (W0 : FVec F S119x64 .f32) (W1 : FVec F S5x64 .f32) (W2 : FVec F S12x64 .f32)
    (W3 : FVec F S12x64 .f32) (W4 : FVec F S10x64 .f32) (W5 : FVec F S6x64 .f32) (W6 : FVec F S6x64 .f32)
    (W7 : FVec F S2x64 .f32) (W8 : FVec F S2x64 .f32)
    (h : Cert.Pre_input_domain.fn (F := F) x W0 W1 W2 W3 W4 W5 W6 W7 W8 = fun _ => 1#1) :
    ∀ (n : Fin 100000) (i : Fin 9), x (ix2 n i) = 0#32 ∨ x (ix2 n i) = 1#32 :=
  (pre_split x W0 W1 W2 W3 W4 W5 W6 W7 W8 h).2.2.2.2.2.2.2.2.2

end Pre

/-! ## The flat table read at an entry

Entry `i * 128 + r * 64 + e` of the flat table is row `r` (0 or 1), lane `e`, of table `i`: the reshape reads the
row-major `[18, 64]` concatenation at row `2 i + r`, which is row `r` of piece `i`. -/

theorem wsmOf_apply0 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (0 * 128 + r.val * 64 + e.val)
      = W0 (ix2 ⟨r.val, by omega⟩ e) := by
  have hr := r.isLt
  have he := e.isLt
  have hk : 0 * 128 + r.val * 64 + e.val < 1152 := by omega
  unfold Cert.Spec.wAt
  rw [dif_pos hk]
  unfold wsmOf
  refine Eq.trans (shapeCast_apply _ _ (ix1 ⟨0 * 128 + r.val * 64 + e.val, hk⟩)
    (ix2 (⟨0 + r.val, by omega⟩ : Fin 18) e) ?_) ?_
  · rw [Shape.rowMajor_val_two, Shape.rowMajor_val_one]
    show (0 + r.val) * 64 + e.val = 0 * 128 + r.val * 64 + e.val
    omega
  refine Eq.trans (concatenate_apply_piece (t := S18x64) (0 : Fin 2) _ _ _ 0 ?_ S2x64 (extractStridedSlice S2x64 ![0, 0] W0 slices_S119x64_S2x64_0_0) ?_ ?_ 0 ?_
    (ix2 r e) ?_ ?_) ?_
  · exact (by decide : 0 < 9)
  · rfl
  · rfl
  · rfl
  · intro b hb
    match b with
    | ⟨0, _⟩ => exact absurd rfl hb
    | ⟨1, _⟩ => rfl
  · rfl
  exact extractStridedSlice_apply _ _ _ (ix2 r e) (ix2 ⟨r.val, by omega⟩ e) (fun a => by
    match a with
    | ⟨0, _⟩ => show r.val = 0 + r.val; omega
    | ⟨1, _⟩ => show e.val = 0 + e.val; omega)

theorem wsmOf_apply1 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (1 * 128 + r.val * 64 + e.val)
      = W1 (ix2 ⟨r.val, by omega⟩ e) := by
  have hr := r.isLt
  have he := e.isLt
  have hk : 1 * 128 + r.val * 64 + e.val < 1152 := by omega
  unfold Cert.Spec.wAt
  rw [dif_pos hk]
  unfold wsmOf
  refine Eq.trans (shapeCast_apply _ _ (ix1 ⟨1 * 128 + r.val * 64 + e.val, hk⟩)
    (ix2 (⟨2 + r.val, by omega⟩ : Fin 18) e) ?_) ?_
  · rw [Shape.rowMajor_val_two, Shape.rowMajor_val_one]
    show (2 + r.val) * 64 + e.val = 1 * 128 + r.val * 64 + e.val
    omega
  refine Eq.trans (concatenate_apply_piece (t := S18x64) (0 : Fin 2) _ _ _ 1 ?_ S2x64 (extractStridedSlice S2x64 ![0, 0] W1 slices_S5x64_S2x64_0_0) ?_ ?_ 2 ?_
    (ix2 r e) ?_ ?_) ?_
  · exact (by decide : 1 < 9)
  · rfl
  · rfl
  · rfl
  · intro b hb
    match b with
    | ⟨0, _⟩ => exact absurd rfl hb
    | ⟨1, _⟩ => rfl
  · rfl
  exact extractStridedSlice_apply _ _ _ (ix2 r e) (ix2 ⟨r.val, by omega⟩ e) (fun a => by
    match a with
    | ⟨0, _⟩ => show r.val = 0 + r.val; omega
    | ⟨1, _⟩ => show e.val = 0 + e.val; omega)

theorem wsmOf_apply2 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (2 * 128 + r.val * 64 + e.val)
      = W2 (ix2 ⟨r.val, by omega⟩ e) := by
  have hr := r.isLt
  have he := e.isLt
  have hk : 2 * 128 + r.val * 64 + e.val < 1152 := by omega
  unfold Cert.Spec.wAt
  rw [dif_pos hk]
  unfold wsmOf
  refine Eq.trans (shapeCast_apply _ _ (ix1 ⟨2 * 128 + r.val * 64 + e.val, hk⟩)
    (ix2 (⟨4 + r.val, by omega⟩ : Fin 18) e) ?_) ?_
  · rw [Shape.rowMajor_val_two, Shape.rowMajor_val_one]
    show (4 + r.val) * 64 + e.val = 2 * 128 + r.val * 64 + e.val
    omega
  refine Eq.trans (concatenate_apply_piece (t := S18x64) (0 : Fin 2) _ _ _ 2 ?_ S2x64 (extractStridedSlice S2x64 ![0, 0] W2 slices_S12x64_S2x64_0_0) ?_ ?_ 4 ?_
    (ix2 r e) ?_ ?_) ?_
  · exact (by decide : 2 < 9)
  · rfl
  · rfl
  · rfl
  · intro b hb
    match b with
    | ⟨0, _⟩ => exact absurd rfl hb
    | ⟨1, _⟩ => rfl
  · rfl
  exact extractStridedSlice_apply _ _ _ (ix2 r e) (ix2 ⟨r.val, by omega⟩ e) (fun a => by
    match a with
    | ⟨0, _⟩ => show r.val = 0 + r.val; omega
    | ⟨1, _⟩ => show e.val = 0 + e.val; omega)

theorem wsmOf_apply3 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (3 * 128 + r.val * 64 + e.val)
      = W3 (ix2 ⟨r.val, by omega⟩ e) := by
  have hr := r.isLt
  have he := e.isLt
  have hk : 3 * 128 + r.val * 64 + e.val < 1152 := by omega
  unfold Cert.Spec.wAt
  rw [dif_pos hk]
  unfold wsmOf
  refine Eq.trans (shapeCast_apply _ _ (ix1 ⟨3 * 128 + r.val * 64 + e.val, hk⟩)
    (ix2 (⟨6 + r.val, by omega⟩ : Fin 18) e) ?_) ?_
  · rw [Shape.rowMajor_val_two, Shape.rowMajor_val_one]
    show (6 + r.val) * 64 + e.val = 3 * 128 + r.val * 64 + e.val
    omega
  refine Eq.trans (concatenate_apply_piece (t := S18x64) (0 : Fin 2) _ _ _ 3 ?_ S2x64 (extractStridedSlice S2x64 ![0, 0] W3 slices_S12x64_S2x64_0_0) ?_ ?_ 6 ?_
    (ix2 r e) ?_ ?_) ?_
  · exact (by decide : 3 < 9)
  · rfl
  · rfl
  · rfl
  · intro b hb
    match b with
    | ⟨0, _⟩ => exact absurd rfl hb
    | ⟨1, _⟩ => rfl
  · rfl
  exact extractStridedSlice_apply _ _ _ (ix2 r e) (ix2 ⟨r.val, by omega⟩ e) (fun a => by
    match a with
    | ⟨0, _⟩ => show r.val = 0 + r.val; omega
    | ⟨1, _⟩ => show e.val = 0 + e.val; omega)

theorem wsmOf_apply4 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (4 * 128 + r.val * 64 + e.val)
      = W4 (ix2 ⟨r.val, by omega⟩ e) := by
  have hr := r.isLt
  have he := e.isLt
  have hk : 4 * 128 + r.val * 64 + e.val < 1152 := by omega
  unfold Cert.Spec.wAt
  rw [dif_pos hk]
  unfold wsmOf
  refine Eq.trans (shapeCast_apply _ _ (ix1 ⟨4 * 128 + r.val * 64 + e.val, hk⟩)
    (ix2 (⟨8 + r.val, by omega⟩ : Fin 18) e) ?_) ?_
  · rw [Shape.rowMajor_val_two, Shape.rowMajor_val_one]
    show (8 + r.val) * 64 + e.val = 4 * 128 + r.val * 64 + e.val
    omega
  refine Eq.trans (concatenate_apply_piece (t := S18x64) (0 : Fin 2) _ _ _ 4 ?_ S2x64 (extractStridedSlice S2x64 ![0, 0] W4 slices_S10x64_S2x64_0_0) ?_ ?_ 8 ?_
    (ix2 r e) ?_ ?_) ?_
  · exact (by decide : 4 < 9)
  · rfl
  · rfl
  · rfl
  · intro b hb
    match b with
    | ⟨0, _⟩ => exact absurd rfl hb
    | ⟨1, _⟩ => rfl
  · rfl
  exact extractStridedSlice_apply _ _ _ (ix2 r e) (ix2 ⟨r.val, by omega⟩ e) (fun a => by
    match a with
    | ⟨0, _⟩ => show r.val = 0 + r.val; omega
    | ⟨1, _⟩ => show e.val = 0 + e.val; omega)

theorem wsmOf_apply5 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (5 * 128 + r.val * 64 + e.val)
      = W5 (ix2 ⟨r.val, by omega⟩ e) := by
  have hr := r.isLt
  have he := e.isLt
  have hk : 5 * 128 + r.val * 64 + e.val < 1152 := by omega
  unfold Cert.Spec.wAt
  rw [dif_pos hk]
  unfold wsmOf
  refine Eq.trans (shapeCast_apply _ _ (ix1 ⟨5 * 128 + r.val * 64 + e.val, hk⟩)
    (ix2 (⟨10 + r.val, by omega⟩ : Fin 18) e) ?_) ?_
  · rw [Shape.rowMajor_val_two, Shape.rowMajor_val_one]
    show (10 + r.val) * 64 + e.val = 5 * 128 + r.val * 64 + e.val
    omega
  refine Eq.trans (concatenate_apply_piece (t := S18x64) (0 : Fin 2) _ _ _ 5 ?_ S2x64 (extractStridedSlice S2x64 ![0, 0] W5 slices_S6x64_S2x64_0_0) ?_ ?_ 10 ?_
    (ix2 r e) ?_ ?_) ?_
  · exact (by decide : 5 < 9)
  · rfl
  · rfl
  · rfl
  · intro b hb
    match b with
    | ⟨0, _⟩ => exact absurd rfl hb
    | ⟨1, _⟩ => rfl
  · rfl
  exact extractStridedSlice_apply _ _ _ (ix2 r e) (ix2 ⟨r.val, by omega⟩ e) (fun a => by
    match a with
    | ⟨0, _⟩ => show r.val = 0 + r.val; omega
    | ⟨1, _⟩ => show e.val = 0 + e.val; omega)

theorem wsmOf_apply6 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (6 * 128 + r.val * 64 + e.val)
      = W6 (ix2 ⟨r.val, by omega⟩ e) := by
  have hr := r.isLt
  have he := e.isLt
  have hk : 6 * 128 + r.val * 64 + e.val < 1152 := by omega
  unfold Cert.Spec.wAt
  rw [dif_pos hk]
  unfold wsmOf
  refine Eq.trans (shapeCast_apply _ _ (ix1 ⟨6 * 128 + r.val * 64 + e.val, hk⟩)
    (ix2 (⟨12 + r.val, by omega⟩ : Fin 18) e) ?_) ?_
  · rw [Shape.rowMajor_val_two, Shape.rowMajor_val_one]
    show (12 + r.val) * 64 + e.val = 6 * 128 + r.val * 64 + e.val
    omega
  refine Eq.trans (concatenate_apply_piece (t := S18x64) (0 : Fin 2) _ _ _ 6 ?_ S2x64 (extractStridedSlice S2x64 ![0, 0] W6 slices_S6x64_S2x64_0_0) ?_ ?_ 12 ?_
    (ix2 r e) ?_ ?_) ?_
  · exact (by decide : 6 < 9)
  · rfl
  · rfl
  · rfl
  · intro b hb
    match b with
    | ⟨0, _⟩ => exact absurd rfl hb
    | ⟨1, _⟩ => rfl
  · rfl
  exact extractStridedSlice_apply _ _ _ (ix2 r e) (ix2 ⟨r.val, by omega⟩ e) (fun a => by
    match a with
    | ⟨0, _⟩ => show r.val = 0 + r.val; omega
    | ⟨1, _⟩ => show e.val = 0 + e.val; omega)

theorem wsmOf_apply7 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (7 * 128 + r.val * 64 + e.val)
      = W7 (ix2 ⟨r.val, by omega⟩ e) := by
  have hr := r.isLt
  have he := e.isLt
  have hk : 7 * 128 + r.val * 64 + e.val < 1152 := by omega
  unfold Cert.Spec.wAt
  rw [dif_pos hk]
  unfold wsmOf
  refine Eq.trans (shapeCast_apply _ _ (ix1 ⟨7 * 128 + r.val * 64 + e.val, hk⟩)
    (ix2 (⟨14 + r.val, by omega⟩ : Fin 18) e) ?_) ?_
  · rw [Shape.rowMajor_val_two, Shape.rowMajor_val_one]
    show (14 + r.val) * 64 + e.val = 7 * 128 + r.val * 64 + e.val
    omega
  refine Eq.trans (concatenate_apply_piece (t := S18x64) (0 : Fin 2) _ _ _ 7 ?_ S2x64 W7 ?_ ?_ 14 ?_
    (ix2 r e) ?_ ?_) ?_
  · exact (by decide : 7 < 9)
  · rfl
  · rfl
  · rfl
  · intro b hb
    match b with
    | ⟨0, _⟩ => exact absurd rfl hb
    | ⟨1, _⟩ => rfl
  · rfl
  rfl

theorem wsmOf_apply8 (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (r : Fin 2) (e : Fin 64) :
    Cert.Spec.wAt (wsmOf W0 W1 W2 W3 W4 W5 W6 W7 W8) (8 * 128 + r.val * 64 + e.val)
      = W8 (ix2 ⟨r.val, by omega⟩ e) := by
  have hr := r.isLt
  have he := e.isLt
  have hk : 8 * 128 + r.val * 64 + e.val < 1152 := by omega
  unfold Cert.Spec.wAt
  rw [dif_pos hk]
  unfold wsmOf
  refine Eq.trans (shapeCast_apply _ _ (ix1 ⟨8 * 128 + r.val * 64 + e.val, hk⟩)
    (ix2 (⟨16 + r.val, by omega⟩ : Fin 18) e) ?_) ?_
  · rw [Shape.rowMajor_val_two, Shape.rowMajor_val_one]
    show (16 + r.val) * 64 + e.val = 8 * 128 + r.val * 64 + e.val
    omega
  refine Eq.trans (concatenate_apply_piece (t := S18x64) (0 : Fin 2) _ _ _ 8 ?_ S2x64 W8 ?_ ?_ 16 ?_
    (ix2 r e) ?_ ?_) ?_
  · exact (by decide : 8 < 9)
  · rfl
  · rfl
  · rfl
  · intro b hb
    match b with
    | ⟨0, _⟩ => exact absurd rfl hb
    | ⟨1, _⟩ => rfl
  · rfl
  rfl

/-- Every entry of the flat table is an entry of one of the nine tables. -/
theorem wsmOf_mem (W0 : S119x64.Idx → F .f32) (W1 : S5x64.Idx → F .f32) (W2 : S12x64.Idx → F .f32)
    (W3 : S12x64.Idx → F .f32) (W4 : S10x64.Idx → F .f32) (W5 : S6x64.Idx → F .f32) (W6 : S6x64.Idx → F .f32)
    (W7 : S2x64.Idx → F .f32) (W8 : S2x64.Idx → F .f32) (k : Cert.Spec.SW.Idx) :
    (∃ j, wsmOf W0 W1 W2 W3 W4 W5 W6 W7 W8 k = W0 j) ∨ (∃ j, wsmOf W0 W1 W2 W3 W4 W5 W6 W7 W8 k = W1 j)
    ∨ (∃ j, wsmOf W0 W1 W2 W3 W4 W5 W6 W7 W8 k = W2 j) ∨ (∃ j, wsmOf W0 W1 W2 W3 W4 W5 W6 W7 W8 k = W3 j)
    ∨ (∃ j, wsmOf W0 W1 W2 W3 W4 W5 W6 W7 W8 k = W4 j) ∨ (∃ j, wsmOf W0 W1 W2 W3 W4 W5 W6 W7 W8 k = W5 j)
    ∨ (∃ j, wsmOf W0 W1 W2 W3 W4 W5 W6 W7 W8 k = W6 j) ∨ (∃ j, wsmOf W0 W1 W2 W3 W4 W5 W6 W7 W8 k = W7 j)
    ∨ (∃ j, wsmOf W0 W1 W2 W3 W4 W5 W6 W7 W8 k = W8 j) := by
  have hk : (k 0).val < 1152 := (k 0).isLt
  have e : wsmOf W0 W1 W2 W3 W4 W5 W6 W7 W8 k
      = Cert.Spec.wAt (wsmOf W0 W1 W2 W3 W4 W5 W6 W7 W8) (k 0).val := by
    unfold Cert.Spec.wAt
    rw [dif_pos hk]
    exact congrArg _ (eq_ix1 k)
  rw [e]
  obtain ⟨i, r, c, hi, hm⟩ : ∃ (i : Nat) (r : Fin 2) (c : Fin 64), i < 9 ∧ (k 0).val = i * 128 + r.val * 64 + c.val :=
    ⟨(k 0).val / 128, ⟨(k 0).val % 128 / 64, by omega⟩, ⟨(k 0).val % 64, by omega⟩, by omega, by
      show (k 0).val = (k 0).val / 128 * 128 + (k 0).val % 128 / 64 * 64 + (k 0).val % 64
      omega⟩
  rw [hm]
  interval_cases i
  · exact Or.inl ⟨_, wsmOf_apply0 W0 W1 W2 W3 W4 W5 W6 W7 W8 r c⟩
  · exact Or.inr (Or.inl ⟨_, wsmOf_apply1 W0 W1 W2 W3 W4 W5 W6 W7 W8 r c⟩)
  · exact Or.inr (Or.inr (Or.inl ⟨_, wsmOf_apply2 W0 W1 W2 W3 W4 W5 W6 W7 W8 r c⟩))
  · exact Or.inr (Or.inr (Or.inr (Or.inl ⟨_, wsmOf_apply3 W0 W1 W2 W3 W4 W5 W6 W7 W8 r c⟩)))
  · exact Or.inr (Or.inr (Or.inr (Or.inr (Or.inl ⟨_, wsmOf_apply4 W0 W1 W2 W3 W4 W5 W6 W7 W8 r c⟩))))
  · exact Or.inr (Or.inr (Or.inr (Or.inr (Or.inr (Or.inl ⟨_, wsmOf_apply5 W0 W1 W2 W3 W4 W5 W6 W7 W8 r c⟩)))))
  · exact Or.inr (Or.inr (Or.inr (Or.inr (Or.inr (Or.inr (Or.inl ⟨_, wsmOf_apply6 W0 W1 W2 W3 W4 W5 W6 W7 W8 r c⟩))))))
  · exact Or.inr (Or.inr (Or.inr (Or.inr (Or.inr (Or.inr (Or.inr (Or.inl ⟨_, wsmOf_apply7 W0 W1 W2 W3 W4 W5 W6 W7 W8 r c⟩)))))))
  · exact Or.inr (Or.inr (Or.inr (Or.inr (Or.inr (Or.inr (Or.inr (Or.inr ⟨_, wsmOf_apply8 W0 W1 W2 W3 W4 W5 W6 W7 W8 r c⟩)))))))

end Cert.Kernel.HostK

end
-- ==== Proof.HostKIdeal.lean ====
/-
  The precondition at the extended reals: every table entry is a real number.
-/
import proofs.«207339_g86234353369688_cont_sun_m_1071_33_alg».proof.Proof.HostKVal
import Idealize.ShloMosaic.PureOps.Ideal

set_option synthInstance.maxSize 4096

noncomputable section

namespace Cert.KernelIdeal.HostK

open Idealize.ShloMosaic Idealize.SL.Sem Idealize.ShloMosaic.ValueIdx
open Cert.KernelIdeal Cert.KernelIdeal.Facts₀ Cert.KernelIdeal.Facts

variable [Cert.KernelIdeal.Facts] [Cert.Pre_input_domain.Facts]

/-- An extended real whose absolute value is below `+∞` is a real number. -/
theorem real_of_abs_lt_top (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  induction x using EReal.rec with
  | bot => exact absurd hlt.2 (by simp)
  | coe r => exact ⟨r, rfl⟩
  | top => exact absurd hlt.1 (by simp)

/-- Under the precondition every entry of every table is a real number. -/
theorem pre_finite (x : IVec S100000x9 32) (W0 : FVec Ideal S119x64 .f32) (W1 : FVec Ideal S5x64 .f32)
    (W2 : FVec Ideal S12x64 .f32) (W3 : FVec Ideal S12x64 .f32) (W4 : FVec Ideal S10x64 .f32) (W5 : FVec Ideal S6x64 .f32)
    (W6 : FVec Ideal S6x64 .f32) (W7 : FVec Ideal S2x64 .f32) (W8 : FVec Ideal S2x64 .f32)
    (h : Cert.Pre_input_domain.fn (F := Ideal) x W0 W1 W2 W3 W4 W5 W6 W7 W8 = fun _ => 1#1) :
    (∀ j, ∃ r : ℝ, W0 j = (r : EReal)) ∧ (∀ j, ∃ r : ℝ, W1 j = (r : EReal)) ∧ (∀ j, ∃ r : ℝ, W2 j = (r : EReal))
    ∧ (∀ j, ∃ r : ℝ, W3 j = (r : EReal)) ∧ (∀ j, ∃ r : ℝ, W4 j = (r : EReal)) ∧ (∀ j, ∃ r : ℝ, W5 j = (r : EReal))
    ∧ (∀ j, ∃ r : ℝ, W6 j = (r : EReal)) ∧ (∀ j, ∃ r : ℝ, W7 j = (r : EReal)) ∧ (∀ j, ∃ r : ℝ, W8 j = (r : EReal)) := by
  obtain ⟨p0, p1, p2, p3, p4, p5, p6, p7, p8, _⟩ := pre_split (F := Ideal) x W0 W1 W2 W3 W4 W5 W6 W7 W8 h
  exact ⟨fun j => real_of_abs_lt_top _ (p0 j), fun j => real_of_abs_lt_top _ (p1 j), fun j => real_of_abs_lt_top _ (p2 j),
    fun j => real_of_abs_lt_top _ (p3 j), fun j => real_of_abs_lt_top _ (p4 j), fun j => real_of_abs_lt_top _ (p5 j),
    fun j => real_of_abs_lt_top _ (p6 j), fun j => real_of_abs_lt_top _ (p7 j), fun j => real_of_abs_lt_top _ (p8 j)⟩

/-- When every table entry is a real number, so is every entry of the flat table. -/
theorem wsmOf_finite (W0 : FVec Ideal S119x64 .f32) (W1 : FVec Ideal S5x64 .f32)
    (W2 : FVec Ideal S12x64 .f32) (W3 : FVec Ideal S12x64 .f32) (W4 : FVec Ideal S10x64 .f32) (W5 : FVec Ideal S6x64 .f32)
    (W6 : FVec Ideal S6x64 .f32) (W7 : FVec Ideal S2x64 .f32) (W8 : FVec Ideal S2x64 .f32)
    (hf : (∀ j, ∃ r : ℝ, W0 j = (r : EReal)) ∧ (∀ j, ∃ r : ℝ, W1 j = (r : EReal)) ∧ (∀ j, ∃ r : ℝ, W2 j = (r : EReal))
      ∧ (∀ j, ∃ r : ℝ, W3 j = (r : EReal)) ∧ (∀ j, ∃ r : ℝ, W4 j = (r : EReal)) ∧ (∀ j, ∃ r : ℝ, W5 j = (r : EReal))
      ∧ (∀ j, ∃ r : ℝ, W6 j = (r : EReal)) ∧ (∀ j, ∃ r : ℝ, W7 j = (r : EReal)) ∧ (∀ j, ∃ r : ℝ, W8 j = (r : EReal))) :
    ∀ k, ∃ r : ℝ, wsmOf (F := Ideal) W0 W1 W2 W3 W4 W5 W6 W7 W8 k = (r : EReal) := by
  intro k
  obtain ⟨f0, f1, f2, f3, f4, f5, f6, f7, f8⟩ := hf
  rcases wsmOf_mem (F := Ideal) W0 W1 W2 W3 W4 W5 W6 W7 W8 k with
    ⟨j, h⟩ | ⟨j, h⟩ | ⟨j, h⟩ | ⟨j, h⟩ | ⟨j, h⟩ | ⟨j, h⟩ | ⟨j, h⟩ | ⟨j, h⟩ | ⟨j, h⟩
  · rw [h]; exact f0 j
  · rw [h]; exact f1 j
  · rw [h]; exact f2 j
  · rw [h]; exact f3 j
  · rw [h]; exact f4 j
  · rw [h]; exact f5 j
  · rw [h]; exact f6 j
  · rw [h]; exact f7 j
  · rw [h]; exact f8 j

end Cert.KernelIdeal.HostK

end
-- ==== Proof.KCommon.lean ====
/-
  Names shared by the proofs about the kernel program: its launch configuration, the resource algebra,
  the arrays the call reads and writes, and how the result's rows are dealt among the 32 vector subcores.
-/
import proofs.«207339_g86234353369688_cont_sun_m_1071_33_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207339_g86234353369688_cont_sun_m_1071_33_alg».proof.Proof.Gen.KernelIdeal
import proofs.«207339_g86234353369688_cont_sun_m_1071_33_alg».proof.Proof.Spec

noncomputable section

namespace Cert.KernelIdeal.KC

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The packed words, the flat table and the result, as locations of device `d`. -/
abbrev pLoc (d : Dev nD) : Loc nD τ sig := (SparseCore.T d).loc main_v15
abbrev wLoc (d : Dev nD) : Loc nD τ sig := (SparseCore.T d).loc main_v8
abbrev oLoc (d : Dev nD) : Loc nD τ sig := (SparseCore.T d).loc main_v16

/-- The grid point of SparseCore `c`, vector subcore `s`, as the body table passes it. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The vector subcore at grid point `L` of device `d`. -/
abbrev thr (d : Dev nD) (L : grid0.Coords) : Thread nD τ := V d (cV L) (jV L)

/-- The worker's number: subcore-major. Worker `n` handles the 160-row blocks `n, n + 32, n + 64, …` of the result. -/
def wid (L : grid0.Coords) : Nat := 2 * (L 1).val + (L 0).val

/-- The elements of the result that lie in a 160-row block handled by worker `n`. -/
def rowsOf (n : Nat) : Finset S100000x64.Idx := Finset.univ.filter fun j => ((j 0).val / 160) % 32 = n
/-- The elements of the result in the 160-row block number `b`. -/
def blkSet (b : Nat) : Finset S100000x64.Idx := Finset.univ.filter fun j => (j 0).val / 160 = b
/-- The elements of the result handled by SparseCore `c`'s workers: the blocks of parity `c`. -/
def coreRows (c : Nat) : Finset S100000x64.Idx := Finset.univ.filter fun j => ((j 0).val / 160) % 2 = c

section Spec

variable [FloatOps F]

local notation "𝕄" => MT nD τ sig (HIx 1) (Elt F) ℕ UU ℕ

/-- What one vector subcore's task does, stated once for the launch to use: from a read share of the packed words
    (every word below 512) and of the flat table, and its own rows of the result, it ends with its rows at the
    table row the packed word names; its scratch and semaphores are handed back. -/
def TileSpec : Prop :=
  ∀ (d : Dev nD) (L : grid0.Coords) (O : CellTallies nD τ sig (HIx 1)) (W : Waits sig (HIx 1)) (_ : ∀ g, O g none = 0)
    (q : PosShare TreeShare) (xp : Buf (Elt F) (pLoc d)) (w : Buf (Elt F) (wLoc d)) (o0 : Buf (Elt F) (oLoc d))
    (_ : ∀ n : S100000.Idx, (xp n).toNat < 512),
    (iprop(levAts (K (F := F)).L (K (F := F)).lev ∗ emp
        ∗ ((pLoc d ↦{q} xp) ∗ (wLoc d ↦{q} w) ∗ (oLoc d ↦[rowsOf (wid L)]{fullShare} o0))
        ∗ scopedBufs (thr d L) ∗ scopedSems0 (thr d L) ∗ owes (thr d L) O W) : sProp 𝕄)
      ⊢ wp frame (wpE (defs₀ (F := F)) 𝒱₀ (thr d L) none) Set.univ
          (cc0__body L (Memref.whole main_v15_scv) (Memref.isWhole_whole _) (Memref.whole main_v8_scv) (Memref.isWhole_whole _)
            (Memref.whole main_v16_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scoped0)
          fun _ => iprop((oLoc d ↦[rowsOf (wid L)]{fullShare} (Cert.Spec.kerOut (F := F) w xp : Buf (Elt F) (oLoc d)))
            ∗ scopedBufs (thr d L) ∗ scopedSems0 (thr d L)
            ∗ ∃ W', ⌜∀ p ∈ W', p ∈ W ∨ p.2 = none⌝ ∗ owes (thr d L) O W')

end Spec

end Cert.KernelIdeal.KC

end
-- ==== Proof.KLaunch.lean ====
/-
  The launch of the kernel program: what the one call hands each SparseCore and each of its vector subcores
  (a read share of the packed words and of the flat table, and the rows of the result that are theirs), how
  those pieces split and join, the host operations before the call, and the program's run.
-/
import proofs.«207339_g86234353369688_cont_sun_m_1071_33_alg».proof.Proof.KCommon
import proofs.«207339_g86234353369688_cont_sun_m_1071_33_alg».proof.Proof.HostK
import Idealize.ShloMosaic.Lib.Transfers
import Idealize.ShloMosaic.Lib.Pipeline.Frame

noncomputable section

namespace Cert.KernelIdeal.KL

open Cert.KernelIdeal Cert.KernelIdeal.Gen Cert.KernelIdeal.KC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section L

variable (m : (ℓ : Loc nD τ sig) → Buf (Elt F) ℓ) (ρ : Dev nD → PrngReg)

variable [FloatOps F]

/-! ## The contents the call works on -/

/-- The packed words, the flat table, the result at launch and the result the call leaves, on device `d`. -/
def xpM (d : Dev nD) : Buf (Elt F) (pLoc d) := HostK.xpOf (m ((SparseCore.T d).loc main_arg0))
def wM (d : Dev nD) : Buf (Elt F) (wLoc d) :=
  HostK.wsmOf (m ((SparseCore.T d).loc main_arg1)) (m ((SparseCore.T d).loc main_arg2)) (m ((SparseCore.T d).loc main_arg3))
    (m ((SparseCore.T d).loc main_arg4)) (m ((SparseCore.T d).loc main_arg5)) (m ((SparseCore.T d).loc main_arg6))
    (m ((SparseCore.T d).loc main_arg7)) (m ((SparseCore.T d).loc main_arg8)) (m ((SparseCore.T d).loc main_arg9))
def o0M (d : Dev nD) : Buf (Elt F) (oLoc d) := m (oLoc d)
def gM (d : Dev nD) : Buf (Elt F) (oLoc d) := Cert.Spec.kerOut (F := F) (wM m d) (xpM m d)

/-- The read share of SparseCore `c`, and of its vector subcore `i`. -/
abbrev qc (c : ℕ) : PosShare TreeShare := Transfers.shareTokN fullShare c
abbrev qt (c i : ℕ) : PosShare TreeShare := Transfers.shareTokN (qc c) i

/-! ## What the handshakes carry -/

def stA (d : Dev nD) (c : ℕ) : sProp 𝕄 :=
  iprop((pLoc d ↦{qc c} xpM m d) ∗ (wLoc d ↦{qc c} wM m d) ∗ (oLoc d ↦[coreRows c]{fullShare} o0M m d))
def dnA (d : Dev nD) (c : ℕ) : sProp 𝕄 := oLoc d ↦[coreRows c]{fullShare} gM m d
def goA (d : Dev nD) (c i : ℕ) : sProp 𝕄 :=
  iprop((pLoc d ↦{qt c i} xpM m d) ∗ (wLoc d ↦{qt c i} wM m d) ∗ (oLoc d ↦[rowsOf (2 * i + c)]{fullShare} o0M m d))
def tdA (d : Dev nD) (c i : ℕ) : sProp 𝕄 := oLoc d ↦[rowsOf (2 * i + c)]{fullShare} gM m d

instance stA_storable (d : Dev nD) (c : ℕ) : BI.Storable (upEmb : UEmb _ 𝕄) (stA m d c) := by unfold stA; infer_instance
instance dnA_storable (d : Dev nD) (c : ℕ) : BI.Storable (upEmb : UEmb _ 𝕄) (dnA m d c) := by unfold dnA; infer_instance
instance goA_storable (d : Dev nD) (c i : ℕ) : BI.Storable (upEmb : UEmb _ 𝕄) (goA m d c i) := by unfold goA; infer_instance
instance tdA_storable (d : Dev nD) (c i : ℕ) : BI.Storable (upEmb : UEmb _ 𝕄) (tdA m d c i) := by unfold tdA; infer_instance

/-- The one call: each SparseCore takes a read share of the packed words and of the flat table and the result's
    blocks of its parity, each vector subcore a share of the two and its own blocks; the blocks come back written. -/
def P : (K (F := F)).Pay (nD := nD) (Val := Elt F) (Name := ℕ) (U := UU) where
  st := fun _ d c => stA m d c.val
  dn := fun _ d c => dnA m d c.val
  go := fun _ d c i => goA m d c.val i.val
  td := fun _ d c i => tdA m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The rows of the result, dealt among the SparseCores and their vector subcores -/

omit [FloatOps F] in
theorem rows_disjoint (c : ℕ) : ∀ i ∈ (Finset.univ : Finset (Fin 16)), ∀ j ∈ (Finset.univ : Finset (Fin 16)), i ≠ j →
    Disjoint (rowsOf (2 * i.val + c)) (rowsOf (2 * j.val + c)) := by
  intro i _ j _ hij
  unfold rowsOf
  refine Finset.disjoint_filter.mpr fun x _ h1 h2 => hij (Fin.ext ?_)
  omega

omit [FloatOps F] in
theorem rows_cover (c : ℕ) (hc : c < 2) : (Finset.univ : Finset (Fin 16)).biUnion (fun i => rowsOf (2 * i.val + c)) = coreRows c := by
  ext x
  simp only [Finset.mem_biUnion, Finset.mem_univ, true_and, rowsOf, coreRows, Finset.mem_filter]
  constructor
  · rintro ⟨i, hi⟩; omega
  · intro h
    exact ⟨⟨(((x 0).val / 160) % 32) / 2, by omega⟩, by simp only []; omega⟩

omit [FloatOps F] in
theorem cores_disjoint : ∀ i ∈ (Finset.univ : Finset (Fin 2)), ∀ j ∈ (Finset.univ : Finset (Fin 2)), i ≠ j →
    Disjoint (coreRows i.val) (coreRows j.val) := by
  intro i _ j _ hij
  unfold coreRows
  refine Finset.disjoint_filter.mpr fun x _ h1 h2 => hij (Fin.ext ?_)
  omega

omit [FloatOps F] in
theorem cores_cover : (Finset.univ : Finset (Fin 2)).biUnion (fun c => coreRows c.val) = Finset.univ := by
  ext x
  simp only [Finset.mem_biUnion, Finset.mem_univ, true_and, coreRows, Finset.mem_filter, iff_true]
  exact ⟨⟨((x 0).val / 160) % 2, by omega⟩, rfl⟩

omit [FloatOps F] in
/-- A SparseCore's blocks are its sixteen vector subcores' blocks. -/
theorem oCore_rows (d : Dev nD) (c : ℕ) (hc : c < 2) (f : Buf (Elt F) (oLoc d)) :
    (oLoc d ↦[coreRows c]{fullShare} f : sProp 𝕄) = bigSep Finset.univ fun i : Fin 16 => oLoc d ↦[rowsOf (2 * i.val + c)]{fullShare} f := by
  rw [← pointsTo_biUnion Finset.univ (ℓ := oLoc d) (fun i : Fin 16 => rowsOf (2 * i.val + c)) (rows_disjoint c), rows_cover c hc]

omit [FloatOps F] in
/-- The whole result is the two SparseCores' blocks. -/
theorem oAll_cores (d : Dev nD) (f : Buf (Elt F) (oLoc d)) :
    (oLoc d ↦{fullShare} f : sProp 𝕄) = bigSep Finset.univ fun c : Fin 2 => oLoc d ↦[coreRows c.val]{fullShare} f := by
  rw [← pointsTo_biUnion Finset.univ (ℓ := oLoc d) (fun c : Fin 2 => coreRows c.val) cores_disjoint, cores_cover]; try rfl

/-! ## The launch theorem's obligations -/

theorem defs₀_vector (c : Fin τ.nSC) (s : Fin τ.nSub) :
    defs₀ (F := F) (.scVector c s) 0 ()
      = SparseCore.onTile hcore0 hsub0 (fun c s => cc0__body (coordsV c s)
          (Memref.whole main_v15_scv) (Memref.isWhole_whole _) (Memref.whole main_v8_scv) (Memref.isWhole_whole _)
          (Memref.whole main_v16_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every word of the packed array names a row of the 512-row table. -/
def PreOK : Prop := ∀ (d : Dev nD) (n : S100000.Idx), (xpM m d n).toNat < 512

theorem tileObl (hT : KC.TileSpec (F := F)) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hT d (coordsV ⟨_, hc.1⟩ ⟨_, hc.2⟩) O W hO (qt c.val i.val) (xpM m d) (wM m d) (o0M m d) (hpre d)).trans (wp_mono frame _ _ fun _ => obl_post)

theorem vecSplit : (K (F := F)).VecSplit' (P m) 0 := by
  intro d c
  have hc : c.val < 2 := c.isLt
  show stA m d c.val ⊢ |={Set.univ}=> iprop(
      (bigSep Finset.univ fun i : Fin 16 => goA m d c.val i.val)
      ∗ ((bigSep Finset.univ fun i : Fin 16 => tdA m d c.val i.val) -∗ dnA m d c.val))
  unfold stA goA tdA dnA
  rw [bigSep_sep', bigSep_sep', oCore_rows d c.val hc, oCore_rows d c.val hc]
  iintro ⟨Hp, Hw, Ho⟩
  ihave Hp' := (Transfers.pointsTo_toks_split (qc c.val) 16) $$ Hp
  icases Hp' with ⟨-, Hp⟩
  ihave Hw' := (Transfers.pointsTo_toks_split (qc c.val) 16) $$ Hw
  icases Hw' with ⟨-, Hw⟩
  imodintro
  isplitl [Hp Hw Ho]
  · isplitl [Hp]; · iexact Hp
    isplitl [Hw]; · iexact Hw
    iexact Ho
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev p' : DevRef τ sig := Proc.devRef .tc (main_v15 : Ref sig .tc)
abbrev w' : DevRef τ sig := Proc.devRef .tc (main_v8 : Ref sig .tc)
abbrev o' : DevRef τ sig := Proc.devRef .tc (main_v16 : Ref sig .tc)
abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev a7' : DevRef τ sig := Proc.devRef .tc (main_arg7 : Ref sig .tc)
abbrev a8' : DevRef τ sig := Proc.devRef .tc (main_arg8 : Ref sig .tc)
abbrev a9' : DevRef τ sig := Proc.devRef .tc (main_arg9 : Ref sig .tc)

/-- The ten arguments; with them the packed words, the flat table and the result. -/
abbrev A10 : Finset (DevRef τ sig) := {a0', a1', a2', a3', a4', a5', a6', a7', a8', a9'}
abbrev T13 : Finset (DevRef τ sig) := insert p' (insert w' (insert o' A10))

omit [FloatOps F] in
theorem T13_sub : T13 ⊆ Pipeline.ucRefs τ sig := by
  intro b hb
  simp only [T13, A10, Finset.mem_insert, Finset.mem_singleton] at hb
  rcases hb with rfl | rfl | rfl | rfl | rfl | rfl | rfl | rfl | rfl | rfl | rfl | rfl | rfl <;>
    exact Finset.mem_filter.mpr ⟨StableHlo.devRef_mem_tcRefs _, by decide⟩

omit [FloatOps F] in
theorem held_T13 (d : Dev nD) (W : Valuation τ sig (Elt F)) :
    (StableHlo.held (T d) T13 W : sProp 𝕄)
      = iprop((pLoc d ↦{fullShare} W p') ∗ (wLoc d ↦{fullShare} W w') ∗ (oLoc d ↦{fullShare} W o') ∗ StableHlo.held (T d) A10 W) := by
  unfold StableHlo.held T13
  rw [SparseCore.bigSep_insert' (by decide), SparseCore.bigSep_insert' (by decide), SparseCore.bigSep_insert' (by decide)]

/-- The launch valuation of device `d`. -/
abbrev V0 (d : Dev nD) : Valuation τ sig (Elt F) := StableHlo.launchContents m d

theorem host_sub : ∀ op ∈ HostK.hostOps (F := F), op.bufs ⊆ Pipeline.ucRefs τ sig := by
  have h : (HostK.hostOps (F := F)).Forall fun op => op.bufs ⊆ StableHlo.tcRefs τ sig :=
    ⟨StableHlo.unary_bufs_sub .., StableHlo.unary_bufs_sub .., StableHlo.unary_bufs_sub .., StableHlo.unary_bufs_sub ..,
      StableHlo.unary_bufs_sub .., StableHlo.unary_bufs_sub .., StableHlo.unary_bufs_sub .., StableHlo.nary_bufs_sub ..,
      StableHlo.reshape_bufs_sub .., StableHlo.nullary_bufs_sub .., StableHlo.nullary_bufs_sub .., StableHlo.unary_bufs_sub ..,
      StableHlo.binary_bufs_sub .., StableHlo.unary_bufs_sub .., StableHlo.unary_bufs_sub .., StableHlo.binary_bufs_sub ..,
      StableHlo.nullary_bufs_sub .., StableHlo.binary_bufs_sub ..⟩
  exact fun op hop => Pipeline.sub_ucRefs op (List.forall_iff_forall_mem.1 h op hop)

theorem host_fresh : ∀ op ∈ HostK.hostOps (F := F), op.fresh = ∅ := by
  intro _ h; (repeat (cases h with | head => rfl | tail _ h => ?_)); exact nomatch h

theorem after_o (W : Valuation τ sig (Elt F)) : StableHlo.after (HostK.hostOps (F := F)) W o' = W o' := by
  after_results

theorem after_A10 (W : Valuation τ sig (Elt F)) : ∀ b ∈ A10, StableHlo.after (HostK.hostOps (F := F)) W b = W b := by
  intro b hb
  simp only [A10, Finset.mem_insert, Finset.mem_singleton] at hb
  rcases hb with rfl | rfl | rfl | rfl | rfl | rfl | rfl | rfl | rfl | rfl
  · exact HostK.after_arg0 W
  · exact HostK.after_arg1 W
  · exact HostK.after_arg2 W
  · exact HostK.after_arg3 W
  · exact HostK.after_arg4 W
  · exact HostK.after_arg5 W
  · exact HostK.after_arg6 W
  · exact HostK.after_arg7 W
  · exact HostK.after_arg8 W
  · exact HostK.after_arg9 W

theorem after_p (d : Dev nD) : StableHlo.after (HostK.hostOps (F := F)) (V0 m d) p' = xpM m d := HostK.after_v15 (V0 m d)
theorem after_w (d : Dev nD) : StableHlo.after (HostK.hostOps (F := F)) (V0 m d) w' = wM m d := HostK.after_v8 (V0 m d)

/-- What the call takes for the two SparseCores, and what it hands back. -/
theorem st0_eq (d : Dev nD) : (bigSep Finset.univ fun c : Fin ((K (F := F)).nCore 0) => (P m).st 0 d c)
    = iprop((bigSep Finset.univ fun c : Fin 2 => pLoc d ↦{qc c.val} xpM m d) ∗ (bigSep Finset.univ fun c : Fin 2 => wLoc d ↦{qc c.val} wM m d)
        ∗ bigSep Finset.univ fun c : Fin 2 => oLoc d ↦[coreRows c.val]{fullShare} o0M m d) := by
  show (bigSep (Finset.univ : Finset (Fin 2)) fun c => stA m d c.val) = _
  unfold stA
  rw [bigSep_sep', bigSep_sep']
theorem dn0_eq (d : Dev nD) : (bigSep Finset.univ fun c : Fin ((K (F := F)).nCore 0) => (P m).dn 0 d c) = (oLoc d ↦{fullShare} gM m d : sProp 𝕄) := by
  show (bigSep (Finset.univ : Finset (Fin 2)) fun c => dnA m d c.val) = _
  unfold dnA
  rw [oAll_cores]

/-- What @main leaves the claim: the result at the kernel's value, the ten arguments at their launch contents. -/
abbrev FIN (d : Dev nD) : sProp 𝕄 := iprop((oLoc d ↦{fullShare} gM m d) ∗ StableHlo.held (T d) A10 (V0 m d))

/-- After the host operations: the packed words, the flat table, the result as launched, the ten arguments, and the rest. -/
theorem held_after (d : Dev nD) :
    (StableHlo.held (d.tc : Thread nD τ) (Pipeline.ucRefs τ sig) (StableHlo.after (HostK.hostOps (F := F)) (V0 m d)) : sProp 𝕄)
      = iprop(((pLoc d ↦{fullShare} xpM m d) ∗ (wLoc d ↦{fullShare} wM m d) ∗ (oLoc d ↦{fullShare} o0M m d) ∗ StableHlo.held (T d) A10 (V0 m d))
          ∗ StableHlo.held (d.tc : Thread nD τ) (Pipeline.ucRefs τ sig \ T13) (StableHlo.after (HostK.hostOps (F := F)) (V0 m d))) := by
  rw [StableHlo.held_sub_split _ T13_sub, held_T13, after_p, after_w, after_o, StableHlo.held_congr _ (after_A10 (V0 m d))]
  rfl

/-- The one call and the return, from the packed words, the flat table and the result; the arguments carried along. -/
theorem hcall (κ : GSem nD τ sig → ℕ) (d : Dev nD) :
    iprop((K (F := F)).ctx EH (P m) κ ∗ (K (F := F)).tcSt EH d 0
        ∗ (pLoc d ↦{fullShare} xpM m d) ∗ (wLoc d ↦{fullShare} wM m d) ∗ (oLoc d ↦{fullShare} o0M m d) ∗ StableHlo.held (T d) A10 (V0 m d))
      ⊢ wp frame (wpE ((K (F := F)).defs (D (F := F))) 𝒱 (SparseCore.T d) none) Set.univ
          ((sc (F := F)).run d 0 >>= fun _ => pure PUnit.unit : Prog (TpuEff nD τ sig (Elt F) (SparseCore.Sig (ΛP (F := F)) 1) .tc) PUnit)
          fun _ => iprop((K (F := F)).tcSt EH d 1 ∗ FIN m d) := by
  simp only [wp_bind, wp_pure]
  iintro ⟨#Hctx, Hst, Hp, Hw, Ho, HA⟩
  ihave Hp' := (Transfers.pointsTo_toks_split fullShare 2) $$ Hp
  icases Hp' with ⟨-, Hp⟩
  ihave Hw' := (Transfers.pointsTo_toks_split fullShare 2) $$ Hw
  icases Hw' with ⟨-, Hw⟩
  ihave Ho' := (Entails.of_eq (oAll_cores (F := F) d _)) $$ Ho
  iapply ((K (F := F)).wp_run (D (F := F)) 𝒱 (EH := EH) (P := P m) κ d 0) $$ [Hst Hp Hw Ho' HA]
  isplitr; · iexact Hctx
  isplitl [Hst]; · iexact Hst
  isplitl [Hp Hw Ho']
  · rw [st0_eq]
    isplitl [Hp]; · iexact Hp
    isplitl [Hw]; · iexact Hw
    iexact Ho'
  iintro ⟨Hst, Hdn⟩
  ihave Hdn' := (Entails.of_eq (dn0_eq m d)) $$ Hdn
  imodintro
  isplitl [Hst]; · iexact Hst
  isplitl [Hdn']; · iexact Hdn'
  iexact HA

set_option backward.isDefEq.respectTransparency.types false in
/-- @main on device `d`'s TensorCore: the eighteen host operations, then the one call; the arguments kept, the result
    at the kernel's value. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = StableHlo.held (d.tc : Thread nD τ) (Pipeline.ucRefs τ sig) (V0 m d)
      from Pipeline.unscopedBufs_held (Ix := HIx 1) (Name := ℕ) (U := UU) (Lvl := ℕ) d (V0 m d), HostK.main_eq]
  iintro ⟨#Hctx, Hst, ⟨Hb, Hheld, -, -⟩, -⟩
  iapply (StableHlo.wp_seq 𝒱 none Set.univ d (Pipeline.ucRefs τ sig) _ (HostK.hostOps (F := F)) host_sub host_fresh (V0 m d)) $$ [Hb Hheld]
  · isplitl [Hb]; · iexact Hb
    iexact Hheld
  iintro ⟨Hb, Hheld⟩
  ihave Hh := (Entails.of_eq (held_after m d)) $$ Hheld
  icases Hh with ⟨⟨Hp, Hw, Ho, HA⟩, -⟩
  iapply (hcall m κ d)
  isplitr; · iexact Hctx
  isplitl [Hst]; · iexact Hst
  isplitl [Hp]; · iexact Hp
  isplitl [Hw]; · iexact Hw
  isplitl [Ho]; · iexact Ho
  iexact HA

def fq (d : Dev nD) (s' : Phys nD τ sig (Elt F)) : Prop :=
  s'.mem.mem (oLoc d) = gM m d ∧ ∀ b ∈ A10, s'.mem.mem (d, b) = V0 m d b

theorem hfin (d : Dev nD) (s' : Phys nD τ sig (Elt F)) : iprop(FIN m d ∗ SI s') ⊢ (⌜fq m d s'⌝ : sProp 𝕄) := by
  show iprop(((oLoc d ↦{fullShare} gM m d) ∗ bigSep A10 fun b => ((d, b) : Loc nD τ sig) ↦{fullShare} V0 m d b) ∗ SI s') ⊢ _
  iintro ⟨⟨Ho, HA⟩, HSI⟩
  ihave H := (persistent_entails_right (SI_pointsTo_agree (st := s') (ℓ := oLoc d) (I := Finset.univ) (q := fullShare) (f := gM m d))) $$ [HSI Ho]
  · isplitl [HSI] <;> iassumption
  icases H with ⟨%h1, HSI, -⟩
  ihave H := (SI_pointsTo_bufs_agree (st := s') (c := d) (qs := fun _ => fullShare) (F := V0 m d) A10) $$ [HSI HA]
  · isplitl [HSI]; · iexact HSI
    iexact HA
  icases H with %h2
  ipureintro; exact ⟨funext fun i => h1 i (Finset.mem_univ i), h2⟩

end L

variable [FloatOps F]

/-! ## The program's run -/

/-- Every weakly fair execution of the kernel program's threads terminates with the result at the kernel's value
    (row `xp[n]` of the 512-row table) and the ten arguments unchanged, given the vector subcore's task and that every
    packed word names a row of that table. -/
theorem run_main [∀ e, Nonempty (Elt F e)] (hT : KC.TileSpec (F := F)) (m : (ℓ : Loc nD τ sig) → Buf (Elt F) ℓ) (ρ : Dev nD → PrngReg)
    (hxp : ∀ (d : Dev nD) (n : S100000.Idx), (HostK.xpOf (m ((SparseCore.T d).loc main_arg0)) n).toNat < 512) :
    θ_run (Cert.KernelIdeal.defs (F := F)) (Cert.KernelIdeal.threads (F := F)) ⟨m, fun _ => 0, ρ⟩
      (fun r => ∀ c : Dev nD,
        r.2.mem ((c.tc : Thread nD τ).loc main_v16)
            = Cert.Spec.kerOut (F := F) (HostK.wsmOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (HostK.xpOf (m ((c.tc : Thread nD τ).loc main_arg0)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  SparseCore.Cfg.θ_run_sc (K := K (F := F)) (D := D (F := F)) (𝒱 := 𝒱) (EH := EH) (P := P m) facts v₀
    (fun q hq => match q with | 0 => nomatch hq)
    (fun q _ => match q with | 0 => tileObl m hT hxp)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun s' h c => ⟨(h c).1, (h c).2 a0' (by decide), (h c).2 a1' (by decide), (h c).2 a2' (by decide), (h c).2 a3' (by decide), (h c).2 a4' (by decide), (h c).2 a5' (by decide), (h c).2 a6' (by decide), (h c).2 a7' (by decide), (h c).2 a8' (by decide), (h c).2 a9' (by decide)⟩)

end Cert.KernelIdeal.KL

end
-- ==== Proof.KCommonB.lean ====
/-
  Names shared by the proofs about the kernel program: its launch configuration, the resource algebra,
  the arrays the call reads and writes, and how the result's rows are dealt among the 32 vector subcores.
-/
import proofs.«207339_g86234353369688_cont_sun_m_1071_33_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207339_g86234353369688_cont_sun_m_1071_33_alg».proof.Proof.Gen.Kernel
import proofs.«207339_g86234353369688_cont_sun_m_1071_33_alg».proof.Proof.Spec

noncomputable section

namespace Cert.Kernel.KC

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The packed words, the flat table and the result, as locations of device `d`. -/
abbrev pLoc (d : Dev nD) : Loc nD τ sig := (SparseCore.T d).loc main_v15
abbrev wLoc (d : Dev nD) : Loc nD τ sig := (SparseCore.T d).loc main_v8
abbrev oLoc (d : Dev nD) : Loc nD τ sig := (SparseCore.T d).loc main_v16

/-- The grid point of SparseCore `c`, vector subcore `s`, as the body table passes it. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The vector subcore at grid point `L` of device `d`. -/
abbrev thr (d : Dev nD) (L : grid0.Coords) : Thread nD τ := V d (cV L) (jV L)

/-- The worker's number: subcore-major. Worker `n` handles the 160-row blocks `n, n + 32, n + 64, …` of the result. -/
def wid (L : grid0.Coords) : Nat := 2 * (L 1).val + (L 0).val

/-- The elements of the result that lie in a 160-row block handled by worker `n`. -/
def rowsOf (n : Nat) : Finset S100000x64.Idx := Finset.univ.filter fun j => ((j 0).val / 160) % 32 = n
/-- The elements of the result in the 160-row block number `b`. -/
def blkSet (b : Nat) : Finset S100000x64.Idx := Finset.univ.filter fun j => (j 0).val / 160 = b
/-- The elements of the result handled by SparseCore `c`'s workers: the blocks of parity `c`. -/
def coreRows (c : Nat) : Finset S100000x64.Idx := Finset.univ.filter fun j => ((j 0).val / 160) % 2 = c

section Spec

variable [FloatOps F]

local notation "𝕄" => MT nD τ sig (HIx 1) (Elt F) ℕ UU ℕ

/-- What one vector subcore's task does, stated once for the launch to use: from a read share of the packed words
    (every word below 512) and of the flat table, and its own rows of the result, it ends with its rows at the
    table row the packed word names; its scratch and semaphores are handed back. -/
def TileSpec : Prop :=
  ∀ (d : Dev nD) (L : grid0.Coords) (O : CellTallies nD τ sig (HIx 1)) (W : Waits sig (HIx 1)) (_ : ∀ g, O g none = 0)
    (q : PosShare TreeShare) (xp : Buf (Elt F) (pLoc d)) (w : Buf (Elt F) (wLoc d)) (o0 : Buf (Elt F) (oLoc d))
    (_ : ∀ n : S100000.Idx, (xp n).toNat < 512),
    (iprop(levAts (K (F := F)).L (K (F := F)).lev ∗ emp
        ∗ ((pLoc d ↦{q} xp) ∗ (wLoc d ↦{q} w) ∗ (oLoc d ↦[rowsOf (wid L)]{fullShare} o0))
        ∗ scopedBufs (thr d L) ∗ scopedSems0 (thr d L) ∗ owes (thr d L) O W) : sProp 𝕄)
      ⊢ wp frame (wpE (defs₀ (F := F)) 𝒱₀ (thr d L) none) Set.univ
          (cc0__body L (Memref.whole main_v15_scv) (Memref.isWhole_whole _) (Memref.whole main_v8_scv) (Memref.isWhole_whole _)
            (Memref.whole main_v16_scv) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) (Memref.whole cc0_scratch5) (Memref.isWhole_whole _)
            cc0_scratch6 cc0_scratch7 cc0_scratch8 cc0_scratch9 cc0_scoped0)
          fun _ => iprop((oLoc d ↦[rowsOf (wid L)]{fullShare} (Cert.Spec.kerOut (F := F) w xp : Buf (Elt F) (oLoc d)))
            ∗ scopedBufs (thr d L) ∗ scopedSems0 (thr d L)
            ∗ ∃ W', ⌜∀ p ∈ W', p ∈ W ∨ p.2 = none⌝ ∗ owes (thr d L) O W')

end Spec

end Cert.Kernel.KC

end
-- ==== Proof.KLaunchB.lean ====
/-
  The launch of the kernel program: what the one call hands each SparseCore and each of its vector subcores
  (a read share of the packed words and of the flat table, and the rows of the result that are theirs), how
  those pieces split and join, the host operations before the call, and the program's run.
-/
import proofs.«207339_g86234353369688_cont_sun_m_1071_33_alg».proof.Proof.KCommonB
import proofs.«207339_g86234353369688_cont_sun_m_1071_33_alg».proof.Proof.HostKB
import Idealize.ShloMosaic.Lib.Transfers
import Idealize.ShloMosaic.Lib.Pipeline.Frame

noncomputable section

namespace Cert.Kernel.KL

open Cert.Kernel Cert.Kernel.Gen Cert.Kernel.KC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section L

variable (m : (ℓ : Loc nD τ sig) → Buf (Elt F) ℓ) (ρ : Dev nD → PrngReg)

variable [FloatOps F]

/-! ## The contents the call works on -/

/-- The packed words, the flat table, the result at launch and the result the call leaves, on device `d`. -/
def xpM (d : Dev nD) : Buf (Elt F) (pLoc d) := HostK.xpOf (m ((SparseCore.T d).loc main_arg0))
def wM (d : Dev nD) : Buf (Elt F) (wLoc d) :=
  HostK.wsmOf (m ((SparseCore.T d).loc main_arg1)) (m ((SparseCore.T d).loc main_arg2)) (m ((SparseCore.T d).loc main_arg3))
    (m ((SparseCore.T d).loc main_arg4)) (m ((SparseCore.T d).loc main_arg5)) (m ((SparseCore.T d).loc main_arg6))
    (m ((SparseCore.T d).loc main_arg7)) (m ((SparseCore.T d).loc main_arg8)) (m ((SparseCore.T d).loc main_arg9))
def o0M (d : Dev nD) : Buf (Elt F) (oLoc d) := m (oLoc d)
def gM (d : Dev nD) : Buf (Elt F) (oLoc d) := Cert.Spec.kerOut (F := F) (wM m d) (xpM m d)

/-- The read share of SparseCore `c`, and of its vector subcore `i`. -/
abbrev qc (c : ℕ) : PosShare TreeShare := Transfers.shareTokN fullShare c
abbrev qt (c i : ℕ) : PosShare TreeShare := Transfers.shareTokN (qc c) i

/-! ## What the handshakes carry -/

def stA (d : Dev nD) (c : ℕ) : sProp 𝕄 :=
  iprop((pLoc d ↦{qc c} xpM m d) ∗ (wLoc d ↦{qc c} wM m d) ∗ (oLoc d ↦[coreRows c]{fullShare} o0M m d))
def dnA (d : Dev nD) (c : ℕ) : sProp 𝕄 := oLoc d ↦[coreRows c]{fullShare} gM m d
def goA (d : Dev nD) (c i : ℕ) : sProp 𝕄 :=
  iprop((pLoc d ↦{qt c i} xpM m d) ∗ (wLoc d ↦{qt c i} wM m d) ∗ (oLoc d ↦[rowsOf (2 * i + c)]{fullShare} o0M m d))
def tdA (d : Dev nD) (c i : ℕ) : sProp 𝕄 := oLoc d ↦[rowsOf (2 * i + c)]{fullShare} gM m d

instance stA_storable (d : Dev nD) (c : ℕ) : BI.Storable (upEmb : UEmb _ 𝕄) (stA m d c) := by unfold stA; infer_instance
instance dnA_storable (d : Dev nD) (c : ℕ) : BI.Storable (upEmb : UEmb _ 𝕄) (dnA m d c) := by unfold dnA; infer_instance
instance goA_storable (d : Dev nD) (c i : ℕ) : BI.Storable (upEmb : UEmb _ 𝕄) (goA m d c i) := by unfold goA; infer_instance
instance tdA_storable (d : Dev nD) (c i : ℕ) : BI.Storable (upEmb : UEmb _ 𝕄) (tdA m d c i) := by unfold tdA; infer_instance

/-- The one call: each SparseCore takes a read share of the packed words and of the flat table and the result's
    blocks of its parity, each vector subcore a share of the two and its own blocks; the blocks come back written. -/
def P : (K (F := F)).Pay (nD := nD) (Val := Elt F) (Name := ℕ) (U := UU) where
  st := fun _ d c => stA m d c.val
  dn := fun _ d c => dnA m d c.val
  go := fun _ d c i => goA m d c.val i.val
  td := fun _ d c i => tdA m d c.val i.val
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The rows of the result, dealt among the SparseCores and their vector subcores -/

omit [FloatOps F] in
theorem rows_disjoint (c : ℕ) : ∀ i ∈ (Finset.univ : Finset (Fin 16)), ∀ j ∈ (Finset.univ : Finset (Fin 16)), i ≠ j →
    Disjoint (rowsOf (2 * i.val + c)) (rowsOf (2 * j.val + c)) := by
  intro i _ j _ hij
  unfold rowsOf
  refine Finset.disjoint_filter.mpr fun x _ h1 h2 => hij (Fin.ext ?_)
  omega

omit [FloatOps F] in
theorem rows_cover (c : ℕ) (hc : c < 2) : (Finset.univ : Finset (Fin 16)).biUnion (fun i => rowsOf (2 * i.val + c)) = coreRows c := by
  ext x
  simp only [Finset.mem_biUnion, Finset.mem_univ, true_and, rowsOf, coreRows, Finset.mem_filter]
  constructor
  · rintro ⟨i, hi⟩; omega
  · intro h
    exact ⟨⟨(((x 0).val / 160) % 32) / 2, by omega⟩, by simp only []; omega⟩

omit [FloatOps F] in
theorem cores_disjoint : ∀ i ∈ (Finset.univ : Finset (Fin 2)), ∀ j ∈ (Finset.univ : Finset (Fin 2)), i ≠ j →
    Disjoint (coreRows i.val) (coreRows j.val) := by
  intro i _ j _ hij
  unfold coreRows
  refine Finset.disjoint_filter.mpr fun x _ h1 h2 => hij (Fin.ext ?_)
  omega

omit [FloatOps F] in
theorem cores_cover : (Finset.univ : Finset (Fin 2)).biUnion (fun c => coreRows c.val) = Finset.univ := by
  ext x
  simp only [Finset.mem_biUnion, Finset.mem_univ, true_and, coreRows, Finset.mem_filter, iff_true]
  exact ⟨⟨((x 0).val / 160) % 2, by omega⟩, rfl⟩

omit [FloatOps F] in
/-- A SparseCore's blocks are its sixteen vector subcores' blocks. -/
theorem oCore_rows (d : Dev nD) (c : ℕ) (hc : c < 2) (f : Buf (Elt F) (oLoc d)) :
    (oLoc d ↦[coreRows c]{fullShare} f : sProp 𝕄) = bigSep Finset.univ fun i : Fin 16 => oLoc d ↦[rowsOf (2 * i.val + c)]{fullShare} f := by
  rw [← pointsTo_biUnion Finset.univ (ℓ := oLoc d) (fun i : Fin 16 => rowsOf (2 * i.val + c)) (rows_disjoint c), rows_cover c hc]

omit [FloatOps F] in
/-- The whole result is the two SparseCores' blocks. -/
theorem oAll_cores (d : Dev nD) (f : Buf (Elt F) (oLoc d)) :
    (oLoc d ↦{fullShare} f : sProp 𝕄) = bigSep Finset.univ fun c : Fin 2 => oLoc d ↦[coreRows c.val]{fullShare} f := by
  rw [← pointsTo_biUnion Finset.univ (ℓ := oLoc d) (fun c : Fin 2 => coreRows c.val) cores_disjoint, cores_cover]; try rfl

/-! ## The launch theorem's obligations -/

theorem defs₀_vector (c : Fin τ.nSC) (s : Fin τ.nSub) :
    defs₀ (F := F) (.scVector c s) 0 ()
      = SparseCore.onTile hcore0 hsub0 (fun c s => cc0__body (coordsV c s)
          (Memref.whole main_v15_scv) (Memref.isWhole_whole _) (Memref.whole main_v8_scv) (Memref.isWhole_whole _)
          (Memref.whole main_v16_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          (Memref.whole cc0_scratch4) (Memref.isWhole_whole _) (Memref.whole cc0_scratch5) (Memref.isWhole_whole _)
          cc0_scratch6 cc0_scratch7 cc0_scratch8 cc0_scratch9 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every word of the packed array names a row of the 512-row table. -/
def PreOK : Prop := ∀ (d : Dev nD) (n : S100000.Idx), (xpM m d n).toNat < 512

theorem tileObl (hT : KC.TileSpec (F := F)) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hT d (coordsV ⟨_, hc.1⟩ ⟨_, hc.2⟩) O W hO (qt c.val i.val) (xpM m d) (wM m d) (o0M m d) (hpre d)).trans (wp_mono frame _ _ fun _ => obl_post)

theorem vecSplit : (K (F := F)).VecSplit' (P m) 0 := by
  intro d c
  have hc : c.val < 2 := c.isLt
  show stA m d c.val ⊢ |={Set.univ}=> iprop(
      (bigSep Finset.univ fun i : Fin 16 => goA m d c.val i.val)
      ∗ ((bigSep Finset.univ fun i : Fin 16 => tdA m d c.val i.val) -∗ dnA m d c.val))
  unfold stA goA tdA dnA
  rw [bigSep_sep', bigSep_sep', oCore_rows d c.val hc, oCore_rows d c.val hc]
  iintro ⟨Hp, Hw, Ho⟩
  ihave Hp' := (Transfers.pointsTo_toks_split (qc c.val) 16) $$ Hp
  icases Hp' with ⟨-, Hp⟩
  ihave Hw' := (Transfers.pointsTo_toks_split (qc c.val) 16) $$ Hw
  icases Hw' with ⟨-, Hw⟩
  imodintro
  isplitl [Hp Hw Ho]
  · isplitl [Hp]; · iexact Hp
    isplitl [Hw]; · iexact Hw
    iexact Ho
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev p' : DevRef τ sig := Proc.devRef .tc (main_v15 : Ref sig .tc)
abbrev w' : DevRef τ sig := Proc.devRef .tc (main_v8 : Ref sig .tc)
abbrev o' : DevRef τ sig := Proc.devRef .tc (main_v16 : Ref sig .tc)
abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev a6' : DevRef τ sig := Proc.devRef .tc (main_arg6 : Ref sig .tc)
abbrev a7' : DevRef τ sig := Proc.devRef .tc (main_arg7 : Ref sig .tc)
abbrev a8' : DevRef τ sig := Proc.devRef .tc (main_arg8 : Ref sig .tc)
abbrev a9' : DevRef τ sig := Proc.devRef .tc (main_arg9 : Ref sig .tc)

/-- The ten arguments; with them the packed words, the flat table and the result. -/
abbrev A10 : Finset (DevRef τ sig) := {a0', a1', a2', a3', a4', a5', a6', a7', a8', a9'}
abbrev T13 : Finset (DevRef τ sig) := insert p' (insert w' (insert o' A10))

omit [FloatOps F] in
theorem T13_sub : T13 ⊆ Pipeline.ucRefs τ sig := by
  intro b hb
  simp only [T13, A10, Finset.mem_insert, Finset.mem_singleton] at hb
  rcases hb with rfl | rfl | rfl | rfl | rfl | rfl | rfl | rfl | rfl | rfl | rfl | rfl | rfl <;>
    exact Finset.mem_filter.mpr ⟨StableHlo.devRef_mem_tcRefs _, by decide⟩

omit [FloatOps F] in
theorem held_T13 (d : Dev nD) (W : Valuation τ sig (Elt F)) :
    (StableHlo.held (T d) T13 W : sProp 𝕄)
      = iprop((pLoc d ↦{fullShare} W p') ∗ (wLoc d ↦{fullShare} W w') ∗ (oLoc d ↦{fullShare} W o') ∗ StableHlo.held (T d) A10 W) := by
  unfold StableHlo.held T13
  rw [SparseCore.bigSep_insert' (by decide), SparseCore.bigSep_insert' (by decide), SparseCore.bigSep_insert' (by decide)]

/-- The launch valuation of device `d`. -/
abbrev V0 (d : Dev nD) : Valuation τ sig (Elt F) := StableHlo.launchContents m d

theorem host_sub : ∀ op ∈ HostK.hostOps (F := F), op.bufs ⊆ Pipeline.ucRefs τ sig := by
  have h : (HostK.hostOps (F := F)).Forall fun op => op.bufs ⊆ StableHlo.tcRefs τ sig :=
    ⟨StableHlo.unary_bufs_sub .., StableHlo.unary_bufs_sub .., StableHlo.unary_bufs_sub .., StableHlo.unary_bufs_sub ..,
      StableHlo.unary_bufs_sub .., StableHlo.unary_bufs_sub .., StableHlo.unary_bufs_sub .., StableHlo.nary_bufs_sub ..,
      StableHlo.reshape_bufs_sub .., StableHlo.nullary_bufs_sub .., StableHlo.nullary_bufs_sub .., StableHlo.unary_bufs_sub ..,
      StableHlo.binary_bufs_sub .., StableHlo.unary_bufs_sub .., StableHlo.unary_bufs_sub .., StableHlo.binary_bufs_sub ..,
      StableHlo.nullary_bufs_sub .., StableHlo.binary_bufs_sub ..⟩
  exact fun op hop => Pipeline.sub_ucRefs op (List.forall_iff_forall_mem.1 h op hop)

theorem host_fresh : ∀ op ∈ HostK.hostOps (F := F), op.fresh = ∅ := by
  intro _ h; (repeat (cases h with | head => rfl | tail _ h => ?_)); exact nomatch h

theorem after_o (W : Valuation τ sig (Elt F)) : StableHlo.after (HostK.hostOps (F := F)) W o' = W o' := by
  after_results

theorem after_A10 (W : Valuation τ sig (Elt F)) : ∀ b ∈ A10, StableHlo.after (HostK.hostOps (F := F)) W b = W b := by
  intro b hb
  simp only [A10, Finset.mem_insert, Finset.mem_singleton] at hb
  rcases hb with rfl | rfl | rfl | rfl | rfl | rfl | rfl | rfl | rfl | rfl
  · exact HostK.after_arg0 W
  · exact HostK.after_arg1 W
  · exact HostK.after_arg2 W
  · exact HostK.after_arg3 W
  · exact HostK.after_arg4 W
  · exact HostK.after_arg5 W
  · exact HostK.after_arg6 W
  · exact HostK.after_arg7 W
  · exact HostK.after_arg8 W
  · exact HostK.after_arg9 W

theorem after_p (d : Dev nD) : StableHlo.after (HostK.hostOps (F := F)) (V0 m d) p' = xpM m d := HostK.after_v15 (V0 m d)
theorem after_w (d : Dev nD) : StableHlo.after (HostK.hostOps (F := F)) (V0 m d) w' = wM m d := HostK.after_v8 (V0 m d)

/-- What the call takes for the two SparseCores, and what it hands back. -/
theorem st0_eq (d : Dev nD) : (bigSep Finset.univ fun c : Fin ((K (F := F)).nCore 0) => (P m).st 0 d c)
    = iprop((bigSep Finset.univ fun c : Fin 2 => pLoc d ↦{qc c.val} xpM m d) ∗ (bigSep Finset.univ fun c : Fin 2 => wLoc d ↦{qc c.val} wM m d)
        ∗ bigSep Finset.univ fun c : Fin 2 => oLoc d ↦[coreRows c.val]{fullShare} o0M m d) := by
  show (bigSep (Finset.univ : Finset (Fin 2)) fun c => stA m d c.val) = _
  unfold stA
  rw [bigSep_sep', bigSep_sep']
theorem dn0_eq (d : Dev nD) : (bigSep Finset.univ fun c : Fin ((K (F := F)).nCore 0) => (P m).dn 0 d c) = (oLoc d ↦{fullShare} gM m d : sProp 𝕄) := by
  show (bigSep (Finset.univ : Finset (Fin 2)) fun c => dnA m d c.val) = _
  unfold dnA
  rw [oAll_cores]

/-- What @main leaves the claim: the result at the kernel's value, the ten arguments at their launch contents. -/
abbrev FIN (d : Dev nD) : sProp 𝕄 := iprop((oLoc d ↦{fullShare} gM m d) ∗ StableHlo.held (T d) A10 (V0 m d))

/-- After the host operations: the packed words, the flat table, the result as launched, the ten arguments, and the rest. -/
theorem held_after (d : Dev nD) :
    (StableHlo.held (d.tc : Thread nD τ) (Pipeline.ucRefs τ sig) (StableHlo.after (HostK.hostOps (F := F)) (V0 m d)) : sProp 𝕄)
      = iprop(((pLoc d ↦{fullShare} xpM m d) ∗ (wLoc d ↦{fullShare} wM m d) ∗ (oLoc d ↦{fullShare} o0M m d) ∗ StableHlo.held (T d) A10 (V0 m d))
          ∗ StableHlo.held (d.tc : Thread nD τ) (Pipeline.ucRefs τ sig \ T13) (StableHlo.after (HostK.hostOps (F := F)) (V0 m d))) := by
  rw [StableHlo.held_sub_split _ T13_sub, held_T13, after_p, after_w, after_o, StableHlo.held_congr _ (after_A10 (V0 m d))]
  rfl

/-- The one call and the return, from the packed words, the flat table and the result; the arguments carried along. -/
theorem hcall (κ : GSem nD τ sig → ℕ) (d : Dev nD) :
    iprop((K (F := F)).ctx EH (P m) κ ∗ (K (F := F)).tcSt EH d 0
        ∗ (pLoc d ↦{fullShare} xpM m d) ∗ (wLoc d ↦{fullShare} wM m d) ∗ (oLoc d ↦{fullShare} o0M m d) ∗ StableHlo.held (T d) A10 (V0 m d))
      ⊢ wp frame (wpE ((K (F := F)).defs (D (F := F))) 𝒱 (SparseCore.T d) none) Set.univ
          ((sc (F := F)).run d 0 >>= fun _ => pure PUnit.unit : Prog (TpuEff nD τ sig (Elt F) (SparseCore.Sig (ΛP (F := F)) 1) .tc) PUnit)
          fun _ => iprop((K (F := F)).tcSt EH d 1 ∗ FIN m d) := by
  simp only [wp_bind, wp_pure]
  iintro ⟨#Hctx, Hst, Hp, Hw, Ho, HA⟩
  ihave Hp' := (Transfers.pointsTo_toks_split fullShare 2) $$ Hp
  icases Hp' with ⟨-, Hp⟩
  ihave Hw' := (Transfers.pointsTo_toks_split fullShare 2) $$ Hw
  icases Hw' with ⟨-, Hw⟩
  ihave Ho' := (Entails.of_eq (oAll_cores (F := F) d _)) $$ Ho
  iapply ((K (F := F)).wp_run (D (F := F)) 𝒱 (EH := EH) (P := P m) κ d 0) $$ [Hst Hp Hw Ho' HA]
  isplitr; · iexact Hctx
  isplitl [Hst]; · iexact Hst
  isplitl [Hp Hw Ho']
  · rw [st0_eq]
    isplitl [Hp]; · iexact Hp
    isplitl [Hw]; · iexact Hw
    iexact Ho'
  iintro ⟨Hst, Hdn⟩
  ihave Hdn' := (Entails.of_eq (dn0_eq m d)) $$ Hdn
  imodintro
  isplitl [Hst]; · iexact Hst
  isplitl [Hdn']; · iexact Hdn'
  iexact HA

set_option backward.isDefEq.respectTransparency.types false in
/-- @main on device `d`'s TensorCore: the eighteen host operations, then the one call; the arguments kept, the result
    at the kernel's value. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [show (unscopedBufs d (fun b => m ((SparseCore.T d).loc b)) : sProp 𝕄) = StableHlo.held (d.tc : Thread nD τ) (Pipeline.ucRefs τ sig) (V0 m d)
      from Pipeline.unscopedBufs_held (Ix := HIx 1) (Name := ℕ) (U := UU) (Lvl := ℕ) d (V0 m d), HostK.main_eq]
  iintro ⟨#Hctx, Hst, ⟨Hb, Hheld, -, -⟩, -⟩
  iapply (StableHlo.wp_seq 𝒱 none Set.univ d (Pipeline.ucRefs τ sig) _ (HostK.hostOps (F := F)) host_sub host_fresh (V0 m d)) $$ [Hb Hheld]
  · isplitl [Hb]; · iexact Hb
    iexact Hheld
  iintro ⟨Hb, Hheld⟩
  ihave Hh := (Entails.of_eq (held_after m d)) $$ Hheld
  icases Hh with ⟨⟨Hp, Hw, Ho, HA⟩, -⟩
  iapply (hcall m κ d)
  isplitr; · iexact Hctx
  isplitl [Hst]; · iexact Hst
  isplitl [Hp]; · iexact Hp
  isplitl [Hw]; · iexact Hw
  isplitl [Ho]; · iexact Ho
  iexact HA

def fq (d : Dev nD) (s' : Phys nD τ sig (Elt F)) : Prop :=
  s'.mem.mem (oLoc d) = gM m d ∧ ∀ b ∈ A10, s'.mem.mem (d, b) = V0 m d b

theorem hfin (d : Dev nD) (s' : Phys nD τ sig (Elt F)) : iprop(FIN m d ∗ SI s') ⊢ (⌜fq m d s'⌝ : sProp 𝕄) := by
  show iprop(((oLoc d ↦{fullShare} gM m d) ∗ bigSep A10 fun b => ((d, b) : Loc nD τ sig) ↦{fullShare} V0 m d b) ∗ SI s') ⊢ _
  iintro ⟨⟨Ho, HA⟩, HSI⟩
  ihave H := (persistent_entails_right (SI_pointsTo_agree (st := s') (ℓ := oLoc d) (I := Finset.univ) (q := fullShare) (f := gM m d))) $$ [HSI Ho]
  · isplitl [HSI] <;> iassumption
  icases H with ⟨%h1, HSI, -⟩
  ihave H := (SI_pointsTo_bufs_agree (st := s') (c := d) (qs := fun _ => fullShare) (F := V0 m d) A10) $$ [HSI HA]
  · isplitl [HSI]; · iexact HSI
    iexact HA
  icases H with %h2
  ipureintro; exact ⟨funext fun i => h1 i (Finset.mem_univ i), h2⟩

end L

variable [FloatOps F]

/-! ## The program's run -/

/-- Every weakly fair execution of the kernel program's threads terminates with the result at the kernel's value
    (row `xp[n]` of the 512-row table) and the ten arguments unchanged, given the vector subcore's task and that every
    packed word names a row of that table. -/
theorem run_main [∀ e, Nonempty (Elt F e)] (hT : KC.TileSpec (F := F)) (m : (ℓ : Loc nD τ sig) → Buf (Elt F) ℓ) (ρ : Dev nD → PrngReg)
    (hxp : ∀ (d : Dev nD) (n : S100000.Idx), (HostK.xpOf (m ((SparseCore.T d).loc main_arg0)) n).toNat < 512) :
    θ_run (Cert.Kernel.defs (F := F)) (Cert.Kernel.threads (F := F)) ⟨m, fun _ => 0, ρ⟩
      (fun r => ∀ c : Dev nD,
        r.2.mem ((c.tc : Thread nD τ).loc main_v16)
            = Cert.Spec.kerOut (F := F) (HostK.wsmOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (HostK.xpOf (m ((c.tc : Thread nD τ).loc main_arg0)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)) :=
  SparseCore.Cfg.θ_run_sc (K := K (F := F)) (D := D (F := F)) (𝒱 := 𝒱) (EH := EH) (P := P m) facts v₀
    (fun q hq => match q with | 0 => nomatch hq)
    (fun q _ => match q with | 0 => tileObl m hT hxp)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun s' h c => ⟨(h c).1, (h c).2 a0' (by decide), (h c).2 a1' (by decide), (h c).2 a2' (by decide), (h c).2 a3' (by decide), (h c).2 a4' (by decide), (h c).2 a5' (by decide), (h c).2 a6' (by decide), (h c).2 a7' (by decide), (h c).2 a8' (by decide), (h c).2 a9' (by decide)⟩)

end Cert.Kernel.KL

end
-- ==== Proof.KInv.lean ====
/-
  What the vector subcore's scratch buffers hold, as predicates on their contents.

  The table scratch (32768 words = 512 rows of 64 lanes) is built row by row: `LutOK w n f` says its first `n` rows
  are rows `0 … n-1` of the table `Spec.lutRow w`.  An index scratch holds one 160-word block of the packed words:
  `XvOK xp b xv`.  A staging buffer (160 rows of 64 lanes) is filled row by row with the table rows the block's packed
  words name: `OutOK w xp b n f` says its first `n` rows are done.
-/
import proofs.«207339_g86234353369688_cont_sun_m_1071_33_alg».proof.Proof.KCommon
import proofs.«207339_g86234353369688_cont_sun_m_1071_33_alg».proof.Proof.Spec

noncomputable section

namespace Cert.KernelIdeal.KC

open Cert.KernelIdeal Cert.KernelIdeal.Gen
open Idealize.ShloMosaic Idealize.ShloMosaic.ValueIdx

variable {F : FTy → Type} [FloatOps F]

/-- The first `n` rows of the table scratch are the table's. -/
def LutOK (w : Cert.Spec.SW.Idx → F .f32) (n : Nat) (f : S32768.Idx → F .f32) : Prop :=
  ∀ y : S32768.Idx, (y 0).val < 64 * n → f y = Cert.Spec.lutRow w ((y 0).val / 64) ((y 0).val % 64)

/-- The index scratch holds block `b` (160 words) of the packed words. -/
def XvOK (xp : S100000.Idx → BitVec 32) (b : Nat) (xv : S160.Idx → BitVec 32) : Prop :=
  ∀ r : S160.Idx, ∃ n : S100000.Idx, (n 0).val = 160 * b + (r 0).val ∧ xv r = xp n

/-- The first `n` rows of a staging buffer are the table rows named by block `b`'s packed words. -/
def OutOK (w : Cert.Spec.SW.Idx → F .f32) (xp : S100000.Idx → BitVec 32) (b n : Nat) (f : S160x64.Idx → F .f32) : Prop :=
  ∀ y : S160x64.Idx, (y 0).val < n →
    ∃ m : S100000.Idx, (m 0).val = 160 * b + (y 0).val ∧ f y = Cert.Spec.lutRow w (xp m).toNat (y 1).val

end Cert.KernelIdeal.KC

end
-- ==== Proof.KConds.lean ====
/-
  Closed forms of the ring loop's conditions and of the two offset chains taken under them.

  A grid point `L` is worker `2 * (L 1) + (L 0)` of 32; it handles the blocks `wid + 32 * k` for `k < nblk`,
  where `nblk` is 20 for `wid ≤ 16` and 19 otherwise.  Trip `t` of the ring loop handles the blocks
  `k = 2 * t` and `k = 2 * t + 1`; its conditions compare `k`, `k + 1`, `k + 2`, `k + 3` with `nblk` and
  `k` with 2.  Each statement is over the 32 grid points and the 10 trips, and is decided by evaluation.
-/
import proofs.«207339_g86234353369688_cont_sun_m_1071_33_alg».proof.Proof.Gen.KernelIdeal

set_option Elab.async false

namespace Cert.KernelIdeal.KConds

open Idealize.ShloMosaic Idealize.SL.Sem

theorem trips9 : k0_t9_loop.trips = 10 := by decide +kernel
theorem trips10 : k0_t10_loop.trips = 10 := by decide +kernel
theorem trips11 : k0_t11_loop.trips = 10 := by decide +kernel
theorem trips1 : k0_t1_loop.trips = 2 := by decide +kernel
theorem trips2 : k0_t2_loop.trips = 4 := by decide +kernel
theorem trips3 : k0_t3_loop.trips = 8 := by decide +kernel
theorem trips4 : k0_t4_loop.trips = 16 := by decide +kernel
theorem trips5 : k0_t5_loop.trips = 32 := by decide +kernel
theorem trips6 : k0_t6_loop.trips = 64 := by decide +kernel
theorem trips7 : k0_t7_loop.trips = 128 := by decide +kernel
theorem trips8 : k0_t8_loop.trips = 256 := by decide +kernel

/-- Block `2 * t` is always one of the worker's. -/
theorem cond1_true : ∀ (L : grid0.Coords) (t : Fin k0_t9_loop.trips), k0_cond1 L t = 1#1 := by
  decide +kernel

/-- `2 * t ≥ 2`. -/
theorem cond2_iff : ∀ (t : Fin k0_t9_loop.trips), k0_cond2 t = 1#1 ↔ 1 ≤ t.val := by
  decide +kernel

/-- `2 * t + 2 < nblk`. -/
theorem cond3_iff : ∀ (L : grid0.Coords) (t : Fin k0_t9_loop.trips), k0_cond3 L t = 1#1 ↔ t.val ≤ 8 := by
  decide +kernel

/-- `2 * t + 1 < nblk`. -/
theorem cond4_iff : ∀ (L : grid0.Coords) (t : Fin k0_t9_loop.trips),
    k0_cond4 L t = 1#1 ↔ (t.val ≤ 8 ∨ 2 * (L 1).val + (L 0).val ≤ 16) := by
  decide +kernel

/-- `2 * t + 1 ≥ 2`. -/
theorem cond5_iff : ∀ (t : Fin k0_t9_loop.trips), k0_cond5 t = 1#1 ↔ 1 ≤ t.val := by
  decide +kernel

/-- `2 * t + 3 < nblk`. -/
theorem cond6_iff : ∀ (L : grid0.Coords) (t : Fin k0_t9_loop.trips),
    k0_cond6 L t = 1#1 ↔ (t.val ≤ 7 ∨ (t.val = 8 ∧ 2 * (L 1).val + (L 0).val ≤ 16)) := by
  decide +kernel

/-- The rows written back for block `2 * t - 2`: `160 * (wid + 32 * (2 * t - 2))`. -/
theorem off21_eq : ∀ (L : grid0.Coords) (t : Fin k0_t9_loop.trips), 1 ≤ t.val →
    k0_off21 L t = ![320 * (L 1).val + 160 * (L 0).val + 10240 * t.val - 10240, 0] := by
  decide +kernel

/-- The rows written back for block `2 * t - 1`: `160 * (wid + 32 * (2 * t - 1))`. -/
theorem off106_eq : ∀ (L : grid0.Coords) (t : Fin k0_t9_loop.trips), 1 ≤ t.val →
    k0_off106 L t = ![320 * (L 1).val + 160 * (L 0).val + 10240 * t.val - 5120, 0] := by
  decide +kernel

end Cert.KernelIdeal.KConds
-- ==== Proof.KTile1.lean ====
/-
  The ring of transfers one vector subcore runs, as an invariant.

  Worker `n = wid L` handles the 160-row blocks `n + 32 k` of the result, `k < 20` (or `< 19` when `n > 16`).
  It runs them two at a time: ring step `s` (`s < 10`) handles the EVEN-numbered block `n + 64 s` through the index
  scratch 0 and the staging buffer 0, and the ODD-numbered block `n + 64 s + 32` (there are `nOdd` of those) through
  scratch 1 and buffer 1.  Before step `s`: the packed words of both blocks are in flight into the index scratches,
  the staging buffers' copies of step `s - 1` are in flight into the result, the blocks of earlier steps have landed
  and hold the result's rows, the blocks from step `s` on are untouched.
-/
import proofs.«207339_g86234353369688_cont_sun_m_1071_33_alg».proof.Proof.KCommon
import proofs.«207339_g86234353369688_cont_sun_m_1071_33_alg».proof.Proof.KInv
import proofs.«207339_g86234353369688_cont_sun_m_1071_33_alg».proof.Proof.KConds

noncomputable section

namespace Cert.KernelIdeal.KT

open Cert.KernelIdeal Cert.KernelIdeal.Gen Cert.KernelIdeal.KC Cert.KernelIdeal.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.KernelIdeal.main_v15_scv : Memref Cert.KernelIdeal.sig Kind.scVector Space.hbm Cert.KernelIdeal.S100000 EltTy.i32)
local notation "wW" => (Memref.whole Cert.KernelIdeal.main_v8_scv : Memref Cert.KernelIdeal.sig Kind.scVector Space.hbm Cert.KernelIdeal.S1152 EltTy.f32)
local notation "oW" => (Memref.whole Cert.KernelIdeal.main_v16_scv : Memref Cert.KernelIdeal.sig Kind.scVector Space.hbm Cert.KernelIdeal.S100000x64 EltTy.f32)
local notation "b0" => (Memref.whole Cert.KernelIdeal.cc0_scratch0 : Memref Cert.KernelIdeal.sig Kind.scVector Space.vmem Cert.KernelIdeal.S160 EltTy.i32)
local notation "b1" => (Memref.whole Cert.KernelIdeal.cc0_scratch1 : Memref Cert.KernelIdeal.sig Kind.scVector Space.vmem Cert.KernelIdeal.S160 EltTy.i32)
local notation "b2" => (Memref.whole Cert.KernelIdeal.cc0_scratch2 : Memref Cert.KernelIdeal.sig Kind.scVector Space.vmem Cert.KernelIdeal.S1152 EltTy.f32)
local notation "b3" => (Memref.whole Cert.KernelIdeal.cc0_scratch3 : Memref Cert.KernelIdeal.sig Kind.scVector Space.vmem Cert.KernelIdeal.S32768 EltTy.f32)
local notation "b4" => (Memref.whole Cert.KernelIdeal.cc0_scratch4 : Memref Cert.KernelIdeal.sig Kind.scVector Space.vmem Cert.KernelIdeal.S160x64 EltTy.f32)
local notation "b5" => (Memref.whole Cert.KernelIdeal.cc0_scratch5 : Memref Cert.KernelIdeal.sig Kind.scVector Space.vmem Cert.KernelIdeal.S160x64 EltTy.f32)

variable [FloatOps F]
variable (d : Dev nD) (L : grid0.Coords)

/-- How many odd-numbered blocks the worker has. -/
def nOdd (L : grid0.Coords) : Nat := if wid L ≤ 16 then 10 else 9

theorem nOdd_le (L : grid0.Coords) : nOdd L ≤ 10 := by unfold nOdd; split <;> omega
theorem nOdd_ge (L : grid0.Coords) : 9 ≤ nOdd L := by unfold nOdd; split <;> omega
theorem wid_lt (L : grid0.Coords) : wid L < 32 := by
  unfold wid; have h0 : (L 0).val < 2 := (L 0).isLt; have h1 : (L 1).val < 16 := (L 1).isLt; omega

/-- The block number of ring step `s`: the even-numbered one, the odd-numbered one. -/
abbrev bE (L : grid0.Coords) (s : Nat) : Nat := wid L + 64 * s
abbrev bO (L : grid0.Coords) (s : Nat) : Nat := wid L + 64 * s + 32

variable (q : PosShare TreeShare) (xp : Buf (Elt F) (pLoc d)) (w : Buf (Elt F) (wLoc d)) (o0 : Buf (Elt F) (oLoc d))
variable (O : CellTallies nD τ sig (HIx 1)) (W : Waits sig (HIx 1)) (lut : S32768.Idx → F .f32)

/-- The rows the kernel must leave in the result. -/
abbrev G (d : Dev nD) (w : Buf (Elt F) (wLoc d)) (xp : Buf (Elt F) (pLoc d)) : Buf (Elt F) (oLoc d) := Cert.Spec.kerOut (F := F) w xp

/-- What a landing copy delivers: the index scratch at a block of the packed words; the staging buffer back and the
    result's block at the result's rows. -/
abbrev DX0 (s : Nat) : sProp 𝕄 := iprop(∃ xv, ((b0).view.loc (thr d L) ↦{fullShare} xv) ∗ ⌜KC.XvOK xp (bE L s) xv⌝)
abbrev DX1 (s : Nat) : sProp 𝕄 := iprop(∃ xv, ((b1).view.loc (thr d L) ↦{fullShare} xv) ∗ ⌜KC.XvOK xp (bO L s) xv⌝)
abbrev DO0 (s : Nat) : sProp 𝕄 := iprop((∃ f, (b4).view.loc (thr d L) ↦{fullShare} f) ∗ (oLoc d ↦[blkSet (bE L s)]{fullShare} G d w xp))
abbrev DO1 (s : Nat) : sProp 𝕄 := iprop((∃ f, (b5).view.loc (thr d L) ↦{fullShare} f) ∗ (oLoc d ↦[blkSet (bO L s)]{fullShare} G d w xp))

abbrev FX0 (s : Nat) : sProp 𝕄 := Transfers.Flight countersEmb (thr d L) (SemLoc.dma cc0_scratch6.sem) (default : HIx 1) 5120 (DX0 d L xp s)
abbrev FX1 (s : Nat) : sProp 𝕄 := Transfers.Flight countersEmb (thr d L) (SemLoc.dma cc0_scratch7.sem) (default : HIx 1) 5120 (DX1 d L xp s)
abbrev FO0 (s : Nat) : sProp 𝕄 := Transfers.Flight countersEmb (thr d L) (SemLoc.dma cc0_scratch8.sem) (default : HIx 1) 327680 (DO0 d L xp w s)
abbrev FO1 (s : Nat) : sProp 𝕄 := Transfers.Flight countersEmb (thr d L) (SemLoc.dma cc0_scratch9.sem) (default : HIx 1) 327680 (DO1 d L xp w s)

/-- The four semaphores before ring step `t`: a copy in flight, or the counter at zero beside the idle buffer. -/
def SX0 (t : Nat) : sProp 𝕄 :=
  if t < 10 then FX0 d L xp t else iprop(semVal (thr d L, SemLoc.dma cc0_scratch6.sem) 0 ∗ ∃ f, (b0).view.loc (thr d L) ↦{fullShare} f)
def SX1 (t : Nat) : sProp 𝕄 :=
  if t < nOdd L then FX1 d L xp t else iprop(semVal (thr d L, SemLoc.dma cc0_scratch7.sem) 0 ∗ ∃ f, (b1).view.loc (thr d L) ↦{fullShare} f)
def SO0 (t : Nat) : sProp 𝕄 :=
  if t = 0 then iprop(semVal (thr d L, SemLoc.dma cc0_scratch8.sem) 0 ∗ ∃ f, (b4).view.loc (thr d L) ↦{fullShare} f) else FO0 d L xp w (t - 1)
def SO1 (t : Nat) : sProp 𝕄 :=
  if t = 0 then iprop(semVal (thr d L, SemLoc.dma cc0_scratch9.sem) 0 ∗ ∃ f, (b5).view.loc (thr d L) ↦{fullShare} f) else FO1 d L xp w (min t (nOdd L) - 1)

/-- The ring's invariant before step `t`. The two families of read shares of the packed words are the ones the
    later steps' copies will lend. -/
def Iring (qa qb : PosShare TreeShare) (t : Nat) (_ : BitVec 32) : sProp 𝕄 :=
  iprop(Transfers.MayWaits (thr d L) (none : HIx 1) O
    ∗ ((b3).view.loc (thr d L) ↦{fullShare} lut)
    ∗ SX0 d L xp t ∗ SX1 d L xp t ∗ SO0 d L xp w t ∗ SO1 d L xp w t
    ∗ (bigSep (Finset.Ico t 10) fun s => oLoc d ↦[blkSet (bE L s)]{fullShare} o0)
    ∗ (bigSep (Finset.Ico t (nOdd L)) fun s => oLoc d ↦[blkSet (bO L s)]{fullShare} o0)
    ∗ (bigSep (Finset.range (t - 1)) fun s => oLoc d ↦[blkSet (bE L s)]{fullShare} G d w xp)
    ∗ (bigSep (Finset.range (min t (nOdd L) - 1)) fun s => oLoc d ↦[blkSet (bO L s)]{fullShare} G d w xp)
    ∗ (bigSep (Finset.Ico (t + 1) 10) fun s => pLoc d ↦{Transfers.shareTokN qa s} xp)
    ∗ (bigSep (Finset.Ico (t + 1) (nOdd L)) fun s => pLoc d ↦{Transfers.shareTokN qb s} xp)
    ∗ ∃ W', ⌜∀ p ∈ W', p ∈ W ∨ p.2 = none⌝ ∗ owes (thr d L) O W')

/-! ## Intervals of steps -/

omit [FloatOps F] in
theorem Ico_pop {a b : Nat} (h : a < b) (Φ : Nat → sProp 𝕄) :
    bigSep (Finset.Ico a b) Φ = iprop(Φ a ∗ bigSep (Finset.Ico (a + 1) b) Φ) := by
  have e : Finset.Ico a b = insert a (Finset.Ico (a + 1) b) := by
    ext x; simp only [Finset.mem_Ico, Finset.mem_insert]; omega
  rw [e, SparseCore.bigSep_insert' (by simp)]
omit [FloatOps F] in
theorem range_push (n : Nat) (Φ : Nat → sProp 𝕄) :
    bigSep (Finset.range (n + 1)) Φ = iprop(Φ n ∗ bigSep (Finset.range n) Φ) := by
  rw [Finset.range_add_one, SparseCore.bigSep_insert' (by simp)]

/-! ## The blocks of the result, as the program slices them -/

omit [FloatOps F] in
/-- A 160-row slice of the result at row `160 b` is block `b`. -/
theorem set_oSlice (off : Fin 2 → Nat) (h : ∀ a, off a + S160x64.size a ≤ S100000x64.size a) (b : Nat) (hoff : off = ![160 * b, 0]) :
    ((oW).slice (Rect.unit (s := S100000x64) off S160x64.size h) (fun _ => rfl)).view.set = blkSet b := by
  subst hoff
  show ((View.whole (main_v16_scv : Ref sig .scVector)).slice (Rect.unit (s := S100000x64) ![160 * b, 0] S160x64.size h)).set = blkSet b
  rw [View.set_slice_whole]
  ext i
  rw [Rect.mem_set_unit]
  simp only [blkSet, Finset.mem_filter, Finset.mem_univ, true_and]
  show (∀ a : Fin 2, (![160 * b, 0] : Fin 2 → Nat) a ≤ (i a).val ∧ (i a).val < (![160 * b, 0] : Fin 2 → Nat) a + (![160, 64] : Fin 2 → Nat) a) ↔ (i 0).val / 160 = b
  rw [Fin.forall_fin_two]
  show (160 * b ≤ (i 0).val ∧ (i 0).val < 160 * b + 160) ∧ (0 ≤ (i 1).val ∧ (i 1).val < 0 + 64) ↔ (i 0).val / 160 = b
  have h1 : (i 1).val < 64 := (i 1).isLt
  omega

end Cert.KernelIdeal.KT

end
-- ==== Proof.KTile0.lean ====
/-
  What one vector subcore holds when its task starts, taken apart: its five semaphores at zero, its six scratch
  buffers, its rows of the result block by block, and the read shares of the packed words its copies will lend.
-/
import proofs.«207339_g86234353369688_cont_sun_m_1071_33_alg».proof.Proof.KTile1

noncomputable section

namespace Cert.KernelIdeal.KT

open Cert.KernelIdeal Cert.KernelIdeal.Gen Cert.KernelIdeal.KC Cert.KernelIdeal.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.KernelIdeal.main_v15_scv : Memref Cert.KernelIdeal.sig Kind.scVector Space.hbm Cert.KernelIdeal.S100000 EltTy.i32)
local notation "wW" => (Memref.whole Cert.KernelIdeal.main_v8_scv : Memref Cert.KernelIdeal.sig Kind.scVector Space.hbm Cert.KernelIdeal.S1152 EltTy.f32)
local notation "oW" => (Memref.whole Cert.KernelIdeal.main_v16_scv : Memref Cert.KernelIdeal.sig Kind.scVector Space.hbm Cert.KernelIdeal.S100000x64 EltTy.f32)
local notation "b0" => (Memref.whole Cert.KernelIdeal.cc0_scratch0 : Memref Cert.KernelIdeal.sig Kind.scVector Space.vmem Cert.KernelIdeal.S160 EltTy.i32)
local notation "b1" => (Memref.whole Cert.KernelIdeal.cc0_scratch1 : Memref Cert.KernelIdeal.sig Kind.scVector Space.vmem Cert.KernelIdeal.S160 EltTy.i32)
local notation "b2" => (Memref.whole Cert.KernelIdeal.cc0_scratch2 : Memref Cert.KernelIdeal.sig Kind.scVector Space.vmem Cert.KernelIdeal.S1152 EltTy.f32)
local notation "b3" => (Memref.whole Cert.KernelIdeal.cc0_scratch3 : Memref Cert.KernelIdeal.sig Kind.scVector Space.vmem Cert.KernelIdeal.S32768 EltTy.f32)
local notation "b4" => (Memref.whole Cert.KernelIdeal.cc0_scratch4 : Memref Cert.KernelIdeal.sig Kind.scVector Space.vmem Cert.KernelIdeal.S160x64 EltTy.f32)
local notation "b5" => (Memref.whole Cert.KernelIdeal.cc0_scratch5 : Memref Cert.KernelIdeal.sig Kind.scVector Space.vmem Cert.KernelIdeal.S160x64 EltTy.f32)

variable [FloatOps F]
variable (d : Dev nD) (L : grid0.Coords)

/-! ## The semaphores and the scratch buffers -/

/-- The subcore's own semaphore cells other than the five the kernel names. -/
def restCells (d : Dev nD) (L : grid0.Coords) : Finset (GSem nD τ sig) :=
  ((((((ownCells (thr d L)).erase ((thr d L, SemLoc.dma cc0_scratch6.sem) : GSem nD τ sig)).erase ((thr d L, SemLoc.dma cc0_scratch7.sem) : GSem nD τ sig)).erase ((thr d L, SemLoc.dma cc0_scratch8.sem) : GSem nD τ sig)).erase ((thr d L, SemLoc.dma cc0_scratch9.sem) : GSem nD τ sig)).erase ((thr d L, SemLoc.dma cc0_scoped0.sem) : GSem nD τ sig))

/-- The subcore's own buffers other than its six scratch buffers. -/
def restRefs (L : grid0.Coords) : Finset (DevRef τ sig) :=
  (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))

omit [FloatOps F] in
/-- The subcore's semaphores at zero: the five the kernel names, and the rest. -/
theorem ownSems0_tile :
    (ownSems0 (thr d L) : sProp 𝕄)
      = iprop(semVal (thr d L, SemLoc.dma cc0_scratch6.sem) 0 ∗ semVal (thr d L, SemLoc.dma cc0_scratch7.sem) 0
          ∗ semVal (thr d L, SemLoc.dma cc0_scratch8.sem) 0 ∗ semVal (thr d L, SemLoc.dma cc0_scratch9.sem) 0
          ∗ semVal (thr d L, SemLoc.dma cc0_scoped0.sem) 0 ∗ bigSep (restCells d L) fun g => semVal g 0) := by
  unfold SparseCore.Cfg.ownSems0 restCells
  rw [SparseCore.bigSep_erase' ((mem_ownCells (g := ((thr d L, SemLoc.dma cc0_scratch6.sem) : GSem nD τ sig))).mpr ⟨rfl, by
      show (SemLoc.dma cc0_scratch6.sem : SemLoc sig).isScoped .scVector = true; decide⟩),
    SparseCore.bigSep_erase' (Finset.mem_erase.mpr ⟨(fun e => absurd (congrArg Prod.snd e) (show (SemLoc.dma cc0_scratch7.sem : SemLoc sig) ≠ SemLoc.dma cc0_scratch6.sem by decide)), (mem_ownCells (g := ((thr d L, SemLoc.dma cc0_scratch7.sem) : GSem nD τ sig))).mpr ⟨rfl, by
      show (SemLoc.dma cc0_scratch7.sem : SemLoc sig).isScoped .scVector = true; decide⟩⟩),
    SparseCore.bigSep_erase' (Finset.mem_erase.mpr ⟨(fun e => absurd (congrArg Prod.snd e) (show (SemLoc.dma cc0_scratch8.sem : SemLoc sig) ≠ SemLoc.dma cc0_scratch7.sem by decide)), Finset.mem_erase.mpr ⟨(fun e => absurd (congrArg Prod.snd e) (show (SemLoc.dma cc0_scratch8.sem : SemLoc sig) ≠ SemLoc.dma cc0_scratch6.sem by decide)), (mem_ownCells (g := ((thr d L, SemLoc.dma cc0_scratch8.sem) : GSem nD τ sig))).mpr ⟨rfl, by
      show (SemLoc.dma cc0_scratch8.sem : SemLoc sig).isScoped .scVector = true; decide⟩⟩⟩),
    SparseCore.bigSep_erase' (Finset.mem_erase.mpr ⟨(fun e => absurd (congrArg Prod.snd e) (show (SemLoc.dma cc0_scratch9.sem : SemLoc sig) ≠ SemLoc.dma cc0_scratch8.sem by decide)), Finset.mem_erase.mpr ⟨(fun e => absurd (congrArg Prod.snd e) (show (SemLoc.dma cc0_scratch9.sem : SemLoc sig) ≠ SemLoc.dma cc0_scratch7.sem by decide)), Finset.mem_erase.mpr ⟨(fun e => absurd (congrArg Prod.snd e) (show (SemLoc.dma cc0_scratch9.sem : SemLoc sig) ≠ SemLoc.dma cc0_scratch6.sem by decide)), (mem_ownCells (g := ((thr d L, SemLoc.dma cc0_scratch9.sem) : GSem nD τ sig))).mpr ⟨rfl, by
      show (SemLoc.dma cc0_scratch9.sem : SemLoc sig).isScoped .scVector = true; decide⟩⟩⟩⟩),
    SparseCore.bigSep_erase' (Finset.mem_erase.mpr ⟨(fun e => absurd (congrArg Prod.snd e) (show (SemLoc.dma cc0_scoped0.sem : SemLoc sig) ≠ SemLoc.dma cc0_scratch9.sem by decide)), Finset.mem_erase.mpr ⟨(fun e => absurd (congrArg Prod.snd e) (show (SemLoc.dma cc0_scoped0.sem : SemLoc sig) ≠ SemLoc.dma cc0_scratch8.sem by decide)), Finset.mem_erase.mpr ⟨(fun e => absurd (congrArg Prod.snd e) (show (SemLoc.dma cc0_scoped0.sem : SemLoc sig) ≠ SemLoc.dma cc0_scratch7.sem by decide)), Finset.mem_erase.mpr ⟨(fun e => absurd (congrArg Prod.snd e) (show (SemLoc.dma cc0_scoped0.sem : SemLoc sig) ≠ SemLoc.dma cc0_scratch6.sem by decide)), (mem_ownCells (g := ((thr d L, SemLoc.dma cc0_scoped0.sem) : GSem nD τ sig))).mpr ⟨rfl, by
      show (SemLoc.dma cc0_scoped0.sem : SemLoc sig).isScoped .scVector = true; decide⟩⟩⟩⟩⟩)]

omit [FloatOps F] in
/-- The subcore's buffers: its six scratch buffers, each at some contents, and the rest. -/
theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨(fun e => absurd (Proc.devRef_injective _ e) (show (cc0_scratch1 : Ref sig .scVector) ≠ cc0_scratch0 by decide)), SparseCore.Cfg.mem_ownRefs_of_owner (p := Proc.scVector (cV L) (jV L)) (b := ((Proc.scVector (cV L) (jV L)).devRef cc0_scratch1)) rfl⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨(fun e => absurd (Proc.devRef_injective _ e) (show (cc0_scratch4 : Ref sig .scVector) ≠ cc0_scratch3 by decide)), Finset.mem_erase.mpr ⟨(fun e => absurd (Proc.devRef_injective _ e) (show (cc0_scratch4 : Ref sig .scVector) ≠ cc0_scratch2 by decide)), Finset.mem_erase.mpr ⟨(fun e => absurd (Proc.devRef_injective _ e) (show (cc0_scratch4 : Ref sig .scVector) ≠ cc0_scratch1 by decide)), Finset.mem_erase.mpr ⟨(fun e => absurd (Proc.devRef_injective _ e) (show (cc0_scratch4 : Ref sig .scVector) ≠ cc0_scratch0 by decide)), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨(fun e => absurd (Proc.devRef_injective _ e) (show (cc0_scratch5 : Ref sig .scVector) ≠ cc0_scratch4 by decide)), Finset.mem_erase.mpr ⟨(fun e => absurd (Proc.devRef_injective _ e) (show (cc0_scratch5 : Ref sig .scVector) ≠ cc0_scratch3 by decide)), Finset.mem_erase.mpr ⟨(fun e => absurd (Proc.devRef_injective _ e) (show (cc0_scratch5 : Ref sig .scVector) ≠ cc0_scratch2 by decide)), Finset.mem_erase.mpr ⟨(fun e => absurd (Proc.devRef_injective _ e) (show (cc0_scratch5 : Ref sig .scVector) ≠ cc0_scratch1 by decide)), Finset.mem_erase.mpr ⟨(fun e => absurd (Proc.devRef_injective _ e) (show (cc0_scratch5 : Ref sig .scVector) ≠ cc0_scratch0 by decide)), SparseCore.Cfg.mem_ownRefs_of_owner (p := Proc.scVector (cV L) (jV L)) (b := ((Proc.scVector (cV L) (jV L)).devRef cc0_scratch5)) rfl⟩⟩⟩⟩⟩)]

/-! ## The subcore's rows of the result, block by block -/

/-- The numbers of the 160-row blocks worker `wid L` handles: `wid L + 32 k` below 625, the even `k` and the odd `k`. -/
def blocks (L : grid0.Coords) : Finset Nat :=
  (Finset.Ico 0 10).image (bE L) ∪ (Finset.Ico 0 (nOdd L)).image (bO L)

omit [FloatOps F] in
theorem blk_disjoint (B : Finset Nat) : ∀ b ∈ B, ∀ b' ∈ B, b ≠ b' → Disjoint (blkSet b) (blkSet b') := by
  intro b _ b' _ h
  unfold blkSet
  refine Finset.disjoint_filter.mpr fun x _ h1 h2 => h ?_
  omega

omit [FloatOps F] in
/-- The result has 625 blocks; worker `n` has the blocks `n + 32 k`: those are its even and its odd ring steps' blocks. -/
theorem blocks_cover : (blocks L).biUnion blkSet = rowsOf (wid L) := by
  ext x
  have hx : (x 0).val < 100000 := (x 0).isLt
  have hn := wid_lt L
  have hno : (wid L ≤ 16 ∧ nOdd L = 10) ∨ (16 < wid L ∧ nOdd L = 9) := by unfold nOdd; split <;> omega
  simp only [blocks, bE, bO, Finset.mem_biUnion, Finset.mem_union, Finset.mem_image, Finset.mem_Ico, blkSet, rowsOf,
    Finset.mem_filter, Finset.mem_univ, true_and]
  generalize (x 0).val = v at *
  generalize nOdd L = m at *
  generalize wid L = n at *
  constructor
  · rintro ⟨b, (⟨s, hs, rfl⟩ | ⟨s, hs, rfl⟩), hb⟩ <;> omega
  · intro h
    by_cases hp : (v / 160 / 32) % 2 = 0
    · exact ⟨v / 160, Or.inl ⟨v / 160 / 64, by omega, by omega⟩, rfl⟩
    · exact ⟨v / 160, Or.inr ⟨v / 160 / 64, by omega, by omega⟩, rfl⟩

omit [FloatOps F] in
/-- The subcore's rows of the result are its ten even-numbered and its nine or ten odd-numbered blocks. -/
theorem rows_split (q : PosShare TreeShare) (f : Buf (Elt F) (oLoc d)) :
    (oLoc d ↦[rowsOf (wid L)]{q} f : sProp 𝕄)
      = iprop((bigSep (Finset.Ico 0 10) fun s => oLoc d ↦[blkSet (bE L s)]{q} f)
          ∗ (bigSep (Finset.Ico 0 (nOdd L)) fun s => oLoc d ↦[blkSet (bO L s)]{q} f)) := by
  rw [← blocks_cover L, pointsTo_biUnion (blocks L) (ℓ := oLoc d) blkSet (blk_disjoint _)]
  unfold blocks
  rw [SparseCore.bigSep_union' ?_, SparseCore.bigSep_image_of_injOn ?_, SparseCore.bigSep_image_of_injOn ?_]
  · intro a _ b _ h
    simp only [bO] at h
    omega
  · intro a _ b _ h
    simp only [bE] at h
    omega
  · rw [Finset.disjoint_left]
    intro b hb hb'
    simp only [Finset.mem_image, Finset.mem_Ico, bE, bO] at hb hb'
    obtain ⟨s, _, rfl⟩ := hb
    obtain ⟨s', _, h⟩ := hb'
    omega

/-! ## The read shares of the packed words -/

omit [FloatOps F] in
/-- A read share yields `n` smaller ones, numbered from 0: the first, and those from 1 on. -/
theorem toks_pop (q : PosShare TreeShare) (xp : Buf (Elt F) (pLoc d)) (n : Nat) (hn : 0 < n) :
    (pLoc d ↦{q} xp : sProp 𝕄)
      ⊢ iprop((pLoc d ↦{Transfers.shareTokN q 0} xp)
          ∗ bigSep (Finset.Ico 1 n) fun s => pLoc d ↦{Transfers.shareTokN q s} xp) := by
  refine (Transfers.pointsTo_toks_range q n).1.trans ?_
  rw [Finset.range_eq_Ico, Ico_pop hn]
  iintro ⟨-, H⟩
  iexact H

omit [FloatOps F] in
/-- A read share of the packed words yields one family of shares for the even ring steps and one for the odd:
    step 0's two shares, and the later steps' shares. -/
theorem toks_split (q : PosShare TreeShare) (xp : Buf (Elt F) (pLoc d)) :
    (pLoc d ↦{q} xp : sProp 𝕄)
      ⊢ iprop((pLoc d ↦{Transfers.shareTokN (Transfers.shareTokN q 0) 0} xp)
          ∗ (pLoc d ↦{Transfers.shareTokN (Transfers.shareTokN q 1) 0} xp)
          ∗ (bigSep (Finset.Ico 1 10) fun s => pLoc d ↦{Transfers.shareTokN (Transfers.shareTokN q 0) s} xp)
          ∗ (bigSep (Finset.Ico 1 (nOdd L)) fun s => pLoc d ↦{Transfers.shareTokN (Transfers.shareTokN q 1) s} xp)) := by
  have h2 : (pLoc d ↦{q} xp : sProp 𝕄)
      ⊢ iprop((pLoc d ↦{Transfers.shareTokN q 0} xp) ∗ (pLoc d ↦{Transfers.shareTokN q 1} xp)) := by
    refine (Transfers.pointsTo_toks_range q 2).1.trans ?_
    rw [show Finset.range 2 = Finset.range (1 + 1) from rfl, range_push 1,
      show Finset.range 1 = Finset.range (0 + 1) from rfl, range_push 0, Finset.range_zero, bigSep_empty]
    iintro ⟨-, H1, H0, -⟩
    isplitl [H0]
    · iexact H0
    iexact H1
  have hn : 0 < nOdd L := by have := nOdd_ge L; omega
  iintro H
  ihave H := h2 $$ H
  icases H with ⟨Ha, Hb⟩
  ihave Ha := (toks_pop d (Transfers.shareTokN q 0) xp 10 (by omega)) $$ Ha
  ihave Hb := (toks_pop d (Transfers.shareTokN q 1) xp (nOdd L) hn) $$ Hb
  icases Ha with ⟨Ha0, Has⟩
  icases Hb with ⟨Hb0, Hbs⟩
  isplitl [Ha0]
  · iexact Ha0
  isplitl [Hb0]
  · iexact Hb0
  isplitl [Has]
  · iexact Has
  iexact Hbs

end Cert.KernelIdeal.KT

end
-- ==== Proof.KPro.lean ====
/-
  The table scratch's first two rows, as the kernel's prologue builds them: row 0 is the sum of the nine tables'
  rows 0, row 1 adds table 0's difference; sixteen lanes at a time.
-/
import proofs.«207339_g86234353369688_cont_sun_m_1071_33_alg».proof.Proof.KTile1
import proofs.«207339_g86234353369688_cont_sun_m_1071_33_alg».proof.Proof.Algebra
import Idealize.ShloMosaic.Lib.WritesUnit
import Idealize.ShloMosaic.Lib.Pipeline.FrameBody

noncomputable section

namespace Cert.KernelIdeal.KT

open Cert.KernelIdeal Cert.KernelIdeal.Gen Cert.KernelIdeal.KC Cert.KernelIdeal.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Spec

variable {F : FTy → Type}

local notation "𝕄" => MT nD τ sig (HIx 1) (Elt F) ℕ UU ℕ

local notation "pW" => (Memref.whole Cert.KernelIdeal.main_v15_scv : Memref Cert.KernelIdeal.sig Kind.scVector Space.hbm Cert.KernelIdeal.S100000 EltTy.i32)
local notation "wW" => (Memref.whole Cert.KernelIdeal.main_v8_scv : Memref Cert.KernelIdeal.sig Kind.scVector Space.hbm Cert.KernelIdeal.S1152 EltTy.f32)
local notation "oW" => (Memref.whole Cert.KernelIdeal.main_v16_scv : Memref Cert.KernelIdeal.sig Kind.scVector Space.hbm Cert.KernelIdeal.S100000x64 EltTy.f32)
local notation "b0" => (Memref.whole Cert.KernelIdeal.cc0_scratch0 : Memref Cert.KernelIdeal.sig Kind.scVector Space.vmem Cert.KernelIdeal.S160 EltTy.i32)
local notation "b1" => (Memref.whole Cert.KernelIdeal.cc0_scratch1 : Memref Cert.KernelIdeal.sig Kind.scVector Space.vmem Cert.KernelIdeal.S160 EltTy.i32)
local notation "b2" => (Memref.whole Cert.KernelIdeal.cc0_scratch2 : Memref Cert.KernelIdeal.sig Kind.scVector Space.vmem Cert.KernelIdeal.S1152 EltTy.f32)
local notation "b3" => (Memref.whole Cert.KernelIdeal.cc0_scratch3 : Memref Cert.KernelIdeal.sig Kind.scVector Space.vmem Cert.KernelIdeal.S32768 EltTy.f32)
local notation "b4" => (Memref.whole Cert.KernelIdeal.cc0_scratch4 : Memref Cert.KernelIdeal.sig Kind.scVector Space.vmem Cert.KernelIdeal.S160x64 EltTy.f32)
local notation "b5" => (Memref.whole Cert.KernelIdeal.cc0_scratch5 : Memref Cert.KernelIdeal.sig Kind.scVector Space.vmem Cert.KernelIdeal.S160x64 EltTy.f32)

variable [FloatOps F]
variable (d : Dev nD) (L : grid0.Coords)

/-! ## The flat table in its scratch -/

/-- Sixteen lanes of the flat table's scratch, once the table has been copied in, are the flat table's entries. -/
theorem b2_read (f2 : Buf (Elt F) ((thr d L).loc cc0_scratch2)) (w : Buf (Elt F) (wLoc d)) (c : Nat)
    (h : ∀ a, (![c] : Fin 1 → Nat) a + S16.size a ≤ S1152.size a) (hc : c + 16 ≤ 1152) (x : S16.Idx) :
    View.readAt (Elt F) (b2).view (Rect.unit (s := S1152) ![c] S16.size h).toLoadRect
        (View.write (Elt F) (b2).view f2 (ReadAs.same.apply (View.read (Elt F) (wW).view w)) Finset.univ) x
      = Spec.wAt w (c + (x 0).val) := by
  have hx : (x 0).val < 16 := (x 0).isLt
  have hk : c + (x 0).val < 1152 := by omega
  rw [View.readAt_apply]
  unfold Spec.wAt
  rw [dif_pos hk]
  simp only [Memref.view_whole, View.write_whole_univ, View.read_whole, ReadAs.apply_same]
  show w ((Rect.unit (s := S1152) ![c] S16.size h).toLoadRect.idx x) = w (ix1 ⟨c + (x 0).val, hk⟩)
  refine congrArg w (funext fun a => Fin.ext ?_)
  match a with
  | ⟨0, _⟩ =>
    show c + 1 * (x 0).val = c + (x 0).val
    omega

/-! ## The table scratch, a run of sixteen-lane stores at a time -/

/-- After the stores `Ls`, whatever was there before, the first `N` entries of the table scratch are the table's. -/
def ListOK (w : Cert.Spec.SW.Idx → F .f32) (N : Nat) (Ls : List (View.Piece (Elt F) S32768 .f32)) : Prop :=
  ∀ (f0 : (b3).view.ty.Contents (Elt F)) (y : S32768.Idx), (y 0).val < N →
    (b3).view.writes (Elt F) f0 Ls y = Spec.lutRow w ((y 0).val / 64) ((y 0).val % 64)

theorem ListOK.nil (w : Cert.Spec.SW.Idx → F .f32) : ListOK (F := F) w 0 [] :=
  fun _ y h => absurd h (Nat.not_lt_zero _)

/-- One more store of sixteen lanes, right after the entries that are done. -/
theorem ListOK.push {w : Cert.Spec.SW.Idx → F .f32} {N : Nat} {Ls : List (View.Piece (Elt F) S32768 .f32)}
    (hL : ListOK w N Ls) (inb : ∀ a, (![N] : Fin 1 → Nat) a + S16.size a ≤ S32768.size a)
    (pay : (Rect.unit (s := S32768) ![N] S16.size inb).shape.Idx → F .f32)
    (hp : ∀ x : S16.Idx, pay x = Spec.lutRow w ((N + (x 0).val) / 64) ((N + (x 0).val) % 64)) :
    ListOK w (N + 16) ((⟨Rect.unit (s := S32768) ![N] S16.size inb, pay⟩ : View.Piece (Elt F) S32768 .f32) :: Ls) := by
  intro f0 y hy
  by_cases hlt : (y 0).val < N
  · refine Eq.trans ?_ (hL f0 y hlt)
    exact View.read_writes_cons_unit_of_not_mem (b3).view f0 inb pay Ls y rfl 0 (Or.inl hlt)
  · have hx : (y 0).val - N < 16 := by omega
    refine Eq.trans (View.read_writes_cons_unit_of_mem (b3).view f0 inb pay Ls y (ix1 ⟨(y 0).val - N, hx⟩) rfl
      (fun a => ?_)) ?_
    · match a with
      | ⟨0, _⟩ =>
        show (y 0).val = N + ((y 0).val - N)
        omega
    · rw [hp]
      show Spec.lutRow w ((N + ((y 0).val - N)) / 64) ((N + ((y 0).val - N)) % 64) = _
      rw [show N + ((y 0).val - N) = (y 0).val by omega]

/-- The rows that are done, as the ring's invariant states them. -/
theorem ListOK.lutOK {w : Cert.Spec.SW.Idx → F .f32} {n : Nat} {Ls : List (View.Piece (Elt F) S32768 .f32)}
    (hL : ListOK w (64 * n) Ls) (f0 : (b3).view.ty.Contents (Elt F)) :
    KC.LutOK w n ((b3).view.writes (Elt F) f0 Ls) :=
  fun y hy => hL f0 y hy

/-- A load of sixteen lanes among the entries that are done reads the table. -/
theorem ListOK.readCov {w : Cert.Spec.SW.Idx → F .f32} {N : Nat} {Ls : List (View.Piece (Elt F) S32768 .f32)}
    (hL : ListOK w N Ls) (c : Nat) (inb : ∀ a, (![c] : Fin 1 → Nat) a + S16.size a ≤ S32768.size a) (hc : c + 16 ≤ N)
    (x : S16.Idx) :
    (b3).view.readCov Ls (Rect.unit (s := S32768) ![c] S16.size inb).toLoadRect x
      = Spec.lutRow w ((c + (x 0).val) / 64) ((c + (x 0).val) % 64) := by
  have hx : (x 0).val < 16 := (x 0).isLt
  unfold View.readCov
  rw [View.readAt_apply]
  refine Eq.trans (hL _ _ ?_) ?_
  · show c + 1 * (x 0).val < N
    omega
  · show Spec.lutRow w ((c + 1 * (x 0).val) / 64) ((c + 1 * (x 0).val) % 64) = _
    rw [Nat.one_mul]

/-! ## The payloads -/

/-- Row 0, sixteen lanes from lane `c`: the nine tables' rows 0 added up, table 0 first. -/
theorem row0_val (w : Cert.Spec.SW.Idx → F .f32) (c : Nat) (hc : c + 16 ≤ 64)
    (v0 v1 v2 v3 v4 v5 v6 v7 v8 : S16.Idx → F .f32)
    (h0 : ∀ x, v0 x = Spec.wAt w (c + (x 0).val)) (h1 : ∀ x, v1 x = Spec.wAt w (c + 128 + (x 0).val))
    (h2 : ∀ x, v2 x = Spec.wAt w (c + 256 + (x 0).val)) (h3 : ∀ x, v3 x = Spec.wAt w (c + 384 + (x 0).val))
    (h4 : ∀ x, v4 x = Spec.wAt w (c + 512 + (x 0).val)) (h5 : ∀ x, v5 x = Spec.wAt w (c + 640 + (x 0).val))
    (h6 : ∀ x, v6 x = Spec.wAt w (c + 768 + (x 0).val)) (h7 : ∀ x, v7 x = Spec.wAt w (c + 896 + (x 0).val))
    (h8 : ∀ x, v8 x = Spec.wAt w (c + 1024 + (x 0).val)) (x : S16.Idx) :
    addf (addf (addf (addf (addf (addf (addf (addf v0 v1) v2) v3) v4) v5) v6) v7) v8 x
      = Spec.lutRow w ((c + (x 0).val) / 64) ((c + (x 0).val) % 64) := by
  have hx : (x 0).val < 16 := (x 0).isLt
  rw [show (c + (x 0).val) / 64 = 0 by omega, show (c + (x 0).val) % 64 = c + (x 0).val by omega, Cert.Algebra.lutRow_zero]
  show FloatOps.addf (FloatOps.addf (FloatOps.addf (FloatOps.addf (FloatOps.addf (FloatOps.addf (FloatOps.addf
    (FloatOps.addf (v0 x) (v1 x)) (v2 x)) (v3 x)) (v4 x)) (v5 x)) (v6 x)) (v7 x)) (v8 x) = _
  rw [h0, h1, h2, h3, h4, h5, h6, h7, h8]
  unfold Spec.base
  rw [show c + 128 + (x 0).val = 128 + (c + (x 0).val) by omega, show c + 256 + (x 0).val = 256 + (c + (x 0).val) by omega,
    show c + 384 + (x 0).val = 384 + (c + (x 0).val) by omega, show c + 512 + (x 0).val = 512 + (c + (x 0).val) by omega,
    show c + 640 + (x 0).val = 640 + (c + (x 0).val) by omega, show c + 768 + (x 0).val = 768 + (c + (x 0).val) by omega,
    show c + 896 + (x 0).val = 896 + (c + (x 0).val) by omega, show c + 1024 + (x 0).val = 1024 + (c + (x 0).val) by omega]

/-- Row 1, sixteen lanes from lane `c`: row 0 plus table 0's row 1 minus its row 0. -/
theorem row1_val (w : Cert.Spec.SW.Idx → F .f32) (c : Nat) (hc : c + 16 ≤ 64)
    (vhi vlo vprev : S16.Idx → F .f32)
    (hhi : ∀ x, vhi x = Spec.wAt w (c + 64 + (x 0).val)) (hlo : ∀ x, vlo x = Spec.wAt w (c + (x 0).val))
    (hprev : ∀ x, vprev x = Spec.lutRow w ((c + (x 0).val) / 64) ((c + (x 0).val) % 64)) (x : S16.Idx) :
    addf vprev (subf vhi vlo) x
      = Spec.lutRow w ((64 + c + (x 0).val) / 64) ((64 + c + (x 0).val) % 64) := by
  have hx : (x 0).val < 16 := (x 0).isLt
  show FloatOps.addf (vprev x) (FloatOps.subf (vhi x) (vlo x)) = _
  rw [hhi, hlo, hprev]
  rw [show (64 + c + (x 0).val) / 64 = 1 + 0 by omega, show (64 + c + (x 0).val) % 64 = c + (x 0).val by omega,
    show (c + (x 0).val) / 64 = 0 by omega, show (c + (x 0).val) % 64 = c + (x 0).val by omega,
    Cert.Algebra.lutRow_add_1 w 0 (c + (x 0).val) (by omega)]
  unfold Spec.dlt
  rw [show 0 * 128 + 64 + (c + (x 0).val) = c + 64 + (x 0).val by omega,
    show 0 * 128 + (c + (x 0).val) = c + (x 0).val by omega]

end Cert.KernelIdeal.KT

end
-- ==== Proof.KLutLemmas.lean ====
/-
  The table scratch, row by row: what a list of 16-lane stores leaves in it.

  The scratch holds 512 rows of 64 lanes.  A store of 16 lanes is a piece; pieces that hold the table's values and
  cover a row extend the rows already right by one.  One trip of a feature's loop stores the four pieces of row
  `h + g`, each being row `g`'s lanes (read below everything the trip has written) plus the feature's difference.
-/
import proofs.«207339_g86234353369688_cont_sun_m_1071_33_alg».proof.Proof.KInv
import proofs.«207339_g86234353369688_cont_sun_m_1071_33_alg».proof.Proof.Algebra

noncomputable section

namespace Cert.KernelIdeal.KLut

open Cert.KernelIdeal Cert.KernelIdeal.Gen Cert.KernelIdeal.KC
open Idealize.ShloMosaic

variable {F : FTy → Type} [FloatOps F]

section Generic

open Cert.Spec

variable {sg : RefSig} {κ : Kind} {sp : Space}

/-- Pieces that each hold the table's values, and together cover the first `n` rows, leave the first `n` rows
    the table's, whatever the buffer held before. -/
theorem lutOK_of_pieces (w : Cert.Spec.SW.Idx → F .f32) (n : Nat) (v : View sg κ sp S32768 .f32)
    (f0 : v.ty.Contents (Elt F)) (pieces : List (View.Piece (Elt F) S32768 .f32))
    (hp : ∀ p ∈ pieces, ∀ x : p.1.shape.Idx,
      p.2 x = lutRow w ((p.1.emb x 0).val / 64) ((p.1.emb x 0).val % 64))
    (hc : ∀ y : S32768.Idx, (y 0).val < 64 * n → ∃ p ∈ pieces, y ∈ p.1.set) :
    KC.LutOK w n (v.read (Elt F) (v.writes (Elt F) f0 pieces)) := by
  intro y hy
  exact View.read_writes_apply_of_pieces v f0 (fun y => lutRow w ((y 0).val / 64) ((y 0).val % 64)) pieces hp y (hc y hy)

/-- One more row: over contents whose first `n` rows are the table's, pieces that each hold the table's values and
    together cover row `n` leave the first `n + 1` rows the table's. -/
theorem lutOK_step (w : Cert.Spec.SW.Idx → F .f32) (n : Nat) (v : View sg κ sp S32768 .f32)
    (f : v.ty.Contents (Elt F)) (pieces : List (View.Piece (Elt F) S32768 .f32))
    (hf : KC.LutOK w n (v.read (Elt F) f))
    (hp : ∀ p ∈ pieces, ∀ x : p.1.shape.Idx,
      p.2 x = lutRow w ((p.1.emb x 0).val / 64) ((p.1.emb x 0).val % 64))
    (hc : ∀ y : S32768.Idx, 64 * n ≤ (y 0).val → (y 0).val < 64 * (n + 1) → ∃ p ∈ pieces, y ∈ p.1.set) :
    KC.LutOK w (n + 1) (v.read (Elt F) (v.writes (Elt F) f pieces)) := by
  intro y hy
  by_cases hcov : ∃ p ∈ pieces, y ∈ p.1.set
  · exact View.read_writes_apply_of_pieces v f (fun y => lutRow w ((y 0).val / 64) ((y 0).val % 64)) pieces hp y hcov
  · have hn : ∀ p ∈ pieces, y ∉ p.1.set := fun p hp' hy' => hcov ⟨p, hp', hy'⟩
    rw [View.read_writes_apply_of_forall_not_mem v f y pieces hn]
    apply hf
    by_contra hlt
    exact hcov (hc y (by omega) hy)

/-- A load below every piece written so far reads the contents as they were. -/
theorem readAt_below (v : View sg κ sp S32768 .f32) (f : v.ty.Contents (Elt F))
    (Lw : List (View.Piece (Elt F) S32768 .f32)) (b : Nat)
    (hL : ∀ p ∈ Lw, ∀ y ∈ p.1.set, b ≤ (y 0).val)
    (a : Fin 1 → Nat) (ia : ∀ j, a j + S16.size j ≤ S32768.size j) (hab : a 0 + 16 ≤ b)
    (x : (Rect.unit (s := S32768) a S16.size ia).shape.Idx) :
    v.readAt (Elt F) (Rect.unit (s := S32768) a S16.size ia).toLoadRect (v.writes (Elt F) f Lw) x
      = v.read (Elt F) f ((Rect.unit (s := S32768) a S16.size ia).toLoadRect.idx x) := by
  rw [View.readAt_apply]
  apply View.read_writes_apply_of_forall_not_mem
  intro p hp hy
  have h1 := hL p hp _ hy
  have h2 : (((Rect.unit (s := S32768) a S16.size ia).toLoadRect.idx x) 0).val = a 0 + 1 * (x 0).val := rfl
  have h3 : (x 0).val < 16 := (x 0).isLt
  omega

end Generic

section Row

open Cert.Spec

variable {sg : RefSig} {κ : Kind} {sp : Space}

/-- One 16-lane piece of row `h + g`: row `g`'s lanes, read below everything written so far, plus feature `i`'s
    difference, is the table's row `h + g` on those lanes. -/
theorem piece_ok (w : Cert.Spec.SW.Idx → F .f32) (h g i c : Nat) (hc : c + 16 ≤ 64)
    (hadd : ∀ e, lutRow w (h + g) e = FloatOps.addf (lutRow w g e) (dlt w i e)) (hgh : g < h)
    (v : View sg κ sp S32768 .f32) (f : v.ty.Contents (Elt F)) (hf : KC.LutOK w (h + g) (v.read (Elt F) f))
    (Lw : List (View.Piece (Elt F) S32768 .f32)) (hL : ∀ p ∈ Lw, ∀ y ∈ p.1.set, 64 * (h + g) ≤ (y 0).val)
    (a o : Fin 1 → Nat) (ia : ∀ j, a j + S16.size j ≤ S32768.size j) (io : ∀ j, o j + S16.size j ≤ S32768.size j)
    (ha : a 0 = 64 * g + c) (ho : o 0 = 64 * (h + g) + c)
    (D : FVec F S16 .f32) (hD : ∀ x : S16.Idx, D x = dlt w i (c + (x 0).val))
    (x : (Rect.unit (s := S32768) o S16.size io).shape.Idx) :
    Idealize.ShloMosaic.addf (s := S16) (φ := .f32)
        (v.readAt (Elt F) (Rect.unit (s := S32768) a S16.size ia).toLoadRect (v.writes (Elt F) f Lw)) D x
      = lutRow w (((Rect.unit (s := S32768) o S16.size io).emb x 0).val / 64)
          (((Rect.unit (s := S32768) o S16.size io).emb x 0).val % 64) := by
  have hx : (x 0).val < 16 := (x 0).isLt
  have he : ((Rect.unit (s := S32768) o S16.size io).emb x 0).val = o 0 + 1 * (x 0).val := rfl
  rw [he, ho]
  have e1 : (64 * (h + g) + c + 1 * (x 0).val) / 64 = h + g := by omega
  have e2 : (64 * (h + g) + c + 1 * (x 0).val) % 64 = c + (x 0).val := by omega
  rw [e1, e2, hadd]
  show FloatOps.addf (v.readAt (Elt F) (Rect.unit (s := S32768) a S16.size ia).toLoadRect (v.writes (Elt F) f Lw) x) (D x) = _
  rw [hD, readAt_below v f Lw (64 * (h + g)) hL a ia (by omega) x]
  congr 1
  have hi : (((Rect.unit (s := S32768) a S16.size ia).toLoadRect.idx x) 0).val = a 0 + 1 * (x 0).val := rfl
  rw [hf _ (by rw [hi]; omega), hi, ha]
  have e3 : (64 * g + c + 1 * (x 0).val) / 64 = g := by omega
  have e4 : (64 * g + c + 1 * (x 0).val) % 64 = c + (x 0).val := by omega
  rw [e3, e4]

/-- An element of a 16-lane unit rectangle lies at or above its offset. -/
theorem le_of_mem_unit (o : Fin 1 → Nat) (io : ∀ j, o j + S16.size j ≤ S32768.size j) (b : Nat) (hb : b ≤ o 0)
    (y : S32768.Idx) (hy : y ∈ (Rect.unit (s := S32768) o S16.size io).set) : b ≤ (y 0).val := by
  have := (Rect.mem_set_unit.mp hy 0).1
  omega

/-- An element whose coordinate lies in a 16-lane unit rectangle's range is in it. -/
theorem mem_unit16 (o : Fin 1 → Nat) (io : ∀ j, o j + S16.size j ≤ S32768.size j) (y : S32768.Idx)
    (h1 : o 0 ≤ (y 0).val) (h2 : (y 0).val < o 0 + 16) : y ∈ (Rect.unit (s := S32768) o S16.size io).set := by
  refine Rect.mem_set_unit.mpr fun a => ?_
  obtain rfl : a = 0 := Subsingleton.elim _ _
  exact ⟨h1, h2⟩

end Row

section RowAll

open Cert.Spec

variable {sg : RefSig} {κ : Kind} {sp : Space}

/-- `piece_ok` for a load of the contents as the trip found them. -/
theorem piece_ok0 (w : Cert.Spec.SW.Idx → F .f32) (h g i c : Nat) (hc : c + 16 ≤ 64)
    (hadd : ∀ e, lutRow w (h + g) e = FloatOps.addf (lutRow w g e) (dlt w i e)) (hgh : g < h)
    (v : View sg κ sp S32768 .f32) (f : v.ty.Contents (Elt F)) (hf : KC.LutOK w (h + g) (v.read (Elt F) f))
    (a o : Fin 1 → Nat) (ia : ∀ j, a j + S16.size j ≤ S32768.size j) (io : ∀ j, o j + S16.size j ≤ S32768.size j)
    (ha : a 0 = 64 * g + c) (ho : o 0 = 64 * (h + g) + c)
    (D : FVec F S16 .f32) (hD : ∀ x : S16.Idx, D x = dlt w i (c + (x 0).val))
    (x : (Rect.unit (s := S32768) o S16.size io).shape.Idx) :
    Idealize.ShloMosaic.addf (s := S16) (φ := .f32)
        (v.readAt (Elt F) (Rect.unit (s := S32768) a S16.size ia).toLoadRect f) D x
      = lutRow w (((Rect.unit (s := S32768) o S16.size io).emb x 0).val / 64)
          (((Rect.unit (s := S32768) o S16.size io).emb x 0).val % 64) :=
  piece_ok w h g i c hc hadd hgh v f hf [] (fun p hp => absurd hp List.not_mem_nil) a o ia io ha ho D hD x

/-- One trip of a feature's loop: the four 16-lane pieces of row `h + g`, each row `g`'s lanes (as the trip found
    them) plus the feature's difference, extend the table from `h + g` rows to `h + g + 1`. -/
theorem lutOK_row (w : Cert.Spec.SW.Idx → F .f32) (h g i : Nat)
    (hadd : ∀ e, lutRow w (h + g) e = FloatOps.addf (lutRow w g e) (dlt w i e)) (hgh : g < h)
    (v : View sg κ sp S32768 .f32) (f : v.ty.Contents (Elt F)) (hf : KC.LutOK w (h + g) (v.read (Elt F) f))
    (a0 a1 a2 a3 o0 o1 o2 o3 : Fin 1 → Nat)
    (ia0 : ∀ j, a0 j + S16.size j ≤ S32768.size j) (ia1 : ∀ j, a1 j + S16.size j ≤ S32768.size j)
    (ia2 : ∀ j, a2 j + S16.size j ≤ S32768.size j) (ia3 : ∀ j, a3 j + S16.size j ≤ S32768.size j)
    (io0 : ∀ j, o0 j + S16.size j ≤ S32768.size j) (io1 : ∀ j, o1 j + S16.size j ≤ S32768.size j)
    (io2 : ∀ j, o2 j + S16.size j ≤ S32768.size j) (io3 : ∀ j, o3 j + S16.size j ≤ S32768.size j)
    (ha0 : a0 0 = 64 * g + 0) (ha1 : a1 0 = 64 * g + 16) (ha2 : a2 0 = 64 * g + 32) (ha3 : a3 0 = 64 * g + 48)
    (ho0 : o0 0 = 64 * (h + g) + 0) (ho1 : o1 0 = 64 * (h + g) + 16) (ho2 : o2 0 = 64 * (h + g) + 32)
    (ho3 : o3 0 = 64 * (h + g) + 48)
    (D0 D1 D2 D3 : FVec F S16 .f32)
    (hD0 : ∀ x : S16.Idx, D0 x = dlt w i (0 + (x 0).val)) (hD1 : ∀ x : S16.Idx, D1 x = dlt w i (16 + (x 0).val))
    (hD2 : ∀ x : S16.Idx, D2 x = dlt w i (32 + (x 0).val)) (hD3 : ∀ x : S16.Idx, D3 x = dlt w i (48 + (x 0).val)) :
    KC.LutOK w (h + g + 1) (v.read (Elt F) (v.writes (Elt F) f
      [(⟨Rect.unit (s := S32768) o3 S16.size io3, Idealize.ShloMosaic.addf (s := S16) (φ := .f32) (v.readAt (Elt F) (Rect.unit (s := S32768) a3 S16.size ia3).toLoadRect f) D3⟩ : View.Piece (Elt F) S32768 .f32),
       (⟨Rect.unit (s := S32768) o2 S16.size io2, Idealize.ShloMosaic.addf (s := S16) (φ := .f32) (v.readAt (Elt F) (Rect.unit (s := S32768) a2 S16.size ia2).toLoadRect f) D2⟩ : View.Piece (Elt F) S32768 .f32),
       (⟨Rect.unit (s := S32768) o1 S16.size io1, Idealize.ShloMosaic.addf (s := S16) (φ := .f32) (v.readAt (Elt F) (Rect.unit (s := S32768) a1 S16.size ia1).toLoadRect f) D1⟩ : View.Piece (Elt F) S32768 .f32),
       (⟨Rect.unit (s := S32768) o0 S16.size io0, Idealize.ShloMosaic.addf (s := S16) (φ := .f32) (v.readAt (Elt F) (Rect.unit (s := S32768) a0 S16.size ia0).toLoadRect f) D0⟩ : View.Piece (Elt F) S32768 .f32)])) := by
  refine lutOK_step w (h + g) v f _ hf ?_ ?_
  · intro p hp
    simp only [List.mem_cons, List.not_mem_nil, or_false] at hp
    rcases hp with rfl | rfl | rfl | rfl
    · exact piece_ok0 w h g i 48 (by norm_num) hadd hgh v f hf a3 o3 ia3 io3 ha3 ho3 D3 hD3
    · exact piece_ok0 w h g i 32 (by norm_num) hadd hgh v f hf a2 o2 ia2 io2 ha2 ho2 D2 hD2
    · exact piece_ok0 w h g i 16 (by norm_num) hadd hgh v f hf a1 o1 ia1 io1 ha1 ho1 D1 hD1
    · exact piece_ok0 w h g i 0 (by norm_num) hadd hgh v f hf a0 o0 ia0 io0 ha0 ho0 D0 hD0
  · intro y h1 h2
    by_cases c1 : (y 0).val < 64 * (h + g) + 16
    · exact ⟨_, List.mem_cons_of_mem _ (List.mem_cons_of_mem _ (List.mem_cons_of_mem _ List.mem_cons_self)),
        mem_unit16 o0 io0 y (by omega) (by omega)⟩
    · by_cases c2 : (y 0).val < 64 * (h + g) + 32
      · exact ⟨_, List.mem_cons_of_mem _ (List.mem_cons_of_mem _ List.mem_cons_self),
          mem_unit16 o1 io1 y (by omega) (by omega)⟩
      · by_cases c3 : (y 0).val < 64 * (h + g) + 48
        · exact ⟨_, List.mem_cons_of_mem _ List.mem_cons_self, mem_unit16 o2 io2 y (by omega) (by omega)⟩
        · exact ⟨_, List.mem_cons_self, mem_unit16 o3 io3 y (by omega) (by omega)⟩

end RowAll

section Diff

open Cert.Spec

/-- The difference of the two 16-lane loads at lanes `c … c + 15` of rows 1 and 0 of feature `i`'s table. -/
theorem diff_ok (w : Cert.Spec.SW.Idx → F .f32) (i c : Nat) (vA vB : Vec F S16 .f32) (oA oB : Nat)
    (hoA : oA = i * 128 + 64 + c) (hoB : oB = i * 128 + c)
    (hA : ∀ x : S16.Idx, vA x = wAt w (oA + (x 0).val)) (hB : ∀ x : S16.Idx, vB x = wAt w (oB + (x 0).val)) :
    ∀ x : S16.Idx, Idealize.ShloMosaic.subf (s := S16) (φ := .f32) vA vB x = dlt w i (c + (x 0).val) := by
  intro x
  subst hoA hoB
  show FloatOps.subf (vA x) (vB x) = _
  rw [hA, hB]
  unfold dlt
  have e1 : i * 128 + 64 + c + (x 0).val = i * 128 + 64 + (c + (x 0).val) := by omega
  have e2 : i * 128 + c + (x 0).val = i * 128 + (c + (x 0).val) := by omega
  rw [e1, e2]

end Diff

end Cert.KernelIdeal.KLut

end
-- ==== Proof.KLutOffs.lean ====
/-
  The offsets of the table loops' loads and stores, lane group by lane group: trip `k` of feature `N`'s loop
  loads row `k` at `64 k + 16 r` and stores row `2 ^ N + k` at `64 (2 ^ N + k) + 16 r`.
-/
import proofs.«207339_g86234353369688_cont_sun_m_1071_33_alg».proof.Proof.Gen.KernelIdeal

namespace Cert.KernelIdeal.KLut

open Cert.KernelIdeal Cert.KernelIdeal.Gen
open Idealize.ShloMosaic

theorem offA1_0 (k : Fin k0_t1_loop.trips) : k0_off4 k 0#32 0 = 64 * k.val + 0 := by
  have h := Gen.k0_off4_eq k 0
  have e : BitVec.ofNat 32 (16 * (0 : Fin 4).val) = 0#32 := by decide
  rw [e] at h
  rw [h]; rfl
theorem offO1_0 (k : Fin k0_t1_loop.trips) : k0_off5 k 0#32 0 = 64 * (2 + k.val) + 0 := by
  have h := Gen.k0_off5_eq k 0
  have e : BitVec.ofNat 32 (16 * (0 : Fin 4).val) = 0#32 := by decide
  rw [e] at h
  rw [h]
  show 64 * k.val + 16 * 0 + 128 = 64 * (2 + k.val) + 0
  omega
theorem offA1_1 (k : Fin k0_t1_loop.trips) : k0_off4 k 16#32 0 = 64 * k.val + 16 := by
  have h := Gen.k0_off4_eq k 1
  have e : BitVec.ofNat 32 (16 * (1 : Fin 4).val) = 16#32 := by decide
  rw [e] at h
  rw [h]; rfl
theorem offO1_1 (k : Fin k0_t1_loop.trips) : k0_off5 k 16#32 0 = 64 * (2 + k.val) + 16 := by
  have h := Gen.k0_off5_eq k 1
  have e : BitVec.ofNat 32 (16 * (1 : Fin 4).val) = 16#32 := by decide
  rw [e] at h
  rw [h]
  show 64 * k.val + 16 * 1 + 128 = 64 * (2 + k.val) + 16
  omega
theorem offA1_2 (k : Fin k0_t1_loop.trips) : k0_off4 k 32#32 0 = 64 * k.val + 32 := by
  have h := Gen.k0_off4_eq k 2
  have e : BitVec.ofNat 32 (16 * (2 : Fin 4).val) = 32#32 := by decide
  rw [e] at h
  rw [h]; rfl
theorem offO1_2 (k : Fin k0_t1_loop.trips) : k0_off5 k 32#32 0 = 64 * (2 + k.val) + 32 := by
  have h := Gen.k0_off5_eq k 2
  have e : BitVec.ofNat 32 (16 * (2 : Fin 4).val) = 32#32 := by decide
  rw [e] at h
  rw [h]
  show 64 * k.val + 16 * 2 + 128 = 64 * (2 + k.val) + 32
  omega
theorem offA1_3 (k : Fin k0_t1_loop.trips) : k0_off4 k 48#32 0 = 64 * k.val + 48 := by
  have h := Gen.k0_off4_eq k 3
  have e : BitVec.ofNat 32 (16 * (3 : Fin 4).val) = 48#32 := by decide
  rw [e] at h
  rw [h]; rfl
theorem offO1_3 (k : Fin k0_t1_loop.trips) : k0_off5 k 48#32 0 = 64 * (2 + k.val) + 48 := by
  have h := Gen.k0_off5_eq k 3
  have e : BitVec.ofNat 32 (16 * (3 : Fin 4).val) = 48#32 := by decide
  rw [e] at h
  rw [h]
  show 64 * k.val + 16 * 3 + 128 = 64 * (2 + k.val) + 48
  omega
theorem tripsLt1 (k : Fin k0_t1_loop.trips) : k.val < 2 := Nat.lt_of_lt_of_le k.isLt Gen.k0_t1_abs.2.1

theorem offA2_0 (k : Fin k0_t2_loop.trips) : k0_off6 k 0#32 0 = 64 * k.val + 0 := by
  have h := Gen.k0_off6_eq k 0
  have e : BitVec.ofNat 32 (16 * (0 : Fin 4).val) = 0#32 := by decide
  rw [e] at h
  rw [h]; rfl
theorem offO2_0 (k : Fin k0_t2_loop.trips) : k0_off7 k 0#32 0 = 64 * (4 + k.val) + 0 := by
  have h := Gen.k0_off7_eq k 0
  have e : BitVec.ofNat 32 (16 * (0 : Fin 4).val) = 0#32 := by decide
  rw [e] at h
  rw [h]
  show 64 * k.val + 16 * 0 + 256 = 64 * (4 + k.val) + 0
  omega
theorem offA2_1 (k : Fin k0_t2_loop.trips) : k0_off6 k 16#32 0 = 64 * k.val + 16 := by
  have h := Gen.k0_off6_eq k 1
  have e : BitVec.ofNat 32 (16 * (1 : Fin 4).val) = 16#32 := by decide
  rw [e] at h
  rw [h]; rfl
theorem offO2_1 (k : Fin k0_t2_loop.trips) : k0_off7 k 16#32 0 = 64 * (4 + k.val) + 16 := by
  have h := Gen.k0_off7_eq k 1
  have e : BitVec.ofNat 32 (16 * (1 : Fin 4).val) = 16#32 := by decide
  rw [e] at h
  rw [h]
  show 64 * k.val + 16 * 1 + 256 = 64 * (4 + k.val) + 16
  omega
theorem offA2_2 (k : Fin k0_t2_loop.trips) : k0_off6 k 32#32 0 = 64 * k.val + 32 := by
  have h := Gen.k0_off6_eq k 2
  have e : BitVec.ofNat 32 (16 * (2 : Fin 4).val) = 32#32 := by decide
  rw [e] at h
  rw [h]; rfl
theorem offO2_2 (k : Fin k0_t2_loop.trips) : k0_off7 k 32#32 0 = 64 * (4 + k.val) + 32 := by
  have h := Gen.k0_off7_eq k 2
  have e : BitVec.ofNat 32 (16 * (2 : Fin 4).val) = 32#32 := by decide
  rw [e] at h
  rw [h]
  show 64 * k.val + 16 * 2 + 256 = 64 * (4 + k.val) + 32
  omega
theorem offA2_3 (k : Fin k0_t2_loop.trips) : k0_off6 k 48#32 0 = 64 * k.val + 48 := by
  have h := Gen.k0_off6_eq k 3
  have e : BitVec.ofNat 32 (16 * (3 : Fin 4).val) = 48#32 := by decide
  rw [e] at h
  rw [h]; rfl
theorem offO2_3 (k : Fin k0_t2_loop.trips) : k0_off7 k 48#32 0 = 64 * (4 + k.val) + 48 := by
  have h := Gen.k0_off7_eq k 3
  have e : BitVec.ofNat 32 (16 * (3 : Fin 4).val) = 48#32 := by decide
  rw [e] at h
  rw [h]
  show 64 * k.val + 16 * 3 + 256 = 64 * (4 + k.val) + 48
  omega
theorem tripsLt2 (k : Fin k0_t2_loop.trips) : k.val < 4 := Nat.lt_of_lt_of_le k.isLt Gen.k0_t2_abs.2.1

theorem offA3_0 (k : Fin k0_t3_loop.trips) : k0_off8 k 0#32 0 = 64 * k.val + 0 := by
  have h := Gen.k0_off8_eq k 0
  have e : BitVec.ofNat 32 (16 * (0 : Fin 4).val) = 0#32 := by decide
  rw [e] at h
  rw [h]; rfl
theorem offO3_0 (k : Fin k0_t3_loop.trips) : k0_off9 k 0#32 0 = 64 * (8 + k.val) + 0 := by
  have h := Gen.k0_off9_eq k 0
  have e : BitVec.ofNat 32 (16 * (0 : Fin 4).val) = 0#32 := by decide
  rw [e] at h
  rw [h]
  show 64 * k.val + 16 * 0 + 512 = 64 * (8 + k.val) + 0
  omega
theorem offA3_1 (k : Fin k0_t3_loop.trips) : k0_off8 k 16#32 0 = 64 * k.val + 16 := by
  have h := Gen.k0_off8_eq k 1
  have e : BitVec.ofNat 32 (16 * (1 : Fin 4).val) = 16#32 := by decide
  rw [e] at h
  rw [h]; rfl
theorem offO3_1 (k : Fin k0_t3_loop.trips) : k0_off9 k 16#32 0 = 64 * (8 + k.val) + 16 := by
  have h := Gen.k0_off9_eq k 1
  have e : BitVec.ofNat 32 (16 * (1 : Fin 4).val) = 16#32 := by decide
  rw [e] at h
  rw [h]
  show 64 * k.val + 16 * 1 + 512 = 64 * (8 + k.val) + 16
  omega
theorem offA3_2 (k : Fin k0_t3_loop.trips) : k0_off8 k 32#32 0 = 64 * k.val + 32 := by
  have h := Gen.k0_off8_eq k 2
  have e : BitVec.ofNat 32 (16 * (2 : Fin 4).val) = 32#32 := by decide
  rw [e] at h
  rw [h]; rfl
theorem offO3_2 (k : Fin k0_t3_loop.trips) : k0_off9 k 32#32 0 = 64 * (8 + k.val) + 32 := by
  have h := Gen.k0_off9_eq k 2
  have e : BitVec.ofNat 32 (16 * (2 : Fin 4).val) = 32#32 := by decide
  rw [e] at h
  rw [h]
  show 64 * k.val + 16 * 2 + 512 = 64 * (8 + k.val) + 32
  omega
theorem offA3_3 (k : Fin k0_t3_loop.trips) : k0_off8 k 48#32 0 = 64 * k.val + 48 := by
  have h := Gen.k0_off8_eq k 3
  have e : BitVec.ofNat 32 (16 * (3 : Fin 4).val) = 48#32 := by decide
  rw [e] at h
  rw [h]; rfl
theorem offO3_3 (k : Fin k0_t3_loop.trips) : k0_off9 k 48#32 0 = 64 * (8 + k.val) + 48 := by
  have h := Gen.k0_off9_eq k 3
  have e : BitVec.ofNat 32 (16 * (3 : Fin 4).val) = 48#32 := by decide
  rw [e] at h
  rw [h]
  show 64 * k.val + 16 * 3 + 512 = 64 * (8 + k.val) + 48
  omega
theorem tripsLt3 (k : Fin k0_t3_loop.trips) : k.val < 8 := Nat.lt_of_lt_of_le k.isLt Gen.k0_t3_abs.2.1

theorem offA4_0 (k : Fin k0_t4_loop.trips) : k0_off10 k 0#32 0 = 64 * k.val + 0 := by
  have h := Gen.k0_off10_eq k 0
  have e : BitVec.ofNat 32 (16 * (0 : Fin 4).val) = 0#32 := by decide
  rw [e] at h
  rw [h]; rfl
theorem offO4_0 (k : Fin k0_t4_loop.trips) : k0_off11 k 0#32 0 = 64 * (16 + k.val) + 0 := by
  have h := Gen.k0_off11_eq k 0
  have e : BitVec.ofNat 32 (16 * (0 : Fin 4).val) = 0#32 := by decide
  rw [e] at h
  rw [h]
  show 64 * k.val + 16 * 0 + 1024 = 64 * (16 + k.val) + 0
  omega
theorem offA4_1 (k : Fin k0_t4_loop.trips) : k0_off10 k 16#32 0 = 64 * k.val + 16 := by
  have h := Gen.k0_off10_eq k 1
  have e : BitVec.ofNat 32 (16 * (1 : Fin 4).val) = 16#32 := by decide
  rw [e] at h
  rw [h]; rfl
theorem offO4_1 (k : Fin k0_t4_loop.trips) : k0_off11 k 16#32 0 = 64 * (16 + k.val) + 16 := by
  have h := Gen.k0_off11_eq k 1
  have e : BitVec.ofNat 32 (16 * (1 : Fin 4).val) = 16#32 := by decide
  rw [e] at h
  rw [h]
  show 64 * k.val + 16 * 1 + 1024 = 64 * (16 + k.val) + 16
  omega
theorem offA4_2 (k : Fin k0_t4_loop.trips) : k0_off10 k 32#32 0 = 64 * k.val + 32 := by
  have h := Gen.k0_off10_eq k 2
  have e : BitVec.ofNat 32 (16 * (2 : Fin 4).val) = 32#32 := by decide
  rw [e] at h
  rw [h]; rfl
theorem offO4_2 (k : Fin k0_t4_loop.trips) : k0_off11 k 32#32 0 = 64 * (16 + k.val) + 32 := by
  have h := Gen.k0_off11_eq k 2
  have e : BitVec.ofNat 32 (16 * (2 : Fin 4).val) = 32#32 := by decide
  rw [e] at h
  rw [h]
  show 64 * k.val + 16 * 2 + 1024 = 64 * (16 + k.val) + 32
  omega
theorem offA4_3 (k : Fin k0_t4_loop.trips) : k0_off10 k 48#32 0 = 64 * k.val + 48 := by
  have h := Gen.k0_off10_eq k 3
  have e : BitVec.ofNat 32 (16 * (3 : Fin 4).val) = 48#32 := by decide
  rw [e] at h
  rw [h]; rfl
theorem offO4_3 (k : Fin k0_t4_loop.trips) : k0_off11 k 48#32 0 = 64 * (16 + k.val) + 48 := by
  have h := Gen.k0_off11_eq k 3
  have e : BitVec.ofNat 32 (16 * (3 : Fin 4).val) = 48#32 := by decide
  rw [e] at h
  rw [h]
  show 64 * k.val + 16 * 3 + 1024 = 64 * (16 + k.val) + 48
  omega
theorem tripsLt4 (k : Fin k0_t4_loop.trips) : k.val < 16 := Nat.lt_of_lt_of_le k.isLt Gen.k0_t4_abs.2.1

theorem offA5_0 (k : Fin k0_t5_loop.trips) : k0_off12 k 0#32 0 = 64 * k.val + 0 := by
  have h := Gen.k0_off12_eq k 0
  have e : BitVec.ofNat 32 (16 * (0 : Fin 4).val) = 0#32 := by decide
  rw [e] at h
  rw [h]; rfl
theorem offO5_0 (k : Fin k0_t5_loop.trips) : k0_off13 k 0#32 0 = 64 * (32 + k.val) + 0 := by
  have h := Gen.k0_off13_eq k 0
  have e : BitVec.ofNat 32 (16 * (0 : Fin 4).val) = 0#32 := by decide
  rw [e] at h
  rw [h]
  show 64 * k.val + 16 * 0 + 2048 = 64 * (32 + k.val) + 0
  omega
theorem offA5_1 (k : Fin k0_t5_loop.trips) : k0_off12 k 16#32 0 = 64 * k.val + 16 := by
  have h := Gen.k0_off12_eq k 1
  have e : BitVec.ofNat 32 (16 * (1 : Fin 4).val) = 16#32 := by decide
  rw [e] at h
  rw [h]; rfl
theorem offO5_1 (k : Fin k0_t5_loop.trips) : k0_off13 k 16#32 0 = 64 * (32 + k.val) + 16 := by
  have h := Gen.k0_off13_eq k 1
  have e : BitVec.ofNat 32 (16 * (1 : Fin 4).val) = 16#32 := by decide
  rw [e] at h
  rw [h]
  show 64 * k.val + 16 * 1 + 2048 = 64 * (32 + k.val) + 16
  omega
theorem offA5_2 (k : Fin k0_t5_loop.trips) : k0_off12 k 32#32 0 = 64 * k.val + 32 := by
  have h := Gen.k0_off12_eq k 2
  have e : BitVec.ofNat 32 (16 * (2 : Fin 4).val) = 32#32 := by decide
  rw [e] at h
  rw [h]; rfl
theorem offO5_2 (k : Fin k0_t5_loop.trips) : k0_off13 k 32#32 0 = 64 * (32 + k.val) + 32 := by
  have h := Gen.k0_off13_eq k 2
  have e : BitVec.ofNat 32 (16 * (2 : Fin 4).val) = 32#32 := by decide
  rw [e] at h
  rw [h]
  show 64 * k.val + 16 * 2 + 2048 = 64 * (32 + k.val) + 32
  omega
theorem offA5_3 (k : Fin k0_t5_loop.trips) : k0_off12 k 48#32 0 = 64 * k.val + 48 := by
  have h := Gen.k0_off12_eq k 3
  have e : BitVec.ofNat 32 (16 * (3 : Fin 4).val) = 48#32 := by decide
  rw [e] at h
  rw [h]; rfl
theorem offO5_3 (k : Fin k0_t5_loop.trips) : k0_off13 k 48#32 0 = 64 * (32 + k.val) + 48 := by
  have h := Gen.k0_off13_eq k 3
  have e : BitVec.ofNat 32 (16 * (3 : Fin 4).val) = 48#32 := by decide
  rw [e] at h
  rw [h]
  show 64 * k.val + 16 * 3 + 2048 = 64 * (32 + k.val) + 48
  omega
theorem tripsLt5 (k : Fin k0_t5_loop.trips) : k.val < 32 := Nat.lt_of_lt_of_le k.isLt Gen.k0_t5_abs.2.1

theorem offA6_0 (k : Fin k0_t6_loop.trips) : k0_off14 k 0#32 0 = 64 * k.val + 0 := by
  have h := Gen.k0_off14_eq k 0
  have e : BitVec.ofNat 32 (16 * (0 : Fin 4).val) = 0#32 := by decide
  rw [e] at h
  rw [h]; rfl
theorem offO6_0 (k : Fin k0_t6_loop.trips) : k0_off15 k 0#32 0 = 64 * (64 + k.val) + 0 := by
  have h := Gen.k0_off15_eq k 0
  have e : BitVec.ofNat 32 (16 * (0 : Fin 4).val) = 0#32 := by decide
  rw [e] at h
  rw [h]
  show 64 * k.val + 16 * 0 + 4096 = 64 * (64 + k.val) + 0
  omega
theorem offA6_1 (k : Fin k0_t6_loop.trips) : k0_off14 k 16#32 0 = 64 * k.val + 16 := by
  have h := Gen.k0_off14_eq k 1
  have e : BitVec.ofNat 32 (16 * (1 : Fin 4).val) = 16#32 := by decide
  rw [e] at h
  rw [h]; rfl
theorem offO6_1 (k : Fin k0_t6_loop.trips) : k0_off15 k 16#32 0 = 64 * (64 + k.val) + 16 := by
  have h := Gen.k0_off15_eq k 1
  have e : BitVec.ofNat 32 (16 * (1 : Fin 4).val) = 16#32 := by decide
  rw [e] at h
  rw [h]
  show 64 * k.val + 16 * 1 + 4096 = 64 * (64 + k.val) + 16
  omega
theorem offA6_2 (k : Fin k0_t6_loop.trips) : k0_off14 k 32#32 0 = 64 * k.val + 32 := by
  have h := Gen.k0_off14_eq k 2
  have e : BitVec.ofNat 32 (16 * (2 : Fin 4).val) = 32#32 := by decide
  rw [e] at h
  rw [h]; rfl
theorem offO6_2 (k : Fin k0_t6_loop.trips) : k0_off15 k 32#32 0 = 64 * (64 + k.val) + 32 := by
  have h := Gen.k0_off15_eq k 2
  have e : BitVec.ofNat 32 (16 * (2 : Fin 4).val) = 32#32 := by decide
  rw [e] at h
  rw [h]
  show 64 * k.val + 16 * 2 + 4096 = 64 * (64 + k.val) + 32
  omega
theorem offA6_3 (k : Fin k0_t6_loop.trips) : k0_off14 k 48#32 0 = 64 * k.val + 48 := by
  have h := Gen.k0_off14_eq k 3
  have e : BitVec.ofNat 32 (16 * (3 : Fin 4).val) = 48#32 := by decide
  rw [e] at h
  rw [h]; rfl
theorem offO6_3 (k : Fin k0_t6_loop.trips) : k0_off15 k 48#32 0 = 64 * (64 + k.val) + 48 := by
  have h := Gen.k0_off15_eq k 3
  have e : BitVec.ofNat 32 (16 * (3 : Fin 4).val) = 48#32 := by decide
  rw [e] at h
  rw [h]
  show 64 * k.val + 16 * 3 + 4096 = 64 * (64 + k.val) + 48
  omega
theorem tripsLt6 (k : Fin k0_t6_loop.trips) : k.val < 64 := Nat.lt_of_lt_of_le k.isLt Gen.k0_t6_abs.2.1

theorem offA7_0 (k : Fin k0_t7_loop.trips) : k0_off16 k 0#32 0 = 64 * k.val + 0 := by
  have h := Gen.k0_off16_eq k 0
  have e : BitVec.ofNat 32 (16 * (0 : Fin 4).val) = 0#32 := by decide
  rw [e] at h
  rw [h]; rfl
theorem offO7_0 (k : Fin k0_t7_loop.trips) : k0_off17 k 0#32 0 = 64 * (128 + k.val) + 0 := by
  have h := Gen.k0_off17_eq k 0
  have e : BitVec.ofNat 32 (16 * (0 : Fin 4).val) = 0#32 := by decide
  rw [e] at h
  rw [h]
  show 64 * k.val + 16 * 0 + 8192 = 64 * (128 + k.val) + 0
  omega
theorem offA7_1 (k : Fin k0_t7_loop.trips) : k0_off16 k 16#32 0 = 64 * k.val + 16 := by
  have h := Gen.k0_off16_eq k 1
  have e : BitVec.ofNat 32 (16 * (1 : Fin 4).val) = 16#32 := by decide
  rw [e] at h
  rw [h]; rfl
theorem offO7_1 (k : Fin k0_t7_loop.trips) : k0_off17 k 16#32 0 = 64 * (128 + k.val) + 16 := by
  have h := Gen.k0_off17_eq k 1
  have e : BitVec.ofNat 32 (16 * (1 : Fin 4).val) = 16#32 := by decide
  rw [e] at h
  rw [h]
  show 64 * k.val + 16 * 1 + 8192 = 64 * (128 + k.val) + 16
  omega
theorem offA7_2 (k : Fin k0_t7_loop.trips) : k0_off16 k 32#32 0 = 64 * k.val + 32 := by
  have h := Gen.k0_off16_eq k 2
  have e : BitVec.ofNat 32 (16 * (2 : Fin 4).val) = 32#32 := by decide
  rw [e] at h
  rw [h]; rfl
theorem offO7_2 (k : Fin k0_t7_loop.trips) : k0_off17 k 32#32 0 = 64 * (128 + k.val) + 32 := by
  have h := Gen.k0_off17_eq k 2
  have e : BitVec.ofNat 32 (16 * (2 : Fin 4).val) = 32#32 := by decide
  rw [e] at h
  rw [h]
  show 64 * k.val + 16 * 2 + 8192 = 64 * (128 + k.val) + 32
  omega
theorem offA7_3 (k : Fin k0_t7_loop.trips) : k0_off16 k 48#32 0 = 64 * k.val + 48 := by
  have h := Gen.k0_off16_eq k 3
  have e : BitVec.ofNat 32 (16 * (3 : Fin 4).val) = 48#32 := by decide
  rw [e] at h
  rw [h]; rfl
theorem offO7_3 (k : Fin k0_t7_loop.trips) : k0_off17 k 48#32 0 = 64 * (128 + k.val) + 48 := by
  have h := Gen.k0_off17_eq k 3
  have e : BitVec.ofNat 32 (16 * (3 : Fin 4).val) = 48#32 := by decide
  rw [e] at h
  rw [h]
  show 64 * k.val + 16 * 3 + 8192 = 64 * (128 + k.val) + 48
  omega
theorem tripsLt7 (k : Fin k0_t7_loop.trips) : k.val < 128 := Nat.lt_of_lt_of_le k.isLt Gen.k0_t7_abs.2.1

theorem offA8_0 (k : Fin k0_t8_loop.trips) : k0_off18 k 0#32 0 = 64 * k.val + 0 := by
  have h := Gen.k0_off18_eq k 0
  have e : BitVec.ofNat 32 (16 * (0 : Fin 4).val) = 0#32 := by decide
  rw [e] at h
  rw [h]; rfl
theorem offO8_0 (k : Fin k0_t8_loop.trips) : k0_off19 k 0#32 0 = 64 * (256 + k.val) + 0 := by
  have h := Gen.k0_off19_eq k 0
  have e : BitVec.ofNat 32 (16 * (0 : Fin 4).val) = 0#32 := by decide
  rw [e] at h
  rw [h]
  show 64 * k.val + 16 * 0 + 16384 = 64 * (256 + k.val) + 0
  omega
theorem offA8_1 (k : Fin k0_t8_loop.trips) : k0_off18 k 16#32 0 = 64 * k.val + 16 := by
  have h := Gen.k0_off18_eq k 1
  have e : BitVec.ofNat 32 (16 * (1 : Fin 4).val) = 16#32 := by decide
  rw [e] at h
  rw [h]; rfl
theorem offO8_1 (k : Fin k0_t8_loop.trips) : k0_off19 k 16#32 0 = 64 * (256 + k.val) + 16 := by
  have h := Gen.k0_off19_eq k 1
  have e : BitVec.ofNat 32 (16 * (1 : Fin 4).val) = 16#32 := by decide
  rw [e] at h
  rw [h]
  show 64 * k.val + 16 * 1 + 16384 = 64 * (256 + k.val) + 16
  omega
theorem offA8_2 (k : Fin k0_t8_loop.trips) : k0_off18 k 32#32 0 = 64 * k.val + 32 := by
  have h := Gen.k0_off18_eq k 2
  have e : BitVec.ofNat 32 (16 * (2 : Fin 4).val) = 32#32 := by decide
  rw [e] at h
  rw [h]; rfl
theorem offO8_2 (k : Fin k0_t8_loop.trips) : k0_off19 k 32#32 0 = 64 * (256 + k.val) + 32 := by
  have h := Gen.k0_off19_eq k 2
  have e : BitVec.ofNat 32 (16 * (2 : Fin 4).val) = 32#32 := by decide
  rw [e] at h
  rw [h]
  show 64 * k.val + 16 * 2 + 16384 = 64 * (256 + k.val) + 32
  omega
theorem offA8_3 (k : Fin k0_t8_loop.trips) : k0_off18 k 48#32 0 = 64 * k.val + 48 := by
  have h := Gen.k0_off18_eq k 3
  have e : BitVec.ofNat 32 (16 * (3 : Fin 4).val) = 48#32 := by decide
  rw [e] at h
  rw [h]; rfl
theorem offO8_3 (k : Fin k0_t8_loop.trips) : k0_off19 k 48#32 0 = 64 * (256 + k.val) + 48 := by
  have h := Gen.k0_off19_eq k 3
  have e : BitVec.ofNat 32 (16 * (3 : Fin 4).val) = 48#32 := by decide
  rw [e] at h
  rw [h]
  show 64 * k.val + 16 * 3 + 16384 = 64 * (256 + k.val) + 48
  omega
theorem tripsLt8 (k : Fin k0_t8_loop.trips) : k.val < 256 := Nat.lt_of_lt_of_le k.isLt Gen.k0_t8_abs.2.1

end Cert.KernelIdeal.KLut
-- ==== Proof.KLut.lean ====
/-
  The kernel's table build, loop by loop.

  Feature `N`'s counted loop (`N = 1 … 8`, `2 ^ N` trips) extends the table scratch from `2 ^ N` rows to
  `2 ^ (N + 1)`: trip `k` loads row `k` in four 16-lane pieces, adds the feature's difference
  `W_N[1] − W_N[0]` on those lanes, and stores the sums as row `2 ^ N + k`.  The invariant `Ilut` says the first
  `2 ^ N + k` rows are the table's; each `lut_region_N` is one trip's step of it, at a symbolic trip.
-/
import proofs.«207339_g86234353369688_cont_sun_m_1071_33_alg».proof.Proof.KCommon
import proofs.«207339_g86234353369688_cont_sun_m_1071_33_alg».proof.Proof.KLutLemmas
import proofs.«207339_g86234353369688_cont_sun_m_1071_33_alg».proof.Proof.KLutOffs
import proofs.«207339_g86234353369688_cont_sun_m_1071_33_alg».proof.Proof.Gen.KernelIdeal.Skeleton

noncomputable section

namespace Cert.KernelIdeal.KLut

open Cert.KernelIdeal Cert.KernelIdeal.Gen Cert.KernelIdeal.KC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.KernelIdeal.main_v15_scv : Memref Cert.KernelIdeal.sig Kind.scVector Space.hbm Cert.KernelIdeal.S100000 EltTy.i32)
local notation "wW" => (Memref.whole Cert.KernelIdeal.main_v8_scv : Memref Cert.KernelIdeal.sig Kind.scVector Space.hbm Cert.KernelIdeal.S1152 EltTy.f32)
local notation "oW" => (Memref.whole Cert.KernelIdeal.main_v16_scv : Memref Cert.KernelIdeal.sig Kind.scVector Space.hbm Cert.KernelIdeal.S100000x64 EltTy.f32)
local notation "b0" => (Memref.whole Cert.KernelIdeal.cc0_scratch0 : Memref Cert.KernelIdeal.sig Kind.scVector Space.vmem Cert.KernelIdeal.S160 EltTy.i32)
local notation "b1" => (Memref.whole Cert.KernelIdeal.cc0_scratch1 : Memref Cert.KernelIdeal.sig Kind.scVector Space.vmem Cert.KernelIdeal.S160 EltTy.i32)
local notation "b2" => (Memref.whole Cert.KernelIdeal.cc0_scratch2 : Memref Cert.KernelIdeal.sig Kind.scVector Space.vmem Cert.KernelIdeal.S1152 EltTy.f32)
local notation "b3" => (Memref.whole Cert.KernelIdeal.cc0_scratch3 : Memref Cert.KernelIdeal.sig Kind.scVector Space.vmem Cert.KernelIdeal.S32768 EltTy.f32)
local notation "b4" => (Memref.whole Cert.KernelIdeal.cc0_scratch4 : Memref Cert.KernelIdeal.sig Kind.scVector Space.vmem Cert.KernelIdeal.S160x64 EltTy.f32)
local notation "b5" => (Memref.whole Cert.KernelIdeal.cc0_scratch5 : Memref Cert.KernelIdeal.sig Kind.scVector Space.vmem Cert.KernelIdeal.S160x64 EltTy.f32)

variable [FloatOps F]

/-- The table scratch holds the table's first `h + k` rows. -/
def Ilut (w : Cert.Spec.SW.Idx → F .f32) (d : Dev nD) (L : grid0.Coords) (h : Nat) (k : Nat) (_ : BitVec 32) : sProp 𝕄 :=
  iprop(∃ f, ((b3).view.loc (thr d L) ↦{fullShare} f) ∗ ⌜KC.LutOK w (h + k) f⌝)

/-- `lutOK_row` at the table scratch held whole, where reading through the view is the identity. -/
theorem lutOK_row_b3 (w : Cert.Spec.SW.Idx → F .f32) (h g i : Nat)
    (hadd : ∀ e, Cert.Spec.lutRow w (h + g) e = FloatOps.addf (Cert.Spec.lutRow w g e) (Cert.Spec.dlt w i e)) (hgh : g < h)
    (f : (b3).view.ty.Contents (Elt F)) (hf : KC.LutOK w (h + g) f)
    (a0 a1 a2 a3 o0 o1 o2 o3 : Fin 1 → Nat)
    (ia0 : ∀ j, a0 j + S16.size j ≤ S32768.size j) (ia1 : ∀ j, a1 j + S16.size j ≤ S32768.size j)
    (ia2 : ∀ j, a2 j + S16.size j ≤ S32768.size j) (ia3 : ∀ j, a3 j + S16.size j ≤ S32768.size j)
    (io0 : ∀ j, o0 j + S16.size j ≤ S32768.size j) (io1 : ∀ j, o1 j + S16.size j ≤ S32768.size j)
    (io2 : ∀ j, o2 j + S16.size j ≤ S32768.size j) (io3 : ∀ j, o3 j + S16.size j ≤ S32768.size j)
    (ha0 : a0 0 = 64 * g + 0) (ha1 : a1 0 = 64 * g + 16) (ha2 : a2 0 = 64 * g + 32) (ha3 : a3 0 = 64 * g + 48)
    (ho0 : o0 0 = 64 * (h + g) + 0) (ho1 : o1 0 = 64 * (h + g) + 16) (ho2 : o2 0 = 64 * (h + g) + 32)
    (ho3 : o3 0 = 64 * (h + g) + 48)
    (D0 D1 D2 D3 : FVec F S16 .f32)
    (hD0 : ∀ x : S16.Idx, D0 x = Cert.Spec.dlt w i (0 + (x 0).val)) (hD1 : ∀ x : S16.Idx, D1 x = Cert.Spec.dlt w i (16 + (x 0).val))
    (hD2 : ∀ x : S16.Idx, D2 x = Cert.Spec.dlt w i (32 + (x 0).val)) (hD3 : ∀ x : S16.Idx, D3 x = Cert.Spec.dlt w i (48 + (x 0).val)) :
    KC.LutOK w (h + g + 1) ((b3).view.writes (Elt F) f
      [(⟨Rect.unit (s := S32768) o3 S16.size io3, Idealize.ShloMosaic.addf (s := S16) (φ := .f32) ((b3).view.readAt (Elt F) (Rect.unit (s := S32768) a3 S16.size ia3).toLoadRect f) D3⟩ : View.Piece (Elt F) S32768 .f32),
       (⟨Rect.unit (s := S32768) o2 S16.size io2, Idealize.ShloMosaic.addf (s := S16) (φ := .f32) ((b3).view.readAt (Elt F) (Rect.unit (s := S32768) a2 S16.size ia2).toLoadRect f) D2⟩ : View.Piece (Elt F) S32768 .f32),
       (⟨Rect.unit (s := S32768) o1 S16.size io1, Idealize.ShloMosaic.addf (s := S16) (φ := .f32) ((b3).view.readAt (Elt F) (Rect.unit (s := S32768) a1 S16.size ia1).toLoadRect f) D1⟩ : View.Piece (Elt F) S32768 .f32),
       (⟨Rect.unit (s := S32768) o0 S16.size io0, Idealize.ShloMosaic.addf (s := S16) (φ := .f32) ((b3).view.readAt (Elt F) (Rect.unit (s := S32768) a0 S16.size ia0).toLoadRect f) D0⟩ : View.Piece (Elt F) S32768 .f32)]) :=
  lutOK_row w h g i hadd hgh (b3).view f hf a0 a1 a2 a3 o0 o1 o2 o3 ia0 ia1 ia2 ia3 io0 io1 io2 io3
    ha0 ha1 ha2 ha3 ho0 ho1 ho2 ho3 D0 D1 D2 D3 hD0 hD1 hD2 hD3

set_option maxHeartbeats 1000000 in
/-- Trip `k` of feature 1's loop writes row `2 + k` of the table. -/
theorem lut_region_1 (w : Cert.Spec.SW.Idx → F .f32) (d : Dev nD) (L : grid0.Coords)
    (v112 : FVec F S16 .f32) (c0 : BitVec 32) (vA0 vB0 : Vec F S16 .f32) (vA1 vB1 : Vec F S16 .f32) (vA2 vB2 : Vec F S16 .f32) (vA3 vB3 : Vec F S16 .f32)
    (hA0 : ∀ x : S16.Idx, vA0 x = Cert.Spec.wAt w (192 + (x 0).val))
    (hB0 : ∀ x : S16.Idx, vB0 x = Cert.Spec.wAt w (128 + (x 0).val))
    (hA1 : ∀ x : S16.Idx, vA1 x = Cert.Spec.wAt w (208 + (x 0).val))
    (hB1 : ∀ x : S16.Idx, vB1 x = Cert.Spec.wAt w (144 + (x 0).val))
    (hA2 : ∀ x : S16.Idx, vA2 x = Cert.Spec.wAt w (224 + (x 0).val))
    (hB2 : ∀ x : S16.Idx, vB2 x = Cert.Spec.wAt w (160 + (x 0).val))
    (hA3 : ∀ x : S16.Idx, vA3 x = Cert.Spec.wAt w (240 + (x 0).val))
    (hB3 : ∀ x : S16.Idx, vB3 x = Cert.Spec.wAt w (176 + (x 0).val)) :
    ∀ (k : Fin k0_t1_loop.trips) (acc : BitVec 32), Ilut w d L 2 k.val acc ⊢
      wp frame (wpE (defs₀ (F := F)) 𝒱₀ (thr d L) none) Set.univ
        (k0_t1_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          v112 c0 vA0 vB0 vA1 vB1 vA2 vB2 vA3 vB3 k acc)
        (Ilut w d L 2 (k.val + 1)) := by
  intro k acc
  unfold Ilut
  iintro ⟨%f, Hf, %hf⟩
  unfold k0_t1_body
  rw [k0_part1_eq_skeleton]; unfold k0_part1_skel
  sl_exec
  sl_step
  iexists _
  isplitl [Hf]
  · iexact Hf
  ipureintro
  sl_unfold_run_names
  have hk : k.val < 2 := tripsLt1 k
  have e : 2 + (k.val + 1) = 2 + k.val + 1 := by omega
  rw [e]
  exact lutOK_row_b3 w 2 k.val 1 (fun e => Cert.Algebra.lutRow_add_2 w k.val e hk) hk f hf
    (k0_off4 k 0#32) (k0_off4 k 16#32) (k0_off4 k 32#32) (k0_off4 k 48#32)
    (k0_off5 k 0#32) (k0_off5 k 16#32) (k0_off5 k 32#32) (k0_off5 k 48#32)
    _ _ _ _ _ _ _ _ (offA1_0 k) (offA1_1 k) (offA1_2 k) (offA1_3 k)
    (offO1_0 k) (offO1_1 k) (offO1_2 k) (offO1_3 k)
    (k0_pay81 vA0 vB0) (k0_pay82 vA1 vB1) (k0_pay83 vA2 vB2) (k0_pay84 vA3 vB3)
    (diff_ok w 1 0 vA0 vB0 192 128 (by norm_num) (by norm_num) hA0 hB0)
    (diff_ok w 1 16 vA1 vB1 208 144 (by norm_num) (by norm_num) hA1 hB1)
    (diff_ok w 1 32 vA2 vB2 224 160 (by norm_num) (by norm_num) hA2 hB2)
    (diff_ok w 1 48 vA3 vB3 240 176 (by norm_num) (by norm_num) hA3 hB3)

set_option maxHeartbeats 1000000 in
/-- Trip `k` of feature 2's loop writes row `4 + k` of the table. -/
theorem lut_region_2 (w : Cert.Spec.SW.Idx → F .f32) (d : Dev nD) (L : grid0.Coords)
    (di0 : FVec F S16 .f32) (di1 : FVec F S16 .f32) (di2 : FVec F S16 .f32) (di3 : FVec F S16 .f32)
    (hd0 : ∀ x : S16.Idx, di0 x = Cert.Spec.dlt w 2 (0 + (x 0).val))
    (hd1 : ∀ x : S16.Idx, di1 x = Cert.Spec.dlt w 2 (16 + (x 0).val))
    (hd2 : ∀ x : S16.Idx, di2 x = Cert.Spec.dlt w 2 (32 + (x 0).val))
    (hd3 : ∀ x : S16.Idx, di3 x = Cert.Spec.dlt w 2 (48 + (x 0).val)) :
    ∀ (k : Fin k0_t2_loop.trips) (acc : BitVec 32), Ilut w d L 4 k.val acc ⊢
      wp frame (wpE (defs₀ (F := F)) 𝒱₀ (thr d L) none) Set.univ
        (k0_t2_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          di0 di1 di2 di3 k acc)
        (Ilut w d L 4 (k.val + 1)) := by
  intro k acc
  unfold Ilut
  iintro ⟨%f, Hf, %hf⟩
  unfold k0_t2_body
  rw [k0_part2_eq_skeleton]; unfold k0_part2_skel
  sl_exec
  sl_step
  iexists _
  isplitl [Hf]
  · iexact Hf
  ipureintro
  sl_unfold_run_names
  have hk : k.val < 4 := tripsLt2 k
  have e : 4 + (k.val + 1) = 4 + k.val + 1 := by omega
  rw [e]
  exact lutOK_row_b3 w 4 k.val 2 (fun e => Cert.Algebra.lutRow_add_4 w k.val e hk) hk f hf
    (k0_off6 k 0#32) (k0_off6 k 16#32) (k0_off6 k 32#32) (k0_off6 k 48#32)
    (k0_off7 k 0#32) (k0_off7 k 16#32) (k0_off7 k 32#32) (k0_off7 k 48#32)
    _ _ _ _ _ _ _ _ (offA2_0 k) (offA2_1 k) (offA2_2 k) (offA2_3 k)
    (offO2_0 k) (offO2_1 k) (offO2_2 k) (offO2_3 k)
    di0 di1 di2 di3
    hd0
    hd1
    hd2
    hd3

set_option maxHeartbeats 1000000 in
/-- Trip `k` of feature 3's loop writes row `8 + k` of the table. -/
theorem lut_region_3 (w : Cert.Spec.SW.Idx → F .f32) (d : Dev nD) (L : grid0.Coords)
    (u0 : FVec F S16 .f32) (u1 : FVec F S16 .f32) (u2 : FVec F S16 .f32) (u3 : FVec F S16 .f32) (vA0 vB0 : Vec F S16 .f32) (vA1 vB1 : Vec F S16 .f32) (vA2 vB2 : Vec F S16 .f32) (vA3 vB3 : Vec F S16 .f32)
    (hA0 : ∀ x : S16.Idx, vA0 x = Cert.Spec.wAt w (448 + (x 0).val))
    (hB0 : ∀ x : S16.Idx, vB0 x = Cert.Spec.wAt w (384 + (x 0).val))
    (hA1 : ∀ x : S16.Idx, vA1 x = Cert.Spec.wAt w (464 + (x 0).val))
    (hB1 : ∀ x : S16.Idx, vB1 x = Cert.Spec.wAt w (400 + (x 0).val))
    (hA2 : ∀ x : S16.Idx, vA2 x = Cert.Spec.wAt w (480 + (x 0).val))
    (hB2 : ∀ x : S16.Idx, vB2 x = Cert.Spec.wAt w (416 + (x 0).val))
    (hA3 : ∀ x : S16.Idx, vA3 x = Cert.Spec.wAt w (496 + (x 0).val))
    (hB3 : ∀ x : S16.Idx, vB3 x = Cert.Spec.wAt w (432 + (x 0).val)) :
    ∀ (k : Fin k0_t3_loop.trips) (acc : BitVec 32), Ilut w d L 8 k.val acc ⊢
      wp frame (wpE (defs₀ (F := F)) 𝒱₀ (thr d L) none) Set.univ
        (k0_t3_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          u0 u1 u2 u3 vA0 vB0 vA1 vB1 vA2 vB2 vA3 vB3 k acc)
        (Ilut w d L 8 (k.val + 1)) := by
  intro k acc
  unfold Ilut
  iintro ⟨%f, Hf, %hf⟩
  unfold k0_t3_body
  rw [k0_part3_eq_skeleton]; unfold k0_part3_skel
  sl_exec
  sl_step
  iexists _
  isplitl [Hf]
  · iexact Hf
  ipureintro
  sl_unfold_run_names
  have hk : k.val < 8 := tripsLt3 k
  have e : 8 + (k.val + 1) = 8 + k.val + 1 := by omega
  rw [e]
  exact lutOK_row_b3 w 8 k.val 3 (fun e => Cert.Algebra.lutRow_add_8 w k.val e hk) hk f hf
    (k0_off8 k 0#32) (k0_off8 k 16#32) (k0_off8 k 32#32) (k0_off8 k 48#32)
    (k0_off9 k 0#32) (k0_off9 k 16#32) (k0_off9 k 32#32) (k0_off9 k 48#32)
    _ _ _ _ _ _ _ _ (offA3_0 k) (offA3_1 k) (offA3_2 k) (offA3_3 k)
    (offO3_0 k) (offO3_1 k) (offO3_2 k) (offO3_3 k)
    (k0_pay89 vA0 vB0) (k0_pay90 vA1 vB1) (k0_pay91 vA2 vB2) (k0_pay92 vA3 vB3)
    (diff_ok w 3 0 vA0 vB0 448 384 (by norm_num) (by norm_num) hA0 hB0)
    (diff_ok w 3 16 vA1 vB1 464 400 (by norm_num) (by norm_num) hA1 hB1)
    (diff_ok w 3 32 vA2 vB2 480 416 (by norm_num) (by norm_num) hA2 hB2)
    (diff_ok w 3 48 vA3 vB3 496 432 (by norm_num) (by norm_num) hA3 hB3)

set_option maxHeartbeats 1000000 in
/-- Trip `k` of feature 4's loop writes row `16 + k` of the table. -/
theorem lut_region_4 (w : Cert.Spec.SW.Idx → F .f32) (d : Dev nD) (L : grid0.Coords)
    (u0 : FVec F S16 .f32) (u1 : FVec F S16 .f32) (u2 : FVec F S16 .f32) (u3 : FVec F S16 .f32) (vA0 vB0 : Vec F S16 .f32) (vA1 vB1 : Vec F S16 .f32) (vA2 vB2 : Vec F S16 .f32) (vA3 vB3 : Vec F S16 .f32)
    (hA0 : ∀ x : S16.Idx, vA0 x = Cert.Spec.wAt w (576 + (x 0).val))
    (hB0 : ∀ x : S16.Idx, vB0 x = Cert.Spec.wAt w (512 + (x 0).val))
    (hA1 : ∀ x : S16.Idx, vA1 x = Cert.Spec.wAt w (592 + (x 0).val))
    (hB1 : ∀ x : S16.Idx, vB1 x = Cert.Spec.wAt w (528 + (x 0).val))
    (hA2 : ∀ x : S16.Idx, vA2 x = Cert.Spec.wAt w (608 + (x 0).val))
    (hB2 : ∀ x : S16.Idx, vB2 x = Cert.Spec.wAt w (544 + (x 0).val))
    (hA3 : ∀ x : S16.Idx, vA3 x = Cert.Spec.wAt w (624 + (x 0).val))
    (hB3 : ∀ x : S16.Idx, vB3 x = Cert.Spec.wAt w (560 + (x 0).val)) :
    ∀ (k : Fin k0_t4_loop.trips) (acc : BitVec 32), Ilut w d L 16 k.val acc ⊢
      wp frame (wpE (defs₀ (F := F)) 𝒱₀ (thr d L) none) Set.univ
        (k0_t4_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          u0 u1 u2 u3 vA0 vB0 vA1 vB1 vA2 vB2 vA3 vB3 k acc)
        (Ilut w d L 16 (k.val + 1)) := by
  intro k acc
  unfold Ilut
  iintro ⟨%f, Hf, %hf⟩
  unfold k0_t4_body
  rw [k0_part4_eq_skeleton]; unfold k0_part4_skel
  sl_exec
  sl_step
  iexists _
  isplitl [Hf]
  · iexact Hf
  ipureintro
  sl_unfold_run_names
  have hk : k.val < 16 := tripsLt4 k
  have e : 16 + (k.val + 1) = 16 + k.val + 1 := by omega
  rw [e]
  exact lutOK_row_b3 w 16 k.val 4 (fun e => Cert.Algebra.lutRow_add_16 w k.val e hk) hk f hf
    (k0_off10 k 0#32) (k0_off10 k 16#32) (k0_off10 k 32#32) (k0_off10 k 48#32)
    (k0_off11 k 0#32) (k0_off11 k 16#32) (k0_off11 k 32#32) (k0_off11 k 48#32)
    _ _ _ _ _ _ _ _ (offA4_0 k) (offA4_1 k) (offA4_2 k) (offA4_3 k)
    (offO4_0 k) (offO4_1 k) (offO4_2 k) (offO4_3 k)
    (k0_pay93 vA0 vB0) (k0_pay94 vA1 vB1) (k0_pay95 vA2 vB2) (k0_pay96 vA3 vB3)
    (diff_ok w 4 0 vA0 vB0 576 512 (by norm_num) (by norm_num) hA0 hB0)
    (diff_ok w 4 16 vA1 vB1 592 528 (by norm_num) (by norm_num) hA1 hB1)
    (diff_ok w 4 32 vA2 vB2 608 544 (by norm_num) (by norm_num) hA2 hB2)
    (diff_ok w 4 48 vA3 vB3 624 560 (by norm_num) (by norm_num) hA3 hB3)

set_option maxHeartbeats 1000000 in
/-- Trip `k` of feature 5's loop writes row `32 + k` of the table. -/
theorem lut_region_5 (w : Cert.Spec.SW.Idx → F .f32) (d : Dev nD) (L : grid0.Coords)
    (vA0 vB0 : Vec F S16 .f32) (vA1 vB1 : Vec F S16 .f32) (vA2 vB2 : Vec F S16 .f32) (vA3 vB3 : Vec F S16 .f32)
    (hA0 : ∀ x : S16.Idx, vA0 x = Cert.Spec.wAt w (704 + (x 0).val))
    (hB0 : ∀ x : S16.Idx, vB0 x = Cert.Spec.wAt w (640 + (x 0).val))
    (hA1 : ∀ x : S16.Idx, vA1 x = Cert.Spec.wAt w (720 + (x 0).val))
    (hB1 : ∀ x : S16.Idx, vB1 x = Cert.Spec.wAt w (656 + (x 0).val))
    (hA2 : ∀ x : S16.Idx, vA2 x = Cert.Spec.wAt w (736 + (x 0).val))
    (hB2 : ∀ x : S16.Idx, vB2 x = Cert.Spec.wAt w (672 + (x 0).val))
    (hA3 : ∀ x : S16.Idx, vA3 x = Cert.Spec.wAt w (752 + (x 0).val))
    (hB3 : ∀ x : S16.Idx, vB3 x = Cert.Spec.wAt w (688 + (x 0).val)) :
    ∀ (k : Fin k0_t5_loop.trips) (acc : BitVec 32), Ilut w d L 32 k.val acc ⊢
      wp frame (wpE (defs₀ (F := F)) 𝒱₀ (thr d L) none) Set.univ
        (k0_t5_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          vA0 vB0 vA1 vB1 vA2 vB2 vA3 vB3 k acc)
        (Ilut w d L 32 (k.val + 1)) := by
  intro k acc
  unfold Ilut
  iintro ⟨%f, Hf, %hf⟩
  unfold k0_t5_body
  rw [k0_part5_eq_skeleton]; unfold k0_part5_skel
  sl_exec
  sl_step
  iexists _
  isplitl [Hf]
  · iexact Hf
  ipureintro
  sl_unfold_run_names
  have hk : k.val < 32 := tripsLt5 k
  have e : 32 + (k.val + 1) = 32 + k.val + 1 := by omega
  rw [e]
  exact lutOK_row_b3 w 32 k.val 5 (fun e => Cert.Algebra.lutRow_add_32 w k.val e hk) hk f hf
    (k0_off12 k 0#32) (k0_off12 k 16#32) (k0_off12 k 32#32) (k0_off12 k 48#32)
    (k0_off13 k 0#32) (k0_off13 k 16#32) (k0_off13 k 32#32) (k0_off13 k 48#32)
    _ _ _ _ _ _ _ _ (offA5_0 k) (offA5_1 k) (offA5_2 k) (offA5_3 k)
    (offO5_0 k) (offO5_1 k) (offO5_2 k) (offO5_3 k)
    (k0_pay97 vA0 vB0) (k0_pay98 vA1 vB1) (k0_pay99 vA2 vB2) (k0_pay100 vA3 vB3)
    (diff_ok w 5 0 vA0 vB0 704 640 (by norm_num) (by norm_num) hA0 hB0)
    (diff_ok w 5 16 vA1 vB1 720 656 (by norm_num) (by norm_num) hA1 hB1)
    (diff_ok w 5 32 vA2 vB2 736 672 (by norm_num) (by norm_num) hA2 hB2)
    (diff_ok w 5 48 vA3 vB3 752 688 (by norm_num) (by norm_num) hA3 hB3)

set_option maxHeartbeats 1000000 in
/-- Trip `k` of feature 6's loop writes row `64 + k` of the table. -/
theorem lut_region_6 (w : Cert.Spec.SW.Idx → F .f32) (d : Dev nD) (L : grid0.Coords)
    (vA0 vB0 : Vec F S16 .f32) (vA1 vB1 : Vec F S16 .f32) (vA2 vB2 : Vec F S16 .f32) (vA3 vB3 : Vec F S16 .f32)
    (hA0 : ∀ x : S16.Idx, vA0 x = Cert.Spec.wAt w (832 + (x 0).val))
    (hB0 : ∀ x : S16.Idx, vB0 x = Cert.Spec.wAt w (768 + (x 0).val))
    (hA1 : ∀ x : S16.Idx, vA1 x = Cert.Spec.wAt w (848 + (x 0).val))
    (hB1 : ∀ x : S16.Idx, vB1 x = Cert.Spec.wAt w (784 + (x 0).val))
    (hA2 : ∀ x : S16.Idx, vA2 x = Cert.Spec.wAt w (864 + (x 0).val))
    (hB2 : ∀ x : S16.Idx, vB2 x = Cert.Spec.wAt w (800 + (x 0).val))
    (hA3 : ∀ x : S16.Idx, vA3 x = Cert.Spec.wAt w (880 + (x 0).val))
    (hB3 : ∀ x : S16.Idx, vB3 x = Cert.Spec.wAt w (816 + (x 0).val)) :
    ∀ (k : Fin k0_t6_loop.trips) (acc : BitVec 32), Ilut w d L 64 k.val acc ⊢
      wp frame (wpE (defs₀ (F := F)) 𝒱₀ (thr d L) none) Set.univ
        (k0_t6_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          vA0 vB0 vA1 vB1 vA2 vB2 vA3 vB3 k acc)
        (Ilut w d L 64 (k.val + 1)) := by
  intro k acc
  unfold Ilut
  iintro ⟨%f, Hf, %hf⟩
  unfold k0_t6_body
  rw [k0_part6_eq_skeleton]; unfold k0_part6_skel
  sl_exec
  sl_step
  iexists _
  isplitl [Hf]
  · iexact Hf
  ipureintro
  sl_unfold_run_names
  have hk : k.val < 64 := tripsLt6 k
  have e : 64 + (k.val + 1) = 64 + k.val + 1 := by omega
  rw [e]
  exact lutOK_row_b3 w 64 k.val 6 (fun e => Cert.Algebra.lutRow_add_64 w k.val e hk) hk f hf
    (k0_off14 k 0#32) (k0_off14 k 16#32) (k0_off14 k 32#32) (k0_off14 k 48#32)
    (k0_off15 k 0#32) (k0_off15 k 16#32) (k0_off15 k 32#32) (k0_off15 k 48#32)
    _ _ _ _ _ _ _ _ (offA6_0 k) (offA6_1 k) (offA6_2 k) (offA6_3 k)
    (offO6_0 k) (offO6_1 k) (offO6_2 k) (offO6_3 k)
    (k0_pay101 vA0 vB0) (k0_pay102 vA1 vB1) (k0_pay103 vA2 vB2) (k0_pay104 vA3 vB3)
    (diff_ok w 6 0 vA0 vB0 832 768 (by norm_num) (by norm_num) hA0 hB0)
    (diff_ok w 6 16 vA1 vB1 848 784 (by norm_num) (by norm_num) hA1 hB1)
    (diff_ok w 6 32 vA2 vB2 864 800 (by norm_num) (by norm_num) hA2 hB2)
    (diff_ok w 6 48 vA3 vB3 880 816 (by norm_num) (by norm_num) hA3 hB3)

set_option maxHeartbeats 1000000 in
/-- Trip `k` of feature 7's loop writes row `128 + k` of the table. -/
theorem lut_region_7 (w : Cert.Spec.SW.Idx → F .f32) (d : Dev nD) (L : grid0.Coords)
    (v1 : BitVec 32) (v20 : BitVec 32) (di0 : FVec F S16 .f32) (vA1 vB1 : Vec F S16 .f32) (vA2 vB2 : Vec F S16 .f32) (vA3 vB3 : Vec F S16 .f32)
    (hd0 : ∀ x : S16.Idx, di0 x = Cert.Spec.dlt w 7 (0 + (x 0).val))
    (hA1 : ∀ x : S16.Idx, vA1 x = Cert.Spec.wAt w (976 + (x 0).val))
    (hB1 : ∀ x : S16.Idx, vB1 x = Cert.Spec.wAt w (912 + (x 0).val))
    (hA2 : ∀ x : S16.Idx, vA2 x = Cert.Spec.wAt w (992 + (x 0).val))
    (hB2 : ∀ x : S16.Idx, vB2 x = Cert.Spec.wAt w (928 + (x 0).val))
    (hA3 : ∀ x : S16.Idx, vA3 x = Cert.Spec.wAt w (1008 + (x 0).val))
    (hB3 : ∀ x : S16.Idx, vB3 x = Cert.Spec.wAt w (944 + (x 0).val)) :
    ∀ (k : Fin k0_t7_loop.trips) (acc : BitVec 32), Ilut w d L 128 k.val acc ⊢
      wp frame (wpE (defs₀ (F := F)) 𝒱₀ (thr d L) none) Set.univ
        (k0_t7_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          v1 v20 di0 vA1 vB1 vA2 vB2 vA3 vB3 k acc)
        (Ilut w d L 128 (k.val + 1)) := by
  intro k acc
  unfold Ilut
  iintro ⟨%f, Hf, %hf⟩
  unfold k0_t7_body
  rw [k0_part7_eq_skeleton]; unfold k0_part7_skel
  sl_exec
  sl_step
  iexists _
  isplitl [Hf]
  · iexact Hf
  ipureintro
  sl_unfold_run_names
  have hk : k.val < 128 := tripsLt7 k
  have e : 128 + (k.val + 1) = 128 + k.val + 1 := by omega
  rw [e]
  exact lutOK_row_b3 w 128 k.val 7 (fun e => Cert.Algebra.lutRow_add_128 w k.val e hk) hk f hf
    (k0_off16 k 0#32) (k0_off16 k 16#32) (k0_off16 k 32#32) (k0_off16 k 48#32)
    (k0_off17 k 0#32) (k0_off17 k 16#32) (k0_off17 k 32#32) (k0_off17 k 48#32)
    _ _ _ _ _ _ _ _ (offA7_0 k) (offA7_1 k) (offA7_2 k) (offA7_3 k)
    (offO7_0 k) (offO7_1 k) (offO7_2 k) (offO7_3 k)
    di0 (k0_pay106 vA1 vB1) (k0_pay107 vA2 vB2) (k0_pay108 vA3 vB3)
    hd0
    (diff_ok w 7 16 vA1 vB1 976 912 (by norm_num) (by norm_num) hA1 hB1)
    (diff_ok w 7 32 vA2 vB2 992 928 (by norm_num) (by norm_num) hA2 hB2)
    (diff_ok w 7 48 vA3 vB3 1008 944 (by norm_num) (by norm_num) hA3 hB3)

set_option maxHeartbeats 1000000 in
/-- Trip `k` of feature 8's loop writes row `256 + k` of the table. -/
theorem lut_region_8 (w : Cert.Spec.SW.Idx → F .f32) (d : Dev nD) (L : grid0.Coords)
    (v1 : BitVec 32) (v20 : BitVec 32) (u0 : FVec F S16 .f32) (vA0 vB0 : Vec F S16 .f32) (vA1 vB1 : Vec F S16 .f32) (vA2 vB2 : Vec F S16 .f32) (vA3 vB3 : Vec F S16 .f32)
    (hA0 : ∀ x : S16.Idx, vA0 x = Cert.Spec.wAt w (1088 + (x 0).val))
    (hB0 : ∀ x : S16.Idx, vB0 x = Cert.Spec.wAt w (1024 + (x 0).val))
    (hA1 : ∀ x : S16.Idx, vA1 x = Cert.Spec.wAt w (1104 + (x 0).val))
    (hB1 : ∀ x : S16.Idx, vB1 x = Cert.Spec.wAt w (1040 + (x 0).val))
    (hA2 : ∀ x : S16.Idx, vA2 x = Cert.Spec.wAt w (1120 + (x 0).val))
    (hB2 : ∀ x : S16.Idx, vB2 x = Cert.Spec.wAt w (1056 + (x 0).val))
    (hA3 : ∀ x : S16.Idx, vA3 x = Cert.Spec.wAt w (1136 + (x 0).val))
    (hB3 : ∀ x : S16.Idx, vB3 x = Cert.Spec.wAt w (1072 + (x 0).val)) :
    ∀ (k : Fin k0_t8_loop.trips) (acc : BitVec 32), Ilut w d L 256 k.val acc ⊢
      wp frame (wpE (defs₀ (F := F)) 𝒱₀ (thr d L) none) Set.univ
        (k0_t8_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          v1 v20 u0 vA0 vB0 vA1 vB1 vA2 vB2 vA3 vB3 k acc)
        (Ilut w d L 256 (k.val + 1)) := by
  intro k acc
  unfold Ilut
  iintro ⟨%f, Hf, %hf⟩
  unfold k0_t8_body
  rw [k0_part8_eq_skeleton]; unfold k0_part8_skel
  sl_exec
  sl_step
  iexists _
  isplitl [Hf]
  · iexact Hf
  ipureintro
  sl_unfold_run_names
  have hk : k.val < 256 := tripsLt8 k
  have e : 256 + (k.val + 1) = 256 + k.val + 1 := by omega
  rw [e]
  exact lutOK_row_b3 w 256 k.val 8 (fun e => Cert.Algebra.lutRow_add_256 w k.val e hk) hk f hf
    (k0_off18 k 0#32) (k0_off18 k 16#32) (k0_off18 k 32#32) (k0_off18 k 48#32)
    (k0_off19 k 0#32) (k0_off19 k 16#32) (k0_off19 k 32#32) (k0_off19 k 48#32)
    _ _ _ _ _ _ _ _ (offA8_0 k) (offA8_1 k) (offA8_2 k) (offA8_3 k)
    (offO8_0 k) (offO8_1 k) (offO8_2 k) (offO8_3 k)
    (k0_pay109 vA0 vB0) (k0_pay110 vA1 vB1) (k0_pay111 vA2 vB2) (k0_pay112 vA3 vB3)
    (diff_ok w 8 0 vA0 vB0 1088 1024 (by norm_num) (by norm_num) hA0 hB0)
    (diff_ok w 8 16 vA1 vB1 1104 1040 (by norm_num) (by norm_num) hA1 hB1)
    (diff_ok w 8 32 vA2 vB2 1120 1056 (by norm_num) (by norm_num) hA2 hB2)
    (diff_ok w 8 48 vA3 vB3 1136 1072 (by norm_num) (by norm_num) hA3 hB3)

end Cert.KernelIdeal.KLut

end
-- ==== Proof.KEnds.lean ====
/-
  The two ends of the ring of transfers: what the two copies of packed words issued before the ring deliver, and
  how the worker's blocks of the result are put back together after it.
-/
import proofs.«207339_g86234353369688_cont_sun_m_1071_33_alg».proof.Proof.KTile1
import proofs.«207339_g86234353369688_cont_sun_m_1071_33_alg».proof.Proof.KTile0

noncomputable section

namespace Cert.KernelIdeal.KT

open Cert.KernelIdeal Cert.KernelIdeal.Gen Cert.KernelIdeal.KC Cert.KernelIdeal.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.KernelIdeal.main_v15_scv : Memref Cert.KernelIdeal.sig Kind.scVector Space.hbm Cert.KernelIdeal.S100000 EltTy.i32)
local notation "wW" => (Memref.whole Cert.KernelIdeal.main_v8_scv : Memref Cert.KernelIdeal.sig Kind.scVector Space.hbm Cert.KernelIdeal.S1152 EltTy.f32)
local notation "oW" => (Memref.whole Cert.KernelIdeal.main_v16_scv : Memref Cert.KernelIdeal.sig Kind.scVector Space.hbm Cert.KernelIdeal.S100000x64 EltTy.f32)
local notation "b0" => (Memref.whole Cert.KernelIdeal.cc0_scratch0 : Memref Cert.KernelIdeal.sig Kind.scVector Space.vmem Cert.KernelIdeal.S160 EltTy.i32)
local notation "b1" => (Memref.whole Cert.KernelIdeal.cc0_scratch1 : Memref Cert.KernelIdeal.sig Kind.scVector Space.vmem Cert.KernelIdeal.S160 EltTy.i32)
local notation "b2" => (Memref.whole Cert.KernelIdeal.cc0_scratch2 : Memref Cert.KernelIdeal.sig Kind.scVector Space.vmem Cert.KernelIdeal.S1152 EltTy.f32)
local notation "b3" => (Memref.whole Cert.KernelIdeal.cc0_scratch3 : Memref Cert.KernelIdeal.sig Kind.scVector Space.vmem Cert.KernelIdeal.S32768 EltTy.f32)
local notation "b4" => (Memref.whole Cert.KernelIdeal.cc0_scratch4 : Memref Cert.KernelIdeal.sig Kind.scVector Space.vmem Cert.KernelIdeal.S160x64 EltTy.f32)
local notation "b5" => (Memref.whole Cert.KernelIdeal.cc0_scratch5 : Memref Cert.KernelIdeal.sig Kind.scVector Space.vmem Cert.KernelIdeal.S160x64 EltTy.f32)

variable [FloatOps F]
variable (d : Dev nD) (L : grid0.Coords)

/-- A landed copy of an even-numbered block's packed words, whatever came with it. -/
theorem DX0_intro (xp : Buf (Elt F) (pLoc d)) (s : Nat) (xv : Buf (Elt F) ((b0).view.loc (thr d L))) (P : sProp 𝕄)
    (h : KC.XvOK xp (bE L s) xv) :
    (iprop(((b0).view.loc (thr d L) ↦{fullShare} xv) ∗ P) : sProp 𝕄) ⊢ DX0 d L xp s := by
  iintro ⟨H, -⟩
  iexists xv
  isplitl [H]; · iexact H
  ipureintro; exact h

/-- The same for an odd-numbered block. -/
theorem DX1_intro (xp : Buf (Elt F) (pLoc d)) (s : Nat) (xv : Buf (Elt F) ((b1).view.loc (thr d L))) (P : sProp 𝕄)
    (h : KC.XvOK xp (bO L s) xv) :
    (iprop(((b1).view.loc (thr d L) ↦{fullShare} xv) ∗ P) : sProp 𝕄) ⊢ DX1 d L xp s := by
  iintro ⟨H, -⟩
  iexists xv
  isplitl [H]; · iexact H
  ipureintro; exact h

/-! ## The two copies issued before the ring -/

omit [FloatOps F] in
/-- The slice of the packed words the first copy reads starts at the worker's first even-numbered block. -/
theorem off1_even : k0_off1 L 0#32 = ![160 * bE L 0] :=
  (Gen.k0_off1_eq L ⟨0, by decide⟩).trans (congrArg (fun x : Nat => (![x] : Fin 1 → Nat))
    (by show 320 * (L 1).val + 160 * (L 0).val + 5120 * 0 = 160 * (wid L + 64 * 0); unfold wid; omega))

omit [FloatOps F] in
/-- The second copy's slice starts at the worker's first odd-numbered block. -/
theorem off1_odd : k0_off1 L 32#32 = ![160 * bO L 0] :=
  (Gen.k0_off1_eq L ⟨1, by decide⟩).trans (congrArg (fun x : Nat => (![x] : Fin 1 → Nat))
    (by show 320 * (L 1).val + 160 * (L 0).val + 5120 * 1 = 160 * (wid L + 64 * 0 + 32); unfold wid; omega))

omit [FloatOps F] in
/-- The first index scratch written whole with what a 160-word slice of the packed words at word `160 b` reads holds
    block `b` of the packed words. -/
theorem xv_of_copy0 (xp : Buf (Elt F) (pLoc d)) (b : Nat) (off : Fin 1 → Nat)
    (h : ∀ a, off a + S160.size a ≤ S100000.size a) (hoff : off = ![160 * b])
    (f0 : Buf (Elt F) ((b0).view.loc (thr d L))) :
    KC.XvOK xp b (View.write (Elt F) (b0).view f0
      (ReadAs.same.apply (View.read (Elt F) ((pW).slice (Rect.unit (s := S100000) off S160.size h) (fun _ => rfl)).view xp)) Finset.univ) := by
  subst hoff
  show KC.XvOK xp b ((View.whole (cc0_scratch0 : Ref sig .scVector)).write (Elt F) f0 _ Finset.univ)
  rw [View.write_whole_univ]
  intro r
  refine ⟨(Rect.unit (s := S100000) ![160 * b] S160.size h).emb r, ?_, rfl⟩
  show (![160 * b] : Fin 1 → Nat) 0 + 1 * (r 0).val = 160 * b + (r 0).val
  simp

omit [FloatOps F] in
/-- The same for the second index scratch. -/
theorem xv_of_copy1 (xp : Buf (Elt F) (pLoc d)) (b : Nat) (off : Fin 1 → Nat)
    (h : ∀ a, off a + S160.size a ≤ S100000.size a) (hoff : off = ![160 * b])
    (f1 : Buf (Elt F) ((b1).view.loc (thr d L))) :
    KC.XvOK xp b (View.write (Elt F) (b1).view f1
      (ReadAs.same.apply (View.read (Elt F) ((pW).slice (Rect.unit (s := S100000) off S160.size h) (fun _ => rfl)).view xp)) Finset.univ) := by
  subst hoff
  show KC.XvOK xp b ((View.whole (cc0_scratch1 : Ref sig .scVector)).write (Elt F) f1 _ Finset.univ)
  rw [View.write_whole_univ]
  intro r
  refine ⟨(Rect.unit (s := S100000) ![160 * b] S160.size h).emb r, ?_, rfl⟩
  show (![160 * b] : Fin 1 → Nat) 0 + 1 * (r 0).val = 160 * b + (r 0).val
  simp

/-! ## After the ring -/

omit [FloatOps F] in
/-- A wait at the index that owes nothing keeps the recorded waits within what the task may have waited for. -/
theorem waits_insert (W W' : Waits sig (HIx 1)) (sm : SemLoc sig) (h : ∀ p ∈ W', p ∈ W ∨ p.2 = none) :
    ∀ p ∈ insert (sm, (default : HIx 1)) W', p ∈ W ∨ p.2 = none := by
  intro p hp
  rcases Finset.mem_insert.mp hp with e | e
  · exact .inr (e ▸ rfl)
  · exact h p e

omit [FloatOps F] in
/-- The worker's rows of the result from its blocks as the ring leaves them: the even-numbered blocks of steps 0 to 8
    and the one of step 9, the odd-numbered blocks but the last and the last. -/
theorem rows_join (f : Buf (Elt F) (oLoc d)) :
    (iprop((bigSep (Finset.range (10 - 1)) fun s => oLoc d ↦[blkSet (bE L s)]{fullShare} f)
        ∗ (oLoc d ↦[blkSet (bE L (10 - 1))]{fullShare} f)
        ∗ (bigSep (Finset.range (min 10 (nOdd L) - 1)) fun s => oLoc d ↦[blkSet (bO L s)]{fullShare} f)
        ∗ (oLoc d ↦[blkSet (bO L (min 10 (nOdd L) - 1))]{fullShare} f)) : sProp 𝕄)
      ⊢ (oLoc d ↦[rowsOf (wid L)]{fullShare} f) := by
  obtain ⟨k, hk1, hk2⟩ : ∃ k, nOdd L = k + 1 ∧ min 10 (nOdd L) - 1 = k :=
    ⟨nOdd L - 1, by have := nOdd_ge L; omega, by have := nOdd_ge L; have := nOdd_le L; omega⟩
  rw [rows_split d L fullShare f, hk2, hk1, ← Finset.range_eq_Ico, ← Finset.range_eq_Ico, range_push k,
    show Finset.range 10 = Finset.range (9 + 1) from rfl, range_push 9]
  iintro ⟨HdE, HlE, HdO, HlO⟩
  isplitl [HdE HlE]
  · isplitl [HlE]; · iexact HlE
    iexact HdE
  · isplitl [HlO]; · iexact HlO
    iexact HdO

end Cert.KernelIdeal.KT

end
-- ==== Proof.KCompLib.lean ====
/-
  One trip of the compute loop, as pure facts.

  A trip of the loop handles sixteen rows of a 160-row block.  For row `r = 16 k + j` it reads the packed word
  `xv[r]`, multiplies it by 64 — the offset of table row `xv[r]` in the flat table scratch —, reads the four
  sixteen-lane pieces of that table row and writes them to row `r` of the staging buffer.  This file states: the
  offset is in range of the table scratch (the words are below 512); what each of the four loads reads is the
  table row of the packed word; and how the staging buffer's contents grow, one sixteen-lane piece at a time
  (`PartOK`), from "the first `16 k` rows are done" to "the first `16 (k + 1)` rows are done".
-/
import proofs.«207339_g86234353369688_cont_sun_m_1071_33_alg».proof.Proof.KCommon
import proofs.«207339_g86234353369688_cont_sun_m_1071_33_alg».proof.Proof.KInv
import Idealize.ShloMosaic.Lib.Pipeline.Value

noncomputable section

namespace Cert.KernelIdeal.KCompLib

open Cert.KernelIdeal Cert.KernelIdeal.Gen Cert.KernelIdeal.KC
open Idealize.ShloMosaic Idealize.ShloMosaic.ValueIdx

variable {F : FTy → Type} [FloatOps F]

/-- What a staging buffer is filled with: row `r` is the table row named by word `r` of the index scratch. -/
def G (w : Cert.Spec.SW.Idx → F .f32) (xv : S160.Idx → BitVec 32) : S160x64.Idx → F .f32 :=
  fun y => Cert.Spec.lutRow w (xv (ix1 (y 0))).toNat (y 1).val

/-- The words of the index scratch are packed words, so below 512. -/
theorem xv_lt {xp : S100000.Idx → BitVec 32} {blk : Nat} {xv : S160.Idx → BitVec 32}
    (hxp : ∀ n : S100000.Idx, (xp n).toNat < 512) (hxv : XvOK xp blk xv) (r : S160.Idx) : (xv r).toNat < 512 := by
  obtain ⟨n, -, e⟩ := hxv r
  rw [e]; exact hxp n

/-- Rows that agree with `G` are done in the sense of `OutOK`; -/
theorem outOK_of_G {w : Cert.Spec.SW.Idx → F .f32} {xp : S100000.Idx → BitVec 32} {blk : Nat} {xv : S160.Idx → BitVec 32}
    (hxv : XvOK xp blk xv) (n : Nat) (f : S160x64.Idx → F .f32)
    (h : ∀ y : S160x64.Idx, (y 0).val < n → f y = G w xv y) : OutOK w xp blk n f := by
  intro y hy
  obtain ⟨m, hm, e⟩ := hxv (ix1 (y 0))
  exact ⟨m, hm, by rw [h y hy, G, e]⟩

/-- and conversely. -/
theorem G_of_outOK {w : Cert.Spec.SW.Idx → F .f32} {xp : S100000.Idx → BitVec 32} {blk : Nat} {xv : S160.Idx → BitVec 32}
    (hxv : XvOK xp blk xv) (n : Nat) (f : S160x64.Idx → F .f32) (h : OutOK w xp blk n f) :
    ∀ y : S160x64.Idx, (y 0).val < n → f y = G w xv y := by
  intro y hy
  obtain ⟨m, hm, e⟩ := h y hy
  obtain ⟨m', hm', e'⟩ := hxv (ix1 (y 0))
  have hmm : m = m' := by
    funext a
    match a with
    | ⟨0, _⟩ => exact Fin.ext (hm.trans hm'.symm)
  rw [e, G, e', hmm]

section Part

variable {sg : RefSig} {κ : Kind} {sp : Space} (v : View sg κ sp S160x64 .f32) (Gf : S160x64.Idx → F .f32)

/-- The rows below `n`, and the first `c` lanes of row `n`, read `Gf` through the view. -/
def PartOK (n c : Nat) (g : v.ty.Contents (Elt F)) : Prop :=
  ∀ y : S160x64.Idx, ((y 0).val < n ∨ ((y 0).val = n ∧ (y 1).val < c)) → v.read (Elt F) g y = Gf y

/-- A full row is the next row with no lane yet. -/
theorem part_next {n m : Nat} {g : v.ty.Contents (Elt F)} (h : PartOK v Gf n 64 g) (hm : m = n + 1) : PartOK v Gf m 0 g := by
  subst hm
  intro y hy
  apply h y
  have := idx2_lt1 y
  omega

/-- One more piece of sixteen lanes of row `n`, written with `Gf`'s values. -/
theorem part_cons (n c c2 : Nat) {n' c' : Nat} {g0 : v.ty.Contents (Elt F)} {L : List (View.Piece (Elt F) S160x64 .f32)}
    {off : Fin 2 → Nat} {inb : ∀ a, off a + S1x16.size a ≤ S160x64.size a}
    {wv : (Rect.unit (s := S160x64) off S1x16.size inb).shape.Idx → F .f32}
    (hoff : off = ![n', c']) (hn : n' = n) (hc : c' = c) (hc2 : c2 = c + 16)
    (hw : ∀ x, wv x = Gf ((Rect.unit (s := S160x64) off S1x16.size inb).emb x))
    (h : PartOK v Gf n c (v.writes (Elt F) g0 L)) :
    PartOK v Gf n c2 (v.writes (Elt F) g0 (⟨Rect.unit (s := S160x64) off S1x16.size inb, wv⟩ :: L)) := by
  subst hn hc hc2
  intro y hy
  by_cases hmem : y ∈ (Rect.unit (s := S160x64) off S1x16.size inb).set
  · obtain ⟨x, rfl⟩ := (Rect.unit (s := S160x64) off S1x16.size inb).exists_idx_of_mem hmem
    rw [show (Rect.unit (s := S160x64) off S1x16.size inb).toLoadRect.idx x = (Rect.unit (s := S160x64) off S1x16.size inb).emb x from rfl,
      View.read_writes_cons_emb]
    exact hw x
  · rw [View.writes_cons, View.read_slice_write_of_not_mem _ _ _ _ (by rw [Rect.map_emb_univ]; exact hmem)]
    apply h y
    rw [Rect.mem_set_unit] at hmem
    subst hoff
    have hm2 : ¬ ((n' ≤ (y 0).val ∧ (y 0).val < n' + 1) ∧ (c' ≤ (y 1).val ∧ (y 1).val < c' + 16)) :=
      fun hh => hmem (Fin.forall_fin_two.2 hh)
    omega

/-- "The first `n` rows are done", from the piecewise form; -/
theorem outOK_of_part {w : Cert.Spec.SW.Idx → F .f32} {xp : S100000.Idx → BitVec 32} {blk : Nat} {xv : S160.Idx → BitVec 32}
    (rd : v.ty.Contents (Elt F) → S160x64.Idx → F .f32) (hrd : ∀ g y, v.read (Elt F) g y = rd g y)
    (hxv : XvOK xp blk xv) (n m : Nat) (g : v.ty.Contents (Elt F)) (h : PartOK v (G w xv) n 0 g) (hm : n = m) :
    OutOK w xp blk m (rd g) :=
  hm ▸ outOK_of_G hxv n _ fun y hy => (hrd g y).symm.trans (h y (Or.inl hy))

/-- and into it. -/
theorem part_of_outOK {w : Cert.Spec.SW.Idx → F .f32} {xp : S100000.Idx → BitVec 32} {blk : Nat} {xv : S160.Idx → BitVec 32}
    (rd : v.ty.Contents (Elt F) → S160x64.Idx → F .f32) (hrd : ∀ g y, v.read (Elt F) g y = rd g y)
    (hxv : XvOK xp blk xv) (n : Nat) (g : v.ty.Contents (Elt F)) (h : OutOK w xp blk n (rd g)) :
    PartOK v (G w xv) n 0 g :=
  fun y hy => (hrd g y).trans (G_of_outOK hxv n _ h y (by omega))

end Part

/-- The word extracted for lane `j` of trip `k`: 64 times word `16 k + j` of the index scratch. -/
theorem word_eq (RD : (r : LoadRect S160) → (S160.Idx → BitVec 32) → r.shape.Idx → BitVec 32)
    (hRD : ∀ r f x, RD r f x = f (r.idx x)) (xv : S160.Idx → BitVec 32) (k : Nat)
    (offX : Fin 1 → Nat) (hoffX : offX = ![16 * k]) (inbX : ∀ a, offX a + S16.size a ≤ S160.size a)
    (j : Nat) (slj : S16.Slices ![j] S1) (ip : ∀ a, (![0] : Fin 1 → Nat) a < S1.size a) (hrow : 16 * k + j < 160) :
    extractAt ![0] (extractStridedSlice S1 ![j] (muli (s := S16) (w := 32) (RD (Rect.unit (s := S160) offX S16.size inbX).toLoadRect xv) (broadcast S16 64#32)) slj) ip
      = xv (ix1 ⟨16 * k + j, hrow⟩) * 64#32 := by
  subst hoffX
  unfold extractAt extractStridedSlice muli broadcast IntOp.muli
  rw [hRD]
  congr 2
  funext a
  match a with
  | ⟨0, _⟩ => exact Fin.ext (by show 16 * k + 1 * (j + 0) = 16 * k + j; omega)

/-- The four loads at that word's offset stay inside the table scratch. -/
theorem chk_ok {xv : S160.Idx → BitVec 32} (hp : ∀ r, (xv r).toNat < 512)
    (RD : (r : LoadRect S160) → (S160.Idx → BitVec 32) → r.shape.Idx → BitVec 32)
    (hRD : ∀ r f x, RD r f x = f (r.idx x)) (k : Nat) (hk : k < 10)
    (offX : Fin 1 → Nat) (hoffX : offX = ![16 * k]) (inbX : ∀ a, offX a + S16.size a ≤ S160.size a)
    (j : Nat) (slj : S16.Slices ![j] S1) (ip : ∀ a, (![0] : Fin 1 → Nat) a < S1.size a)
    (offF : BitVec 32 → BitVec 32 → Fin 1 → Nat)
    (hoffF : ∀ v c, offF v c = ![(Scalar.indexCast (Scalar.addi v c)).toNat]) :
    ∀ (r : Fin 4) (a : Fin 1),
      offF (extractAt ![0] (extractStridedSlice S1 ![j] (muli (s := S16) (w := 32) (RD (Rect.unit (s := S160) offX S16.size inbX).toLoadRect xv) (broadcast S16 64#32)) slj) ip)
          (BitVec.ofNat 32 (16 * r.val)) a + S16.size a ≤ S32768.size a := by
  have hj : j < 16 := by
    obtain ⟨_, h⟩ := slj
    have := h 0
    simpa using this
  intro r a
  rw [hoffF, word_eq RD hRD xv k offX hoffX inbX j slj ip (by omega)]
  have hp' := hp (ix1 ⟨16 * k + j, by omega⟩)
  have hr := r.isLt
  match a with
  | ⟨0, _⟩ =>
    show (xv (ix1 ⟨16 * k + j, _⟩) * 64#32 + BitVec.ofNat 32 (16 * r.val)).toNat + 16 ≤ 32768
    rw [BitVec.toNat_add, BitVec.toNat_mul, BitVec.toNat_ofNat]
    simp only [BitVec.toNat_ofNat]
    omega

/-- What one of the four loads at that word's offset reads, laid out as a row piece: the table row of the packed
    word, lanes `16 dd … 16 dd + 15`. -/
theorem pay_ok {w : Cert.Spec.SW.Idx → F .f32} {xv : S160.Idx → BitVec 32} {lut : S32768.Idx → F .f32}
    (hlut : LutOK w 512 lut) (hp : ∀ r, (xv r).toNat < 512)
    (RL : (r : LoadRect S32768) → (S32768.Idx → F .f32) → r.shape.Idx → F .f32) (hRL : ∀ r f x, RL r f x = f (r.idx x))
    (word : BitVec 32) (row : Nat) (hrow : row < 160) (hword : word = xv (ix1 ⟨row, hrow⟩) * 64#32)
    (dd : Nat) (hdd : dd < 4) (cst : BitVec 32) (hcst : cst.toNat = 16 * dd)
    (offF : BitVec 32 → BitVec 32 → Fin 1 → Nat)
    (hoffF : ∀ v c, offF v c = ![(Scalar.indexCast (Scalar.addi v c)).toNat])
    (inbL : ∀ a, offF word cst a + S16.size a ≤ S32768.size a)
    (off : Fin 2 → Nat) (n' c' : Nat) (hoff : off = ![n', c']) (hn : n' = row) (hc : c' = 16 * dd)
    (inb : ∀ a, off a + S1x16.size a ≤ S160x64.size a) (sc : S16.ShapeCasts S1x16) :
    ∀ x : (Rect.unit (s := S160x64) off S1x16.size inb).shape.Idx,
      shapeCast S1x16 (RL (Rect.unit (s := S32768) (offF word cst) S16.size inbL).toLoadRect lut) sc x
        = G w xv ((Rect.unit (s := S160x64) off S1x16.size inb).emb x) := by
  have hoffL := hoffF word cst
  generalize offF word cst = offL at hoffL inbL ⊢
  subst hoffL hoff hn hc
  intro x
  have hx1 : (x 1).val < 16 := (x 1).isLt
  have hx0 : (x 0).val < 1 := (x 0).isLt
  have hp' := hp (ix1 ⟨n', hrow⟩)
  have hw1 : word.toNat = 64 * (xv (ix1 ⟨n', hrow⟩)).toNat := by
    rw [hword, BitVec.toNat_mul]
    simp only [BitVec.toNat_ofNat]
    omega
  have hidx : (Scalar.indexCast (Scalar.addi word cst)).toNat = word.toNat + 16 * dd := by
    show (word + cst).toNat = _
    rw [BitVec.toNat_add, hcst]
    omega
  rw [shapeCast_apply _ sc x (ix1 ⟨(x 1).val, hx1⟩) (by
    rw [Shape.rowMajor_val_one, Shape.rowMajor_val_two]
    show (x 1).val = (x 0).val * 16 + (x 1).val
    omega)]
  rw [hRL]
  have hI : (((Rect.unit (s := S32768) ![(Scalar.indexCast (Scalar.addi word cst)).toNat] S16.size inbL).toLoadRect.idx (ix1 ⟨(x 1).val, hx1⟩)) 0).val
      = 64 * (xv (ix1 ⟨n', hrow⟩)).toNat + 16 * dd + (x 1).val := by
    show (Scalar.indexCast (Scalar.addi word cst)).toNat + 1 * (x 1).val = _
    rw [hidx, hw1]; omega
  have hE0 : ((Rect.unit (s := S160x64) ![n', 16 * dd] S1x16.size inb).emb x) 0 = ⟨n', hrow⟩ :=
    Fin.ext (by show n' + 1 * (x 0).val = n'; omega)
  have hE1 : (((Rect.unit (s := S160x64) ![n', 16 * dd] S1x16.size inb).emb x) 1).val = 16 * dd + (x 1).val := by
    show 16 * dd + 1 * (x 1).val = _; omega
  have e1 : (((Rect.unit (s := S32768) ![(Scalar.indexCast (Scalar.addi word cst)).toNat] S16.size inbL).toLoadRect.idx (ix1 ⟨(x 1).val, hx1⟩)) 0).val / 64 = (xv (ix1 ⟨n', hrow⟩)).toNat := by rw [hI]; omega
  have e2 : (((Rect.unit (s := S32768) ![(Scalar.indexCast (Scalar.addi word cst)).toNat] S16.size inbL).toLoadRect.idx (ix1 ⟨(x 1).val, hx1⟩)) 0).val % 64 = 16 * dd + (x 1).val := by rw [hI]; omega
  have hxvE : (xv (ix1 (((Rect.unit (s := S160x64) ![n', 16 * dd] S1x16.size inb).emb x) 0))).toNat = (xv (ix1 ⟨n', hrow⟩)).toNat :=
    congrArg (fun z : Fin 160 => (xv (ix1 z)).toNat) hE0
  rw [hlut _ (by rw [hI]; omega)]
  exact (congrArg₂ (Cert.Spec.lutRow w) e1 e2).trans (congrArg₂ (Cert.Spec.lutRow w) hxvE hE1).symm

end Cert.KernelIdeal.KCompLib

end
-- ==== Proof.KCompute.lean ====
/-
  The kernel's compute loops, as loop-region lemmas.

  For each of the two staging buffers the kernel runs a ten-trip loop; trip `k` reads sixteen packed words
  `xv[16 k … 16 k + 16)` from the index scratch, multiplies them by 64 and, for each lane `j`, copies the
  64-lane table row at offset `64 · xv[16 k + j]` of the table scratch into row `16 k + j` of the staging buffer,
  in four pieces of sixteen lanes.  The invariant (`Icmp0`, `Icmp1`) says the first `16 k` rows of the staging
  buffer hold the table rows named by the block's packed words; a region lemma (`compute_region0`,
  `compute_region1`) takes it from `k` to `k + 1`.  The pure facts used are in `KCompLib`.
-/
import proofs.«207339_g86234353369688_cont_sun_m_1071_33_alg».proof.Proof.KCommon
import proofs.«207339_g86234353369688_cont_sun_m_1071_33_alg».proof.Proof.KInv
import proofs.«207339_g86234353369688_cont_sun_m_1071_33_alg».proof.Proof.KConds
import proofs.«207339_g86234353369688_cont_sun_m_1071_33_alg».proof.Proof.KCompLib
import proofs.«207339_g86234353369688_cont_sun_m_1071_33_alg».proof.Proof.Gen.KernelIdeal.Skeleton

noncomputable section

namespace Cert.KernelIdeal.KCompute

open Cert.KernelIdeal Cert.KernelIdeal.Gen Cert.KernelIdeal.KC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.KernelIdeal.main_v15_scv : Memref Cert.KernelIdeal.sig Kind.scVector Space.hbm Cert.KernelIdeal.S100000 EltTy.i32)
local notation "wW" => (Memref.whole Cert.KernelIdeal.main_v8_scv : Memref Cert.KernelIdeal.sig Kind.scVector Space.hbm Cert.KernelIdeal.S1152 EltTy.f32)
local notation "oW" => (Memref.whole Cert.KernelIdeal.main_v16_scv : Memref Cert.KernelIdeal.sig Kind.scVector Space.hbm Cert.KernelIdeal.S100000x64 EltTy.f32)
local notation "b0" => (Memref.whole Cert.KernelIdeal.cc0_scratch0 : Memref Cert.KernelIdeal.sig Kind.scVector Space.vmem Cert.KernelIdeal.S160 EltTy.i32)
local notation "b1" => (Memref.whole Cert.KernelIdeal.cc0_scratch1 : Memref Cert.KernelIdeal.sig Kind.scVector Space.vmem Cert.KernelIdeal.S160 EltTy.i32)
local notation "b2" => (Memref.whole Cert.KernelIdeal.cc0_scratch2 : Memref Cert.KernelIdeal.sig Kind.scVector Space.vmem Cert.KernelIdeal.S1152 EltTy.f32)
local notation "b3" => (Memref.whole Cert.KernelIdeal.cc0_scratch3 : Memref Cert.KernelIdeal.sig Kind.scVector Space.vmem Cert.KernelIdeal.S32768 EltTy.f32)
local notation "b4" => (Memref.whole Cert.KernelIdeal.cc0_scratch4 : Memref Cert.KernelIdeal.sig Kind.scVector Space.vmem Cert.KernelIdeal.S160x64 EltTy.f32)
local notation "b5" => (Memref.whole Cert.KernelIdeal.cc0_scratch5 : Memref Cert.KernelIdeal.sig Kind.scVector Space.vmem Cert.KernelIdeal.S160x64 EltTy.f32)

variable [FloatOps F]

/-- The invariant of the compute loop over staging buffer 0: the index scratch and the table scratch as they
    are, and the first `16 k` rows of the staging buffer done. -/
def Icmp0 (w : Cert.Spec.SW.Idx → F .f32) (xp : S100000.Idx → BitVec 32) (d : Dev nD) (L : grid0.Coords) (blk : Nat)
    (xv : S160.Idx → BitVec 32) (lut : S32768.Idx → F .f32) (k : Nat) (_ : BitVec 32) : sProp 𝕄 :=
  iprop(((b0).view.loc (thr d L) ↦{fullShare} xv) ∗ ((b3).view.loc (thr d L) ↦{fullShare} lut)
    ∗ ∃ f, ((b4).view.loc (thr d L) ↦{fullShare} f) ∗ ⌜KC.OutOK w xp blk (16 * k) f⌝)

set_option maxHeartbeats 4000000 in
set_option maxRecDepth 100000 in
/-- One trip of the compute loop over staging buffer 0: sixteen more rows done. -/
theorem compute_region0 (w : Cert.Spec.SW.Idx → F .f32) (xp : S100000.Idx → BitVec 32) (d : Dev nD) (L : grid0.Coords) (blk : Nat)
    (xv : S160.Idx → BitVec 32) (lut : S32768.Idx → F .f32)
    (hxp : ∀ n : S100000.Idx, (xp n).toNat < 512) (hxv : KC.XvOK xp blk xv) (hlut : KC.LutOK w 512 lut)
    (v1 v20 : BitVec 32) (v239 : FVec F S16 .f32) (t9 : Fin k0_t9_loop.trips) (h1 : k0_cond1 L t9 = 1#1) :
    ∀ (k : Fin k0_t10_loop.trips) (acc : BitVec 32), Icmp0 w xp d L blk xv lut k.val acc ⊢
      wp frame (wpE (defs₀ (F := F)) 𝒱₀ (thr d L) none) Set.univ
        (k0_t10_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          v1 v20 v239 t9 h1 k acc)
        (Icmp0 w xp d L blk xv lut (k.val + 1)) := by
  intro k acc
  have hk10 : k.val < 10 := k.isLt.trans_eq KConds.trips10
  have hp : ∀ r, (xv r).toNat < 512 := KCompLib.xv_lt hxp hxv
  have hRD : ∀ (r : LoadRect S160) (f : S160.Idx → BitVec 32) (x : r.shape.Idx),
      View.readAt (Elt F) (b0).view r f x = f (r.idx x) := fun _ _ _ => rfl
  have hRL : ∀ (r : LoadRect S32768) (f : S32768.Idx → F .f32) (x : r.shape.Idx),
      View.readAt (Elt F) (b3).view r f x = f (r.idx x) := fun _ _ _ => rfl
  unfold Icmp0
  iintro ⟨H0, H3, %f, H4, %hf⟩
  -- each lane's word is 64 times a packed word below 512: its four loads stay inside the table scratch
  sl_exec (disch := (intro _; exact KCompLib.chk_ok hp _ hRD k.val hk10 _ (k0_off22_eq k) _ _ _ _ _ (fun _ _ => rfl)))
  sl_step
  isplitl [H0]
  · iexact H0
  isplitl [H3]
  · iexact H3
  iexists _
  isplitl [H4]
  · iexact H4
  ipureintro
  -- the sixty-four pieces, newest first: row `16 k + 15` lanes 48…63 down to row `16 k` lanes 0…15
  refine KCompLib.outOK_of_part (b4).view (fun g => g) (fun _ _ => rfl) hxv (16 * k.val + 16) _ _ ?_ (by omega)
  refine KCompLib.part_next _ _ (n := 16 * k.val + 15) ?_ (by omega)
  refine KCompLib.part_cons _ _ (16 * k.val + 15) 48 64 (k0_off102_eq k) (by omega) (by omega) (by omega)
    (KCompLib.pay_ok hlut hp _ hRL _ (16 * k.val + 15) (by omega) (KCompLib.word_eq _ hRD xv k.val _ (k0_off22_eq k) _ 15 _ _ (by omega)) 3 (by omega) 48#32 (by decide) _ (fun _ _ => rfl) _ _ _ _ (k0_off102_eq k) (by omega) (by omega) _ _) ?_
  refine KCompLib.part_cons _ _ (16 * k.val + 15) 32 48 (k0_off101_eq k) (by omega) (by omega) (by omega)
    (KCompLib.pay_ok hlut hp _ hRL _ (16 * k.val + 15) (by omega) (KCompLib.word_eq _ hRD xv k.val _ (k0_off22_eq k) _ 15 _ _ (by omega)) 2 (by omega) 32#32 (by decide) _ (fun _ _ => rfl) _ _ _ _ (k0_off101_eq k) (by omega) (by omega) _ _) ?_
  refine KCompLib.part_cons _ _ (16 * k.val + 15) 16 32 (k0_off100_eq k) (by omega) (by omega) (by omega)
    (KCompLib.pay_ok hlut hp _ hRL _ (16 * k.val + 15) (by omega) (KCompLib.word_eq _ hRD xv k.val _ (k0_off22_eq k) _ 15 _ _ (by omega)) 1 (by omega) 16#32 (by decide) _ (fun _ _ => rfl) _ _ _ _ (k0_off100_eq k) (by omega) (by omega) _ _) ?_
  refine KCompLib.part_cons _ _ (16 * k.val + 15) 0 16 (k0_off99_eq k) (by omega) (by omega) (by omega)
    (KCompLib.pay_ok hlut hp _ hRL _ (16 * k.val + 15) (by omega) (KCompLib.word_eq _ hRD xv k.val _ (k0_off22_eq k) _ 15 _ _ (by omega)) 0 (by omega) 0#32 (by decide) _ (fun _ _ => rfl) _ _ _ _ (k0_off99_eq k) (by omega) (by omega) _ _) ?_
  refine KCompLib.part_next _ _ (n := 16 * k.val + 14) ?_ (by omega)
  refine KCompLib.part_cons _ _ (16 * k.val + 14) 48 64 (k0_off97_eq k) (by omega) (by omega) (by omega)
    (KCompLib.pay_ok hlut hp _ hRL _ (16 * k.val + 14) (by omega) (KCompLib.word_eq _ hRD xv k.val _ (k0_off22_eq k) _ 14 _ _ (by omega)) 3 (by omega) 48#32 (by decide) _ (fun _ _ => rfl) _ _ _ _ (k0_off97_eq k) (by omega) (by omega) _ _) ?_
  refine KCompLib.part_cons _ _ (16 * k.val + 14) 32 48 (k0_off96_eq k) (by omega) (by omega) (by omega)
    (KCompLib.pay_ok hlut hp _ hRL _ (16 * k.val + 14) (by omega) (KCompLib.word_eq _ hRD xv k.val _ (k0_off22_eq k) _ 14 _ _ (by omega)) 2 (by omega) 32#32 (by decide) _ (fun _ _ => rfl) _ _ _ _ (k0_off96_eq k) (by omega) (by omega) _ _) ?_
  refine KCompLib.part_cons _ _ (16 * k.val + 14) 16 32 (k0_off95_eq k) (by omega) (by omega) (by omega)
    (KCompLib.pay_ok hlut hp _ hRL _ (16 * k.val + 14) (by omega) (KCompLib.word_eq _ hRD xv k.val _ (k0_off22_eq k) _ 14 _ _ (by omega)) 1 (by omega) 16#32 (by decide) _ (fun _ _ => rfl) _ _ _ _ (k0_off95_eq k) (by omega) (by omega) _ _) ?_
  refine KCompLib.part_cons _ _ (16 * k.val + 14) 0 16 (k0_off94_eq k) (by omega) (by omega) (by omega)
    (KCompLib.pay_ok hlut hp _ hRL _ (16 * k.val + 14) (by omega) (KCompLib.word_eq _ hRD xv k.val _ (k0_off22_eq k) _ 14 _ _ (by omega)) 0 (by omega) 0#32 (by decide) _ (fun _ _ => rfl) _ _ _ _ (k0_off94_eq k) (by omega) (by omega) _ _) ?_
  refine KCompLib.part_next _ _ (n := 16 * k.val + 13) ?_ (by omega)
  refine KCompLib.part_cons _ _ (16 * k.val + 13) 48 64 (k0_off92_eq k) (by omega) (by omega) (by omega)
    (KCompLib.pay_ok hlut hp _ hRL _ (16 * k.val + 13) (by omega) (KCompLib.word_eq _ hRD xv k.val _ (k0_off22_eq k) _ 13 _ _ (by omega)) 3 (by omega) 48#32 (by decide) _ (fun _ _ => rfl) _ _ _ _ (k0_off92_eq k) (by omega) (by omega) _ _) ?_
  refine KCompLib.part_cons _ _ (16 * k.val + 13) 32 48 (k0_off91_eq k) (by omega) (by omega) (by omega)
    (KCompLib.pay_ok hlut hp _ hRL _ (16 * k.val + 13) (by omega) (KCompLib.word_eq _ hRD xv k.val _ (k0_off22_eq k) _ 13 _ _ (by omega)) 2 (by omega) 32#32 (by decide) _ (fun _ _ => rfl) _ _ _ _ (k0_off91_eq k) (by omega) (by omega) _ _) ?_
  refine KCompLib.part_cons _ _ (16 * k.val + 13) 16 32 (k0_off90_eq k) (by omega) (by omega) (by omega)
    (KCompLib.pay_ok hlut hp _ hRL _ (16 * k.val + 13) (by omega) (KCompLib.word_eq _ hRD xv k.val _ (k0_off22_eq k) _ 13 _ _ (by omega)) 1 (by omega) 16#32 (by decide) _ (fun _ _ => rfl) _ _ _ _ (k0_off90_eq k) (by omega) (by omega) _ _) ?_
  refine KCompLib.part_cons _ _ (16 * k.val + 13) 0 16 (k0_off89_eq k) (by omega) (by omega) (by omega)
    (KCompLib.pay_ok hlut hp _ hRL _ (16 * k.val + 13) (by omega) (KCompLib.word_eq _ hRD xv k.val _ (k0_off22_eq k) _ 13 _ _ (by omega)) 0 (by omega) 0#32 (by decide) _ (fun _ _ => rfl) _ _ _ _ (k0_off89_eq k) (by omega) (by omega) _ _) ?_
  refine KCompLib.part_next _ _ (n := 16 * k.val + 12) ?_ (by omega)
  refine KCompLib.part_cons _ _ (16 * k.val + 12) 48 64 (k0_off87_eq k) (by omega) (by omega) (by omega)
    (KCompLib.pay_ok hlut hp _ hRL _ (16 * k.val + 12) (by omega) (KCompLib.word_eq _ hRD xv k.val _ (k0_off22_eq k) _ 12 _ _ (by omega)) 3 (by omega) 48#32 (by decide) _ (fun _ _ => rfl) _ _ _ _ (k0_off87_eq k) (by omega) (by omega) _ _) ?_
  refine KCompLib.part_cons _ _ (16 * k.val + 12) 32 48 (k0_off86_eq k) (by omega) (by omega) (by omega)
    (KCompLib.pay_ok hlut hp _ hRL _ (16 * k.val + 12) (by omega) (KCompLib.word_eq _ hRD xv k.val _ (k0_off22_eq k) _ 12 _ _ (by omega)) 2 (by omega) 32#32 (by decide) _ (fun _ _ => rfl) _ _ _ _ (k0_off86_eq k) (by omega) (by omega) _ _) ?_
  refine KCompLib.part_cons _ _ (16 * k.val + 12) 16 32 (k0_off85_eq k) (by omega) (by omega) (by omega)
    (KCompLib.pay_ok hlut hp _ hRL _ (16 * k.val + 12) (by omega) (KCompLib.word_eq _ hRD xv k.val _ (k0_off22_eq k) _ 12 _ _ (by omega)) 1 (by omega) 16#32 (by decide) _ (fun _ _ => rfl) _ _ _ _ (k0_off85_eq k) (by omega) (by omega) _ _) ?_
  refine KCompLib.part_cons _ _ (16 * k.val + 12) 0 16 (k0_off84_eq k) (by omega) (by omega) (by omega)
    (KCompLib.pay_ok hlut hp _ hRL _ (16 * k.val + 12) (by omega) (KCompLib.word_eq _ hRD xv k.val _ (k0_off22_eq k) _ 12 _ _ (by omega)) 0 (by omega) 0#32 (by decide) _ (fun _ _ => rfl) _ _ _ _ (k0_off84_eq k) (by omega) (by omega) _ _) ?_
  refine KCompLib.part_next _ _ (n := 16 * k.val + 11) ?_ (by omega)
  refine KCompLib.part_cons _ _ (16 * k.val + 11) 48 64 (k0_off82_eq k) (by omega) (by omega) (by omega)
    (KCompLib.pay_ok hlut hp _ hRL _ (16 * k.val + 11) (by omega) (KCompLib.word_eq _ hRD xv k.val _ (k0_off22_eq k) _ 11 _ _ (by omega)) 3 (by omega) 48#32 (by decide) _ (fun _ _ => rfl) _ _ _ _ (k0_off82_eq k) (by omega) (by omega) _ _) ?_
  refine KCompLib.part_cons _ _ (16 * k.val + 11) 32 48 (k0_off81_eq k) (by omega) (by omega) (by omega)
    (KCompLib.pay_ok hlut hp _ hRL _ (16 * k.val + 11) (by omega) (KCompLib.word_eq _ hRD xv k.val _ (k0_off22_eq k) _ 11 _ _ (by omega)) 2 (by omega) 32#32 (by decide) _ (fun _ _ => rfl) _ _ _ _ (k0_off81_eq k) (by omega) (by omega) _ _) ?_
  refine KCompLib.part_cons _ _ (16 * k.val + 11) 16 32 (k0_off80_eq k) (by omega) (by omega) (by omega)
    (KCompLib.pay_ok hlut hp _ hRL _ (16 * k.val + 11) (by omega) (KCompLib.word_eq _ hRD xv k.val _ (k0_off22_eq k) _ 11 _ _ (by omega)) 1 (by omega) 16#32 (by decide) _ (fun _ _ => rfl) _ _ _ _ (k0_off80_eq k) (by omega) (by omega) _ _) ?_
  refine KCompLib.part_cons _ _ (16 * k.val + 11) 0 16 (k0_off79_eq k) (by omega) (by omega) (by omega)
    (KCompLib.pay_ok hlut hp _ hRL _ (16 * k.val + 11) (by omega) (KCompLib.word_eq _ hRD xv k.val _ (k0_off22_eq k) _ 11 _ _ (by omega)) 0 (by omega) 0#32 (by decide) _ (fun _ _ => rfl) _ _ _ _ (k0_off79_eq k) (by omega) (by omega) _ _) ?_
  refine KCompLib.part_next _ _ (n := 16 * k.val + 10) ?_ (by omega)
  refine KCompLib.part_cons _ _ (16 * k.val + 10) 48 64 (k0_off77_eq k) (by omega) (by omega) (by omega)
    (KCompLib.pay_ok hlut hp _ hRL _ (16 * k.val + 10) (by omega) (KCompLib.word_eq _ hRD xv k.val _ (k0_off22_eq k) _ 10 _ _ (by omega)) 3 (by omega) 48#32 (by decide) _ (fun _ _ => rfl) _ _ _ _ (k0_off77_eq k) (by omega) (by omega) _ _) ?_
  refine KCompLib.part_cons _ _ (16 * k.val + 10) 32 48 (k0_off76_eq k) (by omega) (by omega) (by omega)
    (KCompLib.pay_ok hlut hp _ hRL _ (16 * k.val + 10) (by omega) (KCompLib.word_eq _ hRD xv k.val _ (k0_off22_eq k) _ 10 _ _ (by omega)) 2 (by omega) 32#32 (by decide) _ (fun _ _ => rfl) _ _ _ _ (k0_off76_eq k) (by omega) (by omega) _ _) ?_
  refine KCompLib.part_cons _ _ (16 * k.val + 10) 16 32 (k0_off75_eq k) (by omega) (by omega) (by omega)
    (KCompLib.pay_ok hlut hp _ hRL _ (16 * k.val + 10) (by omega) (KCompLib.word_eq _ hRD xv k.val _ (k0_off22_eq k) _ 10 _ _ (by omega)) 1 (by omega) 16#32 (by decide) _ (fun _ _ => rfl) _ _ _ _ (k0_off75_eq k) (by omega) (by omega) _ _) ?_
  refine KCompLib.part_cons _ _ (16 * k.val + 10) 0 16 (k0_off74_eq k) (by omega) (by omega) (by omega)
    (KCompLib.pay_ok hlut hp _ hRL _ (16 * k.val + 10) (by omega) (KCompLib.word_eq _ hRD xv k.val _ (k0_off22_eq k) _ 10 _ _ (by omega)) 0 (by omega) 0#32 (by decide) _ (fun _ _ => rfl) _ _ _ _ (k0_off74_eq k) (by omega) (by omega) _ _) ?_
  refine KCompLib.part_next _ _ (n := 16 * k.val + 9) ?_ (by omega)
  refine KCompLib.part_cons _ _ (16 * k.val + 9) 48 64 (k0_off72_eq k) (by omega) (by omega) (by omega)
    (KCompLib.pay_ok hlut hp _ hRL _ (16 * k.val + 9) (by omega) (KCompLib.word_eq _ hRD xv k.val _ (k0_off22_eq k) _ 9 _ _ (by omega)) 3 (by omega) 48#32 (by decide) _ (fun _ _ => rfl) _ _ _ _ (k0_off72_eq k) (by omega) (by omega) _ _) ?_
  refine KCompLib.part_cons _ _ (16 * k.val + 9) 32 48 (k0_off71_eq k) (by omega) (by omega) (by omega)
    (KCompLib.pay_ok hlut hp _ hRL _ (16 * k.val + 9) (by omega) (KCompLib.word_eq _ hRD xv k.val _ (k0_off22_eq k) _ 9 _ _ (by omega)) 2 (by omega) 32#32 (by decide) _ (fun _ _ => rfl) _ _ _ _ (k0_off71_eq k) (by omega) (by omega) _ _) ?_
  refine KCompLib.part_cons _ _ (16 * k.val + 9) 16 32 (k0_off70_eq k) (by omega) (by omega) (by omega)
    (KCompLib.pay_ok hlut hp _ hRL _ (16 * k.val + 9) (by omega) (KCompLib.word_eq _ hRD xv k.val _ (k0_off22_eq k) _ 9 _ _ (by omega)) 1 (by omega) 16#32 (by decide) _ (fun _ _ => rfl) _ _ _ _ (k0_off70_eq k) (by omega) (by omega) _ _) ?_
  refine KCompLib.part_cons _ _ (16 * k.val + 9) 0 16 (k0_off69_eq k) (by omega) (by omega) (by omega)
    (KCompLib.pay_ok hlut hp _ hRL _ (16 * k.val + 9) (by omega) (KCompLib.word_eq _ hRD xv k.val _ (k0_off22_eq k) _ 9 _ _ (by omega)) 0 (by omega) 0#32 (by decide) _ (fun _ _ => rfl) _ _ _ _ (k0_off69_eq k) (by omega) (by omega) _ _) ?_
  refine KCompLib.part_next _ _ (n := 16 * k.val + 8) ?_ (by omega)
  refine KCompLib.part_cons _ _ (16 * k.val + 8) 48 64 (k0_off67_eq k) (by omega) (by omega) (by omega)
    (KCompLib.pay_ok hlut hp _ hRL _ (16 * k.val + 8) (by omega) (KCompLib.word_eq _ hRD xv k.val _ (k0_off22_eq k) _ 8 _ _ (by omega)) 3 (by omega) 48#32 (by decide) _ (fun _ _ => rfl) _ _ _ _ (k0_off67_eq k) (by omega) (by omega) _ _) ?_
  refine KCompLib.part_cons _ _ (16 * k.val + 8) 32 48 (k0_off66_eq k) (by omega) (by omega) (by omega)
    (KCompLib.pay_ok hlut hp _ hRL _ (16 * k.val + 8) (by omega) (KCompLib.word_eq _ hRD xv k.val _ (k0_off22_eq k) _ 8 _ _ (by omega)) 2 (by omega) 32#32 (by decide) _ (fun _ _ => rfl) _ _ _ _ (k0_off66_eq k) (by omega) (by omega) _ _) ?_
  refine KCompLib.part_cons _ _ (16 * k.val + 8) 16 32 (k0_off65_eq k) (by omega) (by omega) (by omega)
    (KCompLib.pay_ok hlut hp _ hRL _ (16 * k.val + 8) (by omega) (KCompLib.word_eq _ hRD xv k.val _ (k0_off22_eq k) _ 8 _ _ (by omega)) 1 (by omega) 16#32 (by decide) _ (fun _ _ => rfl) _ _ _ _ (k0_off65_eq k) (by omega) (by omega) _ _) ?_
  refine KCompLib.part_cons _ _ (16 * k.val + 8) 0 16 (k0_off64_eq k) (by omega) (by omega) (by omega)
    (KCompLib.pay_ok hlut hp _ hRL _ (16 * k.val + 8) (by omega) (KCompLib.word_eq _ hRD xv k.val _ (k0_off22_eq k) _ 8 _ _ (by omega)) 0 (by omega) 0#32 (by decide) _ (fun _ _ => rfl) _ _ _ _ (k0_off64_eq k) (by omega) (by omega) _ _) ?_
  refine KCompLib.part_next _ _ (n := 16 * k.val + 7) ?_ (by omega)
  refine KCompLib.part_cons _ _ (16 * k.val + 7) 48 64 (k0_off62_eq k) (by omega) (by omega) (by omega)
    (KCompLib.pay_ok hlut hp _ hRL _ (16 * k.val + 7) (by omega) (KCompLib.word_eq _ hRD xv k.val _ (k0_off22_eq k) _ 7 _ _ (by omega)) 3 (by omega) 48#32 (by decide) _ (fun _ _ => rfl) _ _ _ _ (k0_off62_eq k) (by omega) (by omega) _ _) ?_
  refine KCompLib.part_cons _ _ (16 * k.val + 7) 32 48 (k0_off61_eq k) (by omega) (by omega) (by omega)
    (KCompLib.pay_ok hlut hp _ hRL _ (16 * k.val + 7) (by omega) (KCompLib.word_eq _ hRD xv k.val _ (k0_off22_eq k) _ 7 _ _ (by omega)) 2 (by omega) 32#32 (by decide) _ (fun _ _ => rfl) _ _ _ _ (k0_off61_eq k) (by omega) (by omega) _ _) ?_
  refine KCompLib.part_cons _ _ (16 * k.val + 7) 16 32 (k0_off60_eq k) (by omega) (by omega) (by omega)
    (KCompLib.pay_ok hlut hp _ hRL _ (16 * k.val + 7) (by omega) (KCompLib.word_eq _ hRD xv k.val _ (k0_off22_eq k) _ 7 _ _ (by omega)) 1 (by omega) 16#32 (by decide) _ (fun _ _ => rfl) _ _ _ _ (k0_off60_eq k) (by omega) (by omega) _ _) ?_
  refine KCompLib.part_cons _ _ (16 * k.val + 7) 0 16 (k0_off59_eq k) (by omega) (by omega) (by omega)
    (KCompLib.pay_ok hlut hp _ hRL _ (16 * k.val + 7) (by omega) (KCompLib.word_eq _ hRD xv k.val _ (k0_off22_eq k) _ 7 _ _ (by omega)) 0 (by omega) 0#32 (by decide) _ (fun _ _ => rfl) _ _ _ _ (k0_off59_eq k) (by omega) (by omega) _ _) ?_
  refine KCompLib.part_next _ _ (n := 16 * k.val + 6) ?_ (by omega)
  refine KCompLib.part_cons _ _ (16 * k.val + 6) 48 64 (k0_off57_eq k) (by omega) (by omega) (by omega)
    (KCompLib.pay_ok hlut hp _ hRL _ (16 * k.val + 6) (by omega) (KCompLib.word_eq _ hRD xv k.val _ (k0_off22_eq k) _ 6 _ _ (by omega)) 3 (by omega) 48#32 (by decide) _ (fun _ _ => rfl) _ _ _ _ (k0_off57_eq k) (by omega) (by omega) _ _) ?_
  refine KCompLib.part_cons _ _ (16 * k.val + 6) 32 48 (k0_off56_eq k) (by omega) (by omega) (by omega)
    (KCompLib.pay_ok hlut hp _ hRL _ (16 * k.val + 6) (by omega) (KCompLib.word_eq _ hRD xv k.val _ (k0_off22_eq k) _ 6 _ _ (by omega)) 2 (by omega) 32#32 (by decide) _ (fun _ _ => rfl) _ _ _ _ (k0_off56_eq k) (by omega) (by omega) _ _) ?_
  refine KCompLib.part_cons _ _ (16 * k.val + 6) 16 32 (k0_off55_eq k) (by omega) (by omega) (by omega)
    (KCompLib.pay_ok hlut hp _ hRL _ (16 * k.val + 6) (by omega) (KCompLib.word_eq _ hRD xv k.val _ (k0_off22_eq k) _ 6 _ _ (by omega)) 1 (by omega) 16#32 (by decide) _ (fun _ _ => rfl) _ _ _ _ (k0_off55_eq k) (by omega) (by omega) _ _) ?_
  refine KCompLib.part_cons _ _ (16 * k.val + 6) 0 16 (k0_off54_eq k) (by omega) (by omega) (by omega)
    (KCompLib.pay_ok hlut hp _ hRL _ (16 * k.val + 6) (by omega) (KCompLib.word_eq _ hRD xv k.val _ (k0_off22_eq k) _ 6 _ _ (by omega)) 0 (by omega) 0#32 (by decide) _ (fun _ _ => rfl) _ _ _ _ (k0_off54_eq k) (by omega) (by omega) _ _) ?_
  refine KCompLib.part_next _ _ (n := 16 * k.val + 5) ?_ (by omega)
  refine KCompLib.part_cons _ _ (16 * k.val + 5) 48 64 (k0_off52_eq k) (by omega) (by omega) (by omega)
    (KCompLib.pay_ok hlut hp _ hRL _ (16 * k.val + 5) (by omega) (KCompLib.word_eq _ hRD xv k.val _ (k0_off22_eq k) _ 5 _ _ (by omega)) 3 (by omega) 48#32 (by decide) _ (fun _ _ => rfl) _ _ _ _ (k0_off52_eq k) (by omega) (by omega) _ _) ?_
  refine KCompLib.part_cons _ _ (16 * k.val + 5) 32 48 (k0_off51_eq k) (by omega) (by omega) (by omega)
    (KCompLib.pay_ok hlut hp _ hRL _ (16 * k.val + 5) (by omega) (KCompLib.word_eq _ hRD xv k.val _ (k0_off22_eq k) _ 5 _ _ (by omega)) 2 (by omega) 32#32 (by decide) _ (fun _ _ => rfl) _ _ _ _ (k0_off51_eq k) (by omega) (by omega) _ _) ?_
  refine KCompLib.part_cons _ _ (16 * k.val + 5) 16 32 (k0_off50_eq k) (by omega) (by omega) (by omega)
    (KCompLib.pay_ok hlut hp _ hRL _ (16 * k.val + 5) (by omega) (KCompLib.word_eq _ hRD xv k.val _ (k0_off22_eq k) _ 5 _ _ (by omega)) 1 (by omega) 16#32 (by decide) _ (fun _ _ => rfl) _ _ _ _ (k0_off50_eq k) (by omega) (by omega) _ _) ?_
  refine KCompLib.part_cons _ _ (16 * k.val + 5) 0 16 (k0_off49_eq k) (by omega) (by omega) (by omega)
    (KCompLib.pay_ok hlut hp _ hRL _ (16 * k.val + 5) (by omega) (KCompLib.word_eq _ hRD xv k.val _ (k0_off22_eq k) _ 5 _ _ (by omega)) 0 (by omega) 0#32 (by decide) _ (fun _ _ => rfl) _ _ _ _ (k0_off49_eq k) (by omega) (by omega) _ _) ?_
  refine KCompLib.part_next _ _ (n := 16 * k.val + 4) ?_ (by omega)
  refine KCompLib.part_cons _ _ (16 * k.val + 4) 48 64 (k0_off47_eq k) (by omega) (by omega) (by omega)
    (KCompLib.pay_ok hlut hp _ hRL _ (16 * k.val + 4) (by omega) (KCompLib.word_eq _ hRD xv k.val _ (k0_off22_eq k) _ 4 _ _ (by omega)) 3 (by omega) 48#32 (by decide) _ (fun _ _ => rfl) _ _ _ _ (k0_off47_eq k) (by omega) (by omega) _ _) ?_
  refine KCompLib.part_cons _ _ (16 * k.val + 4) 32 48 (k0_off46_eq k) (by omega) (by omega) (by omega)
    (KCompLib.pay_ok hlut hp _ hRL _ (16 * k.val + 4) (by omega) (KCompLib.word_eq _ hRD xv k.val _ (k0_off22_eq k) _ 4 _ _ (by omega)) 2 (by omega) 32#32 (by decide) _ (fun _ _ => rfl) _ _ _ _ (k0_off46_eq k) (by omega) (by omega) _ _) ?_
  refine KCompLib.part_cons _ _ (16 * k.val + 4) 16 32 (k0_off45_eq k) (by omega) (by omega) (by omega)
    (KCompLib.pay_ok hlut hp _ hRL _ (16 * k.val + 4) (by omega) (KCompLib.word_eq _ hRD xv k.val _ (k0_off22_eq k) _ 4 _ _ (by omega)) 1 (by omega) 16#32 (by decide) _ (fun _ _ => rfl) _ _ _ _ (k0_off45_eq k) (by omega) (by omega) _ _) ?_
  refine KCompLib.part_cons _ _ (16 * k.val + 4) 0 16 (k0_off44_eq k) (by omega) (by omega) (by omega)
    (KCompLib.pay_ok hlut hp _ hRL _ (16 * k.val + 4) (by omega) (KCompLib.word_eq _ hRD xv k.val _ (k0_off22_eq k) _ 4 _ _ (by omega)) 0 (by omega) 0#32 (by decide) _ (fun _ _ => rfl) _ _ _ _ (k0_off44_eq k) (by omega) (by omega) _ _) ?_
  refine KCompLib.part_next _ _ (n := 16 * k.val + 3) ?_ (by omega)
  refine KCompLib.part_cons _ _ (16 * k.val + 3) 48 64 (k0_off42_eq k) (by omega) (by omega) (by omega)
    (KCompLib.pay_ok hlut hp _ hRL _ (16 * k.val + 3) (by omega) (KCompLib.word_eq _ hRD xv k.val _ (k0_off22_eq k) _ 3 _ _ (by omega)) 3 (by omega) 48#32 (by decide) _ (fun _ _ => rfl) _ _ _ _ (k0_off42_eq k) (by omega) (by omega) _ _) ?_
  refine KCompLib.part_cons _ _ (16 * k.val + 3) 32 48 (k0_off41_eq k) (by omega) (by omega) (by omega)
    (KCompLib.pay_ok hlut hp _ hRL _ (16 * k.val + 3) (by omega) (KCompLib.word_eq _ hRD xv k.val _ (k0_off22_eq k) _ 3 _ _ (by omega)) 2 (by omega) 32#32 (by decide) _ (fun _ _ => rfl) _ _ _ _ (k0_off41_eq k) (by omega) (by omega) _ _) ?_
  refine KCompLib.part_cons _ _ (16 * k.val + 3) 16 32 (k0_off40_eq k) (by omega) (by omega) (by omega)
    (KCompLib.pay_ok hlut hp _ hRL _ (16 * k.val + 3) (by omega) (KCompLib.word_eq _ hRD xv k.val _ (k0_off22_eq k) _ 3 _ _ (by omega)) 1 (by omega) 16#32 (by decide) _ (fun _ _ => rfl) _ _ _ _ (k0_off40_eq k) (by omega) (by omega) _ _) ?_
  refine KCompLib.part_cons _ _ (16 * k.val + 3) 0 16 (k0_off39_eq k) (by omega) (by omega) (by omega)
    (KCompLib.pay_ok hlut hp _ hRL _ (16 * k.val + 3) (by omega) (KCompLib.word_eq _ hRD xv k.val _ (k0_off22_eq k) _ 3 _ _ (by omega)) 0 (by omega) 0#32 (by decide) _ (fun _ _ => rfl) _ _ _ _ (k0_off39_eq k) (by omega) (by omega) _ _) ?_
  refine KCompLib.part_next _ _ (n := 16 * k.val + 2) ?_ (by omega)
  refine KCompLib.part_cons _ _ (16 * k.val + 2) 48 64 (k0_off37_eq k) (by omega) (by omega) (by omega)
    (KCompLib.pay_ok hlut hp _ hRL _ (16 * k.val + 2) (by omega) (KCompLib.word_eq _ hRD xv k.val _ (k0_off22_eq k) _ 2 _ _ (by omega)) 3 (by omega) 48#32 (by decide) _ (fun _ _ => rfl) _ _ _ _ (k0_off37_eq k) (by omega) (by omega) _ _) ?_
  refine KCompLib.part_cons _ _ (16 * k.val + 2) 32 48 (k0_off36_eq k) (by omega) (by omega) (by omega)
    (KCompLib.pay_ok hlut hp _ hRL _ (16 * k.val + 2) (by omega) (KCompLib.word_eq _ hRD xv k.val _ (k0_off22_eq k) _ 2 _ _ (by omega)) 2 (by omega) 32#32 (by decide) _ (fun _ _ => rfl) _ _ _ _ (k0_off36_eq k) (by omega) (by omega) _ _) ?_
  refine KCompLib.part_cons _ _ (16 * k.val + 2) 16 32 (k0_off35_eq k) (by omega) (by omega) (by omega)
    (KCompLib.pay_ok hlut hp _ hRL _ (16 * k.val + 2) (by omega) (KCompLib.word_eq _ hRD xv k.val _ (k0_off22_eq k) _ 2 _ _ (by omega)) 1 (by omega) 16#32 (by decide) _ (fun _ _ => rfl) _ _ _ _ (k0_off35_eq k) (by omega) (by omega) _ _) ?_
  refine KCompLib.part_cons _ _ (16 * k.val + 2) 0 16 (k0_off34_eq k) (by omega) (by omega) (by omega)
    (KCompLib.pay_ok hlut hp _ hRL _ (16 * k.val + 2) (by omega) (KCompLib.word_eq _ hRD xv k.val _ (k0_off22_eq k) _ 2 _ _ (by omega)) 0 (by omega) 0#32 (by decide) _ (fun _ _ => rfl) _ _ _ _ (k0_off34_eq k) (by omega) (by omega) _ _) ?_
  refine KCompLib.part_next _ _ (n := 16 * k.val + 1) ?_ (by omega)
  refine KCompLib.part_cons _ _ (16 * k.val + 1) 48 64 (k0_off32_eq k) (by omega) (by omega) (by omega)
    (KCompLib.pay_ok hlut hp _ hRL _ (16 * k.val + 1) (by omega) (KCompLib.word_eq _ hRD xv k.val _ (k0_off22_eq k) _ 1 _ _ (by omega)) 3 (by omega) 48#32 (by decide) _ (fun _ _ => rfl) _ _ _ _ (k0_off32_eq k) (by omega) (by omega) _ _) ?_
  refine KCompLib.part_cons _ _ (16 * k.val + 1) 32 48 (k0_off31_eq k) (by omega) (by omega) (by omega)
    (KCompLib.pay_ok hlut hp _ hRL _ (16 * k.val + 1) (by omega) (KCompLib.word_eq _ hRD xv k.val _ (k0_off22_eq k) _ 1 _ _ (by omega)) 2 (by omega) 32#32 (by decide) _ (fun _ _ => rfl) _ _ _ _ (k0_off31_eq k) (by omega) (by omega) _ _) ?_
  refine KCompLib.part_cons _ _ (16 * k.val + 1) 16 32 (k0_off30_eq k) (by omega) (by omega) (by omega)
    (KCompLib.pay_ok hlut hp _ hRL _ (16 * k.val + 1) (by omega) (KCompLib.word_eq _ hRD xv k.val _ (k0_off22_eq k) _ 1 _ _ (by omega)) 1 (by omega) 16#32 (by decide) _ (fun _ _ => rfl) _ _ _ _ (k0_off30_eq k) (by omega) (by omega) _ _) ?_
  refine KCompLib.part_cons _ _ (16 * k.val + 1) 0 16 (k0_off29_eq k) (by omega) (by omega) (by omega)
    (KCompLib.pay_ok hlut hp _ hRL _ (16 * k.val + 1) (by omega) (KCompLib.word_eq _ hRD xv k.val _ (k0_off22_eq k) _ 1 _ _ (by omega)) 0 (by omega) 0#32 (by decide) _ (fun _ _ => rfl) _ _ _ _ (k0_off29_eq k) (by omega) (by omega) _ _) ?_
  refine KCompLib.part_next _ _ (n := 16 * k.val) ?_ (by omega)
  refine KCompLib.part_cons _ _ (16 * k.val) 48 64 (k0_off27_eq k) (by omega) (by omega) (by omega)
    (KCompLib.pay_ok hlut hp _ hRL _ (16 * k.val) (by omega) (KCompLib.word_eq _ hRD xv k.val _ (k0_off22_eq k) _ 0 _ _ (by omega)) 3 (by omega) 48#32 (by decide) _ (fun _ _ => rfl) _ _ _ _ (k0_off27_eq k) (by omega) (by omega) _ _) ?_
  refine KCompLib.part_cons _ _ (16 * k.val) 32 48 (k0_off26_eq k) (by omega) (by omega) (by omega)
    (KCompLib.pay_ok hlut hp _ hRL _ (16 * k.val) (by omega) (KCompLib.word_eq _ hRD xv k.val _ (k0_off22_eq k) _ 0 _ _ (by omega)) 2 (by omega) 32#32 (by decide) _ (fun _ _ => rfl) _ _ _ _ (k0_off26_eq k) (by omega) (by omega) _ _) ?_
  refine KCompLib.part_cons _ _ (16 * k.val) 16 32 (k0_off25_eq k) (by omega) (by omega) (by omega)
    (KCompLib.pay_ok hlut hp _ hRL _ (16 * k.val) (by omega) (KCompLib.word_eq _ hRD xv k.val _ (k0_off22_eq k) _ 0 _ _ (by omega)) 1 (by omega) 16#32 (by decide) _ (fun _ _ => rfl) _ _ _ _ (k0_off25_eq k) (by omega) (by omega) _ _) ?_
  refine KCompLib.part_cons _ _ (16 * k.val) 0 16 (k0_off24_eq k) (by omega) (by omega) (by omega)
    (KCompLib.pay_ok hlut hp _ hRL _ (16 * k.val) (by omega) (KCompLib.word_eq _ hRD xv k.val _ (k0_off22_eq k) _ 0 _ _ (by omega)) 0 (by omega) 0#32 (by decide) _ (fun _ _ => rfl) _ _ _ _ (k0_off24_eq k) (by omega) (by omega) _ _) ?_
  exact KCompLib.part_of_outOK _ (fun g => g) (fun _ _ => rfl) hxv _ _ hf

/-- The invariant of the compute loop over staging buffer 1: the index scratch and the table scratch as they
    are, and the first `16 k` rows of the staging buffer done. -/
def Icmp1 (w : Cert.Spec.SW.Idx → F .f32) (xp : S100000.Idx → BitVec 32) (d : Dev nD) (L : grid0.Coords) (blk : Nat)
    (xv : S160.Idx → BitVec 32) (lut : S32768.Idx → F .f32) (k : Nat) (_ : BitVec 32) : sProp 𝕄 :=
  iprop(((b1).view.loc (thr d L) ↦{fullShare} xv) ∗ ((b3).view.loc (thr d L) ↦{fullShare} lut)
    ∗ ∃ f, ((b5).view.loc (thr d L) ↦{fullShare} f) ∗ ⌜KC.OutOK w xp blk (16 * k) f⌝)

set_option maxHeartbeats 4000000 in
set_option maxRecDepth 100000 in
/-- One trip of the compute loop over staging buffer 1: sixteen more rows done. -/
theorem compute_region1 (w : Cert.Spec.SW.Idx → F .f32) (xp : S100000.Idx → BitVec 32) (d : Dev nD) (L : grid0.Coords) (blk : Nat)
    (xv : S160.Idx → BitVec 32) (lut : S32768.Idx → F .f32)
    (hxp : ∀ n : S100000.Idx, (xp n).toNat < 512) (hxv : KC.XvOK xp blk xv) (hlut : KC.LutOK w 512 lut)
    (v1 v20 : BitVec 32) (v239 : FVec F S16 .f32) (t9 : Fin k0_t9_loop.trips) (h4 : k0_cond4 L t9 = 1#1) :
    ∀ (k : Fin k0_t11_loop.trips) (acc : BitVec 32), Icmp1 w xp d L blk xv lut k.val acc ⊢
      wp frame (wpE (defs₀ (F := F)) 𝒱₀ (thr d L) none) Set.univ
        (k0_t11_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          v1 v20 v239 t9 h4 k acc)
        (Icmp1 w xp d L blk xv lut (k.val + 1)) := by
  intro k acc
  have hk10 : k.val < 10 := k.isLt.trans_eq KConds.trips11
  have hp : ∀ r, (xv r).toNat < 512 := KCompLib.xv_lt hxp hxv
  have hRD : ∀ (r : LoadRect S160) (f : S160.Idx → BitVec 32) (x : r.shape.Idx),
      View.readAt (Elt F) (b1).view r f x = f (r.idx x) := fun _ _ _ => rfl
  have hRL : ∀ (r : LoadRect S32768) (f : S32768.Idx → F .f32) (x : r.shape.Idx),
      View.readAt (Elt F) (b3).view r f x = f (r.idx x) := fun _ _ _ => rfl
  unfold Icmp1
  iintro ⟨H0, H3, %f, H4, %hf⟩
  -- each lane's word is 64 times a packed word below 512: its four loads stay inside the table scratch
  sl_exec (disch := (intro _; exact KCompLib.chk_ok hp _ hRD k.val hk10 _ (k0_off107_eq k) _ _ _ _ _ (fun _ _ => rfl)))
  sl_step
  isplitl [H0]
  · iexact H0
  isplitl [H3]
  · iexact H3
  iexists _
  isplitl [H4]
  · iexact H4
  ipureintro
  -- the sixty-four pieces, newest first: row `16 k + 15` lanes 48…63 down to row `16 k` lanes 0…15
  refine KCompLib.outOK_of_part (b5).view (fun g => g) (fun _ _ => rfl) hxv (16 * k.val + 16) _ _ ?_ (by omega)
  refine KCompLib.part_next _ _ (n := 16 * k.val + 15) ?_ (by omega)
  refine KCompLib.part_cons _ _ (16 * k.val + 15) 48 64 (k0_off187_eq k) (by omega) (by omega) (by omega)
    (KCompLib.pay_ok hlut hp _ hRL _ (16 * k.val + 15) (by omega) (KCompLib.word_eq _ hRD xv k.val _ (k0_off107_eq k) _ 15 _ _ (by omega)) 3 (by omega) 48#32 (by decide) _ (fun _ _ => rfl) _ _ _ _ (k0_off187_eq k) (by omega) (by omega) _ _) ?_
  refine KCompLib.part_cons _ _ (16 * k.val + 15) 32 48 (k0_off186_eq k) (by omega) (by omega) (by omega)
    (KCompLib.pay_ok hlut hp _ hRL _ (16 * k.val + 15) (by omega) (KCompLib.word_eq _ hRD xv k.val _ (k0_off107_eq k) _ 15 _ _ (by omega)) 2 (by omega) 32#32 (by decide) _ (fun _ _ => rfl) _ _ _ _ (k0_off186_eq k) (by omega) (by omega) _ _) ?_
  refine KCompLib.part_cons _ _ (16 * k.val + 15) 16 32 (k0_off185_eq k) (by omega) (by omega) (by omega)
    (KCompLib.pay_ok hlut hp _ hRL _ (16 * k.val + 15) (by omega) (KCompLib.word_eq _ hRD xv k.val _ (k0_off107_eq k) _ 15 _ _ (by omega)) 1 (by omega) 16#32 (by decide) _ (fun _ _ => rfl) _ _ _ _ (k0_off185_eq k) (by omega) (by omega) _ _) ?_
  refine KCompLib.part_cons _ _ (16 * k.val + 15) 0 16 (k0_off184_eq k) (by omega) (by omega) (by omega)
    (KCompLib.pay_ok hlut hp _ hRL _ (16 * k.val + 15) (by omega) (KCompLib.word_eq _ hRD xv k.val _ (k0_off107_eq k) _ 15 _ _ (by omega)) 0 (by omega) 0#32 (by decide) _ (fun _ _ => rfl) _ _ _ _ (k0_off184_eq k) (by omega) (by omega) _ _) ?_
  refine KCompLib.part_next _ _ (n := 16 * k.val + 14) ?_ (by omega)
  refine KCompLib.part_cons _ _ (16 * k.val + 14) 48 64 (k0_off182_eq k) (by omega) (by omega) (by omega)
    (KCompLib.pay_ok hlut hp _ hRL _ (16 * k.val + 14) (by omega) (KCompLib.word_eq _ hRD xv k.val _ (k0_off107_eq k) _ 14 _ _ (by omega)) 3 (by omega) 48#32 (by decide) _ (fun _ _ => rfl) _ _ _ _ (k0_off182_eq k) (by omega) (by omega) _ _) ?_
  refine KCompLib.part_cons _ _ (16 * k.val + 14) 32 48 (k0_off181_eq k) (by omega) (by omega) (by omega)
    (KCompLib.pay_ok hlut hp _ hRL _ (16 * k.val + 14) (by omega) (KCompLib.word_eq _ hRD xv k.val _ (k0_off107_eq k) _ 14 _ _ (by omega)) 2 (by omega) 32#32 (by decide) _ (fun _ _ => rfl) _ _ _ _ (k0_off181_eq k) (by omega) (by omega) _ _) ?_
  refine KCompLib.part_cons _ _ (16 * k.val + 14) 16 32 (k0_off180_eq k) (by omega) (by omega) (by omega)
    (KCompLib.pay_ok hlut hp _ hRL _ (16 * k.val + 14) (by omega) (KCompLib.word_eq _ hRD xv k.val _ (k0_off107_eq k) _ 14 _ _ (by omega)) 1 (by omega) 16#32 (by decide) _ (fun _ _ => rfl) _ _ _ _ (k0_off180_eq k) (by omega) (by omega) _ _) ?_
  refine KCompLib.part_cons _ _ (16 * k.val + 14) 0 16 (k0_off179_eq k) (by omega) (by omega) (by omega)
    (KCompLib.pay_ok hlut hp _ hRL _ (16 * k.val + 14) (by omega) (KCompLib.word_eq _ hRD xv k.val _ (k0_off107_eq k) _ 14 _ _ (by omega)) 0 (by omega) 0#32 (by decide) _ (fun _ _ => rfl) _ _ _ _ (k0_off179_eq k) (by omega) (by omega) _ _) ?_
  refine KCompLib.part_next _ _ (n := 16 * k.val + 13) ?_ (by omega)
  refine KCompLib.part_cons _ _ (16 * k.val + 13) 48 64 (k0_off177_eq k) (by omega) (by omega) (by omega)
    (KCompLib.pay_ok hlut hp _ hRL _ (16 * k.val + 13) (by omega) (KCompLib.word_eq _ hRD xv k.val _ (k0_off107_eq k) _ 13 _ _ (by omega)) 3 (by omega) 48#32 (by decide) _ (fun _ _ => rfl) _ _ _ _ (k0_off177_eq k) (by omega) (by omega) _ _) ?_
  refine KCompLib.part_cons _ _ (16 * k.val + 13) 32 48 (k0_off176_eq k) (by omega) (by omega) (by omega)
    (KCompLib.pay_ok hlut hp _ hRL _ (16 * k.val + 13) (by omega) (KCompLib.word_eq _ hRD xv k.val _ (k0_off107_eq k) _ 13 _ _ (by omega)) 2 (by omega) 32#32 (by decide) _ (fun _ _ => rfl) _ _ _ _ (k0_off176_eq k) (by omega) (by omega) _ _) ?_
  refine KCompLib.part_cons _ _ (16 * k.val + 13) 16 32 (k0_off175_eq k) (by omega) (by omega) (by omega)
    (KCompLib.pay_ok hlut hp _ hRL _ (16 * k.val + 13) (by omega) (KCompLib.word_eq _ hRD xv k.val _ (k0_off107_eq k) _ 13 _ _ (by omega)) 1 (by omega) 16#32 (by decide) _ (fun _ _ => rfl) _ _ _ _ (k0_off175_eq k) (by omega) (by omega) _ _) ?_
  refine KCompLib.part_cons _ _ (16 * k.val + 13) 0 16 (k0_off174_eq k) (by omega) (by omega) (by omega)
    (KCompLib.pay_ok hlut hp _ hRL _ (16 * k.val + 13) (by omega) (KCompLib.word_eq _ hRD xv k.val _ (k0_off107_eq k) _ 13 _ _ (by omega)) 0 (by omega) 0#32 (by decide) _ (fun _ _ => rfl) _ _ _ _ (k0_off174_eq k) (by omega) (by omega) _ _) ?_
  refine KCompLib.part_next _ _ (n := 16 * k.val + 12) ?_ (by omega)
  refine KCompLib.part_cons _ _ (16 * k.val + 12) 48 64 (k0_off172_eq k) (by omega) (by omega) (by omega)
    (KCompLib.pay_ok hlut hp _ hRL _ (16 * k.val + 12) (by omega) (KCompLib.word_eq _ hRD xv k.val _ (k0_off107_eq k) _ 12 _ _ (by omega)) 3 (by omega) 48#32 (by decide) _ (fun _ _ => rfl) _ _ _ _ (k0_off172_eq k) (by omega) (by omega) _ _) ?_
  refine KCompLib.part_cons _ _ (16 * k.val + 12) 32 48 (k0_off171_eq k) (by omega) (by omega) (by omega)
    (KCompLib.pay_ok hlut hp _ hRL _ (16 * k.val + 12) (by omega) (KCompLib.word_eq _ hRD xv k.val _ (k0_off107_eq k) _ 12 _ _ (by omega)) 2 (by omega) 32#32 (by decide) _ (fun _ _ => rfl) _ _ _ _ (k0_off171_eq k) (by omega) (by omega) _ _) ?_
  refine KCompLib.part_cons _ _ (16 * k.val + 12) 16 32 (k0_off170_eq k) (by omega) (by omega) (by omega)
    (KCompLib.pay_ok hlut hp _ hRL _ (16 * k.val + 12) (by omega) (KCompLib.word_eq _ hRD xv k.val _ (k0_off107_eq k) _ 12 _ _ (by omega)) 1 (by omega) 16#32 (by decide) _ (fun _ _ => rfl) _ _ _ _ (k0_off170_eq k) (by omega) (by omega) _ _) ?_
  refine KCompLib.part_cons _ _ (16 * k.val + 12) 0 16 (k0_off169_eq k) (by omega) (by omega) (by omega)
    (KCompLib.pay_ok hlut hp _ hRL _ (16 * k.val + 12) (by omega) (KCompLib.word_eq _ hRD xv k.val _ (k0_off107_eq k) _ 12 _ _ (by omega)) 0 (by omega) 0#32 (by decide) _ (fun _ _ => rfl) _ _ _ _ (k0_off169_eq k) (by omega) (by omega) _ _) ?_
  refine KCompLib.part_next _ _ (n := 16 * k.val + 11) ?_ (by omega)
  refine KCompLib.part_cons _ _ (16 * k.val + 11) 48 64 (k0_off167_eq k) (by omega) (by omega) (by omega)
    (KCompLib.pay_ok hlut hp _ hRL _ (16 * k.val + 11) (by omega) (KCompLib.word_eq _ hRD xv k.val _ (k0_off107_eq k) _ 11 _ _ (by omega)) 3 (by omega) 48#32 (by decide) _ (fun _ _ => rfl) _ _ _ _ (k0_off167_eq k) (by omega) (by omega) _ _) ?_
  refine KCompLib.part_cons _ _ (16 * k.val + 11) 32 48 (k0_off166_eq k) (by omega) (by omega) (by omega)
    (KCompLib.pay_ok hlut hp _ hRL _ (16 * k.val + 11) (by omega) (KCompLib.word_eq _ hRD xv k.val _ (k0_off107_eq k) _ 11 _ _ (by omega)) 2 (by omega) 32#32 (by decide) _ (fun _ _ => rfl) _ _ _ _ (k0_off166_eq k) (by omega) (by omega) _ _) ?_
  refine KCompLib.part_cons _ _ (16 * k.val + 11) 16 32 (k0_off165_eq k) (by omega) (by omega) (by omega)
    (KCompLib.pay_ok hlut hp _ hRL _ (16 * k.val + 11) (by omega) (KCompLib.word_eq _ hRD xv k.val _ (k0_off107_eq k) _ 11 _ _ (by omega)) 1 (by omega) 16#32 (by decide) _ (fun _ _ => rfl) _ _ _ _ (k0_off165_eq k) (by omega) (by omega) _ _) ?_
  refine KCompLib.part_cons _ _ (16 * k.val + 11) 0 16 (k0_off164_eq k) (by omega) (by omega) (by omega)
    (KCompLib.pay_ok hlut hp _ hRL _ (16 * k.val + 11) (by omega) (KCompLib.word_eq _ hRD xv k.val _ (k0_off107_eq k) _ 11 _ _ (by omega)) 0 (by omega) 0#32 (by decide) _ (fun _ _ => rfl) _ _ _ _ (k0_off164_eq k) (by omega) (by omega) _ _) ?_
  refine KCompLib.part_next _ _ (n := 16 * k.val + 10) ?_ (by omega)
  refine KCompLib.part_cons _ _ (16 * k.val + 10) 48 64 (k0_off162_eq k) (by omega) (by omega) (by omega)
    (KCompLib.pay_ok hlut hp _ hRL _ (16 * k.val + 10) (by omega) (KCompLib.word_eq _ hRD xv k.val _ (k0_off107_eq k) _ 10 _ _ (by omega)) 3 (by omega) 48#32 (by decide) _ (fun _ _ => rfl) _ _ _ _ (k0_off162_eq k) (by omega) (by omega) _ _) ?_
  refine KCompLib.part_cons _ _ (16 * k.val + 10) 32 48 (k0_off161_eq k) (by omega) (by omega) (by omega)
    (KCompLib.pay_ok hlut hp _ hRL _ (16 * k.val + 10) (by omega) (KCompLib.word_eq _ hRD xv k.val _ (k0_off107_eq k) _ 10 _ _ (by omega)) 2 (by omega) 32#32 (by decide) _ (fun _ _ => rfl) _ _ _ _ (k0_off161_eq k) (by omega) (by omega) _ _) ?_
  refine KCompLib.part_cons _ _ (16 * k.val + 10) 16 32 (k0_off160_eq k) (by omega) (by omega) (by omega)
    (KCompLib.pay_ok hlut hp _ hRL _ (16 * k.val + 10) (by omega) (KCompLib.word_eq _ hRD xv k.val _ (k0_off107_eq k) _ 10 _ _ (by omega)) 1 (by omega) 16#32 (by decide) _ (fun _ _ => rfl) _ _ _ _ (k0_off160_eq k) (by omega) (by omega) _ _) ?_
  refine KCompLib.part_cons _ _ (16 * k.val + 10) 0 16 (k0_off159_eq k) (by omega) (by omega) (by omega)
    (KCompLib.pay_ok hlut hp _ hRL _ (16 * k.val + 10) (by omega) (KCompLib.word_eq _ hRD xv k.val _ (k0_off107_eq k) _ 10 _ _ (by omega)) 0 (by omega) 0#32 (by decide) _ (fun _ _ => rfl) _ _ _ _ (k0_off159_eq k) (by omega) (by omega) _ _) ?_
  refine KCompLib.part_next _ _ (n := 16 * k.val + 9) ?_ (by omega)
  refine KCompLib.part_cons _ _ (16 * k.val + 9) 48 64 (k0_off157_eq k) (by omega) (by omega) (by omega)
    (KCompLib.pay_ok hlut hp _ hRL _ (16 * k.val + 9) (by omega) (KCompLib.word_eq _ hRD xv k.val _ (k0_off107_eq k) _ 9 _ _ (by omega)) 3 (by omega) 48#32 (by decide) _ (fun _ _ => rfl) _ _ _ _ (k0_off157_eq k) (by omega) (by omega) _ _) ?_
  refine KCompLib.part_cons _ _ (16 * k.val + 9) 32 48 (k0_off156_eq k) (by omega) (by omega) (by omega)
    (KCompLib.pay_ok hlut hp _ hRL _ (16 * k.val + 9) (by omega) (KCompLib.word_eq _ hRD xv k.val _ (k0_off107_eq k) _ 9 _ _ (by omega)) 2 (by omega) 32#32 (by decide) _ (fun _ _ => rfl) _ _ _ _ (k0_off156_eq k) (by omega) (by omega) _ _) ?_
  refine KCompLib.part_cons _ _ (16 * k.val + 9) 16 32 (k0_off155_eq k) (by omega) (by omega) (by omega)
    (KCompLib.pay_ok hlut hp _ hRL _ (16 * k.val + 9) (by omega) (KCompLib.word_eq _ hRD xv k.val _ (k0_off107_eq k) _ 9 _ _ (by omega)) 1 (by omega) 16#32 (by decide) _ (fun _ _ => rfl) _ _ _ _ (k0_off155_eq k) (by omega) (by omega) _ _) ?_
  refine KCompLib.part_cons _ _ (16 * k.val + 9) 0 16 (k0_off154_eq k) (by omega) (by omega) (by omega)
    (KCompLib.pay_ok hlut hp _ hRL _ (16 * k.val + 9) (by omega) (KCompLib.word_eq _ hRD xv k.val _ (k0_off107_eq k) _ 9 _ _ (by omega)) 0 (by omega) 0#32 (by decide) _ (fun _ _ => rfl) _ _ _ _ (k0_off154_eq k) (by omega) (by omega) _ _) ?_
  refine KCompLib.part_next _ _ (n := 16 * k.val + 8) ?_ (by omega)
  refine KCompLib.part_cons _ _ (16 * k.val + 8) 48 64 (k0_off152_eq k) (by omega) (by omega) (by omega)
    (KCompLib.pay_ok hlut hp _ hRL _ (16 * k.val + 8) (by omega) (KCompLib.word_eq _ hRD xv k.val _ (k0_off107_eq k) _ 8 _ _ (by omega)) 3 (by omega) 48#32 (by decide) _ (fun _ _ => rfl) _ _ _ _ (k0_off152_eq k) (by omega) (by omega) _ _) ?_
  refine KCompLib.part_cons _ _ (16 * k.val + 8) 32 48 (k0_off151_eq k) (by omega) (by omega) (by omega)
    (KCompLib.pay_ok hlut hp _ hRL _ (16 * k.val + 8) (by omega) (KCompLib.word_eq _ hRD xv k.val _ (k0_off107_eq k) _ 8 _ _ (by omega)) 2 (by omega) 32#32 (by decide) _ (fun _ _ => rfl) _ _ _ _ (k0_off151_eq k) (by omega) (by omega) _ _) ?_
  refine KCompLib.part_cons _ _ (16 * k.val + 8) 16 32 (k0_off150_eq k) (by omega) (by omega) (by omega)
    (KCompLib.pay_ok hlut hp _ hRL _ (16 * k.val + 8) (by omega) (KCompLib.word_eq _ hRD xv k.val _ (k0_off107_eq k) _ 8 _ _ (by omega)) 1 (by omega) 16#32 (by decide) _ (fun _ _ => rfl) _ _ _ _ (k0_off150_eq k) (by omega) (by omega) _ _) ?_
  refine KCompLib.part_cons _ _ (16 * k.val + 8) 0 16 (k0_off149_eq k) (by omega) (by omega) (by omega)
    (KCompLib.pay_ok hlut hp _ hRL _ (16 * k.val + 8) (by omega) (KCompLib.word_eq _ hRD xv k.val _ (k0_off107_eq k) _ 8 _ _ (by omega)) 0 (by omega) 0#32 (by decide) _ (fun _ _ => rfl) _ _ _ _ (k0_off149_eq k) (by omega) (by omega) _ _) ?_
  refine KCompLib.part_next _ _ (n := 16 * k.val + 7) ?_ (by omega)
  refine KCompLib.part_cons _ _ (16 * k.val + 7) 48 64 (k0_off147_eq k) (by omega) (by omega) (by omega)
    (KCompLib.pay_ok hlut hp _ hRL _ (16 * k.val + 7) (by omega) (KCompLib.word_eq _ hRD xv k.val _ (k0_off107_eq k) _ 7 _ _ (by omega)) 3 (by omega) 48#32 (by decide) _ (fun _ _ => rfl) _ _ _ _ (k0_off147_eq k) (by omega) (by omega) _ _) ?_
  refine KCompLib.part_cons _ _ (16 * k.val + 7) 32 48 (k0_off146_eq k) (by omega) (by omega) (by omega)
    (KCompLib.pay_ok hlut hp _ hRL _ (16 * k.val + 7) (by omega) (KCompLib.word_eq _ hRD xv k.val _ (k0_off107_eq k) _ 7 _ _ (by omega)) 2 (by omega) 32#32 (by decide) _ (fun _ _ => rfl) _ _ _ _ (k0_off146_eq k) (by omega) (by omega) _ _) ?_
  refine KCompLib.part_cons _ _ (16 * k.val + 7) 16 32 (k0_off145_eq k) (by omega) (by omega) (by omega)
    (KCompLib.pay_ok hlut hp _ hRL _ (16 * k.val + 7) (by omega) (KCompLib.word_eq _ hRD xv k.val _ (k0_off107_eq k) _ 7 _ _ (by omega)) 1 (by omega) 16#32 (by decide) _ (fun _ _ => rfl) _ _ _ _ (k0_off145_eq k) (by omega) (by omega) _ _) ?_
  refine KCompLib.part_cons _ _ (16 * k.val + 7) 0 16 (k0_off144_eq k) (by omega) (by omega) (by omega)
    (KCompLib.pay_ok hlut hp _ hRL _ (16 * k.val + 7) (by omega) (KCompLib.word_eq _ hRD xv k.val _ (k0_off107_eq k) _ 7 _ _ (by omega)) 0 (by omega) 0#32 (by decide) _ (fun _ _ => rfl) _ _ _ _ (k0_off144_eq k) (by omega) (by omega) _ _) ?_
  refine KCompLib.part_next _ _ (n := 16 * k.val + 6) ?_ (by omega)
  refine KCompLib.part_cons _ _ (16 * k.val + 6) 48 64 (k0_off142_eq k) (by omega) (by omega) (by omega)
    (KCompLib.pay_ok hlut hp _ hRL _ (16 * k.val + 6) (by omega) (KCompLib.word_eq _ hRD xv k.val _ (k0_off107_eq k) _ 6 _ _ (by omega)) 3 (by omega) 48#32 (by decide) _ (fun _ _ => rfl) _ _ _ _ (k0_off142_eq k) (by omega) (by omega) _ _) ?_
  refine KCompLib.part_cons _ _ (16 * k.val + 6) 32 48 (k0_off141_eq k) (by omega) (by omega) (by omega)
    (KCompLib.pay_ok hlut hp _ hRL _ (16 * k.val + 6) (by omega) (KCompLib.word_eq _ hRD xv k.val _ (k0_off107_eq k) _ 6 _ _ (by omega)) 2 (by omega) 32#32 (by decide) _ (fun _ _ => rfl) _ _ _ _ (k0_off141_eq k) (by omega) (by omega) _ _) ?_
  refine KCompLib.part_cons _ _ (16 * k.val + 6) 16 32 (k0_off140_eq k) (by omega) (by omega) (by omega)
    (KCompLib.pay_ok hlut hp _ hRL _ (16 * k.val + 6) (by omega) (KCompLib.word_eq _ hRD xv k.val _ (k0_off107_eq k) _ 6 _ _ (by omega)) 1 (by omega) 16#32 (by decide) _ (fun _ _ => rfl) _ _ _ _ (k0_off140_eq k) (by omega) (by omega) _ _) ?_
  refine KCompLib.part_cons _ _ (16 * k.val + 6) 0 16 (k0_off139_eq k) (by omega) (by omega) (by omega)
    (KCompLib.pay_ok hlut hp _ hRL _ (16 * k.val + 6) (by omega) (KCompLib.word_eq _ hRD xv k.val _ (k0_off107_eq k) _ 6 _ _ (by omega)) 0 (by omega) 0#32 (by decide) _ (fun _ _ => rfl) _ _ _ _ (k0_off139_eq k) (by omega) (by omega) _ _) ?_
  refine KCompLib.part_next _ _ (n := 16 * k.val + 5) ?_ (by omega)
  refine KCompLib.part_cons _ _ (16 * k.val + 5) 48 64 (k0_off137_eq k) (by omega) (by omega) (by omega)
    (KCompLib.pay_ok hlut hp _ hRL _ (16 * k.val + 5) (by omega) (KCompLib.word_eq _ hRD xv k.val _ (k0_off107_eq k) _ 5 _ _ (by omega)) 3 (by omega) 48#32 (by decide) _ (fun _ _ => rfl) _ _ _ _ (k0_off137_eq k) (by omega) (by omega) _ _) ?_
  refine KCompLib.part_cons _ _ (16 * k.val + 5) 32 48 (k0_off136_eq k) (by omega) (by omega) (by omega)
    (KCompLib.pay_ok hlut hp _ hRL _ (16 * k.val + 5) (by omega) (KCompLib.word_eq _ hRD xv k.val _ (k0_off107_eq k) _ 5 _ _ (by omega)) 2 (by omega) 32#32 (by decide) _ (fun _ _ => rfl) _ _ _ _ (k0_off136_eq k) (by omega) (by omega) _ _) ?_
  refine KCompLib.part_cons _ _ (16 * k.val + 5) 16 32 (k0_off135_eq k) (by omega) (by omega) (by omega)
    (KCompLib.pay_ok hlut hp _ hRL _ (16 * k.val + 5) (by omega) (KCompLib.word_eq _ hRD xv k.val _ (k0_off107_eq k) _ 5 _ _ (by omega)) 1 (by omega) 16#32 (by decide) _ (fun _ _ => rfl) _ _ _ _ (k0_off135_eq k) (by omega) (by omega) _ _) ?_
  refine KCompLib.part_cons _ _ (16 * k.val + 5) 0 16 (k0_off134_eq k) (by omega) (by omega) (by omega)
    (KCompLib.pay_ok hlut hp _ hRL _ (16 * k.val + 5) (by omega) (KCompLib.word_eq _ hRD xv k.val _ (k0_off107_eq k) _ 5 _ _ (by omega)) 0 (by omega) 0#32 (by decide) _ (fun _ _ => rfl) _ _ _ _ (k0_off134_eq k) (by omega) (by omega) _ _) ?_
  refine KCompLib.part_next _ _ (n := 16 * k.val + 4) ?_ (by omega)
  refine KCompLib.part_cons _ _ (16 * k.val + 4) 48 64 (k0_off132_eq k) (by omega) (by omega) (by omega)
    (KCompLib.pay_ok hlut hp _ hRL _ (16 * k.val + 4) (by omega) (KCompLib.word_eq _ hRD xv k.val _ (k0_off107_eq k) _ 4 _ _ (by omega)) 3 (by omega) 48#32 (by decide) _ (fun _ _ => rfl) _ _ _ _ (k0_off132_eq k) (by omega) (by omega) _ _) ?_
  refine KCompLib.part_cons _ _ (16 * k.val + 4) 32 48 (k0_off131_eq k) (by omega) (by omega) (by omega)
    (KCompLib.pay_ok hlut hp _ hRL _ (16 * k.val + 4) (by omega) (KCompLib.word_eq _ hRD xv k.val _ (k0_off107_eq k) _ 4 _ _ (by omega)) 2 (by omega) 32#32 (by decide) _ (fun _ _ => rfl) _ _ _ _ (k0_off131_eq k) (by omega) (by omega) _ _) ?_
  refine KCompLib.part_cons _ _ (16 * k.val + 4) 16 32 (k0_off130_eq k) (by omega) (by omega) (by omega)
    (KCompLib.pay_ok hlut hp _ hRL _ (16 * k.val + 4) (by omega) (KCompLib.word_eq _ hRD xv k.val _ (k0_off107_eq k) _ 4 _ _ (by omega)) 1 (by omega) 16#32 (by decide) _ (fun _ _ => rfl) _ _ _ _ (k0_off130_eq k) (by omega) (by omega) _ _) ?_
  refine KCompLib.part_cons _ _ (16 * k.val + 4) 0 16 (k0_off129_eq k) (by omega) (by omega) (by omega)
    (KCompLib.pay_ok hlut hp _ hRL _ (16 * k.val + 4) (by omega) (KCompLib.word_eq _ hRD xv k.val _ (k0_off107_eq k) _ 4 _ _ (by omega)) 0 (by omega) 0#32 (by decide) _ (fun _ _ => rfl) _ _ _ _ (k0_off129_eq k) (by omega) (by omega) _ _) ?_
  refine KCompLib.part_next _ _ (n := 16 * k.val + 3) ?_ (by omega)
  refine KCompLib.part_cons _ _ (16 * k.val + 3) 48 64 (k0_off127_eq k) (by omega) (by omega) (by omega)
    (KCompLib.pay_ok hlut hp _ hRL _ (16 * k.val + 3) (by omega) (KCompLib.word_eq _ hRD xv k.val _ (k0_off107_eq k) _ 3 _ _ (by omega)) 3 (by omega) 48#32 (by decide) _ (fun _ _ => rfl) _ _ _ _ (k0_off127_eq k) (by omega) (by omega) _ _) ?_
  refine KCompLib.part_cons _ _ (16 * k.val + 3) 32 48 (k0_off126_eq k) (by omega) (by omega) (by omega)
    (KCompLib.pay_ok hlut hp _ hRL _ (16 * k.val + 3) (by omega) (KCompLib.word_eq _ hRD xv k.val _ (k0_off107_eq k) _ 3 _ _ (by omega)) 2 (by omega) 32#32 (by decide) _ (fun _ _ => rfl) _ _ _ _ (k0_off126_eq k) (by omega) (by omega) _ _) ?_
  refine KCompLib.part_cons _ _ (16 * k.val + 3) 16 32 (k0_off125_eq k) (by omega) (by omega) (by omega)
    (KCompLib.pay_ok hlut hp _ hRL _ (16 * k.val + 3) (by omega) (KCompLib.word_eq _ hRD xv k.val _ (k0_off107_eq k) _ 3 _ _ (by omega)) 1 (by omega) 16#32 (by decide) _ (fun _ _ => rfl) _ _ _ _ (k0_off125_eq k) (by omega) (by omega) _ _) ?_
  refine KCompLib.part_cons _ _ (16 * k.val + 3) 0 16 (k0_off124_eq k) (by omega) (by omega) (by omega)
    (KCompLib.pay_ok hlut hp _ hRL _ (16 * k.val + 3) (by omega) (KCompLib.word_eq _ hRD xv k.val _ (k0_off107_eq k) _ 3 _ _ (by omega)) 0 (by omega) 0#32 (by decide) _ (fun _ _ => rfl) _ _ _ _ (k0_off124_eq k) (by omega) (by omega) _ _) ?_
  refine KCompLib.part_next _ _ (n := 16 * k.val + 2) ?_ (by omega)
  refine KCompLib.part_cons _ _ (16 * k.val + 2) 48 64 (k0_off122_eq k) (by omega) (by omega) (by omega)
    (KCompLib.pay_ok hlut hp _ hRL _ (16 * k.val + 2) (by omega) (KCompLib.word_eq _ hRD xv k.val _ (k0_off107_eq k) _ 2 _ _ (by omega)) 3 (by omega) 48#32 (by decide) _ (fun _ _ => rfl) _ _ _ _ (k0_off122_eq k) (by omega) (by omega) _ _) ?_
  refine KCompLib.part_cons _ _ (16 * k.val + 2) 32 48 (k0_off121_eq k) (by omega) (by omega) (by omega)
    (KCompLib.pay_ok hlut hp _ hRL _ (16 * k.val + 2) (by omega) (KCompLib.word_eq _ hRD xv k.val _ (k0_off107_eq k) _ 2 _ _ (by omega)) 2 (by omega) 32#32 (by decide) _ (fun _ _ => rfl) _ _ _ _ (k0_off121_eq k) (by omega) (by omega) _ _) ?_
  refine KCompLib.part_cons _ _ (16 * k.val + 2) 16 32 (k0_off120_eq k) (by omega) (by omega) (by omega)
    (KCompLib.pay_ok hlut hp _ hRL _ (16 * k.val + 2) (by omega) (KCompLib.word_eq _ hRD xv k.val _ (k0_off107_eq k) _ 2 _ _ (by omega)) 1 (by omega) 16#32 (by decide) _ (fun _ _ => rfl) _ _ _ _ (k0_off120_eq k) (by omega) (by omega) _ _) ?_
  refine KCompLib.part_cons _ _ (16 * k.val + 2) 0 16 (k0_off119_eq k) (by omega) (by omega) (by omega)
    (KCompLib.pay_ok hlut hp _ hRL _ (16 * k.val + 2) (by omega) (KCompLib.word_eq _ hRD xv k.val _ (k0_off107_eq k) _ 2 _ _ (by omega)) 0 (by omega) 0#32 (by decide) _ (fun _ _ => rfl) _ _ _ _ (k0_off119_eq k) (by omega) (by omega) _ _) ?_
  refine KCompLib.part_next _ _ (n := 16 * k.val + 1) ?_ (by omega)
  refine KCompLib.part_cons _ _ (16 * k.val + 1) 48 64 (k0_off117_eq k) (by omega) (by omega) (by omega)
    (KCompLib.pay_ok hlut hp _ hRL _ (16 * k.val + 1) (by omega) (KCompLib.word_eq _ hRD xv k.val _ (k0_off107_eq k) _ 1 _ _ (by omega)) 3 (by omega) 48#32 (by decide) _ (fun _ _ => rfl) _ _ _ _ (k0_off117_eq k) (by omega) (by omega) _ _) ?_
  refine KCompLib.part_cons _ _ (16 * k.val + 1) 32 48 (k0_off116_eq k) (by omega) (by omega) (by omega)
    (KCompLib.pay_ok hlut hp _ hRL _ (16 * k.val + 1) (by omega) (KCompLib.word_eq _ hRD xv k.val _ (k0_off107_eq k) _ 1 _ _ (by omega)) 2 (by omega) 32#32 (by decide) _ (fun _ _ => rfl) _ _ _ _ (k0_off116_eq k) (by omega) (by omega) _ _) ?_
  refine KCompLib.part_cons _ _ (16 * k.val + 1) 16 32 (k0_off115_eq k) (by omega) (by omega) (by omega)
    (KCompLib.pay_ok hlut hp _ hRL _ (16 * k.val + 1) (by omega) (KCompLib.word_eq _ hRD xv k.val _ (k0_off107_eq k) _ 1 _ _ (by omega)) 1 (by omega) 16#32 (by decide) _ (fun _ _ => rfl) _ _ _ _ (k0_off115_eq k) (by omega) (by omega) _ _) ?_
  refine KCompLib.part_cons _ _ (16 * k.val + 1) 0 16 (k0_off114_eq k) (by omega) (by omega) (by omega)
    (KCompLib.pay_ok hlut hp _ hRL _ (16 * k.val + 1) (by omega) (KCompLib.word_eq _ hRD xv k.val _ (k0_off107_eq k) _ 1 _ _ (by omega)) 0 (by omega) 0#32 (by decide) _ (fun _ _ => rfl) _ _ _ _ (k0_off114_eq k) (by omega) (by omega) _ _) ?_
  refine KCompLib.part_next _ _ (n := 16 * k.val) ?_ (by omega)
  refine KCompLib.part_cons _ _ (16 * k.val) 48 64 (k0_off112_eq k) (by omega) (by omega) (by omega)
    (KCompLib.pay_ok hlut hp _ hRL _ (16 * k.val) (by omega) (KCompLib.word_eq _ hRD xv k.val _ (k0_off107_eq k) _ 0 _ _ (by omega)) 3 (by omega) 48#32 (by decide) _ (fun _ _ => rfl) _ _ _ _ (k0_off112_eq k) (by omega) (by omega) _ _) ?_
  refine KCompLib.part_cons _ _ (16 * k.val) 32 48 (k0_off111_eq k) (by omega) (by omega) (by omega)
    (KCompLib.pay_ok hlut hp _ hRL _ (16 * k.val) (by omega) (KCompLib.word_eq _ hRD xv k.val _ (k0_off107_eq k) _ 0 _ _ (by omega)) 2 (by omega) 32#32 (by decide) _ (fun _ _ => rfl) _ _ _ _ (k0_off111_eq k) (by omega) (by omega) _ _) ?_
  refine KCompLib.part_cons _ _ (16 * k.val) 16 32 (k0_off110_eq k) (by omega) (by omega) (by omega)
    (KCompLib.pay_ok hlut hp _ hRL _ (16 * k.val) (by omega) (KCompLib.word_eq _ hRD xv k.val _ (k0_off107_eq k) _ 0 _ _ (by omega)) 1 (by omega) 16#32 (by decide) _ (fun _ _ => rfl) _ _ _ _ (k0_off110_eq k) (by omega) (by omega) _ _) ?_
  refine KCompLib.part_cons _ _ (16 * k.val) 0 16 (k0_off109_eq k) (by omega) (by omega) (by omega)
    (KCompLib.pay_ok hlut hp _ hRL _ (16 * k.val) (by omega) (KCompLib.word_eq _ hRD xv k.val _ (k0_off107_eq k) _ 0 _ _ (by omega)) 0 (by omega) 0#32 (by decide) _ (fun _ _ => rfl) _ _ _ _ (k0_off109_eq k) (by omega) (by omega) _ _) ?_
  exact KCompLib.part_of_outOK _ (fun g => g) (fun _ _ => rfl) hxv _ _ hf

end Cert.KernelIdeal.KCompute

end
-- ==== Proof.KRingLib.lean ====
/-
  What the proofs of the ring's steps share: the conditions of a step by the number of odd-numbered blocks, the
  result's blocks and the packed words as the program names them, and what a landing copy delivers — a block of
  the packed words read through the program's slice is that block; a block of the result written whole with a filled
  staging buffer holds the result's rows.
-/
import proofs.«207339_g86234353369688_cont_sun_m_1071_33_alg».proof.Proof.KTile1

noncomputable section

namespace Cert.KernelIdeal.KT

open Cert.KernelIdeal Cert.KernelIdeal.Gen Cert.KernelIdeal.KC Cert.KernelIdeal.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.KernelIdeal.main_v15_scv : Memref Cert.KernelIdeal.sig Kind.scVector Space.hbm Cert.KernelIdeal.S100000 EltTy.i32)
local notation "wW" => (Memref.whole Cert.KernelIdeal.main_v8_scv : Memref Cert.KernelIdeal.sig Kind.scVector Space.hbm Cert.KernelIdeal.S1152 EltTy.f32)
local notation "oW" => (Memref.whole Cert.KernelIdeal.main_v16_scv : Memref Cert.KernelIdeal.sig Kind.scVector Space.hbm Cert.KernelIdeal.S100000x64 EltTy.f32)
local notation "b0" => (Memref.whole Cert.KernelIdeal.cc0_scratch0 : Memref Cert.KernelIdeal.sig Kind.scVector Space.vmem Cert.KernelIdeal.S160 EltTy.i32)
local notation "b1" => (Memref.whole Cert.KernelIdeal.cc0_scratch1 : Memref Cert.KernelIdeal.sig Kind.scVector Space.vmem Cert.KernelIdeal.S160 EltTy.i32)
local notation "b2" => (Memref.whole Cert.KernelIdeal.cc0_scratch2 : Memref Cert.KernelIdeal.sig Kind.scVector Space.vmem Cert.KernelIdeal.S1152 EltTy.f32)
local notation "b3" => (Memref.whole Cert.KernelIdeal.cc0_scratch3 : Memref Cert.KernelIdeal.sig Kind.scVector Space.vmem Cert.KernelIdeal.S32768 EltTy.f32)
local notation "b4" => (Memref.whole Cert.KernelIdeal.cc0_scratch4 : Memref Cert.KernelIdeal.sig Kind.scVector Space.vmem Cert.KernelIdeal.S160x64 EltTy.f32)
local notation "b5" => (Memref.whole Cert.KernelIdeal.cc0_scratch5 : Memref Cert.KernelIdeal.sig Kind.scVector Space.vmem Cert.KernelIdeal.S160x64 EltTy.f32)

variable [FloatOps F]
variable (d : Dev nD) (L : grid0.Coords)

/-- The staging buffers while they are filled: the block's packed words, the table, and the rows done so far. -/
def Icmp0 (w : Cert.Spec.SW.Idx → F .f32) (xp : S100000.Idx → BitVec 32) (d : Dev nD) (L : grid0.Coords) (blk : Nat) (xv : S160.Idx → BitVec 32) (lut : S32768.Idx → F .f32) (k : Nat) (_ : BitVec 32) : sProp 𝕄 :=
  iprop(((b0).view.loc (thr d L) ↦{fullShare} xv) ∗ ((b3).view.loc (thr d L) ↦{fullShare} lut) ∗ ∃ f, ((b4).view.loc (thr d L) ↦{fullShare} f) ∗ ⌜KC.OutOK w xp blk (16 * k) f⌝)
def Icmp1 (w : Cert.Spec.SW.Idx → F .f32) (xp : S100000.Idx → BitVec 32) (d : Dev nD) (L : grid0.Coords) (blk : Nat) (xv : S160.Idx → BitVec 32) (lut : S32768.Idx → F .f32) (k : Nat) (_ : BitVec 32) : sProp 𝕄 :=
  iprop(((b1).view.loc (thr d L) ↦{fullShare} xv) ∗ ((b3).view.loc (thr d L) ↦{fullShare} lut) ∗ ∃ f, ((b5).view.loc (thr d L) ↦{fullShare} f) ∗ ⌜KC.OutOK w xp blk (16 * k) f⌝)

/-! ## The conditions of a step, by the number of odd-numbered blocks -/

omit [FloatOps F] in
theorem t_lt (t : Fin k0_t9_loop.trips) : t.val < 10 := Nat.lt_of_lt_of_eq t.isLt trips9
omit [FloatOps F] in
theorem cond4_nOdd (t : Fin k0_t9_loop.trips) : k0_cond4 L t = 1#1 ↔ t.val < nOdd L := by
  have := t_lt t
  rw [cond4_iff]; unfold nOdd wid; split <;> omega
omit [FloatOps F] in
theorem cond6_nOdd (t : Fin k0_t9_loop.trips) : k0_cond6 L t = 1#1 ↔ t.val + 1 < nOdd L := by
  have := t_lt t
  rw [cond6_iff]; unfold nOdd wid; split <;> omega

variable (xp : Buf (Elt F) (pLoc d)) (w : Buf (Elt F) (wLoc d)) (o0 : Buf (Elt F) (oLoc d))
variable (O : CellTallies nD τ sig (HIx 1)) (W : Waits sig (HIx 1)) (lut : S32768.Idx → F .f32)

/-! ## The result's blocks and the packed words, as the program names them -/

omit [FloatOps F] in
theorem pts_p (q : PosShare TreeShare) : (pLoc d ↦{q} xp : sProp 𝕄) = ((pW).view.loc (thr d L) ↦{q} xp) := rfl

omit [FloatOps F] in
theorem pts_oE (t : Fin k0_t9_loop.trips) (h1 : k0_cond1 L t = 1#1) (f : Buf (Elt F) (oLoc d)) :
    (((oW).slice (Rect.unit (s := S100000x64) (k0_off103 L t) S160x64.size (k0_off103_inb L t h1)) (fun _ => rfl)).view.loc (thr d L)
        ↦[((oW).slice (Rect.unit (s := S100000x64) (k0_off103 L t) S160x64.size (k0_off103_inb L t h1)) (fun _ => rfl)).view.set]{fullShare} f : sProp 𝕄)
      = (oLoc d ↦[blkSet (bE L t.val)]{fullShare} f) := by
  rw [set_oSlice _ _ (bE L t.val) (by rw [k0_off103_eq]; unfold bE wid; congr 1; omega)]

omit [FloatOps F] in
theorem pts_oO (t : Fin k0_t9_loop.trips) (h4 : k0_cond4 L t = 1#1) (f : Buf (Elt F) (oLoc d)) :
    (((oW).slice (Rect.unit (s := S100000x64) (k0_off188 L t) S160x64.size (k0_off188_inb L t h4)) (fun _ => rfl)).view.loc (thr d L)
        ↦[((oW).slice (Rect.unit (s := S100000x64) (k0_off188 L t) S160x64.size (k0_off188_inb L t h4)) (fun _ => rfl)).view.set]{fullShare} f : sProp 𝕄)
      = (oLoc d ↦[blkSet (bO L t.val)]{fullShare} f) := by
  rw [set_oSlice _ _ (bO L t.val) (by rw [k0_off188_eq]; unfold bO wid; congr 1; omega)]

omit [FloatOps F] in
theorem range_pop {n : Nat} (h : 1 ≤ n) (Φ : Nat → sProp 𝕄) :
    bigSep (Finset.range n) Φ = iprop(Φ (n - 1) ∗ bigSep (Finset.range (n - 1)) Φ) := by
  obtain ⟨k, rfl⟩ : ∃ k, n = k + 1 := ⟨n - 1, by omega⟩
  rw [range_push, Nat.add_sub_cancel]

/-! ## What a landing copy delivers -/

/-- A block of the packed words, read through the slice the program takes of them, is that block. -/
theorem in_val (off : Fin 1 → Nat) (inb : ∀ a, off a + S160.size a ≤ S100000.size a) (blk : Nat) (hoff : off = ![160 * blk]) :
    KC.XvOK xp blk (View.read (Elt F) ((pW).slice (Rect.unit (s := S100000) off S160.size inb) (fun _ => rfl)).view xp) := by
  subst hoff
  intro r
  refine ⟨((pW).slice (Rect.unit (s := S100000) ![160 * blk] S160.size inb) (fun _ => rfl)).view.emb r, ?_, ?_⟩
  · show ((Rect.unit (s := S100000) ![160 * blk] S160.size inb).emb r 0).val = _
    rw [Rect.emb_apply]; simp
  · rw [View.read_apply]; rfl

/-- A block of the result written whole with a filled staging buffer holds the result's rows there. -/
theorem out_val (off : Fin 2 → Nat) (inb : ∀ a, off a + S160x64.size a ≤ S100000x64.size a) (blk : Nat) (hoff : off = ![160 * blk, 0])
    (fblk : Buf (Elt F) (oLoc d)) (f : S160x64.Idx → F .f32) (hf : KC.OutOK w xp blk 160 f) :
    ∀ i ∈ ((oW).slice (Rect.unit (s := S100000x64) off S160x64.size inb) (fun _ => rfl)).view.set,
      (((oW).slice (Rect.unit (s := S100000x64) off S160x64.size inb) (fun _ => rfl)).view.writes (Elt F) fblk
        [⟨Rect.whole _, f⟩]) i = G d w xp i := by
  subst hoff
  intro i hi
  obtain ⟨y, -, rfl⟩ := Finset.mem_map.mp hi
  have h1 := View.read_writes_cons_emb ((oW).slice (Rect.unit (s := S100000x64) ![160 * blk, 0] S160x64.size inb) (fun _ => rfl)).view fblk (Rect.whole _) f [] y
  rw [View.read_apply, Rect.emb_whole_apply] at h1
  obtain ⟨m, hm, hfy⟩ := hf y (by have := (y 0).isLt; exact this)
  rw [cast_eq] at h1
  rw [h1, hfy]
  have e0 : ((((oW).slice (Rect.unit (s := S100000x64) ![160 * blk, 0] S160x64.size inb) (fun _ => rfl)).view.emb y) 0).val = 160 * blk + (y 0).val := by
    show ((Rect.unit (s := S100000x64) ![160 * blk, 0] S160x64.size inb).emb y 0).val = _
    rw [Rect.emb_apply]; simp
  have e1 : ((((oW).slice (Rect.unit (s := S100000x64) ![160 * blk, 0] S160x64.size inb) (fun _ => rfl)).view.emb y) 1).val = (y 1).val := by
    show ((Rect.unit (s := S100000x64) ![160 * blk, 0] S160x64.size inb).emb y 1).val = _
    rw [Rect.emb_apply]; simp
  show _ = Cert.Spec.lutRow w (xp (ValueIdx.ix1 ((((oW).slice (Rect.unit (s := S100000x64) ![160 * blk, 0] S160x64.size inb) (fun _ => rfl)).view.emb y) 0))).toNat ((((oW).slice (Rect.unit (s := S100000x64) ![160 * blk, 0] S160x64.size inb) (fun _ => rfl)).view.emb y) 1).val
  rw [e1]
  congr 3
  funext a
  obtain rfl : a = 0 := Subsingleton.elim _ _
  apply Fin.ext
  rw [hm, ← e0]

/-- The staging buffer's copy into its block of the result delivers the buffer back and the block at the result's rows. -/
theorem out_deliv0 (t : Fin k0_t9_loop.trips) (h1 : k0_cond1 L t = 1#1) (fblk : Buf (Elt F) (oLoc d)) (f : S160x64.Idx → F .f32)
    (hf : KC.OutOK w xp (bE L t.val) 160 f) :
    (iprop((((oW).slice (Rect.unit (s := S100000x64) (k0_off103 L t) S160x64.size (k0_off103_inb L t h1)) (fun _ => rfl)).view.loc (thr d L)
          ↦[((oW).slice (Rect.unit (s := S100000x64) (k0_off103 L t) S160x64.size (k0_off103_inb L t h1)) (fun _ => rfl)).view.set]{fullShare}
          ((oW).slice (Rect.unit (s := S100000x64) (k0_off103 L t) S160x64.size (k0_off103_inb L t h1)) (fun _ => rfl)).view.writes (Elt F) fblk [⟨Rect.whole _, f⟩])
        ∗ ((b4).view.loc (thr d L) ↦[(b4).view.set]{fullShare} f)) : sProp 𝕄)
      ⊢ DO0 d L xp w t.val := by
  have hoff : k0_off103 L t = ![160 * bE L t.val, 0] := by rw [k0_off103_eq]; unfold bE wid; congr 1; omega
  rw [pointsTo_congr (out_val d xp w (k0_off103 L t) (k0_off103_inb L t h1) (bE L t.val) hoff fblk f hf), pts_oE d L t h1 (G d w xp),
    show ((b4).view.set) = Finset.univ from by simp only [Memref.view_whole, View.set_whole]]
  iintro ⟨Ho, H4⟩
  isplitl [H4]
  · iexists f; iexact H4
  · iexact Ho

/-- The staging buffer's copy into its block of the result delivers the buffer back and the block at the result's rows. -/
theorem out_deliv1 (t : Fin k0_t9_loop.trips) (h4 : k0_cond4 L t = 1#1) (fblk : Buf (Elt F) (oLoc d)) (f : S160x64.Idx → F .f32)
    (hf : KC.OutOK w xp (bO L t.val) 160 f) :
    (iprop((((oW).slice (Rect.unit (s := S100000x64) (k0_off188 L t) S160x64.size (k0_off188_inb L t h4)) (fun _ => rfl)).view.loc (thr d L)
          ↦[((oW).slice (Rect.unit (s := S100000x64) (k0_off188 L t) S160x64.size (k0_off188_inb L t h4)) (fun _ => rfl)).view.set]{fullShare}
          ((oW).slice (Rect.unit (s := S100000x64) (k0_off188 L t) S160x64.size (k0_off188_inb L t h4)) (fun _ => rfl)).view.writes (Elt F) fblk [⟨Rect.whole _, f⟩])
        ∗ ((b5).view.loc (thr d L) ↦[(b5).view.set]{fullShare} f)) : sProp 𝕄)
      ⊢ DO1 d L xp w t.val := by
  have hoff : k0_off188 L t = ![160 * bO L t.val, 0] := by rw [k0_off188_eq]; unfold bO wid; congr 1; omega
  rw [pointsTo_congr (out_val d xp w (k0_off188 L t) (k0_off188_inb L t h4) (bO L t.val) hoff fblk f hf), pts_oO d L t h4 (G d w xp),
    show ((b5).view.set) = Finset.univ from by simp only [Memref.view_whole, View.set_whole]]
  iintro ⟨Ho, H4⟩
  isplitl [H4]
  · iexists f; iexact H4
  · iexact Ho

/-- The fetch of the next block's packed words delivers the index scratch holding that block. -/
theorem in_deliv0 (t : Fin k0_t9_loop.trips) (h1 : k0_cond1 L t = 1#1) (h3 : k0_cond3 L t = 1#1) (q : PosShare TreeShare) (xv : S160.Idx → BitVec 32) :
    (iprop(((b0).view.loc (thr d L) ↦{fullShare} View.write (Elt F) (b0).view xv (View.read (Elt F) ((pW).slice (Rect.unit (s := S100000) (k0_off104 L t) S160.size (k0_off104_inb L t h1 h3)) (fun _ => rfl)).view xp) Finset.univ)
        ∗ ((pW).view.loc (thr d L) ↦[((pW).slice (Rect.unit (s := S100000) (k0_off104 L t) S160.size (k0_off104_inb L t h1 h3)) (fun _ => rfl)).view.set]{q} xp)) : sProp 𝕄)
      ⊢ DX0 d L xp (t.val + 1) := by
  have hoff : k0_off104 L t = ![160 * bE L (t.val + 1)] := by rw [k0_off104_eq]; unfold bE wid; congr 1; omega
  iintro ⟨H0, -⟩
  iexists _; isplitl [H0]; · iexact H0
  ipureintro
  simp only [Memref.view_whole, View.write_whole_univ]
  exact in_val d xp (k0_off104 L t) (k0_off104_inb L t h1 h3) (bE L (t.val + 1)) hoff

/-- The fetch of the next block's packed words delivers the index scratch holding that block. -/
theorem in_deliv1 (t : Fin k0_t9_loop.trips) (h4 : k0_cond4 L t = 1#1) (h6 : k0_cond6 L t = 1#1) (q : PosShare TreeShare) (xv : S160.Idx → BitVec 32) :
    (iprop(((b1).view.loc (thr d L) ↦{fullShare} View.write (Elt F) (b1).view xv (View.read (Elt F) ((pW).slice (Rect.unit (s := S100000) (k0_off189 L t) S160.size (k0_off189_inb L t h4 h6)) (fun _ => rfl)).view xp) Finset.univ)
        ∗ ((pW).view.loc (thr d L) ↦[((pW).slice (Rect.unit (s := S100000) (k0_off189 L t) S160.size (k0_off189_inb L t h4 h6)) (fun _ => rfl)).view.set]{q} xp)) : sProp 𝕄)
      ⊢ DX1 d L xp (t.val + 1) := by
  have hoff : k0_off189 L t = ![160 * bO L (t.val + 1)] := by rw [k0_off189_eq]; unfold bO wid; congr 1; omega
  iintro ⟨H0, -⟩
  iexists _; isplitl [H0]; · iexact H0
  ipureintro
  simp only [Memref.view_whole, View.write_whole_univ]
  exact in_val d xp (k0_off189 L t) (k0_off189_inb L t h4 h6) (bO L (t.val + 1)) hoff

end Cert.KernelIdeal.KT

end
-- ==== Proof.KRingAF.lean ====
/-
  The first and the last step of the ring of transfers a vector subcore runs.

  Step 0 has no earlier copy into the result to wait for: the staging buffers are idle and their semaphores at zero;
  it leaves both staging buffers' copies of blocks `wid` and `wid + 32` in flight and the packed words of the next two
  blocks on their way.  A worker with nine odd-numbered blocks runs step 9 on its even-numbered block alone: nothing
  more is fetched, the index scratch stays idle, and the odd side is as step 8 left it.
-/
import proofs.«207339_g86234353369688_cont_sun_m_1071_33_alg».proof.Proof.KTile1
import proofs.«207339_g86234353369688_cont_sun_m_1071_33_alg».proof.Proof.KCompute
import proofs.«207339_g86234353369688_cont_sun_m_1071_33_alg».proof.Proof.KRingLib
import proofs.«207339_g86234353369688_cont_sun_m_1071_33_alg».proof.Proof.Gen.KernelIdeal.Skeleton

noncomputable section

namespace Cert.KernelIdeal.KT

open Cert.KernelIdeal Cert.KernelIdeal.Gen Cert.KernelIdeal.KC Cert.KernelIdeal.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.KernelIdeal.main_v15_scv : Memref Cert.KernelIdeal.sig Kind.scVector Space.hbm Cert.KernelIdeal.S100000 EltTy.i32)
local notation "wW" => (Memref.whole Cert.KernelIdeal.main_v8_scv : Memref Cert.KernelIdeal.sig Kind.scVector Space.hbm Cert.KernelIdeal.S1152 EltTy.f32)
local notation "oW" => (Memref.whole Cert.KernelIdeal.main_v16_scv : Memref Cert.KernelIdeal.sig Kind.scVector Space.hbm Cert.KernelIdeal.S100000x64 EltTy.f32)
local notation "b0" => (Memref.whole Cert.KernelIdeal.cc0_scratch0 : Memref Cert.KernelIdeal.sig Kind.scVector Space.vmem Cert.KernelIdeal.S160 EltTy.i32)
local notation "b1" => (Memref.whole Cert.KernelIdeal.cc0_scratch1 : Memref Cert.KernelIdeal.sig Kind.scVector Space.vmem Cert.KernelIdeal.S160 EltTy.i32)
local notation "b2" => (Memref.whole Cert.KernelIdeal.cc0_scratch2 : Memref Cert.KernelIdeal.sig Kind.scVector Space.vmem Cert.KernelIdeal.S1152 EltTy.f32)
local notation "b3" => (Memref.whole Cert.KernelIdeal.cc0_scratch3 : Memref Cert.KernelIdeal.sig Kind.scVector Space.vmem Cert.KernelIdeal.S32768 EltTy.f32)
local notation "b4" => (Memref.whole Cert.KernelIdeal.cc0_scratch4 : Memref Cert.KernelIdeal.sig Kind.scVector Space.vmem Cert.KernelIdeal.S160x64 EltTy.f32)
local notation "b5" => (Memref.whole Cert.KernelIdeal.cc0_scratch5 : Memref Cert.KernelIdeal.sig Kind.scVector Space.vmem Cert.KernelIdeal.S160x64 EltTy.f32)

variable [FloatOps F]

variable (d : Dev nD) (L : grid0.Coords) (xp : Buf (Elt F) (pLoc d)) (w : Buf (Elt F) (wLoc d))

/-- `out_deliv0` with the copied values spelt as the copy reads them off the staging buffer. -/
theorem out_deliv0r (t : Fin k0_t9_loop.trips) (h1 : k0_cond1 L t = 1#1) (fblk : Buf (Elt F) (oLoc d)) (f : S160x64.Idx → F .f32)
    (hf : KC.OutOK w xp (bE L t.val) 160 f) :
    (iprop((((oW).slice (Rect.unit (s := S100000x64) (k0_off103 L t) S160x64.size (k0_off103_inb L t h1)) (fun _ => rfl)).view.loc (thr d L)
          ↦[((oW).slice (Rect.unit (s := S100000x64) (k0_off103 L t) S160x64.size (k0_off103_inb L t h1)) (fun _ => rfl)).view.set]{fullShare}
          ((oW).slice (Rect.unit (s := S100000x64) (k0_off103 L t) S160x64.size (k0_off103_inb L t h1)) (fun _ => rfl)).view.writes (Elt F) fblk
            [⟨Rect.whole _, ReadAs.same.apply (View.read (Elt F) (b4).view f)⟩])
        ∗ ((b4).view.loc (thr d L) ↦[(b4).view.set]{fullShare} f)) : sProp 𝕄)
      ⊢ DO0 d L xp w t.val :=
  out_deliv0 d L xp w t h1 fblk f hf

/-- `out_deliv1` likewise. -/
theorem out_deliv1r (t : Fin k0_t9_loop.trips) (h4 : k0_cond4 L t = 1#1) (fblk : Buf (Elt F) (oLoc d)) (f : S160x64.Idx → F .f32)
    (hf : KC.OutOK w xp (bO L t.val) 160 f) :
    (iprop((((oW).slice (Rect.unit (s := S100000x64) (k0_off188 L t) S160x64.size (k0_off188_inb L t h4)) (fun _ => rfl)).view.loc (thr d L)
          ↦[((oW).slice (Rect.unit (s := S100000x64) (k0_off188 L t) S160x64.size (k0_off188_inb L t h4)) (fun _ => rfl)).view.set]{fullShare}
          ((oW).slice (Rect.unit (s := S100000x64) (k0_off188 L t) S160x64.size (k0_off188_inb L t h4)) (fun _ => rfl)).view.writes (Elt F) fblk
            [⟨Rect.whole _, ReadAs.same.apply (View.read (Elt F) (b5).view f)⟩])
        ∗ ((b5).view.loc (thr d L) ↦[(b5).view.set]{fullShare} f)) : sProp 𝕄)
      ⊢ DO1 d L xp w t.val :=
  out_deliv1 d L xp w t h4 fblk f hf

set_option maxHeartbeats 8000000 in
/-- Step 0 of the ring. -/
theorem ring_A (d : Dev nD) (L : grid0.Coords) (qa qb : PosShare TreeShare) (xp : Buf (Elt F) (pLoc d)) (w : Buf (Elt F) (wLoc d)) (o0 : Buf (Elt F) (oLoc d))
    (O : CellTallies nD τ sig (HIx 1)) (W : Waits sig (HIx 1)) (lut : S32768.Idx → F .f32)
    (hO : ∀ g, O g none = 0) (hxp : ∀ n : S100000.Idx, (xp n).toNat < 512) (hlut : KC.LutOK w 512 lut)
    (v1 v20 : BitVec 32) (v239 : FVec F S16 .f32) (k : Fin k0_t9_loop.trips) (hk : k.val = 0) (acc : BitVec 32) :
    Iring d L xp w o0 O W lut qa qb k.val acc ⊢ wp frame (wpE (defs₀ (F := F)) 𝒱₀ (thr d L) none) Set.univ
      (k0_t9_body L pW (Memref.isWhole_whole _) wW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) cc0_scratch6 cc0_scratch7 cc0_scratch8 cc0_scratch9 cc0_scoped0 v1 v20 v239 k acc)
      (Iring d L xp w o0 O W lut qa qb (k.val + 1)) := by
  have hn10 := nOdd_le L
  have hn9 := nOdd_ge L
  have k0_h1 : k0_cond1 L k = 1#1 := cond1_true L k
  have k0_h2 : ¬ k0_cond2 k = 1#1 := fun h => by have := (cond2_iff k).1 h; omega
  have k0_h3 : k0_cond3 L k = 1#1 := (cond3_iff L k).2 (by omega)
  have k0_h4 : k0_cond4 L k = 1#1 := (cond4_nOdd L k).2 (by omega)
  have k0_h5 : ¬ k0_cond5 k = 1#1 := fun h => by have := (cond5_iff k).1 h; omega
  have k0_h6 : k0_cond6 L k = 1#1 := (cond6_nOdd L k).2 (by omega)
  unfold Iring SX0 SX1 SO0 SO1
  rw [if_pos (show k.val < 10 by omega), if_pos (show k.val < nOdd L by omega), if_pos hk, if_pos hk,
    if_pos (show k.val + 1 < 10 by omega), if_pos (show k.val + 1 < nOdd L by omega), if_neg (show ¬ k.val + 1 = 0 by omega), if_neg (show ¬ k.val + 1 = 0 by omega),
    show min (k.val + 1) (nOdd L) = k.val + 1 from by omega, show min k.val (nOdd L) = k.val from by omega, Nat.add_sub_cancel,
    show k.val - 1 = 0 from by omega, show Finset.range k.val = Finset.range 0 from by rw [hk],
    Ico_pop (show k.val < 10 by omega) (fun s => (oLoc d ↦[blkSet (bE L s)]{fullShare} o0 : sProp 𝕄)), Ico_pop (show k.val < nOdd L by omega) (fun s => (oLoc d ↦[blkSet (bO L s)]{fullShare} o0 : sProp 𝕄)),
    Ico_pop (show k.val + 1 < 10 by omega) (fun s => (pLoc d ↦{Transfers.shareTokN qa s} xp : sProp 𝕄)), Ico_pop (show k.val + 1 < nOdd L by omega) (fun s => (pLoc d ↦{Transfers.shareTokN qb s} xp : sProp 𝕄)),
    ← pts_oE d L k k0_h1 o0, ← pts_oO d L k k0_h4 o0, pts_p d L xp (Transfers.shareTokN qa (k.val + 1)), pts_p d L xp (Transfers.shareTokN qb (k.val + 1))]
  unfold k0_t9_body
  iintro ⟨#Hmw, H3, SX0, SX1, ⟨S8, %f4, H4⟩, ⟨S9, %f5, H5⟩, ⟨HbE, HuE⟩, ⟨HbO, HuO⟩, HgE, HgO, ⟨HpA, HqA⟩, ⟨HpB, HqB⟩, %W0, %hW0, HO⟩
  sl_exec
  iapply (Transfers.wp_waitLocalO countersEmb 𝒱₀ (thr d L) none (default : HIx 1) (N := 5120) rfl) $$ [SX0 HO]
  · isplitl [SX0]; · iexact SX0
    isplitl [HO]; · iexact HO
    iapply (Transfers.MayWaits.elim (SemLoc.dma cc0_scratch6.sem)); iexact Hmw
  iintro ⟨HD, S6, HO⟩
  icases HD with ⟨%xv, H0, %hxv⟩
  sl_exec
  sl_for (KCompute.Icmp0 w xp d L (bE L k.val) xv lut) $$ [H0 H3 H4]
  case region => exact KCompute.compute_region0 w xp d L (bE L k.val) xv lut hxp hxv hlut v1 v20 v239 k k0_h1
  · unfold KCompute.Icmp0
    isplitl [H0]; · iexact H0
    isplitl [H3]; · iexact H3
    iexists f4; isplitl [H4]; · iexact H4
    ipureintro; intro y hy; omega
  iintro %acc' HI
  unfold KCompute.Icmp0
  icases HI with ⟨H0, H3, %f4', H4, %hf4⟩
  sl_exec
  iapply (Transfers.wp_waitLocalO countersEmb 𝒱₀ (thr d L) none (default : HIx 1) (N := 5120) rfl) $$ [SX1 HO]
  · isplitl [SX1]; · iexact SX1
    isplitl [HO]; · iexact HO
    iapply (Transfers.MayWaits.elim (SemLoc.dma cc0_scratch7.sem)); iexact Hmw
  iintro ⟨HD, S7, HO⟩
  icases HD with ⟨%xv1, H1, %hxv1⟩
  sl_exec
  sl_for (KCompute.Icmp1 w xp d L (bO L k.val) xv1 lut) $$ [H1 H3 H5]
  case region => exact KCompute.compute_region1 w xp d L (bO L k.val) xv1 lut hxp hxv1 hlut v1 v20 v239 k k0_h4
  · unfold KCompute.Icmp1
    isplitl [H1]; · iexact H1
    isplitl [H3]; · iexact H3
    iexists f5; isplitl [H5]; · iexact H5
    ipureintro; intro y hy; omega
  iintro %acc'' HI
  unfold KCompute.Icmp1
  icases HI with ⟨H1, H3, %f5', H5, %hf5⟩
  sl_exec
  have e10 : 16 * Scf.trips k0_t10_loop.lb k0_t10_loop.ub k0_t10_loop.st = 160 := by
    rw [show Scf.trips k0_t10_loop.lb k0_t10_loop.ub k0_t10_loop.st = k0_t10_loop.trips from rfl, trips10]
  rw [e10] at hf4
  have e11 : 16 * Scf.trips k0_t11_loop.lb k0_t11_loop.ub k0_t11_loop.st = 160 := by
    rw [show Scf.trips k0_t11_loop.lb k0_t11_loop.ub k0_t11_loop.st = k0_t11_loop.trips from rfl, trips11]
  rw [e11] at hf5
  -- the four copies in flight deliver what the invariant says of them
  sl_unfold_run_names
  ihave FO0' := (Transfers.Flight_mono (EC := countersEmb) (c := thr d L) (out_deliv0r d L xp w k k0_h1 o0 f4' hf4)) $$ S8
  ihave FO1' := (Transfers.Flight_mono (EC := countersEmb) (c := thr d L) (out_deliv1r d L xp w k k0_h4 o0 f5' hf5)) $$ S9
  ihave FX0' := (Transfers.Flight_mono (EC := countersEmb) (c := thr d L) (in_deliv0 d L xp k k0_h1 k0_h3 (Transfers.shareTokN qa (k.val + 1)) xv)) $$ S6
  ihave FX1' := (Transfers.Flight_mono (EC := countersEmb) (c := thr d L) (in_deliv1 d L xp k k0_h4 k0_h6 (Transfers.shareTokN qb (k.val + 1)) xv1)) $$ S7
  iclear H4
  iclear H5
  iclear HpA
  iclear HpB
  sl_step
  isplitl []
  · iexact Hmw
  isplitl [H3]
  · iexact H3
  isplitl [FX0']
  · iexact FX0'
  isplitl [FX1']
  · iexact FX1'
  isplitl [FO0']
  · iexact FO0'
  isplitl [FO1']
  · iexact FO1'
  isplitl [HuE]
  · iexact HuE
  isplitl [HuO]
  · iexact HuO
  isplitl [HgE]
  · iexact HgE
  isplitl [HgO]
  · iexact HgO
  isplitl [HqA]
  · iexact HqA
  isplitl [HqB]
  · iexact HqB
  iexists _
  isplitr [HO]
  rotate_left
  · iexact HO
  · ipureintro
    intro p hp
    simp only [Finset.mem_insert] at hp
    rcases hp with rfl | rfl | hp
    · exact Or.inr rfl
    · exact Or.inr rfl
    · exact hW0 p hp

set_option maxHeartbeats 8000000 in
/-- Step 9 of the ring, for a worker with nine odd-numbered blocks. -/
theorem ring_F (d : Dev nD) (L : grid0.Coords) (qa qb : PosShare TreeShare) (xp : Buf (Elt F) (pLoc d)) (w : Buf (Elt F) (wLoc d)) (o0 : Buf (Elt F) (oLoc d))
    (O : CellTallies nD τ sig (HIx 1)) (W : Waits sig (HIx 1)) (lut : S32768.Idx → F .f32)
    (hO : ∀ g, O g none = 0) (hxp : ∀ n : S100000.Idx, (xp n).toNat < 512) (hlut : KC.LutOK w 512 lut)
    (v1 v20 : BitVec 32) (v239 : FVec F S16 .f32) (k : Fin k0_t9_loop.trips) (hk : k.val = 9) (hn : nOdd L = 9) (acc : BitVec 32) :
    Iring d L xp w o0 O W lut qa qb k.val acc ⊢ wp frame (wpE (defs₀ (F := F)) 𝒱₀ (thr d L) none) Set.univ
      (k0_t9_body L pW (Memref.isWhole_whole _) wW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) cc0_scratch6 cc0_scratch7 cc0_scratch8 cc0_scratch9 cc0_scoped0 v1 v20 v239 k acc)
      (Iring d L xp w o0 O W lut qa qb (k.val + 1)) := by
  have k0_h1 : k0_cond1 L k = 1#1 := cond1_true L k
  have k0_h2 : k0_cond2 k = 1#1 := (cond2_iff k).2 (by omega)
  have k0_h3 : ¬ k0_cond3 L k = 1#1 := fun h => by have := (cond3_iff L k).1 h; omega
  have k0_h4 : ¬ k0_cond4 L k = 1#1 := fun h => by have := (cond4_nOdd L k).1 h; omega
  unfold Iring SX0 SX1 SO0 SO1
  rw [if_pos (show k.val < 10 by omega), if_neg (show ¬ k.val < nOdd L by omega), if_neg (show ¬ k.val = 0 by omega), if_neg (show ¬ k.val = 0 by omega),
    if_neg (show ¬ k.val + 1 < 10 by omega), if_neg (show ¬ k.val + 1 < nOdd L by omega), if_neg (show ¬ k.val + 1 = 0 by omega), if_neg (show ¬ k.val + 1 = 0 by omega),
    show min (k.val + 1) (nOdd L) = k.val from by omega, show min k.val (nOdd L) = k.val from by omega, Nat.add_sub_cancel,
    range_pop (show 1 ≤ k.val by omega) (fun s => (oLoc d ↦[blkSet (bE L s)]{fullShare} G d w xp : sProp 𝕄)),
    Ico_pop (show k.val < 10 by omega) (fun s => (oLoc d ↦[blkSet (bE L s)]{fullShare} o0 : sProp 𝕄)),
    Finset.Ico_eq_empty_of_le (show 10 ≤ k.val + 1 by omega), Finset.Ico_eq_empty_of_le (show 10 ≤ k.val + 1 + 1 by omega),
    Finset.Ico_eq_empty_of_le (show nOdd L ≤ k.val by omega), Finset.Ico_eq_empty_of_le (show nOdd L ≤ k.val + 1 by omega), Finset.Ico_eq_empty_of_le (show nOdd L ≤ k.val + 1 + 1 by omega),
    ← pts_oE d L k k0_h1 o0]
  unfold k0_t9_body
  iintro ⟨#Hmw, H3, SX0, SX1, SO0, SO1, ⟨HbE, HuE⟩, HuO, HgE, HgO, HqA, HqB, %W0, %hW0, HO⟩
  sl_exec
  iapply (Transfers.wp_waitLocalO countersEmb 𝒱₀ (thr d L) none (default : HIx 1) (N := 5120) rfl) $$ [SX0 HO]
  · isplitl [SX0]; · iexact SX0
    isplitl [HO]; · iexact HO
    iapply (Transfers.MayWaits.elim (SemLoc.dma cc0_scratch6.sem)); iexact Hmw
  iintro ⟨HD, S6, HO⟩
  icases HD with ⟨%xv, H0, %hxv⟩
  sl_exec
  iapply (Transfers.wp_waitLocalO countersEmb 𝒱₀ (thr d L) none (default : HIx 1) (N := 327680) rfl) $$ [SO0 HO]
  · isplitl [SO0]; · iexact SO0
    isplitl [HO]; · iexact HO
    iapply (Transfers.MayWaits.elim (SemLoc.dma cc0_scratch8.sem)); iexact Hmw
  iintro ⟨HD, S8, HO⟩
  icases HD with ⟨⟨%f4, H4⟩, HdE⟩
  sl_exec
  sl_for (KCompute.Icmp0 w xp d L (bE L k.val) xv lut) $$ [H0 H3 H4]
  case region => exact KCompute.compute_region0 w xp d L (bE L k.val) xv lut hxp hxv hlut v1 v20 v239 k k0_h1
  · unfold KCompute.Icmp0
    isplitl [H0]; · iexact H0
    isplitl [H3]; · iexact H3
    iexists f4; isplitl [H4]; · iexact H4
    ipureintro; intro y hy; omega
  iintro %acc' HI
  unfold KCompute.Icmp0
  icases HI with ⟨H0, H3, %f4', H4, %hf4⟩
  sl_exec
  have e10 : 16 * Scf.trips k0_t10_loop.lb k0_t10_loop.ub k0_t10_loop.st = 160 := by
    rw [show Scf.trips k0_t10_loop.lb k0_t10_loop.ub k0_t10_loop.st = k0_t10_loop.trips from rfl, trips10]
  rw [e10] at hf4
  sl_unfold_run_names
  ihave FO0' := (Transfers.Flight_mono (EC := countersEmb) (c := thr d L) (out_deliv0r d L xp w k k0_h1 o0 f4' hf4)) $$ S8
  iclear H4
  sl_step
  isplitl []
  · iexact Hmw
  isplitl [H3]
  · iexact H3
  isplitl [S6 H0]
  · isplitl [S6]
    · iexact S6
    iexists xv
    iexact H0
  isplitl [SX1]
  · iexact SX1
  isplitl [FO0']
  · iexact FO0'
  isplitl [SO1]
  · iexact SO1
  isplitl [HuE]
  · iexact HuE
  isplitl [HuO]
  · iexact HuO
  isplitl [HdE HgE]
  · isplitl [HdE]
    · iexact HdE
    iexact HgE
  isplitl [HgO]
  · iexact HgO
  isplitl [HqA]
  · iexact HqA
  isplitl [HqB]
  · iexact HqB
  iexists _
  isplitr [HO]
  rotate_left
  · iexact HO
  · ipureintro
    intro p hp
    simp only [Finset.mem_insert] at hp
    rcases hp with rfl | rfl | hp
    · exact Or.inr rfl
    · exact Or.inr rfl
    · exact hW0 p hp

end Cert.KernelIdeal.KT

end
-- ==== Proof.KRingBD.lean ====
/-
  A step of the ring of transfers a vector subcore runs, away from the ring's ends: the invariant before step `t`
  gives the invariant before step `t + 1`, when every wait, fill and copy-out of the step happens — with the fetch of
  both next blocks (the general step), or of the even-numbered one only (the step before the last, when the worker
  has nine odd-numbered blocks).
-/
import proofs.«207339_g86234353369688_cont_sun_m_1071_33_alg».proof.Proof.KRingLib
import proofs.«207339_g86234353369688_cont_sun_m_1071_33_alg».proof.Proof.KCompute
import proofs.«207339_g86234353369688_cont_sun_m_1071_33_alg».proof.Proof.Gen.KernelIdeal.Skeleton

noncomputable section

namespace Cert.KernelIdeal.KT

open Cert.KernelIdeal Cert.KernelIdeal.Gen Cert.KernelIdeal.KC Cert.KernelIdeal.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.KernelIdeal.main_v15_scv : Memref Cert.KernelIdeal.sig Kind.scVector Space.hbm Cert.KernelIdeal.S100000 EltTy.i32)
local notation "wW" => (Memref.whole Cert.KernelIdeal.main_v8_scv : Memref Cert.KernelIdeal.sig Kind.scVector Space.hbm Cert.KernelIdeal.S1152 EltTy.f32)
local notation "oW" => (Memref.whole Cert.KernelIdeal.main_v16_scv : Memref Cert.KernelIdeal.sig Kind.scVector Space.hbm Cert.KernelIdeal.S100000x64 EltTy.f32)
local notation "b0" => (Memref.whole Cert.KernelIdeal.cc0_scratch0 : Memref Cert.KernelIdeal.sig Kind.scVector Space.vmem Cert.KernelIdeal.S160 EltTy.i32)
local notation "b1" => (Memref.whole Cert.KernelIdeal.cc0_scratch1 : Memref Cert.KernelIdeal.sig Kind.scVector Space.vmem Cert.KernelIdeal.S160 EltTy.i32)
local notation "b2" => (Memref.whole Cert.KernelIdeal.cc0_scratch2 : Memref Cert.KernelIdeal.sig Kind.scVector Space.vmem Cert.KernelIdeal.S1152 EltTy.f32)
local notation "b3" => (Memref.whole Cert.KernelIdeal.cc0_scratch3 : Memref Cert.KernelIdeal.sig Kind.scVector Space.vmem Cert.KernelIdeal.S32768 EltTy.f32)
local notation "b4" => (Memref.whole Cert.KernelIdeal.cc0_scratch4 : Memref Cert.KernelIdeal.sig Kind.scVector Space.vmem Cert.KernelIdeal.S160x64 EltTy.f32)
local notation "b5" => (Memref.whole Cert.KernelIdeal.cc0_scratch5 : Memref Cert.KernelIdeal.sig Kind.scVector Space.vmem Cert.KernelIdeal.S160x64 EltTy.f32)

variable [FloatOps F]

section Deliveries

variable (d : Dev nD) (L : grid0.Coords) (xp : Buf (Elt F) (pLoc d)) (w : Buf (Elt F) (wLoc d))

/-! ## The deliveries, with the copied values spelt as the step's copies leave them -/

theorem out_deliv0s (t : Fin k0_t9_loop.trips) (h1 : k0_cond1 L t = 1#1) (fblk : Buf (Elt F) (oLoc d)) (f : S160x64.Idx → F .f32)
    (hf : KC.OutOK w xp (bE L t.val) 160 f) :
    (iprop((((oW).slice (Rect.unit (s := S100000x64) (k0_off103 L t) S160x64.size (k0_off103_inb L t h1)) (fun _ => rfl)).view.loc (thr d L)
          ↦[((oW).slice (Rect.unit (s := S100000x64) (k0_off103 L t) S160x64.size (k0_off103_inb L t h1)) (fun _ => rfl)).view.set]{fullShare}
          ((oW).slice (Rect.unit (s := S100000x64) (k0_off103 L t) S160x64.size (k0_off103_inb L t h1)) (fun _ => rfl)).view.writes (Elt F) fblk [⟨Rect.whole _, ReadAs.same.apply (View.read (Elt F) (b4).view f)⟩])
        ∗ ((b4).view.loc (thr d L) ↦[(b4).view.set]{fullShare} f)) : sProp 𝕄)
      ⊢ DO0 d L xp w t.val := out_deliv0 d L xp w t h1 fblk f hf

theorem out_deliv1s (t : Fin k0_t9_loop.trips) (h4 : k0_cond4 L t = 1#1) (fblk : Buf (Elt F) (oLoc d)) (f : S160x64.Idx → F .f32)
    (hf : KC.OutOK w xp (bO L t.val) 160 f) :
    (iprop((((oW).slice (Rect.unit (s := S100000x64) (k0_off188 L t) S160x64.size (k0_off188_inb L t h4)) (fun _ => rfl)).view.loc (thr d L)
          ↦[((oW).slice (Rect.unit (s := S100000x64) (k0_off188 L t) S160x64.size (k0_off188_inb L t h4)) (fun _ => rfl)).view.set]{fullShare}
          ((oW).slice (Rect.unit (s := S100000x64) (k0_off188 L t) S160x64.size (k0_off188_inb L t h4)) (fun _ => rfl)).view.writes (Elt F) fblk [⟨Rect.whole _, ReadAs.same.apply (View.read (Elt F) (b5).view f)⟩])
        ∗ ((b5).view.loc (thr d L) ↦[(b5).view.set]{fullShare} f)) : sProp 𝕄)
      ⊢ DO1 d L xp w t.val := out_deliv1 d L xp w t h4 fblk f hf

theorem in_deliv0s (t : Fin k0_t9_loop.trips) (h1 : k0_cond1 L t = 1#1) (h3 : k0_cond3 L t = 1#1) (q : PosShare TreeShare) (xv : S160.Idx → BitVec 32) :
    (iprop(((b0).view.loc (thr d L) ↦{fullShare} View.write (Elt F) (b0).view xv (ReadAs.same.apply (View.read (Elt F) ((pW).slice (Rect.unit (s := S100000) (k0_off104 L t) S160.size (k0_off104_inb L t h1 h3)) (fun _ => rfl)).view xp)) Finset.univ)
        ∗ ((pW).view.loc (thr d L) ↦[((pW).slice (Rect.unit (s := S100000) (k0_off104 L t) S160.size (k0_off104_inb L t h1 h3)) (fun _ => rfl)).view.set]{q} xp)) : sProp 𝕄)
      ⊢ DX0 d L xp (t.val + 1) := in_deliv0 d L xp t h1 h3 q xv

theorem in_deliv1s (t : Fin k0_t9_loop.trips) (h4 : k0_cond4 L t = 1#1) (h6 : k0_cond6 L t = 1#1) (q : PosShare TreeShare) (xv : S160.Idx → BitVec 32) :
    (iprop(((b1).view.loc (thr d L) ↦{fullShare} View.write (Elt F) (b1).view xv (ReadAs.same.apply (View.read (Elt F) ((pW).slice (Rect.unit (s := S100000) (k0_off189 L t) S160.size (k0_off189_inb L t h4 h6)) (fun _ => rfl)).view xp)) Finset.univ)
        ∗ ((pW).view.loc (thr d L) ↦[((pW).slice (Rect.unit (s := S100000) (k0_off189 L t) S160.size (k0_off189_inb L t h4 h6)) (fun _ => rfl)).view.set]{q} xp)) : sProp 𝕄)
      ⊢ DX1 d L xp (t.val + 1) := in_deliv1 d L xp t h4 h6 q xv

end Deliveries

set_option maxHeartbeats 8000000 in
/-- The general step: `1 ≤ t` and both next blocks exist; every wait, fill, copy-out and fetch happens. -/
theorem ring_B (d : Dev nD) (L : grid0.Coords) (qa qb : PosShare TreeShare) (xp : Buf (Elt F) (pLoc d)) (w : Buf (Elt F) (wLoc d)) (o0 : Buf (Elt F) (oLoc d))
    (O : CellTallies nD τ sig (HIx 1)) (W : Waits sig (HIx 1)) (lut : S32768.Idx → F .f32)
    (hO : ∀ g, O g none = 0) (hxp : ∀ n : S100000.Idx, (xp n).toNat < 512) (hlut : KC.LutOK w 512 lut)
    (v1 v20 : BitVec 32) (v239 : FVec F S16 .f32)
    (t : Fin k0_t9_loop.trips) (ht1 : 1 ≤ t.val) (htn : t.val + 1 < nOdd L) (acc : BitVec 32) :
    Iring d L xp w o0 O W lut qa qb t.val acc ⊢ wp frame (wpE (defs₀ (F := F)) 𝒱₀ (thr d L) none) Set.univ
      (k0_t9_body L pW (Memref.isWhole_whole _) wW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) cc0_scratch6 cc0_scratch7 cc0_scratch8 cc0_scratch9 cc0_scoped0 v1 v20 v239 t acc) (Iring d L xp w o0 O W lut qa qb (t.val + 1)) := by
  have ht10 := t_lt t
  have hn10 := nOdd_le L

  have k0_h1 : k0_cond1 L t = 1#1 := cond1_true L t
  have k0_h2 : k0_cond2 t = 1#1 := (cond2_iff t).2 ht1
  have k0_h3 : k0_cond3 L t = 1#1 := (cond3_iff L t).2 (by omega)
  have k0_h4 : k0_cond4 L t = 1#1 := (cond4_nOdd L t).2 (by omega)
  have k0_h5 : k0_cond5 t = 1#1 := (cond5_iff t).2 ht1
  have k0_h6 : k0_cond6 L t = 1#1 := (cond6_nOdd L t).2 (by omega)
  unfold Iring SX0 SX1 SO0 SO1
  rw [if_pos ht10,
    if_pos (show t.val < nOdd L by omega),
    if_neg (show ¬ t.val = 0 by omega),
    if_neg (show ¬ t.val = 0 by omega),
    if_pos (show t.val + 1 < 10 by omega),
    if_pos (show t.val + 1 < nOdd L by omega),
    if_neg (show ¬ t.val + 1 = 0 by omega),
    if_neg (show ¬ t.val + 1 = 0 by omega),
    show min t.val (nOdd L) = t.val from by omega,
    show min (t.val + 1) (nOdd L) = t.val + 1 from by omega,
    Nat.add_sub_cancel,
    Ico_pop (show t.val < 10 by omega) (fun s => (oLoc d ↦[blkSet (bE L s)]{fullShare} o0 : sProp 𝕄)),
    Ico_pop (show t.val < nOdd L by omega) (fun s => (oLoc d ↦[blkSet (bO L s)]{fullShare} o0 : sProp 𝕄)),
    Ico_pop (show t.val + 1 < 10 by omega) (fun s => (pLoc d ↦{Transfers.shareTokN qa s} xp : sProp 𝕄)),
    Ico_pop (show t.val + 1 < nOdd L by omega) (fun s => (pLoc d ↦{Transfers.shareTokN qb s} xp : sProp 𝕄)),
    range_pop ht1 (fun s => (oLoc d ↦[blkSet (bE L s)]{fullShare} G d w xp : sProp 𝕄)),
    range_pop ht1 (fun s => (oLoc d ↦[blkSet (bO L s)]{fullShare} G d w xp : sProp 𝕄)),
    ← pts_oE d L t k0_h1 o0,
    ← pts_oO d L t k0_h4 o0,
    pts_p d L xp (Transfers.shareTokN qa (t.val + 1)),
    pts_p d L xp (Transfers.shareTokN qb (t.val + 1))]
  unfold k0_t9_body
  iintro ⟨#Hmw, H3, SX0, SX1, SO0, SO1, ⟨HbE, HuE⟩, ⟨HbO, HuO⟩, HgE, HgO, ⟨HpA, HqA⟩, ⟨HpB, HqB⟩, %W0, %hW0, HO⟩
  sl_exec
  iapply (Transfers.wp_waitLocalO countersEmb 𝒱₀ (thr d L) none (default : HIx 1) (N := 5120) rfl) $$ [SX0 HO]
  · isplitl [SX0]; · iexact SX0
    isplitl [HO]; · iexact HO
    iapply (Transfers.MayWaits.elim (SemLoc.dma cc0_scratch6.sem)); iexact Hmw
  iintro ⟨HD, S6, HO⟩
  icases HD with ⟨%xv, H0, %hxv⟩
  sl_exec
  iapply (Transfers.wp_waitLocalO countersEmb 𝒱₀ (thr d L) none (default : HIx 1) (N := 327680) rfl) $$ [SO0 HO]
  · isplitl [SO0]; · iexact SO0
    isplitl [HO]; · iexact HO
    iapply (Transfers.MayWaits.elim (SemLoc.dma cc0_scratch8.sem)); iexact Hmw
  iintro ⟨HD, S8, HO⟩
  icases HD with ⟨⟨%f4, H4⟩, HdE⟩
  sl_exec
  sl_for (KCompute.Icmp0 w xp d L (bE L t.val) xv lut) $$ [H0 H3 H4]
  case region => exact KCompute.compute_region0 w xp d L (bE L t.val) xv lut hxp hxv hlut v1 v20 v239 t k0_h1
  · unfold KCompute.Icmp0
    isplitl [H0]; · iexact H0
    isplitl [H3]; · iexact H3
    iexists f4; isplitl [H4]; · iexact H4
    ipureintro; intro y hy; omega
  iintro %acc' HI
  unfold KCompute.Icmp0
  icases HI with ⟨H0, H3, %f4', H4, %hf4⟩
  sl_exec
  iapply (Transfers.wp_waitLocalO countersEmb 𝒱₀ (thr d L) none (default : HIx 1) (N := 5120) rfl) $$ [SX1 HO]
  · isplitl [SX1]; · iexact SX1
    isplitl [HO]; · iexact HO
    iapply (Transfers.MayWaits.elim (SemLoc.dma cc0_scratch7.sem)); iexact Hmw
  iintro ⟨HD, S7, HO⟩
  icases HD with ⟨%xv1, H1, %hxv1⟩
  sl_exec
  iapply (Transfers.wp_waitLocalO countersEmb 𝒱₀ (thr d L) none (default : HIx 1) (N := 327680) rfl) $$ [SO1 HO]
  · isplitl [SO1]; · iexact SO1
    isplitl [HO]; · iexact HO
    iapply (Transfers.MayWaits.elim (SemLoc.dma cc0_scratch9.sem)); iexact Hmw
  iintro ⟨HD, S9, HO⟩
  icases HD with ⟨⟨%f5, H5⟩, HdO⟩
  sl_exec
  sl_for (KCompute.Icmp1 w xp d L (bO L t.val) xv1 lut) $$ [H1 H3 H5]
  case region => exact KCompute.compute_region1 w xp d L (bO L t.val) xv1 lut hxp hxv1 hlut v1 v20 v239 t k0_h4
  · unfold KCompute.Icmp1
    isplitl [H1]; · iexact H1
    isplitl [H3]; · iexact H3
    iexists f5; isplitl [H5]; · iexact H5
    ipureintro; intro y hy; omega
  iintro %acc'' HI
  unfold KCompute.Icmp1
  icases HI with ⟨H1, H3, %f5', H5, %hf5⟩
  sl_exec
  have e10 : 16 * Scf.trips k0_t10_loop.lb k0_t10_loop.ub k0_t10_loop.st = 160 := by
    rw [show Scf.trips k0_t10_loop.lb k0_t10_loop.ub k0_t10_loop.st = k0_t10_loop.trips from rfl, trips10]
  have e11 : 16 * Scf.trips k0_t11_loop.lb k0_t11_loop.ub k0_t11_loop.st = 160 := by
    rw [show Scf.trips k0_t11_loop.lb k0_t11_loop.ub k0_t11_loop.st = k0_t11_loop.trips from rfl, trips11]
  rw [e10] at hf4; rw [e11] at hf5
  sl_unfold_run_names
  irename : (Transfers.Flight countersEmb (thr d L) (SemLoc.dma cc0_scratch8.sem) _ _ _) => E8
  irename : (Transfers.Flight countersEmb (thr d L) (SemLoc.dma cc0_scratch6.sem) _ _ _) => E6
  irename : (Transfers.Flight countersEmb (thr d L) (SemLoc.dma cc0_scratch9.sem) _ _ _) => E9
  irename : (Transfers.Flight countersEmb (thr d L) (SemLoc.dma cc0_scratch7.sem) _ _ _) => E7
  ihave FO0' := (Transfers.Flight_mono (EC := countersEmb) (c := thr d L) (out_deliv0s d L xp w t k0_h1 o0 f4' hf4)) $$ E8
  ihave FX0' := (Transfers.Flight_mono (EC := countersEmb) (c := thr d L) (in_deliv0s d L xp t k0_h1 k0_h3 _ xv)) $$ E6
  ihave FO1' := (Transfers.Flight_mono (EC := countersEmb) (c := thr d L) (out_deliv1s d L xp w t k0_h4 o0 f5' hf5)) $$ E9
  ihave FX1' := (Transfers.Flight_mono (EC := countersEmb) (c := thr d L) (in_deliv1s d L xp t k0_h4 k0_h6 _ xv1)) $$ E7
  rw [wp_ret]; imodintro
  isplitr; · iexact Hmw
  isplitl [H3]; · iexact H3
  isplitl [FX0']; · iexact FX0'
  isplitl [FX1']; · iexact FX1'
  isplitl [FO0']; · iexact FO0'
  isplitl [FO1']; · iexact FO1'
  isplitl [HuE]; · iexact HuE
  isplitl [HuO]; · iexact HuO
  isplitl [HdE HgE]
  · isplitl [HdE]; · iexact HdE
    iexact HgE
  isplitl [HdO HgO]
  · isplitl [HdO]; · iexact HdO
    iexact HgO
  isplitl [HqA]; · iexact HqA
  isplitl [HqB]; · iexact HqB
  iexists (insert (SemLoc.dma cc0_scratch9.sem, (default : HIx 1)) (insert (SemLoc.dma cc0_scratch7.sem, (default : HIx 1)) (insert (SemLoc.dma cc0_scratch8.sem, (default : HIx 1)) (insert (SemLoc.dma cc0_scratch6.sem, (default : HIx 1)) W0)))); isplitr
  · ipureintro; intro p hp
    simp only [Finset.mem_insert] at hp
    rcases hp with rfl | rfl | rfl | rfl | hp
    · exact .inr rfl
    · exact .inr rfl
    · exact .inr rfl
    · exact .inr rfl
    · exact hW0 p hp
  iexact HO

set_option maxHeartbeats 8000000 in
/-- The step before the last, for a worker with nine odd-numbered blocks: the odd-numbered block has no successor to fetch,
    so its index scratch ends idle. -/
theorem ring_D (d : Dev nD) (L : grid0.Coords) (qa qb : PosShare TreeShare) (xp : Buf (Elt F) (pLoc d)) (w : Buf (Elt F) (wLoc d)) (o0 : Buf (Elt F) (oLoc d))
    (O : CellTallies nD τ sig (HIx 1)) (W : Waits sig (HIx 1)) (lut : S32768.Idx → F .f32)
    (hO : ∀ g, O g none = 0) (hxp : ∀ n : S100000.Idx, (xp n).toNat < 512) (hlut : KC.LutOK w 512 lut)
    (v1 v20 : BitVec 32) (v239 : FVec F S16 .f32)
    (t : Fin k0_t9_loop.trips) (ht8 : t.val = 8) (hn : nOdd L = 9) (acc : BitVec 32) :
    Iring d L xp w o0 O W lut qa qb t.val acc ⊢ wp frame (wpE (defs₀ (F := F)) 𝒱₀ (thr d L) none) Set.univ
      (k0_t9_body L pW (Memref.isWhole_whole _) wW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) cc0_scratch6 cc0_scratch7 cc0_scratch8 cc0_scratch9 cc0_scoped0 v1 v20 v239 t acc) (Iring d L xp w o0 O W lut qa qb (t.val + 1)) := by
  have ht10 := t_lt t
  have hn10 := nOdd_le L
  have ht1 : 1 ≤ t.val := by omega
  have k0_h1 : k0_cond1 L t = 1#1 := cond1_true L t
  have k0_h2 : k0_cond2 t = 1#1 := (cond2_iff t).2 ht1
  have k0_h3 : k0_cond3 L t = 1#1 := (cond3_iff L t).2 (by omega)
  have k0_h4 : k0_cond4 L t = 1#1 := (cond4_nOdd L t).2 (by omega)
  have k0_h5 : k0_cond5 t = 1#1 := (cond5_iff t).2 ht1
  have k0_h6 : ¬ k0_cond6 L t = 1#1 := fun h => absurd ((cond6_nOdd L t).1 h) (by omega)
  unfold Iring SX0 SX1 SO0 SO1
  rw [if_pos ht10,
    if_pos (show t.val < nOdd L by omega),
    if_neg (show ¬ t.val = 0 by omega),
    if_neg (show ¬ t.val = 0 by omega),
    if_pos (show t.val + 1 < 10 by omega),
    if_neg (show ¬ t.val + 1 < nOdd L by omega),
    if_neg (show ¬ t.val + 1 = 0 by omega),
    if_neg (show ¬ t.val + 1 = 0 by omega),
    show min t.val (nOdd L) = t.val from by omega,
    show min (t.val + 1) (nOdd L) = t.val + 1 from by omega,
    Nat.add_sub_cancel,
    Ico_pop (show t.val < 10 by omega) (fun s => (oLoc d ↦[blkSet (bE L s)]{fullShare} o0 : sProp 𝕄)),
    Ico_pop (show t.val < nOdd L by omega) (fun s => (oLoc d ↦[blkSet (bO L s)]{fullShare} o0 : sProp 𝕄)),
    Ico_pop (show t.val + 1 < 10 by omega) (fun s => (pLoc d ↦{Transfers.shareTokN qa s} xp : sProp 𝕄)),
    show Finset.Ico (t.val + 1) (nOdd L) = ∅ from Finset.Ico_eq_empty (by omega),
    show Finset.Ico (t.val + 1 + 1) (nOdd L) = ∅ from Finset.Ico_eq_empty (by omega),
    range_pop ht1 (fun s => (oLoc d ↦[blkSet (bE L s)]{fullShare} G d w xp : sProp 𝕄)),
    range_pop ht1 (fun s => (oLoc d ↦[blkSet (bO L s)]{fullShare} G d w xp : sProp 𝕄)),
    ← pts_oE d L t k0_h1 o0,
    ← pts_oO d L t k0_h4 o0,
    pts_p d L xp (Transfers.shareTokN qa (t.val + 1))]
  unfold k0_t9_body
  iintro ⟨#Hmw, H3, SX0, SX1, SO0, SO1, ⟨HbE, HuE⟩, ⟨HbO, HuO⟩, HgE, HgO, ⟨HpA, HqA⟩, HqB, %W0, %hW0, HO⟩
  sl_exec
  iapply (Transfers.wp_waitLocalO countersEmb 𝒱₀ (thr d L) none (default : HIx 1) (N := 5120) rfl) $$ [SX0 HO]
  · isplitl [SX0]; · iexact SX0
    isplitl [HO]; · iexact HO
    iapply (Transfers.MayWaits.elim (SemLoc.dma cc0_scratch6.sem)); iexact Hmw
  iintro ⟨HD, S6, HO⟩
  icases HD with ⟨%xv, H0, %hxv⟩
  sl_exec
  iapply (Transfers.wp_waitLocalO countersEmb 𝒱₀ (thr d L) none (default : HIx 1) (N := 327680) rfl) $$ [SO0 HO]
  · isplitl [SO0]; · iexact SO0
    isplitl [HO]; · iexact HO
    iapply (Transfers.MayWaits.elim (SemLoc.dma cc0_scratch8.sem)); iexact Hmw
  iintro ⟨HD, S8, HO⟩
  icases HD with ⟨⟨%f4, H4⟩, HdE⟩
  sl_exec
  sl_for (KCompute.Icmp0 w xp d L (bE L t.val) xv lut) $$ [H0 H3 H4]
  case region => exact KCompute.compute_region0 w xp d L (bE L t.val) xv lut hxp hxv hlut v1 v20 v239 t k0_h1
  · unfold KCompute.Icmp0
    isplitl [H0]; · iexact H0
    isplitl [H3]; · iexact H3
    iexists f4; isplitl [H4]; · iexact H4
    ipureintro; intro y hy; omega
  iintro %acc' HI
  unfold KCompute.Icmp0
  icases HI with ⟨H0, H3, %f4', H4, %hf4⟩
  sl_exec
  iapply (Transfers.wp_waitLocalO countersEmb 𝒱₀ (thr d L) none (default : HIx 1) (N := 5120) rfl) $$ [SX1 HO]
  · isplitl [SX1]; · iexact SX1
    isplitl [HO]; · iexact HO
    iapply (Transfers.MayWaits.elim (SemLoc.dma cc0_scratch7.sem)); iexact Hmw
  iintro ⟨HD, S7, HO⟩
  icases HD with ⟨%xv1, H1, %hxv1⟩
  sl_exec
  iapply (Transfers.wp_waitLocalO countersEmb 𝒱₀ (thr d L) none (default : HIx 1) (N := 327680) rfl) $$ [SO1 HO]
  · isplitl [SO1]; · iexact SO1
    isplitl [HO]; · iexact HO
    iapply (Transfers.MayWaits.elim (SemLoc.dma cc0_scratch9.sem)); iexact Hmw
  iintro ⟨HD, S9, HO⟩
  icases HD with ⟨⟨%f5, H5⟩, HdO⟩
  sl_exec
  sl_for (KCompute.Icmp1 w xp d L (bO L t.val) xv1 lut) $$ [H1 H3 H5]
  case region => exact KCompute.compute_region1 w xp d L (bO L t.val) xv1 lut hxp hxv1 hlut v1 v20 v239 t k0_h4
  · unfold KCompute.Icmp1
    isplitl [H1]; · iexact H1
    isplitl [H3]; · iexact H3
    iexists f5; isplitl [H5]; · iexact H5
    ipureintro; intro y hy; omega
  iintro %acc'' HI
  unfold KCompute.Icmp1
  icases HI with ⟨H1, H3, %f5', H5, %hf5⟩
  sl_exec
  have e10 : 16 * Scf.trips k0_t10_loop.lb k0_t10_loop.ub k0_t10_loop.st = 160 := by
    rw [show Scf.trips k0_t10_loop.lb k0_t10_loop.ub k0_t10_loop.st = k0_t10_loop.trips from rfl, trips10]
  have e11 : 16 * Scf.trips k0_t11_loop.lb k0_t11_loop.ub k0_t11_loop.st = 160 := by
    rw [show Scf.trips k0_t11_loop.lb k0_t11_loop.ub k0_t11_loop.st = k0_t11_loop.trips from rfl, trips11]
  rw [e10] at hf4; rw [e11] at hf5
  sl_unfold_run_names
  irename : (Transfers.Flight countersEmb (thr d L) (SemLoc.dma cc0_scratch8.sem) _ _ _) => E8
  irename : (Transfers.Flight countersEmb (thr d L) (SemLoc.dma cc0_scratch6.sem) _ _ _) => E6
  irename : (Transfers.Flight countersEmb (thr d L) (SemLoc.dma cc0_scratch9.sem) _ _ _) => E9
  ihave FO0' := (Transfers.Flight_mono (EC := countersEmb) (c := thr d L) (out_deliv0s d L xp w t k0_h1 o0 f4' hf4)) $$ E8
  ihave FX0' := (Transfers.Flight_mono (EC := countersEmb) (c := thr d L) (in_deliv0s d L xp t k0_h1 k0_h3 _ xv)) $$ E6
  ihave FO1' := (Transfers.Flight_mono (EC := countersEmb) (c := thr d L) (out_deliv1s d L xp w t k0_h4 o0 f5' hf5)) $$ E9
  rw [wp_ret]; imodintro
  isplitr; · iexact Hmw
  isplitl [H3]; · iexact H3
  isplitl [FX0']; · iexact FX0'
  isplitl [S7 H1]
  · isplitl [S7]; · iexact S7
    iexists _; iexact H1
  isplitl [FO0']; · iexact FO0'
  isplitl [FO1']; · iexact FO1'
  isplitl [HuE]; · iexact HuE
  isplitl [HuO]; · iexact HuO
  isplitl [HdE HgE]
  · isplitl [HdE]; · iexact HdE
    iexact HgE
  isplitl [HdO HgO]
  · isplitl [HdO]; · iexact HdO
    iexact HgO
  isplitl [HqA]; · iexact HqA
  isplitl [HqB]; · iexact HqB
  iexists (insert (SemLoc.dma cc0_scratch9.sem, (default : HIx 1)) (insert (SemLoc.dma cc0_scratch7.sem, (default : HIx 1)) (insert (SemLoc.dma cc0_scratch8.sem, (default : HIx 1)) (insert (SemLoc.dma cc0_scratch6.sem, (default : HIx 1)) W0)))); isplitr
  · ipureintro; intro p hp
    simp only [Finset.mem_insert] at hp
    rcases hp with rfl | rfl | rfl | rfl | hp
    · exact .inr rfl
    · exact .inr rfl
    · exact .inr rfl
    · exact .inr rfl
    · exact hW0 p hp
  iexact HO

end Cert.KernelIdeal.KT

end
-- ==== Proof.KRingE.lean ====
/-
  The last step of the ring of transfers when the worker has ten odd-numbered blocks: step 9 waits for the packed
  words of blocks 9 of both kinds and for the staging buffers' copies of blocks 8, fills the staging buffers, and
  starts their copies of blocks 9; no block is left to fetch, so both index scratches end idle.
-/
import proofs.«207339_g86234353369688_cont_sun_m_1071_33_alg».proof.Proof.KRingLib
import proofs.«207339_g86234353369688_cont_sun_m_1071_33_alg».proof.Proof.KCompute
import proofs.«207339_g86234353369688_cont_sun_m_1071_33_alg».proof.Proof.Gen.KernelIdeal.Skeleton

noncomputable section

namespace Cert.KernelIdeal.KT

open Cert.KernelIdeal Cert.KernelIdeal.Gen Cert.KernelIdeal.KC Cert.KernelIdeal.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.KernelIdeal.main_v15_scv : Memref Cert.KernelIdeal.sig Kind.scVector Space.hbm Cert.KernelIdeal.S100000 EltTy.i32)
local notation "wW" => (Memref.whole Cert.KernelIdeal.main_v8_scv : Memref Cert.KernelIdeal.sig Kind.scVector Space.hbm Cert.KernelIdeal.S1152 EltTy.f32)
local notation "oW" => (Memref.whole Cert.KernelIdeal.main_v16_scv : Memref Cert.KernelIdeal.sig Kind.scVector Space.hbm Cert.KernelIdeal.S100000x64 EltTy.f32)
local notation "b0" => (Memref.whole Cert.KernelIdeal.cc0_scratch0 : Memref Cert.KernelIdeal.sig Kind.scVector Space.vmem Cert.KernelIdeal.S160 EltTy.i32)
local notation "b1" => (Memref.whole Cert.KernelIdeal.cc0_scratch1 : Memref Cert.KernelIdeal.sig Kind.scVector Space.vmem Cert.KernelIdeal.S160 EltTy.i32)
local notation "b2" => (Memref.whole Cert.KernelIdeal.cc0_scratch2 : Memref Cert.KernelIdeal.sig Kind.scVector Space.vmem Cert.KernelIdeal.S1152 EltTy.f32)
local notation "b3" => (Memref.whole Cert.KernelIdeal.cc0_scratch3 : Memref Cert.KernelIdeal.sig Kind.scVector Space.vmem Cert.KernelIdeal.S32768 EltTy.f32)
local notation "b4" => (Memref.whole Cert.KernelIdeal.cc0_scratch4 : Memref Cert.KernelIdeal.sig Kind.scVector Space.vmem Cert.KernelIdeal.S160x64 EltTy.f32)
local notation "b5" => (Memref.whole Cert.KernelIdeal.cc0_scratch5 : Memref Cert.KernelIdeal.sig Kind.scVector Space.vmem Cert.KernelIdeal.S160x64 EltTy.f32)

variable [FloatOps F]
variable (d : Dev nD) (L : grid0.Coords)

omit [FloatOps F] in
/-- A `bigSep` over an empty interval of steps. -/
theorem Ico_none {a b : Nat} (h : b ≤ a) (Φ : Nat → sProp 𝕄) : bigSep (Finset.Ico a b) Φ = (iprop(emp) : sProp 𝕄) := by
  rw [Finset.Ico_eq_empty (by omega), bigSep_empty]; rfl

/-- The staging buffer's copy into its block of the result, the payload spelt apart from the buffer's contents. -/
theorem out_deliv0' (xp : Buf (Elt F) (pLoc d)) (w : Buf (Elt F) (wLoc d)) (t : Fin k0_t9_loop.trips) (h1 : k0_cond1 L t = 1#1)
    (fblk : Buf (Elt F) (oLoc d)) (f g : S160x64.Idx → F .f32) (hg : g = f) (hf : KC.OutOK w xp (bE L t.val) 160 f) :
    (iprop((((oW).slice (Rect.unit (s := S100000x64) (k0_off103 L t) S160x64.size (k0_off103_inb L t h1)) (fun _ => rfl)).view.loc (thr d L)
          ↦[((oW).slice (Rect.unit (s := S100000x64) (k0_off103 L t) S160x64.size (k0_off103_inb L t h1)) (fun _ => rfl)).view.set]{fullShare}
          ((oW).slice (Rect.unit (s := S100000x64) (k0_off103 L t) S160x64.size (k0_off103_inb L t h1)) (fun _ => rfl)).view.writes (Elt F) fblk [⟨Rect.whole _, g⟩])
        ∗ ((b4).view.loc (thr d L) ↦[(b4).view.set]{fullShare} f)) : sProp 𝕄)
      ⊢ DO0 d L xp w t.val := by
  subst hg
  exact out_deliv0 d L xp w t h1 fblk g hf

/-- The same for the second staging buffer. -/
theorem out_deliv1' (xp : Buf (Elt F) (pLoc d)) (w : Buf (Elt F) (wLoc d)) (t : Fin k0_t9_loop.trips) (h4 : k0_cond4 L t = 1#1)
    (fblk : Buf (Elt F) (oLoc d)) (f g : S160x64.Idx → F .f32) (hg : g = f) (hf : KC.OutOK w xp (bO L t.val) 160 f) :
    (iprop((((oW).slice (Rect.unit (s := S100000x64) (k0_off188 L t) S160x64.size (k0_off188_inb L t h4)) (fun _ => rfl)).view.loc (thr d L)
          ↦[((oW).slice (Rect.unit (s := S100000x64) (k0_off188 L t) S160x64.size (k0_off188_inb L t h4)) (fun _ => rfl)).view.set]{fullShare}
          ((oW).slice (Rect.unit (s := S100000x64) (k0_off188 L t) S160x64.size (k0_off188_inb L t h4)) (fun _ => rfl)).view.writes (Elt F) fblk [⟨Rect.whole _, g⟩])
        ∗ ((b5).view.loc (thr d L) ↦[(b5).view.set]{fullShare} f)) : sProp 𝕄)
      ⊢ DO1 d L xp w t.val := by
  subst hg
  exact out_deliv1 d L xp w t h4 fblk g hf

set_option maxHeartbeats 8000000 in
/-- Step 9 of the ring, for a subcore with ten odd-numbered blocks. -/
theorem ring_E (qa qb : PosShare TreeShare) (xp : Buf (Elt F) (pLoc d)) (w : Buf (Elt F) (wLoc d)) (o0 : Buf (Elt F) (oLoc d))
    (O : CellTallies nD τ sig (HIx 1)) (W : Waits sig (HIx 1)) (lut : S32768.Idx → F .f32)
    (hO : ∀ g, O g none = 0) (hxp : ∀ n : S100000.Idx, (xp n).toNat < 512) (hlut : KC.LutOK w 512 lut)
    (v1 v20 : BitVec 32) (v239 : FVec F S16 .f32) (k : Fin k0_t9_loop.trips) (hk : k.val = 9) (hn : nOdd L = 10)
    (acc : BitVec 32) :
    Iring d L xp w o0 O W lut qa qb k.val acc ⊢ wp frame (wpE (defs₀ (F := F)) 𝒱₀ (thr d L) none) Set.univ
      (k0_t9_body L pW (Memref.isWhole_whole _) wW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) cc0_scratch6 cc0_scratch7 cc0_scratch8 cc0_scratch9 cc0_scoped0 v1 v20 v239 k acc)
      (Iring d L xp w o0 O W lut qa qb (k.val + 1)) := by
  have ht1 : 1 ≤ k.val := by omega
  have k0_h1 : k0_cond1 L k = 1#1 := cond1_true L k
  have k0_h2 : k0_cond2 k = 1#1 := (cond2_iff k).2 ht1
  have k0_h3 : ¬ k0_cond3 L k = 1#1 := fun h => by have := (cond3_iff L k).1 h; omega
  have k0_h4 : k0_cond4 L k = 1#1 := (cond4_nOdd L k).2 (by omega)
  have k0_h5 : k0_cond5 k = 1#1 := (cond5_iff k).2 ht1
  have k0_h6 : ¬ k0_cond6 L k = 1#1 := fun h => by have := (cond6_nOdd L k).1 h; omega
  unfold Iring SX0 SX1 SO0 SO1
  rw [if_pos (show k.val < 10 by omega), if_pos (show k.val < nOdd L by omega), if_neg (show ¬ k.val = 0 by omega), if_neg (show ¬ k.val = 0 by omega),
    if_neg (show ¬ k.val + 1 < 10 by omega), if_neg (show ¬ k.val + 1 < nOdd L by omega), if_neg (show ¬ k.val + 1 = 0 by omega), if_neg (show ¬ k.val + 1 = 0 by omega),
    show min k.val (nOdd L) = k.val from by omega, show min (k.val + 1) (nOdd L) = k.val + 1 from by omega, Nat.add_sub_cancel,
    Ico_pop (show k.val < 10 by omega) (fun s => (oLoc d ↦[blkSet (bE L s)]{fullShare} o0 : sProp 𝕄)), Ico_pop (show k.val < nOdd L by omega) (fun s => (oLoc d ↦[blkSet (bO L s)]{fullShare} o0 : sProp 𝕄)),
    Ico_none (show 10 ≤ k.val + 1 by omega) (fun s => (pLoc d ↦{Transfers.shareTokN qa s} xp : sProp 𝕄)), Ico_none (show nOdd L ≤ k.val + 1 by omega) (fun s => (pLoc d ↦{Transfers.shareTokN qb s} xp : sProp 𝕄)),
    Ico_none (show 10 ≤ k.val + 1 + 1 by omega) (fun s => (pLoc d ↦{Transfers.shareTokN qa s} xp : sProp 𝕄)), Ico_none (show nOdd L ≤ k.val + 1 + 1 by omega) (fun s => (pLoc d ↦{Transfers.shareTokN qb s} xp : sProp 𝕄)),
    range_pop ht1 (fun s => (oLoc d ↦[blkSet (bE L s)]{fullShare} G d w xp : sProp 𝕄)), range_pop ht1 (fun s => (oLoc d ↦[blkSet (bO L s)]{fullShare} G d w xp : sProp 𝕄)),
    ← pts_oE d L k k0_h1 o0, ← pts_oO d L k k0_h4 o0]
  unfold k0_t9_body
  iintro ⟨#Hmw, H3, SX0, SX1, SO0, SO1, ⟨HbE, HuE⟩, ⟨HbO, HuO⟩, HgE, HgO, -, -, %W0, %hW0, HO⟩
  sl_exec
  iapply (Transfers.wp_waitLocalO countersEmb 𝒱₀ (thr d L) none (default : HIx 1) (N := 5120) rfl) $$ [SX0 HO]
  · isplitl [SX0]; · iexact SX0
    isplitl [HO]; · iexact HO
    iapply (Transfers.MayWaits.elim (SemLoc.dma cc0_scratch6.sem)); iexact Hmw
  iintro ⟨HD, S6, HO⟩
  icases HD with ⟨%xv, H0, %hxv⟩
  sl_exec
  iapply (Transfers.wp_waitLocalO countersEmb 𝒱₀ (thr d L) none (default : HIx 1) (N := 327680) rfl) $$ [SO0 HO]
  · isplitl [SO0]; · iexact SO0
    isplitl [HO]; · iexact HO
    iapply (Transfers.MayWaits.elim (SemLoc.dma cc0_scratch8.sem)); iexact Hmw
  iintro ⟨HD, S8, HO⟩
  icases HD with ⟨⟨%f4, H4⟩, HdE⟩
  sl_exec
  sl_for (KCompute.Icmp0 w xp d L (bE L k.val) xv lut) $$ [H0 H3 H4]
  case region => exact KCompute.compute_region0 w xp d L _ xv lut hxp hxv hlut v1 v20 v239 k k0_h1
  · unfold KCompute.Icmp0
    isplitl [H0]; · iexact H0
    isplitl [H3]; · iexact H3
    iexists f4; isplitl [H4]; · iexact H4
    ipureintro; intro y hy; omega
  iintro %acc' HI
  unfold KCompute.Icmp0
  icases HI with ⟨H0, H3, %f4', H4, %hf4⟩
  sl_exec
  iapply (Transfers.wp_waitLocalO countersEmb 𝒱₀ (thr d L) none (default : HIx 1) (N := 5120) rfl) $$ [SX1 HO]
  · isplitl [SX1]; · iexact SX1
    isplitl [HO]; · iexact HO
    iapply (Transfers.MayWaits.elim (SemLoc.dma cc0_scratch7.sem)); iexact Hmw
  iintro ⟨HD, S7, HO⟩
  icases HD with ⟨%xv1, H1, %hxv1⟩
  sl_exec
  iapply (Transfers.wp_waitLocalO countersEmb 𝒱₀ (thr d L) none (default : HIx 1) (N := 327680) rfl) $$ [SO1 HO]
  · isplitl [SO1]; · iexact SO1
    isplitl [HO]; · iexact HO
    iapply (Transfers.MayWaits.elim (SemLoc.dma cc0_scratch9.sem)); iexact Hmw
  iintro ⟨HD, S9, HO⟩
  icases HD with ⟨⟨%f5, H5⟩, HdO⟩
  sl_exec
  sl_for (KCompute.Icmp1 w xp d L (bO L k.val) xv1 lut) $$ [H1 H3 H5]
  case region => exact KCompute.compute_region1 w xp d L _ xv1 lut hxp hxv1 hlut v1 v20 v239 k k0_h4
  · unfold KCompute.Icmp1
    isplitl [H1]; · iexact H1
    isplitl [H3]; · iexact H3
    iexists f5; isplitl [H5]; · iexact H5
    ipureintro; intro y hy; omega
  iintro %acc'' HI
  unfold KCompute.Icmp1
  icases HI with ⟨H1, H3, %f5', H5, %hf5⟩
  sl_exec
  have e10 : 16 * Scf.trips k0_t10_loop.lb k0_t10_loop.ub k0_t10_loop.st = 160 := by
    rw [show Scf.trips k0_t10_loop.lb k0_t10_loop.ub k0_t10_loop.st = k0_t10_loop.trips from rfl, trips10]
  have e11 : 16 * Scf.trips k0_t11_loop.lb k0_t11_loop.ub k0_t11_loop.st = 160 := by
    rw [show Scf.trips k0_t11_loop.lb k0_t11_loop.ub k0_t11_loop.st = k0_t11_loop.trips from rfl, trips11]
  rw [e10] at hf4; rw [e11] at hf5
  irename : (Transfers.Flight countersEmb (thr d L) (SemLoc.dma cc0_scratch8.sem) _ _ _) => E8
  irename : (Transfers.Flight countersEmb (thr d L) (SemLoc.dma cc0_scratch9.sem) _ _ _) => E9
  ihave FO0' := (Transfers.Flight_mono (EC := countersEmb) (c := thr d L) (out_deliv0' d L xp w k k0_h1 o0 f4' (ring_E.sl.dma0 d L f4') rfl hf4)) $$ E8
  ihave FO1' := (Transfers.Flight_mono (EC := countersEmb) (c := thr d L) (out_deliv1' d L xp w k k0_h4 o0 f5' (ring_E.sl.dma0_1 d L f5') rfl hf5)) $$ E9
  rw [wp_ret]; imodintro
  isplitr; · iexact Hmw
  isplitl [H3]; · iexact H3
  isplitl [S6 H0]
  · isplitl [S6]; · iexact S6
    iexists xv; iexact H0
  isplitl [S7 H1]
  · isplitl [S7]; · iexact S7
    iexists xv1; iexact H1
  isplitl [FO0']; · iexact FO0'
  isplitl [FO1']; · iexact FO1'
  isplitl [HuE]; · iexact HuE
  isplitl [HuO]; · iexact HuO
  isplitl [HdE HgE]
  · isplitl [HdE]; · iexact HdE
    iexact HgE
  isplitl [HdO HgO]
  · isplitl [HdO]; · iexact HdO
    iexact HgO
  isplitl []; · iempintro
  isplitl []; · iempintro
  iexists (insert ((SemLoc.dma cc0_scratch9.sem : SemLoc sig), (default : HIx 1)) (insert ((SemLoc.dma cc0_scratch7.sem : SemLoc sig), (default : HIx 1))
    (insert ((SemLoc.dma cc0_scratch8.sem : SemLoc sig), (default : HIx 1)) (insert ((SemLoc.dma cc0_scratch6.sem : SemLoc sig), (default : HIx 1)) W0))))
  isplitr
  · ipureintro; intro p hp
    simp only [Finset.mem_insert] at hp
    rcases hp with rfl | rfl | rfl | rfl | hp
    · exact .inr rfl
    · exact .inr rfl
    · exact .inr rfl
    · exact .inr rfl
    · exact hW0 p hp
  iexact HO

end Cert.KernelIdeal.KT

end
-- ==== Proof.KRing.lean ====
/-
  One step of the ring of transfers a vector subcore runs, at any step: the invariant before step `k` gives the
  invariant before step `k + 1`.  The five shapes a step takes — the first, the general one, the one before the last
  and the last for a worker with nine odd-numbered blocks, the last for a worker with ten — are proved apart; here
  they are put together by the step's number and the number of odd-numbered blocks.
-/
import proofs.«207339_g86234353369688_cont_sun_m_1071_33_alg».proof.Proof.KRingAF
import proofs.«207339_g86234353369688_cont_sun_m_1071_33_alg».proof.Proof.KRingBD
import proofs.«207339_g86234353369688_cont_sun_m_1071_33_alg».proof.Proof.KRingE

noncomputable section

namespace Cert.KernelIdeal.KT

open Cert.KernelIdeal Cert.KernelIdeal.Gen Cert.KernelIdeal.KC Cert.KernelIdeal.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.KernelIdeal.main_v15_scv : Memref Cert.KernelIdeal.sig Kind.scVector Space.hbm Cert.KernelIdeal.S100000 EltTy.i32)
local notation "wW" => (Memref.whole Cert.KernelIdeal.main_v8_scv : Memref Cert.KernelIdeal.sig Kind.scVector Space.hbm Cert.KernelIdeal.S1152 EltTy.f32)
local notation "oW" => (Memref.whole Cert.KernelIdeal.main_v16_scv : Memref Cert.KernelIdeal.sig Kind.scVector Space.hbm Cert.KernelIdeal.S100000x64 EltTy.f32)
local notation "b0" => (Memref.whole Cert.KernelIdeal.cc0_scratch0 : Memref Cert.KernelIdeal.sig Kind.scVector Space.vmem Cert.KernelIdeal.S160 EltTy.i32)
local notation "b1" => (Memref.whole Cert.KernelIdeal.cc0_scratch1 : Memref Cert.KernelIdeal.sig Kind.scVector Space.vmem Cert.KernelIdeal.S160 EltTy.i32)
local notation "b2" => (Memref.whole Cert.KernelIdeal.cc0_scratch2 : Memref Cert.KernelIdeal.sig Kind.scVector Space.vmem Cert.KernelIdeal.S1152 EltTy.f32)
local notation "b3" => (Memref.whole Cert.KernelIdeal.cc0_scratch3 : Memref Cert.KernelIdeal.sig Kind.scVector Space.vmem Cert.KernelIdeal.S32768 EltTy.f32)
local notation "b4" => (Memref.whole Cert.KernelIdeal.cc0_scratch4 : Memref Cert.KernelIdeal.sig Kind.scVector Space.vmem Cert.KernelIdeal.S160x64 EltTy.f32)
local notation "b5" => (Memref.whole Cert.KernelIdeal.cc0_scratch5 : Memref Cert.KernelIdeal.sig Kind.scVector Space.vmem Cert.KernelIdeal.S160x64 EltTy.f32)

variable [FloatOps F]

/-- The ring loop's region: step `k` carries the invariant from `k` to `k + 1`. -/
theorem ring_region (d : Dev nD) (L : grid0.Coords) (qa qb : PosShare TreeShare) (xp : Buf (Elt F) (pLoc d)) (w : Buf (Elt F) (wLoc d)) (o0 : Buf (Elt F) (oLoc d))
    (O : CellTallies nD τ sig (HIx 1)) (W : Waits sig (HIx 1)) (lut : S32768.Idx → F .f32)
    (hO : ∀ g, O g none = 0) (hxp : ∀ n : S100000.Idx, (xp n).toNat < 512) (hlut : KC.LutOK w 512 lut)
    (v1 v20 : BitVec 32) (v239 : FVec F S16 .f32) :
    ∀ (k : Fin k0_t9_loop.trips) (acc : BitVec 32),
      Iring d L xp w o0 O W lut qa qb k.val acc ⊢ wp frame (wpE (defs₀ (F := F)) 𝒱₀ (thr d L) none) Set.univ
        (k0_t9_body L pW (Memref.isWhole_whole _) wW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) cc0_scratch6 cc0_scratch7 cc0_scratch8 cc0_scratch9 cc0_scoped0 v1 v20 v239 k acc) (Iring d L xp w o0 O W lut qa qb (k.val + 1)) := by
  intro k acc
  have hk10 := t_lt k
  have h9 := nOdd_ge L
  have h10 := nOdd_le L
  by_cases h0 : k.val = 0
  · exact ring_A d L qa qb xp w o0 O W lut hO hxp hlut v1 v20 v239 k h0 acc
  by_cases hB : k.val + 1 < nOdd L
  · exact ring_B d L qa qb xp w o0 O W lut hO hxp hlut v1 v20 v239 k (by omega) hB acc
  by_cases hn : nOdd L = 9
  · by_cases h8 : k.val = 8
    · exact ring_D d L qa qb xp w o0 O W lut hO hxp hlut v1 v20 v239 k h8 hn acc
    · exact ring_F d L qa qb xp w o0 O W lut hO hxp hlut v1 v20 v239 k (by omega) hn acc
  · exact ring_E d L qa qb xp w o0 O W lut hO hxp hlut v1 v20 v239 k (by omega) (by omega) acc

end Cert.KernelIdeal.KT

end
-- ==== Proof.KTile.lean ====
/-
  One vector subcore's task, end to end.

  Worker `n` (of 32) receives a read share of the packed words (one 9-bit word per node) and of the flat table
  (rows 0 and 1 of the nine feature tables), and its own 160-row blocks of the result.  It copies the flat table into
  its scratch; builds the 512-row table whose row `p` is the sum of the rows the bits of `p` select — rows 0 and 1
  directly, then rows `2^i … 2^(i+1) − 1` from rows `0 … 2^i − 1` by adding feature `i`'s difference, one counted
  loop per feature —; then runs the ring of transfers: for each of its blocks, the packed words come in, every row of the
  block is looked up in the table, and the block goes out.  At the end its rows of the result hold, for every node,
  the table row its packed word names (`Spec.kerOut`), and its scratch and semaphores are handed back.
-/
import proofs.«207339_g86234353369688_cont_sun_m_1071_33_alg».proof.Proof.KCommon
import proofs.«207339_g86234353369688_cont_sun_m_1071_33_alg».proof.Proof.KInv
import proofs.«207339_g86234353369688_cont_sun_m_1071_33_alg».proof.Proof.KConds
import proofs.«207339_g86234353369688_cont_sun_m_1071_33_alg».proof.Proof.KTile1
import proofs.«207339_g86234353369688_cont_sun_m_1071_33_alg».proof.Proof.KTile0
import proofs.«207339_g86234353369688_cont_sun_m_1071_33_alg».proof.Proof.KPro
import proofs.«207339_g86234353369688_cont_sun_m_1071_33_alg».proof.Proof.KLut
import proofs.«207339_g86234353369688_cont_sun_m_1071_33_alg».proof.Proof.KEnds
import proofs.«207339_g86234353369688_cont_sun_m_1071_33_alg».proof.Proof.KRing
import proofs.«207339_g86234353369688_cont_sun_m_1071_33_alg».proof.Proof.Gen.KernelIdeal.Skeleton

noncomputable section

namespace Cert.KernelIdeal.KT

open Cert.KernelIdeal Cert.KernelIdeal.Gen Cert.KernelIdeal.KC Cert.KernelIdeal.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.KernelIdeal.main_v15_scv : Memref Cert.KernelIdeal.sig Kind.scVector Space.hbm Cert.KernelIdeal.S100000 EltTy.i32)
local notation "wW" => (Memref.whole Cert.KernelIdeal.main_v8_scv : Memref Cert.KernelIdeal.sig Kind.scVector Space.hbm Cert.KernelIdeal.S1152 EltTy.f32)
local notation "oW" => (Memref.whole Cert.KernelIdeal.main_v16_scv : Memref Cert.KernelIdeal.sig Kind.scVector Space.hbm Cert.KernelIdeal.S100000x64 EltTy.f32)
local notation "b0" => (Memref.whole Cert.KernelIdeal.cc0_scratch0 : Memref Cert.KernelIdeal.sig Kind.scVector Space.vmem Cert.KernelIdeal.S160 EltTy.i32)
local notation "b1" => (Memref.whole Cert.KernelIdeal.cc0_scratch1 : Memref Cert.KernelIdeal.sig Kind.scVector Space.vmem Cert.KernelIdeal.S160 EltTy.i32)
local notation "b2" => (Memref.whole Cert.KernelIdeal.cc0_scratch2 : Memref Cert.KernelIdeal.sig Kind.scVector Space.vmem Cert.KernelIdeal.S1152 EltTy.f32)
local notation "b3" => (Memref.whole Cert.KernelIdeal.cc0_scratch3 : Memref Cert.KernelIdeal.sig Kind.scVector Space.vmem Cert.KernelIdeal.S32768 EltTy.f32)
local notation "b4" => (Memref.whole Cert.KernelIdeal.cc0_scratch4 : Memref Cert.KernelIdeal.sig Kind.scVector Space.vmem Cert.KernelIdeal.S160x64 EltTy.f32)
local notation "b5" => (Memref.whole Cert.KernelIdeal.cc0_scratch5 : Memref Cert.KernelIdeal.sig Kind.scVector Space.vmem Cert.KernelIdeal.S160x64 EltTy.f32)

variable [FloatOps F]
variable (d : Dev nD) (L : grid0.Coords)

omit [FloatOps F] in
theorem tl_pts_p (q : PosShare TreeShare) (f : Buf (Elt F) (pLoc d)) : ((pW).view.loc (thr d L) ↦{q} f : sProp 𝕄) = pLoc d ↦{q} f := by
  simp only [Memref.view_whole, View.set_whole]
omit [FloatOps F] in
theorem tl_pts_w (q : PosShare TreeShare) (f : Buf (Elt F) (wLoc d)) : ((wW).view.loc (thr d L) ↦{q} f : sProp 𝕄) = wLoc d ↦{q} f := by
  simp only [Memref.view_whole, View.set_whole]

omit [FloatOps F] in
theorem tl_pts_b0 (f : Buf (Elt F) ((thr d L).loc cc0_scratch0)) : ((thr d L).loc cc0_scratch0 ↦{fullShare} f : sProp 𝕄) = ((b0).view.loc (thr d L) ↦{fullShare} f) := rfl
omit [FloatOps F] in
theorem tl_pts_b1 (f : Buf (Elt F) ((thr d L).loc cc0_scratch1)) : ((thr d L).loc cc0_scratch1 ↦{fullShare} f : sProp 𝕄) = ((b1).view.loc (thr d L) ↦{fullShare} f) := rfl
omit [FloatOps F] in
theorem tl_pts_b2 (f : Buf (Elt F) ((thr d L).loc cc0_scratch2)) : ((thr d L).loc cc0_scratch2 ↦{fullShare} f : sProp 𝕄) = ((b2).view.loc (thr d L) ↦{fullShare} f) := rfl
omit [FloatOps F] in
theorem tl_pts_b3 (f : Buf (Elt F) ((thr d L).loc cc0_scratch3)) : ((thr d L).loc cc0_scratch3 ↦{fullShare} f : sProp 𝕄) = ((b3).view.loc (thr d L) ↦{fullShare} f) := rfl
omit [FloatOps F] in
theorem tl_pts_b4 (f : Buf (Elt F) ((thr d L).loc cc0_scratch4)) : ((thr d L).loc cc0_scratch4 ↦{fullShare} f : sProp 𝕄) = ((b4).view.loc (thr d L) ↦{fullShare} f) := rfl
omit [FloatOps F] in
theorem tl_pts_b5 (f : Buf (Elt F) ((thr d L).loc cc0_scratch5)) : ((thr d L).loc cc0_scratch5 ↦{fullShare} f : sProp 𝕄) = ((b5).view.loc (thr d L) ↦{fullShare} f) := rfl

set_option maxHeartbeats 4000000 in
theorem tileSpec : KC.TileSpec (F := F) := by
  intro d L O W hO q xp w o0 hxp
  rw [cc0__body_eq_skeleton]; unfold cc0__body_skel
  rw [(K (F := F)).scopedBufs_V facts d (cV L) (jV L), SparseCore.Cfg.scopedSems0_V (Val := Elt F) d (cV L) (jV L), ownSems0_tile, ownBufs_tile]
  iintro ⟨#Hlv, -, ⟨Hp, Hw, Ho⟩, ⟨⟨%f0, H0⟩, ⟨%f1, H1⟩, ⟨%f2, H2⟩, ⟨%f3, H3⟩, ⟨%f4, H4⟩, ⟨%f5, H5⟩, Hbufs⟩, ⟨S6, S7, S8, S9, S10, Hsems⟩, HO⟩
  ihave Hmw := ((K (F := F)).mayWaits_none (thr := thr d L) hO) $$ Hlv
  ihave Htk := (toks_split d L q xp) $$ Hp
  icases Htk with ⟨Hpa, Hpb, HtkE, HtkO⟩
  ihave Hpa' := (Entails.of_eq (tl_pts_p (F := F) d L _ _).symm) $$ Hpa
  ihave Hpb' := (Entails.of_eq (tl_pts_p (F := F) d L _ _).symm) $$ Hpb
  ihave Hw' := (Entails.of_eq (tl_pts_w (F := F) d L _ _).symm) $$ Hw
  ihave H0' := (Entails.of_eq (tl_pts_b0 (F := F) d L f0)) $$ H0
  ihave H1' := (Entails.of_eq (tl_pts_b1 (F := F) d L f1)) $$ H1
  ihave H2' := (Entails.of_eq (tl_pts_b2 (F := F) d L f2)) $$ H2
  ihave H3' := (Entails.of_eq (tl_pts_b3 (F := F) d L f3)) $$ H3
  ihave H4' := (Entails.of_eq (tl_pts_b4 (F := F) d L f4)) $$ H4
  ihave H5' := (Entails.of_eq (tl_pts_b5 (F := F) d L f5)) $$ H5
  sl_exec (disch := first | exact View.amount_pos _ _ (show 0 < S160.numel by decide) | exact View.amount_pos _ _ (show 0 < S1152.numel by decide) | exact View.amount_pos _ _ (show 0 < S160x64.numel by decide))
  -- the flat table's scratch reads the flat table, sixteen lanes at a time
  have hb2 : ∀ (c : Nat) (h : ∀ a, (![c] : Fin 1 → Nat) a + S16.size a ≤ S1152.size a) (hc : c + 16 ≤ 1152) (x : S16.Idx),
      View.readAt (Elt F) (b2).view (Rect.unit (s := S1152) ![c] S16.size h).toLoadRect
        (View.write (Elt F) (b2).view f2 (tileSpec.sl.dma0_2 d w) Finset.univ) x = Spec.wAt w (c + (x 0).val) :=
    fun c h hc x => b2_read d L f2 w c h hc x
  -- row 0 of the table: four stores
  have hA : ListOK w 64 (tileSpec.sl.H3'_4 d L w f2) := by
    unfold tileSpec.sl.H3'_4
    refine ListOK.push (N := 48) (ListOK.push (N := 32) (ListOK.push (N := 16) (ListOK.push (N := 0) (ListOK.nil w) _ _ ?_) _ _ ?_) _ _ ?_) _ _ ?_
    · intro x
      refine row0_val w 0 (by omega) _ _ _ _ _ _ _ _ _ ?_ ?_ ?_ ?_ ?_ ?_ ?_ ?_ ?_ x <;> exact fun x => hb2 _ _ (by omega) x
    · intro x
      refine row0_val w 16 (by omega) _ _ _ _ _ _ _ _ _ ?_ ?_ ?_ ?_ ?_ ?_ ?_ ?_ ?_ x <;> exact fun x => hb2 _ _ (by omega) x
    · intro x
      refine row0_val w 32 (by omega) _ _ _ _ _ _ _ _ _ ?_ ?_ ?_ ?_ ?_ ?_ ?_ ?_ ?_ x <;> exact fun x => hb2 _ _ (by omega) x
    · intro x
      refine row0_val w 48 (by omega) _ _ _ _ _ _ _ _ _ ?_ ?_ ?_ ?_ ?_ ?_ ?_ ?_ ?_ x <;> exact fun x => hb2 _ _ (by omega) x
  -- row 1: each store adds table 0's difference to the lanes of row 0 read back
  have hB : ListOK w 80 (tileSpec.sl.H3'_5 d L w f2) := by
    unfold tileSpec.sl.H3'_5
    refine ListOK.push (N := 64) hA _ _ fun x => ?_
    exact row1_val w 0 (by omega) _ _ _ (fun x => hb2 _ _ (by omega) x) (fun x => hb2 _ _ (by omega) x)
      (fun x => hA.readCov 0 _ (by omega) x) x
  have hC : ListOK w 96 (tileSpec.sl.H3'_6 d L w f2) := by
    unfold tileSpec.sl.H3'_6
    refine ListOK.push (N := 80) hB _ _ fun x => ?_
    exact row1_val w 16 (by omega) _ _ _ (fun x => hb2 _ _ (by omega) x) (fun x => hb2 _ _ (by omega) x)
      (fun x => hB.readCov 16 _ (by omega) x) x
  have hD : ListOK w 112 (tileSpec.sl.H3'_7 d L w f2) := by
    unfold tileSpec.sl.H3'_7
    refine ListOK.push (N := 96) hC _ _ fun x => ?_
    exact row1_val w 32 (by omega) _ _ _ (fun x => hb2 _ _ (by omega) x) (fun x => hb2 _ _ (by omega) x)
      (fun x => hC.readCov 32 _ (by omega) x) x
  have hE : ListOK w 128 ((⟨Rect.unit (s := S32768) ![112] S16.size (by decide),
      k0_pay80 (tileSpec.sl.r_6 d L w f2) (tileSpec.sl.v146 d L w f2)⟩ : View.Piece (Elt F) S32768 .f32) :: tileSpec.sl.H3'_7 d L w f2) := by
    refine ListOK.push (N := 112) hD _ _ fun x => ?_
    exact row1_val w 48 (by omega) _ _ _ (fun x => hb2 _ _ (by omega) x) (fun x => hb2 _ _ (by omega) x)
      (fun x => hD.readCov 48 _ (by omega) x) x
  have hL2 : KC.LutOK w 2 ((b3).view.writes (Elt F) f3 ((⟨Rect.unit (s := S32768) ![112] S16.size (by decide),
      k0_pay80 (tileSpec.sl.r_6 d L w f2) (tileSpec.sl.v146 d L w f2)⟩ : View.Piece (Elt F) S32768 .f32) :: tileSpec.sl.H3'_7 d L w f2)) :=
    ListOK.lutOK (n := 2) hE f3
  -- rows 2 … 3
  sl_for (KLut.Ilut w d L 2) $$ [H3']
  case region => exact KLut.lut_region_1 w d L _ _ _ _ _ _ _ _ _ _ (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x)
  · unfold KLut.Ilut; iexists _; isplitl [H3']; · iexact H3'
    ipureintro; exact hL2
  iintro %acc1 HI
  unfold KLut.Ilut
  icases HI with ⟨%g1, H3', %hg1⟩
  have hL4 : KC.LutOK w 4 g1 := by
    have := hg1; rw [show Scf.trips k0_t1_loop.lb k0_t1_loop.ub k0_t1_loop.st = 2 from trips1] at this; exact this
  sl_exec
  -- rows 4 … 7
  sl_for (KLut.Ilut w d L 4) $$ [H3']
  case region => exact KLut.lut_region_2 w d L _ _ _ _ (KLut.diff_ok w 2 0 _ _ _ _ rfl rfl (fun x => hb2 _ _ (by omega) x) (fun x => hb2 _ _ (by omega) x)) (KLut.diff_ok w 2 16 _ _ _ _ rfl rfl (fun x => hb2 _ _ (by omega) x) (fun x => hb2 _ _ (by omega) x)) (KLut.diff_ok w 2 32 _ _ _ _ rfl rfl (fun x => hb2 _ _ (by omega) x) (fun x => hb2 _ _ (by omega) x)) (KLut.diff_ok w 2 48 _ _ _ _ rfl rfl (fun x => hb2 _ _ (by omega) x) (fun x => hb2 _ _ (by omega) x))
  · unfold KLut.Ilut; iexists _; isplitl [H3']; · iexact H3'
    ipureintro; exact hL4
  iintro %acc2 HI
  unfold KLut.Ilut
  icases HI with ⟨%g2, H3', %hg2⟩
  have hL8 : KC.LutOK w 8 g2 := by
    have := hg2; rw [show Scf.trips k0_t2_loop.lb k0_t2_loop.ub k0_t2_loop.st = 4 from trips2] at this; exact this
  sl_exec
  -- rows 8 … 15
  sl_for (KLut.Ilut w d L 8) $$ [H3']
  case region => exact KLut.lut_region_3 w d L _ _ _ _ _ _ _ _ _ _ _ _ (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x)
  · unfold KLut.Ilut; iexists _; isplitl [H3']; · iexact H3'
    ipureintro; exact hL8
  iintro %acc3 HI
  unfold KLut.Ilut
  icases HI with ⟨%g3, H3', %hg3⟩
  have hL16 : KC.LutOK w 16 g3 := by
    have := hg3; rw [show Scf.trips k0_t3_loop.lb k0_t3_loop.ub k0_t3_loop.st = 8 from trips3] at this; exact this
  sl_exec
  -- rows 16 … 31
  sl_for (KLut.Ilut w d L 16) $$ [H3']
  case region => exact KLut.lut_region_4 w d L _ _ _ _ _ _ _ _ _ _ _ _ (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x)
  · unfold KLut.Ilut; iexists _; isplitl [H3']; · iexact H3'
    ipureintro; exact hL16
  iintro %acc4 HI
  unfold KLut.Ilut
  icases HI with ⟨%g4, H3', %hg4⟩
  have hL32 : KC.LutOK w 32 g4 := by
    have := hg4; rw [show Scf.trips k0_t4_loop.lb k0_t4_loop.ub k0_t4_loop.st = 16 from trips4] at this; exact this
  sl_exec
  -- rows 32 … 63
  sl_for (KLut.Ilut w d L 32) $$ [H3']
  case region => exact KLut.lut_region_5 w d L _ _ _ _ _ _ _ _ (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x)
  · unfold KLut.Ilut; iexists _; isplitl [H3']; · iexact H3'
    ipureintro; exact hL32
  iintro %acc5 HI
  unfold KLut.Ilut
  icases HI with ⟨%g5, H3', %hg5⟩
  have hL64 : KC.LutOK w 64 g5 := by
    have := hg5; rw [show Scf.trips k0_t5_loop.lb k0_t5_loop.ub k0_t5_loop.st = 32 from trips5] at this; exact this
  sl_exec
  -- rows 64 … 127
  sl_for (KLut.Ilut w d L 64) $$ [H3']
  case region => exact KLut.lut_region_6 w d L _ _ _ _ _ _ _ _ (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x)
  · unfold KLut.Ilut; iexists _; isplitl [H3']; · iexact H3'
    ipureintro; exact hL64
  iintro %acc6 HI
  unfold KLut.Ilut
  icases HI with ⟨%g6, H3', %hg6⟩
  have hL128 : KC.LutOK w 128 g6 := by
    have := hg6; rw [show Scf.trips k0_t6_loop.lb k0_t6_loop.ub k0_t6_loop.st = 64 from trips6] at this; exact this
  sl_exec
  -- rows 128 … 255
  sl_for (KLut.Ilut w d L 128) $$ [H3']
  case region => exact KLut.lut_region_7 w d L _ _ _ _ _ _ _ _ _ (KLut.diff_ok w 7 0 _ _ _ _ rfl rfl (fun x => hb2 _ _ (by omega) x) (fun x => hb2 _ _ (by omega) x)) (fun x => hb2 _ _ (by omega) x) (fun x => hb2 _ _ (by omega) x) (fun x => hb2 _ _ (by omega) x) (fun x => hb2 _ _ (by omega) x) (fun x => hb2 _ _ (by omega) x) (fun x => hb2 _ _ (by omega) x)
  · unfold KLut.Ilut; iexists _; isplitl [H3']; · iexact H3'
    ipureintro; exact hL128
  iintro %acc7 HI
  unfold KLut.Ilut
  icases HI with ⟨%g7, H3', %hg7⟩
  have hL256 : KC.LutOK w 256 g7 := by
    have := hg7; rw [show Scf.trips k0_t7_loop.lb k0_t7_loop.ub k0_t7_loop.st = 128 from trips7] at this; exact this
  sl_exec
  -- rows 256 … 511
  sl_for (KLut.Ilut w d L 256) $$ [H3']
  case region => exact KLut.lut_region_8 w d L _ _ _ _ _ _ _ _ _ _ _ (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x)
  · unfold KLut.Ilut; iexists _; isplitl [H3']; · iexact H3'
    ipureintro; exact hL256
  iintro %acc8 HI
  unfold KLut.Ilut
  icases HI with ⟨%g8, H3', %hg8⟩
  have hL512 : KC.LutOK w 512 g8 := by
    have := hg8; rw [show Scf.trips k0_t8_loop.lb k0_t8_loop.ub k0_t8_loop.st = 256 from trips8] at this; exact this
  sl_exec
  -- the ring of transfers: its invariant before step 0
  iclear Hpa'
  iclear Hpb'
  have hx0 : KC.XvOK xp (bE L 0) (View.write (Elt F) (b0).view f0 (tileSpec.sl.dma0 d L xp) Finset.univ) :=
    xv_of_copy0 d L xp (bE L 0) (k0_off1 L 0#32) _ (off1_even L) f0
  have hx1 : KC.XvOK xp (bO L 0) (View.write (Elt F) (b1).view f1 (tileSpec.sl.dma0_1 d L xp) Finset.univ) :=
    xv_of_copy1 d L xp (bO L 0) (k0_off1 L 32#32) _ (off1_odd L) f1
  ihave HX0 := (Transfers.Flight_mono countersEmb (thr d L) (DX0_intro d L xp 0 _ _ hx0)) $$ S6
  ihave HX1 := (Transfers.Flight_mono countersEmb (thr d L) (DX1_intro d L xp 0 _ _ hx1)) $$ S7
  ihave Hb := (Entails.of_eq (rows_split d L fullShare o0)) $$ Ho
  icases Hb with ⟨HbE, HbO⟩
  sl_for (Iring d L xp w o0 O W g8 (Transfers.shareTokN q 0) (Transfers.shareTokN q 1)) $$ [H3' HX0 HX1 S8 H4' S9 H5' HbE HbO HtkE HtkO HO]
  case region => exact ring_region d L (Transfers.shareTokN q 0) (Transfers.shareTokN q 1) xp w o0 O W g8 hO hxp hL512 _ _ _
  · unfold Iring SX0 SX1 SO0 SO1
    rw [if_pos (show (0 : Nat) < 10 by decide), if_pos (show 0 < nOdd L by have := nOdd_ge L; omega), if_pos rfl, if_pos rfl]
    simp only [Nat.zero_min, Nat.zero_sub, Finset.range_zero, bigSep_empty]
    isplitl []; · iexact Hmw
    isplitl [H3']; · iexact H3'
    isplitl [HX0]; · iexact HX0
    isplitl [HX1]; · iexact HX1
    isplitl [S8 H4']
    · isplitl [S8]; · iexact S8
      iexists f4; iexact H4'
    isplitl [S9 H5']
    · isplitl [S9]; · iexact S9
      iexists f5; iexact H5'
    isplitl [HbE]; · iexact HbE
    isplitl [HbO]; · iexact HbO
    isplitl []; · iempintro
    isplitl []; · iempintro
    isplitl [HtkE]; · iexact HtkE
    isplitl [HtkO]; · iexact HtkO
    iexists _
    isplitr [HO]
    rotate_left
    · iexact HO
    · ipureintro
      intro p hp
      rcases Finset.mem_insert.mp hp with e | e
      · exact .inr (e ▸ rfl)
      · exact .inl e
  -- after the ring: the last two copies into the result are in flight
  iintro %acc9 HI
  unfold Iring SX0 SX1 SO0 SO1
  rw [show Scf.trips k0_t9_loop.lb k0_t9_loop.ub k0_t9_loop.st = 10 from trips9]
  rw [if_neg (show ¬ (10 : Nat) < 10 by decide), if_neg (show ¬ 10 < nOdd L by have := nOdd_le L; omega),
    if_neg (show ¬ (10 : Nat) = 0 by decide), if_neg (show ¬ (10 : Nat) = 0 by decide)]
  icases HI with ⟨-, H3', ⟨S6, ⟨%f0', H0'⟩⟩, ⟨S7, ⟨%f1', H1'⟩⟩, HF0, HF1, -, -, HdE, HdO, -, -, ⟨%W', %hW', HO⟩⟩
  sl_exec
  -- the even-numbered block of the last step has landed
  iapply (Transfers.wp_waitLocalO countersEmb 𝒱₀ (thr d L) none (default : HIx 1) (N := 327680) rfl) $$ [HF0 HO]
  · isplitl [HF0]; · iexact HF0
    isplitl [HO]; · iexact HO
    iapply (Transfers.MayWaits.elim (SemLoc.dma cc0_scratch8.sem)); iexact Hmw
  iintro ⟨HD, S8, HO⟩
  icases HD with ⟨⟨%f4', H4'⟩, HlE⟩
  sl_exec
  -- the odd-numbered block of the last step has landed
  iapply (Transfers.wp_waitLocalO countersEmb 𝒱₀ (thr d L) none (default : HIx 1) (N := 327680) rfl) $$ [HF1 HO]
  · isplitl [HF1]; · iexact HF1
    isplitl [HO]; · iexact HO
    iapply (Transfers.MayWaits.elim (SemLoc.dma cc0_scratch9.sem)); iexact Hmw
  iintro ⟨HD, S9, HO⟩
  icases HD with ⟨⟨%f5', H5'⟩, HlO⟩
  sl_exec
  sl_step
  -- the worker's rows of the result, its scratch, its semaphores, its waits
  isplitl [HdE HlE HdO HlO]
  · iapply (rows_join d L (G d w xp))
    isplitl [HdE]; · iexact HdE
    isplitl [HlE]; · iexact HlE
    isplitl [HdO]; · iexact HdO
    iexact HlO
  isplitl [H0' H1' H2' H3' H4' H5' Hbufs]
  · isplitl [H0']; · iexists f0'; iexact H0'
    isplitl [H1']; · iexists f1'; iexact H1'
    isplitl [H2']; · iexists _; iexact H2'
    isplitl [H3']; · iexists g8; iexact H3'
    isplitl [H4']; · iexists f4'; iexact H4'
    isplitl [H5']; · iexists f5'; iexact H5'
    iexact Hbufs
  isplitl [S6 S7 S8 S9 S10 Hsems]
  · isplitl [S6]; · iexact S6
    isplitl [S7]; · iexact S7
    isplitl [S8]; · iexact S8
    isplitl [S9]; · iexact S9
    isplitl [S10]; · iexact S10
    iexact Hsems
  iexists _
  isplitr [HO]
  rotate_left
  · iexact HO
  · ipureintro
    exact waits_insert W _ _ (waits_insert W _ _ hW')

end Cert.KernelIdeal.KT

end
-- ==== Proof.KInvB.lean ====
/-
  What the vector subcore's scratch buffers hold, as predicates on their contents.

  The table scratch (32768 words = 512 rows of 64 lanes) is built row by row: `LutOK w n f` says its first `n` rows
  are rows `0 … n-1` of the table `Spec.lutRow w`.  An index scratch holds one 160-word block of the packed words:
  `XvOK xp b xv`.  A staging buffer (160 rows of 64 lanes) is filled row by row with the table rows the block's packed
  words name: `OutOK w xp b n f` says its first `n` rows are done.
-/
import proofs.«207339_g86234353369688_cont_sun_m_1071_33_alg».proof.Proof.KCommonB
import proofs.«207339_g86234353369688_cont_sun_m_1071_33_alg».proof.Proof.Spec

noncomputable section

namespace Cert.Kernel.KC

open Cert.Kernel Cert.Kernel.Gen
open Idealize.ShloMosaic Idealize.ShloMosaic.ValueIdx

variable {F : FTy → Type} [FloatOps F]

/-- The first `n` rows of the table scratch are the table's. -/
def LutOK (w : Cert.Spec.SW.Idx → F .f32) (n : Nat) (f : S32768.Idx → F .f32) : Prop :=
  ∀ y : S32768.Idx, (y 0).val < 64 * n → f y = Cert.Spec.lutRow w ((y 0).val / 64) ((y 0).val % 64)

/-- The index scratch holds block `b` (160 words) of the packed words. -/
def XvOK (xp : S100000.Idx → BitVec 32) (b : Nat) (xv : S160.Idx → BitVec 32) : Prop :=
  ∀ r : S160.Idx, ∃ n : S100000.Idx, (n 0).val = 160 * b + (r 0).val ∧ xv r = xp n

/-- The first `n` rows of a staging buffer are the table rows named by block `b`'s packed words. -/
def OutOK (w : Cert.Spec.SW.Idx → F .f32) (xp : S100000.Idx → BitVec 32) (b n : Nat) (f : S160x64.Idx → F .f32) : Prop :=
  ∀ y : S160x64.Idx, (y 0).val < n →
    ∃ m : S100000.Idx, (m 0).val = 160 * b + (y 0).val ∧ f y = Cert.Spec.lutRow w (xp m).toNat (y 1).val

end Cert.Kernel.KC

end
-- ==== Proof.KCondsB.lean ====
/-
  Closed forms of the ring loop's conditions and of the two offset chains taken under them.

  A grid point `L` is worker `2 * (L 1) + (L 0)` of 32; it handles the blocks `wid + 32 * k` for `k < nblk`,
  where `nblk` is 20 for `wid ≤ 16` and 19 otherwise.  Trip `t` of the ring loop handles the blocks
  `k = 2 * t` and `k = 2 * t + 1`; its conditions compare `k`, `k + 1`, `k + 2`, `k + 3` with `nblk` and
  `k` with 2.  Each statement is over the 32 grid points and the 10 trips, and is decided by evaluation.
-/
import proofs.«207339_g86234353369688_cont_sun_m_1071_33_alg».proof.Proof.Gen.Kernel

set_option Elab.async false

namespace Cert.Kernel.KConds

open Idealize.ShloMosaic Idealize.SL.Sem

theorem trips9 : k0_t9_loop.trips = 10 := by decide +kernel
theorem trips10 : k0_t10_loop.trips = 10 := by decide +kernel
theorem trips11 : k0_t11_loop.trips = 10 := by decide +kernel
theorem trips1 : k0_t1_loop.trips = 2 := by decide +kernel
theorem trips2 : k0_t2_loop.trips = 4 := by decide +kernel
theorem trips3 : k0_t3_loop.trips = 8 := by decide +kernel
theorem trips4 : k0_t4_loop.trips = 16 := by decide +kernel
theorem trips5 : k0_t5_loop.trips = 32 := by decide +kernel
theorem trips6 : k0_t6_loop.trips = 64 := by decide +kernel
theorem trips7 : k0_t7_loop.trips = 128 := by decide +kernel
theorem trips8 : k0_t8_loop.trips = 256 := by decide +kernel

/-- Block `2 * t` is always one of the worker's. -/
theorem cond1_true : ∀ (L : grid0.Coords) (t : Fin k0_t9_loop.trips), k0_cond1 L t = 1#1 := by
  decide +kernel

/-- `2 * t ≥ 2`. -/
theorem cond2_iff : ∀ (t : Fin k0_t9_loop.trips), k0_cond2 t = 1#1 ↔ 1 ≤ t.val := by
  decide +kernel

/-- `2 * t + 2 < nblk`. -/
theorem cond3_iff : ∀ (L : grid0.Coords) (t : Fin k0_t9_loop.trips), k0_cond3 L t = 1#1 ↔ t.val ≤ 8 := by
  decide +kernel

/-- `2 * t + 1 < nblk`. -/
theorem cond4_iff : ∀ (L : grid0.Coords) (t : Fin k0_t9_loop.trips),
    k0_cond4 L t = 1#1 ↔ (t.val ≤ 8 ∨ 2 * (L 1).val + (L 0).val ≤ 16) := by
  decide +kernel

/-- `2 * t + 1 ≥ 2`. -/
theorem cond5_iff : ∀ (t : Fin k0_t9_loop.trips), k0_cond5 t = 1#1 ↔ 1 ≤ t.val := by
  decide +kernel

/-- `2 * t + 3 < nblk`. -/
theorem cond6_iff : ∀ (L : grid0.Coords) (t : Fin k0_t9_loop.trips),
    k0_cond6 L t = 1#1 ↔ (t.val ≤ 7 ∨ (t.val = 8 ∧ 2 * (L 1).val + (L 0).val ≤ 16)) := by
  decide +kernel

/-- The rows written back for block `2 * t - 2`: `160 * (wid + 32 * (2 * t - 2))`. -/
theorem off21_eq : ∀ (L : grid0.Coords) (t : Fin k0_t9_loop.trips), 1 ≤ t.val →
    k0_off21 L t = ![320 * (L 1).val + 160 * (L 0).val + 10240 * t.val - 10240, 0] := by
  decide +kernel

/-- The rows written back for block `2 * t - 1`: `160 * (wid + 32 * (2 * t - 1))`. -/
theorem off106_eq : ∀ (L : grid0.Coords) (t : Fin k0_t9_loop.trips), 1 ≤ t.val →
    k0_off106 L t = ![320 * (L 1).val + 160 * (L 0).val + 10240 * t.val - 5120, 0] := by
  decide +kernel

end Cert.Kernel.KConds
-- ==== Proof.KTile1B.lean ====
/-
  The ring of transfers one vector subcore runs, as an invariant.

  Worker `n = wid L` handles the 160-row blocks `n + 32 k` of the result, `k < 20` (or `< 19` when `n > 16`).
  It runs them two at a time: ring step `s` (`s < 10`) handles the EVEN-numbered block `n + 64 s` through the index
  scratch 0 and the staging buffer 0, and the ODD-numbered block `n + 64 s + 32` (there are `nOdd` of those) through
  scratch 1 and buffer 1.  Before step `s`: the packed words of both blocks are in flight into the index scratches,
  the staging buffers' copies of step `s - 1` are in flight into the result, the blocks of earlier steps have landed
  and hold the result's rows, the blocks from step `s` on are untouched.
-/
import proofs.«207339_g86234353369688_cont_sun_m_1071_33_alg».proof.Proof.KCommonB
import proofs.«207339_g86234353369688_cont_sun_m_1071_33_alg».proof.Proof.KInvB
import proofs.«207339_g86234353369688_cont_sun_m_1071_33_alg».proof.Proof.KCondsB

noncomputable section

namespace Cert.Kernel.KT

open Cert.Kernel Cert.Kernel.Gen Cert.Kernel.KC Cert.Kernel.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.Kernel.main_v15_scv : Memref Cert.Kernel.sig Kind.scVector Space.hbm Cert.Kernel.S100000 EltTy.i32)
local notation "wW" => (Memref.whole Cert.Kernel.main_v8_scv : Memref Cert.Kernel.sig Kind.scVector Space.hbm Cert.Kernel.S1152 EltTy.f32)
local notation "oW" => (Memref.whole Cert.Kernel.main_v16_scv : Memref Cert.Kernel.sig Kind.scVector Space.hbm Cert.Kernel.S100000x64 EltTy.f32)
local notation "b0" => (Memref.whole Cert.Kernel.cc0_scratch0 : Memref Cert.Kernel.sig Kind.scVector Space.vmem Cert.Kernel.S160 EltTy.i32)
local notation "b1" => (Memref.whole Cert.Kernel.cc0_scratch1 : Memref Cert.Kernel.sig Kind.scVector Space.vmem Cert.Kernel.S160 EltTy.i32)
local notation "b2" => (Memref.whole Cert.Kernel.cc0_scratch2 : Memref Cert.Kernel.sig Kind.scVector Space.vmem Cert.Kernel.S1152 EltTy.f32)
local notation "b3" => (Memref.whole Cert.Kernel.cc0_scratch3 : Memref Cert.Kernel.sig Kind.scVector Space.vmem Cert.Kernel.S32768 EltTy.f32)
local notation "b4" => (Memref.whole Cert.Kernel.cc0_scratch4 : Memref Cert.Kernel.sig Kind.scVector Space.vmem Cert.Kernel.S160x64 EltTy.f32)
local notation "b5" => (Memref.whole Cert.Kernel.cc0_scratch5 : Memref Cert.Kernel.sig Kind.scVector Space.vmem Cert.Kernel.S160x64 EltTy.f32)

variable [FloatOps F]
variable (d : Dev nD) (L : grid0.Coords)

/-- How many odd-numbered blocks the worker has. -/
def nOdd (L : grid0.Coords) : Nat := if wid L ≤ 16 then 10 else 9

theorem nOdd_le (L : grid0.Coords) : nOdd L ≤ 10 := by unfold nOdd; split <;> omega
theorem nOdd_ge (L : grid0.Coords) : 9 ≤ nOdd L := by unfold nOdd; split <;> omega
theorem wid_lt (L : grid0.Coords) : wid L < 32 := by
  unfold wid; have h0 : (L 0).val < 2 := (L 0).isLt; have h1 : (L 1).val < 16 := (L 1).isLt; omega

/-- The block number of ring step `s`: the even-numbered one, the odd-numbered one. -/
abbrev bE (L : grid0.Coords) (s : Nat) : Nat := wid L + 64 * s
abbrev bO (L : grid0.Coords) (s : Nat) : Nat := wid L + 64 * s + 32

variable (q : PosShare TreeShare) (xp : Buf (Elt F) (pLoc d)) (w : Buf (Elt F) (wLoc d)) (o0 : Buf (Elt F) (oLoc d))
variable (O : CellTallies nD τ sig (HIx 1)) (W : Waits sig (HIx 1)) (lut : S32768.Idx → F .f32)

/-- The rows the kernel must leave in the result. -/
abbrev G (d : Dev nD) (w : Buf (Elt F) (wLoc d)) (xp : Buf (Elt F) (pLoc d)) : Buf (Elt F) (oLoc d) := Cert.Spec.kerOut (F := F) w xp

/-- What a landing copy delivers: the index scratch at a block of the packed words; the staging buffer back and the
    result's block at the result's rows. -/
abbrev DX0 (s : Nat) : sProp 𝕄 := iprop(∃ xv, ((b0).view.loc (thr d L) ↦{fullShare} xv) ∗ ⌜KC.XvOK xp (bE L s) xv⌝)
abbrev DX1 (s : Nat) : sProp 𝕄 := iprop(∃ xv, ((b1).view.loc (thr d L) ↦{fullShare} xv) ∗ ⌜KC.XvOK xp (bO L s) xv⌝)
abbrev DO0 (s : Nat) : sProp 𝕄 := iprop((∃ f, (b4).view.loc (thr d L) ↦{fullShare} f) ∗ (oLoc d ↦[blkSet (bE L s)]{fullShare} G d w xp))
abbrev DO1 (s : Nat) : sProp 𝕄 := iprop((∃ f, (b5).view.loc (thr d L) ↦{fullShare} f) ∗ (oLoc d ↦[blkSet (bO L s)]{fullShare} G d w xp))

abbrev FX0 (s : Nat) : sProp 𝕄 := Transfers.Flight countersEmb (thr d L) (SemLoc.dma cc0_scratch6.sem) (default : HIx 1) 5120 (DX0 d L xp s)
abbrev FX1 (s : Nat) : sProp 𝕄 := Transfers.Flight countersEmb (thr d L) (SemLoc.dma cc0_scratch7.sem) (default : HIx 1) 5120 (DX1 d L xp s)
abbrev FO0 (s : Nat) : sProp 𝕄 := Transfers.Flight countersEmb (thr d L) (SemLoc.dma cc0_scratch8.sem) (default : HIx 1) 327680 (DO0 d L xp w s)
abbrev FO1 (s : Nat) : sProp 𝕄 := Transfers.Flight countersEmb (thr d L) (SemLoc.dma cc0_scratch9.sem) (default : HIx 1) 327680 (DO1 d L xp w s)

/-- The four semaphores before ring step `t`: a copy in flight, or the counter at zero beside the idle buffer. -/
def SX0 (t : Nat) : sProp 𝕄 :=
  if t < 10 then FX0 d L xp t else iprop(semVal (thr d L, SemLoc.dma cc0_scratch6.sem) 0 ∗ ∃ f, (b0).view.loc (thr d L) ↦{fullShare} f)
def SX1 (t : Nat) : sProp 𝕄 :=
  if t < nOdd L then FX1 d L xp t else iprop(semVal (thr d L, SemLoc.dma cc0_scratch7.sem) 0 ∗ ∃ f, (b1).view.loc (thr d L) ↦{fullShare} f)
def SO0 (t : Nat) : sProp 𝕄 :=
  if t = 0 then iprop(semVal (thr d L, SemLoc.dma cc0_scratch8.sem) 0 ∗ ∃ f, (b4).view.loc (thr d L) ↦{fullShare} f) else FO0 d L xp w (t - 1)
def SO1 (t : Nat) : sProp 𝕄 :=
  if t = 0 then iprop(semVal (thr d L, SemLoc.dma cc0_scratch9.sem) 0 ∗ ∃ f, (b5).view.loc (thr d L) ↦{fullShare} f) else FO1 d L xp w (min t (nOdd L) - 1)

/-- The ring's invariant before step `t`. The two families of read shares of the packed words are the ones the
    later steps' copies will lend. -/
def Iring (qa qb : PosShare TreeShare) (t : Nat) (_ : BitVec 32) : sProp 𝕄 :=
  iprop(Transfers.MayWaits (thr d L) (none : HIx 1) O
    ∗ ((b3).view.loc (thr d L) ↦{fullShare} lut)
    ∗ SX0 d L xp t ∗ SX1 d L xp t ∗ SO0 d L xp w t ∗ SO1 d L xp w t
    ∗ (bigSep (Finset.Ico t 10) fun s => oLoc d ↦[blkSet (bE L s)]{fullShare} o0)
    ∗ (bigSep (Finset.Ico t (nOdd L)) fun s => oLoc d ↦[blkSet (bO L s)]{fullShare} o0)
    ∗ (bigSep (Finset.range (t - 1)) fun s => oLoc d ↦[blkSet (bE L s)]{fullShare} G d w xp)
    ∗ (bigSep (Finset.range (min t (nOdd L) - 1)) fun s => oLoc d ↦[blkSet (bO L s)]{fullShare} G d w xp)
    ∗ (bigSep (Finset.Ico (t + 1) 10) fun s => pLoc d ↦{Transfers.shareTokN qa s} xp)
    ∗ (bigSep (Finset.Ico (t + 1) (nOdd L)) fun s => pLoc d ↦{Transfers.shareTokN qb s} xp)
    ∗ ∃ W', ⌜∀ p ∈ W', p ∈ W ∨ p.2 = none⌝ ∗ owes (thr d L) O W')

/-! ## Intervals of steps -/

omit [FloatOps F] in
theorem Ico_pop {a b : Nat} (h : a < b) (Φ : Nat → sProp 𝕄) :
    bigSep (Finset.Ico a b) Φ = iprop(Φ a ∗ bigSep (Finset.Ico (a + 1) b) Φ) := by
  have e : Finset.Ico a b = insert a (Finset.Ico (a + 1) b) := by
    ext x; simp only [Finset.mem_Ico, Finset.mem_insert]; omega
  rw [e, SparseCore.bigSep_insert' (by simp)]
omit [FloatOps F] in
theorem range_push (n : Nat) (Φ : Nat → sProp 𝕄) :
    bigSep (Finset.range (n + 1)) Φ = iprop(Φ n ∗ bigSep (Finset.range n) Φ) := by
  rw [Finset.range_add_one, SparseCore.bigSep_insert' (by simp)]

/-! ## The blocks of the result, as the program slices them -/

omit [FloatOps F] in
/-- A 160-row slice of the result at row `160 b` is block `b`. -/
theorem set_oSlice (off : Fin 2 → Nat) (h : ∀ a, off a + S160x64.size a ≤ S100000x64.size a) (b : Nat) (hoff : off = ![160 * b, 0]) :
    ((oW).slice (Rect.unit (s := S100000x64) off S160x64.size h) (fun _ => rfl)).view.set = blkSet b := by
  subst hoff
  show ((View.whole (main_v16_scv : Ref sig .scVector)).slice (Rect.unit (s := S100000x64) ![160 * b, 0] S160x64.size h)).set = blkSet b
  rw [View.set_slice_whole]
  ext i
  rw [Rect.mem_set_unit]
  simp only [blkSet, Finset.mem_filter, Finset.mem_univ, true_and]
  show (∀ a : Fin 2, (![160 * b, 0] : Fin 2 → Nat) a ≤ (i a).val ∧ (i a).val < (![160 * b, 0] : Fin 2 → Nat) a + (![160, 64] : Fin 2 → Nat) a) ↔ (i 0).val / 160 = b
  rw [Fin.forall_fin_two]
  show (160 * b ≤ (i 0).val ∧ (i 0).val < 160 * b + 160) ∧ (0 ≤ (i 1).val ∧ (i 1).val < 0 + 64) ↔ (i 0).val / 160 = b
  have h1 : (i 1).val < 64 := (i 1).isLt
  omega

end Cert.Kernel.KT

end
-- ==== Proof.KTile0B.lean ====
/-
  What one vector subcore holds when its task starts, taken apart: its five semaphores at zero, its six scratch
  buffers, its rows of the result block by block, and the read shares of the packed words its copies will lend.
-/
import proofs.«207339_g86234353369688_cont_sun_m_1071_33_alg».proof.Proof.KTile1B

noncomputable section

namespace Cert.Kernel.KT

open Cert.Kernel Cert.Kernel.Gen Cert.Kernel.KC Cert.Kernel.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.Kernel.main_v15_scv : Memref Cert.Kernel.sig Kind.scVector Space.hbm Cert.Kernel.S100000 EltTy.i32)
local notation "wW" => (Memref.whole Cert.Kernel.main_v8_scv : Memref Cert.Kernel.sig Kind.scVector Space.hbm Cert.Kernel.S1152 EltTy.f32)
local notation "oW" => (Memref.whole Cert.Kernel.main_v16_scv : Memref Cert.Kernel.sig Kind.scVector Space.hbm Cert.Kernel.S100000x64 EltTy.f32)
local notation "b0" => (Memref.whole Cert.Kernel.cc0_scratch0 : Memref Cert.Kernel.sig Kind.scVector Space.vmem Cert.Kernel.S160 EltTy.i32)
local notation "b1" => (Memref.whole Cert.Kernel.cc0_scratch1 : Memref Cert.Kernel.sig Kind.scVector Space.vmem Cert.Kernel.S160 EltTy.i32)
local notation "b2" => (Memref.whole Cert.Kernel.cc0_scratch2 : Memref Cert.Kernel.sig Kind.scVector Space.vmem Cert.Kernel.S1152 EltTy.f32)
local notation "b3" => (Memref.whole Cert.Kernel.cc0_scratch3 : Memref Cert.Kernel.sig Kind.scVector Space.vmem Cert.Kernel.S32768 EltTy.f32)
local notation "b4" => (Memref.whole Cert.Kernel.cc0_scratch4 : Memref Cert.Kernel.sig Kind.scVector Space.vmem Cert.Kernel.S160x64 EltTy.f32)
local notation "b5" => (Memref.whole Cert.Kernel.cc0_scratch5 : Memref Cert.Kernel.sig Kind.scVector Space.vmem Cert.Kernel.S160x64 EltTy.f32)

variable [FloatOps F]
variable (d : Dev nD) (L : grid0.Coords)

/-! ## The semaphores and the scratch buffers -/

/-- The subcore's own semaphore cells other than the five the kernel names. -/
def restCells (d : Dev nD) (L : grid0.Coords) : Finset (GSem nD τ sig) :=
  ((((((ownCells (thr d L)).erase ((thr d L, SemLoc.dma cc0_scratch6.sem) : GSem nD τ sig)).erase ((thr d L, SemLoc.dma cc0_scratch7.sem) : GSem nD τ sig)).erase ((thr d L, SemLoc.dma cc0_scratch8.sem) : GSem nD τ sig)).erase ((thr d L, SemLoc.dma cc0_scratch9.sem) : GSem nD τ sig)).erase ((thr d L, SemLoc.dma cc0_scoped0.sem) : GSem nD τ sig))

/-- The subcore's own buffers other than its six scratch buffers. -/
def restRefs (L : grid0.Coords) : Finset (DevRef τ sig) :=
  (((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5))

omit [FloatOps F] in
/-- The subcore's semaphores at zero: the five the kernel names, and the rest. -/
theorem ownSems0_tile :
    (ownSems0 (thr d L) : sProp 𝕄)
      = iprop(semVal (thr d L, SemLoc.dma cc0_scratch6.sem) 0 ∗ semVal (thr d L, SemLoc.dma cc0_scratch7.sem) 0
          ∗ semVal (thr d L, SemLoc.dma cc0_scratch8.sem) 0 ∗ semVal (thr d L, SemLoc.dma cc0_scratch9.sem) 0
          ∗ semVal (thr d L, SemLoc.dma cc0_scoped0.sem) 0 ∗ bigSep (restCells d L) fun g => semVal g 0) := by
  unfold SparseCore.Cfg.ownSems0 restCells
  rw [SparseCore.bigSep_erase' ((mem_ownCells (g := ((thr d L, SemLoc.dma cc0_scratch6.sem) : GSem nD τ sig))).mpr ⟨rfl, by
      show (SemLoc.dma cc0_scratch6.sem : SemLoc sig).isScoped .scVector = true; decide⟩),
    SparseCore.bigSep_erase' (Finset.mem_erase.mpr ⟨(fun e => absurd (congrArg Prod.snd e) (show (SemLoc.dma cc0_scratch7.sem : SemLoc sig) ≠ SemLoc.dma cc0_scratch6.sem by decide)), (mem_ownCells (g := ((thr d L, SemLoc.dma cc0_scratch7.sem) : GSem nD τ sig))).mpr ⟨rfl, by
      show (SemLoc.dma cc0_scratch7.sem : SemLoc sig).isScoped .scVector = true; decide⟩⟩),
    SparseCore.bigSep_erase' (Finset.mem_erase.mpr ⟨(fun e => absurd (congrArg Prod.snd e) (show (SemLoc.dma cc0_scratch8.sem : SemLoc sig) ≠ SemLoc.dma cc0_scratch7.sem by decide)), Finset.mem_erase.mpr ⟨(fun e => absurd (congrArg Prod.snd e) (show (SemLoc.dma cc0_scratch8.sem : SemLoc sig) ≠ SemLoc.dma cc0_scratch6.sem by decide)), (mem_ownCells (g := ((thr d L, SemLoc.dma cc0_scratch8.sem) : GSem nD τ sig))).mpr ⟨rfl, by
      show (SemLoc.dma cc0_scratch8.sem : SemLoc sig).isScoped .scVector = true; decide⟩⟩⟩),
    SparseCore.bigSep_erase' (Finset.mem_erase.mpr ⟨(fun e => absurd (congrArg Prod.snd e) (show (SemLoc.dma cc0_scratch9.sem : SemLoc sig) ≠ SemLoc.dma cc0_scratch8.sem by decide)), Finset.mem_erase.mpr ⟨(fun e => absurd (congrArg Prod.snd e) (show (SemLoc.dma cc0_scratch9.sem : SemLoc sig) ≠ SemLoc.dma cc0_scratch7.sem by decide)), Finset.mem_erase.mpr ⟨(fun e => absurd (congrArg Prod.snd e) (show (SemLoc.dma cc0_scratch9.sem : SemLoc sig) ≠ SemLoc.dma cc0_scratch6.sem by decide)), (mem_ownCells (g := ((thr d L, SemLoc.dma cc0_scratch9.sem) : GSem nD τ sig))).mpr ⟨rfl, by
      show (SemLoc.dma cc0_scratch9.sem : SemLoc sig).isScoped .scVector = true; decide⟩⟩⟩⟩),
    SparseCore.bigSep_erase' (Finset.mem_erase.mpr ⟨(fun e => absurd (congrArg Prod.snd e) (show (SemLoc.dma cc0_scoped0.sem : SemLoc sig) ≠ SemLoc.dma cc0_scratch9.sem by decide)), Finset.mem_erase.mpr ⟨(fun e => absurd (congrArg Prod.snd e) (show (SemLoc.dma cc0_scoped0.sem : SemLoc sig) ≠ SemLoc.dma cc0_scratch8.sem by decide)), Finset.mem_erase.mpr ⟨(fun e => absurd (congrArg Prod.snd e) (show (SemLoc.dma cc0_scoped0.sem : SemLoc sig) ≠ SemLoc.dma cc0_scratch7.sem by decide)), Finset.mem_erase.mpr ⟨(fun e => absurd (congrArg Prod.snd e) (show (SemLoc.dma cc0_scoped0.sem : SemLoc sig) ≠ SemLoc.dma cc0_scratch6.sem by decide)), (mem_ownCells (g := ((thr d L, SemLoc.dma cc0_scoped0.sem) : GSem nD τ sig))).mpr ⟨rfl, by
      show (SemLoc.dma cc0_scoped0.sem : SemLoc sig).isScoped .scVector = true; decide⟩⟩⟩⟩⟩)]

omit [FloatOps F] in
/-- The subcore's buffers: its six scratch buffers, each at some contents, and the rest. -/
theorem ownBufs_tile :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ bigSep (restRefs L) fun b => iprop(∃ f, ((d, b) : Loc nD τ sig) ↦{fullShare} f)) := by
  unfold SparseCore.Cfg.ownBufs restRefs
  refine (SparseCore.bigSep_erase' (SparseCore.Cfg.mem_ownRefs_of_owner (p := Proc.scVector (cV L) (jV L)) (b := ((Proc.scVector (cV L) (jV L)).devRef cc0_scratch0)) rfl)).trans ?_
  rw [SparseCore.bigSep_erase' (Finset.mem_erase.mpr ⟨(fun e => absurd (Proc.devRef_injective _ e) (show (cc0_scratch1 : Ref sig .scVector) ≠ cc0_scratch0 by decide)), SparseCore.Cfg.mem_ownRefs_of_owner (p := Proc.scVector (cV L) (jV L)) (b := ((Proc.scVector (cV L) (jV L)).devRef cc0_scratch1)) rfl⟩),
    SparseCore.bigSep_erase' (Finset.mem_erase.mpr ⟨(fun e => absurd (Proc.devRef_injective _ e) (show (cc0_scratch2 : Ref sig .scVector) ≠ cc0_scratch1 by decide)), Finset.mem_erase.mpr ⟨(fun e => absurd (Proc.devRef_injective _ e) (show (cc0_scratch2 : Ref sig .scVector) ≠ cc0_scratch0 by decide)), SparseCore.Cfg.mem_ownRefs_of_owner (p := Proc.scVector (cV L) (jV L)) (b := ((Proc.scVector (cV L) (jV L)).devRef cc0_scratch2)) rfl⟩⟩),
    SparseCore.bigSep_erase' (Finset.mem_erase.mpr ⟨(fun e => absurd (Proc.devRef_injective _ e) (show (cc0_scratch3 : Ref sig .scVector) ≠ cc0_scratch2 by decide)), Finset.mem_erase.mpr ⟨(fun e => absurd (Proc.devRef_injective _ e) (show (cc0_scratch3 : Ref sig .scVector) ≠ cc0_scratch1 by decide)), Finset.mem_erase.mpr ⟨(fun e => absurd (Proc.devRef_injective _ e) (show (cc0_scratch3 : Ref sig .scVector) ≠ cc0_scratch0 by decide)), SparseCore.Cfg.mem_ownRefs_of_owner (p := Proc.scVector (cV L) (jV L)) (b := ((Proc.scVector (cV L) (jV L)).devRef cc0_scratch3)) rfl⟩⟩⟩),
    SparseCore.bigSep_erase' (Finset.mem_erase.mpr ⟨(fun e => absurd (Proc.devRef_injective _ e) (show (cc0_scratch4 : Ref sig .scVector) ≠ cc0_scratch3 by decide)), Finset.mem_erase.mpr ⟨(fun e => absurd (Proc.devRef_injective _ e) (show (cc0_scratch4 : Ref sig .scVector) ≠ cc0_scratch2 by decide)), Finset.mem_erase.mpr ⟨(fun e => absurd (Proc.devRef_injective _ e) (show (cc0_scratch4 : Ref sig .scVector) ≠ cc0_scratch1 by decide)), Finset.mem_erase.mpr ⟨(fun e => absurd (Proc.devRef_injective _ e) (show (cc0_scratch4 : Ref sig .scVector) ≠ cc0_scratch0 by decide)), SparseCore.Cfg.mem_ownRefs_of_owner (p := Proc.scVector (cV L) (jV L)) (b := ((Proc.scVector (cV L) (jV L)).devRef cc0_scratch4)) rfl⟩⟩⟩⟩),
    SparseCore.bigSep_erase' (Finset.mem_erase.mpr ⟨(fun e => absurd (Proc.devRef_injective _ e) (show (cc0_scratch5 : Ref sig .scVector) ≠ cc0_scratch4 by decide)), Finset.mem_erase.mpr ⟨(fun e => absurd (Proc.devRef_injective _ e) (show (cc0_scratch5 : Ref sig .scVector) ≠ cc0_scratch3 by decide)), Finset.mem_erase.mpr ⟨(fun e => absurd (Proc.devRef_injective _ e) (show (cc0_scratch5 : Ref sig .scVector) ≠ cc0_scratch2 by decide)), Finset.mem_erase.mpr ⟨(fun e => absurd (Proc.devRef_injective _ e) (show (cc0_scratch5 : Ref sig .scVector) ≠ cc0_scratch1 by decide)), Finset.mem_erase.mpr ⟨(fun e => absurd (Proc.devRef_injective _ e) (show (cc0_scratch5 : Ref sig .scVector) ≠ cc0_scratch0 by decide)), SparseCore.Cfg.mem_ownRefs_of_owner (p := Proc.scVector (cV L) (jV L)) (b := ((Proc.scVector (cV L) (jV L)).devRef cc0_scratch5)) rfl⟩⟩⟩⟩⟩)]

/-! ## The subcore's rows of the result, block by block -/

/-- The numbers of the 160-row blocks worker `wid L` handles: `wid L + 32 k` below 625, the even `k` and the odd `k`. -/
def blocks (L : grid0.Coords) : Finset Nat :=
  (Finset.Ico 0 10).image (bE L) ∪ (Finset.Ico 0 (nOdd L)).image (bO L)

omit [FloatOps F] in
theorem blk_disjoint (B : Finset Nat) : ∀ b ∈ B, ∀ b' ∈ B, b ≠ b' → Disjoint (blkSet b) (blkSet b') := by
  intro b _ b' _ h
  unfold blkSet
  refine Finset.disjoint_filter.mpr fun x _ h1 h2 => h ?_
  omega

omit [FloatOps F] in
/-- The result has 625 blocks; worker `n` has the blocks `n + 32 k`: those are its even and its odd ring steps' blocks. -/
theorem blocks_cover : (blocks L).biUnion blkSet = rowsOf (wid L) := by
  ext x
  have hx : (x 0).val < 100000 := (x 0).isLt
  have hn := wid_lt L
  have hno : (wid L ≤ 16 ∧ nOdd L = 10) ∨ (16 < wid L ∧ nOdd L = 9) := by unfold nOdd; split <;> omega
  simp only [blocks, bE, bO, Finset.mem_biUnion, Finset.mem_union, Finset.mem_image, Finset.mem_Ico, blkSet, rowsOf,
    Finset.mem_filter, Finset.mem_univ, true_and]
  generalize (x 0).val = v at *
  generalize nOdd L = m at *
  generalize wid L = n at *
  constructor
  · rintro ⟨b, (⟨s, hs, rfl⟩ | ⟨s, hs, rfl⟩), hb⟩ <;> omega
  · intro h
    by_cases hp : (v / 160 / 32) % 2 = 0
    · exact ⟨v / 160, Or.inl ⟨v / 160 / 64, by omega, by omega⟩, rfl⟩
    · exact ⟨v / 160, Or.inr ⟨v / 160 / 64, by omega, by omega⟩, rfl⟩

omit [FloatOps F] in
/-- The subcore's rows of the result are its ten even-numbered and its nine or ten odd-numbered blocks. -/
theorem rows_split (q : PosShare TreeShare) (f : Buf (Elt F) (oLoc d)) :
    (oLoc d ↦[rowsOf (wid L)]{q} f : sProp 𝕄)
      = iprop((bigSep (Finset.Ico 0 10) fun s => oLoc d ↦[blkSet (bE L s)]{q} f)
          ∗ (bigSep (Finset.Ico 0 (nOdd L)) fun s => oLoc d ↦[blkSet (bO L s)]{q} f)) := by
  rw [← blocks_cover L, pointsTo_biUnion (blocks L) (ℓ := oLoc d) blkSet (blk_disjoint _)]
  unfold blocks
  rw [SparseCore.bigSep_union' ?_, SparseCore.bigSep_image_of_injOn ?_, SparseCore.bigSep_image_of_injOn ?_]
  · intro a _ b _ h
    simp only [bO] at h
    omega
  · intro a _ b _ h
    simp only [bE] at h
    omega
  · rw [Finset.disjoint_left]
    intro b hb hb'
    simp only [Finset.mem_image, Finset.mem_Ico, bE, bO] at hb hb'
    obtain ⟨s, _, rfl⟩ := hb
    obtain ⟨s', _, h⟩ := hb'
    omega

/-! ## The read shares of the packed words -/

omit [FloatOps F] in
/-- A read share yields `n` smaller ones, numbered from 0: the first, and those from 1 on. -/
theorem toks_pop (q : PosShare TreeShare) (xp : Buf (Elt F) (pLoc d)) (n : Nat) (hn : 0 < n) :
    (pLoc d ↦{q} xp : sProp 𝕄)
      ⊢ iprop((pLoc d ↦{Transfers.shareTokN q 0} xp)
          ∗ bigSep (Finset.Ico 1 n) fun s => pLoc d ↦{Transfers.shareTokN q s} xp) := by
  refine (Transfers.pointsTo_toks_range q n).1.trans ?_
  rw [Finset.range_eq_Ico, Ico_pop hn]
  iintro ⟨-, H⟩
  iexact H

omit [FloatOps F] in
/-- A read share of the packed words yields one family of shares for the even ring steps and one for the odd:
    step 0's two shares, and the later steps' shares. -/
theorem toks_split (q : PosShare TreeShare) (xp : Buf (Elt F) (pLoc d)) :
    (pLoc d ↦{q} xp : sProp 𝕄)
      ⊢ iprop((pLoc d ↦{Transfers.shareTokN (Transfers.shareTokN q 0) 0} xp)
          ∗ (pLoc d ↦{Transfers.shareTokN (Transfers.shareTokN q 1) 0} xp)
          ∗ (bigSep (Finset.Ico 1 10) fun s => pLoc d ↦{Transfers.shareTokN (Transfers.shareTokN q 0) s} xp)
          ∗ (bigSep (Finset.Ico 1 (nOdd L)) fun s => pLoc d ↦{Transfers.shareTokN (Transfers.shareTokN q 1) s} xp)) := by
  have h2 : (pLoc d ↦{q} xp : sProp 𝕄)
      ⊢ iprop((pLoc d ↦{Transfers.shareTokN q 0} xp) ∗ (pLoc d ↦{Transfers.shareTokN q 1} xp)) := by
    refine (Transfers.pointsTo_toks_range q 2).1.trans ?_
    rw [show Finset.range 2 = Finset.range (1 + 1) from rfl, range_push 1,
      show Finset.range 1 = Finset.range (0 + 1) from rfl, range_push 0, Finset.range_zero, bigSep_empty]
    iintro ⟨-, H1, H0, -⟩
    isplitl [H0]
    · iexact H0
    iexact H1
  have hn : 0 < nOdd L := by have := nOdd_ge L; omega
  iintro H
  ihave H := h2 $$ H
  icases H with ⟨Ha, Hb⟩
  ihave Ha := (toks_pop d (Transfers.shareTokN q 0) xp 10 (by omega)) $$ Ha
  ihave Hb := (toks_pop d (Transfers.shareTokN q 1) xp (nOdd L) hn) $$ Hb
  icases Ha with ⟨Ha0, Has⟩
  icases Hb with ⟨Hb0, Hbs⟩
  isplitl [Ha0]
  · iexact Ha0
  isplitl [Hb0]
  · iexact Hb0
  isplitl [Has]
  · iexact Has
  iexact Hbs

end Cert.Kernel.KT

end
-- ==== Proof.KProB.lean ====
/-
  The table scratch's first two rows, as the kernel's prologue builds them: row 0 is the sum of the nine tables'
  rows 0, row 1 adds table 0's difference; sixteen lanes at a time.
-/
import proofs.«207339_g86234353369688_cont_sun_m_1071_33_alg».proof.Proof.KTile1B
import proofs.«207339_g86234353369688_cont_sun_m_1071_33_alg».proof.Proof.Algebra
import Idealize.ShloMosaic.Lib.WritesUnit
import Idealize.ShloMosaic.Lib.Pipeline.FrameBody

noncomputable section

namespace Cert.Kernel.KT

open Cert.Kernel Cert.Kernel.Gen Cert.Kernel.KC Cert.Kernel.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx
open Cert.Spec

variable {F : FTy → Type}

local notation "𝕄" => MT nD τ sig (HIx 1) (Elt F) ℕ UU ℕ

local notation "pW" => (Memref.whole Cert.Kernel.main_v15_scv : Memref Cert.Kernel.sig Kind.scVector Space.hbm Cert.Kernel.S100000 EltTy.i32)
local notation "wW" => (Memref.whole Cert.Kernel.main_v8_scv : Memref Cert.Kernel.sig Kind.scVector Space.hbm Cert.Kernel.S1152 EltTy.f32)
local notation "oW" => (Memref.whole Cert.Kernel.main_v16_scv : Memref Cert.Kernel.sig Kind.scVector Space.hbm Cert.Kernel.S100000x64 EltTy.f32)
local notation "b0" => (Memref.whole Cert.Kernel.cc0_scratch0 : Memref Cert.Kernel.sig Kind.scVector Space.vmem Cert.Kernel.S160 EltTy.i32)
local notation "b1" => (Memref.whole Cert.Kernel.cc0_scratch1 : Memref Cert.Kernel.sig Kind.scVector Space.vmem Cert.Kernel.S160 EltTy.i32)
local notation "b2" => (Memref.whole Cert.Kernel.cc0_scratch2 : Memref Cert.Kernel.sig Kind.scVector Space.vmem Cert.Kernel.S1152 EltTy.f32)
local notation "b3" => (Memref.whole Cert.Kernel.cc0_scratch3 : Memref Cert.Kernel.sig Kind.scVector Space.vmem Cert.Kernel.S32768 EltTy.f32)
local notation "b4" => (Memref.whole Cert.Kernel.cc0_scratch4 : Memref Cert.Kernel.sig Kind.scVector Space.vmem Cert.Kernel.S160x64 EltTy.f32)
local notation "b5" => (Memref.whole Cert.Kernel.cc0_scratch5 : Memref Cert.Kernel.sig Kind.scVector Space.vmem Cert.Kernel.S160x64 EltTy.f32)

variable [FloatOps F]
variable (d : Dev nD) (L : grid0.Coords)

/-! ## The flat table in its scratch -/

/-- Sixteen lanes of the flat table's scratch, once the table has been copied in, are the flat table's entries. -/
theorem b2_read (f2 : Buf (Elt F) ((thr d L).loc cc0_scratch2)) (w : Buf (Elt F) (wLoc d)) (c : Nat)
    (h : ∀ a, (![c] : Fin 1 → Nat) a + S16.size a ≤ S1152.size a) (hc : c + 16 ≤ 1152) (x : S16.Idx) :
    View.readAt (Elt F) (b2).view (Rect.unit (s := S1152) ![c] S16.size h).toLoadRect
        (View.write (Elt F) (b2).view f2 (ReadAs.same.apply (View.read (Elt F) (wW).view w)) Finset.univ) x
      = Spec.wAt w (c + (x 0).val) := by
  have hx : (x 0).val < 16 := (x 0).isLt
  have hk : c + (x 0).val < 1152 := by omega
  rw [View.readAt_apply]
  unfold Spec.wAt
  rw [dif_pos hk]
  simp only [Memref.view_whole, View.write_whole_univ, View.read_whole, ReadAs.apply_same]
  show w ((Rect.unit (s := S1152) ![c] S16.size h).toLoadRect.idx x) = w (ix1 ⟨c + (x 0).val, hk⟩)
  refine congrArg w (funext fun a => Fin.ext ?_)
  match a with
  | ⟨0, _⟩ =>
    show c + 1 * (x 0).val = c + (x 0).val
    omega

/-! ## The table scratch, a run of sixteen-lane stores at a time -/

/-- After the stores `Ls`, whatever was there before, the first `N` entries of the table scratch are the table's. -/
def ListOK (w : Cert.Spec.SW.Idx → F .f32) (N : Nat) (Ls : List (View.Piece (Elt F) S32768 .f32)) : Prop :=
  ∀ (f0 : (b3).view.ty.Contents (Elt F)) (y : S32768.Idx), (y 0).val < N →
    (b3).view.writes (Elt F) f0 Ls y = Spec.lutRow w ((y 0).val / 64) ((y 0).val % 64)

theorem ListOK.nil (w : Cert.Spec.SW.Idx → F .f32) : ListOK (F := F) w 0 [] :=
  fun _ y h => absurd h (Nat.not_lt_zero _)

/-- One more store of sixteen lanes, right after the entries that are done. -/
theorem ListOK.push {w : Cert.Spec.SW.Idx → F .f32} {N : Nat} {Ls : List (View.Piece (Elt F) S32768 .f32)}
    (hL : ListOK w N Ls) (inb : ∀ a, (![N] : Fin 1 → Nat) a + S16.size a ≤ S32768.size a)
    (pay : (Rect.unit (s := S32768) ![N] S16.size inb).shape.Idx → F .f32)
    (hp : ∀ x : S16.Idx, pay x = Spec.lutRow w ((N + (x 0).val) / 64) ((N + (x 0).val) % 64)) :
    ListOK w (N + 16) ((⟨Rect.unit (s := S32768) ![N] S16.size inb, pay⟩ : View.Piece (Elt F) S32768 .f32) :: Ls) := by
  intro f0 y hy
  by_cases hlt : (y 0).val < N
  · refine Eq.trans ?_ (hL f0 y hlt)
    exact View.read_writes_cons_unit_of_not_mem (b3).view f0 inb pay Ls y rfl 0 (Or.inl hlt)
  · have hx : (y 0).val - N < 16 := by omega
    refine Eq.trans (View.read_writes_cons_unit_of_mem (b3).view f0 inb pay Ls y (ix1 ⟨(y 0).val - N, hx⟩) rfl
      (fun a => ?_)) ?_
    · match a with
      | ⟨0, _⟩ =>
        show (y 0).val = N + ((y 0).val - N)
        omega
    · rw [hp]
      show Spec.lutRow w ((N + ((y 0).val - N)) / 64) ((N + ((y 0).val - N)) % 64) = _
      rw [show N + ((y 0).val - N) = (y 0).val by omega]

/-- The rows that are done, as the ring's invariant states them. -/
theorem ListOK.lutOK {w : Cert.Spec.SW.Idx → F .f32} {n : Nat} {Ls : List (View.Piece (Elt F) S32768 .f32)}
    (hL : ListOK w (64 * n) Ls) (f0 : (b3).view.ty.Contents (Elt F)) :
    KC.LutOK w n ((b3).view.writes (Elt F) f0 Ls) :=
  fun y hy => hL f0 y hy

/-- A load of sixteen lanes among the entries that are done reads the table. -/
theorem ListOK.readCov {w : Cert.Spec.SW.Idx → F .f32} {N : Nat} {Ls : List (View.Piece (Elt F) S32768 .f32)}
    (hL : ListOK w N Ls) (c : Nat) (inb : ∀ a, (![c] : Fin 1 → Nat) a + S16.size a ≤ S32768.size a) (hc : c + 16 ≤ N)
    (x : S16.Idx) :
    (b3).view.readCov Ls (Rect.unit (s := S32768) ![c] S16.size inb).toLoadRect x
      = Spec.lutRow w ((c + (x 0).val) / 64) ((c + (x 0).val) % 64) := by
  have hx : (x 0).val < 16 := (x 0).isLt
  unfold View.readCov
  rw [View.readAt_apply]
  refine Eq.trans (hL _ _ ?_) ?_
  · show c + 1 * (x 0).val < N
    omega
  · show Spec.lutRow w ((c + 1 * (x 0).val) / 64) ((c + 1 * (x 0).val) % 64) = _
    rw [Nat.one_mul]

/-! ## The payloads -/

/-- Row 0, sixteen lanes from lane `c`: the nine tables' rows 0 added up, table 0 first. -/
theorem row0_val (w : Cert.Spec.SW.Idx → F .f32) (c : Nat) (hc : c + 16 ≤ 64)
    (v0 v1 v2 v3 v4 v5 v6 v7 v8 : S16.Idx → F .f32)
    (h0 : ∀ x, v0 x = Spec.wAt w (c + (x 0).val)) (h1 : ∀ x, v1 x = Spec.wAt w (c + 128 + (x 0).val))
    (h2 : ∀ x, v2 x = Spec.wAt w (c + 256 + (x 0).val)) (h3 : ∀ x, v3 x = Spec.wAt w (c + 384 + (x 0).val))
    (h4 : ∀ x, v4 x = Spec.wAt w (c + 512 + (x 0).val)) (h5 : ∀ x, v5 x = Spec.wAt w (c + 640 + (x 0).val))
    (h6 : ∀ x, v6 x = Spec.wAt w (c + 768 + (x 0).val)) (h7 : ∀ x, v7 x = Spec.wAt w (c + 896 + (x 0).val))
    (h8 : ∀ x, v8 x = Spec.wAt w (c + 1024 + (x 0).val)) (x : S16.Idx) :
    addf (addf (addf (addf (addf (addf (addf (addf v0 v1) v2) v3) v4) v5) v6) v7) v8 x
      = Spec.lutRow w ((c + (x 0).val) / 64) ((c + (x 0).val) % 64) := by
  have hx : (x 0).val < 16 := (x 0).isLt
  rw [show (c + (x 0).val) / 64 = 0 by omega, show (c + (x 0).val) % 64 = c + (x 0).val by omega, Cert.Algebra.lutRow_zero]
  show FloatOps.addf (FloatOps.addf (FloatOps.addf (FloatOps.addf (FloatOps.addf (FloatOps.addf (FloatOps.addf
    (FloatOps.addf (v0 x) (v1 x)) (v2 x)) (v3 x)) (v4 x)) (v5 x)) (v6 x)) (v7 x)) (v8 x) = _
  rw [h0, h1, h2, h3, h4, h5, h6, h7, h8]
  unfold Spec.base
  rw [show c + 128 + (x 0).val = 128 + (c + (x 0).val) by omega, show c + 256 + (x 0).val = 256 + (c + (x 0).val) by omega,
    show c + 384 + (x 0).val = 384 + (c + (x 0).val) by omega, show c + 512 + (x 0).val = 512 + (c + (x 0).val) by omega,
    show c + 640 + (x 0).val = 640 + (c + (x 0).val) by omega, show c + 768 + (x 0).val = 768 + (c + (x 0).val) by omega,
    show c + 896 + (x 0).val = 896 + (c + (x 0).val) by omega, show c + 1024 + (x 0).val = 1024 + (c + (x 0).val) by omega]

/-- Row 1, sixteen lanes from lane `c`: row 0 plus table 0's row 1 minus its row 0. -/
theorem row1_val (w : Cert.Spec.SW.Idx → F .f32) (c : Nat) (hc : c + 16 ≤ 64)
    (vhi vlo vprev : S16.Idx → F .f32)
    (hhi : ∀ x, vhi x = Spec.wAt w (c + 64 + (x 0).val)) (hlo : ∀ x, vlo x = Spec.wAt w (c + (x 0).val))
    (hprev : ∀ x, vprev x = Spec.lutRow w ((c + (x 0).val) / 64) ((c + (x 0).val) % 64)) (x : S16.Idx) :
    addf vprev (subf vhi vlo) x
      = Spec.lutRow w ((64 + c + (x 0).val) / 64) ((64 + c + (x 0).val) % 64) := by
  have hx : (x 0).val < 16 := (x 0).isLt
  show FloatOps.addf (vprev x) (FloatOps.subf (vhi x) (vlo x)) = _
  rw [hhi, hlo, hprev]
  rw [show (64 + c + (x 0).val) / 64 = 1 + 0 by omega, show (64 + c + (x 0).val) % 64 = c + (x 0).val by omega,
    show (c + (x 0).val) / 64 = 0 by omega, show (c + (x 0).val) % 64 = c + (x 0).val by omega,
    Cert.Algebra.lutRow_add_1 w 0 (c + (x 0).val) (by omega)]
  unfold Spec.dlt
  rw [show 0 * 128 + 64 + (c + (x 0).val) = c + 64 + (x 0).val by omega,
    show 0 * 128 + (c + (x 0).val) = c + (x 0).val by omega]

end Cert.Kernel.KT

end
-- ==== Proof.KLutLemmasB.lean ====
/-
  The table scratch, row by row: what a list of 16-lane stores leaves in it.

  The scratch holds 512 rows of 64 lanes.  A store of 16 lanes is a piece; pieces that hold the table's values and
  cover a row extend the rows already right by one.  One trip of a feature's loop stores the four pieces of row
  `h + g`, each being row `g`'s lanes (read below everything the trip has written) plus the feature's difference.
-/
import proofs.«207339_g86234353369688_cont_sun_m_1071_33_alg».proof.Proof.KInvB
import proofs.«207339_g86234353369688_cont_sun_m_1071_33_alg».proof.Proof.Algebra

noncomputable section

namespace Cert.Kernel.KLut

open Cert.Kernel Cert.Kernel.Gen Cert.Kernel.KC
open Idealize.ShloMosaic

variable {F : FTy → Type} [FloatOps F]

section Generic

open Cert.Spec

variable {sg : RefSig} {κ : Kind} {sp : Space}

/-- Pieces that each hold the table's values, and together cover the first `n` rows, leave the first `n` rows
    the table's, whatever the buffer held before. -/
theorem lutOK_of_pieces (w : Cert.Spec.SW.Idx → F .f32) (n : Nat) (v : View sg κ sp S32768 .f32)
    (f0 : v.ty.Contents (Elt F)) (pieces : List (View.Piece (Elt F) S32768 .f32))
    (hp : ∀ p ∈ pieces, ∀ x : p.1.shape.Idx,
      p.2 x = lutRow w ((p.1.emb x 0).val / 64) ((p.1.emb x 0).val % 64))
    (hc : ∀ y : S32768.Idx, (y 0).val < 64 * n → ∃ p ∈ pieces, y ∈ p.1.set) :
    KC.LutOK w n (v.read (Elt F) (v.writes (Elt F) f0 pieces)) := by
  intro y hy
  exact View.read_writes_apply_of_pieces v f0 (fun y => lutRow w ((y 0).val / 64) ((y 0).val % 64)) pieces hp y (hc y hy)

/-- One more row: over contents whose first `n` rows are the table's, pieces that each hold the table's values and
    together cover row `n` leave the first `n + 1` rows the table's. -/
theorem lutOK_step (w : Cert.Spec.SW.Idx → F .f32) (n : Nat) (v : View sg κ sp S32768 .f32)
    (f : v.ty.Contents (Elt F)) (pieces : List (View.Piece (Elt F) S32768 .f32))
    (hf : KC.LutOK w n (v.read (Elt F) f))
    (hp : ∀ p ∈ pieces, ∀ x : p.1.shape.Idx,
      p.2 x = lutRow w ((p.1.emb x 0).val / 64) ((p.1.emb x 0).val % 64))
    (hc : ∀ y : S32768.Idx, 64 * n ≤ (y 0).val → (y 0).val < 64 * (n + 1) → ∃ p ∈ pieces, y ∈ p.1.set) :
    KC.LutOK w (n + 1) (v.read (Elt F) (v.writes (Elt F) f pieces)) := by
  intro y hy
  by_cases hcov : ∃ p ∈ pieces, y ∈ p.1.set
  · exact View.read_writes_apply_of_pieces v f (fun y => lutRow w ((y 0).val / 64) ((y 0).val % 64)) pieces hp y hcov
  · have hn : ∀ p ∈ pieces, y ∉ p.1.set := fun p hp' hy' => hcov ⟨p, hp', hy'⟩
    rw [View.read_writes_apply_of_forall_not_mem v f y pieces hn]
    apply hf
    by_contra hlt
    exact hcov (hc y (by omega) hy)

/-- A load below every piece written so far reads the contents as they were. -/
theorem readAt_below (v : View sg κ sp S32768 .f32) (f : v.ty.Contents (Elt F))
    (Lw : List (View.Piece (Elt F) S32768 .f32)) (b : Nat)
    (hL : ∀ p ∈ Lw, ∀ y ∈ p.1.set, b ≤ (y 0).val)
    (a : Fin 1 → Nat) (ia : ∀ j, a j + S16.size j ≤ S32768.size j) (hab : a 0 + 16 ≤ b)
    (x : (Rect.unit (s := S32768) a S16.size ia).shape.Idx) :
    v.readAt (Elt F) (Rect.unit (s := S32768) a S16.size ia).toLoadRect (v.writes (Elt F) f Lw) x
      = v.read (Elt F) f ((Rect.unit (s := S32768) a S16.size ia).toLoadRect.idx x) := by
  rw [View.readAt_apply]
  apply View.read_writes_apply_of_forall_not_mem
  intro p hp hy
  have h1 := hL p hp _ hy
  have h2 : (((Rect.unit (s := S32768) a S16.size ia).toLoadRect.idx x) 0).val = a 0 + 1 * (x 0).val := rfl
  have h3 : (x 0).val < 16 := (x 0).isLt
  omega

end Generic

section Row

open Cert.Spec

variable {sg : RefSig} {κ : Kind} {sp : Space}

/-- One 16-lane piece of row `h + g`: row `g`'s lanes, read below everything written so far, plus feature `i`'s
    difference, is the table's row `h + g` on those lanes. -/
theorem piece_ok (w : Cert.Spec.SW.Idx → F .f32) (h g i c : Nat) (hc : c + 16 ≤ 64)
    (hadd : ∀ e, lutRow w (h + g) e = FloatOps.addf (lutRow w g e) (dlt w i e)) (hgh : g < h)
    (v : View sg κ sp S32768 .f32) (f : v.ty.Contents (Elt F)) (hf : KC.LutOK w (h + g) (v.read (Elt F) f))
    (Lw : List (View.Piece (Elt F) S32768 .f32)) (hL : ∀ p ∈ Lw, ∀ y ∈ p.1.set, 64 * (h + g) ≤ (y 0).val)
    (a o : Fin 1 → Nat) (ia : ∀ j, a j + S16.size j ≤ S32768.size j) (io : ∀ j, o j + S16.size j ≤ S32768.size j)
    (ha : a 0 = 64 * g + c) (ho : o 0 = 64 * (h + g) + c)
    (D : FVec F S16 .f32) (hD : ∀ x : S16.Idx, D x = dlt w i (c + (x 0).val))
    (x : (Rect.unit (s := S32768) o S16.size io).shape.Idx) :
    Idealize.ShloMosaic.addf (s := S16) (φ := .f32)
        (v.readAt (Elt F) (Rect.unit (s := S32768) a S16.size ia).toLoadRect (v.writes (Elt F) f Lw)) D x
      = lutRow w (((Rect.unit (s := S32768) o S16.size io).emb x 0).val / 64)
          (((Rect.unit (s := S32768) o S16.size io).emb x 0).val % 64) := by
  have hx : (x 0).val < 16 := (x 0).isLt
  have he : ((Rect.unit (s := S32768) o S16.size io).emb x 0).val = o 0 + 1 * (x 0).val := rfl
  rw [he, ho]
  have e1 : (64 * (h + g) + c + 1 * (x 0).val) / 64 = h + g := by omega
  have e2 : (64 * (h + g) + c + 1 * (x 0).val) % 64 = c + (x 0).val := by omega
  rw [e1, e2, hadd]
  show FloatOps.addf (v.readAt (Elt F) (Rect.unit (s := S32768) a S16.size ia).toLoadRect (v.writes (Elt F) f Lw) x) (D x) = _
  rw [hD, readAt_below v f Lw (64 * (h + g)) hL a ia (by omega) x]
  congr 1
  have hi : (((Rect.unit (s := S32768) a S16.size ia).toLoadRect.idx x) 0).val = a 0 + 1 * (x 0).val := rfl
  rw [hf _ (by rw [hi]; omega), hi, ha]
  have e3 : (64 * g + c + 1 * (x 0).val) / 64 = g := by omega
  have e4 : (64 * g + c + 1 * (x 0).val) % 64 = c + (x 0).val := by omega
  rw [e3, e4]

/-- An element of a 16-lane unit rectangle lies at or above its offset. -/
theorem le_of_mem_unit (o : Fin 1 → Nat) (io : ∀ j, o j + S16.size j ≤ S32768.size j) (b : Nat) (hb : b ≤ o 0)
    (y : S32768.Idx) (hy : y ∈ (Rect.unit (s := S32768) o S16.size io).set) : b ≤ (y 0).val := by
  have := (Rect.mem_set_unit.mp hy 0).1
  omega

/-- An element whose coordinate lies in a 16-lane unit rectangle's range is in it. -/
theorem mem_unit16 (o : Fin 1 → Nat) (io : ∀ j, o j + S16.size j ≤ S32768.size j) (y : S32768.Idx)
    (h1 : o 0 ≤ (y 0).val) (h2 : (y 0).val < o 0 + 16) : y ∈ (Rect.unit (s := S32768) o S16.size io).set := by
  refine Rect.mem_set_unit.mpr fun a => ?_
  obtain rfl : a = 0 := Subsingleton.elim _ _
  exact ⟨h1, h2⟩

end Row

section RowAll

open Cert.Spec

variable {sg : RefSig} {κ : Kind} {sp : Space}

/-- `piece_ok` for a load of the contents as the trip found them. -/
theorem piece_ok0 (w : Cert.Spec.SW.Idx → F .f32) (h g i c : Nat) (hc : c + 16 ≤ 64)
    (hadd : ∀ e, lutRow w (h + g) e = FloatOps.addf (lutRow w g e) (dlt w i e)) (hgh : g < h)
    (v : View sg κ sp S32768 .f32) (f : v.ty.Contents (Elt F)) (hf : KC.LutOK w (h + g) (v.read (Elt F) f))
    (a o : Fin 1 → Nat) (ia : ∀ j, a j + S16.size j ≤ S32768.size j) (io : ∀ j, o j + S16.size j ≤ S32768.size j)
    (ha : a 0 = 64 * g + c) (ho : o 0 = 64 * (h + g) + c)
    (D : FVec F S16 .f32) (hD : ∀ x : S16.Idx, D x = dlt w i (c + (x 0).val))
    (x : (Rect.unit (s := S32768) o S16.size io).shape.Idx) :
    Idealize.ShloMosaic.addf (s := S16) (φ := .f32)
        (v.readAt (Elt F) (Rect.unit (s := S32768) a S16.size ia).toLoadRect f) D x
      = lutRow w (((Rect.unit (s := S32768) o S16.size io).emb x 0).val / 64)
          (((Rect.unit (s := S32768) o S16.size io).emb x 0).val % 64) :=
  piece_ok w h g i c hc hadd hgh v f hf [] (fun p hp => absurd hp List.not_mem_nil) a o ia io ha ho D hD x

/-- One trip of a feature's loop: the four 16-lane pieces of row `h + g`, each row `g`'s lanes (as the trip found
    them) plus the feature's difference, extend the table from `h + g` rows to `h + g + 1`. -/
theorem lutOK_row (w : Cert.Spec.SW.Idx → F .f32) (h g i : Nat)
    (hadd : ∀ e, lutRow w (h + g) e = FloatOps.addf (lutRow w g e) (dlt w i e)) (hgh : g < h)
    (v : View sg κ sp S32768 .f32) (f : v.ty.Contents (Elt F)) (hf : KC.LutOK w (h + g) (v.read (Elt F) f))
    (a0 a1 a2 a3 o0 o1 o2 o3 : Fin 1 → Nat)
    (ia0 : ∀ j, a0 j + S16.size j ≤ S32768.size j) (ia1 : ∀ j, a1 j + S16.size j ≤ S32768.size j)
    (ia2 : ∀ j, a2 j + S16.size j ≤ S32768.size j) (ia3 : ∀ j, a3 j + S16.size j ≤ S32768.size j)
    (io0 : ∀ j, o0 j + S16.size j ≤ S32768.size j) (io1 : ∀ j, o1 j + S16.size j ≤ S32768.size j)
    (io2 : ∀ j, o2 j + S16.size j ≤ S32768.size j) (io3 : ∀ j, o3 j + S16.size j ≤ S32768.size j)
    (ha0 : a0 0 = 64 * g + 0) (ha1 : a1 0 = 64 * g + 16) (ha2 : a2 0 = 64 * g + 32) (ha3 : a3 0 = 64 * g + 48)
    (ho0 : o0 0 = 64 * (h + g) + 0) (ho1 : o1 0 = 64 * (h + g) + 16) (ho2 : o2 0 = 64 * (h + g) + 32)
    (ho3 : o3 0 = 64 * (h + g) + 48)
    (D0 D1 D2 D3 : FVec F S16 .f32)
    (hD0 : ∀ x : S16.Idx, D0 x = dlt w i (0 + (x 0).val)) (hD1 : ∀ x : S16.Idx, D1 x = dlt w i (16 + (x 0).val))
    (hD2 : ∀ x : S16.Idx, D2 x = dlt w i (32 + (x 0).val)) (hD3 : ∀ x : S16.Idx, D3 x = dlt w i (48 + (x 0).val)) :
    KC.LutOK w (h + g + 1) (v.read (Elt F) (v.writes (Elt F) f
      [(⟨Rect.unit (s := S32768) o3 S16.size io3, Idealize.ShloMosaic.addf (s := S16) (φ := .f32) (v.readAt (Elt F) (Rect.unit (s := S32768) a3 S16.size ia3).toLoadRect f) D3⟩ : View.Piece (Elt F) S32768 .f32),
       (⟨Rect.unit (s := S32768) o2 S16.size io2, Idealize.ShloMosaic.addf (s := S16) (φ := .f32) (v.readAt (Elt F) (Rect.unit (s := S32768) a2 S16.size ia2).toLoadRect f) D2⟩ : View.Piece (Elt F) S32768 .f32),
       (⟨Rect.unit (s := S32768) o1 S16.size io1, Idealize.ShloMosaic.addf (s := S16) (φ := .f32) (v.readAt (Elt F) (Rect.unit (s := S32768) a1 S16.size ia1).toLoadRect f) D1⟩ : View.Piece (Elt F) S32768 .f32),
       (⟨Rect.unit (s := S32768) o0 S16.size io0, Idealize.ShloMosaic.addf (s := S16) (φ := .f32) (v.readAt (Elt F) (Rect.unit (s := S32768) a0 S16.size ia0).toLoadRect f) D0⟩ : View.Piece (Elt F) S32768 .f32)])) := by
  refine lutOK_step w (h + g) v f _ hf ?_ ?_
  · intro p hp
    simp only [List.mem_cons, List.not_mem_nil, or_false] at hp
    rcases hp with rfl | rfl | rfl | rfl
    · exact piece_ok0 w h g i 48 (by norm_num) hadd hgh v f hf a3 o3 ia3 io3 ha3 ho3 D3 hD3
    · exact piece_ok0 w h g i 32 (by norm_num) hadd hgh v f hf a2 o2 ia2 io2 ha2 ho2 D2 hD2
    · exact piece_ok0 w h g i 16 (by norm_num) hadd hgh v f hf a1 o1 ia1 io1 ha1 ho1 D1 hD1
    · exact piece_ok0 w h g i 0 (by norm_num) hadd hgh v f hf a0 o0 ia0 io0 ha0 ho0 D0 hD0
  · intro y h1 h2
    by_cases c1 : (y 0).val < 64 * (h + g) + 16
    · exact ⟨_, List.mem_cons_of_mem _ (List.mem_cons_of_mem _ (List.mem_cons_of_mem _ List.mem_cons_self)),
        mem_unit16 o0 io0 y (by omega) (by omega)⟩
    · by_cases c2 : (y 0).val < 64 * (h + g) + 32
      · exact ⟨_, List.mem_cons_of_mem _ (List.mem_cons_of_mem _ List.mem_cons_self),
          mem_unit16 o1 io1 y (by omega) (by omega)⟩
      · by_cases c3 : (y 0).val < 64 * (h + g) + 48
        · exact ⟨_, List.mem_cons_of_mem _ List.mem_cons_self, mem_unit16 o2 io2 y (by omega) (by omega)⟩
        · exact ⟨_, List.mem_cons_self, mem_unit16 o3 io3 y (by omega) (by omega)⟩

end RowAll

section Diff

open Cert.Spec

/-- The difference of the two 16-lane loads at lanes `c … c + 15` of rows 1 and 0 of feature `i`'s table. -/
theorem diff_ok (w : Cert.Spec.SW.Idx → F .f32) (i c : Nat) (vA vB : Vec F S16 .f32) (oA oB : Nat)
    (hoA : oA = i * 128 + 64 + c) (hoB : oB = i * 128 + c)
    (hA : ∀ x : S16.Idx, vA x = wAt w (oA + (x 0).val)) (hB : ∀ x : S16.Idx, vB x = wAt w (oB + (x 0).val)) :
    ∀ x : S16.Idx, Idealize.ShloMosaic.subf (s := S16) (φ := .f32) vA vB x = dlt w i (c + (x 0).val) := by
  intro x
  subst hoA hoB
  show FloatOps.subf (vA x) (vB x) = _
  rw [hA, hB]
  unfold dlt
  have e1 : i * 128 + 64 + c + (x 0).val = i * 128 + 64 + (c + (x 0).val) := by omega
  have e2 : i * 128 + c + (x 0).val = i * 128 + (c + (x 0).val) := by omega
  rw [e1, e2]

end Diff

end Cert.Kernel.KLut

end
-- ==== Proof.KLutOffsB.lean ====
/-
  The offsets of the table loops' loads and stores, lane group by lane group: trip `k` of feature `N`'s loop
  loads row `k` at `64 k + 16 r` and stores row `2 ^ N + k` at `64 (2 ^ N + k) + 16 r`.
-/
import proofs.«207339_g86234353369688_cont_sun_m_1071_33_alg».proof.Proof.Gen.Kernel

namespace Cert.Kernel.KLut

open Cert.Kernel Cert.Kernel.Gen
open Idealize.ShloMosaic

theorem offA1_0 (k : Fin k0_t1_loop.trips) : k0_off4 k 0#32 0 = 64 * k.val + 0 := by
  have h := Gen.k0_off4_eq k 0
  have e : BitVec.ofNat 32 (16 * (0 : Fin 4).val) = 0#32 := by decide
  rw [e] at h
  rw [h]; rfl
theorem offO1_0 (k : Fin k0_t1_loop.trips) : k0_off5 k 0#32 0 = 64 * (2 + k.val) + 0 := by
  have h := Gen.k0_off5_eq k 0
  have e : BitVec.ofNat 32 (16 * (0 : Fin 4).val) = 0#32 := by decide
  rw [e] at h
  rw [h]
  show 64 * k.val + 16 * 0 + 128 = 64 * (2 + k.val) + 0
  omega
theorem offA1_1 (k : Fin k0_t1_loop.trips) : k0_off4 k 16#32 0 = 64 * k.val + 16 := by
  have h := Gen.k0_off4_eq k 1
  have e : BitVec.ofNat 32 (16 * (1 : Fin 4).val) = 16#32 := by decide
  rw [e] at h
  rw [h]; rfl
theorem offO1_1 (k : Fin k0_t1_loop.trips) : k0_off5 k 16#32 0 = 64 * (2 + k.val) + 16 := by
  have h := Gen.k0_off5_eq k 1
  have e : BitVec.ofNat 32 (16 * (1 : Fin 4).val) = 16#32 := by decide
  rw [e] at h
  rw [h]
  show 64 * k.val + 16 * 1 + 128 = 64 * (2 + k.val) + 16
  omega
theorem offA1_2 (k : Fin k0_t1_loop.trips) : k0_off4 k 32#32 0 = 64 * k.val + 32 := by
  have h := Gen.k0_off4_eq k 2
  have e : BitVec.ofNat 32 (16 * (2 : Fin 4).val) = 32#32 := by decide
  rw [e] at h
  rw [h]; rfl
theorem offO1_2 (k : Fin k0_t1_loop.trips) : k0_off5 k 32#32 0 = 64 * (2 + k.val) + 32 := by
  have h := Gen.k0_off5_eq k 2
  have e : BitVec.ofNat 32 (16 * (2 : Fin 4).val) = 32#32 := by decide
  rw [e] at h
  rw [h]
  show 64 * k.val + 16 * 2 + 128 = 64 * (2 + k.val) + 32
  omega
theorem offA1_3 (k : Fin k0_t1_loop.trips) : k0_off4 k 48#32 0 = 64 * k.val + 48 := by
  have h := Gen.k0_off4_eq k 3
  have e : BitVec.ofNat 32 (16 * (3 : Fin 4).val) = 48#32 := by decide
  rw [e] at h
  rw [h]; rfl
theorem offO1_3 (k : Fin k0_t1_loop.trips) : k0_off5 k 48#32 0 = 64 * (2 + k.val) + 48 := by
  have h := Gen.k0_off5_eq k 3
  have e : BitVec.ofNat 32 (16 * (3 : Fin 4).val) = 48#32 := by decide
  rw [e] at h
  rw [h]
  show 64 * k.val + 16 * 3 + 128 = 64 * (2 + k.val) + 48
  omega
theorem tripsLt1 (k : Fin k0_t1_loop.trips) : k.val < 2 := Nat.lt_of_lt_of_le k.isLt Gen.k0_t1_abs.2.1

theorem offA2_0 (k : Fin k0_t2_loop.trips) : k0_off6 k 0#32 0 = 64 * k.val + 0 := by
  have h := Gen.k0_off6_eq k 0
  have e : BitVec.ofNat 32 (16 * (0 : Fin 4).val) = 0#32 := by decide
  rw [e] at h
  rw [h]; rfl
theorem offO2_0 (k : Fin k0_t2_loop.trips) : k0_off7 k 0#32 0 = 64 * (4 + k.val) + 0 := by
  have h := Gen.k0_off7_eq k 0
  have e : BitVec.ofNat 32 (16 * (0 : Fin 4).val) = 0#32 := by decide
  rw [e] at h
  rw [h]
  show 64 * k.val + 16 * 0 + 256 = 64 * (4 + k.val) + 0
  omega
theorem offA2_1 (k : Fin k0_t2_loop.trips) : k0_off6 k 16#32 0 = 64 * k.val + 16 := by
  have h := Gen.k0_off6_eq k 1
  have e : BitVec.ofNat 32 (16 * (1 : Fin 4).val) = 16#32 := by decide
  rw [e] at h
  rw [h]; rfl
theorem offO2_1 (k : Fin k0_t2_loop.trips) : k0_off7 k 16#32 0 = 64 * (4 + k.val) + 16 := by
  have h := Gen.k0_off7_eq k 1
  have e : BitVec.ofNat 32 (16 * (1 : Fin 4).val) = 16#32 := by decide
  rw [e] at h
  rw [h]
  show 64 * k.val + 16 * 1 + 256 = 64 * (4 + k.val) + 16
  omega
theorem offA2_2 (k : Fin k0_t2_loop.trips) : k0_off6 k 32#32 0 = 64 * k.val + 32 := by
  have h := Gen.k0_off6_eq k 2
  have e : BitVec.ofNat 32 (16 * (2 : Fin 4).val) = 32#32 := by decide
  rw [e] at h
  rw [h]; rfl
theorem offO2_2 (k : Fin k0_t2_loop.trips) : k0_off7 k 32#32 0 = 64 * (4 + k.val) + 32 := by
  have h := Gen.k0_off7_eq k 2
  have e : BitVec.ofNat 32 (16 * (2 : Fin 4).val) = 32#32 := by decide
  rw [e] at h
  rw [h]
  show 64 * k.val + 16 * 2 + 256 = 64 * (4 + k.val) + 32
  omega
theorem offA2_3 (k : Fin k0_t2_loop.trips) : k0_off6 k 48#32 0 = 64 * k.val + 48 := by
  have h := Gen.k0_off6_eq k 3
  have e : BitVec.ofNat 32 (16 * (3 : Fin 4).val) = 48#32 := by decide
  rw [e] at h
  rw [h]; rfl
theorem offO2_3 (k : Fin k0_t2_loop.trips) : k0_off7 k 48#32 0 = 64 * (4 + k.val) + 48 := by
  have h := Gen.k0_off7_eq k 3
  have e : BitVec.ofNat 32 (16 * (3 : Fin 4).val) = 48#32 := by decide
  rw [e] at h
  rw [h]
  show 64 * k.val + 16 * 3 + 256 = 64 * (4 + k.val) + 48
  omega
theorem tripsLt2 (k : Fin k0_t2_loop.trips) : k.val < 4 := Nat.lt_of_lt_of_le k.isLt Gen.k0_t2_abs.2.1

theorem offA3_0 (k : Fin k0_t3_loop.trips) : k0_off8 k 0#32 0 = 64 * k.val + 0 := by
  have h := Gen.k0_off8_eq k 0
  have e : BitVec.ofNat 32 (16 * (0 : Fin 4).val) = 0#32 := by decide
  rw [e] at h
  rw [h]; rfl
theorem offO3_0 (k : Fin k0_t3_loop.trips) : k0_off9 k 0#32 0 = 64 * (8 + k.val) + 0 := by
  have h := Gen.k0_off9_eq k 0
  have e : BitVec.ofNat 32 (16 * (0 : Fin 4).val) = 0#32 := by decide
  rw [e] at h
  rw [h]
  show 64 * k.val + 16 * 0 + 512 = 64 * (8 + k.val) + 0
  omega
theorem offA3_1 (k : Fin k0_t3_loop.trips) : k0_off8 k 16#32 0 = 64 * k.val + 16 := by
  have h := Gen.k0_off8_eq k 1
  have e : BitVec.ofNat 32 (16 * (1 : Fin 4).val) = 16#32 := by decide
  rw [e] at h
  rw [h]; rfl
theorem offO3_1 (k : Fin k0_t3_loop.trips) : k0_off9 k 16#32 0 = 64 * (8 + k.val) + 16 := by
  have h := Gen.k0_off9_eq k 1
  have e : BitVec.ofNat 32 (16 * (1 : Fin 4).val) = 16#32 := by decide
  rw [e] at h
  rw [h]
  show 64 * k.val + 16 * 1 + 512 = 64 * (8 + k.val) + 16
  omega
theorem offA3_2 (k : Fin k0_t3_loop.trips) : k0_off8 k 32#32 0 = 64 * k.val + 32 := by
  have h := Gen.k0_off8_eq k 2
  have e : BitVec.ofNat 32 (16 * (2 : Fin 4).val) = 32#32 := by decide
  rw [e] at h
  rw [h]; rfl
theorem offO3_2 (k : Fin k0_t3_loop.trips) : k0_off9 k 32#32 0 = 64 * (8 + k.val) + 32 := by
  have h := Gen.k0_off9_eq k 2
  have e : BitVec.ofNat 32 (16 * (2 : Fin 4).val) = 32#32 := by decide
  rw [e] at h
  rw [h]
  show 64 * k.val + 16 * 2 + 512 = 64 * (8 + k.val) + 32
  omega
theorem offA3_3 (k : Fin k0_t3_loop.trips) : k0_off8 k 48#32 0 = 64 * k.val + 48 := by
  have h := Gen.k0_off8_eq k 3
  have e : BitVec.ofNat 32 (16 * (3 : Fin 4).val) = 48#32 := by decide
  rw [e] at h
  rw [h]; rfl
theorem offO3_3 (k : Fin k0_t3_loop.trips) : k0_off9 k 48#32 0 = 64 * (8 + k.val) + 48 := by
  have h := Gen.k0_off9_eq k 3
  have e : BitVec.ofNat 32 (16 * (3 : Fin 4).val) = 48#32 := by decide
  rw [e] at h
  rw [h]
  show 64 * k.val + 16 * 3 + 512 = 64 * (8 + k.val) + 48
  omega
theorem tripsLt3 (k : Fin k0_t3_loop.trips) : k.val < 8 := Nat.lt_of_lt_of_le k.isLt Gen.k0_t3_abs.2.1

theorem offA4_0 (k : Fin k0_t4_loop.trips) : k0_off10 k 0#32 0 = 64 * k.val + 0 := by
  have h := Gen.k0_off10_eq k 0
  have e : BitVec.ofNat 32 (16 * (0 : Fin 4).val) = 0#32 := by decide
  rw [e] at h
  rw [h]; rfl
theorem offO4_0 (k : Fin k0_t4_loop.trips) : k0_off11 k 0#32 0 = 64 * (16 + k.val) + 0 := by
  have h := Gen.k0_off11_eq k 0
  have e : BitVec.ofNat 32 (16 * (0 : Fin 4).val) = 0#32 := by decide
  rw [e] at h
  rw [h]
  show 64 * k.val + 16 * 0 + 1024 = 64 * (16 + k.val) + 0
  omega
theorem offA4_1 (k : Fin k0_t4_loop.trips) : k0_off10 k 16#32 0 = 64 * k.val + 16 := by
  have h := Gen.k0_off10_eq k 1
  have e : BitVec.ofNat 32 (16 * (1 : Fin 4).val) = 16#32 := by decide
  rw [e] at h
  rw [h]; rfl
theorem offO4_1 (k : Fin k0_t4_loop.trips) : k0_off11 k 16#32 0 = 64 * (16 + k.val) + 16 := by
  have h := Gen.k0_off11_eq k 1
  have e : BitVec.ofNat 32 (16 * (1 : Fin 4).val) = 16#32 := by decide
  rw [e] at h
  rw [h]
  show 64 * k.val + 16 * 1 + 1024 = 64 * (16 + k.val) + 16
  omega
theorem offA4_2 (k : Fin k0_t4_loop.trips) : k0_off10 k 32#32 0 = 64 * k.val + 32 := by
  have h := Gen.k0_off10_eq k 2
  have e : BitVec.ofNat 32 (16 * (2 : Fin 4).val) = 32#32 := by decide
  rw [e] at h
  rw [h]; rfl
theorem offO4_2 (k : Fin k0_t4_loop.trips) : k0_off11 k 32#32 0 = 64 * (16 + k.val) + 32 := by
  have h := Gen.k0_off11_eq k 2
  have e : BitVec.ofNat 32 (16 * (2 : Fin 4).val) = 32#32 := by decide
  rw [e] at h
  rw [h]
  show 64 * k.val + 16 * 2 + 1024 = 64 * (16 + k.val) + 32
  omega
theorem offA4_3 (k : Fin k0_t4_loop.trips) : k0_off10 k 48#32 0 = 64 * k.val + 48 := by
  have h := Gen.k0_off10_eq k 3
  have e : BitVec.ofNat 32 (16 * (3 : Fin 4).val) = 48#32 := by decide
  rw [e] at h
  rw [h]; rfl
theorem offO4_3 (k : Fin k0_t4_loop.trips) : k0_off11 k 48#32 0 = 64 * (16 + k.val) + 48 := by
  have h := Gen.k0_off11_eq k 3
  have e : BitVec.ofNat 32 (16 * (3 : Fin 4).val) = 48#32 := by decide
  rw [e] at h
  rw [h]
  show 64 * k.val + 16 * 3 + 1024 = 64 * (16 + k.val) + 48
  omega
theorem tripsLt4 (k : Fin k0_t4_loop.trips) : k.val < 16 := Nat.lt_of_lt_of_le k.isLt Gen.k0_t4_abs.2.1

theorem offA5_0 (k : Fin k0_t5_loop.trips) : k0_off12 k 0#32 0 = 64 * k.val + 0 := by
  have h := Gen.k0_off12_eq k 0
  have e : BitVec.ofNat 32 (16 * (0 : Fin 4).val) = 0#32 := by decide
  rw [e] at h
  rw [h]; rfl
theorem offO5_0 (k : Fin k0_t5_loop.trips) : k0_off13 k 0#32 0 = 64 * (32 + k.val) + 0 := by
  have h := Gen.k0_off13_eq k 0
  have e : BitVec.ofNat 32 (16 * (0 : Fin 4).val) = 0#32 := by decide
  rw [e] at h
  rw [h]
  show 64 * k.val + 16 * 0 + 2048 = 64 * (32 + k.val) + 0
  omega
theorem offA5_1 (k : Fin k0_t5_loop.trips) : k0_off12 k 16#32 0 = 64 * k.val + 16 := by
  have h := Gen.k0_off12_eq k 1
  have e : BitVec.ofNat 32 (16 * (1 : Fin 4).val) = 16#32 := by decide
  rw [e] at h
  rw [h]; rfl
theorem offO5_1 (k : Fin k0_t5_loop.trips) : k0_off13 k 16#32 0 = 64 * (32 + k.val) + 16 := by
  have h := Gen.k0_off13_eq k 1
  have e : BitVec.ofNat 32 (16 * (1 : Fin 4).val) = 16#32 := by decide
  rw [e] at h
  rw [h]
  show 64 * k.val + 16 * 1 + 2048 = 64 * (32 + k.val) + 16
  omega
theorem offA5_2 (k : Fin k0_t5_loop.trips) : k0_off12 k 32#32 0 = 64 * k.val + 32 := by
  have h := Gen.k0_off12_eq k 2
  have e : BitVec.ofNat 32 (16 * (2 : Fin 4).val) = 32#32 := by decide
  rw [e] at h
  rw [h]; rfl
theorem offO5_2 (k : Fin k0_t5_loop.trips) : k0_off13 k 32#32 0 = 64 * (32 + k.val) + 32 := by
  have h := Gen.k0_off13_eq k 2
  have e : BitVec.ofNat 32 (16 * (2 : Fin 4).val) = 32#32 := by decide
  rw [e] at h
  rw [h]
  show 64 * k.val + 16 * 2 + 2048 = 64 * (32 + k.val) + 32
  omega
theorem offA5_3 (k : Fin k0_t5_loop.trips) : k0_off12 k 48#32 0 = 64 * k.val + 48 := by
  have h := Gen.k0_off12_eq k 3
  have e : BitVec.ofNat 32 (16 * (3 : Fin 4).val) = 48#32 := by decide
  rw [e] at h
  rw [h]; rfl
theorem offO5_3 (k : Fin k0_t5_loop.trips) : k0_off13 k 48#32 0 = 64 * (32 + k.val) + 48 := by
  have h := Gen.k0_off13_eq k 3
  have e : BitVec.ofNat 32 (16 * (3 : Fin 4).val) = 48#32 := by decide
  rw [e] at h
  rw [h]
  show 64 * k.val + 16 * 3 + 2048 = 64 * (32 + k.val) + 48
  omega
theorem tripsLt5 (k : Fin k0_t5_loop.trips) : k.val < 32 := Nat.lt_of_lt_of_le k.isLt Gen.k0_t5_abs.2.1

theorem offA6_0 (k : Fin k0_t6_loop.trips) : k0_off14 k 0#32 0 = 64 * k.val + 0 := by
  have h := Gen.k0_off14_eq k 0
  have e : BitVec.ofNat 32 (16 * (0 : Fin 4).val) = 0#32 := by decide
  rw [e] at h
  rw [h]; rfl
theorem offO6_0 (k : Fin k0_t6_loop.trips) : k0_off15 k 0#32 0 = 64 * (64 + k.val) + 0 := by
  have h := Gen.k0_off15_eq k 0
  have e : BitVec.ofNat 32 (16 * (0 : Fin 4).val) = 0#32 := by decide
  rw [e] at h
  rw [h]
  show 64 * k.val + 16 * 0 + 4096 = 64 * (64 + k.val) + 0
  omega
theorem offA6_1 (k : Fin k0_t6_loop.trips) : k0_off14 k 16#32 0 = 64 * k.val + 16 := by
  have h := Gen.k0_off14_eq k 1
  have e : BitVec.ofNat 32 (16 * (1 : Fin 4).val) = 16#32 := by decide
  rw [e] at h
  rw [h]; rfl
theorem offO6_1 (k : Fin k0_t6_loop.trips) : k0_off15 k 16#32 0 = 64 * (64 + k.val) + 16 := by
  have h := Gen.k0_off15_eq k 1
  have e : BitVec.ofNat 32 (16 * (1 : Fin 4).val) = 16#32 := by decide
  rw [e] at h
  rw [h]
  show 64 * k.val + 16 * 1 + 4096 = 64 * (64 + k.val) + 16
  omega
theorem offA6_2 (k : Fin k0_t6_loop.trips) : k0_off14 k 32#32 0 = 64 * k.val + 32 := by
  have h := Gen.k0_off14_eq k 2
  have e : BitVec.ofNat 32 (16 * (2 : Fin 4).val) = 32#32 := by decide
  rw [e] at h
  rw [h]; rfl
theorem offO6_2 (k : Fin k0_t6_loop.trips) : k0_off15 k 32#32 0 = 64 * (64 + k.val) + 32 := by
  have h := Gen.k0_off15_eq k 2
  have e : BitVec.ofNat 32 (16 * (2 : Fin 4).val) = 32#32 := by decide
  rw [e] at h
  rw [h]
  show 64 * k.val + 16 * 2 + 4096 = 64 * (64 + k.val) + 32
  omega
theorem offA6_3 (k : Fin k0_t6_loop.trips) : k0_off14 k 48#32 0 = 64 * k.val + 48 := by
  have h := Gen.k0_off14_eq k 3
  have e : BitVec.ofNat 32 (16 * (3 : Fin 4).val) = 48#32 := by decide
  rw [e] at h
  rw [h]; rfl
theorem offO6_3 (k : Fin k0_t6_loop.trips) : k0_off15 k 48#32 0 = 64 * (64 + k.val) + 48 := by
  have h := Gen.k0_off15_eq k 3
  have e : BitVec.ofNat 32 (16 * (3 : Fin 4).val) = 48#32 := by decide
  rw [e] at h
  rw [h]
  show 64 * k.val + 16 * 3 + 4096 = 64 * (64 + k.val) + 48
  omega
theorem tripsLt6 (k : Fin k0_t6_loop.trips) : k.val < 64 := Nat.lt_of_lt_of_le k.isLt Gen.k0_t6_abs.2.1

theorem offA7_0 (k : Fin k0_t7_loop.trips) : k0_off16 k 0#32 0 = 64 * k.val + 0 := by
  have h := Gen.k0_off16_eq k 0
  have e : BitVec.ofNat 32 (16 * (0 : Fin 4).val) = 0#32 := by decide
  rw [e] at h
  rw [h]; rfl
theorem offO7_0 (k : Fin k0_t7_loop.trips) : k0_off17 k 0#32 0 = 64 * (128 + k.val) + 0 := by
  have h := Gen.k0_off17_eq k 0
  have e : BitVec.ofNat 32 (16 * (0 : Fin 4).val) = 0#32 := by decide
  rw [e] at h
  rw [h]
  show 64 * k.val + 16 * 0 + 8192 = 64 * (128 + k.val) + 0
  omega
theorem offA7_1 (k : Fin k0_t7_loop.trips) : k0_off16 k 16#32 0 = 64 * k.val + 16 := by
  have h := Gen.k0_off16_eq k 1
  have e : BitVec.ofNat 32 (16 * (1 : Fin 4).val) = 16#32 := by decide
  rw [e] at h
  rw [h]; rfl
theorem offO7_1 (k : Fin k0_t7_loop.trips) : k0_off17 k 16#32 0 = 64 * (128 + k.val) + 16 := by
  have h := Gen.k0_off17_eq k 1
  have e : BitVec.ofNat 32 (16 * (1 : Fin 4).val) = 16#32 := by decide
  rw [e] at h
  rw [h]
  show 64 * k.val + 16 * 1 + 8192 = 64 * (128 + k.val) + 16
  omega
theorem offA7_2 (k : Fin k0_t7_loop.trips) : k0_off16 k 32#32 0 = 64 * k.val + 32 := by
  have h := Gen.k0_off16_eq k 2
  have e : BitVec.ofNat 32 (16 * (2 : Fin 4).val) = 32#32 := by decide
  rw [e] at h
  rw [h]; rfl
theorem offO7_2 (k : Fin k0_t7_loop.trips) : k0_off17 k 32#32 0 = 64 * (128 + k.val) + 32 := by
  have h := Gen.k0_off17_eq k 2
  have e : BitVec.ofNat 32 (16 * (2 : Fin 4).val) = 32#32 := by decide
  rw [e] at h
  rw [h]
  show 64 * k.val + 16 * 2 + 8192 = 64 * (128 + k.val) + 32
  omega
theorem offA7_3 (k : Fin k0_t7_loop.trips) : k0_off16 k 48#32 0 = 64 * k.val + 48 := by
  have h := Gen.k0_off16_eq k 3
  have e : BitVec.ofNat 32 (16 * (3 : Fin 4).val) = 48#32 := by decide
  rw [e] at h
  rw [h]; rfl
theorem offO7_3 (k : Fin k0_t7_loop.trips) : k0_off17 k 48#32 0 = 64 * (128 + k.val) + 48 := by
  have h := Gen.k0_off17_eq k 3
  have e : BitVec.ofNat 32 (16 * (3 : Fin 4).val) = 48#32 := by decide
  rw [e] at h
  rw [h]
  show 64 * k.val + 16 * 3 + 8192 = 64 * (128 + k.val) + 48
  omega
theorem tripsLt7 (k : Fin k0_t7_loop.trips) : k.val < 128 := Nat.lt_of_lt_of_le k.isLt Gen.k0_t7_abs.2.1

theorem offA8_0 (k : Fin k0_t8_loop.trips) : k0_off18 k 0#32 0 = 64 * k.val + 0 := by
  have h := Gen.k0_off18_eq k 0
  have e : BitVec.ofNat 32 (16 * (0 : Fin 4).val) = 0#32 := by decide
  rw [e] at h
  rw [h]; rfl
theorem offO8_0 (k : Fin k0_t8_loop.trips) : k0_off19 k 0#32 0 = 64 * (256 + k.val) + 0 := by
  have h := Gen.k0_off19_eq k 0
  have e : BitVec.ofNat 32 (16 * (0 : Fin 4).val) = 0#32 := by decide
  rw [e] at h
  rw [h]
  show 64 * k.val + 16 * 0 + 16384 = 64 * (256 + k.val) + 0
  omega
theorem offA8_1 (k : Fin k0_t8_loop.trips) : k0_off18 k 16#32 0 = 64 * k.val + 16 := by
  have h := Gen.k0_off18_eq k 1
  have e : BitVec.ofNat 32 (16 * (1 : Fin 4).val) = 16#32 := by decide
  rw [e] at h
  rw [h]; rfl
theorem offO8_1 (k : Fin k0_t8_loop.trips) : k0_off19 k 16#32 0 = 64 * (256 + k.val) + 16 := by
  have h := Gen.k0_off19_eq k 1
  have e : BitVec.ofNat 32 (16 * (1 : Fin 4).val) = 16#32 := by decide
  rw [e] at h
  rw [h]
  show 64 * k.val + 16 * 1 + 16384 = 64 * (256 + k.val) + 16
  omega
theorem offA8_2 (k : Fin k0_t8_loop.trips) : k0_off18 k 32#32 0 = 64 * k.val + 32 := by
  have h := Gen.k0_off18_eq k 2
  have e : BitVec.ofNat 32 (16 * (2 : Fin 4).val) = 32#32 := by decide
  rw [e] at h
  rw [h]; rfl
theorem offO8_2 (k : Fin k0_t8_loop.trips) : k0_off19 k 32#32 0 = 64 * (256 + k.val) + 32 := by
  have h := Gen.k0_off19_eq k 2
  have e : BitVec.ofNat 32 (16 * (2 : Fin 4).val) = 32#32 := by decide
  rw [e] at h
  rw [h]
  show 64 * k.val + 16 * 2 + 16384 = 64 * (256 + k.val) + 32
  omega
theorem offA8_3 (k : Fin k0_t8_loop.trips) : k0_off18 k 48#32 0 = 64 * k.val + 48 := by
  have h := Gen.k0_off18_eq k 3
  have e : BitVec.ofNat 32 (16 * (3 : Fin 4).val) = 48#32 := by decide
  rw [e] at h
  rw [h]; rfl
theorem offO8_3 (k : Fin k0_t8_loop.trips) : k0_off19 k 48#32 0 = 64 * (256 + k.val) + 48 := by
  have h := Gen.k0_off19_eq k 3
  have e : BitVec.ofNat 32 (16 * (3 : Fin 4).val) = 48#32 := by decide
  rw [e] at h
  rw [h]
  show 64 * k.val + 16 * 3 + 16384 = 64 * (256 + k.val) + 48
  omega
theorem tripsLt8 (k : Fin k0_t8_loop.trips) : k.val < 256 := Nat.lt_of_lt_of_le k.isLt Gen.k0_t8_abs.2.1

end Cert.Kernel.KLut
-- ==== Proof.KLutB.lean ====
/-
  The kernel's table build, loop by loop.

  Feature `N`'s counted loop (`N = 1 … 8`, `2 ^ N` trips) extends the table scratch from `2 ^ N` rows to
  `2 ^ (N + 1)`: trip `k` loads row `k` in four 16-lane pieces, adds the feature's difference
  `W_N[1] − W_N[0]` on those lanes, and stores the sums as row `2 ^ N + k`.  The invariant `Ilut` says the first
  `2 ^ N + k` rows are the table's; each `lut_region_N` is one trip's step of it, at a symbolic trip.
-/
import proofs.«207339_g86234353369688_cont_sun_m_1071_33_alg».proof.Proof.KCommonB
import proofs.«207339_g86234353369688_cont_sun_m_1071_33_alg».proof.Proof.KLutLemmasB
import proofs.«207339_g86234353369688_cont_sun_m_1071_33_alg».proof.Proof.KLutOffsB
import proofs.«207339_g86234353369688_cont_sun_m_1071_33_alg».proof.Proof.Gen.Kernel.Skeleton

noncomputable section

namespace Cert.Kernel.KLut

open Cert.Kernel Cert.Kernel.Gen Cert.Kernel.KC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.Kernel.main_v15_scv : Memref Cert.Kernel.sig Kind.scVector Space.hbm Cert.Kernel.S100000 EltTy.i32)
local notation "wW" => (Memref.whole Cert.Kernel.main_v8_scv : Memref Cert.Kernel.sig Kind.scVector Space.hbm Cert.Kernel.S1152 EltTy.f32)
local notation "oW" => (Memref.whole Cert.Kernel.main_v16_scv : Memref Cert.Kernel.sig Kind.scVector Space.hbm Cert.Kernel.S100000x64 EltTy.f32)
local notation "b0" => (Memref.whole Cert.Kernel.cc0_scratch0 : Memref Cert.Kernel.sig Kind.scVector Space.vmem Cert.Kernel.S160 EltTy.i32)
local notation "b1" => (Memref.whole Cert.Kernel.cc0_scratch1 : Memref Cert.Kernel.sig Kind.scVector Space.vmem Cert.Kernel.S160 EltTy.i32)
local notation "b2" => (Memref.whole Cert.Kernel.cc0_scratch2 : Memref Cert.Kernel.sig Kind.scVector Space.vmem Cert.Kernel.S1152 EltTy.f32)
local notation "b3" => (Memref.whole Cert.Kernel.cc0_scratch3 : Memref Cert.Kernel.sig Kind.scVector Space.vmem Cert.Kernel.S32768 EltTy.f32)
local notation "b4" => (Memref.whole Cert.Kernel.cc0_scratch4 : Memref Cert.Kernel.sig Kind.scVector Space.vmem Cert.Kernel.S160x64 EltTy.f32)
local notation "b5" => (Memref.whole Cert.Kernel.cc0_scratch5 : Memref Cert.Kernel.sig Kind.scVector Space.vmem Cert.Kernel.S160x64 EltTy.f32)

variable [FloatOps F]

/-- The table scratch holds the table's first `h + k` rows. -/
def Ilut (w : Cert.Spec.SW.Idx → F .f32) (d : Dev nD) (L : grid0.Coords) (h : Nat) (k : Nat) (_ : BitVec 32) : sProp 𝕄 :=
  iprop(∃ f, ((b3).view.loc (thr d L) ↦{fullShare} f) ∗ ⌜KC.LutOK w (h + k) f⌝)

/-- `lutOK_row` at the table scratch held whole, where reading through the view is the identity. -/
theorem lutOK_row_b3 (w : Cert.Spec.SW.Idx → F .f32) (h g i : Nat)
    (hadd : ∀ e, Cert.Spec.lutRow w (h + g) e = FloatOps.addf (Cert.Spec.lutRow w g e) (Cert.Spec.dlt w i e)) (hgh : g < h)
    (f : (b3).view.ty.Contents (Elt F)) (hf : KC.LutOK w (h + g) f)
    (a0 a1 a2 a3 o0 o1 o2 o3 : Fin 1 → Nat)
    (ia0 : ∀ j, a0 j + S16.size j ≤ S32768.size j) (ia1 : ∀ j, a1 j + S16.size j ≤ S32768.size j)
    (ia2 : ∀ j, a2 j + S16.size j ≤ S32768.size j) (ia3 : ∀ j, a3 j + S16.size j ≤ S32768.size j)
    (io0 : ∀ j, o0 j + S16.size j ≤ S32768.size j) (io1 : ∀ j, o1 j + S16.size j ≤ S32768.size j)
    (io2 : ∀ j, o2 j + S16.size j ≤ S32768.size j) (io3 : ∀ j, o3 j + S16.size j ≤ S32768.size j)
    (ha0 : a0 0 = 64 * g + 0) (ha1 : a1 0 = 64 * g + 16) (ha2 : a2 0 = 64 * g + 32) (ha3 : a3 0 = 64 * g + 48)
    (ho0 : o0 0 = 64 * (h + g) + 0) (ho1 : o1 0 = 64 * (h + g) + 16) (ho2 : o2 0 = 64 * (h + g) + 32)
    (ho3 : o3 0 = 64 * (h + g) + 48)
    (D0 D1 D2 D3 : FVec F S16 .f32)
    (hD0 : ∀ x : S16.Idx, D0 x = Cert.Spec.dlt w i (0 + (x 0).val)) (hD1 : ∀ x : S16.Idx, D1 x = Cert.Spec.dlt w i (16 + (x 0).val))
    (hD2 : ∀ x : S16.Idx, D2 x = Cert.Spec.dlt w i (32 + (x 0).val)) (hD3 : ∀ x : S16.Idx, D3 x = Cert.Spec.dlt w i (48 + (x 0).val)) :
    KC.LutOK w (h + g + 1) ((b3).view.writes (Elt F) f
      [(⟨Rect.unit (s := S32768) o3 S16.size io3, Idealize.ShloMosaic.addf (s := S16) (φ := .f32) ((b3).view.readAt (Elt F) (Rect.unit (s := S32768) a3 S16.size ia3).toLoadRect f) D3⟩ : View.Piece (Elt F) S32768 .f32),
       (⟨Rect.unit (s := S32768) o2 S16.size io2, Idealize.ShloMosaic.addf (s := S16) (φ := .f32) ((b3).view.readAt (Elt F) (Rect.unit (s := S32768) a2 S16.size ia2).toLoadRect f) D2⟩ : View.Piece (Elt F) S32768 .f32),
       (⟨Rect.unit (s := S32768) o1 S16.size io1, Idealize.ShloMosaic.addf (s := S16) (φ := .f32) ((b3).view.readAt (Elt F) (Rect.unit (s := S32768) a1 S16.size ia1).toLoadRect f) D1⟩ : View.Piece (Elt F) S32768 .f32),
       (⟨Rect.unit (s := S32768) o0 S16.size io0, Idealize.ShloMosaic.addf (s := S16) (φ := .f32) ((b3).view.readAt (Elt F) (Rect.unit (s := S32768) a0 S16.size ia0).toLoadRect f) D0⟩ : View.Piece (Elt F) S32768 .f32)]) :=
  lutOK_row w h g i hadd hgh (b3).view f hf a0 a1 a2 a3 o0 o1 o2 o3 ia0 ia1 ia2 ia3 io0 io1 io2 io3
    ha0 ha1 ha2 ha3 ho0 ho1 ho2 ho3 D0 D1 D2 D3 hD0 hD1 hD2 hD3

set_option maxHeartbeats 1000000 in
/-- Trip `k` of feature 1's loop writes row `2 + k` of the table. -/
theorem lut_region_1 (w : Cert.Spec.SW.Idx → F .f32) (d : Dev nD) (L : grid0.Coords)
    (v112 : FVec F S16 .f32) (c0 : BitVec 32) (vA0 vB0 : Vec F S16 .f32) (vA1 vB1 : Vec F S16 .f32) (vA2 vB2 : Vec F S16 .f32) (vA3 vB3 : Vec F S16 .f32)
    (hA0 : ∀ x : S16.Idx, vA0 x = Cert.Spec.wAt w (192 + (x 0).val))
    (hB0 : ∀ x : S16.Idx, vB0 x = Cert.Spec.wAt w (128 + (x 0).val))
    (hA1 : ∀ x : S16.Idx, vA1 x = Cert.Spec.wAt w (208 + (x 0).val))
    (hB1 : ∀ x : S16.Idx, vB1 x = Cert.Spec.wAt w (144 + (x 0).val))
    (hA2 : ∀ x : S16.Idx, vA2 x = Cert.Spec.wAt w (224 + (x 0).val))
    (hB2 : ∀ x : S16.Idx, vB2 x = Cert.Spec.wAt w (160 + (x 0).val))
    (hA3 : ∀ x : S16.Idx, vA3 x = Cert.Spec.wAt w (240 + (x 0).val))
    (hB3 : ∀ x : S16.Idx, vB3 x = Cert.Spec.wAt w (176 + (x 0).val)) :
    ∀ (k : Fin k0_t1_loop.trips) (acc : BitVec 32), Ilut w d L 2 k.val acc ⊢
      wp frame (wpE (defs₀ (F := F)) 𝒱₀ (thr d L) none) Set.univ
        (k0_t1_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          v112 c0 vA0 vB0 vA1 vB1 vA2 vB2 vA3 vB3 k acc)
        (Ilut w d L 2 (k.val + 1)) := by
  intro k acc
  unfold Ilut
  iintro ⟨%f, Hf, %hf⟩
  unfold k0_t1_body
  rw [k0_part1_eq_skeleton]; unfold k0_part1_skel
  sl_exec
  sl_step
  iexists _
  isplitl [Hf]
  · iexact Hf
  ipureintro
  sl_unfold_run_names
  have hk : k.val < 2 := tripsLt1 k
  have e : 2 + (k.val + 1) = 2 + k.val + 1 := by omega
  rw [e]
  exact lutOK_row_b3 w 2 k.val 1 (fun e => Cert.Algebra.lutRow_add_2 w k.val e hk) hk f hf
    (k0_off4 k 0#32) (k0_off4 k 16#32) (k0_off4 k 32#32) (k0_off4 k 48#32)
    (k0_off5 k 0#32) (k0_off5 k 16#32) (k0_off5 k 32#32) (k0_off5 k 48#32)
    _ _ _ _ _ _ _ _ (offA1_0 k) (offA1_1 k) (offA1_2 k) (offA1_3 k)
    (offO1_0 k) (offO1_1 k) (offO1_2 k) (offO1_3 k)
    (k0_pay81 vA0 vB0) (k0_pay82 vA1 vB1) (k0_pay83 vA2 vB2) (k0_pay84 vA3 vB3)
    (diff_ok w 1 0 vA0 vB0 192 128 (by norm_num) (by norm_num) hA0 hB0)
    (diff_ok w 1 16 vA1 vB1 208 144 (by norm_num) (by norm_num) hA1 hB1)
    (diff_ok w 1 32 vA2 vB2 224 160 (by norm_num) (by norm_num) hA2 hB2)
    (diff_ok w 1 48 vA3 vB3 240 176 (by norm_num) (by norm_num) hA3 hB3)

set_option maxHeartbeats 1000000 in
/-- Trip `k` of feature 2's loop writes row `4 + k` of the table. -/
theorem lut_region_2 (w : Cert.Spec.SW.Idx → F .f32) (d : Dev nD) (L : grid0.Coords)
    (di0 : FVec F S16 .f32) (di1 : FVec F S16 .f32) (di2 : FVec F S16 .f32) (di3 : FVec F S16 .f32)
    (hd0 : ∀ x : S16.Idx, di0 x = Cert.Spec.dlt w 2 (0 + (x 0).val))
    (hd1 : ∀ x : S16.Idx, di1 x = Cert.Spec.dlt w 2 (16 + (x 0).val))
    (hd2 : ∀ x : S16.Idx, di2 x = Cert.Spec.dlt w 2 (32 + (x 0).val))
    (hd3 : ∀ x : S16.Idx, di3 x = Cert.Spec.dlt w 2 (48 + (x 0).val)) :
    ∀ (k : Fin k0_t2_loop.trips) (acc : BitVec 32), Ilut w d L 4 k.val acc ⊢
      wp frame (wpE (defs₀ (F := F)) 𝒱₀ (thr d L) none) Set.univ
        (k0_t2_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          di0 di1 di2 di3 k acc)
        (Ilut w d L 4 (k.val + 1)) := by
  intro k acc
  unfold Ilut
  iintro ⟨%f, Hf, %hf⟩
  unfold k0_t2_body
  rw [k0_part2_eq_skeleton]; unfold k0_part2_skel
  sl_exec
  sl_step
  iexists _
  isplitl [Hf]
  · iexact Hf
  ipureintro
  sl_unfold_run_names
  have hk : k.val < 4 := tripsLt2 k
  have e : 4 + (k.val + 1) = 4 + k.val + 1 := by omega
  rw [e]
  exact lutOK_row_b3 w 4 k.val 2 (fun e => Cert.Algebra.lutRow_add_4 w k.val e hk) hk f hf
    (k0_off6 k 0#32) (k0_off6 k 16#32) (k0_off6 k 32#32) (k0_off6 k 48#32)
    (k0_off7 k 0#32) (k0_off7 k 16#32) (k0_off7 k 32#32) (k0_off7 k 48#32)
    _ _ _ _ _ _ _ _ (offA2_0 k) (offA2_1 k) (offA2_2 k) (offA2_3 k)
    (offO2_0 k) (offO2_1 k) (offO2_2 k) (offO2_3 k)
    di0 di1 di2 di3
    hd0
    hd1
    hd2
    hd3

set_option maxHeartbeats 1000000 in
/-- Trip `k` of feature 3's loop writes row `8 + k` of the table. -/
theorem lut_region_3 (w : Cert.Spec.SW.Idx → F .f32) (d : Dev nD) (L : grid0.Coords)
    (u0 : FVec F S16 .f32) (u1 : FVec F S16 .f32) (u2 : FVec F S16 .f32) (u3 : FVec F S16 .f32) (vA0 vB0 : Vec F S16 .f32) (vA1 vB1 : Vec F S16 .f32) (vA2 vB2 : Vec F S16 .f32) (vA3 vB3 : Vec F S16 .f32)
    (hA0 : ∀ x : S16.Idx, vA0 x = Cert.Spec.wAt w (448 + (x 0).val))
    (hB0 : ∀ x : S16.Idx, vB0 x = Cert.Spec.wAt w (384 + (x 0).val))
    (hA1 : ∀ x : S16.Idx, vA1 x = Cert.Spec.wAt w (464 + (x 0).val))
    (hB1 : ∀ x : S16.Idx, vB1 x = Cert.Spec.wAt w (400 + (x 0).val))
    (hA2 : ∀ x : S16.Idx, vA2 x = Cert.Spec.wAt w (480 + (x 0).val))
    (hB2 : ∀ x : S16.Idx, vB2 x = Cert.Spec.wAt w (416 + (x 0).val))
    (hA3 : ∀ x : S16.Idx, vA3 x = Cert.Spec.wAt w (496 + (x 0).val))
    (hB3 : ∀ x : S16.Idx, vB3 x = Cert.Spec.wAt w (432 + (x 0).val)) :
    ∀ (k : Fin k0_t3_loop.trips) (acc : BitVec 32), Ilut w d L 8 k.val acc ⊢
      wp frame (wpE (defs₀ (F := F)) 𝒱₀ (thr d L) none) Set.univ
        (k0_t3_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          u0 u1 u2 u3 vA0 vB0 vA1 vB1 vA2 vB2 vA3 vB3 k acc)
        (Ilut w d L 8 (k.val + 1)) := by
  intro k acc
  unfold Ilut
  iintro ⟨%f, Hf, %hf⟩
  unfold k0_t3_body
  rw [k0_part3_eq_skeleton]; unfold k0_part3_skel
  sl_exec
  sl_step
  iexists _
  isplitl [Hf]
  · iexact Hf
  ipureintro
  sl_unfold_run_names
  have hk : k.val < 8 := tripsLt3 k
  have e : 8 + (k.val + 1) = 8 + k.val + 1 := by omega
  rw [e]
  exact lutOK_row_b3 w 8 k.val 3 (fun e => Cert.Algebra.lutRow_add_8 w k.val e hk) hk f hf
    (k0_off8 k 0#32) (k0_off8 k 16#32) (k0_off8 k 32#32) (k0_off8 k 48#32)
    (k0_off9 k 0#32) (k0_off9 k 16#32) (k0_off9 k 32#32) (k0_off9 k 48#32)
    _ _ _ _ _ _ _ _ (offA3_0 k) (offA3_1 k) (offA3_2 k) (offA3_3 k)
    (offO3_0 k) (offO3_1 k) (offO3_2 k) (offO3_3 k)
    (k0_pay89 vA0 vB0) (k0_pay90 vA1 vB1) (k0_pay91 vA2 vB2) (k0_pay92 vA3 vB3)
    (diff_ok w 3 0 vA0 vB0 448 384 (by norm_num) (by norm_num) hA0 hB0)
    (diff_ok w 3 16 vA1 vB1 464 400 (by norm_num) (by norm_num) hA1 hB1)
    (diff_ok w 3 32 vA2 vB2 480 416 (by norm_num) (by norm_num) hA2 hB2)
    (diff_ok w 3 48 vA3 vB3 496 432 (by norm_num) (by norm_num) hA3 hB3)

set_option maxHeartbeats 1000000 in
/-- Trip `k` of feature 4's loop writes row `16 + k` of the table. -/
theorem lut_region_4 (w : Cert.Spec.SW.Idx → F .f32) (d : Dev nD) (L : grid0.Coords)
    (u0 : FVec F S16 .f32) (u1 : FVec F S16 .f32) (u2 : FVec F S16 .f32) (u3 : FVec F S16 .f32) (vA0 vB0 : Vec F S16 .f32) (vA1 vB1 : Vec F S16 .f32) (vA2 vB2 : Vec F S16 .f32) (vA3 vB3 : Vec F S16 .f32)
    (hA0 : ∀ x : S16.Idx, vA0 x = Cert.Spec.wAt w (576 + (x 0).val))
    (hB0 : ∀ x : S16.Idx, vB0 x = Cert.Spec.wAt w (512 + (x 0).val))
    (hA1 : ∀ x : S16.Idx, vA1 x = Cert.Spec.wAt w (592 + (x 0).val))
    (hB1 : ∀ x : S16.Idx, vB1 x = Cert.Spec.wAt w (528 + (x 0).val))
    (hA2 : ∀ x : S16.Idx, vA2 x = Cert.Spec.wAt w (608 + (x 0).val))
    (hB2 : ∀ x : S16.Idx, vB2 x = Cert.Spec.wAt w (544 + (x 0).val))
    (hA3 : ∀ x : S16.Idx, vA3 x = Cert.Spec.wAt w (624 + (x 0).val))
    (hB3 : ∀ x : S16.Idx, vB3 x = Cert.Spec.wAt w (560 + (x 0).val)) :
    ∀ (k : Fin k0_t4_loop.trips) (acc : BitVec 32), Ilut w d L 16 k.val acc ⊢
      wp frame (wpE (defs₀ (F := F)) 𝒱₀ (thr d L) none) Set.univ
        (k0_t4_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          u0 u1 u2 u3 vA0 vB0 vA1 vB1 vA2 vB2 vA3 vB3 k acc)
        (Ilut w d L 16 (k.val + 1)) := by
  intro k acc
  unfold Ilut
  iintro ⟨%f, Hf, %hf⟩
  unfold k0_t4_body
  rw [k0_part4_eq_skeleton]; unfold k0_part4_skel
  sl_exec
  sl_step
  iexists _
  isplitl [Hf]
  · iexact Hf
  ipureintro
  sl_unfold_run_names
  have hk : k.val < 16 := tripsLt4 k
  have e : 16 + (k.val + 1) = 16 + k.val + 1 := by omega
  rw [e]
  exact lutOK_row_b3 w 16 k.val 4 (fun e => Cert.Algebra.lutRow_add_16 w k.val e hk) hk f hf
    (k0_off10 k 0#32) (k0_off10 k 16#32) (k0_off10 k 32#32) (k0_off10 k 48#32)
    (k0_off11 k 0#32) (k0_off11 k 16#32) (k0_off11 k 32#32) (k0_off11 k 48#32)
    _ _ _ _ _ _ _ _ (offA4_0 k) (offA4_1 k) (offA4_2 k) (offA4_3 k)
    (offO4_0 k) (offO4_1 k) (offO4_2 k) (offO4_3 k)
    (k0_pay93 vA0 vB0) (k0_pay94 vA1 vB1) (k0_pay95 vA2 vB2) (k0_pay96 vA3 vB3)
    (diff_ok w 4 0 vA0 vB0 576 512 (by norm_num) (by norm_num) hA0 hB0)
    (diff_ok w 4 16 vA1 vB1 592 528 (by norm_num) (by norm_num) hA1 hB1)
    (diff_ok w 4 32 vA2 vB2 608 544 (by norm_num) (by norm_num) hA2 hB2)
    (diff_ok w 4 48 vA3 vB3 624 560 (by norm_num) (by norm_num) hA3 hB3)

set_option maxHeartbeats 1000000 in
/-- Trip `k` of feature 5's loop writes row `32 + k` of the table. -/
theorem lut_region_5 (w : Cert.Spec.SW.Idx → F .f32) (d : Dev nD) (L : grid0.Coords)
    (vA0 vB0 : Vec F S16 .f32) (vA1 vB1 : Vec F S16 .f32) (vA2 vB2 : Vec F S16 .f32) (vA3 vB3 : Vec F S16 .f32)
    (hA0 : ∀ x : S16.Idx, vA0 x = Cert.Spec.wAt w (704 + (x 0).val))
    (hB0 : ∀ x : S16.Idx, vB0 x = Cert.Spec.wAt w (640 + (x 0).val))
    (hA1 : ∀ x : S16.Idx, vA1 x = Cert.Spec.wAt w (720 + (x 0).val))
    (hB1 : ∀ x : S16.Idx, vB1 x = Cert.Spec.wAt w (656 + (x 0).val))
    (hA2 : ∀ x : S16.Idx, vA2 x = Cert.Spec.wAt w (736 + (x 0).val))
    (hB2 : ∀ x : S16.Idx, vB2 x = Cert.Spec.wAt w (672 + (x 0).val))
    (hA3 : ∀ x : S16.Idx, vA3 x = Cert.Spec.wAt w (752 + (x 0).val))
    (hB3 : ∀ x : S16.Idx, vB3 x = Cert.Spec.wAt w (688 + (x 0).val)) :
    ∀ (k : Fin k0_t5_loop.trips) (acc : BitVec 32), Ilut w d L 32 k.val acc ⊢
      wp frame (wpE (defs₀ (F := F)) 𝒱₀ (thr d L) none) Set.univ
        (k0_t5_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          vA0 vB0 vA1 vB1 vA2 vB2 vA3 vB3 k acc)
        (Ilut w d L 32 (k.val + 1)) := by
  intro k acc
  unfold Ilut
  iintro ⟨%f, Hf, %hf⟩
  unfold k0_t5_body
  rw [k0_part5_eq_skeleton]; unfold k0_part5_skel
  sl_exec
  sl_step
  iexists _
  isplitl [Hf]
  · iexact Hf
  ipureintro
  sl_unfold_run_names
  have hk : k.val < 32 := tripsLt5 k
  have e : 32 + (k.val + 1) = 32 + k.val + 1 := by omega
  rw [e]
  exact lutOK_row_b3 w 32 k.val 5 (fun e => Cert.Algebra.lutRow_add_32 w k.val e hk) hk f hf
    (k0_off12 k 0#32) (k0_off12 k 16#32) (k0_off12 k 32#32) (k0_off12 k 48#32)
    (k0_off13 k 0#32) (k0_off13 k 16#32) (k0_off13 k 32#32) (k0_off13 k 48#32)
    _ _ _ _ _ _ _ _ (offA5_0 k) (offA5_1 k) (offA5_2 k) (offA5_3 k)
    (offO5_0 k) (offO5_1 k) (offO5_2 k) (offO5_3 k)
    (k0_pay97 vA0 vB0) (k0_pay98 vA1 vB1) (k0_pay99 vA2 vB2) (k0_pay100 vA3 vB3)
    (diff_ok w 5 0 vA0 vB0 704 640 (by norm_num) (by norm_num) hA0 hB0)
    (diff_ok w 5 16 vA1 vB1 720 656 (by norm_num) (by norm_num) hA1 hB1)
    (diff_ok w 5 32 vA2 vB2 736 672 (by norm_num) (by norm_num) hA2 hB2)
    (diff_ok w 5 48 vA3 vB3 752 688 (by norm_num) (by norm_num) hA3 hB3)

set_option maxHeartbeats 1000000 in
/-- Trip `k` of feature 6's loop writes row `64 + k` of the table. -/
theorem lut_region_6 (w : Cert.Spec.SW.Idx → F .f32) (d : Dev nD) (L : grid0.Coords)
    (vA0 vB0 : Vec F S16 .f32) (vA1 vB1 : Vec F S16 .f32) (vA2 vB2 : Vec F S16 .f32) (vA3 vB3 : Vec F S16 .f32)
    (hA0 : ∀ x : S16.Idx, vA0 x = Cert.Spec.wAt w (832 + (x 0).val))
    (hB0 : ∀ x : S16.Idx, vB0 x = Cert.Spec.wAt w (768 + (x 0).val))
    (hA1 : ∀ x : S16.Idx, vA1 x = Cert.Spec.wAt w (848 + (x 0).val))
    (hB1 : ∀ x : S16.Idx, vB1 x = Cert.Spec.wAt w (784 + (x 0).val))
    (hA2 : ∀ x : S16.Idx, vA2 x = Cert.Spec.wAt w (864 + (x 0).val))
    (hB2 : ∀ x : S16.Idx, vB2 x = Cert.Spec.wAt w (800 + (x 0).val))
    (hA3 : ∀ x : S16.Idx, vA3 x = Cert.Spec.wAt w (880 + (x 0).val))
    (hB3 : ∀ x : S16.Idx, vB3 x = Cert.Spec.wAt w (816 + (x 0).val)) :
    ∀ (k : Fin k0_t6_loop.trips) (acc : BitVec 32), Ilut w d L 64 k.val acc ⊢
      wp frame (wpE (defs₀ (F := F)) 𝒱₀ (thr d L) none) Set.univ
        (k0_t6_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          vA0 vB0 vA1 vB1 vA2 vB2 vA3 vB3 k acc)
        (Ilut w d L 64 (k.val + 1)) := by
  intro k acc
  unfold Ilut
  iintro ⟨%f, Hf, %hf⟩
  unfold k0_t6_body
  rw [k0_part6_eq_skeleton]; unfold k0_part6_skel
  sl_exec
  sl_step
  iexists _
  isplitl [Hf]
  · iexact Hf
  ipureintro
  sl_unfold_run_names
  have hk : k.val < 64 := tripsLt6 k
  have e : 64 + (k.val + 1) = 64 + k.val + 1 := by omega
  rw [e]
  exact lutOK_row_b3 w 64 k.val 6 (fun e => Cert.Algebra.lutRow_add_64 w k.val e hk) hk f hf
    (k0_off14 k 0#32) (k0_off14 k 16#32) (k0_off14 k 32#32) (k0_off14 k 48#32)
    (k0_off15 k 0#32) (k0_off15 k 16#32) (k0_off15 k 32#32) (k0_off15 k 48#32)
    _ _ _ _ _ _ _ _ (offA6_0 k) (offA6_1 k) (offA6_2 k) (offA6_3 k)
    (offO6_0 k) (offO6_1 k) (offO6_2 k) (offO6_3 k)
    (k0_pay101 vA0 vB0) (k0_pay102 vA1 vB1) (k0_pay103 vA2 vB2) (k0_pay104 vA3 vB3)
    (diff_ok w 6 0 vA0 vB0 832 768 (by norm_num) (by norm_num) hA0 hB0)
    (diff_ok w 6 16 vA1 vB1 848 784 (by norm_num) (by norm_num) hA1 hB1)
    (diff_ok w 6 32 vA2 vB2 864 800 (by norm_num) (by norm_num) hA2 hB2)
    (diff_ok w 6 48 vA3 vB3 880 816 (by norm_num) (by norm_num) hA3 hB3)

set_option maxHeartbeats 1000000 in
/-- Trip `k` of feature 7's loop writes row `128 + k` of the table. -/
theorem lut_region_7 (w : Cert.Spec.SW.Idx → F .f32) (d : Dev nD) (L : grid0.Coords)
    (v1 : BitVec 32) (v20 : BitVec 32) (di0 : FVec F S16 .f32) (vA1 vB1 : Vec F S16 .f32) (vA2 vB2 : Vec F S16 .f32) (vA3 vB3 : Vec F S16 .f32)
    (hd0 : ∀ x : S16.Idx, di0 x = Cert.Spec.dlt w 7 (0 + (x 0).val))
    (hA1 : ∀ x : S16.Idx, vA1 x = Cert.Spec.wAt w (976 + (x 0).val))
    (hB1 : ∀ x : S16.Idx, vB1 x = Cert.Spec.wAt w (912 + (x 0).val))
    (hA2 : ∀ x : S16.Idx, vA2 x = Cert.Spec.wAt w (992 + (x 0).val))
    (hB2 : ∀ x : S16.Idx, vB2 x = Cert.Spec.wAt w (928 + (x 0).val))
    (hA3 : ∀ x : S16.Idx, vA3 x = Cert.Spec.wAt w (1008 + (x 0).val))
    (hB3 : ∀ x : S16.Idx, vB3 x = Cert.Spec.wAt w (944 + (x 0).val)) :
    ∀ (k : Fin k0_t7_loop.trips) (acc : BitVec 32), Ilut w d L 128 k.val acc ⊢
      wp frame (wpE (defs₀ (F := F)) 𝒱₀ (thr d L) none) Set.univ
        (k0_t7_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          v1 v20 di0 vA1 vB1 vA2 vB2 vA3 vB3 k acc)
        (Ilut w d L 128 (k.val + 1)) := by
  intro k acc
  unfold Ilut
  iintro ⟨%f, Hf, %hf⟩
  unfold k0_t7_body
  rw [k0_part7_eq_skeleton]; unfold k0_part7_skel
  sl_exec
  sl_step
  iexists _
  isplitl [Hf]
  · iexact Hf
  ipureintro
  sl_unfold_run_names
  have hk : k.val < 128 := tripsLt7 k
  have e : 128 + (k.val + 1) = 128 + k.val + 1 := by omega
  rw [e]
  exact lutOK_row_b3 w 128 k.val 7 (fun e => Cert.Algebra.lutRow_add_128 w k.val e hk) hk f hf
    (k0_off16 k 0#32) (k0_off16 k 16#32) (k0_off16 k 32#32) (k0_off16 k 48#32)
    (k0_off17 k 0#32) (k0_off17 k 16#32) (k0_off17 k 32#32) (k0_off17 k 48#32)
    _ _ _ _ _ _ _ _ (offA7_0 k) (offA7_1 k) (offA7_2 k) (offA7_3 k)
    (offO7_0 k) (offO7_1 k) (offO7_2 k) (offO7_3 k)
    di0 (k0_pay106 vA1 vB1) (k0_pay107 vA2 vB2) (k0_pay108 vA3 vB3)
    hd0
    (diff_ok w 7 16 vA1 vB1 976 912 (by norm_num) (by norm_num) hA1 hB1)
    (diff_ok w 7 32 vA2 vB2 992 928 (by norm_num) (by norm_num) hA2 hB2)
    (diff_ok w 7 48 vA3 vB3 1008 944 (by norm_num) (by norm_num) hA3 hB3)

set_option maxHeartbeats 1000000 in
/-- Trip `k` of feature 8's loop writes row `256 + k` of the table. -/
theorem lut_region_8 (w : Cert.Spec.SW.Idx → F .f32) (d : Dev nD) (L : grid0.Coords)
    (v1 : BitVec 32) (v20 : BitVec 32) (u0 : FVec F S16 .f32) (vA0 vB0 : Vec F S16 .f32) (vA1 vB1 : Vec F S16 .f32) (vA2 vB2 : Vec F S16 .f32) (vA3 vB3 : Vec F S16 .f32)
    (hA0 : ∀ x : S16.Idx, vA0 x = Cert.Spec.wAt w (1088 + (x 0).val))
    (hB0 : ∀ x : S16.Idx, vB0 x = Cert.Spec.wAt w (1024 + (x 0).val))
    (hA1 : ∀ x : S16.Idx, vA1 x = Cert.Spec.wAt w (1104 + (x 0).val))
    (hB1 : ∀ x : S16.Idx, vB1 x = Cert.Spec.wAt w (1040 + (x 0).val))
    (hA2 : ∀ x : S16.Idx, vA2 x = Cert.Spec.wAt w (1120 + (x 0).val))
    (hB2 : ∀ x : S16.Idx, vB2 x = Cert.Spec.wAt w (1056 + (x 0).val))
    (hA3 : ∀ x : S16.Idx, vA3 x = Cert.Spec.wAt w (1136 + (x 0).val))
    (hB3 : ∀ x : S16.Idx, vB3 x = Cert.Spec.wAt w (1072 + (x 0).val)) :
    ∀ (k : Fin k0_t8_loop.trips) (acc : BitVec 32), Ilut w d L 256 k.val acc ⊢
      wp frame (wpE (defs₀ (F := F)) 𝒱₀ (thr d L) none) Set.univ
        (k0_t8_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          v1 v20 u0 vA0 vB0 vA1 vB1 vA2 vB2 vA3 vB3 k acc)
        (Ilut w d L 256 (k.val + 1)) := by
  intro k acc
  unfold Ilut
  iintro ⟨%f, Hf, %hf⟩
  unfold k0_t8_body
  rw [k0_part8_eq_skeleton]; unfold k0_part8_skel
  sl_exec
  sl_step
  iexists _
  isplitl [Hf]
  · iexact Hf
  ipureintro
  sl_unfold_run_names
  have hk : k.val < 256 := tripsLt8 k
  have e : 256 + (k.val + 1) = 256 + k.val + 1 := by omega
  rw [e]
  exact lutOK_row_b3 w 256 k.val 8 (fun e => Cert.Algebra.lutRow_add_256 w k.val e hk) hk f hf
    (k0_off18 k 0#32) (k0_off18 k 16#32) (k0_off18 k 32#32) (k0_off18 k 48#32)
    (k0_off19 k 0#32) (k0_off19 k 16#32) (k0_off19 k 32#32) (k0_off19 k 48#32)
    _ _ _ _ _ _ _ _ (offA8_0 k) (offA8_1 k) (offA8_2 k) (offA8_3 k)
    (offO8_0 k) (offO8_1 k) (offO8_2 k) (offO8_3 k)
    (k0_pay109 vA0 vB0) (k0_pay110 vA1 vB1) (k0_pay111 vA2 vB2) (k0_pay112 vA3 vB3)
    (diff_ok w 8 0 vA0 vB0 1088 1024 (by norm_num) (by norm_num) hA0 hB0)
    (diff_ok w 8 16 vA1 vB1 1104 1040 (by norm_num) (by norm_num) hA1 hB1)
    (diff_ok w 8 32 vA2 vB2 1120 1056 (by norm_num) (by norm_num) hA2 hB2)
    (diff_ok w 8 48 vA3 vB3 1136 1072 (by norm_num) (by norm_num) hA3 hB3)

end Cert.Kernel.KLut

end
-- ==== Proof.KEndsB.lean ====
/-
  The two ends of the ring of transfers: what the two copies of packed words issued before the ring deliver, and
  how the worker's blocks of the result are put back together after it.
-/
import proofs.«207339_g86234353369688_cont_sun_m_1071_33_alg».proof.Proof.KTile1B
import proofs.«207339_g86234353369688_cont_sun_m_1071_33_alg».proof.Proof.KTile0B

noncomputable section

namespace Cert.Kernel.KT

open Cert.Kernel Cert.Kernel.Gen Cert.Kernel.KC Cert.Kernel.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.Kernel.main_v15_scv : Memref Cert.Kernel.sig Kind.scVector Space.hbm Cert.Kernel.S100000 EltTy.i32)
local notation "wW" => (Memref.whole Cert.Kernel.main_v8_scv : Memref Cert.Kernel.sig Kind.scVector Space.hbm Cert.Kernel.S1152 EltTy.f32)
local notation "oW" => (Memref.whole Cert.Kernel.main_v16_scv : Memref Cert.Kernel.sig Kind.scVector Space.hbm Cert.Kernel.S100000x64 EltTy.f32)
local notation "b0" => (Memref.whole Cert.Kernel.cc0_scratch0 : Memref Cert.Kernel.sig Kind.scVector Space.vmem Cert.Kernel.S160 EltTy.i32)
local notation "b1" => (Memref.whole Cert.Kernel.cc0_scratch1 : Memref Cert.Kernel.sig Kind.scVector Space.vmem Cert.Kernel.S160 EltTy.i32)
local notation "b2" => (Memref.whole Cert.Kernel.cc0_scratch2 : Memref Cert.Kernel.sig Kind.scVector Space.vmem Cert.Kernel.S1152 EltTy.f32)
local notation "b3" => (Memref.whole Cert.Kernel.cc0_scratch3 : Memref Cert.Kernel.sig Kind.scVector Space.vmem Cert.Kernel.S32768 EltTy.f32)
local notation "b4" => (Memref.whole Cert.Kernel.cc0_scratch4 : Memref Cert.Kernel.sig Kind.scVector Space.vmem Cert.Kernel.S160x64 EltTy.f32)
local notation "b5" => (Memref.whole Cert.Kernel.cc0_scratch5 : Memref Cert.Kernel.sig Kind.scVector Space.vmem Cert.Kernel.S160x64 EltTy.f32)

variable [FloatOps F]
variable (d : Dev nD) (L : grid0.Coords)

/-- A landed copy of an even-numbered block's packed words, whatever came with it. -/
theorem DX0_intro (xp : Buf (Elt F) (pLoc d)) (s : Nat) (xv : Buf (Elt F) ((b0).view.loc (thr d L))) (P : sProp 𝕄)
    (h : KC.XvOK xp (bE L s) xv) :
    (iprop(((b0).view.loc (thr d L) ↦{fullShare} xv) ∗ P) : sProp 𝕄) ⊢ DX0 d L xp s := by
  iintro ⟨H, -⟩
  iexists xv
  isplitl [H]; · iexact H
  ipureintro; exact h

/-- The same for an odd-numbered block. -/
theorem DX1_intro (xp : Buf (Elt F) (pLoc d)) (s : Nat) (xv : Buf (Elt F) ((b1).view.loc (thr d L))) (P : sProp 𝕄)
    (h : KC.XvOK xp (bO L s) xv) :
    (iprop(((b1).view.loc (thr d L) ↦{fullShare} xv) ∗ P) : sProp 𝕄) ⊢ DX1 d L xp s := by
  iintro ⟨H, -⟩
  iexists xv
  isplitl [H]; · iexact H
  ipureintro; exact h

/-! ## The two copies issued before the ring -/

omit [FloatOps F] in
/-- The slice of the packed words the first copy reads starts at the worker's first even-numbered block. -/
theorem off1_even : k0_off1 L 0#32 = ![160 * bE L 0] :=
  (Gen.k0_off1_eq L ⟨0, by decide⟩).trans (congrArg (fun x : Nat => (![x] : Fin 1 → Nat))
    (by show 320 * (L 1).val + 160 * (L 0).val + 5120 * 0 = 160 * (wid L + 64 * 0); unfold wid; omega))

omit [FloatOps F] in
/-- The second copy's slice starts at the worker's first odd-numbered block. -/
theorem off1_odd : k0_off1 L 32#32 = ![160 * bO L 0] :=
  (Gen.k0_off1_eq L ⟨1, by decide⟩).trans (congrArg (fun x : Nat => (![x] : Fin 1 → Nat))
    (by show 320 * (L 1).val + 160 * (L 0).val + 5120 * 1 = 160 * (wid L + 64 * 0 + 32); unfold wid; omega))

omit [FloatOps F] in
/-- The first index scratch written whole with what a 160-word slice of the packed words at word `160 b` reads holds
    block `b` of the packed words. -/
theorem xv_of_copy0 (xp : Buf (Elt F) (pLoc d)) (b : Nat) (off : Fin 1 → Nat)
    (h : ∀ a, off a + S160.size a ≤ S100000.size a) (hoff : off = ![160 * b])
    (f0 : Buf (Elt F) ((b0).view.loc (thr d L))) :
    KC.XvOK xp b (View.write (Elt F) (b0).view f0
      (ReadAs.same.apply (View.read (Elt F) ((pW).slice (Rect.unit (s := S100000) off S160.size h) (fun _ => rfl)).view xp)) Finset.univ) := by
  subst hoff
  show KC.XvOK xp b ((View.whole (cc0_scratch0 : Ref sig .scVector)).write (Elt F) f0 _ Finset.univ)
  rw [View.write_whole_univ]
  intro r
  refine ⟨(Rect.unit (s := S100000) ![160 * b] S160.size h).emb r, ?_, rfl⟩
  show (![160 * b] : Fin 1 → Nat) 0 + 1 * (r 0).val = 160 * b + (r 0).val
  simp

omit [FloatOps F] in
/-- The same for the second index scratch. -/
theorem xv_of_copy1 (xp : Buf (Elt F) (pLoc d)) (b : Nat) (off : Fin 1 → Nat)
    (h : ∀ a, off a + S160.size a ≤ S100000.size a) (hoff : off = ![160 * b])
    (f1 : Buf (Elt F) ((b1).view.loc (thr d L))) :
    KC.XvOK xp b (View.write (Elt F) (b1).view f1
      (ReadAs.same.apply (View.read (Elt F) ((pW).slice (Rect.unit (s := S100000) off S160.size h) (fun _ => rfl)).view xp)) Finset.univ) := by
  subst hoff
  show KC.XvOK xp b ((View.whole (cc0_scratch1 : Ref sig .scVector)).write (Elt F) f1 _ Finset.univ)
  rw [View.write_whole_univ]
  intro r
  refine ⟨(Rect.unit (s := S100000) ![160 * b] S160.size h).emb r, ?_, rfl⟩
  show (![160 * b] : Fin 1 → Nat) 0 + 1 * (r 0).val = 160 * b + (r 0).val
  simp

/-! ## After the ring -/

omit [FloatOps F] in
/-- A wait at the index that owes nothing keeps the recorded waits within what the task may have waited for. -/
theorem waits_insert (W W' : Waits sig (HIx 1)) (sm : SemLoc sig) (h : ∀ p ∈ W', p ∈ W ∨ p.2 = none) :
    ∀ p ∈ insert (sm, (default : HIx 1)) W', p ∈ W ∨ p.2 = none := by
  intro p hp
  rcases Finset.mem_insert.mp hp with e | e
  · exact .inr (e ▸ rfl)
  · exact h p e

omit [FloatOps F] in
/-- The worker's rows of the result from its blocks as the ring leaves them: the even-numbered blocks of steps 0 to 8
    and the one of step 9, the odd-numbered blocks but the last and the last. -/
theorem rows_join (f : Buf (Elt F) (oLoc d)) :
    (iprop((bigSep (Finset.range (10 - 1)) fun s => oLoc d ↦[blkSet (bE L s)]{fullShare} f)
        ∗ (oLoc d ↦[blkSet (bE L (10 - 1))]{fullShare} f)
        ∗ (bigSep (Finset.range (min 10 (nOdd L) - 1)) fun s => oLoc d ↦[blkSet (bO L s)]{fullShare} f)
        ∗ (oLoc d ↦[blkSet (bO L (min 10 (nOdd L) - 1))]{fullShare} f)) : sProp 𝕄)
      ⊢ (oLoc d ↦[rowsOf (wid L)]{fullShare} f) := by
  obtain ⟨k, hk1, hk2⟩ : ∃ k, nOdd L = k + 1 ∧ min 10 (nOdd L) - 1 = k :=
    ⟨nOdd L - 1, by have := nOdd_ge L; omega, by have := nOdd_ge L; have := nOdd_le L; omega⟩
  rw [rows_split d L fullShare f, hk2, hk1, ← Finset.range_eq_Ico, ← Finset.range_eq_Ico, range_push k,
    show Finset.range 10 = Finset.range (9 + 1) from rfl, range_push 9]
  iintro ⟨HdE, HlE, HdO, HlO⟩
  isplitl [HdE HlE]
  · isplitl [HlE]; · iexact HlE
    iexact HdE
  · isplitl [HlO]; · iexact HlO
    iexact HdO

end Cert.Kernel.KT

end
-- ==== Proof.KCompLibB.lean ====
/-
  One trip of the compute loop, as pure facts.

  A trip of the loop handles sixteen rows of a 160-row block.  For row `r = 16 k + j` it reads the packed word
  `xv[r]`, multiplies it by 64 — the offset of table row `xv[r]` in the flat table scratch —, reads the four
  sixteen-lane pieces of that table row and writes them to row `r` of the staging buffer.  This file states: the
  offset is in range of the table scratch (the words are below 512); what each of the four loads reads is the
  table row of the packed word; and how the staging buffer's contents grow, one sixteen-lane piece at a time
  (`PartOK`), from "the first `16 k` rows are done" to "the first `16 (k + 1)` rows are done".
-/
import proofs.«207339_g86234353369688_cont_sun_m_1071_33_alg».proof.Proof.KCommonB
import proofs.«207339_g86234353369688_cont_sun_m_1071_33_alg».proof.Proof.KInvB
import Idealize.ShloMosaic.Lib.Pipeline.Value

noncomputable section

namespace Cert.Kernel.KCompLib

open Cert.Kernel Cert.Kernel.Gen Cert.Kernel.KC
open Idealize.ShloMosaic Idealize.ShloMosaic.ValueIdx

variable {F : FTy → Type} [FloatOps F]

/-- What a staging buffer is filled with: row `r` is the table row named by word `r` of the index scratch. -/
def G (w : Cert.Spec.SW.Idx → F .f32) (xv : S160.Idx → BitVec 32) : S160x64.Idx → F .f32 :=
  fun y => Cert.Spec.lutRow w (xv (ix1 (y 0))).toNat (y 1).val

/-- The words of the index scratch are packed words, so below 512. -/
theorem xv_lt {xp : S100000.Idx → BitVec 32} {blk : Nat} {xv : S160.Idx → BitVec 32}
    (hxp : ∀ n : S100000.Idx, (xp n).toNat < 512) (hxv : XvOK xp blk xv) (r : S160.Idx) : (xv r).toNat < 512 := by
  obtain ⟨n, -, e⟩ := hxv r
  rw [e]; exact hxp n

/-- Rows that agree with `G` are done in the sense of `OutOK`; -/
theorem outOK_of_G {w : Cert.Spec.SW.Idx → F .f32} {xp : S100000.Idx → BitVec 32} {blk : Nat} {xv : S160.Idx → BitVec 32}
    (hxv : XvOK xp blk xv) (n : Nat) (f : S160x64.Idx → F .f32)
    (h : ∀ y : S160x64.Idx, (y 0).val < n → f y = G w xv y) : OutOK w xp blk n f := by
  intro y hy
  obtain ⟨m, hm, e⟩ := hxv (ix1 (y 0))
  exact ⟨m, hm, by rw [h y hy, G, e]⟩

/-- and conversely. -/
theorem G_of_outOK {w : Cert.Spec.SW.Idx → F .f32} {xp : S100000.Idx → BitVec 32} {blk : Nat} {xv : S160.Idx → BitVec 32}
    (hxv : XvOK xp blk xv) (n : Nat) (f : S160x64.Idx → F .f32) (h : OutOK w xp blk n f) :
    ∀ y : S160x64.Idx, (y 0).val < n → f y = G w xv y := by
  intro y hy
  obtain ⟨m, hm, e⟩ := h y hy
  obtain ⟨m', hm', e'⟩ := hxv (ix1 (y 0))
  have hmm : m = m' := by
    funext a
    match a with
    | ⟨0, _⟩ => exact Fin.ext (hm.trans hm'.symm)
  rw [e, G, e', hmm]

section Part

variable {sg : RefSig} {κ : Kind} {sp : Space} (v : View sg κ sp S160x64 .f32) (Gf : S160x64.Idx → F .f32)

/-- The rows below `n`, and the first `c` lanes of row `n`, read `Gf` through the view. -/
def PartOK (n c : Nat) (g : v.ty.Contents (Elt F)) : Prop :=
  ∀ y : S160x64.Idx, ((y 0).val < n ∨ ((y 0).val = n ∧ (y 1).val < c)) → v.read (Elt F) g y = Gf y

/-- A full row is the next row with no lane yet. -/
theorem part_next {n m : Nat} {g : v.ty.Contents (Elt F)} (h : PartOK v Gf n 64 g) (hm : m = n + 1) : PartOK v Gf m 0 g := by
  subst hm
  intro y hy
  apply h y
  have := idx2_lt1 y
  omega

/-- One more piece of sixteen lanes of row `n`, written with `Gf`'s values. -/
theorem part_cons (n c c2 : Nat) {n' c' : Nat} {g0 : v.ty.Contents (Elt F)} {L : List (View.Piece (Elt F) S160x64 .f32)}
    {off : Fin 2 → Nat} {inb : ∀ a, off a + S1x16.size a ≤ S160x64.size a}
    {wv : (Rect.unit (s := S160x64) off S1x16.size inb).shape.Idx → F .f32}
    (hoff : off = ![n', c']) (hn : n' = n) (hc : c' = c) (hc2 : c2 = c + 16)
    (hw : ∀ x, wv x = Gf ((Rect.unit (s := S160x64) off S1x16.size inb).emb x))
    (h : PartOK v Gf n c (v.writes (Elt F) g0 L)) :
    PartOK v Gf n c2 (v.writes (Elt F) g0 (⟨Rect.unit (s := S160x64) off S1x16.size inb, wv⟩ :: L)) := by
  subst hn hc hc2
  intro y hy
  by_cases hmem : y ∈ (Rect.unit (s := S160x64) off S1x16.size inb).set
  · obtain ⟨x, rfl⟩ := (Rect.unit (s := S160x64) off S1x16.size inb).exists_idx_of_mem hmem
    rw [show (Rect.unit (s := S160x64) off S1x16.size inb).toLoadRect.idx x = (Rect.unit (s := S160x64) off S1x16.size inb).emb x from rfl,
      View.read_writes_cons_emb]
    exact hw x
  · rw [View.writes_cons, View.read_slice_write_of_not_mem _ _ _ _ (by rw [Rect.map_emb_univ]; exact hmem)]
    apply h y
    rw [Rect.mem_set_unit] at hmem
    subst hoff
    have hm2 : ¬ ((n' ≤ (y 0).val ∧ (y 0).val < n' + 1) ∧ (c' ≤ (y 1).val ∧ (y 1).val < c' + 16)) :=
      fun hh => hmem (Fin.forall_fin_two.2 hh)
    omega

/-- "The first `n` rows are done", from the piecewise form; -/
theorem outOK_of_part {w : Cert.Spec.SW.Idx → F .f32} {xp : S100000.Idx → BitVec 32} {blk : Nat} {xv : S160.Idx → BitVec 32}
    (rd : v.ty.Contents (Elt F) → S160x64.Idx → F .f32) (hrd : ∀ g y, v.read (Elt F) g y = rd g y)
    (hxv : XvOK xp blk xv) (n m : Nat) (g : v.ty.Contents (Elt F)) (h : PartOK v (G w xv) n 0 g) (hm : n = m) :
    OutOK w xp blk m (rd g) :=
  hm ▸ outOK_of_G hxv n _ fun y hy => (hrd g y).symm.trans (h y (Or.inl hy))

/-- and into it. -/
theorem part_of_outOK {w : Cert.Spec.SW.Idx → F .f32} {xp : S100000.Idx → BitVec 32} {blk : Nat} {xv : S160.Idx → BitVec 32}
    (rd : v.ty.Contents (Elt F) → S160x64.Idx → F .f32) (hrd : ∀ g y, v.read (Elt F) g y = rd g y)
    (hxv : XvOK xp blk xv) (n : Nat) (g : v.ty.Contents (Elt F)) (h : OutOK w xp blk n (rd g)) :
    PartOK v (G w xv) n 0 g :=
  fun y hy => (hrd g y).trans (G_of_outOK hxv n _ h y (by omega))

end Part

/-- The word extracted for lane `j` of trip `k`: 64 times word `16 k + j` of the index scratch. -/
theorem word_eq (RD : (r : LoadRect S160) → (S160.Idx → BitVec 32) → r.shape.Idx → BitVec 32)
    (hRD : ∀ r f x, RD r f x = f (r.idx x)) (xv : S160.Idx → BitVec 32) (k : Nat)
    (offX : Fin 1 → Nat) (hoffX : offX = ![16 * k]) (inbX : ∀ a, offX a + S16.size a ≤ S160.size a)
    (j : Nat) (slj : S16.Slices ![j] S1) (ip : ∀ a, (![0] : Fin 1 → Nat) a < S1.size a) (hrow : 16 * k + j < 160) :
    extractAt ![0] (extractStridedSlice S1 ![j] (muli (s := S16) (w := 32) (RD (Rect.unit (s := S160) offX S16.size inbX).toLoadRect xv) (broadcast S16 64#32)) slj) ip
      = xv (ix1 ⟨16 * k + j, hrow⟩) * 64#32 := by
  subst hoffX
  unfold extractAt extractStridedSlice muli broadcast IntOp.muli
  rw [hRD]
  congr 2
  funext a
  match a with
  | ⟨0, _⟩ => exact Fin.ext (by show 16 * k + 1 * (j + 0) = 16 * k + j; omega)

/-- The four loads at that word's offset stay inside the table scratch. -/
theorem chk_ok {xv : S160.Idx → BitVec 32} (hp : ∀ r, (xv r).toNat < 512)
    (RD : (r : LoadRect S160) → (S160.Idx → BitVec 32) → r.shape.Idx → BitVec 32)
    (hRD : ∀ r f x, RD r f x = f (r.idx x)) (k : Nat) (hk : k < 10)
    (offX : Fin 1 → Nat) (hoffX : offX = ![16 * k]) (inbX : ∀ a, offX a + S16.size a ≤ S160.size a)
    (j : Nat) (slj : S16.Slices ![j] S1) (ip : ∀ a, (![0] : Fin 1 → Nat) a < S1.size a)
    (offF : BitVec 32 → BitVec 32 → Fin 1 → Nat)
    (hoffF : ∀ v c, offF v c = ![(Scalar.indexCast (Scalar.addi v c)).toNat]) :
    ∀ (r : Fin 4) (a : Fin 1),
      offF (extractAt ![0] (extractStridedSlice S1 ![j] (muli (s := S16) (w := 32) (RD (Rect.unit (s := S160) offX S16.size inbX).toLoadRect xv) (broadcast S16 64#32)) slj) ip)
          (BitVec.ofNat 32 (16 * r.val)) a + S16.size a ≤ S32768.size a := by
  have hj : j < 16 := by
    obtain ⟨_, h⟩ := slj
    have := h 0
    simpa using this
  intro r a
  rw [hoffF, word_eq RD hRD xv k offX hoffX inbX j slj ip (by omega)]
  have hp' := hp (ix1 ⟨16 * k + j, by omega⟩)
  have hr := r.isLt
  match a with
  | ⟨0, _⟩ =>
    show (xv (ix1 ⟨16 * k + j, _⟩) * 64#32 + BitVec.ofNat 32 (16 * r.val)).toNat + 16 ≤ 32768
    rw [BitVec.toNat_add, BitVec.toNat_mul, BitVec.toNat_ofNat]
    simp only [BitVec.toNat_ofNat]
    omega

/-- What one of the four loads at that word's offset reads, laid out as a row piece: the table row of the packed
    word, lanes `16 dd … 16 dd + 15`. -/
theorem pay_ok {w : Cert.Spec.SW.Idx → F .f32} {xv : S160.Idx → BitVec 32} {lut : S32768.Idx → F .f32}
    (hlut : LutOK w 512 lut) (hp : ∀ r, (xv r).toNat < 512)
    (RL : (r : LoadRect S32768) → (S32768.Idx → F .f32) → r.shape.Idx → F .f32) (hRL : ∀ r f x, RL r f x = f (r.idx x))
    (word : BitVec 32) (row : Nat) (hrow : row < 160) (hword : word = xv (ix1 ⟨row, hrow⟩) * 64#32)
    (dd : Nat) (hdd : dd < 4) (cst : BitVec 32) (hcst : cst.toNat = 16 * dd)
    (offF : BitVec 32 → BitVec 32 → Fin 1 → Nat)
    (hoffF : ∀ v c, offF v c = ![(Scalar.indexCast (Scalar.addi v c)).toNat])
    (inbL : ∀ a, offF word cst a + S16.size a ≤ S32768.size a)
    (off : Fin 2 → Nat) (n' c' : Nat) (hoff : off = ![n', c']) (hn : n' = row) (hc : c' = 16 * dd)
    (inb : ∀ a, off a + S1x16.size a ≤ S160x64.size a) (sc : S16.ShapeCasts S1x16) :
    ∀ x : (Rect.unit (s := S160x64) off S1x16.size inb).shape.Idx,
      shapeCast S1x16 (RL (Rect.unit (s := S32768) (offF word cst) S16.size inbL).toLoadRect lut) sc x
        = G w xv ((Rect.unit (s := S160x64) off S1x16.size inb).emb x) := by
  have hoffL := hoffF word cst
  generalize offF word cst = offL at hoffL inbL ⊢
  subst hoffL hoff hn hc
  intro x
  have hx1 : (x 1).val < 16 := (x 1).isLt
  have hx0 : (x 0).val < 1 := (x 0).isLt
  have hp' := hp (ix1 ⟨n', hrow⟩)
  have hw1 : word.toNat = 64 * (xv (ix1 ⟨n', hrow⟩)).toNat := by
    rw [hword, BitVec.toNat_mul]
    simp only [BitVec.toNat_ofNat]
    omega
  have hidx : (Scalar.indexCast (Scalar.addi word cst)).toNat = word.toNat + 16 * dd := by
    show (word + cst).toNat = _
    rw [BitVec.toNat_add, hcst]
    omega
  rw [shapeCast_apply _ sc x (ix1 ⟨(x 1).val, hx1⟩) (by
    rw [Shape.rowMajor_val_one, Shape.rowMajor_val_two]
    show (x 1).val = (x 0).val * 16 + (x 1).val
    omega)]
  rw [hRL]
  have hI : (((Rect.unit (s := S32768) ![(Scalar.indexCast (Scalar.addi word cst)).toNat] S16.size inbL).toLoadRect.idx (ix1 ⟨(x 1).val, hx1⟩)) 0).val
      = 64 * (xv (ix1 ⟨n', hrow⟩)).toNat + 16 * dd + (x 1).val := by
    show (Scalar.indexCast (Scalar.addi word cst)).toNat + 1 * (x 1).val = _
    rw [hidx, hw1]; omega
  have hE0 : ((Rect.unit (s := S160x64) ![n', 16 * dd] S1x16.size inb).emb x) 0 = ⟨n', hrow⟩ :=
    Fin.ext (by show n' + 1 * (x 0).val = n'; omega)
  have hE1 : (((Rect.unit (s := S160x64) ![n', 16 * dd] S1x16.size inb).emb x) 1).val = 16 * dd + (x 1).val := by
    show 16 * dd + 1 * (x 1).val = _; omega
  have e1 : (((Rect.unit (s := S32768) ![(Scalar.indexCast (Scalar.addi word cst)).toNat] S16.size inbL).toLoadRect.idx (ix1 ⟨(x 1).val, hx1⟩)) 0).val / 64 = (xv (ix1 ⟨n', hrow⟩)).toNat := by rw [hI]; omega
  have e2 : (((Rect.unit (s := S32768) ![(Scalar.indexCast (Scalar.addi word cst)).toNat] S16.size inbL).toLoadRect.idx (ix1 ⟨(x 1).val, hx1⟩)) 0).val % 64 = 16 * dd + (x 1).val := by rw [hI]; omega
  have hxvE : (xv (ix1 (((Rect.unit (s := S160x64) ![n', 16 * dd] S1x16.size inb).emb x) 0))).toNat = (xv (ix1 ⟨n', hrow⟩)).toNat :=
    congrArg (fun z : Fin 160 => (xv (ix1 z)).toNat) hE0
  rw [hlut _ (by rw [hI]; omega)]
  exact (congrArg₂ (Cert.Spec.lutRow w) e1 e2).trans (congrArg₂ (Cert.Spec.lutRow w) hxvE hE1).symm

end Cert.Kernel.KCompLib

end
-- ==== Proof.KComputeB.lean ====
/-
  The kernel's compute loops, as loop-region lemmas.

  For each of the two staging buffers the kernel runs a ten-trip loop; trip `k` reads sixteen packed words
  `xv[16 k … 16 k + 16)` from the index scratch, multiplies them by 64 and, for each lane `j`, copies the
  64-lane table row at offset `64 · xv[16 k + j]` of the table scratch into row `16 k + j` of the staging buffer,
  in four pieces of sixteen lanes.  The invariant (`Icmp0`, `Icmp1`) says the first `16 k` rows of the staging
  buffer hold the table rows named by the block's packed words; a region lemma (`compute_region0`,
  `compute_region1`) takes it from `k` to `k + 1`.  The pure facts used are in `KCompLib`.
-/
import proofs.«207339_g86234353369688_cont_sun_m_1071_33_alg».proof.Proof.KCommonB
import proofs.«207339_g86234353369688_cont_sun_m_1071_33_alg».proof.Proof.KInvB
import proofs.«207339_g86234353369688_cont_sun_m_1071_33_alg».proof.Proof.KCondsB
import proofs.«207339_g86234353369688_cont_sun_m_1071_33_alg».proof.Proof.KCompLibB
import proofs.«207339_g86234353369688_cont_sun_m_1071_33_alg».proof.Proof.Gen.Kernel.Skeleton

noncomputable section

namespace Cert.Kernel.KCompute

open Cert.Kernel Cert.Kernel.Gen Cert.Kernel.KC

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.Kernel.main_v15_scv : Memref Cert.Kernel.sig Kind.scVector Space.hbm Cert.Kernel.S100000 EltTy.i32)
local notation "wW" => (Memref.whole Cert.Kernel.main_v8_scv : Memref Cert.Kernel.sig Kind.scVector Space.hbm Cert.Kernel.S1152 EltTy.f32)
local notation "oW" => (Memref.whole Cert.Kernel.main_v16_scv : Memref Cert.Kernel.sig Kind.scVector Space.hbm Cert.Kernel.S100000x64 EltTy.f32)
local notation "b0" => (Memref.whole Cert.Kernel.cc0_scratch0 : Memref Cert.Kernel.sig Kind.scVector Space.vmem Cert.Kernel.S160 EltTy.i32)
local notation "b1" => (Memref.whole Cert.Kernel.cc0_scratch1 : Memref Cert.Kernel.sig Kind.scVector Space.vmem Cert.Kernel.S160 EltTy.i32)
local notation "b2" => (Memref.whole Cert.Kernel.cc0_scratch2 : Memref Cert.Kernel.sig Kind.scVector Space.vmem Cert.Kernel.S1152 EltTy.f32)
local notation "b3" => (Memref.whole Cert.Kernel.cc0_scratch3 : Memref Cert.Kernel.sig Kind.scVector Space.vmem Cert.Kernel.S32768 EltTy.f32)
local notation "b4" => (Memref.whole Cert.Kernel.cc0_scratch4 : Memref Cert.Kernel.sig Kind.scVector Space.vmem Cert.Kernel.S160x64 EltTy.f32)
local notation "b5" => (Memref.whole Cert.Kernel.cc0_scratch5 : Memref Cert.Kernel.sig Kind.scVector Space.vmem Cert.Kernel.S160x64 EltTy.f32)

variable [FloatOps F]

/-- The invariant of the compute loop over staging buffer 0: the index scratch and the table scratch as they
    are, and the first `16 k` rows of the staging buffer done. -/
def Icmp0 (w : Cert.Spec.SW.Idx → F .f32) (xp : S100000.Idx → BitVec 32) (d : Dev nD) (L : grid0.Coords) (blk : Nat)
    (xv : S160.Idx → BitVec 32) (lut : S32768.Idx → F .f32) (k : Nat) (_ : BitVec 32) : sProp 𝕄 :=
  iprop(((b0).view.loc (thr d L) ↦{fullShare} xv) ∗ ((b3).view.loc (thr d L) ↦{fullShare} lut)
    ∗ ∃ f, ((b4).view.loc (thr d L) ↦{fullShare} f) ∗ ⌜KC.OutOK w xp blk (16 * k) f⌝)

set_option maxHeartbeats 4000000 in
set_option maxRecDepth 100000 in
/-- One trip of the compute loop over staging buffer 0: sixteen more rows done. -/
theorem compute_region0 (w : Cert.Spec.SW.Idx → F .f32) (xp : S100000.Idx → BitVec 32) (d : Dev nD) (L : grid0.Coords) (blk : Nat)
    (xv : S160.Idx → BitVec 32) (lut : S32768.Idx → F .f32)
    (hxp : ∀ n : S100000.Idx, (xp n).toNat < 512) (hxv : KC.XvOK xp blk xv) (hlut : KC.LutOK w 512 lut)
    (v1 v20 : BitVec 32) (v239 : FVec F S16 .f32) (t9 : Fin k0_t9_loop.trips) (h1 : k0_cond1 L t9 = 1#1) :
    ∀ (k : Fin k0_t10_loop.trips) (acc : BitVec 32), Icmp0 w xp d L blk xv lut k.val acc ⊢
      wp frame (wpE (defs₀ (F := F)) 𝒱₀ (thr d L) none) Set.univ
        (k0_t10_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          v1 v20 v239 t9 h1 k acc)
        (Icmp0 w xp d L blk xv lut (k.val + 1)) := by
  intro k acc
  have hk10 : k.val < 10 := k.isLt.trans_eq KConds.trips10
  have hp : ∀ r, (xv r).toNat < 512 := KCompLib.xv_lt hxp hxv
  have hRD : ∀ (r : LoadRect S160) (f : S160.Idx → BitVec 32) (x : r.shape.Idx),
      View.readAt (Elt F) (b0).view r f x = f (r.idx x) := fun _ _ _ => rfl
  have hRL : ∀ (r : LoadRect S32768) (f : S32768.Idx → F .f32) (x : r.shape.Idx),
      View.readAt (Elt F) (b3).view r f x = f (r.idx x) := fun _ _ _ => rfl
  unfold Icmp0
  iintro ⟨H0, H3, %f, H4, %hf⟩
  -- each lane's word is 64 times a packed word below 512: its four loads stay inside the table scratch
  sl_exec (disch := (intro _; exact KCompLib.chk_ok hp _ hRD k.val hk10 _ (k0_off22_eq k) _ _ _ _ _ (fun _ _ => rfl)))
  sl_step
  isplitl [H0]
  · iexact H0
  isplitl [H3]
  · iexact H3
  iexists _
  isplitl [H4]
  · iexact H4
  ipureintro
  -- the sixty-four pieces, newest first: row `16 k + 15` lanes 48…63 down to row `16 k` lanes 0…15
  refine KCompLib.outOK_of_part (b4).view (fun g => g) (fun _ _ => rfl) hxv (16 * k.val + 16) _ _ ?_ (by omega)
  refine KCompLib.part_next _ _ (n := 16 * k.val + 15) ?_ (by omega)
  refine KCompLib.part_cons _ _ (16 * k.val + 15) 48 64 (k0_off102_eq k) (by omega) (by omega) (by omega)
    (KCompLib.pay_ok hlut hp _ hRL _ (16 * k.val + 15) (by omega) (KCompLib.word_eq _ hRD xv k.val _ (k0_off22_eq k) _ 15 _ _ (by omega)) 3 (by omega) 48#32 (by decide) _ (fun _ _ => rfl) _ _ _ _ (k0_off102_eq k) (by omega) (by omega) _ _) ?_
  refine KCompLib.part_cons _ _ (16 * k.val + 15) 32 48 (k0_off101_eq k) (by omega) (by omega) (by omega)
    (KCompLib.pay_ok hlut hp _ hRL _ (16 * k.val + 15) (by omega) (KCompLib.word_eq _ hRD xv k.val _ (k0_off22_eq k) _ 15 _ _ (by omega)) 2 (by omega) 32#32 (by decide) _ (fun _ _ => rfl) _ _ _ _ (k0_off101_eq k) (by omega) (by omega) _ _) ?_
  refine KCompLib.part_cons _ _ (16 * k.val + 15) 16 32 (k0_off100_eq k) (by omega) (by omega) (by omega)
    (KCompLib.pay_ok hlut hp _ hRL _ (16 * k.val + 15) (by omega) (KCompLib.word_eq _ hRD xv k.val _ (k0_off22_eq k) _ 15 _ _ (by omega)) 1 (by omega) 16#32 (by decide) _ (fun _ _ => rfl) _ _ _ _ (k0_off100_eq k) (by omega) (by omega) _ _) ?_
  refine KCompLib.part_cons _ _ (16 * k.val + 15) 0 16 (k0_off99_eq k) (by omega) (by omega) (by omega)
    (KCompLib.pay_ok hlut hp _ hRL _ (16 * k.val + 15) (by omega) (KCompLib.word_eq _ hRD xv k.val _ (k0_off22_eq k) _ 15 _ _ (by omega)) 0 (by omega) 0#32 (by decide) _ (fun _ _ => rfl) _ _ _ _ (k0_off99_eq k) (by omega) (by omega) _ _) ?_
  refine KCompLib.part_next _ _ (n := 16 * k.val + 14) ?_ (by omega)
  refine KCompLib.part_cons _ _ (16 * k.val + 14) 48 64 (k0_off97_eq k) (by omega) (by omega) (by omega)
    (KCompLib.pay_ok hlut hp _ hRL _ (16 * k.val + 14) (by omega) (KCompLib.word_eq _ hRD xv k.val _ (k0_off22_eq k) _ 14 _ _ (by omega)) 3 (by omega) 48#32 (by decide) _ (fun _ _ => rfl) _ _ _ _ (k0_off97_eq k) (by omega) (by omega) _ _) ?_
  refine KCompLib.part_cons _ _ (16 * k.val + 14) 32 48 (k0_off96_eq k) (by omega) (by omega) (by omega)
    (KCompLib.pay_ok hlut hp _ hRL _ (16 * k.val + 14) (by omega) (KCompLib.word_eq _ hRD xv k.val _ (k0_off22_eq k) _ 14 _ _ (by omega)) 2 (by omega) 32#32 (by decide) _ (fun _ _ => rfl) _ _ _ _ (k0_off96_eq k) (by omega) (by omega) _ _) ?_
  refine KCompLib.part_cons _ _ (16 * k.val + 14) 16 32 (k0_off95_eq k) (by omega) (by omega) (by omega)
    (KCompLib.pay_ok hlut hp _ hRL _ (16 * k.val + 14) (by omega) (KCompLib.word_eq _ hRD xv k.val _ (k0_off22_eq k) _ 14 _ _ (by omega)) 1 (by omega) 16#32 (by decide) _ (fun _ _ => rfl) _ _ _ _ (k0_off95_eq k) (by omega) (by omega) _ _) ?_
  refine KCompLib.part_cons _ _ (16 * k.val + 14) 0 16 (k0_off94_eq k) (by omega) (by omega) (by omega)
    (KCompLib.pay_ok hlut hp _ hRL _ (16 * k.val + 14) (by omega) (KCompLib.word_eq _ hRD xv k.val _ (k0_off22_eq k) _ 14 _ _ (by omega)) 0 (by omega) 0#32 (by decide) _ (fun _ _ => rfl) _ _ _ _ (k0_off94_eq k) (by omega) (by omega) _ _) ?_
  refine KCompLib.part_next _ _ (n := 16 * k.val + 13) ?_ (by omega)
  refine KCompLib.part_cons _ _ (16 * k.val + 13) 48 64 (k0_off92_eq k) (by omega) (by omega) (by omega)
    (KCompLib.pay_ok hlut hp _ hRL _ (16 * k.val + 13) (by omega) (KCompLib.word_eq _ hRD xv k.val _ (k0_off22_eq k) _ 13 _ _ (by omega)) 3 (by omega) 48#32 (by decide) _ (fun _ _ => rfl) _ _ _ _ (k0_off92_eq k) (by omega) (by omega) _ _) ?_
  refine KCompLib.part_cons _ _ (16 * k.val + 13) 32 48 (k0_off91_eq k) (by omega) (by omega) (by omega)
    (KCompLib.pay_ok hlut hp _ hRL _ (16 * k.val + 13) (by omega) (KCompLib.word_eq _ hRD xv k.val _ (k0_off22_eq k) _ 13 _ _ (by omega)) 2 (by omega) 32#32 (by decide) _ (fun _ _ => rfl) _ _ _ _ (k0_off91_eq k) (by omega) (by omega) _ _) ?_
  refine KCompLib.part_cons _ _ (16 * k.val + 13) 16 32 (k0_off90_eq k) (by omega) (by omega) (by omega)
    (KCompLib.pay_ok hlut hp _ hRL _ (16 * k.val + 13) (by omega) (KCompLib.word_eq _ hRD xv k.val _ (k0_off22_eq k) _ 13 _ _ (by omega)) 1 (by omega) 16#32 (by decide) _ (fun _ _ => rfl) _ _ _ _ (k0_off90_eq k) (by omega) (by omega) _ _) ?_
  refine KCompLib.part_cons _ _ (16 * k.val + 13) 0 16 (k0_off89_eq k) (by omega) (by omega) (by omega)
    (KCompLib.pay_ok hlut hp _ hRL _ (16 * k.val + 13) (by omega) (KCompLib.word_eq _ hRD xv k.val _ (k0_off22_eq k) _ 13 _ _ (by omega)) 0 (by omega) 0#32 (by decide) _ (fun _ _ => rfl) _ _ _ _ (k0_off89_eq k) (by omega) (by omega) _ _) ?_
  refine KCompLib.part_next _ _ (n := 16 * k.val + 12) ?_ (by omega)
  refine KCompLib.part_cons _ _ (16 * k.val + 12) 48 64 (k0_off87_eq k) (by omega) (by omega) (by omega)
    (KCompLib.pay_ok hlut hp _ hRL _ (16 * k.val + 12) (by omega) (KCompLib.word_eq _ hRD xv k.val _ (k0_off22_eq k) _ 12 _ _ (by omega)) 3 (by omega) 48#32 (by decide) _ (fun _ _ => rfl) _ _ _ _ (k0_off87_eq k) (by omega) (by omega) _ _) ?_
  refine KCompLib.part_cons _ _ (16 * k.val + 12) 32 48 (k0_off86_eq k) (by omega) (by omega) (by omega)
    (KCompLib.pay_ok hlut hp _ hRL _ (16 * k.val + 12) (by omega) (KCompLib.word_eq _ hRD xv k.val _ (k0_off22_eq k) _ 12 _ _ (by omega)) 2 (by omega) 32#32 (by decide) _ (fun _ _ => rfl) _ _ _ _ (k0_off86_eq k) (by omega) (by omega) _ _) ?_
  refine KCompLib.part_cons _ _ (16 * k.val + 12) 16 32 (k0_off85_eq k) (by omega) (by omega) (by omega)
    (KCompLib.pay_ok hlut hp _ hRL _ (16 * k.val + 12) (by omega) (KCompLib.word_eq _ hRD xv k.val _ (k0_off22_eq k) _ 12 _ _ (by omega)) 1 (by omega) 16#32 (by decide) _ (fun _ _ => rfl) _ _ _ _ (k0_off85_eq k) (by omega) (by omega) _ _) ?_
  refine KCompLib.part_cons _ _ (16 * k.val + 12) 0 16 (k0_off84_eq k) (by omega) (by omega) (by omega)
    (KCompLib.pay_ok hlut hp _ hRL _ (16 * k.val + 12) (by omega) (KCompLib.word_eq _ hRD xv k.val _ (k0_off22_eq k) _ 12 _ _ (by omega)) 0 (by omega) 0#32 (by decide) _ (fun _ _ => rfl) _ _ _ _ (k0_off84_eq k) (by omega) (by omega) _ _) ?_
  refine KCompLib.part_next _ _ (n := 16 * k.val + 11) ?_ (by omega)
  refine KCompLib.part_cons _ _ (16 * k.val + 11) 48 64 (k0_off82_eq k) (by omega) (by omega) (by omega)
    (KCompLib.pay_ok hlut hp _ hRL _ (16 * k.val + 11) (by omega) (KCompLib.word_eq _ hRD xv k.val _ (k0_off22_eq k) _ 11 _ _ (by omega)) 3 (by omega) 48#32 (by decide) _ (fun _ _ => rfl) _ _ _ _ (k0_off82_eq k) (by omega) (by omega) _ _) ?_
  refine KCompLib.part_cons _ _ (16 * k.val + 11) 32 48 (k0_off81_eq k) (by omega) (by omega) (by omega)
    (KCompLib.pay_ok hlut hp _ hRL _ (16 * k.val + 11) (by omega) (KCompLib.word_eq _ hRD xv k.val _ (k0_off22_eq k) _ 11 _ _ (by omega)) 2 (by omega) 32#32 (by decide) _ (fun _ _ => rfl) _ _ _ _ (k0_off81_eq k) (by omega) (by omega) _ _) ?_
  refine KCompLib.part_cons _ _ (16 * k.val + 11) 16 32 (k0_off80_eq k) (by omega) (by omega) (by omega)
    (KCompLib.pay_ok hlut hp _ hRL _ (16 * k.val + 11) (by omega) (KCompLib.word_eq _ hRD xv k.val _ (k0_off22_eq k) _ 11 _ _ (by omega)) 1 (by omega) 16#32 (by decide) _ (fun _ _ => rfl) _ _ _ _ (k0_off80_eq k) (by omega) (by omega) _ _) ?_
  refine KCompLib.part_cons _ _ (16 * k.val + 11) 0 16 (k0_off79_eq k) (by omega) (by omega) (by omega)
    (KCompLib.pay_ok hlut hp _ hRL _ (16 * k.val + 11) (by omega) (KCompLib.word_eq _ hRD xv k.val _ (k0_off22_eq k) _ 11 _ _ (by omega)) 0 (by omega) 0#32 (by decide) _ (fun _ _ => rfl) _ _ _ _ (k0_off79_eq k) (by omega) (by omega) _ _) ?_
  refine KCompLib.part_next _ _ (n := 16 * k.val + 10) ?_ (by omega)
  refine KCompLib.part_cons _ _ (16 * k.val + 10) 48 64 (k0_off77_eq k) (by omega) (by omega) (by omega)
    (KCompLib.pay_ok hlut hp _ hRL _ (16 * k.val + 10) (by omega) (KCompLib.word_eq _ hRD xv k.val _ (k0_off22_eq k) _ 10 _ _ (by omega)) 3 (by omega) 48#32 (by decide) _ (fun _ _ => rfl) _ _ _ _ (k0_off77_eq k) (by omega) (by omega) _ _) ?_
  refine KCompLib.part_cons _ _ (16 * k.val + 10) 32 48 (k0_off76_eq k) (by omega) (by omega) (by omega)
    (KCompLib.pay_ok hlut hp _ hRL _ (16 * k.val + 10) (by omega) (KCompLib.word_eq _ hRD xv k.val _ (k0_off22_eq k) _ 10 _ _ (by omega)) 2 (by omega) 32#32 (by decide) _ (fun _ _ => rfl) _ _ _ _ (k0_off76_eq k) (by omega) (by omega) _ _) ?_
  refine KCompLib.part_cons _ _ (16 * k.val + 10) 16 32 (k0_off75_eq k) (by omega) (by omega) (by omega)
    (KCompLib.pay_ok hlut hp _ hRL _ (16 * k.val + 10) (by omega) (KCompLib.word_eq _ hRD xv k.val _ (k0_off22_eq k) _ 10 _ _ (by omega)) 1 (by omega) 16#32 (by decide) _ (fun _ _ => rfl) _ _ _ _ (k0_off75_eq k) (by omega) (by omega) _ _) ?_
  refine KCompLib.part_cons _ _ (16 * k.val + 10) 0 16 (k0_off74_eq k) (by omega) (by omega) (by omega)
    (KCompLib.pay_ok hlut hp _ hRL _ (16 * k.val + 10) (by omega) (KCompLib.word_eq _ hRD xv k.val _ (k0_off22_eq k) _ 10 _ _ (by omega)) 0 (by omega) 0#32 (by decide) _ (fun _ _ => rfl) _ _ _ _ (k0_off74_eq k) (by omega) (by omega) _ _) ?_
  refine KCompLib.part_next _ _ (n := 16 * k.val + 9) ?_ (by omega)
  refine KCompLib.part_cons _ _ (16 * k.val + 9) 48 64 (k0_off72_eq k) (by omega) (by omega) (by omega)
    (KCompLib.pay_ok hlut hp _ hRL _ (16 * k.val + 9) (by omega) (KCompLib.word_eq _ hRD xv k.val _ (k0_off22_eq k) _ 9 _ _ (by omega)) 3 (by omega) 48#32 (by decide) _ (fun _ _ => rfl) _ _ _ _ (k0_off72_eq k) (by omega) (by omega) _ _) ?_
  refine KCompLib.part_cons _ _ (16 * k.val + 9) 32 48 (k0_off71_eq k) (by omega) (by omega) (by omega)
    (KCompLib.pay_ok hlut hp _ hRL _ (16 * k.val + 9) (by omega) (KCompLib.word_eq _ hRD xv k.val _ (k0_off22_eq k) _ 9 _ _ (by omega)) 2 (by omega) 32#32 (by decide) _ (fun _ _ => rfl) _ _ _ _ (k0_off71_eq k) (by omega) (by omega) _ _) ?_
  refine KCompLib.part_cons _ _ (16 * k.val + 9) 16 32 (k0_off70_eq k) (by omega) (by omega) (by omega)
    (KCompLib.pay_ok hlut hp _ hRL _ (16 * k.val + 9) (by omega) (KCompLib.word_eq _ hRD xv k.val _ (k0_off22_eq k) _ 9 _ _ (by omega)) 1 (by omega) 16#32 (by decide) _ (fun _ _ => rfl) _ _ _ _ (k0_off70_eq k) (by omega) (by omega) _ _) ?_
  refine KCompLib.part_cons _ _ (16 * k.val + 9) 0 16 (k0_off69_eq k) (by omega) (by omega) (by omega)
    (KCompLib.pay_ok hlut hp _ hRL _ (16 * k.val + 9) (by omega) (KCompLib.word_eq _ hRD xv k.val _ (k0_off22_eq k) _ 9 _ _ (by omega)) 0 (by omega) 0#32 (by decide) _ (fun _ _ => rfl) _ _ _ _ (k0_off69_eq k) (by omega) (by omega) _ _) ?_
  refine KCompLib.part_next _ _ (n := 16 * k.val + 8) ?_ (by omega)
  refine KCompLib.part_cons _ _ (16 * k.val + 8) 48 64 (k0_off67_eq k) (by omega) (by omega) (by omega)
    (KCompLib.pay_ok hlut hp _ hRL _ (16 * k.val + 8) (by omega) (KCompLib.word_eq _ hRD xv k.val _ (k0_off22_eq k) _ 8 _ _ (by omega)) 3 (by omega) 48#32 (by decide) _ (fun _ _ => rfl) _ _ _ _ (k0_off67_eq k) (by omega) (by omega) _ _) ?_
  refine KCompLib.part_cons _ _ (16 * k.val + 8) 32 48 (k0_off66_eq k) (by omega) (by omega) (by omega)
    (KCompLib.pay_ok hlut hp _ hRL _ (16 * k.val + 8) (by omega) (KCompLib.word_eq _ hRD xv k.val _ (k0_off22_eq k) _ 8 _ _ (by omega)) 2 (by omega) 32#32 (by decide) _ (fun _ _ => rfl) _ _ _ _ (k0_off66_eq k) (by omega) (by omega) _ _) ?_
  refine KCompLib.part_cons _ _ (16 * k.val + 8) 16 32 (k0_off65_eq k) (by omega) (by omega) (by omega)
    (KCompLib.pay_ok hlut hp _ hRL _ (16 * k.val + 8) (by omega) (KCompLib.word_eq _ hRD xv k.val _ (k0_off22_eq k) _ 8 _ _ (by omega)) 1 (by omega) 16#32 (by decide) _ (fun _ _ => rfl) _ _ _ _ (k0_off65_eq k) (by omega) (by omega) _ _) ?_
  refine KCompLib.part_cons _ _ (16 * k.val + 8) 0 16 (k0_off64_eq k) (by omega) (by omega) (by omega)
    (KCompLib.pay_ok hlut hp _ hRL _ (16 * k.val + 8) (by omega) (KCompLib.word_eq _ hRD xv k.val _ (k0_off22_eq k) _ 8 _ _ (by omega)) 0 (by omega) 0#32 (by decide) _ (fun _ _ => rfl) _ _ _ _ (k0_off64_eq k) (by omega) (by omega) _ _) ?_
  refine KCompLib.part_next _ _ (n := 16 * k.val + 7) ?_ (by omega)
  refine KCompLib.part_cons _ _ (16 * k.val + 7) 48 64 (k0_off62_eq k) (by omega) (by omega) (by omega)
    (KCompLib.pay_ok hlut hp _ hRL _ (16 * k.val + 7) (by omega) (KCompLib.word_eq _ hRD xv k.val _ (k0_off22_eq k) _ 7 _ _ (by omega)) 3 (by omega) 48#32 (by decide) _ (fun _ _ => rfl) _ _ _ _ (k0_off62_eq k) (by omega) (by omega) _ _) ?_
  refine KCompLib.part_cons _ _ (16 * k.val + 7) 32 48 (k0_off61_eq k) (by omega) (by omega) (by omega)
    (KCompLib.pay_ok hlut hp _ hRL _ (16 * k.val + 7) (by omega) (KCompLib.word_eq _ hRD xv k.val _ (k0_off22_eq k) _ 7 _ _ (by omega)) 2 (by omega) 32#32 (by decide) _ (fun _ _ => rfl) _ _ _ _ (k0_off61_eq k) (by omega) (by omega) _ _) ?_
  refine KCompLib.part_cons _ _ (16 * k.val + 7) 16 32 (k0_off60_eq k) (by omega) (by omega) (by omega)
    (KCompLib.pay_ok hlut hp _ hRL _ (16 * k.val + 7) (by omega) (KCompLib.word_eq _ hRD xv k.val _ (k0_off22_eq k) _ 7 _ _ (by omega)) 1 (by omega) 16#32 (by decide) _ (fun _ _ => rfl) _ _ _ _ (k0_off60_eq k) (by omega) (by omega) _ _) ?_
  refine KCompLib.part_cons _ _ (16 * k.val + 7) 0 16 (k0_off59_eq k) (by omega) (by omega) (by omega)
    (KCompLib.pay_ok hlut hp _ hRL _ (16 * k.val + 7) (by omega) (KCompLib.word_eq _ hRD xv k.val _ (k0_off22_eq k) _ 7 _ _ (by omega)) 0 (by omega) 0#32 (by decide) _ (fun _ _ => rfl) _ _ _ _ (k0_off59_eq k) (by omega) (by omega) _ _) ?_
  refine KCompLib.part_next _ _ (n := 16 * k.val + 6) ?_ (by omega)
  refine KCompLib.part_cons _ _ (16 * k.val + 6) 48 64 (k0_off57_eq k) (by omega) (by omega) (by omega)
    (KCompLib.pay_ok hlut hp _ hRL _ (16 * k.val + 6) (by omega) (KCompLib.word_eq _ hRD xv k.val _ (k0_off22_eq k) _ 6 _ _ (by omega)) 3 (by omega) 48#32 (by decide) _ (fun _ _ => rfl) _ _ _ _ (k0_off57_eq k) (by omega) (by omega) _ _) ?_
  refine KCompLib.part_cons _ _ (16 * k.val + 6) 32 48 (k0_off56_eq k) (by omega) (by omega) (by omega)
    (KCompLib.pay_ok hlut hp _ hRL _ (16 * k.val + 6) (by omega) (KCompLib.word_eq _ hRD xv k.val _ (k0_off22_eq k) _ 6 _ _ (by omega)) 2 (by omega) 32#32 (by decide) _ (fun _ _ => rfl) _ _ _ _ (k0_off56_eq k) (by omega) (by omega) _ _) ?_
  refine KCompLib.part_cons _ _ (16 * k.val + 6) 16 32 (k0_off55_eq k) (by omega) (by omega) (by omega)
    (KCompLib.pay_ok hlut hp _ hRL _ (16 * k.val + 6) (by omega) (KCompLib.word_eq _ hRD xv k.val _ (k0_off22_eq k) _ 6 _ _ (by omega)) 1 (by omega) 16#32 (by decide) _ (fun _ _ => rfl) _ _ _ _ (k0_off55_eq k) (by omega) (by omega) _ _) ?_
  refine KCompLib.part_cons _ _ (16 * k.val + 6) 0 16 (k0_off54_eq k) (by omega) (by omega) (by omega)
    (KCompLib.pay_ok hlut hp _ hRL _ (16 * k.val + 6) (by omega) (KCompLib.word_eq _ hRD xv k.val _ (k0_off22_eq k) _ 6 _ _ (by omega)) 0 (by omega) 0#32 (by decide) _ (fun _ _ => rfl) _ _ _ _ (k0_off54_eq k) (by omega) (by omega) _ _) ?_
  refine KCompLib.part_next _ _ (n := 16 * k.val + 5) ?_ (by omega)
  refine KCompLib.part_cons _ _ (16 * k.val + 5) 48 64 (k0_off52_eq k) (by omega) (by omega) (by omega)
    (KCompLib.pay_ok hlut hp _ hRL _ (16 * k.val + 5) (by omega) (KCompLib.word_eq _ hRD xv k.val _ (k0_off22_eq k) _ 5 _ _ (by omega)) 3 (by omega) 48#32 (by decide) _ (fun _ _ => rfl) _ _ _ _ (k0_off52_eq k) (by omega) (by omega) _ _) ?_
  refine KCompLib.part_cons _ _ (16 * k.val + 5) 32 48 (k0_off51_eq k) (by omega) (by omega) (by omega)
    (KCompLib.pay_ok hlut hp _ hRL _ (16 * k.val + 5) (by omega) (KCompLib.word_eq _ hRD xv k.val _ (k0_off22_eq k) _ 5 _ _ (by omega)) 2 (by omega) 32#32 (by decide) _ (fun _ _ => rfl) _ _ _ _ (k0_off51_eq k) (by omega) (by omega) _ _) ?_
  refine KCompLib.part_cons _ _ (16 * k.val + 5) 16 32 (k0_off50_eq k) (by omega) (by omega) (by omega)
    (KCompLib.pay_ok hlut hp _ hRL _ (16 * k.val + 5) (by omega) (KCompLib.word_eq _ hRD xv k.val _ (k0_off22_eq k) _ 5 _ _ (by omega)) 1 (by omega) 16#32 (by decide) _ (fun _ _ => rfl) _ _ _ _ (k0_off50_eq k) (by omega) (by omega) _ _) ?_
  refine KCompLib.part_cons _ _ (16 * k.val + 5) 0 16 (k0_off49_eq k) (by omega) (by omega) (by omega)
    (KCompLib.pay_ok hlut hp _ hRL _ (16 * k.val + 5) (by omega) (KCompLib.word_eq _ hRD xv k.val _ (k0_off22_eq k) _ 5 _ _ (by omega)) 0 (by omega) 0#32 (by decide) _ (fun _ _ => rfl) _ _ _ _ (k0_off49_eq k) (by omega) (by omega) _ _) ?_
  refine KCompLib.part_next _ _ (n := 16 * k.val + 4) ?_ (by omega)
  refine KCompLib.part_cons _ _ (16 * k.val + 4) 48 64 (k0_off47_eq k) (by omega) (by omega) (by omega)
    (KCompLib.pay_ok hlut hp _ hRL _ (16 * k.val + 4) (by omega) (KCompLib.word_eq _ hRD xv k.val _ (k0_off22_eq k) _ 4 _ _ (by omega)) 3 (by omega) 48#32 (by decide) _ (fun _ _ => rfl) _ _ _ _ (k0_off47_eq k) (by omega) (by omega) _ _) ?_
  refine KCompLib.part_cons _ _ (16 * k.val + 4) 32 48 (k0_off46_eq k) (by omega) (by omega) (by omega)
    (KCompLib.pay_ok hlut hp _ hRL _ (16 * k.val + 4) (by omega) (KCompLib.word_eq _ hRD xv k.val _ (k0_off22_eq k) _ 4 _ _ (by omega)) 2 (by omega) 32#32 (by decide) _ (fun _ _ => rfl) _ _ _ _ (k0_off46_eq k) (by omega) (by omega) _ _) ?_
  refine KCompLib.part_cons _ _ (16 * k.val + 4) 16 32 (k0_off45_eq k) (by omega) (by omega) (by omega)
    (KCompLib.pay_ok hlut hp _ hRL _ (16 * k.val + 4) (by omega) (KCompLib.word_eq _ hRD xv k.val _ (k0_off22_eq k) _ 4 _ _ (by omega)) 1 (by omega) 16#32 (by decide) _ (fun _ _ => rfl) _ _ _ _ (k0_off45_eq k) (by omega) (by omega) _ _) ?_
  refine KCompLib.part_cons _ _ (16 * k.val + 4) 0 16 (k0_off44_eq k) (by omega) (by omega) (by omega)
    (KCompLib.pay_ok hlut hp _ hRL _ (16 * k.val + 4) (by omega) (KCompLib.word_eq _ hRD xv k.val _ (k0_off22_eq k) _ 4 _ _ (by omega)) 0 (by omega) 0#32 (by decide) _ (fun _ _ => rfl) _ _ _ _ (k0_off44_eq k) (by omega) (by omega) _ _) ?_
  refine KCompLib.part_next _ _ (n := 16 * k.val + 3) ?_ (by omega)
  refine KCompLib.part_cons _ _ (16 * k.val + 3) 48 64 (k0_off42_eq k) (by omega) (by omega) (by omega)
    (KCompLib.pay_ok hlut hp _ hRL _ (16 * k.val + 3) (by omega) (KCompLib.word_eq _ hRD xv k.val _ (k0_off22_eq k) _ 3 _ _ (by omega)) 3 (by omega) 48#32 (by decide) _ (fun _ _ => rfl) _ _ _ _ (k0_off42_eq k) (by omega) (by omega) _ _) ?_
  refine KCompLib.part_cons _ _ (16 * k.val + 3) 32 48 (k0_off41_eq k) (by omega) (by omega) (by omega)
    (KCompLib.pay_ok hlut hp _ hRL _ (16 * k.val + 3) (by omega) (KCompLib.word_eq _ hRD xv k.val _ (k0_off22_eq k) _ 3 _ _ (by omega)) 2 (by omega) 32#32 (by decide) _ (fun _ _ => rfl) _ _ _ _ (k0_off41_eq k) (by omega) (by omega) _ _) ?_
  refine KCompLib.part_cons _ _ (16 * k.val + 3) 16 32 (k0_off40_eq k) (by omega) (by omega) (by omega)
    (KCompLib.pay_ok hlut hp _ hRL _ (16 * k.val + 3) (by omega) (KCompLib.word_eq _ hRD xv k.val _ (k0_off22_eq k) _ 3 _ _ (by omega)) 1 (by omega) 16#32 (by decide) _ (fun _ _ => rfl) _ _ _ _ (k0_off40_eq k) (by omega) (by omega) _ _) ?_
  refine KCompLib.part_cons _ _ (16 * k.val + 3) 0 16 (k0_off39_eq k) (by omega) (by omega) (by omega)
    (KCompLib.pay_ok hlut hp _ hRL _ (16 * k.val + 3) (by omega) (KCompLib.word_eq _ hRD xv k.val _ (k0_off22_eq k) _ 3 _ _ (by omega)) 0 (by omega) 0#32 (by decide) _ (fun _ _ => rfl) _ _ _ _ (k0_off39_eq k) (by omega) (by omega) _ _) ?_
  refine KCompLib.part_next _ _ (n := 16 * k.val + 2) ?_ (by omega)
  refine KCompLib.part_cons _ _ (16 * k.val + 2) 48 64 (k0_off37_eq k) (by omega) (by omega) (by omega)
    (KCompLib.pay_ok hlut hp _ hRL _ (16 * k.val + 2) (by omega) (KCompLib.word_eq _ hRD xv k.val _ (k0_off22_eq k) _ 2 _ _ (by omega)) 3 (by omega) 48#32 (by decide) _ (fun _ _ => rfl) _ _ _ _ (k0_off37_eq k) (by omega) (by omega) _ _) ?_
  refine KCompLib.part_cons _ _ (16 * k.val + 2) 32 48 (k0_off36_eq k) (by omega) (by omega) (by omega)
    (KCompLib.pay_ok hlut hp _ hRL _ (16 * k.val + 2) (by omega) (KCompLib.word_eq _ hRD xv k.val _ (k0_off22_eq k) _ 2 _ _ (by omega)) 2 (by omega) 32#32 (by decide) _ (fun _ _ => rfl) _ _ _ _ (k0_off36_eq k) (by omega) (by omega) _ _) ?_
  refine KCompLib.part_cons _ _ (16 * k.val + 2) 16 32 (k0_off35_eq k) (by omega) (by omega) (by omega)
    (KCompLib.pay_ok hlut hp _ hRL _ (16 * k.val + 2) (by omega) (KCompLib.word_eq _ hRD xv k.val _ (k0_off22_eq k) _ 2 _ _ (by omega)) 1 (by omega) 16#32 (by decide) _ (fun _ _ => rfl) _ _ _ _ (k0_off35_eq k) (by omega) (by omega) _ _) ?_
  refine KCompLib.part_cons _ _ (16 * k.val + 2) 0 16 (k0_off34_eq k) (by omega) (by omega) (by omega)
    (KCompLib.pay_ok hlut hp _ hRL _ (16 * k.val + 2) (by omega) (KCompLib.word_eq _ hRD xv k.val _ (k0_off22_eq k) _ 2 _ _ (by omega)) 0 (by omega) 0#32 (by decide) _ (fun _ _ => rfl) _ _ _ _ (k0_off34_eq k) (by omega) (by omega) _ _) ?_
  refine KCompLib.part_next _ _ (n := 16 * k.val + 1) ?_ (by omega)
  refine KCompLib.part_cons _ _ (16 * k.val + 1) 48 64 (k0_off32_eq k) (by omega) (by omega) (by omega)
    (KCompLib.pay_ok hlut hp _ hRL _ (16 * k.val + 1) (by omega) (KCompLib.word_eq _ hRD xv k.val _ (k0_off22_eq k) _ 1 _ _ (by omega)) 3 (by omega) 48#32 (by decide) _ (fun _ _ => rfl) _ _ _ _ (k0_off32_eq k) (by omega) (by omega) _ _) ?_
  refine KCompLib.part_cons _ _ (16 * k.val + 1) 32 48 (k0_off31_eq k) (by omega) (by omega) (by omega)
    (KCompLib.pay_ok hlut hp _ hRL _ (16 * k.val + 1) (by omega) (KCompLib.word_eq _ hRD xv k.val _ (k0_off22_eq k) _ 1 _ _ (by omega)) 2 (by omega) 32#32 (by decide) _ (fun _ _ => rfl) _ _ _ _ (k0_off31_eq k) (by omega) (by omega) _ _) ?_
  refine KCompLib.part_cons _ _ (16 * k.val + 1) 16 32 (k0_off30_eq k) (by omega) (by omega) (by omega)
    (KCompLib.pay_ok hlut hp _ hRL _ (16 * k.val + 1) (by omega) (KCompLib.word_eq _ hRD xv k.val _ (k0_off22_eq k) _ 1 _ _ (by omega)) 1 (by omega) 16#32 (by decide) _ (fun _ _ => rfl) _ _ _ _ (k0_off30_eq k) (by omega) (by omega) _ _) ?_
  refine KCompLib.part_cons _ _ (16 * k.val + 1) 0 16 (k0_off29_eq k) (by omega) (by omega) (by omega)
    (KCompLib.pay_ok hlut hp _ hRL _ (16 * k.val + 1) (by omega) (KCompLib.word_eq _ hRD xv k.val _ (k0_off22_eq k) _ 1 _ _ (by omega)) 0 (by omega) 0#32 (by decide) _ (fun _ _ => rfl) _ _ _ _ (k0_off29_eq k) (by omega) (by omega) _ _) ?_
  refine KCompLib.part_next _ _ (n := 16 * k.val) ?_ (by omega)
  refine KCompLib.part_cons _ _ (16 * k.val) 48 64 (k0_off27_eq k) (by omega) (by omega) (by omega)
    (KCompLib.pay_ok hlut hp _ hRL _ (16 * k.val) (by omega) (KCompLib.word_eq _ hRD xv k.val _ (k0_off22_eq k) _ 0 _ _ (by omega)) 3 (by omega) 48#32 (by decide) _ (fun _ _ => rfl) _ _ _ _ (k0_off27_eq k) (by omega) (by omega) _ _) ?_
  refine KCompLib.part_cons _ _ (16 * k.val) 32 48 (k0_off26_eq k) (by omega) (by omega) (by omega)
    (KCompLib.pay_ok hlut hp _ hRL _ (16 * k.val) (by omega) (KCompLib.word_eq _ hRD xv k.val _ (k0_off22_eq k) _ 0 _ _ (by omega)) 2 (by omega) 32#32 (by decide) _ (fun _ _ => rfl) _ _ _ _ (k0_off26_eq k) (by omega) (by omega) _ _) ?_
  refine KCompLib.part_cons _ _ (16 * k.val) 16 32 (k0_off25_eq k) (by omega) (by omega) (by omega)
    (KCompLib.pay_ok hlut hp _ hRL _ (16 * k.val) (by omega) (KCompLib.word_eq _ hRD xv k.val _ (k0_off22_eq k) _ 0 _ _ (by omega)) 1 (by omega) 16#32 (by decide) _ (fun _ _ => rfl) _ _ _ _ (k0_off25_eq k) (by omega) (by omega) _ _) ?_
  refine KCompLib.part_cons _ _ (16 * k.val) 0 16 (k0_off24_eq k) (by omega) (by omega) (by omega)
    (KCompLib.pay_ok hlut hp _ hRL _ (16 * k.val) (by omega) (KCompLib.word_eq _ hRD xv k.val _ (k0_off22_eq k) _ 0 _ _ (by omega)) 0 (by omega) 0#32 (by decide) _ (fun _ _ => rfl) _ _ _ _ (k0_off24_eq k) (by omega) (by omega) _ _) ?_
  exact KCompLib.part_of_outOK _ (fun g => g) (fun _ _ => rfl) hxv _ _ hf

/-- The invariant of the compute loop over staging buffer 1: the index scratch and the table scratch as they
    are, and the first `16 k` rows of the staging buffer done. -/
def Icmp1 (w : Cert.Spec.SW.Idx → F .f32) (xp : S100000.Idx → BitVec 32) (d : Dev nD) (L : grid0.Coords) (blk : Nat)
    (xv : S160.Idx → BitVec 32) (lut : S32768.Idx → F .f32) (k : Nat) (_ : BitVec 32) : sProp 𝕄 :=
  iprop(((b1).view.loc (thr d L) ↦{fullShare} xv) ∗ ((b3).view.loc (thr d L) ↦{fullShare} lut)
    ∗ ∃ f, ((b5).view.loc (thr d L) ↦{fullShare} f) ∗ ⌜KC.OutOK w xp blk (16 * k) f⌝)

set_option maxHeartbeats 4000000 in
set_option maxRecDepth 100000 in
/-- One trip of the compute loop over staging buffer 1: sixteen more rows done. -/
theorem compute_region1 (w : Cert.Spec.SW.Idx → F .f32) (xp : S100000.Idx → BitVec 32) (d : Dev nD) (L : grid0.Coords) (blk : Nat)
    (xv : S160.Idx → BitVec 32) (lut : S32768.Idx → F .f32)
    (hxp : ∀ n : S100000.Idx, (xp n).toNat < 512) (hxv : KC.XvOK xp blk xv) (hlut : KC.LutOK w 512 lut)
    (v1 v20 : BitVec 32) (v239 : FVec F S16 .f32) (t9 : Fin k0_t9_loop.trips) (h4 : k0_cond4 L t9 = 1#1) :
    ∀ (k : Fin k0_t11_loop.trips) (acc : BitVec 32), Icmp1 w xp d L blk xv lut k.val acc ⊢
      wp frame (wpE (defs₀ (F := F)) 𝒱₀ (thr d L) none) Set.univ
        (k0_t11_body L pW (Memref.isWhole_whole _) wW (Memref.isWhole_whole _) oW (Memref.isWhole_whole _)
          b0 (Memref.isWhole_whole _) b1 (Memref.isWhole_whole _) b2 (Memref.isWhole_whole _) b3 (Memref.isWhole_whole _)
          b4 (Memref.isWhole_whole _) b5 (Memref.isWhole_whole _) cc0_scratch6 cc0_scratch7 cc0_scratch8 cc0_scratch9 cc0_scoped0
          v1 v20 v239 t9 h4 k acc)
        (Icmp1 w xp d L blk xv lut (k.val + 1)) := by
  intro k acc
  have hk10 : k.val < 10 := k.isLt.trans_eq KConds.trips11
  have hp : ∀ r, (xv r).toNat < 512 := KCompLib.xv_lt hxp hxv
  have hRD : ∀ (r : LoadRect S160) (f : S160.Idx → BitVec 32) (x : r.shape.Idx),
      View.readAt (Elt F) (b1).view r f x = f (r.idx x) := fun _ _ _ => rfl
  have hRL : ∀ (r : LoadRect S32768) (f : S32768.Idx → F .f32) (x : r.shape.Idx),
      View.readAt (Elt F) (b3).view r f x = f (r.idx x) := fun _ _ _ => rfl
  unfold Icmp1
  iintro ⟨H0, H3, %f, H4, %hf⟩
  -- each lane's word is 64 times a packed word below 512: its four loads stay inside the table scratch
  sl_exec (disch := (intro _; exact KCompLib.chk_ok hp _ hRD k.val hk10 _ (k0_off107_eq k) _ _ _ _ _ (fun _ _ => rfl)))
  sl_step
  isplitl [H0]
  · iexact H0
  isplitl [H3]
  · iexact H3
  iexists _
  isplitl [H4]
  · iexact H4
  ipureintro
  -- the sixty-four pieces, newest first: row `16 k + 15` lanes 48…63 down to row `16 k` lanes 0…15
  refine KCompLib.outOK_of_part (b5).view (fun g => g) (fun _ _ => rfl) hxv (16 * k.val + 16) _ _ ?_ (by omega)
  refine KCompLib.part_next _ _ (n := 16 * k.val + 15) ?_ (by omega)
  refine KCompLib.part_cons _ _ (16 * k.val + 15) 48 64 (k0_off187_eq k) (by omega) (by omega) (by omega)
    (KCompLib.pay_ok hlut hp _ hRL _ (16 * k.val + 15) (by omega) (KCompLib.word_eq _ hRD xv k.val _ (k0_off107_eq k) _ 15 _ _ (by omega)) 3 (by omega) 48#32 (by decide) _ (fun _ _ => rfl) _ _ _ _ (k0_off187_eq k) (by omega) (by omega) _ _) ?_
  refine KCompLib.part_cons _ _ (16 * k.val + 15) 32 48 (k0_off186_eq k) (by omega) (by omega) (by omega)
    (KCompLib.pay_ok hlut hp _ hRL _ (16 * k.val + 15) (by omega) (KCompLib.word_eq _ hRD xv k.val _ (k0_off107_eq k) _ 15 _ _ (by omega)) 2 (by omega) 32#32 (by decide) _ (fun _ _ => rfl) _ _ _ _ (k0_off186_eq k) (by omega) (by omega) _ _) ?_
  refine KCompLib.part_cons _ _ (16 * k.val + 15) 16 32 (k0_off185_eq k) (by omega) (by omega) (by omega)
    (KCompLib.pay_ok hlut hp _ hRL _ (16 * k.val + 15) (by omega) (KCompLib.word_eq _ hRD xv k.val _ (k0_off107_eq k) _ 15 _ _ (by omega)) 1 (by omega) 16#32 (by decide) _ (fun _ _ => rfl) _ _ _ _ (k0_off185_eq k) (by omega) (by omega) _ _) ?_
  refine KCompLib.part_cons _ _ (16 * k.val + 15) 0 16 (k0_off184_eq k) (by omega) (by omega) (by omega)
    (KCompLib.pay_ok hlut hp _ hRL _ (16 * k.val + 15) (by omega) (KCompLib.word_eq _ hRD xv k.val _ (k0_off107_eq k) _ 15 _ _ (by omega)) 0 (by omega) 0#32 (by decide) _ (fun _ _ => rfl) _ _ _ _ (k0_off184_eq k) (by omega) (by omega) _ _) ?_
  refine KCompLib.part_next _ _ (n := 16 * k.val + 14) ?_ (by omega)
  refine KCompLib.part_cons _ _ (16 * k.val + 14) 48 64 (k0_off182_eq k) (by omega) (by omega) (by omega)
    (KCompLib.pay_ok hlut hp _ hRL _ (16 * k.val + 14) (by omega) (KCompLib.word_eq _ hRD xv k.val _ (k0_off107_eq k) _ 14 _ _ (by omega)) 3 (by omega) 48#32 (by decide) _ (fun _ _ => rfl) _ _ _ _ (k0_off182_eq k) (by omega) (by omega) _ _) ?_
  refine KCompLib.part_cons _ _ (16 * k.val + 14) 32 48 (k0_off181_eq k) (by omega) (by omega) (by omega)
    (KCompLib.pay_ok hlut hp _ hRL _ (16 * k.val + 14) (by omega) (KCompLib.word_eq _ hRD xv k.val _ (k0_off107_eq k) _ 14 _ _ (by omega)) 2 (by omega) 32#32 (by decide) _ (fun _ _ => rfl) _ _ _ _ (k0_off181_eq k) (by omega) (by omega) _ _) ?_
  refine KCompLib.part_cons _ _ (16 * k.val + 14) 16 32 (k0_off180_eq k) (by omega) (by omega) (by omega)
    (KCompLib.pay_ok hlut hp _ hRL _ (16 * k.val + 14) (by omega) (KCompLib.word_eq _ hRD xv k.val _ (k0_off107_eq k) _ 14 _ _ (by omega)) 1 (by omega) 16#32 (by decide) _ (fun _ _ => rfl) _ _ _ _ (k0_off180_eq k) (by omega) (by omega) _ _) ?_
  refine KCompLib.part_cons _ _ (16 * k.val + 14) 0 16 (k0_off179_eq k) (by omega) (by omega) (by omega)
    (KCompLib.pay_ok hlut hp _ hRL _ (16 * k.val + 14) (by omega) (KCompLib.word_eq _ hRD xv k.val _ (k0_off107_eq k) _ 14 _ _ (by omega)) 0 (by omega) 0#32 (by decide) _ (fun _ _ => rfl) _ _ _ _ (k0_off179_eq k) (by omega) (by omega) _ _) ?_
  refine KCompLib.part_next _ _ (n := 16 * k.val + 13) ?_ (by omega)
  refine KCompLib.part_cons _ _ (16 * k.val + 13) 48 64 (k0_off177_eq k) (by omega) (by omega) (by omega)
    (KCompLib.pay_ok hlut hp _ hRL _ (16 * k.val + 13) (by omega) (KCompLib.word_eq _ hRD xv k.val _ (k0_off107_eq k) _ 13 _ _ (by omega)) 3 (by omega) 48#32 (by decide) _ (fun _ _ => rfl) _ _ _ _ (k0_off177_eq k) (by omega) (by omega) _ _) ?_
  refine KCompLib.part_cons _ _ (16 * k.val + 13) 32 48 (k0_off176_eq k) (by omega) (by omega) (by omega)
    (KCompLib.pay_ok hlut hp _ hRL _ (16 * k.val + 13) (by omega) (KCompLib.word_eq _ hRD xv k.val _ (k0_off107_eq k) _ 13 _ _ (by omega)) 2 (by omega) 32#32 (by decide) _ (fun _ _ => rfl) _ _ _ _ (k0_off176_eq k) (by omega) (by omega) _ _) ?_
  refine KCompLib.part_cons _ _ (16 * k.val + 13) 16 32 (k0_off175_eq k) (by omega) (by omega) (by omega)
    (KCompLib.pay_ok hlut hp _ hRL _ (16 * k.val + 13) (by omega) (KCompLib.word_eq _ hRD xv k.val _ (k0_off107_eq k) _ 13 _ _ (by omega)) 1 (by omega) 16#32 (by decide) _ (fun _ _ => rfl) _ _ _ _ (k0_off175_eq k) (by omega) (by omega) _ _) ?_
  refine KCompLib.part_cons _ _ (16 * k.val + 13) 0 16 (k0_off174_eq k) (by omega) (by omega) (by omega)
    (KCompLib.pay_ok hlut hp _ hRL _ (16 * k.val + 13) (by omega) (KCompLib.word_eq _ hRD xv k.val _ (k0_off107_eq k) _ 13 _ _ (by omega)) 0 (by omega) 0#32 (by decide) _ (fun _ _ => rfl) _ _ _ _ (k0_off174_eq k) (by omega) (by omega) _ _) ?_
  refine KCompLib.part_next _ _ (n := 16 * k.val + 12) ?_ (by omega)
  refine KCompLib.part_cons _ _ (16 * k.val + 12) 48 64 (k0_off172_eq k) (by omega) (by omega) (by omega)
    (KCompLib.pay_ok hlut hp _ hRL _ (16 * k.val + 12) (by omega) (KCompLib.word_eq _ hRD xv k.val _ (k0_off107_eq k) _ 12 _ _ (by omega)) 3 (by omega) 48#32 (by decide) _ (fun _ _ => rfl) _ _ _ _ (k0_off172_eq k) (by omega) (by omega) _ _) ?_
  refine KCompLib.part_cons _ _ (16 * k.val + 12) 32 48 (k0_off171_eq k) (by omega) (by omega) (by omega)
    (KCompLib.pay_ok hlut hp _ hRL _ (16 * k.val + 12) (by omega) (KCompLib.word_eq _ hRD xv k.val _ (k0_off107_eq k) _ 12 _ _ (by omega)) 2 (by omega) 32#32 (by decide) _ (fun _ _ => rfl) _ _ _ _ (k0_off171_eq k) (by omega) (by omega) _ _) ?_
  refine KCompLib.part_cons _ _ (16 * k.val + 12) 16 32 (k0_off170_eq k) (by omega) (by omega) (by omega)
    (KCompLib.pay_ok hlut hp _ hRL _ (16 * k.val + 12) (by omega) (KCompLib.word_eq _ hRD xv k.val _ (k0_off107_eq k) _ 12 _ _ (by omega)) 1 (by omega) 16#32 (by decide) _ (fun _ _ => rfl) _ _ _ _ (k0_off170_eq k) (by omega) (by omega) _ _) ?_
  refine KCompLib.part_cons _ _ (16 * k.val + 12) 0 16 (k0_off169_eq k) (by omega) (by omega) (by omega)
    (KCompLib.pay_ok hlut hp _ hRL _ (16 * k.val + 12) (by omega) (KCompLib.word_eq _ hRD xv k.val _ (k0_off107_eq k) _ 12 _ _ (by omega)) 0 (by omega) 0#32 (by decide) _ (fun _ _ => rfl) _ _ _ _ (k0_off169_eq k) (by omega) (by omega) _ _) ?_
  refine KCompLib.part_next _ _ (n := 16 * k.val + 11) ?_ (by omega)
  refine KCompLib.part_cons _ _ (16 * k.val + 11) 48 64 (k0_off167_eq k) (by omega) (by omega) (by omega)
    (KCompLib.pay_ok hlut hp _ hRL _ (16 * k.val + 11) (by omega) (KCompLib.word_eq _ hRD xv k.val _ (k0_off107_eq k) _ 11 _ _ (by omega)) 3 (by omega) 48#32 (by decide) _ (fun _ _ => rfl) _ _ _ _ (k0_off167_eq k) (by omega) (by omega) _ _) ?_
  refine KCompLib.part_cons _ _ (16 * k.val + 11) 32 48 (k0_off166_eq k) (by omega) (by omega) (by omega)
    (KCompLib.pay_ok hlut hp _ hRL _ (16 * k.val + 11) (by omega) (KCompLib.word_eq _ hRD xv k.val _ (k0_off107_eq k) _ 11 _ _ (by omega)) 2 (by omega) 32#32 (by decide) _ (fun _ _ => rfl) _ _ _ _ (k0_off166_eq k) (by omega) (by omega) _ _) ?_
  refine KCompLib.part_cons _ _ (16 * k.val + 11) 16 32 (k0_off165_eq k) (by omega) (by omega) (by omega)
    (KCompLib.pay_ok hlut hp _ hRL _ (16 * k.val + 11) (by omega) (KCompLib.word_eq _ hRD xv k.val _ (k0_off107_eq k) _ 11 _ _ (by omega)) 1 (by omega) 16#32 (by decide) _ (fun _ _ => rfl) _ _ _ _ (k0_off165_eq k) (by omega) (by omega) _ _) ?_
  refine KCompLib.part_cons _ _ (16 * k.val + 11) 0 16 (k0_off164_eq k) (by omega) (by omega) (by omega)
    (KCompLib.pay_ok hlut hp _ hRL _ (16 * k.val + 11) (by omega) (KCompLib.word_eq _ hRD xv k.val _ (k0_off107_eq k) _ 11 _ _ (by omega)) 0 (by omega) 0#32 (by decide) _ (fun _ _ => rfl) _ _ _ _ (k0_off164_eq k) (by omega) (by omega) _ _) ?_
  refine KCompLib.part_next _ _ (n := 16 * k.val + 10) ?_ (by omega)
  refine KCompLib.part_cons _ _ (16 * k.val + 10) 48 64 (k0_off162_eq k) (by omega) (by omega) (by omega)
    (KCompLib.pay_ok hlut hp _ hRL _ (16 * k.val + 10) (by omega) (KCompLib.word_eq _ hRD xv k.val _ (k0_off107_eq k) _ 10 _ _ (by omega)) 3 (by omega) 48#32 (by decide) _ (fun _ _ => rfl) _ _ _ _ (k0_off162_eq k) (by omega) (by omega) _ _) ?_
  refine KCompLib.part_cons _ _ (16 * k.val + 10) 32 48 (k0_off161_eq k) (by omega) (by omega) (by omega)
    (KCompLib.pay_ok hlut hp _ hRL _ (16 * k.val + 10) (by omega) (KCompLib.word_eq _ hRD xv k.val _ (k0_off107_eq k) _ 10 _ _ (by omega)) 2 (by omega) 32#32 (by decide) _ (fun _ _ => rfl) _ _ _ _ (k0_off161_eq k) (by omega) (by omega) _ _) ?_
  refine KCompLib.part_cons _ _ (16 * k.val + 10) 16 32 (k0_off160_eq k) (by omega) (by omega) (by omega)
    (KCompLib.pay_ok hlut hp _ hRL _ (16 * k.val + 10) (by omega) (KCompLib.word_eq _ hRD xv k.val _ (k0_off107_eq k) _ 10 _ _ (by omega)) 1 (by omega) 16#32 (by decide) _ (fun _ _ => rfl) _ _ _ _ (k0_off160_eq k) (by omega) (by omega) _ _) ?_
  refine KCompLib.part_cons _ _ (16 * k.val + 10) 0 16 (k0_off159_eq k) (by omega) (by omega) (by omega)
    (KCompLib.pay_ok hlut hp _ hRL _ (16 * k.val + 10) (by omega) (KCompLib.word_eq _ hRD xv k.val _ (k0_off107_eq k) _ 10 _ _ (by omega)) 0 (by omega) 0#32 (by decide) _ (fun _ _ => rfl) _ _ _ _ (k0_off159_eq k) (by omega) (by omega) _ _) ?_
  refine KCompLib.part_next _ _ (n := 16 * k.val + 9) ?_ (by omega)
  refine KCompLib.part_cons _ _ (16 * k.val + 9) 48 64 (k0_off157_eq k) (by omega) (by omega) (by omega)
    (KCompLib.pay_ok hlut hp _ hRL _ (16 * k.val + 9) (by omega) (KCompLib.word_eq _ hRD xv k.val _ (k0_off107_eq k) _ 9 _ _ (by omega)) 3 (by omega) 48#32 (by decide) _ (fun _ _ => rfl) _ _ _ _ (k0_off157_eq k) (by omega) (by omega) _ _) ?_
  refine KCompLib.part_cons _ _ (16 * k.val + 9) 32 48 (k0_off156_eq k) (by omega) (by omega) (by omega)
    (KCompLib.pay_ok hlut hp _ hRL _ (16 * k.val + 9) (by omega) (KCompLib.word_eq _ hRD xv k.val _ (k0_off107_eq k) _ 9 _ _ (by omega)) 2 (by omega) 32#32 (by decide) _ (fun _ _ => rfl) _ _ _ _ (k0_off156_eq k) (by omega) (by omega) _ _) ?_
  refine KCompLib.part_cons _ _ (16 * k.val + 9) 16 32 (k0_off155_eq k) (by omega) (by omega) (by omega)
    (KCompLib.pay_ok hlut hp _ hRL _ (16 * k.val + 9) (by omega) (KCompLib.word_eq _ hRD xv k.val _ (k0_off107_eq k) _ 9 _ _ (by omega)) 1 (by omega) 16#32 (by decide) _ (fun _ _ => rfl) _ _ _ _ (k0_off155_eq k) (by omega) (by omega) _ _) ?_
  refine KCompLib.part_cons _ _ (16 * k.val + 9) 0 16 (k0_off154_eq k) (by omega) (by omega) (by omega)
    (KCompLib.pay_ok hlut hp _ hRL _ (16 * k.val + 9) (by omega) (KCompLib.word_eq _ hRD xv k.val _ (k0_off107_eq k) _ 9 _ _ (by omega)) 0 (by omega) 0#32 (by decide) _ (fun _ _ => rfl) _ _ _ _ (k0_off154_eq k) (by omega) (by omega) _ _) ?_
  refine KCompLib.part_next _ _ (n := 16 * k.val + 8) ?_ (by omega)
  refine KCompLib.part_cons _ _ (16 * k.val + 8) 48 64 (k0_off152_eq k) (by omega) (by omega) (by omega)
    (KCompLib.pay_ok hlut hp _ hRL _ (16 * k.val + 8) (by omega) (KCompLib.word_eq _ hRD xv k.val _ (k0_off107_eq k) _ 8 _ _ (by omega)) 3 (by omega) 48#32 (by decide) _ (fun _ _ => rfl) _ _ _ _ (k0_off152_eq k) (by omega) (by omega) _ _) ?_
  refine KCompLib.part_cons _ _ (16 * k.val + 8) 32 48 (k0_off151_eq k) (by omega) (by omega) (by omega)
    (KCompLib.pay_ok hlut hp _ hRL _ (16 * k.val + 8) (by omega) (KCompLib.word_eq _ hRD xv k.val _ (k0_off107_eq k) _ 8 _ _ (by omega)) 2 (by omega) 32#32 (by decide) _ (fun _ _ => rfl) _ _ _ _ (k0_off151_eq k) (by omega) (by omega) _ _) ?_
  refine KCompLib.part_cons _ _ (16 * k.val + 8) 16 32 (k0_off150_eq k) (by omega) (by omega) (by omega)
    (KCompLib.pay_ok hlut hp _ hRL _ (16 * k.val + 8) (by omega) (KCompLib.word_eq _ hRD xv k.val _ (k0_off107_eq k) _ 8 _ _ (by omega)) 1 (by omega) 16#32 (by decide) _ (fun _ _ => rfl) _ _ _ _ (k0_off150_eq k) (by omega) (by omega) _ _) ?_
  refine KCompLib.part_cons _ _ (16 * k.val + 8) 0 16 (k0_off149_eq k) (by omega) (by omega) (by omega)
    (KCompLib.pay_ok hlut hp _ hRL _ (16 * k.val + 8) (by omega) (KCompLib.word_eq _ hRD xv k.val _ (k0_off107_eq k) _ 8 _ _ (by omega)) 0 (by omega) 0#32 (by decide) _ (fun _ _ => rfl) _ _ _ _ (k0_off149_eq k) (by omega) (by omega) _ _) ?_
  refine KCompLib.part_next _ _ (n := 16 * k.val + 7) ?_ (by omega)
  refine KCompLib.part_cons _ _ (16 * k.val + 7) 48 64 (k0_off147_eq k) (by omega) (by omega) (by omega)
    (KCompLib.pay_ok hlut hp _ hRL _ (16 * k.val + 7) (by omega) (KCompLib.word_eq _ hRD xv k.val _ (k0_off107_eq k) _ 7 _ _ (by omega)) 3 (by omega) 48#32 (by decide) _ (fun _ _ => rfl) _ _ _ _ (k0_off147_eq k) (by omega) (by omega) _ _) ?_
  refine KCompLib.part_cons _ _ (16 * k.val + 7) 32 48 (k0_off146_eq k) (by omega) (by omega) (by omega)
    (KCompLib.pay_ok hlut hp _ hRL _ (16 * k.val + 7) (by omega) (KCompLib.word_eq _ hRD xv k.val _ (k0_off107_eq k) _ 7 _ _ (by omega)) 2 (by omega) 32#32 (by decide) _ (fun _ _ => rfl) _ _ _ _ (k0_off146_eq k) (by omega) (by omega) _ _) ?_
  refine KCompLib.part_cons _ _ (16 * k.val + 7) 16 32 (k0_off145_eq k) (by omega) (by omega) (by omega)
    (KCompLib.pay_ok hlut hp _ hRL _ (16 * k.val + 7) (by omega) (KCompLib.word_eq _ hRD xv k.val _ (k0_off107_eq k) _ 7 _ _ (by omega)) 1 (by omega) 16#32 (by decide) _ (fun _ _ => rfl) _ _ _ _ (k0_off145_eq k) (by omega) (by omega) _ _) ?_
  refine KCompLib.part_cons _ _ (16 * k.val + 7) 0 16 (k0_off144_eq k) (by omega) (by omega) (by omega)
    (KCompLib.pay_ok hlut hp _ hRL _ (16 * k.val + 7) (by omega) (KCompLib.word_eq _ hRD xv k.val _ (k0_off107_eq k) _ 7 _ _ (by omega)) 0 (by omega) 0#32 (by decide) _ (fun _ _ => rfl) _ _ _ _ (k0_off144_eq k) (by omega) (by omega) _ _) ?_
  refine KCompLib.part_next _ _ (n := 16 * k.val + 6) ?_ (by omega)
  refine KCompLib.part_cons _ _ (16 * k.val + 6) 48 64 (k0_off142_eq k) (by omega) (by omega) (by omega)
    (KCompLib.pay_ok hlut hp _ hRL _ (16 * k.val + 6) (by omega) (KCompLib.word_eq _ hRD xv k.val _ (k0_off107_eq k) _ 6 _ _ (by omega)) 3 (by omega) 48#32 (by decide) _ (fun _ _ => rfl) _ _ _ _ (k0_off142_eq k) (by omega) (by omega) _ _) ?_
  refine KCompLib.part_cons _ _ (16 * k.val + 6) 32 48 (k0_off141_eq k) (by omega) (by omega) (by omega)
    (KCompLib.pay_ok hlut hp _ hRL _ (16 * k.val + 6) (by omega) (KCompLib.word_eq _ hRD xv k.val _ (k0_off107_eq k) _ 6 _ _ (by omega)) 2 (by omega) 32#32 (by decide) _ (fun _ _ => rfl) _ _ _ _ (k0_off141_eq k) (by omega) (by omega) _ _) ?_
  refine KCompLib.part_cons _ _ (16 * k.val + 6) 16 32 (k0_off140_eq k) (by omega) (by omega) (by omega)
    (KCompLib.pay_ok hlut hp _ hRL _ (16 * k.val + 6) (by omega) (KCompLib.word_eq _ hRD xv k.val _ (k0_off107_eq k) _ 6 _ _ (by omega)) 1 (by omega) 16#32 (by decide) _ (fun _ _ => rfl) _ _ _ _ (k0_off140_eq k) (by omega) (by omega) _ _) ?_
  refine KCompLib.part_cons _ _ (16 * k.val + 6) 0 16 (k0_off139_eq k) (by omega) (by omega) (by omega)
    (KCompLib.pay_ok hlut hp _ hRL _ (16 * k.val + 6) (by omega) (KCompLib.word_eq _ hRD xv k.val _ (k0_off107_eq k) _ 6 _ _ (by omega)) 0 (by omega) 0#32 (by decide) _ (fun _ _ => rfl) _ _ _ _ (k0_off139_eq k) (by omega) (by omega) _ _) ?_
  refine KCompLib.part_next _ _ (n := 16 * k.val + 5) ?_ (by omega)
  refine KCompLib.part_cons _ _ (16 * k.val + 5) 48 64 (k0_off137_eq k) (by omega) (by omega) (by omega)
    (KCompLib.pay_ok hlut hp _ hRL _ (16 * k.val + 5) (by omega) (KCompLib.word_eq _ hRD xv k.val _ (k0_off107_eq k) _ 5 _ _ (by omega)) 3 (by omega) 48#32 (by decide) _ (fun _ _ => rfl) _ _ _ _ (k0_off137_eq k) (by omega) (by omega) _ _) ?_
  refine KCompLib.part_cons _ _ (16 * k.val + 5) 32 48 (k0_off136_eq k) (by omega) (by omega) (by omega)
    (KCompLib.pay_ok hlut hp _ hRL _ (16 * k.val + 5) (by omega) (KCompLib.word_eq _ hRD xv k.val _ (k0_off107_eq k) _ 5 _ _ (by omega)) 2 (by omega) 32#32 (by decide) _ (fun _ _ => rfl) _ _ _ _ (k0_off136_eq k) (by omega) (by omega) _ _) ?_
  refine KCompLib.part_cons _ _ (16 * k.val + 5) 16 32 (k0_off135_eq k) (by omega) (by omega) (by omega)
    (KCompLib.pay_ok hlut hp _ hRL _ (16 * k.val + 5) (by omega) (KCompLib.word_eq _ hRD xv k.val _ (k0_off107_eq k) _ 5 _ _ (by omega)) 1 (by omega) 16#32 (by decide) _ (fun _ _ => rfl) _ _ _ _ (k0_off135_eq k) (by omega) (by omega) _ _) ?_
  refine KCompLib.part_cons _ _ (16 * k.val + 5) 0 16 (k0_off134_eq k) (by omega) (by omega) (by omega)
    (KCompLib.pay_ok hlut hp _ hRL _ (16 * k.val + 5) (by omega) (KCompLib.word_eq _ hRD xv k.val _ (k0_off107_eq k) _ 5 _ _ (by omega)) 0 (by omega) 0#32 (by decide) _ (fun _ _ => rfl) _ _ _ _ (k0_off134_eq k) (by omega) (by omega) _ _) ?_
  refine KCompLib.part_next _ _ (n := 16 * k.val + 4) ?_ (by omega)
  refine KCompLib.part_cons _ _ (16 * k.val + 4) 48 64 (k0_off132_eq k) (by omega) (by omega) (by omega)
    (KCompLib.pay_ok hlut hp _ hRL _ (16 * k.val + 4) (by omega) (KCompLib.word_eq _ hRD xv k.val _ (k0_off107_eq k) _ 4 _ _ (by omega)) 3 (by omega) 48#32 (by decide) _ (fun _ _ => rfl) _ _ _ _ (k0_off132_eq k) (by omega) (by omega) _ _) ?_
  refine KCompLib.part_cons _ _ (16 * k.val + 4) 32 48 (k0_off131_eq k) (by omega) (by omega) (by omega)
    (KCompLib.pay_ok hlut hp _ hRL _ (16 * k.val + 4) (by omega) (KCompLib.word_eq _ hRD xv k.val _ (k0_off107_eq k) _ 4 _ _ (by omega)) 2 (by omega) 32#32 (by decide) _ (fun _ _ => rfl) _ _ _ _ (k0_off131_eq k) (by omega) (by omega) _ _) ?_
  refine KCompLib.part_cons _ _ (16 * k.val + 4) 16 32 (k0_off130_eq k) (by omega) (by omega) (by omega)
    (KCompLib.pay_ok hlut hp _ hRL _ (16 * k.val + 4) (by omega) (KCompLib.word_eq _ hRD xv k.val _ (k0_off107_eq k) _ 4 _ _ (by omega)) 1 (by omega) 16#32 (by decide) _ (fun _ _ => rfl) _ _ _ _ (k0_off130_eq k) (by omega) (by omega) _ _) ?_
  refine KCompLib.part_cons _ _ (16 * k.val + 4) 0 16 (k0_off129_eq k) (by omega) (by omega) (by omega)
    (KCompLib.pay_ok hlut hp _ hRL _ (16 * k.val + 4) (by omega) (KCompLib.word_eq _ hRD xv k.val _ (k0_off107_eq k) _ 4 _ _ (by omega)) 0 (by omega) 0#32 (by decide) _ (fun _ _ => rfl) _ _ _ _ (k0_off129_eq k) (by omega) (by omega) _ _) ?_
  refine KCompLib.part_next _ _ (n := 16 * k.val + 3) ?_ (by omega)
  refine KCompLib.part_cons _ _ (16 * k.val + 3) 48 64 (k0_off127_eq k) (by omega) (by omega) (by omega)
    (KCompLib.pay_ok hlut hp _ hRL _ (16 * k.val + 3) (by omega) (KCompLib.word_eq _ hRD xv k.val _ (k0_off107_eq k) _ 3 _ _ (by omega)) 3 (by omega) 48#32 (by decide) _ (fun _ _ => rfl) _ _ _ _ (k0_off127_eq k) (by omega) (by omega) _ _) ?_
  refine KCompLib.part_cons _ _ (16 * k.val + 3) 32 48 (k0_off126_eq k) (by omega) (by omega) (by omega)
    (KCompLib.pay_ok hlut hp _ hRL _ (16 * k.val + 3) (by omega) (KCompLib.word_eq _ hRD xv k.val _ (k0_off107_eq k) _ 3 _ _ (by omega)) 2 (by omega) 32#32 (by decide) _ (fun _ _ => rfl) _ _ _ _ (k0_off126_eq k) (by omega) (by omega) _ _) ?_
  refine KCompLib.part_cons _ _ (16 * k.val + 3) 16 32 (k0_off125_eq k) (by omega) (by omega) (by omega)
    (KCompLib.pay_ok hlut hp _ hRL _ (16 * k.val + 3) (by omega) (KCompLib.word_eq _ hRD xv k.val _ (k0_off107_eq k) _ 3 _ _ (by omega)) 1 (by omega) 16#32 (by decide) _ (fun _ _ => rfl) _ _ _ _ (k0_off125_eq k) (by omega) (by omega) _ _) ?_
  refine KCompLib.part_cons _ _ (16 * k.val + 3) 0 16 (k0_off124_eq k) (by omega) (by omega) (by omega)
    (KCompLib.pay_ok hlut hp _ hRL _ (16 * k.val + 3) (by omega) (KCompLib.word_eq _ hRD xv k.val _ (k0_off107_eq k) _ 3 _ _ (by omega)) 0 (by omega) 0#32 (by decide) _ (fun _ _ => rfl) _ _ _ _ (k0_off124_eq k) (by omega) (by omega) _ _) ?_
  refine KCompLib.part_next _ _ (n := 16 * k.val + 2) ?_ (by omega)
  refine KCompLib.part_cons _ _ (16 * k.val + 2) 48 64 (k0_off122_eq k) (by omega) (by omega) (by omega)
    (KCompLib.pay_ok hlut hp _ hRL _ (16 * k.val + 2) (by omega) (KCompLib.word_eq _ hRD xv k.val _ (k0_off107_eq k) _ 2 _ _ (by omega)) 3 (by omega) 48#32 (by decide) _ (fun _ _ => rfl) _ _ _ _ (k0_off122_eq k) (by omega) (by omega) _ _) ?_
  refine KCompLib.part_cons _ _ (16 * k.val + 2) 32 48 (k0_off121_eq k) (by omega) (by omega) (by omega)
    (KCompLib.pay_ok hlut hp _ hRL _ (16 * k.val + 2) (by omega) (KCompLib.word_eq _ hRD xv k.val _ (k0_off107_eq k) _ 2 _ _ (by omega)) 2 (by omega) 32#32 (by decide) _ (fun _ _ => rfl) _ _ _ _ (k0_off121_eq k) (by omega) (by omega) _ _) ?_
  refine KCompLib.part_cons _ _ (16 * k.val + 2) 16 32 (k0_off120_eq k) (by omega) (by omega) (by omega)
    (KCompLib.pay_ok hlut hp _ hRL _ (16 * k.val + 2) (by omega) (KCompLib.word_eq _ hRD xv k.val _ (k0_off107_eq k) _ 2 _ _ (by omega)) 1 (by omega) 16#32 (by decide) _ (fun _ _ => rfl) _ _ _ _ (k0_off120_eq k) (by omega) (by omega) _ _) ?_
  refine KCompLib.part_cons _ _ (16 * k.val + 2) 0 16 (k0_off119_eq k) (by omega) (by omega) (by omega)
    (KCompLib.pay_ok hlut hp _ hRL _ (16 * k.val + 2) (by omega) (KCompLib.word_eq _ hRD xv k.val _ (k0_off107_eq k) _ 2 _ _ (by omega)) 0 (by omega) 0#32 (by decide) _ (fun _ _ => rfl) _ _ _ _ (k0_off119_eq k) (by omega) (by omega) _ _) ?_
  refine KCompLib.part_next _ _ (n := 16 * k.val + 1) ?_ (by omega)
  refine KCompLib.part_cons _ _ (16 * k.val + 1) 48 64 (k0_off117_eq k) (by omega) (by omega) (by omega)
    (KCompLib.pay_ok hlut hp _ hRL _ (16 * k.val + 1) (by omega) (KCompLib.word_eq _ hRD xv k.val _ (k0_off107_eq k) _ 1 _ _ (by omega)) 3 (by omega) 48#32 (by decide) _ (fun _ _ => rfl) _ _ _ _ (k0_off117_eq k) (by omega) (by omega) _ _) ?_
  refine KCompLib.part_cons _ _ (16 * k.val + 1) 32 48 (k0_off116_eq k) (by omega) (by omega) (by omega)
    (KCompLib.pay_ok hlut hp _ hRL _ (16 * k.val + 1) (by omega) (KCompLib.word_eq _ hRD xv k.val _ (k0_off107_eq k) _ 1 _ _ (by omega)) 2 (by omega) 32#32 (by decide) _ (fun _ _ => rfl) _ _ _ _ (k0_off116_eq k) (by omega) (by omega) _ _) ?_
  refine KCompLib.part_cons _ _ (16 * k.val + 1) 16 32 (k0_off115_eq k) (by omega) (by omega) (by omega)
    (KCompLib.pay_ok hlut hp _ hRL _ (16 * k.val + 1) (by omega) (KCompLib.word_eq _ hRD xv k.val _ (k0_off107_eq k) _ 1 _ _ (by omega)) 1 (by omega) 16#32 (by decide) _ (fun _ _ => rfl) _ _ _ _ (k0_off115_eq k) (by omega) (by omega) _ _) ?_
  refine KCompLib.part_cons _ _ (16 * k.val + 1) 0 16 (k0_off114_eq k) (by omega) (by omega) (by omega)
    (KCompLib.pay_ok hlut hp _ hRL _ (16 * k.val + 1) (by omega) (KCompLib.word_eq _ hRD xv k.val _ (k0_off107_eq k) _ 1 _ _ (by omega)) 0 (by omega) 0#32 (by decide) _ (fun _ _ => rfl) _ _ _ _ (k0_off114_eq k) (by omega) (by omega) _ _) ?_
  refine KCompLib.part_next _ _ (n := 16 * k.val) ?_ (by omega)
  refine KCompLib.part_cons _ _ (16 * k.val) 48 64 (k0_off112_eq k) (by omega) (by omega) (by omega)
    (KCompLib.pay_ok hlut hp _ hRL _ (16 * k.val) (by omega) (KCompLib.word_eq _ hRD xv k.val _ (k0_off107_eq k) _ 0 _ _ (by omega)) 3 (by omega) 48#32 (by decide) _ (fun _ _ => rfl) _ _ _ _ (k0_off112_eq k) (by omega) (by omega) _ _) ?_
  refine KCompLib.part_cons _ _ (16 * k.val) 32 48 (k0_off111_eq k) (by omega) (by omega) (by omega)
    (KCompLib.pay_ok hlut hp _ hRL _ (16 * k.val) (by omega) (KCompLib.word_eq _ hRD xv k.val _ (k0_off107_eq k) _ 0 _ _ (by omega)) 2 (by omega) 32#32 (by decide) _ (fun _ _ => rfl) _ _ _ _ (k0_off111_eq k) (by omega) (by omega) _ _) ?_
  refine KCompLib.part_cons _ _ (16 * k.val) 16 32 (k0_off110_eq k) (by omega) (by omega) (by omega)
    (KCompLib.pay_ok hlut hp _ hRL _ (16 * k.val) (by omega) (KCompLib.word_eq _ hRD xv k.val _ (k0_off107_eq k) _ 0 _ _ (by omega)) 1 (by omega) 16#32 (by decide) _ (fun _ _ => rfl) _ _ _ _ (k0_off110_eq k) (by omega) (by omega) _ _) ?_
  refine KCompLib.part_cons _ _ (16 * k.val) 0 16 (k0_off109_eq k) (by omega) (by omega) (by omega)
    (KCompLib.pay_ok hlut hp _ hRL _ (16 * k.val) (by omega) (KCompLib.word_eq _ hRD xv k.val _ (k0_off107_eq k) _ 0 _ _ (by omega)) 0 (by omega) 0#32 (by decide) _ (fun _ _ => rfl) _ _ _ _ (k0_off109_eq k) (by omega) (by omega) _ _) ?_
  exact KCompLib.part_of_outOK _ (fun g => g) (fun _ _ => rfl) hxv _ _ hf

end Cert.Kernel.KCompute

end
-- ==== Proof.KRingLibB.lean ====
/-
  What the proofs of the ring's steps share: the conditions of a step by the number of odd-numbered blocks, the
  result's blocks and the packed words as the program names them, and what a landing copy delivers — a block of
  the packed words read through the program's slice is that block; a block of the result written whole with a filled
  staging buffer holds the result's rows.
-/
import proofs.«207339_g86234353369688_cont_sun_m_1071_33_alg».proof.Proof.KTile1B

noncomputable section

namespace Cert.Kernel.KT

open Cert.Kernel Cert.Kernel.Gen Cert.Kernel.KC Cert.Kernel.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.Kernel.main_v15_scv : Memref Cert.Kernel.sig Kind.scVector Space.hbm Cert.Kernel.S100000 EltTy.i32)
local notation "wW" => (Memref.whole Cert.Kernel.main_v8_scv : Memref Cert.Kernel.sig Kind.scVector Space.hbm Cert.Kernel.S1152 EltTy.f32)
local notation "oW" => (Memref.whole Cert.Kernel.main_v16_scv : Memref Cert.Kernel.sig Kind.scVector Space.hbm Cert.Kernel.S100000x64 EltTy.f32)
local notation "b0" => (Memref.whole Cert.Kernel.cc0_scratch0 : Memref Cert.Kernel.sig Kind.scVector Space.vmem Cert.Kernel.S160 EltTy.i32)
local notation "b1" => (Memref.whole Cert.Kernel.cc0_scratch1 : Memref Cert.Kernel.sig Kind.scVector Space.vmem Cert.Kernel.S160 EltTy.i32)
local notation "b2" => (Memref.whole Cert.Kernel.cc0_scratch2 : Memref Cert.Kernel.sig Kind.scVector Space.vmem Cert.Kernel.S1152 EltTy.f32)
local notation "b3" => (Memref.whole Cert.Kernel.cc0_scratch3 : Memref Cert.Kernel.sig Kind.scVector Space.vmem Cert.Kernel.S32768 EltTy.f32)
local notation "b4" => (Memref.whole Cert.Kernel.cc0_scratch4 : Memref Cert.Kernel.sig Kind.scVector Space.vmem Cert.Kernel.S160x64 EltTy.f32)
local notation "b5" => (Memref.whole Cert.Kernel.cc0_scratch5 : Memref Cert.Kernel.sig Kind.scVector Space.vmem Cert.Kernel.S160x64 EltTy.f32)

variable [FloatOps F]
variable (d : Dev nD) (L : grid0.Coords)

/-- The staging buffers while they are filled: the block's packed words, the table, and the rows done so far. -/
def Icmp0 (w : Cert.Spec.SW.Idx → F .f32) (xp : S100000.Idx → BitVec 32) (d : Dev nD) (L : grid0.Coords) (blk : Nat) (xv : S160.Idx → BitVec 32) (lut : S32768.Idx → F .f32) (k : Nat) (_ : BitVec 32) : sProp 𝕄 :=
  iprop(((b0).view.loc (thr d L) ↦{fullShare} xv) ∗ ((b3).view.loc (thr d L) ↦{fullShare} lut) ∗ ∃ f, ((b4).view.loc (thr d L) ↦{fullShare} f) ∗ ⌜KC.OutOK w xp blk (16 * k) f⌝)
def Icmp1 (w : Cert.Spec.SW.Idx → F .f32) (xp : S100000.Idx → BitVec 32) (d : Dev nD) (L : grid0.Coords) (blk : Nat) (xv : S160.Idx → BitVec 32) (lut : S32768.Idx → F .f32) (k : Nat) (_ : BitVec 32) : sProp 𝕄 :=
  iprop(((b1).view.loc (thr d L) ↦{fullShare} xv) ∗ ((b3).view.loc (thr d L) ↦{fullShare} lut) ∗ ∃ f, ((b5).view.loc (thr d L) ↦{fullShare} f) ∗ ⌜KC.OutOK w xp blk (16 * k) f⌝)

/-! ## The conditions of a step, by the number of odd-numbered blocks -/

omit [FloatOps F] in
theorem t_lt (t : Fin k0_t9_loop.trips) : t.val < 10 := Nat.lt_of_lt_of_eq t.isLt trips9
omit [FloatOps F] in
theorem cond4_nOdd (t : Fin k0_t9_loop.trips) : k0_cond4 L t = 1#1 ↔ t.val < nOdd L := by
  have := t_lt t
  rw [cond4_iff]; unfold nOdd wid; split <;> omega
omit [FloatOps F] in
theorem cond6_nOdd (t : Fin k0_t9_loop.trips) : k0_cond6 L t = 1#1 ↔ t.val + 1 < nOdd L := by
  have := t_lt t
  rw [cond6_iff]; unfold nOdd wid; split <;> omega

variable (xp : Buf (Elt F) (pLoc d)) (w : Buf (Elt F) (wLoc d)) (o0 : Buf (Elt F) (oLoc d))
variable (O : CellTallies nD τ sig (HIx 1)) (W : Waits sig (HIx 1)) (lut : S32768.Idx → F .f32)

/-! ## The result's blocks and the packed words, as the program names them -/

omit [FloatOps F] in
theorem pts_p (q : PosShare TreeShare) : (pLoc d ↦{q} xp : sProp 𝕄) = ((pW).view.loc (thr d L) ↦{q} xp) := rfl

omit [FloatOps F] in
theorem pts_oE (t : Fin k0_t9_loop.trips) (h1 : k0_cond1 L t = 1#1) (f : Buf (Elt F) (oLoc d)) :
    (((oW).slice (Rect.unit (s := S100000x64) (k0_off103 L t) S160x64.size (k0_off103_inb L t h1)) (fun _ => rfl)).view.loc (thr d L)
        ↦[((oW).slice (Rect.unit (s := S100000x64) (k0_off103 L t) S160x64.size (k0_off103_inb L t h1)) (fun _ => rfl)).view.set]{fullShare} f : sProp 𝕄)
      = (oLoc d ↦[blkSet (bE L t.val)]{fullShare} f) := by
  rw [set_oSlice _ _ (bE L t.val) (by rw [k0_off103_eq]; unfold bE wid; congr 1; omega)]

omit [FloatOps F] in
theorem pts_oO (t : Fin k0_t9_loop.trips) (h4 : k0_cond4 L t = 1#1) (f : Buf (Elt F) (oLoc d)) :
    (((oW).slice (Rect.unit (s := S100000x64) (k0_off188 L t) S160x64.size (k0_off188_inb L t h4)) (fun _ => rfl)).view.loc (thr d L)
        ↦[((oW).slice (Rect.unit (s := S100000x64) (k0_off188 L t) S160x64.size (k0_off188_inb L t h4)) (fun _ => rfl)).view.set]{fullShare} f : sProp 𝕄)
      = (oLoc d ↦[blkSet (bO L t.val)]{fullShare} f) := by
  rw [set_oSlice _ _ (bO L t.val) (by rw [k0_off188_eq]; unfold bO wid; congr 1; omega)]

omit [FloatOps F] in
theorem range_pop {n : Nat} (h : 1 ≤ n) (Φ : Nat → sProp 𝕄) :
    bigSep (Finset.range n) Φ = iprop(Φ (n - 1) ∗ bigSep (Finset.range (n - 1)) Φ) := by
  obtain ⟨k, rfl⟩ : ∃ k, n = k + 1 := ⟨n - 1, by omega⟩
  rw [range_push, Nat.add_sub_cancel]

/-! ## What a landing copy delivers -/

/-- A block of the packed words, read through the slice the program takes of them, is that block. -/
theorem in_val (off : Fin 1 → Nat) (inb : ∀ a, off a + S160.size a ≤ S100000.size a) (blk : Nat) (hoff : off = ![160 * blk]) :
    KC.XvOK xp blk (View.read (Elt F) ((pW).slice (Rect.unit (s := S100000) off S160.size inb) (fun _ => rfl)).view xp) := by
  subst hoff
  intro r
  refine ⟨((pW).slice (Rect.unit (s := S100000) ![160 * blk] S160.size inb) (fun _ => rfl)).view.emb r, ?_, ?_⟩
  · show ((Rect.unit (s := S100000) ![160 * blk] S160.size inb).emb r 0).val = _
    rw [Rect.emb_apply]; simp
  · rw [View.read_apply]; rfl

/-- A block of the result written whole with a filled staging buffer holds the result's rows there. -/
theorem out_val (off : Fin 2 → Nat) (inb : ∀ a, off a + S160x64.size a ≤ S100000x64.size a) (blk : Nat) (hoff : off = ![160 * blk, 0])
    (fblk : Buf (Elt F) (oLoc d)) (f : S160x64.Idx → F .f32) (hf : KC.OutOK w xp blk 160 f) :
    ∀ i ∈ ((oW).slice (Rect.unit (s := S100000x64) off S160x64.size inb) (fun _ => rfl)).view.set,
      (((oW).slice (Rect.unit (s := S100000x64) off S160x64.size inb) (fun _ => rfl)).view.writes (Elt F) fblk
        [⟨Rect.whole _, f⟩]) i = G d w xp i := by
  subst hoff
  intro i hi
  obtain ⟨y, -, rfl⟩ := Finset.mem_map.mp hi
  have h1 := View.read_writes_cons_emb ((oW).slice (Rect.unit (s := S100000x64) ![160 * blk, 0] S160x64.size inb) (fun _ => rfl)).view fblk (Rect.whole _) f [] y
  rw [View.read_apply, Rect.emb_whole_apply] at h1
  obtain ⟨m, hm, hfy⟩ := hf y (by have := (y 0).isLt; exact this)
  rw [cast_eq] at h1
  rw [h1, hfy]
  have e0 : ((((oW).slice (Rect.unit (s := S100000x64) ![160 * blk, 0] S160x64.size inb) (fun _ => rfl)).view.emb y) 0).val = 160 * blk + (y 0).val := by
    show ((Rect.unit (s := S100000x64) ![160 * blk, 0] S160x64.size inb).emb y 0).val = _
    rw [Rect.emb_apply]; simp
  have e1 : ((((oW).slice (Rect.unit (s := S100000x64) ![160 * blk, 0] S160x64.size inb) (fun _ => rfl)).view.emb y) 1).val = (y 1).val := by
    show ((Rect.unit (s := S100000x64) ![160 * blk, 0] S160x64.size inb).emb y 1).val = _
    rw [Rect.emb_apply]; simp
  show _ = Cert.Spec.lutRow w (xp (ValueIdx.ix1 ((((oW).slice (Rect.unit (s := S100000x64) ![160 * blk, 0] S160x64.size inb) (fun _ => rfl)).view.emb y) 0))).toNat ((((oW).slice (Rect.unit (s := S100000x64) ![160 * blk, 0] S160x64.size inb) (fun _ => rfl)).view.emb y) 1).val
  rw [e1]
  congr 3
  funext a
  obtain rfl : a = 0 := Subsingleton.elim _ _
  apply Fin.ext
  rw [hm, ← e0]

/-- The staging buffer's copy into its block of the result delivers the buffer back and the block at the result's rows. -/
theorem out_deliv0 (t : Fin k0_t9_loop.trips) (h1 : k0_cond1 L t = 1#1) (fblk : Buf (Elt F) (oLoc d)) (f : S160x64.Idx → F .f32)
    (hf : KC.OutOK w xp (bE L t.val) 160 f) :
    (iprop((((oW).slice (Rect.unit (s := S100000x64) (k0_off103 L t) S160x64.size (k0_off103_inb L t h1)) (fun _ => rfl)).view.loc (thr d L)
          ↦[((oW).slice (Rect.unit (s := S100000x64) (k0_off103 L t) S160x64.size (k0_off103_inb L t h1)) (fun _ => rfl)).view.set]{fullShare}
          ((oW).slice (Rect.unit (s := S100000x64) (k0_off103 L t) S160x64.size (k0_off103_inb L t h1)) (fun _ => rfl)).view.writes (Elt F) fblk [⟨Rect.whole _, f⟩])
        ∗ ((b4).view.loc (thr d L) ↦[(b4).view.set]{fullShare} f)) : sProp 𝕄)
      ⊢ DO0 d L xp w t.val := by
  have hoff : k0_off103 L t = ![160 * bE L t.val, 0] := by rw [k0_off103_eq]; unfold bE wid; congr 1; omega
  rw [pointsTo_congr (out_val d xp w (k0_off103 L t) (k0_off103_inb L t h1) (bE L t.val) hoff fblk f hf), pts_oE d L t h1 (G d w xp),
    show ((b4).view.set) = Finset.univ from by simp only [Memref.view_whole, View.set_whole]]
  iintro ⟨Ho, H4⟩
  isplitl [H4]
  · iexists f; iexact H4
  · iexact Ho

/-- The staging buffer's copy into its block of the result delivers the buffer back and the block at the result's rows. -/
theorem out_deliv1 (t : Fin k0_t9_loop.trips) (h4 : k0_cond4 L t = 1#1) (fblk : Buf (Elt F) (oLoc d)) (f : S160x64.Idx → F .f32)
    (hf : KC.OutOK w xp (bO L t.val) 160 f) :
    (iprop((((oW).slice (Rect.unit (s := S100000x64) (k0_off188 L t) S160x64.size (k0_off188_inb L t h4)) (fun _ => rfl)).view.loc (thr d L)
          ↦[((oW).slice (Rect.unit (s := S100000x64) (k0_off188 L t) S160x64.size (k0_off188_inb L t h4)) (fun _ => rfl)).view.set]{fullShare}
          ((oW).slice (Rect.unit (s := S100000x64) (k0_off188 L t) S160x64.size (k0_off188_inb L t h4)) (fun _ => rfl)).view.writes (Elt F) fblk [⟨Rect.whole _, f⟩])
        ∗ ((b5).view.loc (thr d L) ↦[(b5).view.set]{fullShare} f)) : sProp 𝕄)
      ⊢ DO1 d L xp w t.val := by
  have hoff : k0_off188 L t = ![160 * bO L t.val, 0] := by rw [k0_off188_eq]; unfold bO wid; congr 1; omega
  rw [pointsTo_congr (out_val d xp w (k0_off188 L t) (k0_off188_inb L t h4) (bO L t.val) hoff fblk f hf), pts_oO d L t h4 (G d w xp),
    show ((b5).view.set) = Finset.univ from by simp only [Memref.view_whole, View.set_whole]]
  iintro ⟨Ho, H4⟩
  isplitl [H4]
  · iexists f; iexact H4
  · iexact Ho

/-- The fetch of the next block's packed words delivers the index scratch holding that block. -/
theorem in_deliv0 (t : Fin k0_t9_loop.trips) (h1 : k0_cond1 L t = 1#1) (h3 : k0_cond3 L t = 1#1) (q : PosShare TreeShare) (xv : S160.Idx → BitVec 32) :
    (iprop(((b0).view.loc (thr d L) ↦{fullShare} View.write (Elt F) (b0).view xv (View.read (Elt F) ((pW).slice (Rect.unit (s := S100000) (k0_off104 L t) S160.size (k0_off104_inb L t h1 h3)) (fun _ => rfl)).view xp) Finset.univ)
        ∗ ((pW).view.loc (thr d L) ↦[((pW).slice (Rect.unit (s := S100000) (k0_off104 L t) S160.size (k0_off104_inb L t h1 h3)) (fun _ => rfl)).view.set]{q} xp)) : sProp 𝕄)
      ⊢ DX0 d L xp (t.val + 1) := by
  have hoff : k0_off104 L t = ![160 * bE L (t.val + 1)] := by rw [k0_off104_eq]; unfold bE wid; congr 1; omega
  iintro ⟨H0, -⟩
  iexists _; isplitl [H0]; · iexact H0
  ipureintro
  simp only [Memref.view_whole, View.write_whole_univ]
  exact in_val d xp (k0_off104 L t) (k0_off104_inb L t h1 h3) (bE L (t.val + 1)) hoff

/-- The fetch of the next block's packed words delivers the index scratch holding that block. -/
theorem in_deliv1 (t : Fin k0_t9_loop.trips) (h4 : k0_cond4 L t = 1#1) (h6 : k0_cond6 L t = 1#1) (q : PosShare TreeShare) (xv : S160.Idx → BitVec 32) :
    (iprop(((b1).view.loc (thr d L) ↦{fullShare} View.write (Elt F) (b1).view xv (View.read (Elt F) ((pW).slice (Rect.unit (s := S100000) (k0_off189 L t) S160.size (k0_off189_inb L t h4 h6)) (fun _ => rfl)).view xp) Finset.univ)
        ∗ ((pW).view.loc (thr d L) ↦[((pW).slice (Rect.unit (s := S100000) (k0_off189 L t) S160.size (k0_off189_inb L t h4 h6)) (fun _ => rfl)).view.set]{q} xp)) : sProp 𝕄)
      ⊢ DX1 d L xp (t.val + 1) := by
  have hoff : k0_off189 L t = ![160 * bO L (t.val + 1)] := by rw [k0_off189_eq]; unfold bO wid; congr 1; omega
  iintro ⟨H0, -⟩
  iexists _; isplitl [H0]; · iexact H0
  ipureintro
  simp only [Memref.view_whole, View.write_whole_univ]
  exact in_val d xp (k0_off189 L t) (k0_off189_inb L t h4 h6) (bO L (t.val + 1)) hoff

end Cert.Kernel.KT

end
-- ==== Proof.KRingAFB.lean ====
/-
  The first and the last step of the ring of transfers a vector subcore runs.

  Step 0 has no earlier copy into the result to wait for: the staging buffers are idle and their semaphores at zero;
  it leaves both staging buffers' copies of blocks `wid` and `wid + 32` in flight and the packed words of the next two
  blocks on their way.  A worker with nine odd-numbered blocks runs step 9 on its even-numbered block alone: nothing
  more is fetched, the index scratch stays idle, and the odd side is as step 8 left it.
-/
import proofs.«207339_g86234353369688_cont_sun_m_1071_33_alg».proof.Proof.KTile1B
import proofs.«207339_g86234353369688_cont_sun_m_1071_33_alg».proof.Proof.KComputeB
import proofs.«207339_g86234353369688_cont_sun_m_1071_33_alg».proof.Proof.KRingLibB
import proofs.«207339_g86234353369688_cont_sun_m_1071_33_alg».proof.Proof.Gen.Kernel.Skeleton

noncomputable section

namespace Cert.Kernel.KT

open Cert.Kernel Cert.Kernel.Gen Cert.Kernel.KC Cert.Kernel.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.Kernel.main_v15_scv : Memref Cert.Kernel.sig Kind.scVector Space.hbm Cert.Kernel.S100000 EltTy.i32)
local notation "wW" => (Memref.whole Cert.Kernel.main_v8_scv : Memref Cert.Kernel.sig Kind.scVector Space.hbm Cert.Kernel.S1152 EltTy.f32)
local notation "oW" => (Memref.whole Cert.Kernel.main_v16_scv : Memref Cert.Kernel.sig Kind.scVector Space.hbm Cert.Kernel.S100000x64 EltTy.f32)
local notation "b0" => (Memref.whole Cert.Kernel.cc0_scratch0 : Memref Cert.Kernel.sig Kind.scVector Space.vmem Cert.Kernel.S160 EltTy.i32)
local notation "b1" => (Memref.whole Cert.Kernel.cc0_scratch1 : Memref Cert.Kernel.sig Kind.scVector Space.vmem Cert.Kernel.S160 EltTy.i32)
local notation "b2" => (Memref.whole Cert.Kernel.cc0_scratch2 : Memref Cert.Kernel.sig Kind.scVector Space.vmem Cert.Kernel.S1152 EltTy.f32)
local notation "b3" => (Memref.whole Cert.Kernel.cc0_scratch3 : Memref Cert.Kernel.sig Kind.scVector Space.vmem Cert.Kernel.S32768 EltTy.f32)
local notation "b4" => (Memref.whole Cert.Kernel.cc0_scratch4 : Memref Cert.Kernel.sig Kind.scVector Space.vmem Cert.Kernel.S160x64 EltTy.f32)
local notation "b5" => (Memref.whole Cert.Kernel.cc0_scratch5 : Memref Cert.Kernel.sig Kind.scVector Space.vmem Cert.Kernel.S160x64 EltTy.f32)

variable [FloatOps F]

variable (d : Dev nD) (L : grid0.Coords) (xp : Buf (Elt F) (pLoc d)) (w : Buf (Elt F) (wLoc d))

/-- `out_deliv0` with the copied values spelt as the copy reads them off the staging buffer. -/
theorem out_deliv0r (t : Fin k0_t9_loop.trips) (h1 : k0_cond1 L t = 1#1) (fblk : Buf (Elt F) (oLoc d)) (f : S160x64.Idx → F .f32)
    (hf : KC.OutOK w xp (bE L t.val) 160 f) :
    (iprop((((oW).slice (Rect.unit (s := S100000x64) (k0_off103 L t) S160x64.size (k0_off103_inb L t h1)) (fun _ => rfl)).view.loc (thr d L)
          ↦[((oW).slice (Rect.unit (s := S100000x64) (k0_off103 L t) S160x64.size (k0_off103_inb L t h1)) (fun _ => rfl)).view.set]{fullShare}
          ((oW).slice (Rect.unit (s := S100000x64) (k0_off103 L t) S160x64.size (k0_off103_inb L t h1)) (fun _ => rfl)).view.writes (Elt F) fblk
            [⟨Rect.whole _, ReadAs.same.apply (View.read (Elt F) (b4).view f)⟩])
        ∗ ((b4).view.loc (thr d L) ↦[(b4).view.set]{fullShare} f)) : sProp 𝕄)
      ⊢ DO0 d L xp w t.val :=
  out_deliv0 d L xp w t h1 fblk f hf

/-- `out_deliv1` likewise. -/
theorem out_deliv1r (t : Fin k0_t9_loop.trips) (h4 : k0_cond4 L t = 1#1) (fblk : Buf (Elt F) (oLoc d)) (f : S160x64.Idx → F .f32)
    (hf : KC.OutOK w xp (bO L t.val) 160 f) :
    (iprop((((oW).slice (Rect.unit (s := S100000x64) (k0_off188 L t) S160x64.size (k0_off188_inb L t h4)) (fun _ => rfl)).view.loc (thr d L)
          ↦[((oW).slice (Rect.unit (s := S100000x64) (k0_off188 L t) S160x64.size (k0_off188_inb L t h4)) (fun _ => rfl)).view.set]{fullShare}
          ((oW).slice (Rect.unit (s := S100000x64) (k0_off188 L t) S160x64.size (k0_off188_inb L t h4)) (fun _ => rfl)).view.writes (Elt F) fblk
            [⟨Rect.whole _, ReadAs.same.apply (View.read (Elt F) (b5).view f)⟩])
        ∗ ((b5).view.loc (thr d L) ↦[(b5).view.set]{fullShare} f)) : sProp 𝕄)
      ⊢ DO1 d L xp w t.val :=
  out_deliv1 d L xp w t h4 fblk f hf

set_option maxHeartbeats 8000000 in
/-- Step 0 of the ring. -/
theorem ring_A (d : Dev nD) (L : grid0.Coords) (qa qb : PosShare TreeShare) (xp : Buf (Elt F) (pLoc d)) (w : Buf (Elt F) (wLoc d)) (o0 : Buf (Elt F) (oLoc d))
    (O : CellTallies nD τ sig (HIx 1)) (W : Waits sig (HIx 1)) (lut : S32768.Idx → F .f32)
    (hO : ∀ g, O g none = 0) (hxp : ∀ n : S100000.Idx, (xp n).toNat < 512) (hlut : KC.LutOK w 512 lut)
    (v1 v20 : BitVec 32) (v239 : FVec F S16 .f32) (k : Fin k0_t9_loop.trips) (hk : k.val = 0) (acc : BitVec 32) :
    Iring d L xp w o0 O W lut qa qb k.val acc ⊢ wp frame (wpE (defs₀ (F := F)) 𝒱₀ (thr d L) none) Set.univ
      (k0_t9_body L pW (Memref.isWhole_whole _) wW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) cc0_scratch6 cc0_scratch7 cc0_scratch8 cc0_scratch9 cc0_scoped0 v1 v20 v239 k acc)
      (Iring d L xp w o0 O W lut qa qb (k.val + 1)) := by
  have hn10 := nOdd_le L
  have hn9 := nOdd_ge L
  have k0_h1 : k0_cond1 L k = 1#1 := cond1_true L k
  have k0_h2 : ¬ k0_cond2 k = 1#1 := fun h => by have := (cond2_iff k).1 h; omega
  have k0_h3 : k0_cond3 L k = 1#1 := (cond3_iff L k).2 (by omega)
  have k0_h4 : k0_cond4 L k = 1#1 := (cond4_nOdd L k).2 (by omega)
  have k0_h5 : ¬ k0_cond5 k = 1#1 := fun h => by have := (cond5_iff k).1 h; omega
  have k0_h6 : k0_cond6 L k = 1#1 := (cond6_nOdd L k).2 (by omega)
  unfold Iring SX0 SX1 SO0 SO1
  rw [if_pos (show k.val < 10 by omega), if_pos (show k.val < nOdd L by omega), if_pos hk, if_pos hk,
    if_pos (show k.val + 1 < 10 by omega), if_pos (show k.val + 1 < nOdd L by omega), if_neg (show ¬ k.val + 1 = 0 by omega), if_neg (show ¬ k.val + 1 = 0 by omega),
    show min (k.val + 1) (nOdd L) = k.val + 1 from by omega, show min k.val (nOdd L) = k.val from by omega, Nat.add_sub_cancel,
    show k.val - 1 = 0 from by omega, show Finset.range k.val = Finset.range 0 from by rw [hk],
    Ico_pop (show k.val < 10 by omega) (fun s => (oLoc d ↦[blkSet (bE L s)]{fullShare} o0 : sProp 𝕄)), Ico_pop (show k.val < nOdd L by omega) (fun s => (oLoc d ↦[blkSet (bO L s)]{fullShare} o0 : sProp 𝕄)),
    Ico_pop (show k.val + 1 < 10 by omega) (fun s => (pLoc d ↦{Transfers.shareTokN qa s} xp : sProp 𝕄)), Ico_pop (show k.val + 1 < nOdd L by omega) (fun s => (pLoc d ↦{Transfers.shareTokN qb s} xp : sProp 𝕄)),
    ← pts_oE d L k k0_h1 o0, ← pts_oO d L k k0_h4 o0, pts_p d L xp (Transfers.shareTokN qa (k.val + 1)), pts_p d L xp (Transfers.shareTokN qb (k.val + 1))]
  unfold k0_t9_body
  iintro ⟨#Hmw, H3, SX0, SX1, ⟨S8, %f4, H4⟩, ⟨S9, %f5, H5⟩, ⟨HbE, HuE⟩, ⟨HbO, HuO⟩, HgE, HgO, ⟨HpA, HqA⟩, ⟨HpB, HqB⟩, %W0, %hW0, HO⟩
  sl_exec
  iapply (Transfers.wp_waitLocalO countersEmb 𝒱₀ (thr d L) none (default : HIx 1) (N := 5120) rfl) $$ [SX0 HO]
  · isplitl [SX0]; · iexact SX0
    isplitl [HO]; · iexact HO
    iapply (Transfers.MayWaits.elim (SemLoc.dma cc0_scratch6.sem)); iexact Hmw
  iintro ⟨HD, S6, HO⟩
  icases HD with ⟨%xv, H0, %hxv⟩
  sl_exec
  sl_for (KCompute.Icmp0 w xp d L (bE L k.val) xv lut) $$ [H0 H3 H4]
  case region => exact KCompute.compute_region0 w xp d L (bE L k.val) xv lut hxp hxv hlut v1 v20 v239 k k0_h1
  · unfold KCompute.Icmp0
    isplitl [H0]; · iexact H0
    isplitl [H3]; · iexact H3
    iexists f4; isplitl [H4]; · iexact H4
    ipureintro; intro y hy; omega
  iintro %acc' HI
  unfold KCompute.Icmp0
  icases HI with ⟨H0, H3, %f4', H4, %hf4⟩
  sl_exec
  iapply (Transfers.wp_waitLocalO countersEmb 𝒱₀ (thr d L) none (default : HIx 1) (N := 5120) rfl) $$ [SX1 HO]
  · isplitl [SX1]; · iexact SX1
    isplitl [HO]; · iexact HO
    iapply (Transfers.MayWaits.elim (SemLoc.dma cc0_scratch7.sem)); iexact Hmw
  iintro ⟨HD, S7, HO⟩
  icases HD with ⟨%xv1, H1, %hxv1⟩
  sl_exec
  sl_for (KCompute.Icmp1 w xp d L (bO L k.val) xv1 lut) $$ [H1 H3 H5]
  case region => exact KCompute.compute_region1 w xp d L (bO L k.val) xv1 lut hxp hxv1 hlut v1 v20 v239 k k0_h4
  · unfold KCompute.Icmp1
    isplitl [H1]; · iexact H1
    isplitl [H3]; · iexact H3
    iexists f5; isplitl [H5]; · iexact H5
    ipureintro; intro y hy; omega
  iintro %acc'' HI
  unfold KCompute.Icmp1
  icases HI with ⟨H1, H3, %f5', H5, %hf5⟩
  sl_exec
  have e10 : 16 * Scf.trips k0_t10_loop.lb k0_t10_loop.ub k0_t10_loop.st = 160 := by
    rw [show Scf.trips k0_t10_loop.lb k0_t10_loop.ub k0_t10_loop.st = k0_t10_loop.trips from rfl, trips10]
  rw [e10] at hf4
  have e11 : 16 * Scf.trips k0_t11_loop.lb k0_t11_loop.ub k0_t11_loop.st = 160 := by
    rw [show Scf.trips k0_t11_loop.lb k0_t11_loop.ub k0_t11_loop.st = k0_t11_loop.trips from rfl, trips11]
  rw [e11] at hf5
  -- the four copies in flight deliver what the invariant says of them
  sl_unfold_run_names
  ihave FO0' := (Transfers.Flight_mono (EC := countersEmb) (c := thr d L) (out_deliv0r d L xp w k k0_h1 o0 f4' hf4)) $$ S8
  ihave FO1' := (Transfers.Flight_mono (EC := countersEmb) (c := thr d L) (out_deliv1r d L xp w k k0_h4 o0 f5' hf5)) $$ S9
  ihave FX0' := (Transfers.Flight_mono (EC := countersEmb) (c := thr d L) (in_deliv0 d L xp k k0_h1 k0_h3 (Transfers.shareTokN qa (k.val + 1)) xv)) $$ S6
  ihave FX1' := (Transfers.Flight_mono (EC := countersEmb) (c := thr d L) (in_deliv1 d L xp k k0_h4 k0_h6 (Transfers.shareTokN qb (k.val + 1)) xv1)) $$ S7
  iclear H4
  iclear H5
  iclear HpA
  iclear HpB
  sl_step
  isplitl []
  · iexact Hmw
  isplitl [H3]
  · iexact H3
  isplitl [FX0']
  · iexact FX0'
  isplitl [FX1']
  · iexact FX1'
  isplitl [FO0']
  · iexact FO0'
  isplitl [FO1']
  · iexact FO1'
  isplitl [HuE]
  · iexact HuE
  isplitl [HuO]
  · iexact HuO
  isplitl [HgE]
  · iexact HgE
  isplitl [HgO]
  · iexact HgO
  isplitl [HqA]
  · iexact HqA
  isplitl [HqB]
  · iexact HqB
  iexists _
  isplitr [HO]
  rotate_left
  · iexact HO
  · ipureintro
    intro p hp
    simp only [Finset.mem_insert] at hp
    rcases hp with rfl | rfl | hp
    · exact Or.inr rfl
    · exact Or.inr rfl
    · exact hW0 p hp

set_option maxHeartbeats 8000000 in
/-- Step 9 of the ring, for a worker with nine odd-numbered blocks. -/
theorem ring_F (d : Dev nD) (L : grid0.Coords) (qa qb : PosShare TreeShare) (xp : Buf (Elt F) (pLoc d)) (w : Buf (Elt F) (wLoc d)) (o0 : Buf (Elt F) (oLoc d))
    (O : CellTallies nD τ sig (HIx 1)) (W : Waits sig (HIx 1)) (lut : S32768.Idx → F .f32)
    (hO : ∀ g, O g none = 0) (hxp : ∀ n : S100000.Idx, (xp n).toNat < 512) (hlut : KC.LutOK w 512 lut)
    (v1 v20 : BitVec 32) (v239 : FVec F S16 .f32) (k : Fin k0_t9_loop.trips) (hk : k.val = 9) (hn : nOdd L = 9) (acc : BitVec 32) :
    Iring d L xp w o0 O W lut qa qb k.val acc ⊢ wp frame (wpE (defs₀ (F := F)) 𝒱₀ (thr d L) none) Set.univ
      (k0_t9_body L pW (Memref.isWhole_whole _) wW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) cc0_scratch6 cc0_scratch7 cc0_scratch8 cc0_scratch9 cc0_scoped0 v1 v20 v239 k acc)
      (Iring d L xp w o0 O W lut qa qb (k.val + 1)) := by
  have k0_h1 : k0_cond1 L k = 1#1 := cond1_true L k
  have k0_h2 : k0_cond2 k = 1#1 := (cond2_iff k).2 (by omega)
  have k0_h3 : ¬ k0_cond3 L k = 1#1 := fun h => by have := (cond3_iff L k).1 h; omega
  have k0_h4 : ¬ k0_cond4 L k = 1#1 := fun h => by have := (cond4_nOdd L k).1 h; omega
  unfold Iring SX0 SX1 SO0 SO1
  rw [if_pos (show k.val < 10 by omega), if_neg (show ¬ k.val < nOdd L by omega), if_neg (show ¬ k.val = 0 by omega), if_neg (show ¬ k.val = 0 by omega),
    if_neg (show ¬ k.val + 1 < 10 by omega), if_neg (show ¬ k.val + 1 < nOdd L by omega), if_neg (show ¬ k.val + 1 = 0 by omega), if_neg (show ¬ k.val + 1 = 0 by omega),
    show min (k.val + 1) (nOdd L) = k.val from by omega, show min k.val (nOdd L) = k.val from by omega, Nat.add_sub_cancel,
    range_pop (show 1 ≤ k.val by omega) (fun s => (oLoc d ↦[blkSet (bE L s)]{fullShare} G d w xp : sProp 𝕄)),
    Ico_pop (show k.val < 10 by omega) (fun s => (oLoc d ↦[blkSet (bE L s)]{fullShare} o0 : sProp 𝕄)),
    Finset.Ico_eq_empty_of_le (show 10 ≤ k.val + 1 by omega), Finset.Ico_eq_empty_of_le (show 10 ≤ k.val + 1 + 1 by omega),
    Finset.Ico_eq_empty_of_le (show nOdd L ≤ k.val by omega), Finset.Ico_eq_empty_of_le (show nOdd L ≤ k.val + 1 by omega), Finset.Ico_eq_empty_of_le (show nOdd L ≤ k.val + 1 + 1 by omega),
    ← pts_oE d L k k0_h1 o0]
  unfold k0_t9_body
  iintro ⟨#Hmw, H3, SX0, SX1, SO0, SO1, ⟨HbE, HuE⟩, HuO, HgE, HgO, HqA, HqB, %W0, %hW0, HO⟩
  sl_exec
  iapply (Transfers.wp_waitLocalO countersEmb 𝒱₀ (thr d L) none (default : HIx 1) (N := 5120) rfl) $$ [SX0 HO]
  · isplitl [SX0]; · iexact SX0
    isplitl [HO]; · iexact HO
    iapply (Transfers.MayWaits.elim (SemLoc.dma cc0_scratch6.sem)); iexact Hmw
  iintro ⟨HD, S6, HO⟩
  icases HD with ⟨%xv, H0, %hxv⟩
  sl_exec
  iapply (Transfers.wp_waitLocalO countersEmb 𝒱₀ (thr d L) none (default : HIx 1) (N := 327680) rfl) $$ [SO0 HO]
  · isplitl [SO0]; · iexact SO0
    isplitl [HO]; · iexact HO
    iapply (Transfers.MayWaits.elim (SemLoc.dma cc0_scratch8.sem)); iexact Hmw
  iintro ⟨HD, S8, HO⟩
  icases HD with ⟨⟨%f4, H4⟩, HdE⟩
  sl_exec
  sl_for (KCompute.Icmp0 w xp d L (bE L k.val) xv lut) $$ [H0 H3 H4]
  case region => exact KCompute.compute_region0 w xp d L (bE L k.val) xv lut hxp hxv hlut v1 v20 v239 k k0_h1
  · unfold KCompute.Icmp0
    isplitl [H0]; · iexact H0
    isplitl [H3]; · iexact H3
    iexists f4; isplitl [H4]; · iexact H4
    ipureintro; intro y hy; omega
  iintro %acc' HI
  unfold KCompute.Icmp0
  icases HI with ⟨H0, H3, %f4', H4, %hf4⟩
  sl_exec
  have e10 : 16 * Scf.trips k0_t10_loop.lb k0_t10_loop.ub k0_t10_loop.st = 160 := by
    rw [show Scf.trips k0_t10_loop.lb k0_t10_loop.ub k0_t10_loop.st = k0_t10_loop.trips from rfl, trips10]
  rw [e10] at hf4
  sl_unfold_run_names
  ihave FO0' := (Transfers.Flight_mono (EC := countersEmb) (c := thr d L) (out_deliv0r d L xp w k k0_h1 o0 f4' hf4)) $$ S8
  iclear H4
  sl_step
  isplitl []
  · iexact Hmw
  isplitl [H3]
  · iexact H3
  isplitl [S6 H0]
  · isplitl [S6]
    · iexact S6
    iexists xv
    iexact H0
  isplitl [SX1]
  · iexact SX1
  isplitl [FO0']
  · iexact FO0'
  isplitl [SO1]
  · iexact SO1
  isplitl [HuE]
  · iexact HuE
  isplitl [HuO]
  · iexact HuO
  isplitl [HdE HgE]
  · isplitl [HdE]
    · iexact HdE
    iexact HgE
  isplitl [HgO]
  · iexact HgO
  isplitl [HqA]
  · iexact HqA
  isplitl [HqB]
  · iexact HqB
  iexists _
  isplitr [HO]
  rotate_left
  · iexact HO
  · ipureintro
    intro p hp
    simp only [Finset.mem_insert] at hp
    rcases hp with rfl | rfl | hp
    · exact Or.inr rfl
    · exact Or.inr rfl
    · exact hW0 p hp

end Cert.Kernel.KT

end
-- ==== Proof.KRingBDB.lean ====
/-
  A step of the ring of transfers a vector subcore runs, away from the ring's ends: the invariant before step `t`
  gives the invariant before step `t + 1`, when every wait, fill and copy-out of the step happens — with the fetch of
  both next blocks (the general step), or of the even-numbered one only (the step before the last, when the worker
  has nine odd-numbered blocks).
-/
import proofs.«207339_g86234353369688_cont_sun_m_1071_33_alg».proof.Proof.KRingLibB
import proofs.«207339_g86234353369688_cont_sun_m_1071_33_alg».proof.Proof.KComputeB
import proofs.«207339_g86234353369688_cont_sun_m_1071_33_alg».proof.Proof.Gen.Kernel.Skeleton

noncomputable section

namespace Cert.Kernel.KT

open Cert.Kernel Cert.Kernel.Gen Cert.Kernel.KC Cert.Kernel.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.Kernel.main_v15_scv : Memref Cert.Kernel.sig Kind.scVector Space.hbm Cert.Kernel.S100000 EltTy.i32)
local notation "wW" => (Memref.whole Cert.Kernel.main_v8_scv : Memref Cert.Kernel.sig Kind.scVector Space.hbm Cert.Kernel.S1152 EltTy.f32)
local notation "oW" => (Memref.whole Cert.Kernel.main_v16_scv : Memref Cert.Kernel.sig Kind.scVector Space.hbm Cert.Kernel.S100000x64 EltTy.f32)
local notation "b0" => (Memref.whole Cert.Kernel.cc0_scratch0 : Memref Cert.Kernel.sig Kind.scVector Space.vmem Cert.Kernel.S160 EltTy.i32)
local notation "b1" => (Memref.whole Cert.Kernel.cc0_scratch1 : Memref Cert.Kernel.sig Kind.scVector Space.vmem Cert.Kernel.S160 EltTy.i32)
local notation "b2" => (Memref.whole Cert.Kernel.cc0_scratch2 : Memref Cert.Kernel.sig Kind.scVector Space.vmem Cert.Kernel.S1152 EltTy.f32)
local notation "b3" => (Memref.whole Cert.Kernel.cc0_scratch3 : Memref Cert.Kernel.sig Kind.scVector Space.vmem Cert.Kernel.S32768 EltTy.f32)
local notation "b4" => (Memref.whole Cert.Kernel.cc0_scratch4 : Memref Cert.Kernel.sig Kind.scVector Space.vmem Cert.Kernel.S160x64 EltTy.f32)
local notation "b5" => (Memref.whole Cert.Kernel.cc0_scratch5 : Memref Cert.Kernel.sig Kind.scVector Space.vmem Cert.Kernel.S160x64 EltTy.f32)

variable [FloatOps F]

section Deliveries

variable (d : Dev nD) (L : grid0.Coords) (xp : Buf (Elt F) (pLoc d)) (w : Buf (Elt F) (wLoc d))

/-! ## The deliveries, with the copied values spelt as the step's copies leave them -/

theorem out_deliv0s (t : Fin k0_t9_loop.trips) (h1 : k0_cond1 L t = 1#1) (fblk : Buf (Elt F) (oLoc d)) (f : S160x64.Idx → F .f32)
    (hf : KC.OutOK w xp (bE L t.val) 160 f) :
    (iprop((((oW).slice (Rect.unit (s := S100000x64) (k0_off103 L t) S160x64.size (k0_off103_inb L t h1)) (fun _ => rfl)).view.loc (thr d L)
          ↦[((oW).slice (Rect.unit (s := S100000x64) (k0_off103 L t) S160x64.size (k0_off103_inb L t h1)) (fun _ => rfl)).view.set]{fullShare}
          ((oW).slice (Rect.unit (s := S100000x64) (k0_off103 L t) S160x64.size (k0_off103_inb L t h1)) (fun _ => rfl)).view.writes (Elt F) fblk [⟨Rect.whole _, ReadAs.same.apply (View.read (Elt F) (b4).view f)⟩])
        ∗ ((b4).view.loc (thr d L) ↦[(b4).view.set]{fullShare} f)) : sProp 𝕄)
      ⊢ DO0 d L xp w t.val := out_deliv0 d L xp w t h1 fblk f hf

theorem out_deliv1s (t : Fin k0_t9_loop.trips) (h4 : k0_cond4 L t = 1#1) (fblk : Buf (Elt F) (oLoc d)) (f : S160x64.Idx → F .f32)
    (hf : KC.OutOK w xp (bO L t.val) 160 f) :
    (iprop((((oW).slice (Rect.unit (s := S100000x64) (k0_off188 L t) S160x64.size (k0_off188_inb L t h4)) (fun _ => rfl)).view.loc (thr d L)
          ↦[((oW).slice (Rect.unit (s := S100000x64) (k0_off188 L t) S160x64.size (k0_off188_inb L t h4)) (fun _ => rfl)).view.set]{fullShare}
          ((oW).slice (Rect.unit (s := S100000x64) (k0_off188 L t) S160x64.size (k0_off188_inb L t h4)) (fun _ => rfl)).view.writes (Elt F) fblk [⟨Rect.whole _, ReadAs.same.apply (View.read (Elt F) (b5).view f)⟩])
        ∗ ((b5).view.loc (thr d L) ↦[(b5).view.set]{fullShare} f)) : sProp 𝕄)
      ⊢ DO1 d L xp w t.val := out_deliv1 d L xp w t h4 fblk f hf

theorem in_deliv0s (t : Fin k0_t9_loop.trips) (h1 : k0_cond1 L t = 1#1) (h3 : k0_cond3 L t = 1#1) (q : PosShare TreeShare) (xv : S160.Idx → BitVec 32) :
    (iprop(((b0).view.loc (thr d L) ↦{fullShare} View.write (Elt F) (b0).view xv (ReadAs.same.apply (View.read (Elt F) ((pW).slice (Rect.unit (s := S100000) (k0_off104 L t) S160.size (k0_off104_inb L t h1 h3)) (fun _ => rfl)).view xp)) Finset.univ)
        ∗ ((pW).view.loc (thr d L) ↦[((pW).slice (Rect.unit (s := S100000) (k0_off104 L t) S160.size (k0_off104_inb L t h1 h3)) (fun _ => rfl)).view.set]{q} xp)) : sProp 𝕄)
      ⊢ DX0 d L xp (t.val + 1) := in_deliv0 d L xp t h1 h3 q xv

theorem in_deliv1s (t : Fin k0_t9_loop.trips) (h4 : k0_cond4 L t = 1#1) (h6 : k0_cond6 L t = 1#1) (q : PosShare TreeShare) (xv : S160.Idx → BitVec 32) :
    (iprop(((b1).view.loc (thr d L) ↦{fullShare} View.write (Elt F) (b1).view xv (ReadAs.same.apply (View.read (Elt F) ((pW).slice (Rect.unit (s := S100000) (k0_off189 L t) S160.size (k0_off189_inb L t h4 h6)) (fun _ => rfl)).view xp)) Finset.univ)
        ∗ ((pW).view.loc (thr d L) ↦[((pW).slice (Rect.unit (s := S100000) (k0_off189 L t) S160.size (k0_off189_inb L t h4 h6)) (fun _ => rfl)).view.set]{q} xp)) : sProp 𝕄)
      ⊢ DX1 d L xp (t.val + 1) := in_deliv1 d L xp t h4 h6 q xv

end Deliveries

set_option maxHeartbeats 8000000 in
/-- The general step: `1 ≤ t` and both next blocks exist; every wait, fill, copy-out and fetch happens. -/
theorem ring_B (d : Dev nD) (L : grid0.Coords) (qa qb : PosShare TreeShare) (xp : Buf (Elt F) (pLoc d)) (w : Buf (Elt F) (wLoc d)) (o0 : Buf (Elt F) (oLoc d))
    (O : CellTallies nD τ sig (HIx 1)) (W : Waits sig (HIx 1)) (lut : S32768.Idx → F .f32)
    (hO : ∀ g, O g none = 0) (hxp : ∀ n : S100000.Idx, (xp n).toNat < 512) (hlut : KC.LutOK w 512 lut)
    (v1 v20 : BitVec 32) (v239 : FVec F S16 .f32)
    (t : Fin k0_t9_loop.trips) (ht1 : 1 ≤ t.val) (htn : t.val + 1 < nOdd L) (acc : BitVec 32) :
    Iring d L xp w o0 O W lut qa qb t.val acc ⊢ wp frame (wpE (defs₀ (F := F)) 𝒱₀ (thr d L) none) Set.univ
      (k0_t9_body L pW (Memref.isWhole_whole _) wW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) cc0_scratch6 cc0_scratch7 cc0_scratch8 cc0_scratch9 cc0_scoped0 v1 v20 v239 t acc) (Iring d L xp w o0 O W lut qa qb (t.val + 1)) := by
  have ht10 := t_lt t
  have hn10 := nOdd_le L

  have k0_h1 : k0_cond1 L t = 1#1 := cond1_true L t
  have k0_h2 : k0_cond2 t = 1#1 := (cond2_iff t).2 ht1
  have k0_h3 : k0_cond3 L t = 1#1 := (cond3_iff L t).2 (by omega)
  have k0_h4 : k0_cond4 L t = 1#1 := (cond4_nOdd L t).2 (by omega)
  have k0_h5 : k0_cond5 t = 1#1 := (cond5_iff t).2 ht1
  have k0_h6 : k0_cond6 L t = 1#1 := (cond6_nOdd L t).2 (by omega)
  unfold Iring SX0 SX1 SO0 SO1
  rw [if_pos ht10,
    if_pos (show t.val < nOdd L by omega),
    if_neg (show ¬ t.val = 0 by omega),
    if_neg (show ¬ t.val = 0 by omega),
    if_pos (show t.val + 1 < 10 by omega),
    if_pos (show t.val + 1 < nOdd L by omega),
    if_neg (show ¬ t.val + 1 = 0 by omega),
    if_neg (show ¬ t.val + 1 = 0 by omega),
    show min t.val (nOdd L) = t.val from by omega,
    show min (t.val + 1) (nOdd L) = t.val + 1 from by omega,
    Nat.add_sub_cancel,
    Ico_pop (show t.val < 10 by omega) (fun s => (oLoc d ↦[blkSet (bE L s)]{fullShare} o0 : sProp 𝕄)),
    Ico_pop (show t.val < nOdd L by omega) (fun s => (oLoc d ↦[blkSet (bO L s)]{fullShare} o0 : sProp 𝕄)),
    Ico_pop (show t.val + 1 < 10 by omega) (fun s => (pLoc d ↦{Transfers.shareTokN qa s} xp : sProp 𝕄)),
    Ico_pop (show t.val + 1 < nOdd L by omega) (fun s => (pLoc d ↦{Transfers.shareTokN qb s} xp : sProp 𝕄)),
    range_pop ht1 (fun s => (oLoc d ↦[blkSet (bE L s)]{fullShare} G d w xp : sProp 𝕄)),
    range_pop ht1 (fun s => (oLoc d ↦[blkSet (bO L s)]{fullShare} G d w xp : sProp 𝕄)),
    ← pts_oE d L t k0_h1 o0,
    ← pts_oO d L t k0_h4 o0,
    pts_p d L xp (Transfers.shareTokN qa (t.val + 1)),
    pts_p d L xp (Transfers.shareTokN qb (t.val + 1))]
  unfold k0_t9_body
  iintro ⟨#Hmw, H3, SX0, SX1, SO0, SO1, ⟨HbE, HuE⟩, ⟨HbO, HuO⟩, HgE, HgO, ⟨HpA, HqA⟩, ⟨HpB, HqB⟩, %W0, %hW0, HO⟩
  sl_exec
  iapply (Transfers.wp_waitLocalO countersEmb 𝒱₀ (thr d L) none (default : HIx 1) (N := 5120) rfl) $$ [SX0 HO]
  · isplitl [SX0]; · iexact SX0
    isplitl [HO]; · iexact HO
    iapply (Transfers.MayWaits.elim (SemLoc.dma cc0_scratch6.sem)); iexact Hmw
  iintro ⟨HD, S6, HO⟩
  icases HD with ⟨%xv, H0, %hxv⟩
  sl_exec
  iapply (Transfers.wp_waitLocalO countersEmb 𝒱₀ (thr d L) none (default : HIx 1) (N := 327680) rfl) $$ [SO0 HO]
  · isplitl [SO0]; · iexact SO0
    isplitl [HO]; · iexact HO
    iapply (Transfers.MayWaits.elim (SemLoc.dma cc0_scratch8.sem)); iexact Hmw
  iintro ⟨HD, S8, HO⟩
  icases HD with ⟨⟨%f4, H4⟩, HdE⟩
  sl_exec
  sl_for (KCompute.Icmp0 w xp d L (bE L t.val) xv lut) $$ [H0 H3 H4]
  case region => exact KCompute.compute_region0 w xp d L (bE L t.val) xv lut hxp hxv hlut v1 v20 v239 t k0_h1
  · unfold KCompute.Icmp0
    isplitl [H0]; · iexact H0
    isplitl [H3]; · iexact H3
    iexists f4; isplitl [H4]; · iexact H4
    ipureintro; intro y hy; omega
  iintro %acc' HI
  unfold KCompute.Icmp0
  icases HI with ⟨H0, H3, %f4', H4, %hf4⟩
  sl_exec
  iapply (Transfers.wp_waitLocalO countersEmb 𝒱₀ (thr d L) none (default : HIx 1) (N := 5120) rfl) $$ [SX1 HO]
  · isplitl [SX1]; · iexact SX1
    isplitl [HO]; · iexact HO
    iapply (Transfers.MayWaits.elim (SemLoc.dma cc0_scratch7.sem)); iexact Hmw
  iintro ⟨HD, S7, HO⟩
  icases HD with ⟨%xv1, H1, %hxv1⟩
  sl_exec
  iapply (Transfers.wp_waitLocalO countersEmb 𝒱₀ (thr d L) none (default : HIx 1) (N := 327680) rfl) $$ [SO1 HO]
  · isplitl [SO1]; · iexact SO1
    isplitl [HO]; · iexact HO
    iapply (Transfers.MayWaits.elim (SemLoc.dma cc0_scratch9.sem)); iexact Hmw
  iintro ⟨HD, S9, HO⟩
  icases HD with ⟨⟨%f5, H5⟩, HdO⟩
  sl_exec
  sl_for (KCompute.Icmp1 w xp d L (bO L t.val) xv1 lut) $$ [H1 H3 H5]
  case region => exact KCompute.compute_region1 w xp d L (bO L t.val) xv1 lut hxp hxv1 hlut v1 v20 v239 t k0_h4
  · unfold KCompute.Icmp1
    isplitl [H1]; · iexact H1
    isplitl [H3]; · iexact H3
    iexists f5; isplitl [H5]; · iexact H5
    ipureintro; intro y hy; omega
  iintro %acc'' HI
  unfold KCompute.Icmp1
  icases HI with ⟨H1, H3, %f5', H5, %hf5⟩
  sl_exec
  have e10 : 16 * Scf.trips k0_t10_loop.lb k0_t10_loop.ub k0_t10_loop.st = 160 := by
    rw [show Scf.trips k0_t10_loop.lb k0_t10_loop.ub k0_t10_loop.st = k0_t10_loop.trips from rfl, trips10]
  have e11 : 16 * Scf.trips k0_t11_loop.lb k0_t11_loop.ub k0_t11_loop.st = 160 := by
    rw [show Scf.trips k0_t11_loop.lb k0_t11_loop.ub k0_t11_loop.st = k0_t11_loop.trips from rfl, trips11]
  rw [e10] at hf4; rw [e11] at hf5
  sl_unfold_run_names
  irename : (Transfers.Flight countersEmb (thr d L) (SemLoc.dma cc0_scratch8.sem) _ _ _) => E8
  irename : (Transfers.Flight countersEmb (thr d L) (SemLoc.dma cc0_scratch6.sem) _ _ _) => E6
  irename : (Transfers.Flight countersEmb (thr d L) (SemLoc.dma cc0_scratch9.sem) _ _ _) => E9
  irename : (Transfers.Flight countersEmb (thr d L) (SemLoc.dma cc0_scratch7.sem) _ _ _) => E7
  ihave FO0' := (Transfers.Flight_mono (EC := countersEmb) (c := thr d L) (out_deliv0s d L xp w t k0_h1 o0 f4' hf4)) $$ E8
  ihave FX0' := (Transfers.Flight_mono (EC := countersEmb) (c := thr d L) (in_deliv0s d L xp t k0_h1 k0_h3 _ xv)) $$ E6
  ihave FO1' := (Transfers.Flight_mono (EC := countersEmb) (c := thr d L) (out_deliv1s d L xp w t k0_h4 o0 f5' hf5)) $$ E9
  ihave FX1' := (Transfers.Flight_mono (EC := countersEmb) (c := thr d L) (in_deliv1s d L xp t k0_h4 k0_h6 _ xv1)) $$ E7
  rw [wp_ret]; imodintro
  isplitr; · iexact Hmw
  isplitl [H3]; · iexact H3
  isplitl [FX0']; · iexact FX0'
  isplitl [FX1']; · iexact FX1'
  isplitl [FO0']; · iexact FO0'
  isplitl [FO1']; · iexact FO1'
  isplitl [HuE]; · iexact HuE
  isplitl [HuO]; · iexact HuO
  isplitl [HdE HgE]
  · isplitl [HdE]; · iexact HdE
    iexact HgE
  isplitl [HdO HgO]
  · isplitl [HdO]; · iexact HdO
    iexact HgO
  isplitl [HqA]; · iexact HqA
  isplitl [HqB]; · iexact HqB
  iexists (insert (SemLoc.dma cc0_scratch9.sem, (default : HIx 1)) (insert (SemLoc.dma cc0_scratch7.sem, (default : HIx 1)) (insert (SemLoc.dma cc0_scratch8.sem, (default : HIx 1)) (insert (SemLoc.dma cc0_scratch6.sem, (default : HIx 1)) W0)))); isplitr
  · ipureintro; intro p hp
    simp only [Finset.mem_insert] at hp
    rcases hp with rfl | rfl | rfl | rfl | hp
    · exact .inr rfl
    · exact .inr rfl
    · exact .inr rfl
    · exact .inr rfl
    · exact hW0 p hp
  iexact HO

set_option maxHeartbeats 8000000 in
/-- The step before the last, for a worker with nine odd-numbered blocks: the odd-numbered block has no successor to fetch,
    so its index scratch ends idle. -/
theorem ring_D (d : Dev nD) (L : grid0.Coords) (qa qb : PosShare TreeShare) (xp : Buf (Elt F) (pLoc d)) (w : Buf (Elt F) (wLoc d)) (o0 : Buf (Elt F) (oLoc d))
    (O : CellTallies nD τ sig (HIx 1)) (W : Waits sig (HIx 1)) (lut : S32768.Idx → F .f32)
    (hO : ∀ g, O g none = 0) (hxp : ∀ n : S100000.Idx, (xp n).toNat < 512) (hlut : KC.LutOK w 512 lut)
    (v1 v20 : BitVec 32) (v239 : FVec F S16 .f32)
    (t : Fin k0_t9_loop.trips) (ht8 : t.val = 8) (hn : nOdd L = 9) (acc : BitVec 32) :
    Iring d L xp w o0 O W lut qa qb t.val acc ⊢ wp frame (wpE (defs₀ (F := F)) 𝒱₀ (thr d L) none) Set.univ
      (k0_t9_body L pW (Memref.isWhole_whole _) wW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) cc0_scratch6 cc0_scratch7 cc0_scratch8 cc0_scratch9 cc0_scoped0 v1 v20 v239 t acc) (Iring d L xp w o0 O W lut qa qb (t.val + 1)) := by
  have ht10 := t_lt t
  have hn10 := nOdd_le L
  have ht1 : 1 ≤ t.val := by omega
  have k0_h1 : k0_cond1 L t = 1#1 := cond1_true L t
  have k0_h2 : k0_cond2 t = 1#1 := (cond2_iff t).2 ht1
  have k0_h3 : k0_cond3 L t = 1#1 := (cond3_iff L t).2 (by omega)
  have k0_h4 : k0_cond4 L t = 1#1 := (cond4_nOdd L t).2 (by omega)
  have k0_h5 : k0_cond5 t = 1#1 := (cond5_iff t).2 ht1
  have k0_h6 : ¬ k0_cond6 L t = 1#1 := fun h => absurd ((cond6_nOdd L t).1 h) (by omega)
  unfold Iring SX0 SX1 SO0 SO1
  rw [if_pos ht10,
    if_pos (show t.val < nOdd L by omega),
    if_neg (show ¬ t.val = 0 by omega),
    if_neg (show ¬ t.val = 0 by omega),
    if_pos (show t.val + 1 < 10 by omega),
    if_neg (show ¬ t.val + 1 < nOdd L by omega),
    if_neg (show ¬ t.val + 1 = 0 by omega),
    if_neg (show ¬ t.val + 1 = 0 by omega),
    show min t.val (nOdd L) = t.val from by omega,
    show min (t.val + 1) (nOdd L) = t.val + 1 from by omega,
    Nat.add_sub_cancel,
    Ico_pop (show t.val < 10 by omega) (fun s => (oLoc d ↦[blkSet (bE L s)]{fullShare} o0 : sProp 𝕄)),
    Ico_pop (show t.val < nOdd L by omega) (fun s => (oLoc d ↦[blkSet (bO L s)]{fullShare} o0 : sProp 𝕄)),
    Ico_pop (show t.val + 1 < 10 by omega) (fun s => (pLoc d ↦{Transfers.shareTokN qa s} xp : sProp 𝕄)),
    show Finset.Ico (t.val + 1) (nOdd L) = ∅ from Finset.Ico_eq_empty (by omega),
    show Finset.Ico (t.val + 1 + 1) (nOdd L) = ∅ from Finset.Ico_eq_empty (by omega),
    range_pop ht1 (fun s => (oLoc d ↦[blkSet (bE L s)]{fullShare} G d w xp : sProp 𝕄)),
    range_pop ht1 (fun s => (oLoc d ↦[blkSet (bO L s)]{fullShare} G d w xp : sProp 𝕄)),
    ← pts_oE d L t k0_h1 o0,
    ← pts_oO d L t k0_h4 o0,
    pts_p d L xp (Transfers.shareTokN qa (t.val + 1))]
  unfold k0_t9_body
  iintro ⟨#Hmw, H3, SX0, SX1, SO0, SO1, ⟨HbE, HuE⟩, ⟨HbO, HuO⟩, HgE, HgO, ⟨HpA, HqA⟩, HqB, %W0, %hW0, HO⟩
  sl_exec
  iapply (Transfers.wp_waitLocalO countersEmb 𝒱₀ (thr d L) none (default : HIx 1) (N := 5120) rfl) $$ [SX0 HO]
  · isplitl [SX0]; · iexact SX0
    isplitl [HO]; · iexact HO
    iapply (Transfers.MayWaits.elim (SemLoc.dma cc0_scratch6.sem)); iexact Hmw
  iintro ⟨HD, S6, HO⟩
  icases HD with ⟨%xv, H0, %hxv⟩
  sl_exec
  iapply (Transfers.wp_waitLocalO countersEmb 𝒱₀ (thr d L) none (default : HIx 1) (N := 327680) rfl) $$ [SO0 HO]
  · isplitl [SO0]; · iexact SO0
    isplitl [HO]; · iexact HO
    iapply (Transfers.MayWaits.elim (SemLoc.dma cc0_scratch8.sem)); iexact Hmw
  iintro ⟨HD, S8, HO⟩
  icases HD with ⟨⟨%f4, H4⟩, HdE⟩
  sl_exec
  sl_for (KCompute.Icmp0 w xp d L (bE L t.val) xv lut) $$ [H0 H3 H4]
  case region => exact KCompute.compute_region0 w xp d L (bE L t.val) xv lut hxp hxv hlut v1 v20 v239 t k0_h1
  · unfold KCompute.Icmp0
    isplitl [H0]; · iexact H0
    isplitl [H3]; · iexact H3
    iexists f4; isplitl [H4]; · iexact H4
    ipureintro; intro y hy; omega
  iintro %acc' HI
  unfold KCompute.Icmp0
  icases HI with ⟨H0, H3, %f4', H4, %hf4⟩
  sl_exec
  iapply (Transfers.wp_waitLocalO countersEmb 𝒱₀ (thr d L) none (default : HIx 1) (N := 5120) rfl) $$ [SX1 HO]
  · isplitl [SX1]; · iexact SX1
    isplitl [HO]; · iexact HO
    iapply (Transfers.MayWaits.elim (SemLoc.dma cc0_scratch7.sem)); iexact Hmw
  iintro ⟨HD, S7, HO⟩
  icases HD with ⟨%xv1, H1, %hxv1⟩
  sl_exec
  iapply (Transfers.wp_waitLocalO countersEmb 𝒱₀ (thr d L) none (default : HIx 1) (N := 327680) rfl) $$ [SO1 HO]
  · isplitl [SO1]; · iexact SO1
    isplitl [HO]; · iexact HO
    iapply (Transfers.MayWaits.elim (SemLoc.dma cc0_scratch9.sem)); iexact Hmw
  iintro ⟨HD, S9, HO⟩
  icases HD with ⟨⟨%f5, H5⟩, HdO⟩
  sl_exec
  sl_for (KCompute.Icmp1 w xp d L (bO L t.val) xv1 lut) $$ [H1 H3 H5]
  case region => exact KCompute.compute_region1 w xp d L (bO L t.val) xv1 lut hxp hxv1 hlut v1 v20 v239 t k0_h4
  · unfold KCompute.Icmp1
    isplitl [H1]; · iexact H1
    isplitl [H3]; · iexact H3
    iexists f5; isplitl [H5]; · iexact H5
    ipureintro; intro y hy; omega
  iintro %acc'' HI
  unfold KCompute.Icmp1
  icases HI with ⟨H1, H3, %f5', H5, %hf5⟩
  sl_exec
  have e10 : 16 * Scf.trips k0_t10_loop.lb k0_t10_loop.ub k0_t10_loop.st = 160 := by
    rw [show Scf.trips k0_t10_loop.lb k0_t10_loop.ub k0_t10_loop.st = k0_t10_loop.trips from rfl, trips10]
  have e11 : 16 * Scf.trips k0_t11_loop.lb k0_t11_loop.ub k0_t11_loop.st = 160 := by
    rw [show Scf.trips k0_t11_loop.lb k0_t11_loop.ub k0_t11_loop.st = k0_t11_loop.trips from rfl, trips11]
  rw [e10] at hf4; rw [e11] at hf5
  sl_unfold_run_names
  irename : (Transfers.Flight countersEmb (thr d L) (SemLoc.dma cc0_scratch8.sem) _ _ _) => E8
  irename : (Transfers.Flight countersEmb (thr d L) (SemLoc.dma cc0_scratch6.sem) _ _ _) => E6
  irename : (Transfers.Flight countersEmb (thr d L) (SemLoc.dma cc0_scratch9.sem) _ _ _) => E9
  ihave FO0' := (Transfers.Flight_mono (EC := countersEmb) (c := thr d L) (out_deliv0s d L xp w t k0_h1 o0 f4' hf4)) $$ E8
  ihave FX0' := (Transfers.Flight_mono (EC := countersEmb) (c := thr d L) (in_deliv0s d L xp t k0_h1 k0_h3 _ xv)) $$ E6
  ihave FO1' := (Transfers.Flight_mono (EC := countersEmb) (c := thr d L) (out_deliv1s d L xp w t k0_h4 o0 f5' hf5)) $$ E9
  rw [wp_ret]; imodintro
  isplitr; · iexact Hmw
  isplitl [H3]; · iexact H3
  isplitl [FX0']; · iexact FX0'
  isplitl [S7 H1]
  · isplitl [S7]; · iexact S7
    iexists _; iexact H1
  isplitl [FO0']; · iexact FO0'
  isplitl [FO1']; · iexact FO1'
  isplitl [HuE]; · iexact HuE
  isplitl [HuO]; · iexact HuO
  isplitl [HdE HgE]
  · isplitl [HdE]; · iexact HdE
    iexact HgE
  isplitl [HdO HgO]
  · isplitl [HdO]; · iexact HdO
    iexact HgO
  isplitl [HqA]; · iexact HqA
  isplitl [HqB]; · iexact HqB
  iexists (insert (SemLoc.dma cc0_scratch9.sem, (default : HIx 1)) (insert (SemLoc.dma cc0_scratch7.sem, (default : HIx 1)) (insert (SemLoc.dma cc0_scratch8.sem, (default : HIx 1)) (insert (SemLoc.dma cc0_scratch6.sem, (default : HIx 1)) W0)))); isplitr
  · ipureintro; intro p hp
    simp only [Finset.mem_insert] at hp
    rcases hp with rfl | rfl | rfl | rfl | hp
    · exact .inr rfl
    · exact .inr rfl
    · exact .inr rfl
    · exact .inr rfl
    · exact hW0 p hp
  iexact HO

end Cert.Kernel.KT

end
-- ==== Proof.KRingEB.lean ====
/-
  The last step of the ring of transfers when the worker has ten odd-numbered blocks: step 9 waits for the packed
  words of blocks 9 of both kinds and for the staging buffers' copies of blocks 8, fills the staging buffers, and
  starts their copies of blocks 9; no block is left to fetch, so both index scratches end idle.
-/
import proofs.«207339_g86234353369688_cont_sun_m_1071_33_alg».proof.Proof.KRingLibB
import proofs.«207339_g86234353369688_cont_sun_m_1071_33_alg».proof.Proof.KComputeB
import proofs.«207339_g86234353369688_cont_sun_m_1071_33_alg».proof.Proof.Gen.Kernel.Skeleton

noncomputable section

namespace Cert.Kernel.KT

open Cert.Kernel Cert.Kernel.Gen Cert.Kernel.KC Cert.Kernel.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.Kernel.main_v15_scv : Memref Cert.Kernel.sig Kind.scVector Space.hbm Cert.Kernel.S100000 EltTy.i32)
local notation "wW" => (Memref.whole Cert.Kernel.main_v8_scv : Memref Cert.Kernel.sig Kind.scVector Space.hbm Cert.Kernel.S1152 EltTy.f32)
local notation "oW" => (Memref.whole Cert.Kernel.main_v16_scv : Memref Cert.Kernel.sig Kind.scVector Space.hbm Cert.Kernel.S100000x64 EltTy.f32)
local notation "b0" => (Memref.whole Cert.Kernel.cc0_scratch0 : Memref Cert.Kernel.sig Kind.scVector Space.vmem Cert.Kernel.S160 EltTy.i32)
local notation "b1" => (Memref.whole Cert.Kernel.cc0_scratch1 : Memref Cert.Kernel.sig Kind.scVector Space.vmem Cert.Kernel.S160 EltTy.i32)
local notation "b2" => (Memref.whole Cert.Kernel.cc0_scratch2 : Memref Cert.Kernel.sig Kind.scVector Space.vmem Cert.Kernel.S1152 EltTy.f32)
local notation "b3" => (Memref.whole Cert.Kernel.cc0_scratch3 : Memref Cert.Kernel.sig Kind.scVector Space.vmem Cert.Kernel.S32768 EltTy.f32)
local notation "b4" => (Memref.whole Cert.Kernel.cc0_scratch4 : Memref Cert.Kernel.sig Kind.scVector Space.vmem Cert.Kernel.S160x64 EltTy.f32)
local notation "b5" => (Memref.whole Cert.Kernel.cc0_scratch5 : Memref Cert.Kernel.sig Kind.scVector Space.vmem Cert.Kernel.S160x64 EltTy.f32)

variable [FloatOps F]
variable (d : Dev nD) (L : grid0.Coords)

omit [FloatOps F] in
/-- A `bigSep` over an empty interval of steps. -/
theorem Ico_none {a b : Nat} (h : b ≤ a) (Φ : Nat → sProp 𝕄) : bigSep (Finset.Ico a b) Φ = (iprop(emp) : sProp 𝕄) := by
  rw [Finset.Ico_eq_empty (by omega), bigSep_empty]; rfl

/-- The staging buffer's copy into its block of the result, the payload spelt apart from the buffer's contents. -/
theorem out_deliv0' (xp : Buf (Elt F) (pLoc d)) (w : Buf (Elt F) (wLoc d)) (t : Fin k0_t9_loop.trips) (h1 : k0_cond1 L t = 1#1)
    (fblk : Buf (Elt F) (oLoc d)) (f g : S160x64.Idx → F .f32) (hg : g = f) (hf : KC.OutOK w xp (bE L t.val) 160 f) :
    (iprop((((oW).slice (Rect.unit (s := S100000x64) (k0_off103 L t) S160x64.size (k0_off103_inb L t h1)) (fun _ => rfl)).view.loc (thr d L)
          ↦[((oW).slice (Rect.unit (s := S100000x64) (k0_off103 L t) S160x64.size (k0_off103_inb L t h1)) (fun _ => rfl)).view.set]{fullShare}
          ((oW).slice (Rect.unit (s := S100000x64) (k0_off103 L t) S160x64.size (k0_off103_inb L t h1)) (fun _ => rfl)).view.writes (Elt F) fblk [⟨Rect.whole _, g⟩])
        ∗ ((b4).view.loc (thr d L) ↦[(b4).view.set]{fullShare} f)) : sProp 𝕄)
      ⊢ DO0 d L xp w t.val := by
  subst hg
  exact out_deliv0 d L xp w t h1 fblk g hf

/-- The same for the second staging buffer. -/
theorem out_deliv1' (xp : Buf (Elt F) (pLoc d)) (w : Buf (Elt F) (wLoc d)) (t : Fin k0_t9_loop.trips) (h4 : k0_cond4 L t = 1#1)
    (fblk : Buf (Elt F) (oLoc d)) (f g : S160x64.Idx → F .f32) (hg : g = f) (hf : KC.OutOK w xp (bO L t.val) 160 f) :
    (iprop((((oW).slice (Rect.unit (s := S100000x64) (k0_off188 L t) S160x64.size (k0_off188_inb L t h4)) (fun _ => rfl)).view.loc (thr d L)
          ↦[((oW).slice (Rect.unit (s := S100000x64) (k0_off188 L t) S160x64.size (k0_off188_inb L t h4)) (fun _ => rfl)).view.set]{fullShare}
          ((oW).slice (Rect.unit (s := S100000x64) (k0_off188 L t) S160x64.size (k0_off188_inb L t h4)) (fun _ => rfl)).view.writes (Elt F) fblk [⟨Rect.whole _, g⟩])
        ∗ ((b5).view.loc (thr d L) ↦[(b5).view.set]{fullShare} f)) : sProp 𝕄)
      ⊢ DO1 d L xp w t.val := by
  subst hg
  exact out_deliv1 d L xp w t h4 fblk g hf

set_option maxHeartbeats 8000000 in
/-- Step 9 of the ring, for a subcore with ten odd-numbered blocks. -/
theorem ring_E (qa qb : PosShare TreeShare) (xp : Buf (Elt F) (pLoc d)) (w : Buf (Elt F) (wLoc d)) (o0 : Buf (Elt F) (oLoc d))
    (O : CellTallies nD τ sig (HIx 1)) (W : Waits sig (HIx 1)) (lut : S32768.Idx → F .f32)
    (hO : ∀ g, O g none = 0) (hxp : ∀ n : S100000.Idx, (xp n).toNat < 512) (hlut : KC.LutOK w 512 lut)
    (v1 v20 : BitVec 32) (v239 : FVec F S16 .f32) (k : Fin k0_t9_loop.trips) (hk : k.val = 9) (hn : nOdd L = 10)
    (acc : BitVec 32) :
    Iring d L xp w o0 O W lut qa qb k.val acc ⊢ wp frame (wpE (defs₀ (F := F)) 𝒱₀ (thr d L) none) Set.univ
      (k0_t9_body L pW (Memref.isWhole_whole _) wW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) cc0_scratch6 cc0_scratch7 cc0_scratch8 cc0_scratch9 cc0_scoped0 v1 v20 v239 k acc)
      (Iring d L xp w o0 O W lut qa qb (k.val + 1)) := by
  have ht1 : 1 ≤ k.val := by omega
  have k0_h1 : k0_cond1 L k = 1#1 := cond1_true L k
  have k0_h2 : k0_cond2 k = 1#1 := (cond2_iff k).2 ht1
  have k0_h3 : ¬ k0_cond3 L k = 1#1 := fun h => by have := (cond3_iff L k).1 h; omega
  have k0_h4 : k0_cond4 L k = 1#1 := (cond4_nOdd L k).2 (by omega)
  have k0_h5 : k0_cond5 k = 1#1 := (cond5_iff k).2 ht1
  have k0_h6 : ¬ k0_cond6 L k = 1#1 := fun h => by have := (cond6_nOdd L k).1 h; omega
  unfold Iring SX0 SX1 SO0 SO1
  rw [if_pos (show k.val < 10 by omega), if_pos (show k.val < nOdd L by omega), if_neg (show ¬ k.val = 0 by omega), if_neg (show ¬ k.val = 0 by omega),
    if_neg (show ¬ k.val + 1 < 10 by omega), if_neg (show ¬ k.val + 1 < nOdd L by omega), if_neg (show ¬ k.val + 1 = 0 by omega), if_neg (show ¬ k.val + 1 = 0 by omega),
    show min k.val (nOdd L) = k.val from by omega, show min (k.val + 1) (nOdd L) = k.val + 1 from by omega, Nat.add_sub_cancel,
    Ico_pop (show k.val < 10 by omega) (fun s => (oLoc d ↦[blkSet (bE L s)]{fullShare} o0 : sProp 𝕄)), Ico_pop (show k.val < nOdd L by omega) (fun s => (oLoc d ↦[blkSet (bO L s)]{fullShare} o0 : sProp 𝕄)),
    Ico_none (show 10 ≤ k.val + 1 by omega) (fun s => (pLoc d ↦{Transfers.shareTokN qa s} xp : sProp 𝕄)), Ico_none (show nOdd L ≤ k.val + 1 by omega) (fun s => (pLoc d ↦{Transfers.shareTokN qb s} xp : sProp 𝕄)),
    Ico_none (show 10 ≤ k.val + 1 + 1 by omega) (fun s => (pLoc d ↦{Transfers.shareTokN qa s} xp : sProp 𝕄)), Ico_none (show nOdd L ≤ k.val + 1 + 1 by omega) (fun s => (pLoc d ↦{Transfers.shareTokN qb s} xp : sProp 𝕄)),
    range_pop ht1 (fun s => (oLoc d ↦[blkSet (bE L s)]{fullShare} G d w xp : sProp 𝕄)), range_pop ht1 (fun s => (oLoc d ↦[blkSet (bO L s)]{fullShare} G d w xp : sProp 𝕄)),
    ← pts_oE d L k k0_h1 o0, ← pts_oO d L k k0_h4 o0]
  unfold k0_t9_body
  iintro ⟨#Hmw, H3, SX0, SX1, SO0, SO1, ⟨HbE, HuE⟩, ⟨HbO, HuO⟩, HgE, HgO, -, -, %W0, %hW0, HO⟩
  sl_exec
  iapply (Transfers.wp_waitLocalO countersEmb 𝒱₀ (thr d L) none (default : HIx 1) (N := 5120) rfl) $$ [SX0 HO]
  · isplitl [SX0]; · iexact SX0
    isplitl [HO]; · iexact HO
    iapply (Transfers.MayWaits.elim (SemLoc.dma cc0_scratch6.sem)); iexact Hmw
  iintro ⟨HD, S6, HO⟩
  icases HD with ⟨%xv, H0, %hxv⟩
  sl_exec
  iapply (Transfers.wp_waitLocalO countersEmb 𝒱₀ (thr d L) none (default : HIx 1) (N := 327680) rfl) $$ [SO0 HO]
  · isplitl [SO0]; · iexact SO0
    isplitl [HO]; · iexact HO
    iapply (Transfers.MayWaits.elim (SemLoc.dma cc0_scratch8.sem)); iexact Hmw
  iintro ⟨HD, S8, HO⟩
  icases HD with ⟨⟨%f4, H4⟩, HdE⟩
  sl_exec
  sl_for (KCompute.Icmp0 w xp d L (bE L k.val) xv lut) $$ [H0 H3 H4]
  case region => exact KCompute.compute_region0 w xp d L _ xv lut hxp hxv hlut v1 v20 v239 k k0_h1
  · unfold KCompute.Icmp0
    isplitl [H0]; · iexact H0
    isplitl [H3]; · iexact H3
    iexists f4; isplitl [H4]; · iexact H4
    ipureintro; intro y hy; omega
  iintro %acc' HI
  unfold KCompute.Icmp0
  icases HI with ⟨H0, H3, %f4', H4, %hf4⟩
  sl_exec
  iapply (Transfers.wp_waitLocalO countersEmb 𝒱₀ (thr d L) none (default : HIx 1) (N := 5120) rfl) $$ [SX1 HO]
  · isplitl [SX1]; · iexact SX1
    isplitl [HO]; · iexact HO
    iapply (Transfers.MayWaits.elim (SemLoc.dma cc0_scratch7.sem)); iexact Hmw
  iintro ⟨HD, S7, HO⟩
  icases HD with ⟨%xv1, H1, %hxv1⟩
  sl_exec
  iapply (Transfers.wp_waitLocalO countersEmb 𝒱₀ (thr d L) none (default : HIx 1) (N := 327680) rfl) $$ [SO1 HO]
  · isplitl [SO1]; · iexact SO1
    isplitl [HO]; · iexact HO
    iapply (Transfers.MayWaits.elim (SemLoc.dma cc0_scratch9.sem)); iexact Hmw
  iintro ⟨HD, S9, HO⟩
  icases HD with ⟨⟨%f5, H5⟩, HdO⟩
  sl_exec
  sl_for (KCompute.Icmp1 w xp d L (bO L k.val) xv1 lut) $$ [H1 H3 H5]
  case region => exact KCompute.compute_region1 w xp d L _ xv1 lut hxp hxv1 hlut v1 v20 v239 k k0_h4
  · unfold KCompute.Icmp1
    isplitl [H1]; · iexact H1
    isplitl [H3]; · iexact H3
    iexists f5; isplitl [H5]; · iexact H5
    ipureintro; intro y hy; omega
  iintro %acc'' HI
  unfold KCompute.Icmp1
  icases HI with ⟨H1, H3, %f5', H5, %hf5⟩
  sl_exec
  have e10 : 16 * Scf.trips k0_t10_loop.lb k0_t10_loop.ub k0_t10_loop.st = 160 := by
    rw [show Scf.trips k0_t10_loop.lb k0_t10_loop.ub k0_t10_loop.st = k0_t10_loop.trips from rfl, trips10]
  have e11 : 16 * Scf.trips k0_t11_loop.lb k0_t11_loop.ub k0_t11_loop.st = 160 := by
    rw [show Scf.trips k0_t11_loop.lb k0_t11_loop.ub k0_t11_loop.st = k0_t11_loop.trips from rfl, trips11]
  rw [e10] at hf4; rw [e11] at hf5
  irename : (Transfers.Flight countersEmb (thr d L) (SemLoc.dma cc0_scratch8.sem) _ _ _) => E8
  irename : (Transfers.Flight countersEmb (thr d L) (SemLoc.dma cc0_scratch9.sem) _ _ _) => E9
  ihave FO0' := (Transfers.Flight_mono (EC := countersEmb) (c := thr d L) (out_deliv0' d L xp w k k0_h1 o0 f4' (ring_E.sl.dma0 d L f4') rfl hf4)) $$ E8
  ihave FO1' := (Transfers.Flight_mono (EC := countersEmb) (c := thr d L) (out_deliv1' d L xp w k k0_h4 o0 f5' (ring_E.sl.dma0_1 d L f5') rfl hf5)) $$ E9
  rw [wp_ret]; imodintro
  isplitr; · iexact Hmw
  isplitl [H3]; · iexact H3
  isplitl [S6 H0]
  · isplitl [S6]; · iexact S6
    iexists xv; iexact H0
  isplitl [S7 H1]
  · isplitl [S7]; · iexact S7
    iexists xv1; iexact H1
  isplitl [FO0']; · iexact FO0'
  isplitl [FO1']; · iexact FO1'
  isplitl [HuE]; · iexact HuE
  isplitl [HuO]; · iexact HuO
  isplitl [HdE HgE]
  · isplitl [HdE]; · iexact HdE
    iexact HgE
  isplitl [HdO HgO]
  · isplitl [HdO]; · iexact HdO
    iexact HgO
  isplitl []; · iempintro
  isplitl []; · iempintro
  iexists (insert ((SemLoc.dma cc0_scratch9.sem : SemLoc sig), (default : HIx 1)) (insert ((SemLoc.dma cc0_scratch7.sem : SemLoc sig), (default : HIx 1))
    (insert ((SemLoc.dma cc0_scratch8.sem : SemLoc sig), (default : HIx 1)) (insert ((SemLoc.dma cc0_scratch6.sem : SemLoc sig), (default : HIx 1)) W0))))
  isplitr
  · ipureintro; intro p hp
    simp only [Finset.mem_insert] at hp
    rcases hp with rfl | rfl | rfl | rfl | hp
    · exact .inr rfl
    · exact .inr rfl
    · exact .inr rfl
    · exact .inr rfl
    · exact hW0 p hp
  iexact HO

end Cert.Kernel.KT

end
-- ==== Proof.KRingB.lean ====
/-
  One step of the ring of transfers a vector subcore runs, at any step: the invariant before step `k` gives the
  invariant before step `k + 1`.  The five shapes a step takes — the first, the general one, the one before the last
  and the last for a worker with nine odd-numbered blocks, the last for a worker with ten — are proved apart; here
  they are put together by the step's number and the number of odd-numbered blocks.
-/
import proofs.«207339_g86234353369688_cont_sun_m_1071_33_alg».proof.Proof.KRingAFB
import proofs.«207339_g86234353369688_cont_sun_m_1071_33_alg».proof.Proof.KRingBDB
import proofs.«207339_g86234353369688_cont_sun_m_1071_33_alg».proof.Proof.KRingEB

noncomputable section

namespace Cert.Kernel.KT

open Cert.Kernel Cert.Kernel.Gen Cert.Kernel.KC Cert.Kernel.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.Kernel.main_v15_scv : Memref Cert.Kernel.sig Kind.scVector Space.hbm Cert.Kernel.S100000 EltTy.i32)
local notation "wW" => (Memref.whole Cert.Kernel.main_v8_scv : Memref Cert.Kernel.sig Kind.scVector Space.hbm Cert.Kernel.S1152 EltTy.f32)
local notation "oW" => (Memref.whole Cert.Kernel.main_v16_scv : Memref Cert.Kernel.sig Kind.scVector Space.hbm Cert.Kernel.S100000x64 EltTy.f32)
local notation "b0" => (Memref.whole Cert.Kernel.cc0_scratch0 : Memref Cert.Kernel.sig Kind.scVector Space.vmem Cert.Kernel.S160 EltTy.i32)
local notation "b1" => (Memref.whole Cert.Kernel.cc0_scratch1 : Memref Cert.Kernel.sig Kind.scVector Space.vmem Cert.Kernel.S160 EltTy.i32)
local notation "b2" => (Memref.whole Cert.Kernel.cc0_scratch2 : Memref Cert.Kernel.sig Kind.scVector Space.vmem Cert.Kernel.S1152 EltTy.f32)
local notation "b3" => (Memref.whole Cert.Kernel.cc0_scratch3 : Memref Cert.Kernel.sig Kind.scVector Space.vmem Cert.Kernel.S32768 EltTy.f32)
local notation "b4" => (Memref.whole Cert.Kernel.cc0_scratch4 : Memref Cert.Kernel.sig Kind.scVector Space.vmem Cert.Kernel.S160x64 EltTy.f32)
local notation "b5" => (Memref.whole Cert.Kernel.cc0_scratch5 : Memref Cert.Kernel.sig Kind.scVector Space.vmem Cert.Kernel.S160x64 EltTy.f32)

variable [FloatOps F]

/-- The ring loop's region: step `k` carries the invariant from `k` to `k + 1`. -/
theorem ring_region (d : Dev nD) (L : grid0.Coords) (qa qb : PosShare TreeShare) (xp : Buf (Elt F) (pLoc d)) (w : Buf (Elt F) (wLoc d)) (o0 : Buf (Elt F) (oLoc d))
    (O : CellTallies nD τ sig (HIx 1)) (W : Waits sig (HIx 1)) (lut : S32768.Idx → F .f32)
    (hO : ∀ g, O g none = 0) (hxp : ∀ n : S100000.Idx, (xp n).toNat < 512) (hlut : KC.LutOK w 512 lut)
    (v1 v20 : BitVec 32) (v239 : FVec F S16 .f32) :
    ∀ (k : Fin k0_t9_loop.trips) (acc : BitVec 32),
      Iring d L xp w o0 O W lut qa qb k.val acc ⊢ wp frame (wpE (defs₀ (F := F)) 𝒱₀ (thr d L) none) Set.univ
        (k0_t9_body L pW (Memref.isWhole_whole _) wW (Memref.isWhole_whole _) oW (Memref.isWhole_whole _) b0 (Memref.isWhole_whole _) b1 (Memref.isWhole_whole _) b2 (Memref.isWhole_whole _) b3 (Memref.isWhole_whole _) b4 (Memref.isWhole_whole _) b5 (Memref.isWhole_whole _) cc0_scratch6 cc0_scratch7 cc0_scratch8 cc0_scratch9 cc0_scoped0 v1 v20 v239 k acc) (Iring d L xp w o0 O W lut qa qb (k.val + 1)) := by
  intro k acc
  have hk10 := t_lt k
  have h9 := nOdd_ge L
  have h10 := nOdd_le L
  by_cases h0 : k.val = 0
  · exact ring_A d L qa qb xp w o0 O W lut hO hxp hlut v1 v20 v239 k h0 acc
  by_cases hB : k.val + 1 < nOdd L
  · exact ring_B d L qa qb xp w o0 O W lut hO hxp hlut v1 v20 v239 k (by omega) hB acc
  by_cases hn : nOdd L = 9
  · by_cases h8 : k.val = 8
    · exact ring_D d L qa qb xp w o0 O W lut hO hxp hlut v1 v20 v239 k h8 hn acc
    · exact ring_F d L qa qb xp w o0 O W lut hO hxp hlut v1 v20 v239 k (by omega) hn acc
  · exact ring_E d L qa qb xp w o0 O W lut hO hxp hlut v1 v20 v239 k (by omega) (by omega) acc

end Cert.Kernel.KT

end
-- ==== Proof.KTileB.lean ====
/-
  One vector subcore's task, end to end.

  Worker `n` (of 32) receives a read share of the packed words (one 9-bit word per node) and of the flat table
  (rows 0 and 1 of the nine feature tables), and its own 160-row blocks of the result.  It copies the flat table into
  its scratch; builds the 512-row table whose row `p` is the sum of the rows the bits of `p` select — rows 0 and 1
  directly, then rows `2^i … 2^(i+1) − 1` from rows `0 … 2^i − 1` by adding feature `i`'s difference, one counted
  loop per feature —; then runs the ring of transfers: for each of its blocks, the packed words come in, every row of the
  block is looked up in the table, and the block goes out.  At the end its rows of the result hold, for every node,
  the table row its packed word names (`Spec.kerOut`), and its scratch and semaphores are handed back.
-/
import proofs.«207339_g86234353369688_cont_sun_m_1071_33_alg».proof.Proof.KCommonB
import proofs.«207339_g86234353369688_cont_sun_m_1071_33_alg».proof.Proof.KInvB
import proofs.«207339_g86234353369688_cont_sun_m_1071_33_alg».proof.Proof.KCondsB
import proofs.«207339_g86234353369688_cont_sun_m_1071_33_alg».proof.Proof.KTile1B
import proofs.«207339_g86234353369688_cont_sun_m_1071_33_alg».proof.Proof.KTile0B
import proofs.«207339_g86234353369688_cont_sun_m_1071_33_alg».proof.Proof.KProB
import proofs.«207339_g86234353369688_cont_sun_m_1071_33_alg».proof.Proof.KLutB
import proofs.«207339_g86234353369688_cont_sun_m_1071_33_alg».proof.Proof.KEndsB
import proofs.«207339_g86234353369688_cont_sun_m_1071_33_alg».proof.Proof.KRingB
import proofs.«207339_g86234353369688_cont_sun_m_1071_33_alg».proof.Proof.Gen.Kernel.Skeleton

noncomputable section

namespace Cert.Kernel.KT

open Cert.Kernel Cert.Kernel.Gen Cert.Kernel.KC Cert.Kernel.KConds

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "pW" => (Memref.whole Cert.Kernel.main_v15_scv : Memref Cert.Kernel.sig Kind.scVector Space.hbm Cert.Kernel.S100000 EltTy.i32)
local notation "wW" => (Memref.whole Cert.Kernel.main_v8_scv : Memref Cert.Kernel.sig Kind.scVector Space.hbm Cert.Kernel.S1152 EltTy.f32)
local notation "oW" => (Memref.whole Cert.Kernel.main_v16_scv : Memref Cert.Kernel.sig Kind.scVector Space.hbm Cert.Kernel.S100000x64 EltTy.f32)
local notation "b0" => (Memref.whole Cert.Kernel.cc0_scratch0 : Memref Cert.Kernel.sig Kind.scVector Space.vmem Cert.Kernel.S160 EltTy.i32)
local notation "b1" => (Memref.whole Cert.Kernel.cc0_scratch1 : Memref Cert.Kernel.sig Kind.scVector Space.vmem Cert.Kernel.S160 EltTy.i32)
local notation "b2" => (Memref.whole Cert.Kernel.cc0_scratch2 : Memref Cert.Kernel.sig Kind.scVector Space.vmem Cert.Kernel.S1152 EltTy.f32)
local notation "b3" => (Memref.whole Cert.Kernel.cc0_scratch3 : Memref Cert.Kernel.sig Kind.scVector Space.vmem Cert.Kernel.S32768 EltTy.f32)
local notation "b4" => (Memref.whole Cert.Kernel.cc0_scratch4 : Memref Cert.Kernel.sig Kind.scVector Space.vmem Cert.Kernel.S160x64 EltTy.f32)
local notation "b5" => (Memref.whole Cert.Kernel.cc0_scratch5 : Memref Cert.Kernel.sig Kind.scVector Space.vmem Cert.Kernel.S160x64 EltTy.f32)

variable [FloatOps F]
variable (d : Dev nD) (L : grid0.Coords)

omit [FloatOps F] in
theorem tl_pts_p (q : PosShare TreeShare) (f : Buf (Elt F) (pLoc d)) : ((pW).view.loc (thr d L) ↦{q} f : sProp 𝕄) = pLoc d ↦{q} f := by
  simp only [Memref.view_whole, View.set_whole]
omit [FloatOps F] in
theorem tl_pts_w (q : PosShare TreeShare) (f : Buf (Elt F) (wLoc d)) : ((wW).view.loc (thr d L) ↦{q} f : sProp 𝕄) = wLoc d ↦{q} f := by
  simp only [Memref.view_whole, View.set_whole]

omit [FloatOps F] in
theorem tl_pts_b0 (f : Buf (Elt F) ((thr d L).loc cc0_scratch0)) : ((thr d L).loc cc0_scratch0 ↦{fullShare} f : sProp 𝕄) = ((b0).view.loc (thr d L) ↦{fullShare} f) := rfl
omit [FloatOps F] in
theorem tl_pts_b1 (f : Buf (Elt F) ((thr d L).loc cc0_scratch1)) : ((thr d L).loc cc0_scratch1 ↦{fullShare} f : sProp 𝕄) = ((b1).view.loc (thr d L) ↦{fullShare} f) := rfl
omit [FloatOps F] in
theorem tl_pts_b2 (f : Buf (Elt F) ((thr d L).loc cc0_scratch2)) : ((thr d L).loc cc0_scratch2 ↦{fullShare} f : sProp 𝕄) = ((b2).view.loc (thr d L) ↦{fullShare} f) := rfl
omit [FloatOps F] in
theorem tl_pts_b3 (f : Buf (Elt F) ((thr d L).loc cc0_scratch3)) : ((thr d L).loc cc0_scratch3 ↦{fullShare} f : sProp 𝕄) = ((b3).view.loc (thr d L) ↦{fullShare} f) := rfl
omit [FloatOps F] in
theorem tl_pts_b4 (f : Buf (Elt F) ((thr d L).loc cc0_scratch4)) : ((thr d L).loc cc0_scratch4 ↦{fullShare} f : sProp 𝕄) = ((b4).view.loc (thr d L) ↦{fullShare} f) := rfl
omit [FloatOps F] in
theorem tl_pts_b5 (f : Buf (Elt F) ((thr d L).loc cc0_scratch5)) : ((thr d L).loc cc0_scratch5 ↦{fullShare} f : sProp 𝕄) = ((b5).view.loc (thr d L) ↦{fullShare} f) := rfl

set_option maxHeartbeats 4000000 in
theorem tileSpec : KC.TileSpec (F := F) := by
  intro d L O W hO q xp w o0 hxp
  rw [cc0__body_eq_skeleton]; unfold cc0__body_skel
  rw [(K (F := F)).scopedBufs_V facts d (cV L) (jV L), SparseCore.Cfg.scopedSems0_V (Val := Elt F) d (cV L) (jV L), ownSems0_tile, ownBufs_tile]
  iintro ⟨#Hlv, -, ⟨Hp, Hw, Ho⟩, ⟨⟨%f0, H0⟩, ⟨%f1, H1⟩, ⟨%f2, H2⟩, ⟨%f3, H3⟩, ⟨%f4, H4⟩, ⟨%f5, H5⟩, Hbufs⟩, ⟨S6, S7, S8, S9, S10, Hsems⟩, HO⟩
  ihave Hmw := ((K (F := F)).mayWaits_none (thr := thr d L) hO) $$ Hlv
  ihave Htk := (toks_split d L q xp) $$ Hp
  icases Htk with ⟨Hpa, Hpb, HtkE, HtkO⟩
  ihave Hpa' := (Entails.of_eq (tl_pts_p (F := F) d L _ _).symm) $$ Hpa
  ihave Hpb' := (Entails.of_eq (tl_pts_p (F := F) d L _ _).symm) $$ Hpb
  ihave Hw' := (Entails.of_eq (tl_pts_w (F := F) d L _ _).symm) $$ Hw
  ihave H0' := (Entails.of_eq (tl_pts_b0 (F := F) d L f0)) $$ H0
  ihave H1' := (Entails.of_eq (tl_pts_b1 (F := F) d L f1)) $$ H1
  ihave H2' := (Entails.of_eq (tl_pts_b2 (F := F) d L f2)) $$ H2
  ihave H3' := (Entails.of_eq (tl_pts_b3 (F := F) d L f3)) $$ H3
  ihave H4' := (Entails.of_eq (tl_pts_b4 (F := F) d L f4)) $$ H4
  ihave H5' := (Entails.of_eq (tl_pts_b5 (F := F) d L f5)) $$ H5
  sl_exec (disch := first | exact View.amount_pos _ _ (show 0 < S160.numel by decide) | exact View.amount_pos _ _ (show 0 < S1152.numel by decide) | exact View.amount_pos _ _ (show 0 < S160x64.numel by decide))
  -- the flat table's scratch reads the flat table, sixteen lanes at a time
  have hb2 : ∀ (c : Nat) (h : ∀ a, (![c] : Fin 1 → Nat) a + S16.size a ≤ S1152.size a) (hc : c + 16 ≤ 1152) (x : S16.Idx),
      View.readAt (Elt F) (b2).view (Rect.unit (s := S1152) ![c] S16.size h).toLoadRect
        (View.write (Elt F) (b2).view f2 (tileSpec.sl.dma0_2 d w) Finset.univ) x = Spec.wAt w (c + (x 0).val) :=
    fun c h hc x => b2_read d L f2 w c h hc x
  -- row 0 of the table: four stores
  have hA : ListOK w 64 (tileSpec.sl.H3'_4 d L w f2) := by
    unfold tileSpec.sl.H3'_4
    refine ListOK.push (N := 48) (ListOK.push (N := 32) (ListOK.push (N := 16) (ListOK.push (N := 0) (ListOK.nil w) _ _ ?_) _ _ ?_) _ _ ?_) _ _ ?_
    · intro x
      refine row0_val w 0 (by omega) _ _ _ _ _ _ _ _ _ ?_ ?_ ?_ ?_ ?_ ?_ ?_ ?_ ?_ x <;> exact fun x => hb2 _ _ (by omega) x
    · intro x
      refine row0_val w 16 (by omega) _ _ _ _ _ _ _ _ _ ?_ ?_ ?_ ?_ ?_ ?_ ?_ ?_ ?_ x <;> exact fun x => hb2 _ _ (by omega) x
    · intro x
      refine row0_val w 32 (by omega) _ _ _ _ _ _ _ _ _ ?_ ?_ ?_ ?_ ?_ ?_ ?_ ?_ ?_ x <;> exact fun x => hb2 _ _ (by omega) x
    · intro x
      refine row0_val w 48 (by omega) _ _ _ _ _ _ _ _ _ ?_ ?_ ?_ ?_ ?_ ?_ ?_ ?_ ?_ x <;> exact fun x => hb2 _ _ (by omega) x
  -- row 1: each store adds table 0's difference to the lanes of row 0 read back
  have hB : ListOK w 80 (tileSpec.sl.H3'_5 d L w f2) := by
    unfold tileSpec.sl.H3'_5
    refine ListOK.push (N := 64) hA _ _ fun x => ?_
    exact row1_val w 0 (by omega) _ _ _ (fun x => hb2 _ _ (by omega) x) (fun x => hb2 _ _ (by omega) x)
      (fun x => hA.readCov 0 _ (by omega) x) x
  have hC : ListOK w 96 (tileSpec.sl.H3'_6 d L w f2) := by
    unfold tileSpec.sl.H3'_6
    refine ListOK.push (N := 80) hB _ _ fun x => ?_
    exact row1_val w 16 (by omega) _ _ _ (fun x => hb2 _ _ (by omega) x) (fun x => hb2 _ _ (by omega) x)
      (fun x => hB.readCov 16 _ (by omega) x) x
  have hD : ListOK w 112 (tileSpec.sl.H3'_7 d L w f2) := by
    unfold tileSpec.sl.H3'_7
    refine ListOK.push (N := 96) hC _ _ fun x => ?_
    exact row1_val w 32 (by omega) _ _ _ (fun x => hb2 _ _ (by omega) x) (fun x => hb2 _ _ (by omega) x)
      (fun x => hC.readCov 32 _ (by omega) x) x
  have hE : ListOK w 128 ((⟨Rect.unit (s := S32768) ![112] S16.size (by decide),
      k0_pay80 (tileSpec.sl.r_6 d L w f2) (tileSpec.sl.v146 d L w f2)⟩ : View.Piece (Elt F) S32768 .f32) :: tileSpec.sl.H3'_7 d L w f2) := by
    refine ListOK.push (N := 112) hD _ _ fun x => ?_
    exact row1_val w 48 (by omega) _ _ _ (fun x => hb2 _ _ (by omega) x) (fun x => hb2 _ _ (by omega) x)
      (fun x => hD.readCov 48 _ (by omega) x) x
  have hL2 : KC.LutOK w 2 ((b3).view.writes (Elt F) f3 ((⟨Rect.unit (s := S32768) ![112] S16.size (by decide),
      k0_pay80 (tileSpec.sl.r_6 d L w f2) (tileSpec.sl.v146 d L w f2)⟩ : View.Piece (Elt F) S32768 .f32) :: tileSpec.sl.H3'_7 d L w f2)) :=
    ListOK.lutOK (n := 2) hE f3
  -- rows 2 … 3
  sl_for (KLut.Ilut w d L 2) $$ [H3']
  case region => exact KLut.lut_region_1 w d L _ _ _ _ _ _ _ _ _ _ (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x)
  · unfold KLut.Ilut; iexists _; isplitl [H3']; · iexact H3'
    ipureintro; exact hL2
  iintro %acc1 HI
  unfold KLut.Ilut
  icases HI with ⟨%g1, H3', %hg1⟩
  have hL4 : KC.LutOK w 4 g1 := by
    have := hg1; rw [show Scf.trips k0_t1_loop.lb k0_t1_loop.ub k0_t1_loop.st = 2 from trips1] at this; exact this
  sl_exec
  -- rows 4 … 7
  sl_for (KLut.Ilut w d L 4) $$ [H3']
  case region => exact KLut.lut_region_2 w d L _ _ _ _ (KLut.diff_ok w 2 0 _ _ _ _ rfl rfl (fun x => hb2 _ _ (by omega) x) (fun x => hb2 _ _ (by omega) x)) (KLut.diff_ok w 2 16 _ _ _ _ rfl rfl (fun x => hb2 _ _ (by omega) x) (fun x => hb2 _ _ (by omega) x)) (KLut.diff_ok w 2 32 _ _ _ _ rfl rfl (fun x => hb2 _ _ (by omega) x) (fun x => hb2 _ _ (by omega) x)) (KLut.diff_ok w 2 48 _ _ _ _ rfl rfl (fun x => hb2 _ _ (by omega) x) (fun x => hb2 _ _ (by omega) x))
  · unfold KLut.Ilut; iexists _; isplitl [H3']; · iexact H3'
    ipureintro; exact hL4
  iintro %acc2 HI
  unfold KLut.Ilut
  icases HI with ⟨%g2, H3', %hg2⟩
  have hL8 : KC.LutOK w 8 g2 := by
    have := hg2; rw [show Scf.trips k0_t2_loop.lb k0_t2_loop.ub k0_t2_loop.st = 4 from trips2] at this; exact this
  sl_exec
  -- rows 8 … 15
  sl_for (KLut.Ilut w d L 8) $$ [H3']
  case region => exact KLut.lut_region_3 w d L _ _ _ _ _ _ _ _ _ _ _ _ (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x)
  · unfold KLut.Ilut; iexists _; isplitl [H3']; · iexact H3'
    ipureintro; exact hL8
  iintro %acc3 HI
  unfold KLut.Ilut
  icases HI with ⟨%g3, H3', %hg3⟩
  have hL16 : KC.LutOK w 16 g3 := by
    have := hg3; rw [show Scf.trips k0_t3_loop.lb k0_t3_loop.ub k0_t3_loop.st = 8 from trips3] at this; exact this
  sl_exec
  -- rows 16 … 31
  sl_for (KLut.Ilut w d L 16) $$ [H3']
  case region => exact KLut.lut_region_4 w d L _ _ _ _ _ _ _ _ _ _ _ _ (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x)
  · unfold KLut.Ilut; iexists _; isplitl [H3']; · iexact H3'
    ipureintro; exact hL16
  iintro %acc4 HI
  unfold KLut.Ilut
  icases HI with ⟨%g4, H3', %hg4⟩
  have hL32 : KC.LutOK w 32 g4 := by
    have := hg4; rw [show Scf.trips k0_t4_loop.lb k0_t4_loop.ub k0_t4_loop.st = 16 from trips4] at this; exact this
  sl_exec
  -- rows 32 … 63
  sl_for (KLut.Ilut w d L 32) $$ [H3']
  case region => exact KLut.lut_region_5 w d L _ _ _ _ _ _ _ _ (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x)
  · unfold KLut.Ilut; iexists _; isplitl [H3']; · iexact H3'
    ipureintro; exact hL32
  iintro %acc5 HI
  unfold KLut.Ilut
  icases HI with ⟨%g5, H3', %hg5⟩
  have hL64 : KC.LutOK w 64 g5 := by
    have := hg5; rw [show Scf.trips k0_t5_loop.lb k0_t5_loop.ub k0_t5_loop.st = 32 from trips5] at this; exact this
  sl_exec
  -- rows 64 … 127
  sl_for (KLut.Ilut w d L 64) $$ [H3']
  case region => exact KLut.lut_region_6 w d L _ _ _ _ _ _ _ _ (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x)
  · unfold KLut.Ilut; iexists _; isplitl [H3']; · iexact H3'
    ipureintro; exact hL64
  iintro %acc6 HI
  unfold KLut.Ilut
  icases HI with ⟨%g6, H3', %hg6⟩
  have hL128 : KC.LutOK w 128 g6 := by
    have := hg6; rw [show Scf.trips k0_t6_loop.lb k0_t6_loop.ub k0_t6_loop.st = 64 from trips6] at this; exact this
  sl_exec
  -- rows 128 … 255
  sl_for (KLut.Ilut w d L 128) $$ [H3']
  case region => exact KLut.lut_region_7 w d L _ _ _ _ _ _ _ _ _ (KLut.diff_ok w 7 0 _ _ _ _ rfl rfl (fun x => hb2 _ _ (by omega) x) (fun x => hb2 _ _ (by omega) x)) (fun x => hb2 _ _ (by omega) x) (fun x => hb2 _ _ (by omega) x) (fun x => hb2 _ _ (by omega) x) (fun x => hb2 _ _ (by omega) x) (fun x => hb2 _ _ (by omega) x) (fun x => hb2 _ _ (by omega) x)
  · unfold KLut.Ilut; iexists _; isplitl [H3']; · iexact H3'
    ipureintro; exact hL128
  iintro %acc7 HI
  unfold KLut.Ilut
  icases HI with ⟨%g7, H3', %hg7⟩
  have hL256 : KC.LutOK w 256 g7 := by
    have := hg7; rw [show Scf.trips k0_t7_loop.lb k0_t7_loop.ub k0_t7_loop.st = 128 from trips7] at this; exact this
  sl_exec
  -- rows 256 … 511
  sl_for (KLut.Ilut w d L 256) $$ [H3']
  case region => exact KLut.lut_region_8 w d L _ _ _ _ _ _ _ _ _ _ _ (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x) (fun x => hb2 _ _ (by omega) x)
  · unfold KLut.Ilut; iexists _; isplitl [H3']; · iexact H3'
    ipureintro; exact hL256
  iintro %acc8 HI
  unfold KLut.Ilut
  icases HI with ⟨%g8, H3', %hg8⟩
  have hL512 : KC.LutOK w 512 g8 := by
    have := hg8; rw [show Scf.trips k0_t8_loop.lb k0_t8_loop.ub k0_t8_loop.st = 256 from trips8] at this; exact this
  sl_exec
  -- the ring of transfers: its invariant before step 0
  iclear Hpa'
  iclear Hpb'
  have hx0 : KC.XvOK xp (bE L 0) (View.write (Elt F) (b0).view f0 (tileSpec.sl.dma0 d L xp) Finset.univ) :=
    xv_of_copy0 d L xp (bE L 0) (k0_off1 L 0#32) _ (off1_even L) f0
  have hx1 : KC.XvOK xp (bO L 0) (View.write (Elt F) (b1).view f1 (tileSpec.sl.dma0_1 d L xp) Finset.univ) :=
    xv_of_copy1 d L xp (bO L 0) (k0_off1 L 32#32) _ (off1_odd L) f1
  ihave HX0 := (Transfers.Flight_mono countersEmb (thr d L) (DX0_intro d L xp 0 _ _ hx0)) $$ S6
  ihave HX1 := (Transfers.Flight_mono countersEmb (thr d L) (DX1_intro d L xp 0 _ _ hx1)) $$ S7
  ihave Hb := (Entails.of_eq (rows_split d L fullShare o0)) $$ Ho
  icases Hb with ⟨HbE, HbO⟩
  sl_for (Iring d L xp w o0 O W g8 (Transfers.shareTokN q 0) (Transfers.shareTokN q 1)) $$ [H3' HX0 HX1 S8 H4' S9 H5' HbE HbO HtkE HtkO HO]
  case region => exact ring_region d L (Transfers.shareTokN q 0) (Transfers.shareTokN q 1) xp w o0 O W g8 hO hxp hL512 _ _ _
  · unfold Iring SX0 SX1 SO0 SO1
    rw [if_pos (show (0 : Nat) < 10 by decide), if_pos (show 0 < nOdd L by have := nOdd_ge L; omega), if_pos rfl, if_pos rfl]
    simp only [Nat.zero_min, Nat.zero_sub, Finset.range_zero, bigSep_empty]
    isplitl []; · iexact Hmw
    isplitl [H3']; · iexact H3'
    isplitl [HX0]; · iexact HX0
    isplitl [HX1]; · iexact HX1
    isplitl [S8 H4']
    · isplitl [S8]; · iexact S8
      iexists f4; iexact H4'
    isplitl [S9 H5']
    · isplitl [S9]; · iexact S9
      iexists f5; iexact H5'
    isplitl [HbE]; · iexact HbE
    isplitl [HbO]; · iexact HbO
    isplitl []; · iempintro
    isplitl []; · iempintro
    isplitl [HtkE]; · iexact HtkE
    isplitl [HtkO]; · iexact HtkO
    iexists _
    isplitr [HO]
    rotate_left
    · iexact HO
    · ipureintro
      intro p hp
      rcases Finset.mem_insert.mp hp with e | e
      · exact .inr (e ▸ rfl)
      · exact .inl e
  -- after the ring: the last two copies into the result are in flight
  iintro %acc9 HI
  unfold Iring SX0 SX1 SO0 SO1
  rw [show Scf.trips k0_t9_loop.lb k0_t9_loop.ub k0_t9_loop.st = 10 from trips9]
  rw [if_neg (show ¬ (10 : Nat) < 10 by decide), if_neg (show ¬ 10 < nOdd L by have := nOdd_le L; omega),
    if_neg (show ¬ (10 : Nat) = 0 by decide), if_neg (show ¬ (10 : Nat) = 0 by decide)]
  icases HI with ⟨-, H3', ⟨S6, ⟨%f0', H0'⟩⟩, ⟨S7, ⟨%f1', H1'⟩⟩, HF0, HF1, -, -, HdE, HdO, -, -, ⟨%W', %hW', HO⟩⟩
  sl_exec
  -- the even-numbered block of the last step has landed
  iapply (Transfers.wp_waitLocalO countersEmb 𝒱₀ (thr d L) none (default : HIx 1) (N := 327680) rfl) $$ [HF0 HO]
  · isplitl [HF0]; · iexact HF0
    isplitl [HO]; · iexact HO
    iapply (Transfers.MayWaits.elim (SemLoc.dma cc0_scratch8.sem)); iexact Hmw
  iintro ⟨HD, S8, HO⟩
  icases HD with ⟨⟨%f4', H4'⟩, HlE⟩
  sl_exec
  -- the odd-numbered block of the last step has landed
  iapply (Transfers.wp_waitLocalO countersEmb 𝒱₀ (thr d L) none (default : HIx 1) (N := 327680) rfl) $$ [HF1 HO]
  · isplitl [HF1]; · iexact HF1
    isplitl [HO]; · iexact HO
    iapply (Transfers.MayWaits.elim (SemLoc.dma cc0_scratch9.sem)); iexact Hmw
  iintro ⟨HD, S9, HO⟩
  icases HD with ⟨⟨%f5', H5'⟩, HlO⟩
  sl_exec
  sl_step
  -- the worker's rows of the result, its scratch, its semaphores, its waits
  isplitl [HdE HlE HdO HlO]
  · iapply (rows_join d L (G d w xp))
    isplitl [HdE]; · iexact HdE
    isplitl [HlE]; · iexact HlE
    isplitl [HdO]; · iexact HdO
    iexact HlO
  isplitl [H0' H1' H2' H3' H4' H5' Hbufs]
  · isplitl [H0']; · iexists f0'; iexact H0'
    isplitl [H1']; · iexists f1'; iexact H1'
    isplitl [H2']; · iexists _; iexact H2'
    isplitl [H3']; · iexists g8; iexact H3'
    isplitl [H4']; · iexists f4'; iexact H4'
    isplitl [H5']; · iexists f5'; iexact H5'
    iexact Hbufs
  isplitl [S6 S7 S8 S9 S10 Hsems]
  · isplitl [S6]; · iexact S6
    isplitl [S7]; · iexact S7
    isplitl [S8]; · iexact S8
    isplitl [S9]; · iexact S9
    isplitl [S10]; · iexact S10
    iexact Hsems
  iexists _
  isplitr [HO]
  rotate_left
  · iexact HO
  · ipureintro
    exact waits_insert W _ _ (waits_insert W _ _ hW')

end Cert.Kernel.KT

end
-- ==== Proof.RefOps.lean ====
/-
  The reference program's @main as the list of its 236 host operations, in order, every call of an outlined
  function unfolded at its call site over that call's buffers: per feature column the slice of the column, its
  reshape, the 23 operations of the table lookup (the negative-index wrap, the range mask, the gather, the
  select against the fill constant) and the addition to the running sum.  The run of that line: every weakly
  fair execution terminates with each buffer at the fold of the operations over the launch contents.
-/
import proofs.«207339_g86234353369688_cont_sun_m_1071_33_alg».proof.Proof.Gen.ReferenceIdeal
import Idealize.ShloMosaic.Lib.StableHlo.Run

noncomputable section

namespace Cert.RefOps

open Cert.ReferenceIdeal Cert.ReferenceIdeal.Gen Idealize.ShloMosaic Idealize.ShloMosaic.TcCoe Idealize.SL.Sem Idealize.ShloMosaic.StableHlo

variable {F : FTy → Type} [FloatOps F]

/-- @main's 236 operations, in order, the calls unfolded. -/
abbrev ops : List (HloOp τ sig (Elt F)) :=
  [ nullary main_cst (constant S_ .f32 0x00000000#32),
    unary main_cst main_v0 (broadcastInDim S100000x64 ![] bcast_S_S100000x64 : (⟨S_, .f32⟩ : BufTy).Contents (Elt F) → (⟨S100000x64, .f32⟩ : BufTy).Contents (Elt F)),
    unary main_arg0 main_v1 ((extractStridedSlice S100000x1 ![0, 0] · slices_S100000x9_S100000x1_0_0) : (⟨S100000x9, .i32⟩ : BufTy).Contents (Elt F) → (⟨S100000x1, .i32⟩ : BufTy).Contents (Elt F)),
    reshape main_v1 main_v2 rfl shapeCasts_S100000x1_S100000,
    TRef.nullary main_call0.c (constantI S_ 32 0#32),
    TRef.unary main_call0.c main_call0.v0 (broadcastInDim S100000 ![] bcast_S_S100000),
    TRef.binary (.of main_v2 : TRef sig ⟨S100000, .i32⟩) main_call0.v0 main_call0.v1 (cmpi .slt),
    TRef.nullary main_call0.c_0 (constantI S_ 32 119#32),
    TRef.unary main_call0.c_0 main_call0.v2 (broadcastInDim S100000 ![] bcast_S_S100000),
    TRef.binary (.of main_v2 : TRef sig ⟨S100000, .i32⟩) main_call0.v2 main_call0.v3 addi,
    TRef.ternary main_call0.v1 main_call0.v3 (.of main_v2 : TRef sig ⟨S100000, .i32⟩) main_call0.call0.v0 select,
    TRef.unary main_call0.call0.v0 main_call0.v5 (broadcastInDim S100000x1 ![0] bcast_S100000_S100000x1_0),
    TRef.nullary main_call0.c_1 (constantI S1 32 118#32),
    TRef.nullary main_call0.c_2 (constantI S_ 32 0#32),
    TRef.unary main_call0.c_2 main_call0.v6 (broadcastInDim S100000x1 ![] bcast_S_S100000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S100000x1 ![0, 1] bcast_S1x1_S100000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S100000x1_S100000_d1 h_S_),
    TRef.binary (.of main_arg1 : TRef sig ⟨S119x64, .f32⟩) main_call0.v5 main_call0.v13 (fun x i => Host.gather gather_S119x64_S100000x1_S100000x64_1_0_n_n_0_1_164 x i),
    TRef.unary main_call0.v12 main_call0.v14 (broadcastInDim S100000x64 ![0] bcast_S100000_S100000x64_0),
    TRef.nullary main_call0.cst (constant S_ .f32 0x7FC00000#32),
    TRef.unary main_call0.cst main_call0.v15 (broadcastInDim S100000x64 ![] bcast_S_S100000x64),
    TRef.ternary main_call0.v14 main_call0.v13 main_call0.v15 main_call0.v16 select,
    binary main_v0 main_v3 main_v4 (addf : (⟨S100000x64, .f32⟩ : BufTy).Contents (Elt F) → (⟨S100000x64, .f32⟩ : BufTy).Contents (Elt F) → (⟨S100000x64, .f32⟩ : BufTy).Contents (Elt F)),
    unary main_arg0 main_v5 ((extractStridedSlice S100000x1 ![0, 1] · slices_S100000x9_S100000x1_0_1) : (⟨S100000x9, .i32⟩ : BufTy).Contents (Elt F) → (⟨S100000x1, .i32⟩ : BufTy).Contents (Elt F)),
    reshape main_v5 main_v6 rfl shapeCasts_S100000x1_S100000,
    TRef.nullary main_call1.c (constantI S_ 32 0#32),
    TRef.unary main_call1.c main_call1.v0 (broadcastInDim S100000 ![] bcast_S_S100000),
    TRef.binary (.of main_v6 : TRef sig ⟨S100000, .i32⟩) main_call1.v0 main_call1.v1 (cmpi .slt),
    TRef.nullary main_call1.c_0 (constantI S_ 32 5#32),
    TRef.unary main_call1.c_0 main_call1.v2 (broadcastInDim S100000 ![] bcast_S_S100000),
    TRef.binary (.of main_v6 : TRef sig ⟨S100000, .i32⟩) main_call1.v2 main_call1.v3 addi,
    TRef.ternary main_call1.v1 main_call1.v3 (.of main_v6 : TRef sig ⟨S100000, .i32⟩) main_call1.call0.v0 select,
    TRef.unary main_call1.call0.v0 main_call1.v5 (broadcastInDim S100000x1 ![0] bcast_S100000_S100000x1_0),
    TRef.nullary main_call1.c_1 (constantI S1 32 4#32),
    TRef.nullary main_call1.c_2 (constantI S_ 32 0#32),
    TRef.unary main_call1.c_2 main_call1.v6 (broadcastInDim S100000x1 ![] bcast_S_S100000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S100000x1 ![0, 1] bcast_S1x1_S100000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S100000x1_S100000_d1 h_S_),
    TRef.binary (.of main_arg2 : TRef sig ⟨S5x64, .f32⟩) main_call1.v5 main_call1.v13 (fun x i => Host.gather gather_S5x64_S100000x1_S100000x64_1_0_n_n_0_1_164 x i),
    TRef.unary main_call1.v12 main_call1.v14 (broadcastInDim S100000x64 ![0] bcast_S100000_S100000x64_0),
    TRef.nullary main_call1.cst (constant S_ .f32 0x7FC00000#32),
    TRef.unary main_call1.cst main_call1.v15 (broadcastInDim S100000x64 ![] bcast_S_S100000x64),
    TRef.ternary main_call1.v14 main_call1.v13 main_call1.v15 main_call1.v16 select,
    binary main_v4 main_v7 main_v8 (addf : (⟨S100000x64, .f32⟩ : BufTy).Contents (Elt F) → (⟨S100000x64, .f32⟩ : BufTy).Contents (Elt F) → (⟨S100000x64, .f32⟩ : BufTy).Contents (Elt F)),
    unary main_arg0 main_v9 ((extractStridedSlice S100000x1 ![0, 2] · slices_S100000x9_S100000x1_0_2) : (⟨S100000x9, .i32⟩ : BufTy).Contents (Elt F) → (⟨S100000x1, .i32⟩ : BufTy).Contents (Elt F)),
    reshape main_v9 main_v10 rfl shapeCasts_S100000x1_S100000,
    TRef.nullary main_call2.c (constantI S_ 32 0#32),
    TRef.unary main_call2.c main_call2.v0 (broadcastInDim S100000 ![] bcast_S_S100000),
    TRef.binary (.of main_v10 : TRef sig ⟨S100000, .i32⟩) main_call2.v0 main_call2.v1 (cmpi .slt),
    TRef.nullary main_call2.c_0 (constantI S_ 32 12#32),
    TRef.unary main_call2.c_0 main_call2.v2 (broadcastInDim S100000 ![] bcast_S_S100000),
    TRef.binary (.of main_v10 : TRef sig ⟨S100000, .i32⟩) main_call2.v2 main_call2.v3 addi,
    TRef.ternary main_call2.v1 main_call2.v3 (.of main_v10 : TRef sig ⟨S100000, .i32⟩) main_call2.call0.v0 select,
    TRef.unary main_call2.call0.v0 main_call2.v5 (broadcastInDim S100000x1 ![0] bcast_S100000_S100000x1_0),
    TRef.nullary main_call2.c_1 (constantI S1 32 11#32),
    TRef.nullary main_call2.c_2 (constantI S_ 32 0#32),
    TRef.unary main_call2.c_2 main_call2.v6 (broadcastInDim S100000x1 ![] bcast_S_S100000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S100000x1 ![0, 1] bcast_S1x1_S100000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S100000x1_S100000_d1 h_S_),
    TRef.binary (.of main_arg3 : TRef sig ⟨S12x64, .f32⟩) main_call2.v5 main_call2.v13 (fun x i => Host.gather gather_S12x64_S100000x1_S100000x64_1_0_n_n_0_1_164 x i),
    TRef.unary main_call2.v12 main_call2.v14 (broadcastInDim S100000x64 ![0] bcast_S100000_S100000x64_0),
    TRef.nullary main_call2.cst (constant S_ .f32 0x7FC00000#32),
    TRef.unary main_call2.cst main_call2.v15 (broadcastInDim S100000x64 ![] bcast_S_S100000x64),
    TRef.ternary main_call2.v14 main_call2.v13 main_call2.v15 main_call2.v16 select,
    binary main_v8 main_v11 main_v12 (addf : (⟨S100000x64, .f32⟩ : BufTy).Contents (Elt F) → (⟨S100000x64, .f32⟩ : BufTy).Contents (Elt F) → (⟨S100000x64, .f32⟩ : BufTy).Contents (Elt F)),
    unary main_arg0 main_v13 ((extractStridedSlice S100000x1 ![0, 3] · slices_S100000x9_S100000x1_0_3) : (⟨S100000x9, .i32⟩ : BufTy).Contents (Elt F) → (⟨S100000x1, .i32⟩ : BufTy).Contents (Elt F)),
    reshape main_v13 main_v14 rfl shapeCasts_S100000x1_S100000,
    TRef.nullary main_call3.c (constantI S_ 32 0#32),
    TRef.unary main_call3.c main_call3.v0 (broadcastInDim S100000 ![] bcast_S_S100000),
    TRef.binary (.of main_v14 : TRef sig ⟨S100000, .i32⟩) main_call3.v0 main_call3.v1 (cmpi .slt),
    TRef.nullary main_call3.c_0 (constantI S_ 32 12#32),
    TRef.unary main_call3.c_0 main_call3.v2 (broadcastInDim S100000 ![] bcast_S_S100000),
    TRef.binary (.of main_v14 : TRef sig ⟨S100000, .i32⟩) main_call3.v2 main_call3.v3 addi,
    TRef.ternary main_call3.v1 main_call3.v3 (.of main_v14 : TRef sig ⟨S100000, .i32⟩) main_call3.call0.v0 select,
    TRef.unary main_call3.call0.v0 main_call3.v5 (broadcastInDim S100000x1 ![0] bcast_S100000_S100000x1_0),
    TRef.nullary main_call3.c_1 (constantI S1 32 11#32),
    TRef.nullary main_call3.c_2 (constantI S_ 32 0#32),
    TRef.unary main_call3.c_2 main_call3.v6 (broadcastInDim S100000x1 ![] bcast_S_S100000x1),
    TRef.binary main_call3.v5 main_call3.v6 main_call3.v7 (cmpi .sge),
    TRef.unary main_call3.c_1 main_call3.v8 (broadcastInDim S1x1 ![1] bcast_S1_S1x1_1),
    TRef.unary main_call3.v8 main_call3.v9 (broadcastInDim S100000x1 ![0, 1] bcast_S1x1_S100000x1_0_1),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S100000x1_S100000_d1 h_S_),
    TRef.binary (.of main_arg4 : TRef sig ⟨S12x64, .f32⟩) main_call3.v5 main_call3.v13 (fun x i => Host.gather gather_S12x64_S100000x1_S100000x64_1_0_n_n_0_1_164 x i),
    TRef.unary main_call3.v12 main_call3.v14 (broadcastInDim S100000x64 ![0] bcast_S100000_S100000x64_0),
    TRef.nullary main_call3.cst (constant S_ .f32 0x7FC00000#32),
    TRef.unary main_call3.cst main_call3.v15 (broadcastInDim S100000x64 ![] bcast_S_S100000x64),
    TRef.ternary main_call3.v14 main_call3.v13 main_call3.v15 main_call3.v16 select,
    binary main_v12 main_v15 main_v16 (addf : (⟨S100000x64, .f32⟩ : BufTy).Contents (Elt F) → (⟨S100000x64, .f32⟩ : BufTy).Contents (Elt F) → (⟨S100000x64, .f32⟩ : BufTy).Contents (Elt F)),
    unary main_arg0 main_v17 ((extractStridedSlice S100000x1 ![0, 4] · slices_S100000x9_S100000x1_0_4) : (⟨S100000x9, .i32⟩ : BufTy).Contents (Elt F) → (⟨S100000x1, .i32⟩ : BufTy).Contents (Elt F)),
    reshape main_v17 main_v18 rfl shapeCasts_S100000x1_S100000,
    TRef.nullary main_call4.c (constantI S_ 32 0#32),
    TRef.unary main_call4.c main_call4.v0 (broadcastInDim S100000 ![] bcast_S_S100000),
    TRef.binary (.of main_v18 : TRef sig ⟨S100000, .i32⟩) main_call4.v0 main_call4.v1 (cmpi .slt),
    TRef.nullary main_call4.c_0 (constantI S_ 32 10#32),
    TRef.unary main_call4.c_0 main_call4.v2 (broadcastInDim S100000 ![] bcast_S_S100000),
    TRef.binary (.of main_v18 : TRef sig ⟨S100000, .i32⟩) main_call4.v2 main_call4.v3 addi,
    TRef.ternary main_call4.v1 main_call4.v3 (.of main_v18 : TRef sig ⟨S100000, .i32⟩) main_call4.call0.v0 select,
    TRef.unary main_call4.call0.v0 main_call4.v5 (broadcastInDim S100000x1 ![0] bcast_S100000_S100000x1_0),
    TRef.nullary main_call4.c_1 (constantI S1 32 9#32),
    TRef.nullary main_call4.c_2 (constantI S_ 32 0#32),
    TRef.unary main_call4.c_2 main_call4.v6 (broadcastInDim S100000x1 ![] bcast_S_S100000x1),
    TRef.binary main_call4.v5 main_call4.v6 main_call4.v7 (cmpi .sge),
    TRef.unary main_call4.c_1 main_call4.v8 (broadcastInDim S1x1 ![1] bcast_S1_S1x1_1),
    TRef.unary main_call4.v8 main_call4.v9 (broadcastInDim S100000x1 ![0, 1] bcast_S1x1_S100000x1_0_1),
    TRef.binary main_call4.v5 main_call4.v9 main_call4.v10 (cmpi .sle),
    TRef.binary main_call4.v7 main_call4.v10 main_call4.v11 andi,
    TRef.nullary main_call4.c_3 (constantI S_ 1 1#1),
    TRef.binary main_call4.v11 main_call4.c_3 main_call4.v12 (fun x v => Host.reduce IntOp.andi x v reducesTo_S100000x1_S100000_d1 h_S_),
    TRef.binary (.of main_arg5 : TRef sig ⟨S10x64, .f32⟩) main_call4.v5 main_call4.v13 (fun x i => Host.gather gather_S10x64_S100000x1_S100000x64_1_0_n_n_0_1_164 x i),
    TRef.unary main_call4.v12 main_call4.v14 (broadcastInDim S100000x64 ![0] bcast_S100000_S100000x64_0),
    TRef.nullary main_call4.cst (constant S_ .f32 0x7FC00000#32),
    TRef.unary main_call4.cst main_call4.v15 (broadcastInDim S100000x64 ![] bcast_S_S100000x64),
    TRef.ternary main_call4.v14 main_call4.v13 main_call4.v15 main_call4.v16 select,
    binary main_v16 main_v19 main_v20 (addf : (⟨S100000x64, .f32⟩ : BufTy).Contents (Elt F) → (⟨S100000x64, .f32⟩ : BufTy).Contents (Elt F) → (⟨S100000x64, .f32⟩ : BufTy).Contents (Elt F)),
    unary main_arg0 main_v21 ((extractStridedSlice S100000x1 ![0, 5] · slices_S100000x9_S100000x1_0_5) : (⟨S100000x9, .i32⟩ : BufTy).Contents (Elt F) → (⟨S100000x1, .i32⟩ : BufTy).Contents (Elt F)),
    reshape main_v21 main_v22 rfl shapeCasts_S100000x1_S100000,
    TRef.nullary main_call5.c (constantI S_ 32 0#32),
    TRef.unary main_call5.c main_call5.v0 (broadcastInDim S100000 ![] bcast_S_S100000),
    TRef.binary (.of main_v22 : TRef sig ⟨S100000, .i32⟩) main_call5.v0 main_call5.v1 (cmpi .slt),
    TRef.nullary main_call5.c_0 (constantI S_ 32 6#32),
    TRef.unary main_call5.c_0 main_call5.v2 (broadcastInDim S100000 ![] bcast_S_S100000),
    TRef.binary (.of main_v22 : TRef sig ⟨S100000, .i32⟩) main_call5.v2 main_call5.v3 addi,
    TRef.ternary main_call5.v1 main_call5.v3 (.of main_v22 : TRef sig ⟨S100000, .i32⟩) main_call5.call0.v0 select,
    TRef.unary main_call5.call0.v0 main_call5.v5 (broadcastInDim S100000x1 ![0] bcast_S100000_S100000x1_0),
    TRef.nullary main_call5.c_1 (constantI S1 32 5#32),
    TRef.nullary main_call5.c_2 (constantI S_ 32 0#32),
    TRef.unary main_call5.c_2 main_call5.v6 (broadcastInDim S100000x1 ![] bcast_S_S100000x1),
    TRef.binary main_call5.v5 main_call5.v6 main_call5.v7 (cmpi .sge),
    TRef.unary main_call5.c_1 main_call5.v8 (broadcastInDim S1x1 ![1] bcast_S1_S1x1_1),
    TRef.unary main_call5.v8 main_call5.v9 (broadcastInDim S100000x1 ![0, 1] bcast_S1x1_S100000x1_0_1),
    TRef.binary main_call5.v5 main_call5.v9 main_call5.v10 (cmpi .sle),
    TRef.binary main_call5.v7 main_call5.v10 main_call5.v11 andi,
    TRef.nullary main_call5.c_3 (constantI S_ 1 1#1),
    TRef.binary main_call5.v11 main_call5.c_3 main_call5.v12 (fun x v => Host.reduce IntOp.andi x v reducesTo_S100000x1_S100000_d1 h_S_),
    TRef.binary (.of main_arg6 : TRef sig ⟨S6x64, .f32⟩) main_call5.v5 main_call5.v13 (fun x i => Host.gather gather_S6x64_S100000x1_S100000x64_1_0_n_n_0_1_164 x i),
    TRef.unary main_call5.v12 main_call5.v14 (broadcastInDim S100000x64 ![0] bcast_S100000_S100000x64_0),
    TRef.nullary main_call5.cst (constant S_ .f32 0x7FC00000#32),
    TRef.unary main_call5.cst main_call5.v15 (broadcastInDim S100000x64 ![] bcast_S_S100000x64),
    TRef.ternary main_call5.v14 main_call5.v13 main_call5.v15 main_call5.v16 select,
    binary main_v20 main_v23 main_v24 (addf : (⟨S100000x64, .f32⟩ : BufTy).Contents (Elt F) → (⟨S100000x64, .f32⟩ : BufTy).Contents (Elt F) → (⟨S100000x64, .f32⟩ : BufTy).Contents (Elt F)),
    unary main_arg0 main_v25 ((extractStridedSlice S100000x1 ![0, 6] · slices_S100000x9_S100000x1_0_6) : (⟨S100000x9, .i32⟩ : BufTy).Contents (Elt F) → (⟨S100000x1, .i32⟩ : BufTy).Contents (Elt F)),
    reshape main_v25 main_v26 rfl shapeCasts_S100000x1_S100000,
    TRef.nullary main_call6.c (constantI S_ 32 0#32),
    TRef.unary main_call6.c main_call6.v0 (broadcastInDim S100000 ![] bcast_S_S100000),
    TRef.binary (.of main_v26 : TRef sig ⟨S100000, .i32⟩) main_call6.v0 main_call6.v1 (cmpi .slt),
    TRef.nullary main_call6.c_0 (constantI S_ 32 6#32),
    TRef.unary main_call6.c_0 main_call6.v2 (broadcastInDim S100000 ![] bcast_S_S100000),
    TRef.binary (.of main_v26 : TRef sig ⟨S100000, .i32⟩) main_call6.v2 main_call6.v3 addi,
    TRef.ternary main_call6.v1 main_call6.v3 (.of main_v26 : TRef sig ⟨S100000, .i32⟩) main_call6.call0.v0 select,
    TRef.unary main_call6.call0.v0 main_call6.v5 (broadcastInDim S100000x1 ![0] bcast_S100000_S100000x1_0),
    TRef.nullary main_call6.c_1 (constantI S1 32 5#32),
    TRef.nullary main_call6.c_2 (constantI S_ 32 0#32),
    TRef.unary main_call6.c_2 main_call6.v6 (broadcastInDim S100000x1 ![] bcast_S_S100000x1),
    TRef.binary main_call6.v5 main_call6.v6 main_call6.v7 (cmpi .sge),
    TRef.unary main_call6.c_1 main_call6.v8 (broadcastInDim S1x1 ![1] bcast_S1_S1x1_1),
    TRef.unary main_call6.v8 main_call6.v9 (broadcastInDim S100000x1 ![0, 1] bcast_S1x1_S100000x1_0_1),
    TRef.binary main_call6.v5 main_call6.v9 main_call6.v10 (cmpi .sle),
    TRef.binary main_call6.v7 main_call6.v10 main_call6.v11 andi,
    TRef.nullary main_call6.c_3 (constantI S_ 1 1#1),
    TRef.binary main_call6.v11 main_call6.c_3 main_call6.v12 (fun x v => Host.reduce IntOp.andi x v reducesTo_S100000x1_S100000_d1 h_S_),
    TRef.binary (.of main_arg7 : TRef sig ⟨S6x64, .f32⟩) main_call6.v5 main_call6.v13 (fun x i => Host.gather gather_S6x64_S100000x1_S100000x64_1_0_n_n_0_1_164 x i),
    TRef.unary main_call6.v12 main_call6.v14 (broadcastInDim S100000x64 ![0] bcast_S100000_S100000x64_0),
    TRef.nullary main_call6.cst (constant S_ .f32 0x7FC00000#32),
    TRef.unary main_call6.cst main_call6.v15 (broadcastInDim S100000x64 ![] bcast_S_S100000x64),
    TRef.ternary main_call6.v14 main_call6.v13 main_call6.v15 main_call6.v16 select,
    binary main_v24 main_v27 main_v28 (addf : (⟨S100000x64, .f32⟩ : BufTy).Contents (Elt F) → (⟨S100000x64, .f32⟩ : BufTy).Contents (Elt F) → (⟨S100000x64, .f32⟩ : BufTy).Contents (Elt F)),
    unary main_arg0 main_v29 ((extractStridedSlice S100000x1 ![0, 7] · slices_S100000x9_S100000x1_0_7) : (⟨S100000x9, .i32⟩ : BufTy).Contents (Elt F) → (⟨S100000x1, .i32⟩ : BufTy).Contents (Elt F)),
    reshape main_v29 main_v30 rfl shapeCasts_S100000x1_S100000,
    TRef.nullary main_call7.c (constantI S_ 32 0#32),
    TRef.unary main_call7.c main_call7.v0 (broadcastInDim S100000 ![] bcast_S_S100000),
    TRef.binary (.of main_v30 : TRef sig ⟨S100000, .i32⟩) main_call7.v0 main_call7.v1 (cmpi .slt),
    TRef.nullary main_call7.c_0 (constantI S_ 32 2#32),
    TRef.unary main_call7.c_0 main_call7.v2 (broadcastInDim S100000 ![] bcast_S_S100000),
    TRef.binary (.of main_v30 : TRef sig ⟨S100000, .i32⟩) main_call7.v2 main_call7.v3 addi,
    TRef.ternary main_call7.v1 main_call7.v3 (.of main_v30 : TRef sig ⟨S100000, .i32⟩) main_call7.call0.v0 select,
    TRef.unary main_call7.call0.v0 main_call7.v5 (broadcastInDim S100000x1 ![0] bcast_S100000_S100000x1_0),
    TRef.nullary main_call7.c_1 (constantI S1 32 1#32),
    TRef.nullary main_call7.c_2 (constantI S_ 32 0#32),
    TRef.unary main_call7.c_2 main_call7.v6 (broadcastInDim S100000x1 ![] bcast_S_S100000x1),
    TRef.binary main_call7.v5 main_call7.v6 main_call7.v7 (cmpi .sge),
    TRef.unary main_call7.c_1 main_call7.v8 (broadcastInDim S1x1 ![1] bcast_S1_S1x1_1),
    TRef.unary main_call7.v8 main_call7.v9 (broadcastInDim S100000x1 ![0, 1] bcast_S1x1_S100000x1_0_1),
    TRef.binary main_call7.v5 main_call7.v9 main_call7.v10 (cmpi .sle),
    TRef.binary main_call7.v7 main_call7.v10 main_call7.v11 andi,
    TRef.nullary main_call7.c_3 (constantI S_ 1 1#1),
    TRef.binary main_call7.v11 main_call7.c_3 main_call7.v12 (fun x v => Host.reduce IntOp.andi x v reducesTo_S100000x1_S100000_d1 h_S_),
    TRef.binary (.of main_arg8 : TRef sig ⟨S2x64, .f32⟩) main_call7.v5 main_call7.v13 (fun x i => Host.gather gather_S2x64_S100000x1_S100000x64_1_0_n_n_0_1_164 x i),
    TRef.unary main_call7.v12 main_call7.v14 (broadcastInDim S100000x64 ![0] bcast_S100000_S100000x64_0),
    TRef.nullary main_call7.cst (constant S_ .f32 0x7FC00000#32),
    TRef.unary main_call7.cst main_call7.v15 (broadcastInDim S100000x64 ![] bcast_S_S100000x64),
    TRef.ternary main_call7.v14 main_call7.v13 main_call7.v15 main_call7.v16 select,
    binary main_v28 main_v31 main_v32 (addf : (⟨S100000x64, .f32⟩ : BufTy).Contents (Elt F) → (⟨S100000x64, .f32⟩ : BufTy).Contents (Elt F) → (⟨S100000x64, .f32⟩ : BufTy).Contents (Elt F)),
    unary main_arg0 main_v33 ((extractStridedSlice S100000x1 ![0, 8] · slices_S100000x9_S100000x1_0_8) : (⟨S100000x9, .i32⟩ : BufTy).Contents (Elt F) → (⟨S100000x1, .i32⟩ : BufTy).Contents (Elt F)),
    reshape main_v33 main_v34 rfl shapeCasts_S100000x1_S100000,
    TRef.nullary main_call8.c (constantI S_ 32 0#32),
    TRef.unary main_call8.c main_call8.v0 (broadcastInDim S100000 ![] bcast_S_S100000),
    TRef.binary (.of main_v34 : TRef sig ⟨S100000, .i32⟩) main_call8.v0 main_call8.v1 (cmpi .slt),
    TRef.nullary main_call8.c_0 (constantI S_ 32 2#32),
    TRef.unary main_call8.c_0 main_call8.v2 (broadcastInDim S100000 ![] bcast_S_S100000),
    TRef.binary (.of main_v34 : TRef sig ⟨S100000, .i32⟩) main_call8.v2 main_call8.v3 addi,
    TRef.ternary main_call8.v1 main_call8.v3 (.of main_v34 : TRef sig ⟨S100000, .i32⟩) main_call8.call0.v0 select,
    TRef.unary main_call8.call0.v0 main_call8.v5 (broadcastInDim S100000x1 ![0] bcast_S100000_S100000x1_0),
    TRef.nullary main_call8.c_1 (constantI S1 32 1#32),
    TRef.nullary main_call8.c_2 (constantI S_ 32 0#32),
    TRef.unary main_call8.c_2 main_call8.v6 (broadcastInDim S100000x1 ![] bcast_S_S100000x1),
    TRef.binary main_call8.v5 main_call8.v6 main_call8.v7 (cmpi .sge),
    TRef.unary main_call8.c_1 main_call8.v8 (broadcastInDim S1x1 ![1] bcast_S1_S1x1_1),
    TRef.unary main_call8.v8 main_call8.v9 (broadcastInDim S100000x1 ![0, 1] bcast_S1x1_S100000x1_0_1),
    TRef.binary main_call8.v5 main_call8.v9 main_call8.v10 (cmpi .sle),
    TRef.binary main_call8.v7 main_call8.v10 main_call8.v11 andi,
    TRef.nullary main_call8.c_3 (constantI S_ 1 1#1),
    TRef.binary main_call8.v11 main_call8.c_3 main_call8.v12 (fun x v => Host.reduce IntOp.andi x v reducesTo_S100000x1_S100000_d1 h_S_),
    TRef.binary (.of main_arg9 : TRef sig ⟨S2x64, .f32⟩) main_call8.v5 main_call8.v13 (fun x i => Host.gather gather_S2x64_S100000x1_S100000x64_1_0_n_n_0_1_164 x i),
    TRef.unary main_call8.v12 main_call8.v14 (broadcastInDim S100000x64 ![0] bcast_S100000_S100000x64_0),
    TRef.nullary main_call8.cst (constant S_ .f32 0x7FC00000#32),
    TRef.unary main_call8.cst main_call8.v15 (broadcastInDim S100000x64 ![] bcast_S_S100000x64),
    TRef.ternary main_call8.v14 main_call8.v13 main_call8.v15 main_call8.v16 select,
    binary main_v32 main_v35 main_v36 (addf : (⟨S100000x64, .f32⟩ : BufTy).Contents (Elt F) → (⟨S100000x64, .f32⟩ : BufTy).Contents (Elt F) → (⟨S100000x64, .f32⟩ : BufTy).Contents (Elt F)) ]

set_option maxRecDepth 16384 in
set_option maxHeartbeats 4000000 in
/-- @main is that straight line: the outlined functions unfolded at their calls, sequencing re-associated. -/
theorem main_eq (c : Dev nD) : main (F := F) c = seq ops := by
  simp only [main, fn_take.body, fn_take_0.body, fn_take_1.body, fn_take_2.body, fn_take_3.body, fn_take_4.body,
    fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig :=
  ⟨nullary_bufs_sub .., unary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., binary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., binary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., binary_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., binary_bufs_sub .., unary_bufs_sub .., reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..,
    unary_bufs_sub .., reshape_bufs_sub .., nullary_bufs_sub .., unary_bufs_sub .., binary_bufs_sub .., nullary_bufs_sub ..,
    unary_bufs_sub .., binary_bufs_sub .., ternary_bufs_sub .., unary_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., unary_bufs_sub .., nullary_bufs_sub .., unary_bufs_sub ..,
    ternary_bufs_sub .., binary_bufs_sub ..⟩

set_option maxRecDepth 16384 in
set_option maxHeartbeats 4000000 in
/-- From any memory with zero counters every weakly fair execution of @main terminates, and every final state
    has each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefOps

end
-- ==== Proof.RefRun.lean ====
/-
  The reference's run and its result.  The reference adds, feature column by feature column, a table lookup in
  fill mode: a negative index is wrapped by the table's length, an index outside the table selects the fill
  constant, any other reads its row.  `ROut` is the composed term of the 236 operations; `run` states that every
  execution ends with the result buffer at it and the arguments unchanged; `ROut_apply` reads it at an index on
  binary features, where every index is in range and the lookup reads row 0 or row 1.
-/
import proofs.«207339_g86234353369688_cont_sun_m_1071_33_alg».proof.Defs
import proofs.«207339_g86234353369688_cont_sun_m_1071_33_alg».proof.Proof.Gen.ReferenceIdeal
import proofs.«207339_g86234353369688_cont_sun_m_1071_33_alg».proof.Proof.Gen.Pre_input_domain
import proofs.«207339_g86234353369688_cont_sun_m_1071_33_alg».proof.Proof.Spec
import proofs.«207339_g86234353369688_cont_sun_m_1071_33_alg».proof.Proof.RefOps
import Idealize.ShloMosaic.Lib.StableHlo.Run
import Idealize.ShloMosaic.Lib.ValueIdx
import Idealize.ShloMosaic.Lib.Pipeline.Value
import Idealize.ShloMosaic.Lib.IdealHost

noncomputable section

namespace Cert.RefRun

open Cert.ReferenceIdeal Cert.ReferenceIdeal.Gen Idealize.ShloMosaic Idealize.ShloMosaic.TcCoe Idealize.SL.Sem
  Idealize.ShloMosaic.StableHlo Idealize.ShloMosaic.ValueIdx

section Terms

variable {F : FTy → Type} [FloatOps F]

/-- Column `K` of the features, as a vector. -/
def colOf (K : Nat) (h : S100000x9.Slices ![0, K] S100000x1) (x : S100000x9.Idx → BitVec 32) : IVec S100000 32 :=
  shapeCast S100000 (extractStridedSlice S100000x1 ![0, K] x h) shapeCasts_S100000x1_S100000

/-- The start indices of a lookup in a table of `N` rows: a negative index moved up by `N`, as a column. -/
def wrapIdx (N : BitVec 32) (col : IVec S100000 32) : IVec S100000x1 32 :=
  broadcastInDim S100000x1 ![0] bcast_S100000_S100000x1_0
    (select (cmpi .slt col (broadcastInDim S100000 ![] bcast_S_S100000 (constantI S_ 32 0#32)))
      (addi col (broadcastInDim S100000 ![] bcast_S_S100000 (constantI S_ 32 N))) col)

/-- Per node: is the start index within `[0, N1]`. -/
def inRange (N1 : BitVec 32) (v : IVec S100000x1 32) : IVec S100000 1 :=
  Host.reduce IntOp.andi
    (andi (cmpi .sge v (broadcastInDim S100000x1 ![] bcast_S_S100000x1 (constantI S_ 32 0#32)))
      (cmpi .sle v (broadcastInDim S100000x1 ![0, 1] bcast_S1x1_S100000x1_0_1
        (broadcastInDim S1x1 ![1] bcast_S1_S1x1_1 (constantI S1 32 N1)))))
    (constantI S_ 1 1#1) reducesTo_S100000x1_S100000_d1 h_S_

/-- One table lookup in fill mode: the rows the wrapped indices name where they are in range, the fill constant
    elsewhere. -/
def takeTerm {S : Shape} (g : GatherDims S S100000x1 S100000x64) (N N1 : BitVec 32) (W : S.Idx → F .f32)
    (col : IVec S100000 32) : S100000x64.Idx → F .f32 :=
  select (broadcastInDim S100000x64 ![0] bcast_S100000_S100000x64_0 (inRange N1 (wrapIdx N col)))
    (Host.gather g W (wrapIdx N col))
    (broadcastInDim S100000x64 ![] bcast_S_S100000x64 (constant (F := F) S_ .f32 0x7FC00000#32))

end Terms

/-- The reference's result: the nine lookups added to the zero array, table 0 first. -/
def ROut (x : Cert.Spec.SX.Idx → BitVec 32) (W0 : S119x64.Idx → EReal) (W1 : S5x64.Idx → EReal) (W2 : S12x64.Idx → EReal) (W3 : S12x64.Idx → EReal) (W4 : S10x64.Idx → EReal) (W5 : S6x64.Idx → EReal) (W6 : S6x64.Idx → EReal) (W7 : S2x64.Idx → EReal) (W8 : S2x64.Idx → EReal) : Cert.Spec.SO.Idx → EReal :=
  ((addf (addf (addf (addf (addf (addf (addf (addf (addf (broadcastInDim S100000x64 ![] bcast_S_S100000x64 (constant (F := Ideal) S_ .f32 0x00000000#32))
      (takeTerm gather_S119x64_S100000x1_S100000x64_1_0_n_n_0_1_164 119#32 118#32 W0 (colOf 0 slices_S100000x9_S100000x1_0_0 x)))
      (takeTerm gather_S5x64_S100000x1_S100000x64_1_0_n_n_0_1_164 5#32 4#32 W1 (colOf 1 slices_S100000x9_S100000x1_0_1 x)))
      (takeTerm gather_S12x64_S100000x1_S100000x64_1_0_n_n_0_1_164 12#32 11#32 W2 (colOf 2 slices_S100000x9_S100000x1_0_2 x)))
      (takeTerm gather_S12x64_S100000x1_S100000x64_1_0_n_n_0_1_164 12#32 11#32 W3 (colOf 3 slices_S100000x9_S100000x1_0_3 x)))
      (takeTerm gather_S10x64_S100000x1_S100000x64_1_0_n_n_0_1_164 10#32 9#32 W4 (colOf 4 slices_S100000x9_S100000x1_0_4 x)))
      (takeTerm gather_S6x64_S100000x1_S100000x64_1_0_n_n_0_1_164 6#32 5#32 W5 (colOf 5 slices_S100000x9_S100000x1_0_5 x)))
      (takeTerm gather_S6x64_S100000x1_S100000x64_1_0_n_n_0_1_164 6#32 5#32 W6 (colOf 6 slices_S100000x9_S100000x1_0_6 x)))
      (takeTerm gather_S2x64_S100000x1_S100000x64_1_0_n_n_0_1_164 2#32 1#32 W7 (colOf 7 slices_S100000x9_S100000x1_0_7 x)))
      (takeTerm gather_S2x64_S100000x1_S100000x64_1_0_n_n_0_1_164 2#32 1#32 W8 (colOf 8 slices_S100000x9_S100000x1_0_8 x))) : FVec Ideal S100000x64 .f32)

section Fold

attribute [local irreducible] Host.reduce Host.gather

set_option maxRecDepth 65536 in
set_option maxHeartbeats 8000000 in
/-- The fold of the operations at the result buffer is `ROut` of the arguments' contents. -/
theorem after_ops_out (V : Valuation τ sig (Elt Ideal)) :
    after (RefOps.ops (F := Ideal)) V (main_v36 : DevRef τ sig) = ROut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

variable {F : FTy → Type} [FloatOps F]

set_option maxRecDepth 16384 in
set_option maxHeartbeats 4000000 in
theorem after_ops_arg0 (V : Valuation τ sig (Elt F)) :
    after (RefOps.ops (F := F)) V (main_arg0 : DevRef τ sig) = V (main_arg0 : DevRef τ sig) := by
  after_results_simp

set_option maxRecDepth 16384 in
set_option maxHeartbeats 4000000 in
theorem after_ops_arg1 (V : Valuation τ sig (Elt F)) :
    after (RefOps.ops (F := F)) V (main_arg1 : DevRef τ sig) = V (main_arg1 : DevRef τ sig) := by
  after_results_simp

set_option maxRecDepth 16384 in
set_option maxHeartbeats 4000000 in
theorem after_ops_arg2 (V : Valuation τ sig (Elt F)) :
    after (RefOps.ops (F := F)) V (main_arg2 : DevRef τ sig) = V (main_arg2 : DevRef τ sig) := by
  after_results_simp

set_option maxRecDepth 16384 in
set_option maxHeartbeats 4000000 in
theorem after_ops_arg3 (V : Valuation τ sig (Elt F)) :
    after (RefOps.ops (F := F)) V (main_arg3 : DevRef τ sig) = V (main_arg3 : DevRef τ sig) := by
  after_results_simp

set_option maxRecDepth 16384 in
set_option maxHeartbeats 4000000 in
theorem after_ops_arg4 (V : Valuation τ sig (Elt F)) :
    after (RefOps.ops (F := F)) V (main_arg4 : DevRef τ sig) = V (main_arg4 : DevRef τ sig) := by
  after_results_simp

set_option maxRecDepth 16384 in
set_option maxHeartbeats 4000000 in
theorem after_ops_arg5 (V : Valuation τ sig (Elt F)) :
    after (RefOps.ops (F := F)) V (main_arg5 : DevRef τ sig) = V (main_arg5 : DevRef τ sig) := by
  after_results_simp

set_option maxRecDepth 16384 in
set_option maxHeartbeats 4000000 in
theorem after_ops_arg6 (V : Valuation τ sig (Elt F)) :
    after (RefOps.ops (F := F)) V (main_arg6 : DevRef τ sig) = V (main_arg6 : DevRef τ sig) := by
  after_results_simp

set_option maxRecDepth 16384 in
set_option maxHeartbeats 4000000 in
theorem after_ops_arg7 (V : Valuation τ sig (Elt F)) :
    after (RefOps.ops (F := F)) V (main_arg7 : DevRef τ sig) = V (main_arg7 : DevRef τ sig) := by
  after_results_simp

set_option maxRecDepth 16384 in
set_option maxHeartbeats 4000000 in
theorem after_ops_arg8 (V : Valuation τ sig (Elt F)) :
    after (RefOps.ops (F := F)) V (main_arg8 : DevRef τ sig) = V (main_arg8 : DevRef τ sig) := by
  after_results_simp

set_option maxRecDepth 16384 in
set_option maxHeartbeats 4000000 in
theorem after_ops_arg9 (V : Valuation τ sig (Elt F)) :
    after (RefOps.ops (F := F)) V (main_arg9 : DevRef τ sig) = V (main_arg9 : DevRef τ sig) := by
  after_results_simp

end Fold

/-- From any memory with zero counters every weakly fair execution of the reference terminates with its result at
    `ROut` of the arguments and the arguments unchanged. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v36)
        = ROut (m' ((c.tc : Thread nD τ).loc main_arg0))
          (m' ((c.tc : Thread nD τ).loc main_arg1))
          (m' ((c.tc : Thread nD τ).loc main_arg2))
          (m' ((c.tc : Thread nD τ).loc main_arg3))
          (m' ((c.tc : Thread nD τ).loc main_arg4))
          (m' ((c.tc : Thread nD τ).loc main_arg5))
          (m' ((c.tc : Thread nD τ).loc main_arg6))
          (m' ((c.tc : Thread nD τ).loc main_arg7))
          (m' ((c.tc : Thread nD τ).loc main_arg8))
          (m' ((c.tc : Thread nD τ).loc main_arg9))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)) :=
  (θ_run defs _ _).mono (fun _ h c => ⟨(h c main_v36).trans (after_ops_out _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _),
      (h c main_arg7).trans (after_ops_arg7 _),
      (h c main_arg8).trans (after_ops_arg8 _),
      (h c main_arg9).trans (after_ops_arg9 _)⟩)
    (RefOps.run_all m' ρ')

/-- The reference runs and leaves its arguments unchanged. -/
theorem frame : Cert.frame_ReferenceIdeal (hReferenceIdeal := Cert.ReferenceIdeal.Gen.facts)
    (hPre_input_domain := Cert.Pre_input_domain.Gen.facts) :=
  fun m g _ => (θ_run _ _ _).mono (fun _ h c => (h c).2) (run m g)

end Cert.RefRun

end
-- ==== Proof.RefRead.lean ====
/-
  The reference's result read at an index, on binary features: every index is 0 or 1, so no index is wrapped, the
  range mask is true at every node, the lookup reads row 0 or row 1, and the fill constant is never selected.
-/
import proofs.«207339_g86234353369688_cont_sun_m_1071_33_alg».proof.Proof.RefRun

noncomputable section

namespace Cert.RefRun

open Cert.ReferenceIdeal Cert.ReferenceIdeal.Gen Idealize.ShloMosaic Idealize.ShloMosaic.ValueIdx

/-- A reduction by `and` of one-bit words that are all 1, from the initial value 1, is 1. -/
theorem reduce_andi_eq_one_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  unfold Host.reduce
  rw [hinit]
  generalize ((List.finRange s.numel).filter fun n => h.drop (s.rowMajor.symm n) = j) = l
  induction l with
  | nil => rfl
  | cons a l ih =>
    rw [List.foldl_cons, hx]
    exact ih

/-- The dimension numbers of a row lookup: operand `[R, 64]`, start indices `[100000, 1]`, result `[100000, 64]`. -/
abbrev rowDims (R : Nat) (wf : GatherDims.WF ⟨2, ![R, 64]⟩ S100000x1 S100000x64 [1] [0] [] [0] [] 1 ![1, 64]) :
    GatherDims ⟨2, ![R, 64]⟩ S100000x1 S100000x64 where
  offsetDims := [1]
  collapsedSliceDims := [0]
  operandBatchingDims := []
  startIndicesBatchingDims := []
  startIndexMap := [0]
  indexVectorDim := 1
  sliceSizes := ![1, 64]
  wf := wf

theorem rowDims_operand0 {R w : Nat}
    (wf : GatherDims.WF ⟨2, ![R, 64]⟩ S100000x1 S100000x64 [1] [0] [] [0] [] 1 ![1, 64])
    (idx : IVec S100000x1 w) (n : Fin 100000) (e : Fin 64) :
    (rowDims R wf).start (ix2 n e) idx (0 : Fin 2) + (rowDims R wf).batchCoord (ix2 n e) (0 : Fin 2)
        + (rowDims R wf).offCoord (ix2 n e) (0 : Fin 2)
      = min (idx (ix2 n (0 : Fin 1))).toInt.toNat (R - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims R wf).startIndexMap from List.mem_singleton.mpr rfl)]
  have hsi : (rowDims R wf).siIdx (ix2 n e) ⟨List.idxOf (0 : Fin 2) (rowDims R wf).startIndexMap,
      List.idxOf_lt_length_iff.2 (List.mem_singleton.mpr rfl)⟩ = ix2 n (0 : Fin 1) := by
    funext b; refine Fin.ext ?_
    match b with
    | ⟨0, _⟩ => rfl
    | ⟨1, _⟩ => rfl
  rw [hsi]
  rfl

theorem rowDims_operand1 {R w : Nat}
    (wf : GatherDims.WF ⟨2, ![R, 64]⟩ S100000x1 S100000x64 [1] [0] [] [0] [] 1 ![1, 64])
    (idx : IVec S100000x1 w) (n : Fin 100000) (e : Fin 64) :
    (rowDims R wf).start (ix2 n e) idx (1 : Fin 2) + (rowDims R wf).batchCoord (ix2 n e) (1 : Fin 2)
        + (rowDims R wf).offCoord (ix2 n e) (1 : Fin 2)
      = e.val := by
  rw [GatherDims.batchCoord_eq_zero _ _ _ List.not_mem_nil]
  unfold GatherDims.start GatherDims.offCoord
  have h1 : (1 : Fin 2) ∉ (rowDims R wf).startIndexMap := fun h =>
    Nat.one_ne_zero (congrArg Fin.val (List.mem_singleton.mp h))
  have h2 : (1 : Fin 2) ∈ (rowDims R wf).sKept :=
    (GatherDims.mem_sKept _ _).mpr ⟨fun h => Nat.one_ne_zero (congrArg Fin.val (List.mem_singleton.mp h)), List.not_mem_nil⟩
  rw [dif_neg h1, dif_pos h2]
  simp only [Nat.add_zero, Nat.zero_add]
  rfl

/-- The row lookup read at `(n, e)`: lane `e` of the row the start index `idx[n, 0]` names, read signed and clamped
    into `[0, R − 1]`. -/
theorem gather_rows_apply {α : Type} {R w : Nat} (hR : 0 < R)
    (wf : GatherDims.WF ⟨2, ![R, 64]⟩ S100000x1 S100000x64 [1] [0] [] [0] [] 1 ![1, 64])
    (x : (⟨2, ![R, 64]⟩ : Shape).Idx → α) (idx : IVec S100000x1 w) (n : Fin 100000) (e : Fin 64) :
    Host.gather (rowDims R wf) x idx (ix2 n e)
      = x (ix2 ⟨min (idx (ix2 n (0 : Fin 1))).toInt.toNat (R - 1), by omega⟩ e) := by
  unfold Host.gather
  congr 1
  funext a
  refine Fin.ext ?_
  show (rowDims R wf).start (ix2 n e) idx a + (rowDims R wf).batchCoord (ix2 n e) a + (rowDims R wf).offCoord (ix2 n e) a = _
  match a with
  | ⟨0, _⟩ => exact rowDims_operand0 wf idx n e
  | ⟨1, _⟩ => exact rowDims_operand1 wf idx n e

/-- A feature column read at a node. -/
theorem colOf_apply (K : Fin 9) (h : S100000x9.Slices ![0, K.val] S100000x1) (x : S100000x9.Idx → BitVec 32)
    (n : Fin 100000) : colOf K.val h x (ix1 n) = x (ix2 n K) := by
  unfold colOf
  refine (shapeCast_apply _ _ (ix1 n) (ix2 n (0 : Fin 1)) ?_).trans ?_
  · rw [Shape.rowMajor_val_two, Shape.rowMajor_val_one]
    show n.val * 1 + 0 = n.val
    omega
  · exact extractStridedSlice_apply _ x h (ix2 n (0 : Fin 1)) (ix2 n K)
      (fun a => match a with | ⟨0, _⟩ => (Nat.zero_add _).symm | ⟨1, _⟩ => rfl)

/-- The row a word that is 0 or 1 names, read signed and clamped, is the row `pick` reads. -/
theorem row_of_bit {R : Nat} (W : (⟨2, ![R + 2, 64]⟩ : Shape).Idx → EReal) (b : BitVec 32) (hb : b = 0#32 ∨ b = 1#32)
    (e : Fin 64) (pf : min b.toInt.toNat (R + 2 - 1) < R + 2) :
    W (ix2 ⟨min b.toInt.toNat (R + 2 - 1), pf⟩ e) = Cert.Spec.pick W b e := by
  have z0 : (0#32 : BitVec 32).toInt.toNat = 0 := by decide
  have z1 : (1#32 : BitVec 32).toInt.toNat = 1 := by decide
  rcases hb with rfl | rfl
  · unfold Cert.Spec.pick
    rw [if_neg (by decide)]
    exact congrArg (fun r => W (ix2 r e)) (Fin.ext (by show min (0#32 : BitVec 32).toInt.toNat (R + 2 - 1) = 0; rw [z0]; omega))
  · unfold Cert.Spec.pick
    rw [if_pos rfl]
    exact congrArg (fun r => W (ix2 r e)) (Fin.ext (by show min (1#32 : BitVec 32).toInt.toNat (R + 2 - 1) = 1; rw [z1]; omega))

/-- One lookup read at `(n, e)` on a binary column: row `col[n]` of the table at lane `e`. -/
theorem takeTerm_apply {R : Nat} (wf : GatherDims.WF ⟨2, ![R + 2, 64]⟩ S100000x1 S100000x64 [1] [0] [] [0] [] 1 ![1, 64])
    (N N1 : BitVec 32) (h0 : IntOp.cmpi .sle 0#32 N1 = 1#1) (h1 : IntOp.cmpi .sle 1#32 N1 = 1#1)
    (W : (⟨2, ![R + 2, 64]⟩ : Shape).Idx → EReal) (col : IVec S100000 32)
    (hcol : ∀ n : Fin 100000, col (ix1 n) = 0#32 ∨ col (ix1 n) = 1#32) (n : Fin 100000) (e : Fin 64) :
    takeTerm (F := Ideal) (rowDims (R + 2) wf) N N1 W col (ix2 n e) = Cert.Spec.pick W (col (ix1 n)) e := by
  have c00 : IntOp.cmpi .slt 0#32 0#32 = 0#1 := by decide
  have c10 : IntOp.cmpi .slt 1#32 0#32 = 0#1 := by decide
  have g00 : IntOp.cmpi .sge 0#32 0#32 = 1#1 := by decide
  have g10 : IntOp.cmpi .sge 1#32 0#32 = 1#1 := by decide
  have a11 : IntOp.andi 1#1 1#1 = 1#1 := by decide
  -- no index is negative: the wrapped index is the column's entry
  have hw : ∀ (k : Fin 100000) (z : Fin 1), wrapIdx N col (ix2 k z) = col (ix1 k) := by
    intro k z
    unfold wrapIdx
    rw [broadcastInDim_apply (s := S100000) (t := S100000x1) ![0] bcast_S100000_S100000x1_0 _ (ix2 k z) (ix1 k)
      (fun a => match a with | ⟨0, _⟩ => rfl), select_apply]
    show Scalar.select (IntOp.cmpi .slt (col (ix1 k)) 0#32) (IntOp.addi (col (ix1 k)) N) (col (ix1 k)) = _
    rcases hcol k with h | h
    · rw [h, c00, select_zero]
    · rw [h, c10, select_zero]
  -- every index is within the table
  have hm : ∀ i : S100000x1.Idx,
      (andi (cmpi .sge (wrapIdx N col) (broadcastInDim S100000x1 ![] bcast_S_S100000x1 (constantI S_ 32 0#32)))
        (cmpi .sle (wrapIdx N col) (broadcastInDim S100000x1 ![0, 1] bcast_S1x1_S100000x1_0_1
          (broadcastInDim S1x1 ![1] bcast_S1_S1x1_1 (constantI S1 32 N1))))) i = 1#1 := by
    intro i
    obtain ⟨k, z, rfl⟩ : ∃ (k : Fin 100000) (z : Fin 1), i = ix2 k z := ⟨i 0, i 1, eq_ix2 i⟩
    show IntOp.andi (IntOp.cmpi .sge (wrapIdx N col (ix2 k z)) 0#32) (IntOp.cmpi .sle (wrapIdx N col (ix2 k z)) N1) = 1#1
    rw [hw k z]
    rcases hcol k with h | h
    · rw [h, g00, h0, a11]
    · rw [h, g10, h1, a11]
  have hmask : broadcastInDim S100000x64 ![0] bcast_S100000_S100000x64_0 (inRange N1 (wrapIdx N col)) (ix2 n e) = 1#1 := by
    rw [broadcastInDim_apply (s := S100000) (t := S100000x64) ![0] bcast_S100000_S100000x64_0 _ (ix2 n e) (ix1 n)
      (fun a => match a with | ⟨0, _⟩ => rfl)]
    exact reduce_andi_eq_one_of_all _ _ _ _ rfl hm (ix1 n)
  have hw' : wrapIdx N col (ix2 n (0 : Fin 1)) = col (ix1 n) := hw n 0
  unfold takeTerm
  rw [select_apply, hmask, select_one]
  refine (gather_rows_apply (Nat.succ_pos _) wf W (wrapIdx N col) n e).trans ?_
  refine (row_of_bit W _ (by rw [hw']; exact hcol n) e _).trans ?_
  rw [hw']

/-- THE REFERENCE'S RESULT AT AN INDEX, on binary features: the nine picked rows added to zero, table 0 first. -/
theorem ROut_apply (x : Cert.Spec.SX.Idx → BitVec 32) (W0 : S119x64.Idx → EReal) (W1 : S5x64.Idx → EReal) (W2 : S12x64.Idx → EReal) (W3 : S12x64.Idx → EReal) (W4 : S10x64.Idx → EReal) (W5 : S6x64.Idx → EReal) (W6 : S6x64.Idx → EReal) (W7 : S2x64.Idx → EReal) (W8 : S2x64.Idx → EReal)
    (hx : ∀ (n : Fin 100000) (i : Fin 9), x (ix2 n i) = 0#32 ∨ x (ix2 n i) = 1#32) (j : Cert.Spec.SO.Idx) :
    ROut x W0 W1 W2 W3 W4 W5 W6 W7 W8 j = Cert.Spec.refSum x W0 W1 W2 W3 W4 W5 W6 W7 W8 j := by
  obtain ⟨n, e, rfl⟩ : ∃ (n : Fin 100000) (e : Fin 64), j = ix2 n e := ⟨j 0, j 1, eq_ix2 j⟩
  have c0 : ∀ k : Fin 100000, colOf 0 slices_S100000x9_S100000x1_0_0 x (ix1 k) = x (ix2 k 0) :=
    fun k => colOf_apply (0 : Fin 9) slices_S100000x9_S100000x1_0_0 x k
  have t0 : takeTerm (F := Ideal) gather_S119x64_S100000x1_S100000x64_1_0_n_n_0_1_164 119#32 118#32 W0
        (colOf 0 slices_S100000x9_S100000x1_0_0 x) (ix2 n e)
      = Cert.Spec.pick (r := 117) W0 (x (ix2 n 0)) e :=
    (takeTerm_apply (R := 117) gather_S119x64_S100000x1_S100000x64_1_0_n_n_0_1_164_wf 119#32 118#32 (by decide) (by decide) W0
      (colOf 0 slices_S100000x9_S100000x1_0_0 x)
      (fun k => by rw [c0 k]; exact hx k 0) n e).trans
      (by rw [c0 n])
  have c1 : ∀ k : Fin 100000, colOf 1 slices_S100000x9_S100000x1_0_1 x (ix1 k) = x (ix2 k 1) :=
    fun k => colOf_apply (1 : Fin 9) slices_S100000x9_S100000x1_0_1 x k
  have t1 : takeTerm (F := Ideal) gather_S5x64_S100000x1_S100000x64_1_0_n_n_0_1_164 5#32 4#32 W1
        (colOf 1 slices_S100000x9_S100000x1_0_1 x) (ix2 n e)
      = Cert.Spec.pick (r := 3) W1 (x (ix2 n 1)) e :=
    (takeTerm_apply (R := 3) gather_S5x64_S100000x1_S100000x64_1_0_n_n_0_1_164_wf 5#32 4#32 (by decide) (by decide) W1
      (colOf 1 slices_S100000x9_S100000x1_0_1 x)
      (fun k => by rw [c1 k]; exact hx k 1) n e).trans
      (by rw [c1 n])
  have c2 : ∀ k : Fin 100000, colOf 2 slices_S100000x9_S100000x1_0_2 x (ix1 k) = x (ix2 k 2) :=
    fun k => colOf_apply (2 : Fin 9) slices_S100000x9_S100000x1_0_2 x k
  have t2 : takeTerm (F := Ideal) gather_S12x64_S100000x1_S100000x64_1_0_n_n_0_1_164 12#32 11#32 W2
        (colOf 2 slices_S100000x9_S100000x1_0_2 x) (ix2 n e)
      = Cert.Spec.pick (r := 10) W2 (x (ix2 n 2)) e :=
    (takeTerm_apply (R := 10) gather_S12x64_S100000x1_S100000x64_1_0_n_n_0_1_164_wf 12#32 11#32 (by decide) (by decide) W2
      (colOf 2 slices_S100000x9_S100000x1_0_2 x)
      (fun k => by rw [c2 k]; exact hx k 2) n e).trans
      (by rw [c2 n])
  have c3 : ∀ k : Fin 100000, colOf 3 slices_S100000x9_S100000x1_0_3 x (ix1 k) = x (ix2 k 3) :=
    fun k => colOf_apply (3 : Fin 9) slices_S100000x9_S100000x1_0_3 x k
  have t3 : takeTerm (F := Ideal) gather_S12x64_S100000x1_S100000x64_1_0_n_n_0_1_164 12#32 11#32 W3
        (colOf 3 slices_S100000x9_S100000x1_0_3 x) (ix2 n e)
      = Cert.Spec.pick (r := 10) W3 (x (ix2 n 3)) e :=
    (takeTerm_apply (R := 10) gather_S12x64_S100000x1_S100000x64_1_0_n_n_0_1_164_wf 12#32 11#32 (by decide) (by decide) W3
      (colOf 3 slices_S100000x9_S100000x1_0_3 x)
      (fun k => by rw [c3 k]; exact hx k 3) n e).trans
      (by rw [c3 n])
  have c4 : ∀ k : Fin 100000, colOf 4 slices_S100000x9_S100000x1_0_4 x (ix1 k) = x (ix2 k 4) :=
    fun k => colOf_apply (4 : Fin 9) slices_S100000x9_S100000x1_0_4 x k
  have t4 : takeTerm (F := Ideal) gather_S10x64_S100000x1_S100000x64_1_0_n_n_0_1_164 10#32 9#32 W4
        (colOf 4 slices_S100000x9_S100000x1_0_4 x) (ix2 n e)
      = Cert.Spec.pick (r := 8) W4 (x (ix2 n 4)) e :=
    (takeTerm_apply (R := 8) gather_S10x64_S100000x1_S100000x64_1_0_n_n_0_1_164_wf 10#32 9#32 (by decide) (by decide) W4
      (colOf 4 slices_S100000x9_S100000x1_0_4 x)
      (fun k => by rw [c4 k]; exact hx k 4) n e).trans
      (by rw [c4 n])
  have c5 : ∀ k : Fin 100000, colOf 5 slices_S100000x9_S100000x1_0_5 x (ix1 k) = x (ix2 k 5) :=
    fun k => colOf_apply (5 : Fin 9) slices_S100000x9_S100000x1_0_5 x k
  have t5 : takeTerm (F := Ideal) gather_S6x64_S100000x1_S100000x64_1_0_n_n_0_1_164 6#32 5#32 W5
        (colOf 5 slices_S100000x9_S100000x1_0_5 x) (ix2 n e)
      = Cert.Spec.pick (r := 4) W5 (x (ix2 n 5)) e :=
    (takeTerm_apply (R := 4) gather_S6x64_S100000x1_S100000x64_1_0_n_n_0_1_164_wf 6#32 5#32 (by decide) (by decide) W5
      (colOf 5 slices_S100000x9_S100000x1_0_5 x)
      (fun k => by rw [c5 k]; exact hx k 5) n e).trans
      (by rw [c5 n])
  have c6 : ∀ k : Fin 100000, colOf 6 slices_S100000x9_S100000x1_0_6 x (ix1 k) = x (ix2 k 6) :=
    fun k => colOf_apply (6 : Fin 9) slices_S100000x9_S100000x1_0_6 x k
  have t6 : takeTerm (F := Ideal) gather_S6x64_S100000x1_S100000x64_1_0_n_n_0_1_164 6#32 5#32 W6
        (colOf 6 slices_S100000x9_S100000x1_0_6 x) (ix2 n e)
      = Cert.Spec.pick (r := 4) W6 (x (ix2 n 6)) e :=
    (takeTerm_apply (R := 4) gather_S6x64_S100000x1_S100000x64_1_0_n_n_0_1_164_wf 6#32 5#32 (by decide) (by decide) W6
      (colOf 6 slices_S100000x9_S100000x1_0_6 x)
      (fun k => by rw [c6 k]; exact hx k 6) n e).trans
      (by rw [c6 n])
  have c7 : ∀ k : Fin 100000, colOf 7 slices_S100000x9_S100000x1_0_7 x (ix1 k) = x (ix2 k 7) :=
    fun k => colOf_apply (7 : Fin 9) slices_S100000x9_S100000x1_0_7 x k
  have t7 : takeTerm (F := Ideal) gather_S2x64_S100000x1_S100000x64_1_0_n_n_0_1_164 2#32 1#32 W7
        (colOf 7 slices_S100000x9_S100000x1_0_7 x) (ix2 n e)
      = Cert.Spec.pick (r := 0) W7 (x (ix2 n 7)) e :=
    (takeTerm_apply (R := 0) gather_S2x64_S100000x1_S100000x64_1_0_n_n_0_1_164_wf 2#32 1#32 (by decide) (by decide) W7
      (colOf 7 slices_S100000x9_S100000x1_0_7 x)
      (fun k => by rw [c7 k]; exact hx k 7) n e).trans
      (by rw [c7 n])
  have c8 : ∀ k : Fin 100000, colOf 8 slices_S100000x9_S100000x1_0_8 x (ix1 k) = x (ix2 k 8) :=
    fun k => colOf_apply (8 : Fin 9) slices_S100000x9_S100000x1_0_8 x k
  have t8 : takeTerm (F := Ideal) gather_S2x64_S100000x1_S100000x64_1_0_n_n_0_1_164 2#32 1#32 W8
        (colOf 8 slices_S100000x9_S100000x1_0_8 x) (ix2 n e)
      = Cert.Spec.pick (r := 0) W8 (x (ix2 n 8)) e :=
    (takeTerm_apply (R := 0) gather_S2x64_S100000x1_S100000x64_1_0_n_n_0_1_164_wf 2#32 1#32 (by decide) (by decide) W8
      (colOf 8 slices_S100000x9_S100000x1_0_8 x)
      (fun k => by rw [c8 k]; exact hx k 8) n e).trans
      (by rw [c8 n])
  have base : broadcastInDim S100000x64 ![] bcast_S_S100000x64 (constant (F := Ideal) S_ .f32 0x00000000#32) (ix2 n e)
      = (0 : EReal) := by
    rw [broadcastInDim_scalar_apply, constant_apply]
    exact Ideal.ofBits_zero_f32
  have hsum : ROut x W0 W1 W2 W3 W4 W5 W6 W7 W8 (ix2 n e)
      = ((((((((((0 : EReal) + Cert.Spec.pick (r := 117) W0 (x (ix2 n 0)) e) + Cert.Spec.pick (r := 3) W1 (x (ix2 n 1)) e) + Cert.Spec.pick (r := 10) W2 (x (ix2 n 2)) e) + Cert.Spec.pick (r := 10) W3 (x (ix2 n 3)) e) + Cert.Spec.pick (r := 8) W4 (x (ix2 n 4)) e) + Cert.Spec.pick (r := 4) W5 (x (ix2 n 5)) e) + Cert.Spec.pick (r := 4) W6 (x (ix2 n 6)) e) + Cert.Spec.pick (r := 0) W7 (x (ix2 n 7)) e) + Cert.Spec.pick (r := 0) W8 (x (ix2 n 8)) e) := by
    unfold ROut
    simp only [addf_apply]
    rw [base, t0, t1, t2, t3, t4, t5, t6, t7, t8]
  exact hsum.trans rfl

end Cert.RefRun

end
-- ==== Proof.lean ====
/-
  The certificate's claim.  Both programs compute, per node, a sum of nine embedding rows picked by nine binary
  features.  The reference adds the picked rows one after another.  The kernel packs a node's nine bits into one
  word, builds the table of all 512 possible sums — the nine rows 0, plus for every set bit the difference of
  that feature's row 1 and row 0 — and answers the row the packed word names.  Under the precondition (every
  feature is 0 or 1, every table entry a real number) the two agree as extended reals: the differences cancel
  exactly.  The frames are the two runs with the result dropped.
-/
import proofs.«207339_g86234353369688_cont_sun_m_1071_33_alg».proof.Defs
import proofs.«207339_g86234353369688_cont_sun_m_1071_33_alg».proof.Proof.Gen.Kernel
import proofs.«207339_g86234353369688_cont_sun_m_1071_33_alg».proof.Proof.Gen.Kernel.Skeleton
import proofs.«207339_g86234353369688_cont_sun_m_1071_33_alg».proof.Proof.Gen.KernelIdeal
import proofs.«207339_g86234353369688_cont_sun_m_1071_33_alg».proof.Proof.Gen.KernelIdeal.Skeleton
import proofs.«207339_g86234353369688_cont_sun_m_1071_33_alg».proof.Proof.Gen.ReferenceIdeal
import proofs.«207339_g86234353369688_cont_sun_m_1071_33_alg».proof.Proof.Gen.Pre_input_domain
import proofs.«207339_g86234353369688_cont_sun_m_1071_33_alg».proof.Proof.AlgebraIdeal
import proofs.«207339_g86234353369688_cont_sun_m_1071_33_alg».proof.Proof.HostKVal
import proofs.«207339_g86234353369688_cont_sun_m_1071_33_alg».proof.Proof.HostKValB
import proofs.«207339_g86234353369688_cont_sun_m_1071_33_alg».proof.Proof.HostKIdeal
import proofs.«207339_g86234353369688_cont_sun_m_1071_33_alg».proof.Proof.KLaunch
import proofs.«207339_g86234353369688_cont_sun_m_1071_33_alg».proof.Proof.KLaunchB
import proofs.«207339_g86234353369688_cont_sun_m_1071_33_alg».proof.Proof.KTile
import proofs.«207339_g86234353369688_cont_sun_m_1071_33_alg».proof.Proof.KTileB
import proofs.«207339_g86234353369688_cont_sun_m_1071_33_alg».proof.Proof.RefRead
import Idealize.ShloMosaic.Adequacy
import Idealize.ShloMosaic.Init

noncomputable section

namespace Cert.Proof

open Idealize.ShloMosaic Idealize.SL.Sem Idealize.ShloMosaic.ValueIdx

/-- Under the precondition every packed word names a row of the 512-row table. -/
theorem packed_lt_Bits (m : (ℓ : Loc Cert.Kernel.nD Cert.Kernel.τ Cert.Kernel.sig) → Buf (Elt Bits) ℓ)
    (hpre : Cert.Pre_Kernel (hPre_input_domain := Cert.Pre_input_domain.Gen.facts) m) :
    ∀ (c : Dev Cert.Kernel.nD) (n : Cert.Kernel.S100000.Idx),
      (Cert.Kernel.HostK.xpOf (m ((SparseCore.T c).loc Cert.Kernel.main_arg0)) n).toNat < 512 := by
  intro c n
  rw [eq_ix1 n]
  exact (Cert.Kernel.HostK.xpOf_bits _
    (Cert.Kernel.HostK.pre_bits (F := Bits) (m ((c.tc : Thread Cert.Kernel.nD Cert.Kernel.τ).loc Cert.Kernel.main_arg0))
      (m ((c.tc : Thread Cert.Kernel.nD Cert.Kernel.τ).loc Cert.Kernel.main_arg1))
      (m ((c.tc : Thread Cert.Kernel.nD Cert.Kernel.τ).loc Cert.Kernel.main_arg2))
      (m ((c.tc : Thread Cert.Kernel.nD Cert.Kernel.τ).loc Cert.Kernel.main_arg3))
      (m ((c.tc : Thread Cert.Kernel.nD Cert.Kernel.τ).loc Cert.Kernel.main_arg4))
      (m ((c.tc : Thread Cert.Kernel.nD Cert.Kernel.τ).loc Cert.Kernel.main_arg5))
      (m ((c.tc : Thread Cert.Kernel.nD Cert.Kernel.τ).loc Cert.Kernel.main_arg6))
      (m ((c.tc : Thread Cert.Kernel.nD Cert.Kernel.τ).loc Cert.Kernel.main_arg7))
      (m ((c.tc : Thread Cert.Kernel.nD Cert.Kernel.τ).loc Cert.Kernel.main_arg8))
      (m ((c.tc : Thread Cert.Kernel.nD Cert.Kernel.τ).loc Cert.Kernel.main_arg9))
      (hpre c)) (n 0)).1

/-- Under the precondition every packed word names a row of the 512-row table. -/
theorem packed_lt_Ideal (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) :
    ∀ (c : Dev Cert.KernelIdeal.nD) (n : Cert.KernelIdeal.S100000.Idx),
      (Cert.KernelIdeal.HostK.xpOf (m ((SparseCore.T c).loc Cert.KernelIdeal.main_arg0)) n).toNat < 512 := by
  intro c n
  rw [eq_ix1 n]
  exact (Cert.KernelIdeal.HostK.xpOf_bits _
    (Cert.KernelIdeal.HostK.pre_bits (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (hpre c)) (n 0)).1

/-- The kernel program runs and leaves its arguments unchanged. -/
theorem frame_Kernel : Cert.frame_Kernel (hKernel := Cert.Kernel.Gen.facts)
    (hPre_input_domain := Cert.Pre_input_domain.Gen.facts) :=
  fun m g hpre => (θ_run _ _ _).mono (fun _ h c => (h c).2)
    (Cert.Kernel.KL.run_main (F := Bits) Cert.Kernel.KT.tileSpec m g (packed_lt_Bits m hpre))

/-- The same at the extended reals. -/
theorem frame_KernelIdeal : Cert.frame_KernelIdeal (hKernelIdeal := Cert.KernelIdeal.Gen.facts)
    (hPre_input_domain := Cert.Pre_input_domain.Gen.facts) :=
  fun m g hpre => (θ_run _ _ _).mono (fun _ h c => (h c).2)
    (Cert.KernelIdeal.KL.run_main (F := Ideal) Cert.KernelIdeal.KT.tileSpec m g (packed_lt_Ideal m hpre))

/-- Under the precondition the kernel's value is the reference's: the row of the table the packed word names is the
    sum of the nine picked rows. -/
theorem kernel_value_eq_reference (m : (ℓ : Loc Cert.KernelIdeal.nD Cert.KernelIdeal.τ Cert.KernelIdeal.sig) → Buf (Elt Ideal) ℓ)
    (hpre : Cert.Pre_KernelIdeal (hPre_input_domain := Cert.Pre_input_domain.Gen.facts) m) (c : Dev Cert.KernelIdeal.nD) :
    Cert.RefRun.ROut (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
      = Cert.Spec.kerOut (F := Ideal) (Cert.KernelIdeal.HostK.wsmOf (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)))
          (Cert.KernelIdeal.HostK.xpOf (m ((c.tc : Thread Cert.KernelIdeal.nD Cert.KernelIdeal.τ).loc Cert.KernelIdeal.main_arg0))) := by
  have hb := Cert.KernelIdeal.HostK.pre_bits (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9)) (hpre c)
  have hf := Cert.KernelIdeal.HostK.pre_finite (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9)) (hpre c)
  rw [Cert.Algebra.kerOut_eq_refSum (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (Cert.KernelIdeal.HostK.wsmOf (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)))
    (Cert.KernelIdeal.HostK.xpOf (m ((c.tc : Thread Cert.KernelIdeal.nD Cert.KernelIdeal.τ).loc Cert.KernelIdeal.main_arg0)))
    (Cert.KernelIdeal.HostK.wsmOf_apply0 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (Cert.KernelIdeal.HostK.wsmOf_apply1 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (Cert.KernelIdeal.HostK.wsmOf_apply2 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (Cert.KernelIdeal.HostK.wsmOf_apply3 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (Cert.KernelIdeal.HostK.wsmOf_apply4 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (Cert.KernelIdeal.HostK.wsmOf_apply5 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (Cert.KernelIdeal.HostK.wsmOf_apply6 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (Cert.KernelIdeal.HostK.wsmOf_apply7 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (Cert.KernelIdeal.HostK.wsmOf_apply8 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (fun n i => (Cert.KernelIdeal.HostK.xpOf_bits _ hb n).2 i)
    (Cert.KernelIdeal.HostK.wsmOf_finite (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) hf)]
  funext j
  exact Cert.RefRun.ROut_apply (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9)) hb j

/-- At the extended reals, from memories agreeing on the arguments, both programs run and end with equal results and
    unchanged arguments. -/
theorem algebraic : Cert.algebraic_KernelIdeal_ReferenceIdeal (hKernelIdeal := Cert.KernelIdeal.Gen.facts)
    (hReferenceIdeal := Cert.ReferenceIdeal.Gen.facts) (hPre_input_domain := Cert.Pre_input_domain.Gen.facts) := by
  intro m g m' g' hpre hagree
  refine ⟨fun c => Cert.Spec.kerOut (F := Ideal) (Cert.KernelIdeal.HostK.wsmOf (F := Ideal) (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)))
      (Cert.KernelIdeal.HostK.xpOf (m ((c.tc : Thread Cert.KernelIdeal.nD Cert.KernelIdeal.τ).loc Cert.KernelIdeal.main_arg0))),
    Cert.KernelIdeal.KL.run_main (F := Ideal) Cert.KernelIdeal.KT.tileSpec m g (packed_lt_Ideal m hpre), ?_⟩
  refine (θ_run _ _ _).mono (fun r h c => ⟨(h c).1.trans ?_, (h c).2⟩) (Cert.RefRun.run m' g')
  obtain ⟨e0, e1, e2, e3, e4, e5, e6, e7, e8, e9⟩ := hagree c
  rw [e0, e1, e2, e3, e4, e5, e6, e7, e8, e9]
  exact kernel_value_eq_reference m hpre c

/-- The certificate's claim: the three frames, the idealization (nothing was rewritten), and the equality of the two
    results at the extended reals. -/
theorem claim : Cert.Claim :=
  ⟨Cert.Kernel.Gen.facts, Cert.KernelIdeal.Gen.facts, Cert.ReferenceIdeal.Gen.facts, Cert.Pre_input_domain.Gen.facts,
    frame_Kernel, frame_KernelIdeal, Cert.RefRun.frame, trivial, algebraic⟩

end Cert.Proof

end
